-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S1000000x32 : Shape := ⟨2, ![1000000, 32]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S16384x26 : S_.BroadcastsInDim S16384x26 (![] : Fin 0 → Fin S16384x26.rank)
  reducesTo_S16384x26_S_d0_1 : S16384x26.ReducesTo [0, 1] S_

variable [Facts]

def fn {F : FTy → Type} [FloatOps F] (main_arg0 : IVec S16384x26 32) (main_arg1 : FVec F S1000000x32 .f32) : IVec S_ 1 :=
  let main_v0 : FVec F S1000000x32 .f32 := Host.absf main_arg1
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_c_0 : IVec S_ 32 := constantI S_ 32 0#32
  let main_v4 : IVec S16384x26 32 := broadcastInDim S16384x26 ![] bcast_S_S16384x26 main_c_0
  let main_v5 : IVec S16384x26 1 := cmpi .sge main_arg0 main_v4
  let main_c_1 : IVec S_ 32 := constantI S_ 32 999999#32
  let main_v6 : IVec S16384x26 32 := broadcastInDim S16384x26 ![] bcast_S_S16384x26 main_c_1
  let main_v7 : IVec S16384x26 1 := cmpi .sle main_arg0 main_v6
  let main_v8 : IVec S16384x26 1 := andi main_v5 main_v7
  let main_c_2 : IVec S_ 1 := constantI S_ 1 1#1
  let main_v9 : IVec S_ 1 := (fun x v => Host.reduce IntOp.andi x v reducesTo_S16384x26_S_d0_1 h_S_) main_v8 main_c_2
  let main_v10 : IVec S_ 1 := andi main_v3 main_v9
  main_v10
-- ==== Kernel.lean ====
abbrev S16384x26 : Shape := ⟨2, ![16384, 26]⟩
abbrev S1000000x32 : Shape := ⟨2, ![1000000, 32]⟩
abbrev S32x1000000 : Shape := ⟨2, ![32, 1000000]⟩
abbrev S672320 : Shape := ⟨1, ![672320]⟩
abbrev S32x65536 : Shape := ⟨2, ![32, 65536]⟩
abbrev S65536 : Shape := ⟨1, ![65536]⟩
abbrev S327680 : Shape := ⟨1, ![327680]⟩
abbrev S32x1024 : Shape := ⟨2, ![32, 1024]⟩
abbrev S10240 : Shape := ⟨1, ![10240]⟩
abbrev S_ : Shape := ⟨0, ![]⟩
abbrev S8x1024 : Shape := ⟨2, ![8, 1024]⟩
abbrev S1x16 : Shape := ⟨2, ![1, 16]⟩
abbrev S16 : Shape := ⟨1, ![16]⟩
abbrev S1000000 : Shape := ⟨1, ![1000000]⟩
abbrev S26x16384 : Shape := ⟨2, ![26, 16384]⟩
abbrev S32x16 : Shape := ⟨2, ![32, 16]⟩
abbrev S26x512 : Shape := ⟨2, ![26, 512]⟩
abbrev S128 : Shape := ⟨1, ![128]⟩
abbrev S1x128 : Shape := ⟨2, ![1, 128]⟩

abbrev nBuf : Table → Nat
  | .hbm => 12
  | .local .tc .vmem => 4
  | .local .scVector .vmem => 13
  | _ => 0

abbrev bufTy : (tb : Table) → Fin (nBuf tb) → BufTy
  | .hbm, ⟨0, _⟩ => ⟨S16384x26, .i32⟩
  | .hbm, ⟨1, _⟩ => ⟨S1000000x32, .f32⟩
  | .hbm, ⟨2, _⟩ => ⟨S32x1000000, .f32⟩
  | .hbm, ⟨3, _⟩ => ⟨S672320, .f32⟩
  | .hbm, ⟨4, _⟩ => ⟨S327680, .f32⟩
  | .hbm, ⟨5, _⟩ => ⟨S1000000, .f32⟩
  | .hbm, ⟨6, _⟩ => ⟨S26x16384, .i32⟩
  | .hbm, ⟨7, _⟩ => ⟨S32x16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local .tc .vmem, ⟨0, _⟩ => ⟨S32x65536, .f32⟩
  | .local .tc .vmem, ⟨1, _⟩ => ⟨S32x65536, .f32⟩
  | .local .tc .vmem, ⟨2, _⟩ => ⟨S65536, .f32⟩
  | .local .tc .vmem, ⟨3, _⟩ => ⟨S65536, .f32⟩
  | .local .scVector .vmem, ⟨0, _⟩ => ⟨S32x1024, .f32⟩
  | .local .scVector .vmem, ⟨1, _⟩ => ⟨S32x1024, .f32⟩
  | .local .scVector .vmem, ⟨2, _⟩ => ⟨S10240, .f32⟩
  | .local .scVector .vmem, ⟨3, _⟩ => ⟨S26x512, .i32⟩
  | .local .scVector .vmem, ⟨4, _⟩ => ⟨S128, .f32⟩
  | .local .scVector .vmem, ⟨5, _⟩ => ⟨S128, .f32⟩
  | .local .scVector .vmem, ⟨6, _⟩ => ⟨S128, .f32⟩
  | .local .scVector .vmem, ⟨7, _⟩ => ⟨S128, .f32⟩
  | .local .scVector .vmem, ⟨8, _⟩ => ⟨S128, .f32⟩
  | .local .scVector .vmem, ⟨9, _⟩ => ⟨S128, .f32⟩
  | .local .scVector .vmem, ⟨10, _⟩ => ⟨S128, .f32⟩
  | .local .scVector .vmem, ⟨11, _⟩ => ⟨S128, .f32⟩
  | .local .scVector .vmem, ⟨12, _⟩ => ⟨S16, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v0_scv : Ref sig .scVector := ⟨.hbm, 2, rfl⟩
abbrev main_v2_scv : Ref sig .scVector := ⟨.hbm, 4, rfl⟩
abbrev main_v4_scv : Ref sig .scVector := ⟨.hbm, 6, rfl⟩
abbrev main_v3_scv : Ref sig .scVector := ⟨.hbm, 5, rfl⟩
abbrev main_v5_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc2_scratch3 : Ref sig .scVector := ⟨.vmem, 6, rfl⟩
abbrev cc2_scratch4 : Ref sig .scVector := ⟨.vmem, 7, rfl⟩
abbrev cc2_scratch5 : Ref sig .scVector := ⟨.vmem, 8, rfl⟩
abbrev cc2_scratch6 : Ref sig .scVector := ⟨.vmem, 9, rfl⟩
abbrev cc2_scratch7 : Ref sig .scVector := ⟨.vmem, 10, rfl⟩
abbrev cc2_scratch8 : Ref sig .scVector := ⟨.vmem, 11, rfl⟩
abbrev cc2_scratch9 : Ref sig .scVector := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  ![c0_i32.toNat, v0.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) (c0_i32 : BitVec 32) : Fin 2 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let v3 : BitVec 32 := Scalar.addi v2 c0_i32
  ![0, v3.toNat]
def k1_off2 (i : grid1.Coords) (c0_i32_6 : BitVec 32) : Fin 2 → Nat :=
  let c8_i32_8 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let v8 : BitVec 32 := Scalar.addi v2 c0_i32_6
  ![8, v8.toNat]
def k1_off3 (i : grid1.Coords) (c0_i32_12 : BitVec 32) : Fin 2 → Nat :=
  let c16_i32_14 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let v13 : BitVec 32 := Scalar.addi v2 c0_i32_12
  ![16, v13.toNat]
def k1_off4 (i : grid1.Coords) (c0_i32_18 : BitVec 32) : Fin 2 → Nat :=
  let c24_i32_20 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let v18 : BitVec 32 := Scalar.addi v2 c0_i32_18
  ![24, v18.toNat]
@[reducible] def k1_t1_loop : Scf.Loop 32 :=
  let c0_i32_52 : BitVec 32 := 0#32
  let c5_i32 : BitVec 32 := 5#32
  let v43 : BitVec 32 := Scalar.addi c0_i32_52 c5_i32
  let c1_i32 : BitVec 32 := 1#32
  ⟨c0_i32_52, v43, c1_i32⟩
def k1_off5 (i : grid1.Coords) (k1_t1 : Fin k1_t1_loop.trips) (c0_i32_56 : BitVec 32) : Fin 2 → Nat :=
  let c0_i32_60 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_52 : BitVec 32 := 0#32
  let c1_i32 : BitVec 32 := 1#32
  let arg9 : BitVec 32 := Scf.iv c0_i32_52 c1_i32 k1_t1
  let c2_i32_55 : BitVec 32 := 2#32
  let v45 : BitVec 32 := Scalar.muli arg9 c2_i32_55
  let v46 : BitVec 32 := Scalar.addi v45 c0_i32_56
  let c1024_i32_57 : BitVec 32 := 1024#32
  let v47 : BitVec 32 := Scalar.muli v46 c1024_i32_57
  let v48 : BitVec 32 := Scalar.addi v2 v47
  ![0, v48.toNat]
def k1_off6 (i : grid1.Coords) (k1_t1 : Fin k1_t1_loop.trips) (c0_i32_56 : BitVec 32) : Fin 2 → Nat :=
  let c8_i32_67 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_52 : BitVec 32 := 0#32
  let c1_i32 : BitVec 32 := 1#32
  let arg9 : BitVec 32 := Scf.iv c0_i32_52 c1_i32 k1_t1
  let c2_i32_55 : BitVec 32 := 2#32
  let v45 : BitVec 32 := Scalar.muli arg9 c2_i32_55
  let v46 : BitVec 32 := Scalar.addi v45 c0_i32_56
  let c1024_i32_64 : BitVec 32 := 1024#32
  let v53 : BitVec 32 := Scalar.muli v46 c1024_i32_64
  let v54 : BitVec 32 := Scalar.addi v2 v53
  ![8, v54.toNat]
def k1_off7 (i : grid1.Coords) (k1_t1 : Fin k1_t1_loop.trips) (c0_i32_56 : BitVec 32) : Fin 2 → Nat :=
  let c16_i32_74 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_52 : BitVec 32 := 0#32
  let c1_i32 : BitVec 32 := 1#32
  let arg9 : BitVec 32 := Scf.iv c0_i32_52 c1_i32 k1_t1
  let c2_i32_55 : BitVec 32 := 2#32
  let v45 : BitVec 32 := Scalar.muli arg9 c2_i32_55
  let v46 : BitVec 32 := Scalar.addi v45 c0_i32_56
  let c1024_i32_71 : BitVec 32 := 1024#32
  let v59 : BitVec 32 := Scalar.muli v46 c1024_i32_71
  let v60 : BitVec 32 := Scalar.addi v2 v59
  ![16, v60.toNat]
def k1_off8 (i : grid1.Coords) (k1_t1 : Fin k1_t1_loop.trips) (c0_i32_56 : BitVec 32) : Fin 2 → Nat :=
  let c24_i32_81 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_52 : BitVec 32 := 0#32
  let c1_i32 : BitVec 32 := 1#32
  let arg9 : BitVec 32 := Scf.iv c0_i32_52 c1_i32 k1_t1
  let c2_i32_55 : BitVec 32 := 2#32
  let v45 : BitVec 32 := Scalar.muli arg9 c2_i32_55
  let v46 : BitVec 32 := Scalar.addi v45 c0_i32_56
  let c1024_i32_78 : BitVec 32 := 1024#32
  let v65 : BitVec 32 := Scalar.muli v46 c1024_i32_78
  let v66 : BitVec 32 := Scalar.addi v2 v65
  ![24, v66.toNat]
@[reducible] def k1_t2_loop : Scf.Loop 32 :=
  let c0_i32_86 : BitVec 32 := 0#32
  let c16_i32_87 : BitVec 32 := 16#32
  let v71 : BitVec 32 := Scalar.addi c0_i32_86 c16_i32_87
  let c1_i32_88 : BitVec 32 := 1#32
  ⟨c0_i32_86, v71, c1_i32_88⟩
def k1_off9 (k1_t2 : Fin k1_t2_loop.trips) (c0_i32_130 : BitVec 32) : Fin 2 → Nat :=
  let c0_i32_132 : BitVec 32 := 0#32
  let v110 : Index := Scalar.indexCast c0_i32_132
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_131 : BitVec 32 := 16#32
  let v109 : BitVec 32 := Scalar.muli v108 c16_i32_131
  let v111 : Index := Scalar.indexCast v109
  ![0, v111.toNat]
def k1_off10 (k1_t2 : Fin k1_t2_loop.trips) (c0_i32_130 : BitVec 32) : Fin 2 → Nat :=
  let c1_i32_134 : BitVec 32 := 1#32
  let v115 : Index := Scalar.indexCast c1_i32_134
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_133 : BitVec 32 := 16#32
  let v114 : BitVec 32 := Scalar.muli v108 c16_i32_133
  let v116 : Index := Scalar.indexCast v114
  ![1, v116.toNat]
def k1_off11 (k1_t2 : Fin k1_t2_loop.trips) (c0_i32_130 : BitVec 32) : Fin 2 → Nat :=
  let c2_i32_136 : BitVec 32 := 2#32
  let v121 : Index := Scalar.indexCast c2_i32_136
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_135 : BitVec 32 := 16#32
  let v120 : BitVec 32 := Scalar.muli v108 c16_i32_135
  let v122 : Index := Scalar.indexCast v120
  ![2, v122.toNat]
def k1_off12 (k1_t2 : Fin k1_t2_loop.trips) (c0_i32_130 : BitVec 32) : Fin 2 → Nat :=
  let c3_i32 : BitVec 32 := 3#32
  let v127 : Index := Scalar.indexCast c3_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_137 : BitVec 32 := 16#32
  let v126 : BitVec 32 := Scalar.muli v108 c16_i32_137
  let v128 : Index := Scalar.indexCast v126
  ![3, v128.toNat]
def k1_off13 (k1_t2 : Fin k1_t2_loop.trips) (c0_i32_130 : BitVec 32) : Fin 2 → Nat :=
  let c4_i32_139 : BitVec 32 := 4#32
  let v133 : Index := Scalar.indexCast c4_i32_139
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_138 : BitVec 32 := 16#32
  let v132 : BitVec 32 := Scalar.muli v108 c16_i32_138
  let v134 : Index := Scalar.indexCast v132
  ![4, v134.toNat]
def k1_off14 (k1_t2 : Fin k1_t2_loop.trips) (c0_i32_130 : BitVec 32) : Fin 2 → Nat :=
  let c5_i32_141 : BitVec 32 := 5#32
  let v139 : Index := Scalar.indexCast c5_i32_141
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_140 : BitVec 32 := 16#32
  let v138 : BitVec 32 := Scalar.muli v108 c16_i32_140
  let v140 : Index := Scalar.indexCast v138
  ![5, v140.toNat]
def k1_off15 (k1_t2 : Fin k1_t2_loop.trips) (c0_i32_130 : BitVec 32) : Fin 2 → Nat :=
  let c6_i32 : BitVec 32 := 6#32
  let v145 : Index := Scalar.indexCast c6_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_142 : BitVec 32 := 16#32
  let v144 : BitVec 32 := Scalar.muli v108 c16_i32_142
  let v146 : Index := Scalar.indexCast v144
  ![6, v146.toNat]
def k1_off16 (k1_t2 : Fin k1_t2_loop.trips) (c0_i32_130 : BitVec 32) : Fin 2 → Nat :=
  let c7_i32 : BitVec 32 := 7#32
  let v151 : Index := Scalar.indexCast c7_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_143 : BitVec 32 := 16#32
  let v150 : BitVec 32 := Scalar.muli v108 c16_i32_143
  let v152 : Index := Scalar.indexCast v150
  ![7, v152.toNat]
def k1_off17 (k1_t2 : Fin k1_t2_loop.trips) (c0_i32_130 : BitVec 32) : Fin 2 → Nat :=
  let c8_i32_145 : BitVec 32 := 8#32
  let v157 : Index := Scalar.indexCast c8_i32_145
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_144 : BitVec 32 := 16#32
  let v156 : BitVec 32 := Scalar.muli v108 c16_i32_144
  let v158 : Index := Scalar.indexCast v156
  ![8, v158.toNat]
def k1_off18 (k1_t2 : Fin k1_t2_loop.trips) (c0_i32_130 : BitVec 32) : Fin 2 → Nat :=
  let c9_i32 : BitVec 32 := 9#32
  let v163 : Index := Scalar.indexCast c9_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_146 : BitVec 32 := 16#32
  let v162 : BitVec 32 := Scalar.muli v108 c16_i32_146
  let v164 : Index := Scalar.indexCast v162
  ![9, v164.toNat]
def k1_off19 (k1_t2 : Fin k1_t2_loop.trips) (c0_i32_130 : BitVec 32) : Fin 2 → Nat :=
  let c10_i32_148 : BitVec 32 := 10#32
  let v169 : Index := Scalar.indexCast c10_i32_148
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_147 : BitVec 32 := 16#32
  let v168 : BitVec 32 := Scalar.muli v108 c16_i32_147
  let v170 : Index := Scalar.indexCast v168
  ![10, v170.toNat]
def k1_off20 (k1_t2 : Fin k1_t2_loop.trips) (c0_i32_130 : BitVec 32) : Fin 2 → Nat :=
  let c11_i32 : BitVec 32 := 11#32
  let v175 : Index := Scalar.indexCast c11_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_149 : BitVec 32 := 16#32
  let v174 : BitVec 32 := Scalar.muli v108 c16_i32_149
  let v176 : Index := Scalar.indexCast v174
  ![11, v176.toNat]
def k1_off21 (k1_t2 : Fin k1_t2_loop.trips) (c0_i32_130 : BitVec 32) : Fin 2 → Nat :=
  let c12_i32 : BitVec 32 := 12#32
  let v181 : Index := Scalar.indexCast c12_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_150 : BitVec 32 := 16#32
  let v180 : BitVec 32 := Scalar.muli v108 c16_i32_150
  let v182 : Index := Scalar.indexCast v180
  ![12, v182.toNat]
def k1_off22 (k1_t2 : Fin k1_t2_loop.trips) (c0_i32_130 : BitVec 32) : Fin 2 → Nat :=
  let c13_i32 : BitVec 32 := 13#32
  let v187 : Index := Scalar.indexCast c13_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_151 : BitVec 32 := 16#32
  let v186 : BitVec 32 := Scalar.muli v108 c16_i32_151
  let v188 : Index := Scalar.indexCast v186
  ![13, v188.toNat]
def k1_off23 (k1_t2 : Fin k1_t2_loop.trips) (c0_i32_130 : BitVec 32) : Fin 2 → Nat :=
  let c14_i32 : BitVec 32 := 14#32
  let v193 : Index := Scalar.indexCast c14_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_152 : BitVec 32 := 16#32
  let v192 : BitVec 32 := Scalar.muli v108 c16_i32_152
  let v194 : Index := Scalar.indexCast v192
  ![14, v194.toNat]
def k1_off24 (k1_t2 : Fin k1_t2_loop.trips) (c0_i32_130 : BitVec 32) : Fin 2 → Nat :=
  let c15_i32 : BitVec 32 := 15#32
  let v199 : Index := Scalar.indexCast c15_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_153 : BitVec 32 := 16#32
  let v198 : BitVec 32 := Scalar.muli v108 c16_i32_153
  let v200 : Index := Scalar.indexCast v198
  ![15, v200.toNat]
def k1_off25 (k1_t2 : Fin k1_t2_loop.trips) (c0_i32_130 : BitVec 32) : Fin 2 → Nat :=
  let c16_i32_155 : BitVec 32 := 16#32
  let v205 : Index := Scalar.indexCast c16_i32_155
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_154 : BitVec 32 := 16#32
  let v204 : BitVec 32 := Scalar.muli v108 c16_i32_154
  let v206 : Index := Scalar.indexCast v204
  ![16, v206.toNat]
def k1_off26 (k1_t2 : Fin k1_t2_loop.trips) (c0_i32_130 : BitVec 32) : Fin 2 → Nat :=
  let c17_i32 : BitVec 32 := 17#32
  let v211 : Index := Scalar.indexCast c17_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_156 : BitVec 32 := 16#32
  let v210 : BitVec 32 := Scalar.muli v108 c16_i32_156
  let v212 : Index := Scalar.indexCast v210
  ![17, v212.toNat]
def k1_off27 (k1_t2 : Fin k1_t2_loop.trips) (c0_i32_130 : BitVec 32) : Fin 2 → Nat :=
  let c18_i32 : BitVec 32 := 18#32
  let v217 : Index := Scalar.indexCast c18_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_157 : BitVec 32 := 16#32
  let v216 : BitVec 32 := Scalar.muli v108 c16_i32_157
  let v218 : Index := Scalar.indexCast v216
  ![18, v218.toNat]
def k1_off28 (k1_t2 : Fin k1_t2_loop.trips) (c0_i32_130 : BitVec 32) : Fin 2 → Nat :=
  let c19_i32 : BitVec 32 := 19#32
  let v223 : Index := Scalar.indexCast c19_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_158 : BitVec 32 := 16#32
  let v222 : BitVec 32 := Scalar.muli v108 c16_i32_158
  let v224 : Index := Scalar.indexCast v222
  ![19, v224.toNat]
def k1_off29 (k1_t2 : Fin k1_t2_loop.trips) (c0_i32_130 : BitVec 32) : Fin 2 → Nat :=
  let c20_i32 : BitVec 32 := 20#32
  let v229 : Index := Scalar.indexCast c20_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_159 : BitVec 32 := 16#32
  let v228 : BitVec 32 := Scalar.muli v108 c16_i32_159
  let v230 : Index := Scalar.indexCast v228
  ![20, v230.toNat]
def k1_off30 (k1_t2 : Fin k1_t2_loop.trips) (c0_i32_130 : BitVec 32) : Fin 2 → Nat :=
  let c21_i32 : BitVec 32 := 21#32
  let v235 : Index := Scalar.indexCast c21_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_160 : BitVec 32 := 16#32
  let v234 : BitVec 32 := Scalar.muli v108 c16_i32_160
  let v236 : Index := Scalar.indexCast v234
  ![21, v236.toNat]
def k1_off31 (k1_t2 : Fin k1_t2_loop.trips) (c0_i32_130 : BitVec 32) : Fin 2 → Nat :=
  let c22_i32 : BitVec 32 := 22#32
  let v241 : Index := Scalar.indexCast c22_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_161 : BitVec 32 := 16#32
  let v240 : BitVec 32 := Scalar.muli v108 c16_i32_161
  let v242 : Index := Scalar.indexCast v240
  ![22, v242.toNat]
def k1_off32 (k1_t2 : Fin k1_t2_loop.trips) (c0_i32_130 : BitVec 32) : Fin 2 → Nat :=
  let c23_i32 : BitVec 32 := 23#32
  let v247 : Index := Scalar.indexCast c23_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_162 : BitVec 32 := 16#32
  let v246 : BitVec 32 := Scalar.muli v108 c16_i32_162
  let v248 : Index := Scalar.indexCast v246
  ![23, v248.toNat]
def k1_off33 (k1_t2 : Fin k1_t2_loop.trips) (c0_i32_130 : BitVec 32) : Fin 2 → Nat :=
  let c24_i32_164 : BitVec 32 := 24#32
  let v253 : Index := Scalar.indexCast c24_i32_164
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_163 : BitVec 32 := 16#32
  let v252 : BitVec 32 := Scalar.muli v108 c16_i32_163
  let v254 : Index := Scalar.indexCast v252
  ![24, v254.toNat]
def k1_off34 (k1_t2 : Fin k1_t2_loop.trips) (c0_i32_130 : BitVec 32) : Fin 2 → Nat :=
  let c25_i32 : BitVec 32 := 25#32
  let v259 : Index := Scalar.indexCast c25_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_165 : BitVec 32 := 16#32
  let v258 : BitVec 32 := Scalar.muli v108 c16_i32_165
  let v260 : Index := Scalar.indexCast v258
  ![25, v260.toNat]
def k1_off35 (k1_t2 : Fin k1_t2_loop.trips) (c0_i32_130 : BitVec 32) : Fin 2 → Nat :=
  let c26_i32 : BitVec 32 := 26#32
  let v265 : Index := Scalar.indexCast c26_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_166 : BitVec 32 := 16#32
  let v264 : BitVec 32 := Scalar.muli v108 c16_i32_166
  let v266 : Index := Scalar.indexCast v264
  ![26, v266.toNat]
def k1_off36 (k1_t2 : Fin k1_t2_loop.trips) (c0_i32_130 : BitVec 32) : Fin 2 → Nat :=
  let c27_i32 : BitVec 32 := 27#32
  let v271 : Index := Scalar.indexCast c27_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_167 : BitVec 32 := 16#32
  let v270 : BitVec 32 := Scalar.muli v108 c16_i32_167
  let v272 : Index := Scalar.indexCast v270
  ![27, v272.toNat]
def k1_off37 (k1_t2 : Fin k1_t2_loop.trips) (c0_i32_130 : BitVec 32) : Fin 2 → Nat :=
  let c28_i32 : BitVec 32 := 28#32
  let v277 : Index := Scalar.indexCast c28_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_168 : BitVec 32 := 16#32
  let v276 : BitVec 32 := Scalar.muli v108 c16_i32_168
  let v278 : Index := Scalar.indexCast v276
  ![28, v278.toNat]
def k1_off38 (k1_t2 : Fin k1_t2_loop.trips) (c0_i32_130 : BitVec 32) : Fin 2 → Nat :=
  let c29_i32 : BitVec 32 := 29#32
  let v283 : Index := Scalar.indexCast c29_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_169 : BitVec 32 := 16#32
  let v282 : BitVec 32 := Scalar.muli v108 c16_i32_169
  let v284 : Index := Scalar.indexCast v282
  ![29, v284.toNat]
def k1_off39 (k1_t2 : Fin k1_t2_loop.trips) (c0_i32_130 : BitVec 32) : Fin 2 → Nat :=
  let c30_i32 : BitVec 32 := 30#32
  let v289 : Index := Scalar.indexCast c30_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_170 : BitVec 32 := 16#32
  let v288 : BitVec 32 := Scalar.muli v108 c16_i32_170
  let v290 : Index := Scalar.indexCast v288
  ![30, v290.toNat]
def k1_off40 (k1_t2 : Fin k1_t2_loop.trips) (c0_i32_130 : BitVec 32) : Fin 2 → Nat :=
  let c31_i32 : BitVec 32 := 31#32
  let v295 : Index := Scalar.indexCast c31_i32
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_171 : BitVec 32 := 16#32
  let v294 : BitVec 32 := Scalar.muli v108 c16_i32_171
  let v296 : Index := Scalar.indexCast v294
  ![31, v296.toNat]
def k1_off41 (k1_t1 : Fin k1_t1_loop.trips) (k1_t2 : Fin k1_t2_loop.trips) (c0_i32_130 : BitVec 32) : Fin 1 → Nat :=
  let c0_i32_52 : BitVec 32 := 0#32
  let c1_i32 : BitVec 32 := 1#32
  let arg9 : BitVec 32 := Scf.iv c0_i32_52 c1_i32 k1_t1
  let c2_i32_55 : BitVec 32 := 2#32
  let v45 : BitVec 32 := Scalar.muli arg9 c2_i32_55
  let c0_i32_56 : BitVec 32 := 0#32
  let v46 : BitVec 32 := Scalar.addi v45 c0_i32_56
  let c1024_i32_172 : BitVec 32 := 1024#32
  let v300 : BitVec 32 := Scalar.muli v46 c1024_i32_172
  let c0_i32_86 : BitVec 32 := 0#32
  let c1_i32_88 : BitVec 32 := 1#32
  let arg10 : BitVec 32 := Scf.iv c0_i32_86 c1_i32_88 k1_t2
  let c4_i32 : BitVec 32 := 4#32
  let v107 : BitVec 32 := Scalar.muli arg10 c4_i32
  let v108 : BitVec 32 := Scalar.addi v107 c0_i32_130
  let c16_i32_173 : BitVec 32 := 16#32
  let v301 : BitVec 32 := Scalar.muli v108 c16_i32_173
  let v302 : BitVec 32 := Scalar.addi v300 v301
  let v303 : Index := Scalar.indexCast v302
  ![v303.toNat]
def k1_cond1 (k1_t1 : Fin k1_t1_loop.trips) : BitVec 1 :=
  let c0_i32_52 : BitVec 32 := 0#32
  let c1_i32 : BitVec 32 := 1#32
  let arg9 : BitVec 32 := Scf.iv c0_i32_52 c1_i32 k1_t1
  let c2_i32_55 : BitVec 32 := 2#32
  let v45 : BitVec 32 := Scalar.muli arg9 c2_i32_55
  let c0_i32_56 : BitVec 32 := 0#32
  let v46 : BitVec 32 := Scalar.addi v45 c0_i32_56
  let c2_i32_90 : BitVec 32 := 2#32
  let v72 : BitVec 32 := Scalar.addi v46 c2_i32_90
  let c10_i32 : BitVec 32 := 10#32
  let v73 : BitVec 1 := Scalar.cmpi .slt v72 c10_i32
  let v74 : BitVec 32 := Scalar.extui v73
  let c0_i32_91 : BitVec 32 := 0#32
  let v75 : BitVec 1 := Scalar.cmpi .ne v74 c0_i32_91
  v75

def k1_off42 (i : grid1.Coords) (k1_t1 : Fin k1_t1_loop.trips) : Fin 2 → Nat :=
  let c0_i32_133 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_52 : BitVec 32 := 0#32
  let c1_i32 : BitVec 32 := 1#32
  let arg9 : BitVec 32 := Scf.iv c0_i32_52 c1_i32 k1_t1
  let c2_i32_55 : BitVec 32 := 2#32
  let v45 : BitVec 32 := Scalar.muli arg9 c2_i32_55
  let c0_i32_56 : BitVec 32 := 0#32
  let v46 : BitVec 32 := Scalar.addi v45 c0_i32_56
  let c2_i32_90 : BitVec 32 := 2#32
  let v72 : BitVec 32 := Scalar.addi v46 c2_i32_90
  let c1024_i32_130 : BitVec 32 := 1024#32
  let v107 : BitVec 32 := Scalar.muli v72 c1024_i32_130
  let v108 : BitVec 32 := Scalar.addi v2 v107
  ![0, v108.toNat]
def k1_off43 (i : grid1.Coords) (k1_t1 : Fin k1_t1_loop.trips) : Fin 2 → Nat :=
  let c8_i32_140 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_52 : BitVec 32 := 0#32
  let c1_i32 : BitVec 32 := 1#32
  let arg9 : BitVec 32 := Scf.iv c0_i32_52 c1_i32 k1_t1
  let c2_i32_55 : BitVec 32 := 2#32
  let v45 : BitVec 32 := Scalar.muli arg9 c2_i32_55
  let c0_i32_56 : BitVec 32 := 0#32
  let v46 : BitVec 32 := Scalar.addi v45 c0_i32_56
  let c2_i32_90 : BitVec 32 := 2#32
  let v72 : BitVec 32 := Scalar.addi v46 c2_i32_90
  let c1024_i32_137 : BitVec 32 := 1024#32
  let v113 : BitVec 32 := Scalar.muli v72 c1024_i32_137
  let v114 : BitVec 32 := Scalar.addi v2 v113
  ![8, v114.toNat]
def k1_off44 (i : grid1.Coords) (k1_t1 : Fin k1_t1_loop.trips) : Fin 2 → Nat :=
  let c16_i32_147 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_52 : BitVec 32 := 0#32
  let c1_i32 : BitVec 32 := 1#32
  let arg9 : BitVec 32 := Scf.iv c0_i32_52 c1_i32 k1_t1
  let c2_i32_55 : BitVec 32 := 2#32
  let v45 : BitVec 32 := Scalar.muli arg9 c2_i32_55
  let c0_i32_56 : BitVec 32 := 0#32
  let v46 : BitVec 32 := Scalar.addi v45 c0_i32_56
  let c2_i32_90 : BitVec 32 := 2#32
  let v72 : BitVec 32 := Scalar.addi v46 c2_i32_90
  let c1024_i32_144 : BitVec 32 := 1024#32
  let v119 : BitVec 32 := Scalar.muli v72 c1024_i32_144
  let v120 : BitVec 32 := Scalar.addi v2 v119
  ![16, v120.toNat]
def k1_off45 (i : grid1.Coords) (k1_t1 : Fin k1_t1_loop.trips) : Fin 2 → Nat :=
  let c24_i32_154 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_52 : BitVec 32 := 0#32
  let c1_i32 : BitVec 32 := 1#32
  let arg9 : BitVec 32 := Scf.iv c0_i32_52 c1_i32 k1_t1
  let c2_i32_55 : BitVec 32 := 2#32
  let v45 : BitVec 32 := Scalar.muli arg9 c2_i32_55
  let c0_i32_56 : BitVec 32 := 0#32
  let v46 : BitVec 32 := Scalar.addi v45 c0_i32_56
  let c2_i32_90 : BitVec 32 := 2#32
  let v72 : BitVec 32 := Scalar.addi v46 c2_i32_90
  let c1024_i32_151 : BitVec 32 := 1024#32
  let v125 : BitVec 32 := Scalar.muli v72 c1024_i32_151
  let v126 : BitVec 32 := Scalar.addi v2 v125
  ![24, v126.toNat]
@[reducible] def k1_t3_loop : Scf.Loop 32 :=
  let c0_i32_123 : BitVec 32 := 0#32
  let c16_i32_124 : BitVec 32 := 16#32
  let v102 : BitVec 32 := Scalar.addi c0_i32_123 c16_i32_124
  let c1_i32_125 : BitVec 32 := 1#32
  ⟨c0_i32_123, v102, c1_i32_125⟩
def k1_off46 (k1_t3 : Fin k1_t3_loop.trips) (c0_i32_130 : BitVec 32) : Fin 2 → Nat :=
  let c0_i32_132 : BitVec 32 := 0#32
  let v110 : Index := Scalar.indexCast c0_i32_132
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_131 : BitVec 32 := 16#32
  let v109 : BitVec 32 := Scalar.muli v108 c16_i32_131
  let v111 : Index := Scalar.indexCast v109
  ![0, v111.toNat]
def k1_off47 (k1_t3 : Fin k1_t3_loop.trips) (c0_i32_130 : BitVec 32) : Fin 2 → Nat :=
  let c1_i32_134 : BitVec 32 := 1#32
  let v115 : Index := Scalar.indexCast c1_i32_134
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_133 : BitVec 32 := 16#32
  let v114 : BitVec 32 := Scalar.muli v108 c16_i32_133
  let v116 : Index := Scalar.indexCast v114
  ![1, v116.toNat]
def k1_off48 (k1_t3 : Fin k1_t3_loop.trips) (c0_i32_130 : BitVec 32) : Fin 2 → Nat :=
  let c2_i32_136 : BitVec 32 := 2#32
  let v121 : Index := Scalar.indexCast c2_i32_136
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_135 : BitVec 32 := 16#32
  let v120 : BitVec 32 := Scalar.muli v108 c16_i32_135
  let v122 : Index := Scalar.indexCast v120
  ![2, v122.toNat]
def k1_off49 (k1_t3 : Fin k1_t3_loop.trips) (c0_i32_130 : BitVec 32) : Fin 2 → Nat :=
  let c3_i32 : BitVec 32 := 3#32
  let v127 : Index := Scalar.indexCast c3_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_137 : BitVec 32 := 16#32
  let v126 : BitVec 32 := Scalar.muli v108 c16_i32_137
  let v128 : Index := Scalar.indexCast v126
  ![3, v128.toNat]
def k1_off50 (k1_t3 : Fin k1_t3_loop.trips) (c0_i32_130 : BitVec 32) : Fin 2 → Nat :=
  let c4_i32_139 : BitVec 32 := 4#32
  let v133 : Index := Scalar.indexCast c4_i32_139
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_138 : BitVec 32 := 16#32
  let v132 : BitVec 32 := Scalar.muli v108 c16_i32_138
  let v134 : Index := Scalar.indexCast v132
  ![4, v134.toNat]
def k1_off51 (k1_t3 : Fin k1_t3_loop.trips) (c0_i32_130 : BitVec 32) : Fin 2 → Nat :=
  let c5_i32_141 : BitVec 32 := 5#32
  let v139 : Index := Scalar.indexCast c5_i32_141
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_140 : BitVec 32 := 16#32
  let v138 : BitVec 32 := Scalar.muli v108 c16_i32_140
  let v140 : Index := Scalar.indexCast v138
  ![5, v140.toNat]
def k1_off52 (k1_t3 : Fin k1_t3_loop.trips) (c0_i32_130 : BitVec 32) : Fin 2 → Nat :=
  let c6_i32 : BitVec 32 := 6#32
  let v145 : Index := Scalar.indexCast c6_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_142 : BitVec 32 := 16#32
  let v144 : BitVec 32 := Scalar.muli v108 c16_i32_142
  let v146 : Index := Scalar.indexCast v144
  ![6, v146.toNat]
def k1_off53 (k1_t3 : Fin k1_t3_loop.trips) (c0_i32_130 : BitVec 32) : Fin 2 → Nat :=
  let c7_i32 : BitVec 32 := 7#32
  let v151 : Index := Scalar.indexCast c7_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_143 : BitVec 32 := 16#32
  let v150 : BitVec 32 := Scalar.muli v108 c16_i32_143
  let v152 : Index := Scalar.indexCast v150
  ![7, v152.toNat]
def k1_off54 (k1_t3 : Fin k1_t3_loop.trips) (c0_i32_130 : BitVec 32) : Fin 2 → Nat :=
  let c8_i32_145 : BitVec 32 := 8#32
  let v157 : Index := Scalar.indexCast c8_i32_145
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_144 : BitVec 32 := 16#32
  let v156 : BitVec 32 := Scalar.muli v108 c16_i32_144
  let v158 : Index := Scalar.indexCast v156
  ![8, v158.toNat]
def k1_off55 (k1_t3 : Fin k1_t3_loop.trips) (c0_i32_130 : BitVec 32) : Fin 2 → Nat :=
  let c9_i32 : BitVec 32 := 9#32
  let v163 : Index := Scalar.indexCast c9_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_146 : BitVec 32 := 16#32
  let v162 : BitVec 32 := Scalar.muli v108 c16_i32_146
  let v164 : Index := Scalar.indexCast v162
  ![9, v164.toNat]
def k1_off56 (k1_t3 : Fin k1_t3_loop.trips) (c0_i32_130 : BitVec 32) : Fin 2 → Nat :=
  let c10_i32_148 : BitVec 32 := 10#32
  let v169 : Index := Scalar.indexCast c10_i32_148
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_147 : BitVec 32 := 16#32
  let v168 : BitVec 32 := Scalar.muli v108 c16_i32_147
  let v170 : Index := Scalar.indexCast v168
  ![10, v170.toNat]
def k1_off57 (k1_t3 : Fin k1_t3_loop.trips) (c0_i32_130 : BitVec 32) : Fin 2 → Nat :=
  let c11_i32 : BitVec 32 := 11#32
  let v175 : Index := Scalar.indexCast c11_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_149 : BitVec 32 := 16#32
  let v174 : BitVec 32 := Scalar.muli v108 c16_i32_149
  let v176 : Index := Scalar.indexCast v174
  ![11, v176.toNat]
def k1_off58 (k1_t3 : Fin k1_t3_loop.trips) (c0_i32_130 : BitVec 32) : Fin 2 → Nat :=
  let c12_i32 : BitVec 32 := 12#32
  let v181 : Index := Scalar.indexCast c12_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_150 : BitVec 32 := 16#32
  let v180 : BitVec 32 := Scalar.muli v108 c16_i32_150
  let v182 : Index := Scalar.indexCast v180
  ![12, v182.toNat]
def k1_off59 (k1_t3 : Fin k1_t3_loop.trips) (c0_i32_130 : BitVec 32) : Fin 2 → Nat :=
  let c13_i32 : BitVec 32 := 13#32
  let v187 : Index := Scalar.indexCast c13_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_151 : BitVec 32 := 16#32
  let v186 : BitVec 32 := Scalar.muli v108 c16_i32_151
  let v188 : Index := Scalar.indexCast v186
  ![13, v188.toNat]
def k1_off60 (k1_t3 : Fin k1_t3_loop.trips) (c0_i32_130 : BitVec 32) : Fin 2 → Nat :=
  let c14_i32 : BitVec 32 := 14#32
  let v193 : Index := Scalar.indexCast c14_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_152 : BitVec 32 := 16#32
  let v192 : BitVec 32 := Scalar.muli v108 c16_i32_152
  let v194 : Index := Scalar.indexCast v192
  ![14, v194.toNat]
def k1_off61 (k1_t3 : Fin k1_t3_loop.trips) (c0_i32_130 : BitVec 32) : Fin 2 → Nat :=
  let c15_i32 : BitVec 32 := 15#32
  let v199 : Index := Scalar.indexCast c15_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_153 : BitVec 32 := 16#32
  let v198 : BitVec 32 := Scalar.muli v108 c16_i32_153
  let v200 : Index := Scalar.indexCast v198
  ![15, v200.toNat]
def k1_off62 (k1_t3 : Fin k1_t3_loop.trips) (c0_i32_130 : BitVec 32) : Fin 2 → Nat :=
  let c16_i32_155 : BitVec 32 := 16#32
  let v205 : Index := Scalar.indexCast c16_i32_155
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_154 : BitVec 32 := 16#32
  let v204 : BitVec 32 := Scalar.muli v108 c16_i32_154
  let v206 : Index := Scalar.indexCast v204
  ![16, v206.toNat]
def k1_off63 (k1_t3 : Fin k1_t3_loop.trips) (c0_i32_130 : BitVec 32) : Fin 2 → Nat :=
  let c17_i32 : BitVec 32 := 17#32
  let v211 : Index := Scalar.indexCast c17_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_156 : BitVec 32 := 16#32
  let v210 : BitVec 32 := Scalar.muli v108 c16_i32_156
  let v212 : Index := Scalar.indexCast v210
  ![17, v212.toNat]
def k1_off64 (k1_t3 : Fin k1_t3_loop.trips) (c0_i32_130 : BitVec 32) : Fin 2 → Nat :=
  let c18_i32 : BitVec 32 := 18#32
  let v217 : Index := Scalar.indexCast c18_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_157 : BitVec 32 := 16#32
  let v216 : BitVec 32 := Scalar.muli v108 c16_i32_157
  let v218 : Index := Scalar.indexCast v216
  ![18, v218.toNat]
def k1_off65 (k1_t3 : Fin k1_t3_loop.trips) (c0_i32_130 : BitVec 32) : Fin 2 → Nat :=
  let c19_i32 : BitVec 32 := 19#32
  let v223 : Index := Scalar.indexCast c19_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_158 : BitVec 32 := 16#32
  let v222 : BitVec 32 := Scalar.muli v108 c16_i32_158
  let v224 : Index := Scalar.indexCast v222
  ![19, v224.toNat]
def k1_off66 (k1_t3 : Fin k1_t3_loop.trips) (c0_i32_130 : BitVec 32) : Fin 2 → Nat :=
  let c20_i32 : BitVec 32 := 20#32
  let v229 : Index := Scalar.indexCast c20_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_159 : BitVec 32 := 16#32
  let v228 : BitVec 32 := Scalar.muli v108 c16_i32_159
  let v230 : Index := Scalar.indexCast v228
  ![20, v230.toNat]
def k1_off67 (k1_t3 : Fin k1_t3_loop.trips) (c0_i32_130 : BitVec 32) : Fin 2 → Nat :=
  let c21_i32 : BitVec 32 := 21#32
  let v235 : Index := Scalar.indexCast c21_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_160 : BitVec 32 := 16#32
  let v234 : BitVec 32 := Scalar.muli v108 c16_i32_160
  let v236 : Index := Scalar.indexCast v234
  ![21, v236.toNat]
def k1_off68 (k1_t3 : Fin k1_t3_loop.trips) (c0_i32_130 : BitVec 32) : Fin 2 → Nat :=
  let c22_i32 : BitVec 32 := 22#32
  let v241 : Index := Scalar.indexCast c22_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_161 : BitVec 32 := 16#32
  let v240 : BitVec 32 := Scalar.muli v108 c16_i32_161
  let v242 : Index := Scalar.indexCast v240
  ![22, v242.toNat]
def k1_off69 (k1_t3 : Fin k1_t3_loop.trips) (c0_i32_130 : BitVec 32) : Fin 2 → Nat :=
  let c23_i32 : BitVec 32 := 23#32
  let v247 : Index := Scalar.indexCast c23_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_162 : BitVec 32 := 16#32
  let v246 : BitVec 32 := Scalar.muli v108 c16_i32_162
  let v248 : Index := Scalar.indexCast v246
  ![23, v248.toNat]
def k1_off70 (k1_t3 : Fin k1_t3_loop.trips) (c0_i32_130 : BitVec 32) : Fin 2 → Nat :=
  let c24_i32_164 : BitVec 32 := 24#32
  let v253 : Index := Scalar.indexCast c24_i32_164
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_163 : BitVec 32 := 16#32
  let v252 : BitVec 32 := Scalar.muli v108 c16_i32_163
  let v254 : Index := Scalar.indexCast v252
  ![24, v254.toNat]
def k1_off71 (k1_t3 : Fin k1_t3_loop.trips) (c0_i32_130 : BitVec 32) : Fin 2 → Nat :=
  let c25_i32 : BitVec 32 := 25#32
  let v259 : Index := Scalar.indexCast c25_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_165 : BitVec 32 := 16#32
  let v258 : BitVec 32 := Scalar.muli v108 c16_i32_165
  let v260 : Index := Scalar.indexCast v258
  ![25, v260.toNat]
def k1_off72 (k1_t3 : Fin k1_t3_loop.trips) (c0_i32_130 : BitVec 32) : Fin 2 → Nat :=
  let c26_i32 : BitVec 32 := 26#32
  let v265 : Index := Scalar.indexCast c26_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_166 : BitVec 32 := 16#32
  let v264 : BitVec 32 := Scalar.muli v108 c16_i32_166
  let v266 : Index := Scalar.indexCast v264
  ![26, v266.toNat]
def k1_off73 (k1_t3 : Fin k1_t3_loop.trips) (c0_i32_130 : BitVec 32) : Fin 2 → Nat :=
  let c27_i32 : BitVec 32 := 27#32
  let v271 : Index := Scalar.indexCast c27_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_167 : BitVec 32 := 16#32
  let v270 : BitVec 32 := Scalar.muli v108 c16_i32_167
  let v272 : Index := Scalar.indexCast v270
  ![27, v272.toNat]
def k1_off74 (k1_t3 : Fin k1_t3_loop.trips) (c0_i32_130 : BitVec 32) : Fin 2 → Nat :=
  let c28_i32 : BitVec 32 := 28#32
  let v277 : Index := Scalar.indexCast c28_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_168 : BitVec 32 := 16#32
  let v276 : BitVec 32 := Scalar.muli v108 c16_i32_168
  let v278 : Index := Scalar.indexCast v276
  ![28, v278.toNat]
def k1_off75 (k1_t3 : Fin k1_t3_loop.trips) (c0_i32_130 : BitVec 32) : Fin 2 → Nat :=
  let c29_i32 : BitVec 32 := 29#32
  let v283 : Index := Scalar.indexCast c29_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_169 : BitVec 32 := 16#32
  let v282 : BitVec 32 := Scalar.muli v108 c16_i32_169
  let v284 : Index := Scalar.indexCast v282
  ![29, v284.toNat]
def k1_off76 (k1_t3 : Fin k1_t3_loop.trips) (c0_i32_130 : BitVec 32) : Fin 2 → Nat :=
  let c30_i32 : BitVec 32 := 30#32
  let v289 : Index := Scalar.indexCast c30_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_170 : BitVec 32 := 16#32
  let v288 : BitVec 32 := Scalar.muli v108 c16_i32_170
  let v290 : Index := Scalar.indexCast v288
  ![30, v290.toNat]
def k1_off77 (k1_t3 : Fin k1_t3_loop.trips) (c0_i32_130 : BitVec 32) : Fin 2 → Nat :=
  let c31_i32 : BitVec 32 := 31#32
  let v295 : Index := Scalar.indexCast c31_i32
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_171 : BitVec 32 := 16#32
  let v294 : BitVec 32 := Scalar.muli v108 c16_i32_171
  let v296 : Index := Scalar.indexCast v294
  ![31, v296.toNat]
def k1_off78 (k1_t1 : Fin k1_t1_loop.trips) (k1_t3 : Fin k1_t3_loop.trips) (c0_i32_130 : BitVec 32) : Fin 1 → Nat :=
  let c0_i32_52 : BitVec 32 := 0#32
  let c1_i32 : BitVec 32 := 1#32
  let arg9 : BitVec 32 := Scf.iv c0_i32_52 c1_i32 k1_t1
  let c2_i32_92 : BitVec 32 := 2#32
  let v76 : BitVec 32 := Scalar.muli arg9 c2_i32_92
  let c1_i32_93 : BitVec 32 := 1#32
  let v77 : BitVec 32 := Scalar.addi v76 c1_i32_93
  let c1024_i32_172 : BitVec 32 := 1024#32
  let v300 : BitVec 32 := Scalar.muli v77 c1024_i32_172
  let c0_i32_123 : BitVec 32 := 0#32
  let c1_i32_125 : BitVec 32 := 1#32
  let arg10 : BitVec 32 := Scf.iv c0_i32_123 c1_i32_125 k1_t3
  let c4_i32 : BitVec 32 := 4#32
  let v107 : BitVec 32 := Scalar.muli arg10 c4_i32
  let v108 : BitVec 32 := Scalar.addi v107 c0_i32_130
  let c16_i32_173 : BitVec 32 := 16#32
  let v301 : BitVec 32 := Scalar.muli v108 c16_i32_173
  let v302 : BitVec 32 := Scalar.addi v300 v301
  let v303 : Index := Scalar.indexCast v302
  ![v303.toNat]
def k1_cond2 (k1_t1 : Fin k1_t1_loop.trips) : BitVec 1 :=
  let c0_i32_52 : BitVec 32 := 0#32
  let c1_i32 : BitVec 32 := 1#32
  let arg9 : BitVec 32 := Scf.iv c0_i32_52 c1_i32 k1_t1
  let c2_i32_92 : BitVec 32 := 2#32
  let v76 : BitVec 32 := Scalar.muli arg9 c2_i32_92
  let c1_i32_93 : BitVec 32 := 1#32
  let v77 : BitVec 32 := Scalar.addi v76 c1_i32_93
  let c2_i32_127 : BitVec 32 := 2#32
  let v103 : BitVec 32 := Scalar.addi v77 c2_i32_127
  let c10_i32_128 : BitVec 32 := 10#32
  let v104 : BitVec 1 := Scalar.cmpi .slt v103 c10_i32_128
  let v105 : BitVec 32 := Scalar.extui v104
  let c0_i32_129 : BitVec 32 := 0#32
  let v106 : BitVec 1 := Scalar.cmpi .ne v105 c0_i32_129
  v106

def k1_off79 (i : grid1.Coords) (k1_t1 : Fin k1_t1_loop.trips) : Fin 2 → Nat :=
  let c0_i32_133 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_52 : BitVec 32 := 0#32
  let c1_i32 : BitVec 32 := 1#32
  let arg9 : BitVec 32 := Scf.iv c0_i32_52 c1_i32 k1_t1
  let c2_i32_92 : BitVec 32 := 2#32
  let v76 : BitVec 32 := Scalar.muli arg9 c2_i32_92
  let c1_i32_93 : BitVec 32 := 1#32
  let v77 : BitVec 32 := Scalar.addi v76 c1_i32_93
  let c2_i32_127 : BitVec 32 := 2#32
  let v103 : BitVec 32 := Scalar.addi v77 c2_i32_127
  let c1024_i32_130 : BitVec 32 := 1024#32
  let v107 : BitVec 32 := Scalar.muli v103 c1024_i32_130
  let v108 : BitVec 32 := Scalar.addi v2 v107
  ![0, v108.toNat]
def k1_off80 (i : grid1.Coords) (k1_t1 : Fin k1_t1_loop.trips) : Fin 2 → Nat :=
  let c8_i32_140 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_52 : BitVec 32 := 0#32
  let c1_i32 : BitVec 32 := 1#32
  let arg9 : BitVec 32 := Scf.iv c0_i32_52 c1_i32 k1_t1
  let c2_i32_92 : BitVec 32 := 2#32
  let v76 : BitVec 32 := Scalar.muli arg9 c2_i32_92
  let c1_i32_93 : BitVec 32 := 1#32
  let v77 : BitVec 32 := Scalar.addi v76 c1_i32_93
  let c2_i32_127 : BitVec 32 := 2#32
  let v103 : BitVec 32 := Scalar.addi v77 c2_i32_127
  let c1024_i32_137 : BitVec 32 := 1024#32
  let v113 : BitVec 32 := Scalar.muli v103 c1024_i32_137
  let v114 : BitVec 32 := Scalar.addi v2 v113
  ![8, v114.toNat]
def k1_off81 (i : grid1.Coords) (k1_t1 : Fin k1_t1_loop.trips) : Fin 2 → Nat :=
  let c16_i32_147 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_52 : BitVec 32 := 0#32
  let c1_i32 : BitVec 32 := 1#32
  let arg9 : BitVec 32 := Scf.iv c0_i32_52 c1_i32 k1_t1
  let c2_i32_92 : BitVec 32 := 2#32
  let v76 : BitVec 32 := Scalar.muli arg9 c2_i32_92
  let c1_i32_93 : BitVec 32 := 1#32
  let v77 : BitVec 32 := Scalar.addi v76 c1_i32_93
  let c2_i32_127 : BitVec 32 := 2#32
  let v103 : BitVec 32 := Scalar.addi v77 c2_i32_127
  let c1024_i32_144 : BitVec 32 := 1024#32
  let v119 : BitVec 32 := Scalar.muli v103 c1024_i32_144
  let v120 : BitVec 32 := Scalar.addi v2 v119
  ![16, v120.toNat]
def k1_off82 (i : grid1.Coords) (k1_t1 : Fin k1_t1_loop.trips) : Fin 2 → Nat :=
  let c24_i32_154 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_52 : BitVec 32 := 0#32
  let c1_i32 : BitVec 32 := 1#32
  let arg9 : BitVec 32 := Scf.iv c0_i32_52 c1_i32 k1_t1
  let c2_i32_92 : BitVec 32 := 2#32
  let v76 : BitVec 32 := Scalar.muli arg9 c2_i32_92
  let c1_i32_93 : BitVec 32 := 1#32
  let v77 : BitVec 32 := Scalar.addi v76 c1_i32_93
  let c2_i32_127 : BitVec 32 := 2#32
  let v103 : BitVec 32 := Scalar.addi v77 c2_i32_127
  let c1024_i32_151 : BitVec 32 := 1024#32
  let v125 : BitVec 32 := Scalar.muli v103 c1024_i32_151
  let v126 : BitVec 32 := Scalar.addi v2 v125
  ![24, v126.toNat]
def k1_off83 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32_54 : BitVec 32 := 10240#32
  let v44 : BitVec 32 := Scalar.muli v1 c10240_i32_54
  ![v44.toNat]
abbrev grid2 : Pipeline.Grid := ⟨2, ![2, 16], ![false, false]⟩

def k2_off1 (i : grid2.Coords) : Fin 2 → Nat :=
  let c0_i32_22_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k2_t1_loop : Scf.Loop 32 :=
  let c0_i32_19 : BitVec 32 := 0#32
  let c13_i32 : BitVec 32 := 13#32
  let v28 : BitVec 32 := Scalar.addi c0_i32_19 c13_i32
  let c1_i32_20 : BitVec 32 := 1#32
  ⟨c0_i32_19, v28, c1_i32_20⟩
def k2_off2 (k2_t1 : Fin k2_t1_loop.trips) (c0_i32_22 : BitVec 32) : Fin 2 → Nat :=
  let c0_i32_19 : BitVec 32 := 0#32
  let c1_i32_20 : BitVec 32 := 1#32
  let arg23 : BitVec 32 := Scf.iv c0_i32_19 c1_i32_20 k2_t1
  let c8_i32 : BitVec 32 := 8#32
  let v33 : BitVec 32 := Scalar.muli arg23 c8_i32
  let v34 : BitVec 32 := Scalar.addi v33 c0_i32_22
  let c0_i32_23 : BitVec 32 := 0#32
  let v36 : BitVec 1 := Scalar.cmpi .sgt v34 c0_i32_23
  let v37 : BitVec 32 := Scalar.extui v36
  let c0_i32_24 : BitVec 32 := 0#32
  let v38 : BitVec 1 := Scalar.cmpi .slt v34 c0_i32_24
  let v39 : BitVec 32 := Scalar.extui v38
  let v40 : BitVec 32 := Scalar.subi v37 v39
  let c4_i32 : BitVec 32 := 4#32
  let c0_i32_25 : BitVec 32 := 0#32
  let v41 : BitVec 1 := Scalar.cmpi .sgt c4_i32 c0_i32_25
  let v42 : BitVec 32 := Scalar.extui v41
  let c0_i32_26 : BitVec 32 := 0#32
  let v43 : BitVec 1 := Scalar.cmpi .slt c4_i32 c0_i32_26
  let v44 : BitVec 32 := Scalar.extui v43
  let v45 : BitVec 32 := Scalar.subi v42 v44
  let v46 : BitVec 1 := Scalar.cmpi .ne v40 v45
  let v47 : BitVec 32 := Scalar.remsi v34 c4_i32
  let c0_i32_27 : BitVec 32 := 0#32
  let v48 : BitVec 1 := Scalar.cmpi .ne v47 c0_i32_27
  let v49 : BitVec 1 := Scalar.andi v46 v48
  let v35 : BitVec 32 := Scalar.divsi v34 c4_i32
  let c1_i32_28 : BitVec 32 := 1#32
  let v50 : BitVec 32 := Scalar.subi v35 c1_i32_28
  let v51 : BitVec 32 := Scalar.select v49 v50 v35
  let c4_i32_29 : BitVec 32 := 4#32
  let c0_i32_30 : BitVec 32 := 0#32
  let v52 : BitVec 1 := Scalar.cmpi .eq c4_i32_29 c0_i32_30
  let c1_i32_31 : BitVec 32 := 1#32
  let v53 : BitVec 32 := Scalar.select v52 c1_i32_31 c4_i32_29
  let v54 : BitVec 32 := Scalar.remsi v34 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c128_i32_35 : BitVec 32 := 128#32
  let v62 : BitVec 32 := Scalar.muli v61 c128_i32_35
  ![v51.toNat, v62.toNat]
def k2_cond1 (k2_t1 : Fin k2_t1_loop.trips) : BitVec 1 :=
  let c0_i32_19 : BitVec 32 := 0#32
  let c1_i32_20 : BitVec 32 := 1#32
  let arg23 : BitVec 32 := Scf.iv c0_i32_19 c1_i32_20 k2_t1
  let c8_i32 : BitVec 32 := 8#32
  let v33 : BitVec 32 := Scalar.muli arg23 c8_i32
  let c0_i32_22 : BitVec 32 := 0#32
  let v34 : BitVec 32 := Scalar.addi v33 c0_i32_22
  let c8_i32_38 : BitVec 32 := 8#32
  let v90 : BitVec 32 := Scalar.addi v34 c8_i32_38
  let c104_i32 : BitVec 32 := 104#32
  let v91 : BitVec 1 := Scalar.cmpi .slt v90 c104_i32
  let v92 : BitVec 32 := Scalar.extui v91
  let c0_i32_39 : BitVec 32 := 0#32
  let v93 : BitVec 1 := Scalar.cmpi .ne v92 c0_i32_39
  v93

def k2_off3 (k2_t1 : Fin k2_t1_loop.trips) : Fin 2 → Nat :=
  let c0_i32_19 : BitVec 32 := 0#32
  let c1_i32_20 : BitVec 32 := 1#32
  let arg23 : BitVec 32 := Scf.iv c0_i32_19 c1_i32_20 k2_t1
  let c8_i32 : BitVec 32 := 8#32
  let v33 : BitVec 32 := Scalar.muli arg23 c8_i32
  let c0_i32_22 : BitVec 32 := 0#32
  let v34 : BitVec 32 := Scalar.addi v33 c0_i32_22
  let c8_i32_38 : BitVec 32 := 8#32
  let v90 : BitVec 32 := Scalar.addi v34 c8_i32_38
  let c0_i32_233 : BitVec 32 := 0#32
  let v522 : BitVec 1 := Scalar.cmpi .sgt v90 c0_i32_233
  let v523 : BitVec 32 := Scalar.extui v522
  let c0_i32_234 : BitVec 32 := 0#32
  let v524 : BitVec 1 := Scalar.cmpi .slt v90 c0_i32_234
  let v525 : BitVec 32 := Scalar.extui v524
  let v526 : BitVec 32 := Scalar.subi v523 v525
  let c4_i32_232 : BitVec 32 := 4#32
  let c0_i32_235 : BitVec 32 := 0#32
  let v527 : BitVec 1 := Scalar.cmpi .sgt c4_i32_232 c0_i32_235
  let v528 : BitVec 32 := Scalar.extui v527
  let c0_i32_236 : BitVec 32 := 0#32
  let v529 : BitVec 1 := Scalar.cmpi .slt c4_i32_232 c0_i32_236
  let v530 : BitVec 32 := Scalar.extui v529
  let v531 : BitVec 32 := Scalar.subi v528 v530
  let v532 : BitVec 1 := Scalar.cmpi .ne v526 v531
  let v533 : BitVec 32 := Scalar.remsi v90 c4_i32_232
  let c0_i32_237 : BitVec 32 := 0#32
  let v534 : BitVec 1 := Scalar.cmpi .ne v533 c0_i32_237
  let v535 : BitVec 1 := Scalar.andi v532 v534
  let v521 : BitVec 32 := Scalar.divsi v90 c4_i32_232
  let c1_i32_238 : BitVec 32 := 1#32
  let v536 : BitVec 32 := Scalar.subi v521 c1_i32_238
  let v537 : BitVec 32 := Scalar.select v535 v536 v521
  let c4_i32_239 : BitVec 32 := 4#32
  let c0_i32_240 : BitVec 32 := 0#32
  let v538 : BitVec 1 := Scalar.cmpi .eq c4_i32_239 c0_i32_240
  let c1_i32_241 : BitVec 32 := 1#32
  let v539 : BitVec 32 := Scalar.select v538 c1_i32_241 c4_i32_239
  let v540 : BitVec 32 := Scalar.remsi v90 v539
  let c0_i32_243 : BitVec 32 := 0#32
  let v542 : BitVec 1 := Scalar.cmpi .slt v540 c0_i32_243
  let c0_i32_244 : BitVec 32 := 0#32
  let v543 : BitVec 1 := Scalar.cmpi .slt v539 c0_i32_244
  let v544 : BitVec 1 := Scalar.xori v542 v543
  let c0_i32_242 : BitVec 32 := 0#32
  let v541 : BitVec 1 := Scalar.cmpi .ne v540 c0_i32_242
  let v545 : BitVec 1 := Scalar.andi v544 v541
  let v546 : BitVec 32 := Scalar.addi v540 v539
  let v547 : BitVec 32 := Scalar.select v545 v546 v540
  let c128_i32_245 : BitVec 32 := 128#32
  let v548 : BitVec 32 := Scalar.muli v547 c128_i32_245
  ![v537.toNat, v548.toNat]
def k2_cond2 (k2_t1 : Fin k2_t1_loop.trips) : BitVec 1 :=
  let c0_i32_19 : BitVec 32 := 0#32
  let c1_i32_20 : BitVec 32 := 1#32
  let arg23 : BitVec 32 := Scf.iv c0_i32_19 c1_i32_20 k2_t1
  let c8_i32_40 : BitVec 32 := 8#32
  let v94 : BitVec 32 := Scalar.muli arg23 c8_i32_40
  let c1_i32_41 : BitVec 32 := 1#32
  let v95 : BitVec 32 := Scalar.addi v94 c1_i32_41
  let c8_i32_65 : BitVec 32 := 8#32
  let v151 : BitVec 32 := Scalar.addi v95 c8_i32_65
  let c104_i32_66 : BitVec 32 := 104#32
  let v152 : BitVec 1 := Scalar.cmpi .slt v151 c104_i32_66
  let v153 : BitVec 32 := Scalar.extui v152
  let c0_i32_67 : BitVec 32 := 0#32
  let v154 : BitVec 1 := Scalar.cmpi .ne v153 c0_i32_67
  v154

def k2_off4 (k2_t1 : Fin k2_t1_loop.trips) : Fin 2 → Nat :=
  let c0_i32_19 : BitVec 32 := 0#32
  let c1_i32_20 : BitVec 32 := 1#32
  let arg23 : BitVec 32 := Scf.iv c0_i32_19 c1_i32_20 k2_t1
  let c8_i32_40 : BitVec 32 := 8#32
  let v94 : BitVec 32 := Scalar.muli arg23 c8_i32_40
  let c1_i32_41 : BitVec 32 := 1#32
  let v95 : BitVec 32 := Scalar.addi v94 c1_i32_41
  let c8_i32_65 : BitVec 32 := 8#32
  let v151 : BitVec 32 := Scalar.addi v95 c8_i32_65
  let c0_i32_233 : BitVec 32 := 0#32
  let v522 : BitVec 1 := Scalar.cmpi .sgt v151 c0_i32_233
  let v523 : BitVec 32 := Scalar.extui v522
  let c0_i32_234 : BitVec 32 := 0#32
  let v524 : BitVec 1 := Scalar.cmpi .slt v151 c0_i32_234
  let v525 : BitVec 32 := Scalar.extui v524
  let v526 : BitVec 32 := Scalar.subi v523 v525
  let c4_i32_232 : BitVec 32 := 4#32
  let c0_i32_235 : BitVec 32 := 0#32
  let v527 : BitVec 1 := Scalar.cmpi .sgt c4_i32_232 c0_i32_235
  let v528 : BitVec 32 := Scalar.extui v527
  let c0_i32_236 : BitVec 32 := 0#32
  let v529 : BitVec 1 := Scalar.cmpi .slt c4_i32_232 c0_i32_236
  let v530 : BitVec 32 := Scalar.extui v529
  let v531 : BitVec 32 := Scalar.subi v528 v530
  let v532 : BitVec 1 := Scalar.cmpi .ne v526 v531
  let v533 : BitVec 32 := Scalar.remsi v151 c4_i32_232
  let c0_i32_237 : BitVec 32 := 0#32
  let v534 : BitVec 1 := Scalar.cmpi .ne v533 c0_i32_237
  let v535 : BitVec 1 := Scalar.andi v532 v534
  let v521 : BitVec 32 := Scalar.divsi v151 c4_i32_232
  let c1_i32_238 : BitVec 32 := 1#32
  let v536 : BitVec 32 := Scalar.subi v521 c1_i32_238
  let v537 : BitVec 32 := Scalar.select v535 v536 v521
  let c4_i32_239 : BitVec 32 := 4#32
  let c0_i32_240 : BitVec 32 := 0#32
  let v538 : BitVec 1 := Scalar.cmpi .eq c4_i32_239 c0_i32_240
  let c1_i32_241 : BitVec 32 := 1#32
  let v539 : BitVec 32 := Scalar.select v538 c1_i32_241 c4_i32_239
  let v540 : BitVec 32 := Scalar.remsi v151 v539
  let c0_i32_243 : BitVec 32 := 0#32
  let v542 : BitVec 1 := Scalar.cmpi .slt v540 c0_i32_243
  let c0_i32_244 : BitVec 32 := 0#32
  let v543 : BitVec 1 := Scalar.cmpi .slt v539 c0_i32_244
  let v544 : BitVec 1 := Scalar.xori v542 v543
  let c0_i32_242 : BitVec 32 := 0#32
  let v541 : BitVec 1 := Scalar.cmpi .ne v540 c0_i32_242
  let v545 : BitVec 1 := Scalar.andi v544 v541
  let v546 : BitVec 32 := Scalar.addi v540 v539
  let v547 : BitVec 32 := Scalar.select v545 v546 v540
  let c128_i32_245 : BitVec 32 := 128#32
  let v548 : BitVec 32 := Scalar.muli v547 c128_i32_245
  ![v537.toNat, v548.toNat]
def k2_cond3 (k2_t1 : Fin k2_t1_loop.trips) : BitVec 1 :=
  let c0_i32_19 : BitVec 32 := 0#32
  let c1_i32_20 : BitVec 32 := 1#32
  let arg23 : BitVec 32 := Scf.iv c0_i32_19 c1_i32_20 k2_t1
  let c8_i32_68 : BitVec 32 := 8#32
  let v155 : BitVec 32 := Scalar.muli arg23 c8_i32_68
  let c2_i32_69 : BitVec 32 := 2#32
  let v156 : BitVec 32 := Scalar.addi v155 c2_i32_69
  let c8_i32_93 : BitVec 32 := 8#32
  let v212 : BitVec 32 := Scalar.addi v156 c8_i32_93
  let c104_i32_94 : BitVec 32 := 104#32
  let v213 : BitVec 1 := Scalar.cmpi .slt v212 c104_i32_94
  let v214 : BitVec 32 := Scalar.extui v213
  let c0_i32_95 : BitVec 32 := 0#32
  let v215 : BitVec 1 := Scalar.cmpi .ne v214 c0_i32_95
  v215

def k2_off5 (k2_t1 : Fin k2_t1_loop.trips) : Fin 2 → Nat :=
  let c0_i32_19 : BitVec 32 := 0#32
  let c1_i32_20 : BitVec 32 := 1#32
  let arg23 : BitVec 32 := Scf.iv c0_i32_19 c1_i32_20 k2_t1
  let c8_i32_68 : BitVec 32 := 8#32
  let v155 : BitVec 32 := Scalar.muli arg23 c8_i32_68
  let c2_i32_69 : BitVec 32 := 2#32
  let v156 : BitVec 32 := Scalar.addi v155 c2_i32_69
  let c8_i32_93 : BitVec 32 := 8#32
  let v212 : BitVec 32 := Scalar.addi v156 c8_i32_93
  let c0_i32_233 : BitVec 32 := 0#32
  let v522 : BitVec 1 := Scalar.cmpi .sgt v212 c0_i32_233
  let v523 : BitVec 32 := Scalar.extui v522
  let c0_i32_234 : BitVec 32 := 0#32
  let v524 : BitVec 1 := Scalar.cmpi .slt v212 c0_i32_234
  let v525 : BitVec 32 := Scalar.extui v524
  let v526 : BitVec 32 := Scalar.subi v523 v525
  let c4_i32_232 : BitVec 32 := 4#32
  let c0_i32_235 : BitVec 32 := 0#32
  let v527 : BitVec 1 := Scalar.cmpi .sgt c4_i32_232 c0_i32_235
  let v528 : BitVec 32 := Scalar.extui v527
  let c0_i32_236 : BitVec 32 := 0#32
  let v529 : BitVec 1 := Scalar.cmpi .slt c4_i32_232 c0_i32_236
  let v530 : BitVec 32 := Scalar.extui v529
  let v531 : BitVec 32 := Scalar.subi v528 v530
  let v532 : BitVec 1 := Scalar.cmpi .ne v526 v531
  let v533 : BitVec 32 := Scalar.remsi v212 c4_i32_232
  let c0_i32_237 : BitVec 32 := 0#32
  let v534 : BitVec 1 := Scalar.cmpi .ne v533 c0_i32_237
  let v535 : BitVec 1 := Scalar.andi v532 v534
  let v521 : BitVec 32 := Scalar.divsi v212 c4_i32_232
  let c1_i32_238 : BitVec 32 := 1#32
  let v536 : BitVec 32 := Scalar.subi v521 c1_i32_238
  let v537 : BitVec 32 := Scalar.select v535 v536 v521
  let c4_i32_239 : BitVec 32 := 4#32
  let c0_i32_240 : BitVec 32 := 0#32
  let v538 : BitVec 1 := Scalar.cmpi .eq c4_i32_239 c0_i32_240
  let c1_i32_241 : BitVec 32 := 1#32
  let v539 : BitVec 32 := Scalar.select v538 c1_i32_241 c4_i32_239
  let v540 : BitVec 32 := Scalar.remsi v212 v539
  let c0_i32_243 : BitVec 32 := 0#32
  let v542 : BitVec 1 := Scalar.cmpi .slt v540 c0_i32_243
  let c0_i32_244 : BitVec 32 := 0#32
  let v543 : BitVec 1 := Scalar.cmpi .slt v539 c0_i32_244
  let v544 : BitVec 1 := Scalar.xori v542 v543
  let c0_i32_242 : BitVec 32 := 0#32
  let v541 : BitVec 1 := Scalar.cmpi .ne v540 c0_i32_242
  let v545 : BitVec 1 := Scalar.andi v544 v541
  let v546 : BitVec 32 := Scalar.addi v540 v539
  let v547 : BitVec 32 := Scalar.select v545 v546 v540
  let c128_i32_245 : BitVec 32 := 128#32
  let v548 : BitVec 32 := Scalar.muli v547 c128_i32_245
  ![v537.toNat, v548.toNat]
def k2_cond4 (k2_t1 : Fin k2_t1_loop.trips) : BitVec 1 :=
  let c0_i32_19 : BitVec 32 := 0#32
  let c1_i32_20 : BitVec 32 := 1#32
  let arg23 : BitVec 32 := Scf.iv c0_i32_19 c1_i32_20 k2_t1
  let c8_i32_96 : BitVec 32 := 8#32
  let v216 : BitVec 32 := Scalar.muli arg23 c8_i32_96
  let c3_i32 : BitVec 32 := 3#32
  let v217 : BitVec 32 := Scalar.addi v216 c3_i32
  let c8_i32_120 : BitVec 32 := 8#32
  let v273 : BitVec 32 := Scalar.addi v217 c8_i32_120
  let c104_i32_121 : BitVec 32 := 104#32
  let v274 : BitVec 1 := Scalar.cmpi .slt v273 c104_i32_121
  let v275 : BitVec 32 := Scalar.extui v274
  let c0_i32_122 : BitVec 32 := 0#32
  let v276 : BitVec 1 := Scalar.cmpi .ne v275 c0_i32_122
  v276

def k2_off6 (k2_t1 : Fin k2_t1_loop.trips) : Fin 2 → Nat :=
  let c0_i32_19 : BitVec 32 := 0#32
  let c1_i32_20 : BitVec 32 := 1#32
  let arg23 : BitVec 32 := Scf.iv c0_i32_19 c1_i32_20 k2_t1
  let c8_i32_96 : BitVec 32 := 8#32
  let v216 : BitVec 32 := Scalar.muli arg23 c8_i32_96
  let c3_i32 : BitVec 32 := 3#32
  let v217 : BitVec 32 := Scalar.addi v216 c3_i32
  let c8_i32_120 : BitVec 32 := 8#32
  let v273 : BitVec 32 := Scalar.addi v217 c8_i32_120
  let c0_i32_233 : BitVec 32 := 0#32
  let v522 : BitVec 1 := Scalar.cmpi .sgt v273 c0_i32_233
  let v523 : BitVec 32 := Scalar.extui v522
  let c0_i32_234 : BitVec 32 := 0#32
  let v524 : BitVec 1 := Scalar.cmpi .slt v273 c0_i32_234
  let v525 : BitVec 32 := Scalar.extui v524
  let v526 : BitVec 32 := Scalar.subi v523 v525
  let c4_i32_232 : BitVec 32 := 4#32
  let c0_i32_235 : BitVec 32 := 0#32
  let v527 : BitVec 1 := Scalar.cmpi .sgt c4_i32_232 c0_i32_235
  let v528 : BitVec 32 := Scalar.extui v527
  let c0_i32_236 : BitVec 32 := 0#32
  let v529 : BitVec 1 := Scalar.cmpi .slt c4_i32_232 c0_i32_236
  let v530 : BitVec 32 := Scalar.extui v529
  let v531 : BitVec 32 := Scalar.subi v528 v530
  let v532 : BitVec 1 := Scalar.cmpi .ne v526 v531
  let v533 : BitVec 32 := Scalar.remsi v273 c4_i32_232
  let c0_i32_237 : BitVec 32 := 0#32
  let v534 : BitVec 1 := Scalar.cmpi .ne v533 c0_i32_237
  let v535 : BitVec 1 := Scalar.andi v532 v534
  let v521 : BitVec 32 := Scalar.divsi v273 c4_i32_232
  let c1_i32_238 : BitVec 32 := 1#32
  let v536 : BitVec 32 := Scalar.subi v521 c1_i32_238
  let v537 : BitVec 32 := Scalar.select v535 v536 v521
  let c4_i32_239 : BitVec 32 := 4#32
  let c0_i32_240 : BitVec 32 := 0#32
  let v538 : BitVec 1 := Scalar.cmpi .eq c4_i32_239 c0_i32_240
  let c1_i32_241 : BitVec 32 := 1#32
  let v539 : BitVec 32 := Scalar.select v538 c1_i32_241 c4_i32_239
  let v540 : BitVec 32 := Scalar.remsi v273 v539
  let c0_i32_243 : BitVec 32 := 0#32
  let v542 : BitVec 1 := Scalar.cmpi .slt v540 c0_i32_243
  let c0_i32_244 : BitVec 32 := 0#32
  let v543 : BitVec 1 := Scalar.cmpi .slt v539 c0_i32_244
  let v544 : BitVec 1 := Scalar.xori v542 v543
  let c0_i32_242 : BitVec 32 := 0#32
  let v541 : BitVec 1 := Scalar.cmpi .ne v540 c0_i32_242
  let v545 : BitVec 1 := Scalar.andi v544 v541
  let v546 : BitVec 32 := Scalar.addi v540 v539
  let v547 : BitVec 32 := Scalar.select v545 v546 v540
  let c128_i32_245 : BitVec 32 := 128#32
  let v548 : BitVec 32 := Scalar.muli v547 c128_i32_245
  ![v537.toNat, v548.toNat]
def k2_cond5 (k2_t1 : Fin k2_t1_loop.trips) : BitVec 1 :=
  let c0_i32_19 : BitVec 32 := 0#32
  let c1_i32_20 : BitVec 32 := 1#32
  let arg23 : BitVec 32 := Scf.iv c0_i32_19 c1_i32_20 k2_t1
  let c8_i32_123 : BitVec 32 := 8#32
  let v277 : BitVec 32 := Scalar.muli arg23 c8_i32_123
  let c4_i32_124 : BitVec 32 := 4#32
  let v278 : BitVec 32 := Scalar.addi v277 c4_i32_124
  let c8_i32_148 : BitVec 32 := 8#32
  let v334 : BitVec 32 := Scalar.addi v278 c8_i32_148
  let c104_i32_149 : BitVec 32 := 104#32
  let v335 : BitVec 1 := Scalar.cmpi .slt v334 c104_i32_149
  let v336 : BitVec 32 := Scalar.extui v335
  let c0_i32_150 : BitVec 32 := 0#32
  let v337 : BitVec 1 := Scalar.cmpi .ne v336 c0_i32_150
  v337

def k2_off7 (k2_t1 : Fin k2_t1_loop.trips) : Fin 2 → Nat :=
  let c0_i32_19 : BitVec 32 := 0#32
  let c1_i32_20 : BitVec 32 := 1#32
  let arg23 : BitVec 32 := Scf.iv c0_i32_19 c1_i32_20 k2_t1
  let c8_i32_123 : BitVec 32 := 8#32
  let v277 : BitVec 32 := Scalar.muli arg23 c8_i32_123
  let c4_i32_124 : BitVec 32 := 4#32
  let v278 : BitVec 32 := Scalar.addi v277 c4_i32_124
  let c8_i32_148 : BitVec 32 := 8#32
  let v334 : BitVec 32 := Scalar.addi v278 c8_i32_148
  let c0_i32_233 : BitVec 32 := 0#32
  let v522 : BitVec 1 := Scalar.cmpi .sgt v334 c0_i32_233
  let v523 : BitVec 32 := Scalar.extui v522
  let c0_i32_234 : BitVec 32 := 0#32
  let v524 : BitVec 1 := Scalar.cmpi .slt v334 c0_i32_234
  let v525 : BitVec 32 := Scalar.extui v524
  let v526 : BitVec 32 := Scalar.subi v523 v525
  let c4_i32_232 : BitVec 32 := 4#32
  let c0_i32_235 : BitVec 32 := 0#32
  let v527 : BitVec 1 := Scalar.cmpi .sgt c4_i32_232 c0_i32_235
  let v528 : BitVec 32 := Scalar.extui v527
  let c0_i32_236 : BitVec 32 := 0#32
  let v529 : BitVec 1 := Scalar.cmpi .slt c4_i32_232 c0_i32_236
  let v530 : BitVec 32 := Scalar.extui v529
  let v531 : BitVec 32 := Scalar.subi v528 v530
  let v532 : BitVec 1 := Scalar.cmpi .ne v526 v531
  let v533 : BitVec 32 := Scalar.remsi v334 c4_i32_232
  let c0_i32_237 : BitVec 32 := 0#32
  let v534 : BitVec 1 := Scalar.cmpi .ne v533 c0_i32_237
  let v535 : BitVec 1 := Scalar.andi v532 v534
  let v521 : BitVec 32 := Scalar.divsi v334 c4_i32_232
  let c1_i32_238 : BitVec 32 := 1#32
  let v536 : BitVec 32 := Scalar.subi v521 c1_i32_238
  let v537 : BitVec 32 := Scalar.select v535 v536 v521
  let c4_i32_239 : BitVec 32 := 4#32
  let c0_i32_240 : BitVec 32 := 0#32
  let v538 : BitVec 1 := Scalar.cmpi .eq c4_i32_239 c0_i32_240
  let c1_i32_241 : BitVec 32 := 1#32
  let v539 : BitVec 32 := Scalar.select v538 c1_i32_241 c4_i32_239
  let v540 : BitVec 32 := Scalar.remsi v334 v539
  let c0_i32_243 : BitVec 32 := 0#32
  let v542 : BitVec 1 := Scalar.cmpi .slt v540 c0_i32_243
  let c0_i32_244 : BitVec 32 := 0#32
  let v543 : BitVec 1 := Scalar.cmpi .slt v539 c0_i32_244
  let v544 : BitVec 1 := Scalar.xori v542 v543
  let c0_i32_242 : BitVec 32 := 0#32
  let v541 : BitVec 1 := Scalar.cmpi .ne v540 c0_i32_242
  let v545 : BitVec 1 := Scalar.andi v544 v541
  let v546 : BitVec 32 := Scalar.addi v540 v539
  let v547 : BitVec 32 := Scalar.select v545 v546 v540
  let c128_i32_245 : BitVec 32 := 128#32
  let v548 : BitVec 32 := Scalar.muli v547 c128_i32_245
  ![v537.toNat, v548.toNat]
def k2_cond6 (k2_t1 : Fin k2_t1_loop.trips) : BitVec 1 :=
  let c0_i32_19 : BitVec 32 := 0#32
  let c1_i32_20 : BitVec 32 := 1#32
  let arg23 : BitVec 32 := Scf.iv c0_i32_19 c1_i32_20 k2_t1
  let c8_i32_151 : BitVec 32 := 8#32
  let v338 : BitVec 32 := Scalar.muli arg23 c8_i32_151
  let c5_i32 : BitVec 32 := 5#32
  let v339 : BitVec 32 := Scalar.addi v338 c5_i32
  let c8_i32_175 : BitVec 32 := 8#32
  let v395 : BitVec 32 := Scalar.addi v339 c8_i32_175
  let c104_i32_176 : BitVec 32 := 104#32
  let v396 : BitVec 1 := Scalar.cmpi .slt v395 c104_i32_176
  let v397 : BitVec 32 := Scalar.extui v396
  let c0_i32_177 : BitVec 32 := 0#32
  let v398 : BitVec 1 := Scalar.cmpi .ne v397 c0_i32_177
  v398

def k2_off8 (k2_t1 : Fin k2_t1_loop.trips) : Fin 2 → Nat :=
  let c0_i32_19 : BitVec 32 := 0#32
  let c1_i32_20 : BitVec 32 := 1#32
  let arg23 : BitVec 32 := Scf.iv c0_i32_19 c1_i32_20 k2_t1
  let c8_i32_151 : BitVec 32 := 8#32
  let v338 : BitVec 32 := Scalar.muli arg23 c8_i32_151
  let c5_i32 : BitVec 32 := 5#32
  let v339 : BitVec 32 := Scalar.addi v338 c5_i32
  let c8_i32_175 : BitVec 32 := 8#32
  let v395 : BitVec 32 := Scalar.addi v339 c8_i32_175
  let c0_i32_233 : BitVec 32 := 0#32
  let v522 : BitVec 1 := Scalar.cmpi .sgt v395 c0_i32_233
  let v523 : BitVec 32 := Scalar.extui v522
  let c0_i32_234 : BitVec 32 := 0#32
  let v524 : BitVec 1 := Scalar.cmpi .slt v395 c0_i32_234
  let v525 : BitVec 32 := Scalar.extui v524
  let v526 : BitVec 32 := Scalar.subi v523 v525
  let c4_i32_232 : BitVec 32 := 4#32
  let c0_i32_235 : BitVec 32 := 0#32
  let v527 : BitVec 1 := Scalar.cmpi .sgt c4_i32_232 c0_i32_235
  let v528 : BitVec 32 := Scalar.extui v527
  let c0_i32_236 : BitVec 32 := 0#32
  let v529 : BitVec 1 := Scalar.cmpi .slt c4_i32_232 c0_i32_236
  let v530 : BitVec 32 := Scalar.extui v529
  let v531 : BitVec 32 := Scalar.subi v528 v530
  let v532 : BitVec 1 := Scalar.cmpi .ne v526 v531
  let v533 : BitVec 32 := Scalar.remsi v395 c4_i32_232
  let c0_i32_237 : BitVec 32 := 0#32
  let v534 : BitVec 1 := Scalar.cmpi .ne v533 c0_i32_237
  let v535 : BitVec 1 := Scalar.andi v532 v534
  let v521 : BitVec 32 := Scalar.divsi v395 c4_i32_232
  let c1_i32_238 : BitVec 32 := 1#32
  let v536 : BitVec 32 := Scalar.subi v521 c1_i32_238
  let v537 : BitVec 32 := Scalar.select v535 v536 v521
  let c4_i32_239 : BitVec 32 := 4#32
  let c0_i32_240 : BitVec 32 := 0#32
  let v538 : BitVec 1 := Scalar.cmpi .eq c4_i32_239 c0_i32_240
  let c1_i32_241 : BitVec 32 := 1#32
  let v539 : BitVec 32 := Scalar.select v538 c1_i32_241 c4_i32_239
  let v540 : BitVec 32 := Scalar.remsi v395 v539
  let c0_i32_243 : BitVec 32 := 0#32
  let v542 : BitVec 1 := Scalar.cmpi .slt v540 c0_i32_243
  let c0_i32_244 : BitVec 32 := 0#32
  let v543 : BitVec 1 := Scalar.cmpi .slt v539 c0_i32_244
  let v544 : BitVec 1 := Scalar.xori v542 v543
  let c0_i32_242 : BitVec 32 := 0#32
  let v541 : BitVec 1 := Scalar.cmpi .ne v540 c0_i32_242
  let v545 : BitVec 1 := Scalar.andi v544 v541
  let v546 : BitVec 32 := Scalar.addi v540 v539
  let v547 : BitVec 32 := Scalar.select v545 v546 v540
  let c128_i32_245 : BitVec 32 := 128#32
  let v548 : BitVec 32 := Scalar.muli v547 c128_i32_245
  ![v537.toNat, v548.toNat]
def k2_cond7 (k2_t1 : Fin k2_t1_loop.trips) : BitVec 1 :=
  let c0_i32_19 : BitVec 32 := 0#32
  let c1_i32_20 : BitVec 32 := 1#32
  let arg23 : BitVec 32 := Scf.iv c0_i32_19 c1_i32_20 k2_t1
  let c8_i32_178 : BitVec 32 := 8#32
  let v399 : BitVec 32 := Scalar.muli arg23 c8_i32_178
  let c6_i32 : BitVec 32 := 6#32
  let v400 : BitVec 32 := Scalar.addi v399 c6_i32
  let c8_i32_202 : BitVec 32 := 8#32
  let v456 : BitVec 32 := Scalar.addi v400 c8_i32_202
  let c104_i32_203 : BitVec 32 := 104#32
  let v457 : BitVec 1 := Scalar.cmpi .slt v456 c104_i32_203
  let v458 : BitVec 32 := Scalar.extui v457
  let c0_i32_204 : BitVec 32 := 0#32
  let v459 : BitVec 1 := Scalar.cmpi .ne v458 c0_i32_204
  v459

def k2_off9 (k2_t1 : Fin k2_t1_loop.trips) : Fin 2 → Nat :=
  let c0_i32_19 : BitVec 32 := 0#32
  let c1_i32_20 : BitVec 32 := 1#32
  let arg23 : BitVec 32 := Scf.iv c0_i32_19 c1_i32_20 k2_t1
  let c8_i32_178 : BitVec 32 := 8#32
  let v399 : BitVec 32 := Scalar.muli arg23 c8_i32_178
  let c6_i32 : BitVec 32 := 6#32
  let v400 : BitVec 32 := Scalar.addi v399 c6_i32
  let c8_i32_202 : BitVec 32 := 8#32
  let v456 : BitVec 32 := Scalar.addi v400 c8_i32_202
  let c0_i32_233 : BitVec 32 := 0#32
  let v522 : BitVec 1 := Scalar.cmpi .sgt v456 c0_i32_233
  let v523 : BitVec 32 := Scalar.extui v522
  let c0_i32_234 : BitVec 32 := 0#32
  let v524 : BitVec 1 := Scalar.cmpi .slt v456 c0_i32_234
  let v525 : BitVec 32 := Scalar.extui v524
  let v526 : BitVec 32 := Scalar.subi v523 v525
  let c4_i32_232 : BitVec 32 := 4#32
  let c0_i32_235 : BitVec 32 := 0#32
  let v527 : BitVec 1 := Scalar.cmpi .sgt c4_i32_232 c0_i32_235
  let v528 : BitVec 32 := Scalar.extui v527
  let c0_i32_236 : BitVec 32 := 0#32
  let v529 : BitVec 1 := Scalar.cmpi .slt c4_i32_232 c0_i32_236
  let v530 : BitVec 32 := Scalar.extui v529
  let v531 : BitVec 32 := Scalar.subi v528 v530
  let v532 : BitVec 1 := Scalar.cmpi .ne v526 v531
  let v533 : BitVec 32 := Scalar.remsi v456 c4_i32_232
  let c0_i32_237 : BitVec 32 := 0#32
  let v534 : BitVec 1 := Scalar.cmpi .ne v533 c0_i32_237
  let v535 : BitVec 1 := Scalar.andi v532 v534
  let v521 : BitVec 32 := Scalar.divsi v456 c4_i32_232
  let c1_i32_238 : BitVec 32 := 1#32
  let v536 : BitVec 32 := Scalar.subi v521 c1_i32_238
  let v537 : BitVec 32 := Scalar.select v535 v536 v521
  let c4_i32_239 : BitVec 32 := 4#32
  let c0_i32_240 : BitVec 32 := 0#32
  let v538 : BitVec 1 := Scalar.cmpi .eq c4_i32_239 c0_i32_240
  let c1_i32_241 : BitVec 32 := 1#32
  let v539 : BitVec 32 := Scalar.select v538 c1_i32_241 c4_i32_239
  let v540 : BitVec 32 := Scalar.remsi v456 v539
  let c0_i32_243 : BitVec 32 := 0#32
  let v542 : BitVec 1 := Scalar.cmpi .slt v540 c0_i32_243
  let c0_i32_244 : BitVec 32 := 0#32
  let v543 : BitVec 1 := Scalar.cmpi .slt v539 c0_i32_244
  let v544 : BitVec 1 := Scalar.xori v542 v543
  let c0_i32_242 : BitVec 32 := 0#32
  let v541 : BitVec 1 := Scalar.cmpi .ne v540 c0_i32_242
  let v545 : BitVec 1 := Scalar.andi v544 v541
  let v546 : BitVec 32 := Scalar.addi v540 v539
  let v547 : BitVec 32 := Scalar.select v545 v546 v540
  let c128_i32_245 : BitVec 32 := 128#32
  let v548 : BitVec 32 := Scalar.muli v547 c128_i32_245
  ![v537.toNat, v548.toNat]
def k2_cond8 (k2_t1 : Fin k2_t1_loop.trips) : BitVec 1 :=
  let c0_i32_19 : BitVec 32 := 0#32
  let c1_i32_20 : BitVec 32 := 1#32
  let arg23 : BitVec 32 := Scf.iv c0_i32_19 c1_i32_20 k2_t1
  let c8_i32_205 : BitVec 32 := 8#32
  let v460 : BitVec 32 := Scalar.muli arg23 c8_i32_205
  let c7_i32 : BitVec 32 := 7#32
  let v461 : BitVec 32 := Scalar.addi v460 c7_i32
  let c8_i32_229 : BitVec 32 := 8#32
  let v517 : BitVec 32 := Scalar.addi v461 c8_i32_229
  let c104_i32_230 : BitVec 32 := 104#32
  let v518 : BitVec 1 := Scalar.cmpi .slt v517 c104_i32_230
  let v519 : BitVec 32 := Scalar.extui v518
  let c0_i32_231 : BitVec 32 := 0#32
  let v520 : BitVec 1 := Scalar.cmpi .ne v519 c0_i32_231
  v520

def k2_off10 (k2_t1 : Fin k2_t1_loop.trips) : Fin 2 → Nat :=
  let c0_i32_19 : BitVec 32 := 0#32
  let c1_i32_20 : BitVec 32 := 1#32
  let arg23 : BitVec 32 := Scf.iv c0_i32_19 c1_i32_20 k2_t1
  let c8_i32_205 : BitVec 32 := 8#32
  let v460 : BitVec 32 := Scalar.muli arg23 c8_i32_205
  let c7_i32 : BitVec 32 := 7#32
  let v461 : BitVec 32 := Scalar.addi v460 c7_i32
  let c8_i32_229 : BitVec 32 := 8#32
  let v517 : BitVec 32 := Scalar.addi v461 c8_i32_229
  let c0_i32_233 : BitVec 32 := 0#32
  let v522 : BitVec 1 := Scalar.cmpi .sgt v517 c0_i32_233
  let v523 : BitVec 32 := Scalar.extui v522
  let c0_i32_234 : BitVec 32 := 0#32
  let v524 : BitVec 1 := Scalar.cmpi .slt v517 c0_i32_234
  let v525 : BitVec 32 := Scalar.extui v524
  let v526 : BitVec 32 := Scalar.subi v523 v525
  let c4_i32_232 : BitVec 32 := 4#32
  let c0_i32_235 : BitVec 32 := 0#32
  let v527 : BitVec 1 := Scalar.cmpi .sgt c4_i32_232 c0_i32_235
  let v528 : BitVec 32 := Scalar.extui v527
  let c0_i32_236 : BitVec 32 := 0#32
  let v529 : BitVec 1 := Scalar.cmpi .slt c4_i32_232 c0_i32_236
  let v530 : BitVec 32 := Scalar.extui v529
  let v531 : BitVec 32 := Scalar.subi v528 v530
  let v532 : BitVec 1 := Scalar.cmpi .ne v526 v531
  let v533 : BitVec 32 := Scalar.remsi v517 c4_i32_232
  let c0_i32_237 : BitVec 32 := 0#32
  let v534 : BitVec 1 := Scalar.cmpi .ne v533 c0_i32_237
  let v535 : BitVec 1 := Scalar.andi v532 v534
  let v521 : BitVec 32 := Scalar.divsi v517 c4_i32_232
  let c1_i32_238 : BitVec 32 := 1#32
  let v536 : BitVec 32 := Scalar.subi v521 c1_i32_238
  let v537 : BitVec 32 := Scalar.select v535 v536 v521
  let c4_i32_239 : BitVec 32 := 4#32
  let c0_i32_240 : BitVec 32 := 0#32
  let v538 : BitVec 1 := Scalar.cmpi .eq c4_i32_239 c0_i32_240
  let c1_i32_241 : BitVec 32 := 1#32
  let v539 : BitVec 32 := Scalar.select v538 c1_i32_241 c4_i32_239
  let v540 : BitVec 32 := Scalar.remsi v517 v539
  let c0_i32_243 : BitVec 32 := 0#32
  let v542 : BitVec 1 := Scalar.cmpi .slt v540 c0_i32_243
  let c0_i32_244 : BitVec 32 := 0#32
  let v543 : BitVec 1 := Scalar.cmpi .slt v539 c0_i32_244
  let v544 : BitVec 1 := Scalar.xori v542 v543
  let c0_i32_242 : BitVec 32 := 0#32
  let v541 : BitVec 1 := Scalar.cmpi .ne v540 c0_i32_242
  let v545 : BitVec 1 := Scalar.andi v544 v541
  let v546 : BitVec 32 := Scalar.addi v540 v539
  let v547 : BitVec 32 := Scalar.select v545 v546 v540
  let c128_i32_245 : BitVec 32 := 128#32
  let v548 : BitVec 32 := Scalar.muli v547 c128_i32_245
  ![v537.toNat, v548.toNat]
def k2_off11 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22_r1 : BitVec 32 := 0#32
  ![v1.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  transposes_S1000000x32_S32x1000000_1_0 : S1000000x32.Transposes [1, 0] S32x1000000
  inb_S32x65536_S32x65536_0_0 : ∀ a, (![0, 0] : Fin 2 → Nat) a + S32x65536.size a ≤ S32x65536.size a
  h_S32x65536 : 0 < S32x65536.numel
  shapeCasts_S32x65536_S32x65536 : S32x65536.ShapeCasts S32x65536
  reduces_S32x65536_S65536 : S32x65536.Reduces [0] S65536
  inb_S65536_S65536_0 : ∀ a, (![0] : Fin 1 → Nat) a + S65536.size a ≤ S65536.size a
  h_S65536 : 0 < S65536.numel
  inb_S32x1024_S8x1024_0_0 : ∀ a, (![0, 0] : Fin 2 → Nat) a + S8x1024.size a ≤ S32x1024.size a
  inb_S32x1024_S8x1024_8_0 : ∀ a, (![8, 0] : Fin 2 → Nat) a + S8x1024.size a ≤ S32x1024.size a
  inb_S32x1024_S8x1024_16_0 : ∀ a, (![16, 0] : Fin 2 → Nat) a + S8x1024.size a ≤ S32x1024.size a
  inb_S32x1024_S8x1024_24_0 : ∀ a, (![24, 0] : Fin 2 → Nat) a + S8x1024.size a ≤ S32x1024.size a
  h_S1x16 : 0 < S1x16.numel
  shapeCasts_S1x16_S16 : S1x16.ShapeCasts S16
  h_S16 : 0 < S16.numel
  shapeCasts_S16_S16 : S16.ShapeCasts S16
  concatenates_S327680_S672320_S1000000_d0 : Shape.Concatenates [S327680, S672320] S1000000 0
  transposes_S16384x26_S26x16384_1_0 : S16384x26.Transposes [1, 0] S26x16384
  inb_S26x512_S1x128_0_0 : ∀ a, (![0, 0] : Fin 2 → Nat) a + S1x128.size a ≤ S26x512.size a
  squeezes_S1x128_S128 : S1x128.Squeezes S128
  inb_S1000000_S1000000_0 : ∀ a, (![0] : Fin 1 → Nat) a + S1000000.size a ≤ S1000000.size a
  gathers_S1000000_S128 : S1000000.Gathers 0 S128
  inb_S26x512_S1x128_0_128 : ∀ a, (![0, 128] : Fin 2 → Nat) a + S1x128.size a ≤ S26x512.size a
  inb_S26x512_S1x128_0_256 : ∀ a, (![0, 256] : Fin 2 → Nat) a + S1x128.size a ≤ S26x512.size a
  inb_S26x512_S1x128_0_384 : ∀ a, (![0, 384] : Fin 2 → Nat) a + S1x128.size a ≤ S26x512.size a
  inb_S26x512_S1x128_1_0 : ∀ a, (![1, 0] : Fin 2 → Nat) a + S1x128.size a ≤ S26x512.size a
  inb_S26x512_S1x128_1_128 : ∀ a, (![1, 128] : Fin 2 → Nat) a + S1x128.size a ≤ S26x512.size a
  inb_S26x512_S1x128_1_256 : ∀ a, (![1, 256] : Fin 2 → Nat) a + S1x128.size a ≤ S26x512.size a
  inb_S26x512_S1x128_1_384 : ∀ a, (![1, 384] : Fin 2 → Nat) a + S1x128.size a ≤ S26x512.size a
  inb_S128_S16_0 : ∀ a, (![0] : Fin 1 → Nat) a + S16.size a ≤ S128.size a
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  inb_S16_S16_0 : ∀ a, (![0] : Fin 1 → Nat) a + S16.size a ≤ S16.size a
  squeezes_S1x16_S16 : S1x16.Squeezes S16
  reducesTo_S32x16_S_d0_1 : S32x16.ReducesTo [0, 1] S_
  h_S_ : 0 < S_.numel
  hcc1_scratch3 : 4 + S_.numel ≤ 17
  hcc1_scratch4 : 5 + S_.numel ≤ 17
  hcc1_scoped0 : 6 + S_.numel ≤ 17
  hcc2_scratch10 : 7 + S_.numel ≤ 17
  hcc2_scratch11 : 8 + S_.numel ≤ 17
  hcc2_scratch12 : 9 + S_.numel ≤ 17
  hcc2_scratch13 : 10 + S_.numel ≤ 17
  hcc2_scratch14 : 11 + S_.numel ≤ 17
  hcc2_scratch15 : 12 + S_.numel ≤ 17
  hcc2_scratch16 : 13 + S_.numel ≤ 17
  hcc2_scratch17 : 14 + S_.numel ≤ 17
  hcc2_scoped0 : 15 + S_.numel ≤ 17
  hcc2_scoped1 : 16 + S_.numel ≤ 17
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x65536.size a < S32x1000000.size a
  hwx0_0 : ∀ i : grid0.Coords, EltTy.bits .f32 = 32 ∨ (Rect.unit (s := S32x1000000) (fun a => cc0_transform_0 i a * S32x65536.size a) (fun a => (Pipeline.Clip.of (cc0_transform_0 i a) (S32x65536.size a) (S32x1000000.size a)).extent (S32x65536.size a)) fun a => Pipeline.Clip.inb (Pipeline.Clip.ok_of (hstart0_0 i a))).WholeWords (EltTy.packing .f32)
  hwxs0_0 : ∀ i : grid0.Coords, EltTy.bits .f32 = 32 ∨ (Rect.unit (s := S32x65536) (fun _ => 0) (fun a => (Pipeline.Clip.of (cc0_transform_0 i a) (S32x65536.size a) (S32x1000000.size a)).extent (S32x65536.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S65536.size a < S672320.size a
  hwx0_1 : ∀ i : grid0.Coords, EltTy.bits .f32 = 32 ∨ (Rect.unit (s := S672320) (fun a => cc0_transform_1 i a * S65536.size a) (fun a => (Pipeline.Clip.of (cc0_transform_1 i a) (S65536.size a) (S672320.size a)).extent (S65536.size a)) fun a => Pipeline.Clip.inb (Pipeline.Clip.ok_of (hstart0_1 i a))).WholeWords (EltTy.packing .f32)
  hwxs0_1 : ∀ i : grid0.Coords, EltTy.bits .f32 = 32 ∨ (Rect.unit (s := S65536) (fun _ => 0) (fun a => (Pipeline.Clip.of (cc0_transform_1 i a) (S65536.size a) (S672320.size a)).extent (S65536.size a)) fun a => (Nat.zero_add _).trans_le (Pipeline.Clip.extent_le (Pipeline.Clip.ok_of (hstart0_1 i a)))).WholeWords (EltTy.packing .f32)
  hcore1 : grid1.bound 0 ≤ τ.nSC
  hsub1 : grid1.bound 1 ≤ τ.nSub
  k1_off1_inb : ∀ i : grid1.Coords, ∀ (r : Fin 2), ∀ a, (k1_off1 i (BitVec.ofNat 32 (1024 * r.val))) a + S8x1024.size a ≤ S32x1000000.size a
  k1_off2_inb : ∀ i : grid1.Coords, ∀ (r : Fin 2), ∀ a, (k1_off2 i (BitVec.ofNat 32 (1024 * r.val))) a + S8x1024.size a ≤ S32x1000000.size a
  k1_off3_inb : ∀ i : grid1.Coords, ∀ (r : Fin 2), ∀ a, (k1_off3 i (BitVec.ofNat 32 (1024 * r.val))) a + S8x1024.size a ≤ S32x1000000.size a
  k1_off4_inb : ∀ i : grid1.Coords, ∀ (r : Fin 2), ∀ a, (k1_off4 i (BitVec.ofNat 32 (1024 * r.val))) a + S8x1024.size a ≤ S32x1000000.size a
  k1_t1_ok : k1_t1_loop.OK
  k1_off5_inb : ∀ (i : grid1.Coords) (k1_t1 : Fin k1_t1_loop.trips), ∀ (r : Fin 2), ∀ a, (k1_off5 i k1_t1 (BitVec.ofNat 32 r.val)) a + S8x1024.size a ≤ S32x1000000.size a
  k1_off6_inb : ∀ (i : grid1.Coords) (k1_t1 : Fin k1_t1_loop.trips), ∀ (r : Fin 2), ∀ a, (k1_off6 i k1_t1 (BitVec.ofNat 32 r.val)) a + S8x1024.size a ≤ S32x1000000.size a
  k1_off7_inb : ∀ (i : grid1.Coords) (k1_t1 : Fin k1_t1_loop.trips), ∀ (r : Fin 2), ∀ a, (k1_off7 i k1_t1 (BitVec.ofNat 32 r.val)) a + S8x1024.size a ≤ S32x1000000.size a
  k1_off8_inb : ∀ (i : grid1.Coords) (k1_t1 : Fin k1_t1_loop.trips), ∀ (r : Fin 2), ∀ a, (k1_off8 i k1_t1 (BitVec.ofNat 32 r.val)) a + S8x1024.size a ≤ S32x1000000.size a
  k1_t2_ok : k1_t2_loop.OK
  k1_off9_inb : ∀ k1_t2 : Fin k1_t2_loop.trips, ∀ (r : Fin 4), ∀ a, (k1_off9 k1_t2 (BitVec.ofNat 32 r.val)) a + S1x16.size a ≤ S32x1024.size a
  k1_off10_inb : ∀ k1_t2 : Fin k1_t2_loop.trips, ∀ (r : Fin 4), ∀ a, (k1_off10 k1_t2 (BitVec.ofNat 32 r.val)) a + S1x16.size a ≤ S32x1024.size a
  k1_off11_inb : ∀ k1_t2 : Fin k1_t2_loop.trips, ∀ (r : Fin 4), ∀ a, (k1_off11 k1_t2 (BitVec.ofNat 32 r.val)) a + S1x16.size a ≤ S32x1024.size a
  k1_off12_inb : ∀ k1_t2 : Fin k1_t2_loop.trips, ∀ (r : Fin 4), ∀ a, (k1_off12 k1_t2 (BitVec.ofNat 32 r.val)) a + S1x16.size a ≤ S32x1024.size a
  k1_off13_inb : ∀ k1_t2 : Fin k1_t2_loop.trips, ∀ (r : Fin 4), ∀ a, (k1_off13 k1_t2 (BitVec.ofNat 32 r.val)) a + S1x16.size a ≤ S32x1024.size a
  k1_off14_inb : ∀ k1_t2 : Fin k1_t2_loop.trips, ∀ (r : Fin 4), ∀ a, (k1_off14 k1_t2 (BitVec.ofNat 32 r.val)) a + S1x16.size a ≤ S32x1024.size a
  k1_off15_inb : ∀ k1_t2 : Fin k1_t2_loop.trips, ∀ (r : Fin 4), ∀ a, (k1_off15 k1_t2 (BitVec.ofNat 32 r.val)) a + S1x16.size a ≤ S32x1024.size a
  k1_off16_inb : ∀ k1_t2 : Fin k1_t2_loop.trips, ∀ (r : Fin 4), ∀ a, (k1_off16 k1_t2 (BitVec.ofNat 32 r.val)) a + S1x16.size a ≤ S32x1024.size a
  k1_off17_inb : ∀ k1_t2 : Fin k1_t2_loop.trips, ∀ (r : Fin 4), ∀ a, (k1_off17 k1_t2 (BitVec.ofNat 32 r.val)) a + S1x16.size a ≤ S32x1024.size a
  k1_off18_inb : ∀ k1_t2 : Fin k1_t2_loop.trips, ∀ (r : Fin 4), ∀ a, (k1_off18 k1_t2 (BitVec.ofNat 32 r.val)) a + S1x16.size a ≤ S32x1024.size a
  k1_off19_inb : ∀ k1_t2 : Fin k1_t2_loop.trips, ∀ (r : Fin 4), ∀ a, (k1_off19 k1_t2 (BitVec.ofNat 32 r.val)) a + S1x16.size a ≤ S32x1024.size a
  k1_off20_inb : ∀ k1_t2 : Fin k1_t2_loop.trips, ∀ (r : Fin 4), ∀ a, (k1_off20 k1_t2 (BitVec.ofNat 32 r.val)) a + S1x16.size a ≤ S32x1024.size a
  k1_off21_inb : ∀ k1_t2 : Fin k1_t2_loop.trips, ∀ (r : Fin 4), ∀ a, (k1_off21 k1_t2 (BitVec.ofNat 32 r.val)) a + S1x16.size a ≤ S32x1024.size a
  k1_off22_inb : ∀ k1_t2 : Fin k1_t2_loop.trips, ∀ (r : Fin 4), ∀ a, (k1_off22 k1_t2 (BitVec.ofNat 32 r.val)) a + S1x16.size a ≤ S32x1024.size a
  k1_off23_inb : ∀ k1_t2 : Fin k1_t2_loop.trips, ∀ (r : Fin 4), ∀ a, (k1_off23 k1_t2 (BitVec.ofNat 32 r.val)) a + S1x16.size a ≤ S32x1024.size a
  k1_off24_inb : ∀ k1_t2 : Fin k1_t2_loop.trips, ∀ (r : Fin 4), ∀ a, (k1_off24 k1_t2 (BitVec.ofNat 32 r.val)) a + S1x16.size a ≤ S32x1024.size a
  k1_off25_inb : ∀ k1_t2 : Fin k1_t2_loop.trips, ∀ (r : Fin 4), ∀ a, (k1_off25 k1_t2 (BitVec.ofNat 32 r.val)) a + S1x16.size a ≤ S32x1024.size a
  k1_off26_inb : ∀ k1_t2 : Fin k1_t2_loop.trips, ∀ (r : Fin 4), ∀ a, (k1_off26 k1_t2 (BitVec.ofNat 32 r.val)) a + S1x16.size a ≤ S32x1024.size a
  k1_off27_inb : ∀ k1_t2 : Fin k1_t2_loop.trips, ∀ (r : Fin 4), ∀ a, (k1_off27 k1_t2 (BitVec.ofNat 32 r.val)) a + S1x16.size a ≤ S32x1024.size a
  k1_off28_inb : ∀ k1_t2 : Fin k1_t2_loop.trips, ∀ (r : Fin 4), ∀ a, (k1_off28 k1_t2 (BitVec.ofNat 32 r.val)) a + S1x16.size a ≤ S32x1024.size a
  k1_off29_inb : ∀ k1_t2 : Fin k1_t2_loop.trips, ∀ (r : Fin 4), ∀ a, (k1_off29 k1_t2 (BitVec.ofNat 32 r.val)) a + S1x16.size a ≤ S32x1024.size a
  k1_off30_inb : ∀ k1_t2 : Fin k1_t2_loop.trips, ∀ (r : Fin 4), ∀ a, (k1_off30 k1_t2 (BitVec.ofNat 32 r.val)) a + S1x16.size a ≤ S32x1024.size a
  k1_off31_inb : ∀ k1_t2 : Fin k1_t2_loop.trips, ∀ (r : Fin 4), ∀ a, (k1_off31 k1_t2 (BitVec.ofNat 32 r.val)) a + S1x16.size a ≤ S32x1024.size a
  k1_off32_inb : ∀ k1_t2 : Fin k1_t2_loop.trips, ∀ (r : Fin 4), ∀ a, (k1_off32 k1_t2 (BitVec.ofNat 32 r.val)) a + S1x16.size a ≤ S32x1024.size a
  k1_off33_inb : ∀ k1_t2 : Fin k1_t2_loop.trips, ∀ (r : Fin 4), ∀ a, (k1_off33 k1_t2 (BitVec.ofNat 32 r.val)) a + S1x16.size a ≤ S32x1024.size a
  k1_off34_inb : ∀ k1_t2 : Fin k1_t2_loop.trips, ∀ (r : Fin 4), ∀ a, (k1_off34 k1_t2 (BitVec.ofNat 32 r.val)) a + S1x16.size a ≤ S32x1024.size a
  k1_off35_inb : ∀ k1_t2 : Fin k1_t2_loop.trips, ∀ (r : Fin 4), ∀ a, (k1_off35 k1_t2 (BitVec.ofNat 32 r.val)) a + S1x16.size a ≤ S32x1024.size a
  k1_off36_inb : ∀ k1_t2 : Fin k1_t2_loop.trips, ∀ (r : Fin 4), ∀ a, (k1_off36 k1_t2 (BitVec.ofNat 32 r.val)) a + S1x16.size a ≤ S32x1024.size a
  k1_off37_inb : ∀ k1_t2 : Fin k1_t2_loop.trips, ∀ (r : Fin 4), ∀ a, (k1_off37 k1_t2 (BitVec.ofNat 32 r.val)) a + S1x16.size a ≤ S32x1024.size a
  k1_off38_inb : ∀ k1_t2 : Fin k1_t2_loop.trips, ∀ (r : Fin 4), ∀ a, (k1_off38 k1_t2 (BitVec.ofNat 32 r.val)) a + S1x16.size a ≤ S32x1024.size a
  k1_off39_inb : ∀ k1_t2 : Fin k1_t2_loop.trips, ∀ (r : Fin 4), ∀ a, (k1_off39 k1_t2 (BitVec.ofNat 32 r.val)) a + S1x16.size a ≤ S32x1024.size a
  k1_off40_inb : ∀ k1_t2 : Fin k1_t2_loop.trips, ∀ (r : Fin 4), ∀ a, (k1_off40 k1_t2 (BitVec.ofNat 32 r.val)) a + S1x16.size a ≤ S32x1024.size a
  k1_off41_inb : ∀ (k1_t1 : Fin k1_t1_loop.trips) (k1_t2 : Fin k1_t2_loop.trips), ∀ (r : Fin 4), ∀ a, (k1_off41 k1_t1 k1_t2 (BitVec.ofNat 32 r.val)) a + S16.size a ≤ S10240.size a
  k1_off42_inb : ∀ (i : grid1.Coords) (k1_t1 : Fin k1_t1_loop.trips), ∀ (k1_h1 : k1_cond1 k1_t1 = 1#1), ∀ a, (k1_off42 i k1_t1) a + S8x1024.size a ≤ S32x1000000.size a
  k1_off43_inb : ∀ (i : grid1.Coords) (k1_t1 : Fin k1_t1_loop.trips), ∀ (k1_h1 : k1_cond1 k1_t1 = 1#1), ∀ a, (k1_off43 i k1_t1) a + S8x1024.size a ≤ S32x1000000.size a
  k1_off44_inb : ∀ (i : grid1.Coords) (k1_t1 : Fin k1_t1_loop.trips), ∀ (k1_h1 : k1_cond1 k1_t1 = 1#1), ∀ a, (k1_off44 i k1_t1) a + S8x1024.size a ≤ S32x1000000.size a
  k1_off45_inb : ∀ (i : grid1.Coords) (k1_t1 : Fin k1_t1_loop.trips), ∀ (k1_h1 : k1_cond1 k1_t1 = 1#1), ∀ a, (k1_off45 i k1_t1) a + S8x1024.size a ≤ S32x1000000.size a
  k1_t3_ok : k1_t3_loop.OK
  k1_off46_inb : ∀ k1_t3 : Fin k1_t3_loop.trips, ∀ (r : Fin 4), ∀ a, (k1_off46 k1_t3 (BitVec.ofNat 32 r.val)) a + S1x16.size a ≤ S32x1024.size a
  k1_off47_inb : ∀ k1_t3 : Fin k1_t3_loop.trips, ∀ (r : Fin 4), ∀ a, (k1_off47 k1_t3 (BitVec.ofNat 32 r.val)) a + S1x16.size a ≤ S32x1024.size a
  k1_off48_inb : ∀ k1_t3 : Fin k1_t3_loop.trips, ∀ (r : Fin 4), ∀ a, (k1_off48 k1_t3 (BitVec.ofNat 32 r.val)) a + S1x16.size a ≤ S32x1024.size a
  k1_off49_inb : ∀ k1_t3 : Fin k1_t3_loop.trips, ∀ (r : Fin 4), ∀ a, (k1_off49 k1_t3 (BitVec.ofNat 32 r.val)) a + S1x16.size a ≤ S32x1024.size a
  k1_off50_inb : ∀ k1_t3 : Fin k1_t3_loop.trips, ∀ (r : Fin 4), ∀ a, (k1_off50 k1_t3 (BitVec.ofNat 32 r.val)) a + S1x16.size a ≤ S32x1024.size a
  k1_off51_inb : ∀ k1_t3 : Fin k1_t3_loop.trips, ∀ (r : Fin 4), ∀ a, (k1_off51 k1_t3 (BitVec.ofNat 32 r.val)) a + S1x16.size a ≤ S32x1024.size a
  k1_off52_inb : ∀ k1_t3 : Fin k1_t3_loop.trips, ∀ (r : Fin 4), ∀ a, (k1_off52 k1_t3 (BitVec.ofNat 32 r.val)) a + S1x16.size a ≤ S32x1024.size a
  k1_off53_inb : ∀ k1_t3 : Fin k1_t3_loop.trips, ∀ (r : Fin 4), ∀ a, (k1_off53 k1_t3 (BitVec.ofNat 32 r.val)) a + S1x16.size a ≤ S32x1024.size a
  k1_off54_inb : ∀ k1_t3 : Fin k1_t3_loop.trips, ∀ (r : Fin 4), ∀ a, (k1_off54 k1_t3 (BitVec.ofNat 32 r.val)) a + S1x16.size a ≤ S32x1024.size a
  k1_off55_inb : ∀ k1_t3 : Fin k1_t3_loop.trips, ∀ (r : Fin 4), ∀ a, (k1_off55 k1_t3 (BitVec.ofNat 32 r.val)) a + S1x16.size a ≤ S32x1024.size a
  k1_off56_inb : ∀ k1_t3 : Fin k1_t3_loop.trips, ∀ (r : Fin 4), ∀ a, (k1_off56 k1_t3 (BitVec.ofNat 32 r.val)) a + S1x16.size a ≤ S32x1024.size a
  k1_off57_inb : ∀ k1_t3 : Fin k1_t3_loop.trips, ∀ (r : Fin 4), ∀ a, (k1_off57 k1_t3 (BitVec.ofNat 32 r.val)) a + S1x16.size a ≤ S32x1024.size a
  k1_off58_inb : ∀ k1_t3 : Fin k1_t3_loop.trips, ∀ (r : Fin 4), ∀ a, (k1_off58 k1_t3 (BitVec.ofNat 32 r.val)) a + S1x16.size a ≤ S32x1024.size a
  k1_off59_inb : ∀ k1_t3 : Fin k1_t3_loop.trips, ∀ (r : Fin 4), ∀ a, (k1_off59 k1_t3 (BitVec.ofNat 32 r.val)) a + S1x16.size a ≤ S32x1024.size a
  k1_off60_inb : ∀ k1_t3 : Fin k1_t3_loop.trips, ∀ (r : Fin 4), ∀ a, (k1_off60 k1_t3 (BitVec.ofNat 32 r.val)) a + S1x16.size a ≤ S32x1024.size a
  k1_off61_inb : ∀ k1_t3 : Fin k1_t3_loop.trips, ∀ (r : Fin 4), ∀ a, (k1_off61 k1_t3 (BitVec.ofNat 32 r.val)) a + S1x16.size a ≤ S32x1024.size a
  k1_off62_inb : ∀ k1_t3 : Fin k1_t3_loop.trips, ∀ (r : Fin 4), ∀ a, (k1_off62 k1_t3 (BitVec.ofNat 32 r.val)) a + S1x16.size a ≤ S32x1024.size a
  k1_off63_inb : ∀ k1_t3 : Fin k1_t3_loop.trips, ∀ (r : Fin 4), ∀ a, (k1_off63 k1_t3 (BitVec.ofNat 32 r.val)) a + S1x16.size a ≤ S32x1024.size a
  k1_off64_inb : ∀ k1_t3 : Fin k1_t3_loop.trips, ∀ (r : Fin 4), ∀ a, (k1_off64 k1_t3 (BitVec.ofNat 32 r.val)) a + S1x16.size a ≤ S32x1024.size a
  k1_off65_inb : ∀ k1_t3 : Fin k1_t3_loop.trips, ∀ (r : Fin 4), ∀ a, (k1_off65 k1_t3 (BitVec.ofNat 32 r.val)) a + S1x16.size a ≤ S32x1024.size a
  k1_off66_inb : ∀ k1_t3 : Fin k1_t3_loop.trips, ∀ (r : Fin 4), ∀ a, (k1_off66 k1_t3 (BitVec.ofNat 32 r.val)) a + S1x16.size a ≤ S32x1024.size a
  k1_off67_inb : ∀ k1_t3 : Fin k1_t3_loop.trips, ∀ (r : Fin 4), ∀ a, (k1_off67 k1_t3 (BitVec.ofNat 32 r.val)) a + S1x16.size a ≤ S32x1024.size a
  k1_off68_inb : ∀ k1_t3 : Fin k1_t3_loop.trips, ∀ (r : Fin 4), ∀ a, (k1_off68 k1_t3 (BitVec.ofNat 32 r.val)) a + S1x16.size a ≤ S32x1024.size a
  k1_off69_inb : ∀ k1_t3 : Fin k1_t3_loop.trips, ∀ (r : Fin 4), ∀ a, (k1_off69 k1_t3 (BitVec.ofNat 32 r.val)) a + S1x16.size a ≤ S32x1024.size a
  k1_off70_inb : ∀ k1_t3 : Fin k1_t3_loop.trips, ∀ (r : Fin 4), ∀ a, (k1_off70 k1_t3 (BitVec.ofNat 32 r.val)) a + S1x16.size a ≤ S32x1024.size a
  k1_off71_inb : ∀ k1_t3 : Fin k1_t3_loop.trips, ∀ (r : Fin 4), ∀ a, (k1_off71 k1_t3 (BitVec.ofNat 32 r.val)) a + S1x16.size a ≤ S32x1024.size a
  k1_off72_inb : ∀ k1_t3 : Fin k1_t3_loop.trips, ∀ (r : Fin 4), ∀ a, (k1_off72 k1_t3 (BitVec.ofNat 32 r.val)) a + S1x16.size a ≤ S32x1024.size a
  k1_off73_inb : ∀ k1_t3 : Fin k1_t3_loop.trips, ∀ (r : Fin 4), ∀ a, (k1_off73 k1_t3 (BitVec.ofNat 32 r.val)) a + S1x16.size a ≤ S32x1024.size a
  k1_off74_inb : ∀ k1_t3 : Fin k1_t3_loop.trips, ∀ (r : Fin 4), ∀ a, (k1_off74 k1_t3 (BitVec.ofNat 32 r.val)) a + S1x16.size a ≤ S32x1024.size a
  k1_off75_inb : ∀ k1_t3 : Fin k1_t3_loop.trips, ∀ (r : Fin 4), ∀ a, (k1_off75 k1_t3 (BitVec.ofNat 32 r.val)) a + S1x16.size a ≤ S32x1024.size a
  k1_off76_inb : ∀ k1_t3 : Fin k1_t3_loop.trips, ∀ (r : Fin 4), ∀ a, (k1_off76 k1_t3 (BitVec.ofNat 32 r.val)) a + S1x16.size a ≤ S32x1024.size a
  k1_off77_inb : ∀ k1_t3 : Fin k1_t3_loop.trips, ∀ (r : Fin 4), ∀ a, (k1_off77 k1_t3 (BitVec.ofNat 32 r.val)) a + S1x16.size a ≤ S32x1024.size a
  k1_off78_inb : ∀ (k1_t1 : Fin k1_t1_loop.trips) (k1_t3 : Fin k1_t3_loop.trips), ∀ (r : Fin 4), ∀ a, (k1_off78 k1_t1 k1_t3 (BitVec.ofNat 32 r.val)) a + S16.size a ≤ S10240.size a
  k1_off79_inb : ∀ (i : grid1.Coords) (k1_t1 : Fin k1_t1_loop.trips), ∀ (k1_h2 : k1_cond2 k1_t1 = 1#1), ∀ a, (k1_off79 i k1_t1) a + S8x1024.size a ≤ S32x1000000.size a
  k1_off80_inb : ∀ (i : grid1.Coords) (k1_t1 : Fin k1_t1_loop.trips), ∀ (k1_h2 : k1_cond2 k1_t1 = 1#1), ∀ a, (k1_off80 i k1_t1) a + S8x1024.size a ≤ S32x1000000.size a
  k1_off81_inb : ∀ (i : grid1.Coords) (k1_t1 : Fin k1_t1_loop.trips), ∀ (k1_h2 : k1_cond2 k1_t1 = 1#1), ∀ a, (k1_off81 i k1_t1) a + S8x1024.size a ≤ S32x1000000.size a
  k1_off82_inb : ∀ (i : grid1.Coords) (k1_t1 : Fin k1_t1_loop.trips), ∀ (k1_h2 : k1_cond2 k1_t1 = 1#1), ∀ a, (k1_off82 i k1_t1) a + S8x1024.size a ≤ S32x1000000.size a
  k1_off83_inb : ∀ i : grid1.Coords, ∀ a, (k1_off83 i) a + S10240.size a ≤ S327680.size a
  hcore2 : grid2.bound 0 ≤ τ.nSC
  hsub2 : grid2.bound 1 ≤ τ.nSub
  k2_off1_inb : ∀ i : grid2.Coords, ∀ a, (k2_off1 i) a + S26x512.size a ≤ S26x16384.size a
  k2_t1_ok : k2_t1_loop.OK
  k2_off2_inb : ∀ k2_t1 : Fin k2_t1_loop.trips, ∀ (r : Fin 8), ∀ a, (k2_off2 k2_t1 (BitVec.ofNat 32 r.val)) a + S1x128.size a ≤ S26x512.size a
  k2_off3_inb : ∀ k2_t1 : Fin k2_t1_loop.trips, ∀ (k2_h1 : k2_cond1 k2_t1 = 1#1), ∀ a, (k2_off3 k2_t1) a + S1x128.size a ≤ S26x512.size a
  k2_off4_inb : ∀ k2_t1 : Fin k2_t1_loop.trips, ∀ (k2_h2 : k2_cond2 k2_t1 = 1#1), ∀ a, (k2_off4 k2_t1) a + S1x128.size a ≤ S26x512.size a
  k2_off5_inb : ∀ k2_t1 : Fin k2_t1_loop.trips, ∀ (k2_h3 : k2_cond3 k2_t1 = 1#1), ∀ a, (k2_off5 k2_t1) a + S1x128.size a ≤ S26x512.size a
  k2_off6_inb : ∀ k2_t1 : Fin k2_t1_loop.trips, ∀ (k2_h4 : k2_cond4 k2_t1 = 1#1), ∀ a, (k2_off6 k2_t1) a + S1x128.size a ≤ S26x512.size a
  k2_off7_inb : ∀ k2_t1 : Fin k2_t1_loop.trips, ∀ (k2_h5 : k2_cond5 k2_t1 = 1#1), ∀ a, (k2_off7 k2_t1) a + S1x128.size a ≤ S26x512.size a
  k2_off8_inb : ∀ k2_t1 : Fin k2_t1_loop.trips, ∀ (k2_h6 : k2_cond6 k2_t1 = 1#1), ∀ a, (k2_off8 k2_t1) a + S1x128.size a ≤ S26x512.size a
  k2_off9_inb : ∀ k2_t1 : Fin k2_t1_loop.trips, ∀ (k2_h7 : k2_cond7 k2_t1 = 1#1), ∀ a, (k2_off9 k2_t1) a + S1x128.size a ≤ S26x512.size a
  k2_off10_inb : ∀ k2_t1 : Fin k2_t1_loop.trips, ∀ (k2_h8 : k2_cond8 k2_t1 = 1#1), ∀ a, (k2_off10 k2_t1) a + S1x128.size a ≤ S26x512.size a
  k2_off11_inb : ∀ i : grid2.Coords, ∀ a, (k2_off11 i) a + S1x16.size a ≤ S32x16.size a

variable [Facts₀]

abbrev cc1_scratch3 : DmaSems sig S_ := SemArray.consecutive 4 S_ hcc1_scratch3
abbrev cc1_scratch4 : DmaSems sig S_ := SemArray.consecutive 5 S_ hcc1_scratch4
abbrev cc1_scoped0 : DmaSems sig S_ := SemArray.consecutive 6 S_ hcc1_scoped0
abbrev cc2_scratch10 : DmaSems sig S_ := SemArray.consecutive 7 S_ hcc2_scratch10
abbrev cc2_scratch11 : DmaSems sig S_ := SemArray.consecutive 8 S_ hcc2_scratch11
abbrev cc2_scratch12 : DmaSems sig S_ := SemArray.consecutive 9 S_ hcc2_scratch12
abbrev cc2_scratch13 : DmaSems sig S_ := SemArray.consecutive 10 S_ hcc2_scratch13
abbrev cc2_scratch14 : DmaSems sig S_ := SemArray.consecutive 11 S_ hcc2_scratch14
abbrev cc2_scratch15 : DmaSems sig S_ := SemArray.consecutive 12 S_ hcc2_scratch15
abbrev cc2_scratch16 : DmaSems sig S_ := SemArray.consecutive 13 S_ hcc2_scratch16
abbrev cc2_scratch17 : DmaSems sig S_ := SemArray.consecutive 14 S_ hcc2_scratch17
abbrev cc2_scoped0 : DmaSems sig S_ := SemArray.consecutive 15 S_ hcc2_scoped0
abbrev cc2_scoped1 : DmaSems sig S_ := SemArray.consecutive 16 S_ hcc2_scoped1

abbrev win0_0 : Pipeline.Window sig grid0 :=
  Pipeline.Window.ofSpecClip (Memref.whole main_v0) S32x65536.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S65536.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x26 : Shape := ⟨2, ![16384, 26]⟩
abbrev S1000000x32 : Shape := ⟨2, ![1000000, 32]⟩
abbrev S_ : Shape := ⟨0, ![]⟩
abbrev S16384x26x1 : Shape := ⟨3, ![16384, 26, 1]⟩
abbrev S1 : Shape := ⟨1, ![1]⟩
abbrev S1x1x1 : Shape := ⟨3, ![1, 1, 1]⟩
abbrev S16384x26x32 : Shape := ⟨3, ![16384, 26, 32]⟩

abbrev nBuf : Space → Nat
  | .hbm => 29
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S1000000x32, .f32⟩
  | .hbm, ⟨2, _⟩ => ⟨S_, .i32⟩
  | .hbm, ⟨3, _⟩ => ⟨S16384x26, .i32⟩
  | .hbm, ⟨4, _⟩ => ⟨S16384x26, .i1⟩
  | .hbm, ⟨5, _⟩ => ⟨S_, .i32⟩
  | .hbm, ⟨6, _⟩ => ⟨S16384x26, .i32⟩
  | .hbm, ⟨7, _⟩ => ⟨S16384x26, .i32⟩
  | .hbm, ⟨8, _⟩ => ⟨S16384x26, .i32⟩
  | .hbm, ⟨9, _⟩ => ⟨S16384x26x1, .i32⟩
  | .hbm, ⟨10, _⟩ => ⟨S1, .i32⟩
  | .hbm, ⟨11, _⟩ => ⟨S_, .i32⟩
  | .hbm, ⟨12, _⟩ => ⟨S16384x26x1, .i32⟩
  | .hbm, ⟨13, _⟩ => ⟨S16384x26x1, .i1⟩
  | .hbm, ⟨14, _⟩ => ⟨S1x1x1, .i32⟩
  | .hbm, ⟨15, _⟩ => ⟨S16384x26x1, .i32⟩
  | .hbm, ⟨16, _⟩ => ⟨S16384x26x1, .i1⟩
  | .hbm, ⟨17, _⟩ => ⟨S16384x26x1, .i1⟩
  | .hbm, ⟨18, _⟩ => ⟨S_, .i1⟩
  | .hbm, ⟨19, _⟩ => ⟨S16384x26, .i1⟩
  | .hbm, ⟨20, _⟩ => ⟨S16384x26x32, .f32⟩
  | .hbm, ⟨21, _⟩ => ⟨S16384x26x32, .i1⟩
  | .hbm, ⟨22, _⟩ => ⟨S_, .f32⟩
  | .hbm, ⟨23, _⟩ => ⟨S16384x26x32, .f32⟩
  | .hbm, ⟨24, _⟩ => ⟨S16384x26x32, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩

abbrev nD : Nat := 1
abbrev τ : Topo := Topo.v7x

variable {F : FTy → Type} [FloatOps F]

class Facts₀ : Prop where
  bcast_S_S16384x26 : S_.BroadcastsInDim S16384x26 (![] : Fin 0 → Fin S16384x26.rank)
  bcast_S16384x26_S16384x26x1_0_1 : S16384x26.BroadcastsInDim S16384x26x1 (![0, 1] : Fin 2 → Fin S16384x26x1.rank)
  bcast_S_S16384x26x1 : S_.BroadcastsInDim S16384x26x1 (![] : Fin 0 → Fin S16384x26x1.rank)
  bcast_S1_S1x1x1_2 : S1.BroadcastsInDim S1x1x1 (![2] : Fin 1 → Fin S1x1x1.rank)
  bcast_S1x1x1_S16384x26x1_0_1_2 : S1x1x1.BroadcastsInDim S16384x26x1 (![0, 1, 2] : Fin 3 → Fin S16384x26x1.rank)
  reducesTo_S16384x26x1_S16384x26_d2 : S16384x26x1.ReducesTo [2] S16384x26
  h_S_ : 0 < S_.numel
  bcast_S16384x26_S16384x26x32_0_1 : S16384x26.BroadcastsInDim S16384x26x32 (![0, 1] : Fin 2 → Fin S16384x26x32.rank)
  bcast_S_S16384x26x32 : S_.BroadcastsInDim S16384x26x32 (![] : Fin 0 → Fin S16384x26x32.rank)
  reducesTo_S16384x26x32_S_d0_1_2 : S16384x26x32.ReducesTo [0, 1, 2] S_
  gather_S1000000x32_S16384x26x1_S16384x26x32_2_0_n_n_0_2_132_wf : GatherDims.WF S1000000x32 S16384x26x1 S16384x26x32 [2] [0] [] [0] [] 2 ![1, 32]

variable [Facts₀]

def gather_S1000000x32_S16384x26x1_S16384x26x32_2_0_n_n_0_2_132 : GatherDims S1000000x32 S16384x26x1 S16384x26x32 where
  offsetDims := [2]
  collapsedSliceDims := [0]
  operandBatchingDims := []
  startIndicesBatchingDims := []
  startIndexMap := [0]
  indexVectorDim := 2
  sliceSizes := ![1, 32]
  wf := gather_S1000000x32_S16384x26x1_S16384x26x32_2_0_n_n_0_2_132_wf

class Facts : Prop extends Facts₀ where

variable [Facts]
-- ==== Proof.KI.Common.lean ====
/-
  The program as the SparseCore launch theorem sees it: the label signature, the configuration of the two SparseCore
  calls, the body table under the one TensorCore pipeline, the variants, the configuration's facts, and the resource
  algebra — the handshakes' rounds beside the pipeline's staging-cell rounds beside the transfers' counters.
-/
import proofs.«203338_g27195732918861_cont_9to1_1050_16_alg».proof.Defs
import proofs.«203338_g27195732918861_cont_9to1_1050_16_alg».proof.Proof.Gen.KernelIdeal
import proofs.«203338_g27195732918861_cont_9to1_1050_16_alg».proof.Proof.Gen.KernelIdeal.Skeleton
import proofs.«203338_g27195732918861_cont_9to1_1050_16_alg».proof.Proof.Gen.KernelIdeal.Launch
import proofs.«203338_g27195732918861_cont_9to1_1050_16_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_q (q : Fin 2) : (K (F := F)).nSub q = 16 := by fin_cases q <;> rfl
theorem nCore_q (q : Fin 2) : (K (F := F)).nCore q = 2 := by fin_cases q <;> rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The TensorCore pipeline's staging cells' rounds. -/
abbrev UP : Type := URounds (GSem nD τ sig) Unit
/-- Handshakes, staging cells, and the transfers' counters (found by instance in the right factor). -/
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) :=
  (Emb.inl : Emb UP (UP × Counters)).trans (embR (A := UH) (B := UP × Counters))

instance EP_landsIn : (EP : Emb UP 𝕄).LandsIn (upEmb : UEmb _ 𝕄) := by unfold EP embR; infer_instance

/-- The launch element splits into the handshakes' part, the staging cells' part and the counters' part. -/
theorem ownU_split3 (a : UH) (b : UP) (c : Counters) :
    (ownU ((a, (b, c)) : UU) : sProp 𝕄) ⊢ iprop(BI.own (EH a) ∗ BI.own (EP b)) := by
  iintro Hu
  ihave H := (ownU_pair (nD := nD) (τ := τ) (sig := sig) (Ix := HIx 2) (Val := Elt F) (Name := ℕ) (Lvl := ℕ) a ((b, c) : UP × Counters)) $$ Hu
  icases H with ⟨HH, HR⟩
  ihave H2 := (own_pair_emb (embR (nD := nD) (τ := τ) (sig := sig) (Ix := HIx 2) (Val := Elt F) (Name := ℕ) (Lvl := ℕ) (A := UH) (B := UP × Counters)) b c) $$ HR
  icases H2 with ⟨HP, -⟩
  isplitl [HH]; · iexact HH
  iexact HP

/-! ## The arrays of @main, as locations of device `d` -/

abbrev xLoc (d : Dev nD) : Loc nD τ sig := (SparseCore.T d).loc main_arg0
abbrev tLoc (d : Dev nD) : Loc nD τ sig := (SparseCore.T d).loc main_arg1
abbrev ttLoc (d : Dev nD) : Loc nD τ sig := (SparseCore.T d).loc main_v0
abbrev rtLoc (d : Dev nD) : Loc nD τ sig := (SparseCore.T d).loc main_v1
abbrev rsLoc (d : Dev nD) : Loc nD τ sig := (SparseCore.T d).loc main_v2
abbrev raLoc (d : Dev nD) : Loc nD τ sig := (SparseCore.T d).loc main_v3
abbrev itLoc (d : Dev nD) : Loc nD τ sig := (SparseCore.T d).loc main_v4
abbrev ptLoc (d : Dev nD) : Loc nD τ sig := (SparseCore.T d).loc main_v5

end Cert.Proof.KI

end
-- ==== Proof.KI.Sets.lean ====
/-
  The pieces of the two SparseCore calls' results: tile (c, s) — number 2 s + c — writes the 10240 entries
  [10240 (2 s + c), 10240 (2 s + c + 1)) of the first call's result and row 2 s + c of the second's. Each piece is spelt as
  the body slices it, is the corresponding equal part of the array, and the 32 pieces are pairwise disjoint and cover it.
-/
import proofs.«203338_g27195732918861_cont_9to1_1050_16_alg».proof.Proof.KI.Common

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI

/-- The number of tile (c, s): 2 s + c. -/
def wid (c : Fin 2) (s : Fin 16) : Fin 32 := ⟨2 * s.val + c.val, by have := c.isLt; have := s.isLt; omega⟩

theorem wid_injective : Function.Injective fun cs : Fin 2 × Fin 16 => wid cs.1 cs.2 := by
  rintro ⟨c, s⟩ ⟨c', s'⟩ h
  have h' : 2 * s.val + c.val = 2 * s'.val + c'.val := by simpa [wid] using congrArg Fin.val h
  have := c.isLt; have := c'.isLt
  exact Prod.ext (Fin.ext (by show c.val = c'.val; omega)) (Fin.ext (by show s.val = s'.val; omega))

theorem wid_surjective (w : Fin 32) : ∃ cs : Fin 2 × Fin 16, wid cs.1 cs.2 = w :=
  ⟨(⟨w.val % 2, Nat.mod_lt _ (by norm_num)⟩, ⟨w.val / 2, by have := w.isLt; omega⟩), Fin.ext (by show 2 * (w.val / 2) + w.val % 2 = w.val; omega)⟩

/-- A tile's grid coordinates from its SparseCore and subcore numbers. -/
def coords1 (c : Fin (grid1.bound 0)) (s : Fin (grid1.bound 1)) : grid1.Coords :=
  fun | 0 => c | 1 => s | ⟨_ + 2, h⟩ => absurd h (Nat.not_lt.2 (Nat.le_add_left _ _))
def coords2 (c : Fin (grid2.bound 0)) (s : Fin (grid2.bound 1)) : grid2.Coords :=
  fun | 0 => c | 1 => s | ⟨_ + 2, h⟩ => absurd h (Nat.not_lt.2 (Nat.le_add_left _ _))

theorem bound1_0 : grid1.bound 0 = 2 := rfl
theorem bound1_1 : grid1.bound 1 = 16 := rfl
theorem bound2_0 : grid2.bound 0 = 2 := rfl
theorem bound2_1 : grid2.bound 1 = 16 := rfl

def wid1 (L : grid1.Coords) : Fin 32 :=
  ⟨2 * (L 1).val + (L 0).val, by have h0 : (L 0).val < 2 := (L 0).isLt; have h1 : (L 1).val < 16 := (L 1).isLt; omega⟩
def wid2 (L : grid2.Coords) : Fin 32 :=
  ⟨2 * (L 1).val + (L 0).val, by have h0 : (L 0).val < 2 := (L 0).isLt; have h1 : (L 1).val < 16 := (L 1).isLt; omega⟩

theorem wid1_coords (c : Fin 2) (s : Fin 16) : wid1 (coords1 c s) = wid c s := rfl
theorem wid2_coords (c : Fin 2) (s : Fin 16) : wid2 (coords2 c s) = wid c s := rfl

/-- A slice of a whole array holds the elements of its rectangle. -/
theorem set_slice_whole {κ : Kind} {b : Ref sig κ} (r r' : Rect b.ty.shape) (h : r = r') : ((View.whole b).slice r).set = r'.set := by
  subst h; rw [View.set_slice]; exact Finset.map_refl

/-! ## The first call's result: 32 segments of 10240 entries -/

theorem hdiv0 : 32 ∣ S327680.size 0 := ⟨10240, rfl⟩

/-- Tile `L`'s segment of the first call's result, as the body's last copy slices it. -/
abbrev seg0M (L : grid1.Coords) : Memref sig .scVector .hbm S10240 .f32 :=
  (Memref.whole main_v2_scv).slice (Rect.unit (s := S327680) (k1_off83 L) S10240.size (k1_off83_inb L)) (fun _ => rfl)
def outSeg0 (L : grid1.Coords) : Finset S327680.Idx := (seg0M L).view.set

theorem seg0_rect (L : grid1.Coords) :
    Rect.unit (s := S327680) (k1_off83 L) S10240.size (k1_off83_inb L) = Rect.part (s := S327680) (a₀ := 0) hdiv0 (wid1 L) := by
  unfold Rect.part Rect.block
  congr 1 <;> funext a
  · rw [k1_off83_eq]
    match a with
    | 0 => simp [Shape.partIx, Shape.partSize, wid1]; omega
  · match a with
    | 0 => simp [Shape.partSize]

theorem outSeg0_eq (L : grid1.Coords) : outSeg0 L = (Rect.part (s := S327680) (a₀ := 0) hdiv0 (wid1 L)).set := by
  show ((View.whole (main_v2_scv : Ref sig .scVector)).slice (Rect.unit (s := S327680) (k1_off83 L) S10240.size (k1_off83_inb L))).set = _
  exact set_slice_whole _ _ (seg0_rect L)

/-! ## The second call's result: 32 rows of 16 lanes -/

theorem hdiv1 : 32 ∣ S32x16.size 0 := ⟨1, rfl⟩

/-- Tile `L`'s row of the second call's result, as the body's last copy slices and squeezes it. -/
abbrev row1M (L : grid2.Coords) : Memref sig .scVector .hbm S16 .f32 :=
  ((Memref.whole main_v5_scv).slice (Rect.unit (s := S32x16) (k2_off11 L) S1x16.size (k2_off11_inb L)) (fun _ => rfl)).squeeze S16 squeezes_S1x16_S16
def outRow1 (L : grid2.Coords) : Finset S32x16.Idx := (row1M L).view.set

theorem row1_rect (L : grid2.Coords) :
    Rect.unit (s := S32x16) (k2_off11 L) S1x16.size (k2_off11_inb L) = Rect.part (s := S32x16) (a₀ := 0) hdiv1 (wid2 L) := by
  unfold Rect.part Rect.block
  congr 1 <;> funext a
  · rw [k2_off11_eq]
    match a with
    | 0 => simp [Shape.partIx, Shape.partSize, wid2]
    | 1 => simp [Shape.partIx, Shape.partSize]
  · match a with
    | 0 => simp [Shape.partSize]
    | 1 => simp [Shape.partSize]

theorem outRow1_eq (L : grid2.Coords) : outRow1 L = (Rect.part (s := S32x16) (a₀ := 0) hdiv1 (wid2 L)).set := by
  show (((View.whole (main_v5_scv : Ref sig .scVector)).slice (Rect.unit (s := S32x16) (k2_off11 L) S1x16.size (k2_off11_inb L))).reshape S16 squeezes_S1x16_S16.numel_eq).set = _
  rw [View.set_reshape]
  exact set_slice_whole _ _ (row1_rect L)

/-! ## The pieces are pairwise disjoint and cover -/

theorem outSeg0_cs (c : Fin 2) (s : Fin 16) : outSeg0 (coords1 c s) = (Rect.part (s := S327680) (a₀ := 0) hdiv0 (wid c s)).set := by
  rw [outSeg0_eq, wid1_coords]
theorem outRow1_cs (c : Fin 2) (s : Fin 16) : outRow1 (coords2 c s) = (Rect.part (s := S32x16) (a₀ := 0) hdiv1 (wid c s)).set := by
  rw [outRow1_eq, wid2_coords]

theorem outSeg0_disjoint : ∀ cs ∈ (Finset.univ : Finset (Fin 2 × Fin 16)), ∀ cs' ∈ (Finset.univ : Finset (Fin 2 × Fin 16)), cs ≠ cs' →
    Disjoint (outSeg0 (coords1 cs.1 cs.2)) (outSeg0 (coords1 cs'.1 cs'.2)) :=
  fun cs _ cs' _ h => by rw [outSeg0_cs, outSeg0_cs]; exact Rect.part_disjoint hdiv0 fun e => h (wid_injective e)
theorem outRow1_disjoint : ∀ cs ∈ (Finset.univ : Finset (Fin 2 × Fin 16)), ∀ cs' ∈ (Finset.univ : Finset (Fin 2 × Fin 16)), cs ≠ cs' →
    Disjoint (outRow1 (coords2 cs.1 cs.2)) (outRow1 (coords2 cs'.1 cs'.2)) :=
  fun cs _ cs' _ h => by rw [outRow1_cs, outRow1_cs]; exact Rect.part_disjoint hdiv1 fun e => h (wid_injective e)

theorem outSeg0_cover : (Finset.univ : Finset (Fin 2 × Fin 16)).biUnion (fun cs => outSeg0 (coords1 cs.1 cs.2)) = Finset.univ := by
  ext i
  simp only [Finset.mem_biUnion, Finset.mem_univ, true_and, iff_true]
  obtain ⟨w, hw⟩ := Rect.exists_mem_part hdiv0 i
  obtain ⟨cs, rfl⟩ := wid_surjective w
  exact ⟨cs, by rw [outSeg0_cs]; exact hw⟩
theorem outRow1_cover : (Finset.univ : Finset (Fin 2 × Fin 16)).biUnion (fun cs => outRow1 (coords2 cs.1 cs.2)) = Finset.univ := by
  ext i
  simp only [Finset.mem_biUnion, Finset.mem_univ, true_and, iff_true]
  obtain ⟨w, hw⟩ := Rect.exists_mem_part hdiv1 i
  obtain ⟨cs, rfl⟩ := wid_surjective w
  exact ⟨cs, by rw [outRow1_cs]; exact hw⟩

end Cert.Proof.KI

end
-- ==== Proof.LibSharePieces.lean ====
/-
  A read share handed to n readers one after the other. A positive share splits into its left and right halves; handing
  the left half to the first reader and splitting the right half again hands every one of n readers a positive share of
  the same elements at the same contents, with a remainder kept by the lender; the n shares and the remainder are the
  share one started from. General in the location, the element set, the contents and the number of readers.
-/
import Idealize.ShloMosaic.Rules.PointsTo

noncomputable section

namespace Idealize.ShloMosaic.SharePeel

open Idealize.SL
open Idealize.SL.RA Idealize.SL.Sem Idealize.SL.ProofMode
open Idealize.SL.BI (sProp bigSep)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

/-- What the lender still holds after `n` readers were served: the right half, `n` times. -/
def rest : ℕ → PosShare TreeShare → PosShare TreeShare
  | 0, q => q
  | n + 1, q => (rest n q).right

/-- Reader `i`'s share: the left half of what was left when its turn came. -/
def piece (i : ℕ) (q : PosShare TreeShare) : PosShare TreeShare := (rest i q).left

variable {ℓ : Loc nD τ sig} {I : Finset (Idx ℓ)} {f : Buf Val ℓ}

/-- The share `q` is the first `n` readers' pieces and the remainder. -/
theorem pointsTo_pieces (q : PosShare TreeShare) (n : ℕ) :
    (ℓ ↦[I]{q} f : sProp 𝕄) = iprop((bigSep (Finset.range n) fun i => ℓ ↦[I]{piece i q} f) ∗ ℓ ↦[I]{rest n q} f) := by
  induction n with
  | zero =>
    rw [Finset.range_zero, BI.bigSep_empty]
    have h1 : (ℓ ↦[I]{q} f : sProp 𝕄) ⊢ iprop(emp ∗ ℓ ↦[I]{rest 0 q} f) := by
      iintro H; isplitr; · iempintro
      iexact H
    have h2 : iprop(emp ∗ ℓ ↦[I]{rest 0 q} f) ⊢ (ℓ ↦[I]{q} f : sProp 𝕄) := by
      iintro ⟨-, H⟩; iexact H
    exact BI.equiv_iff.mp ⟨h1, h2⟩
  | succ n ih =>
    rw [ih, Finset.range_add_one, BI.bigSep_insert (by simp)]
    have hs : (ℓ ↦[I]{rest n q} f : sProp 𝕄) ⊣⊢ iprop((ℓ ↦[I]{piece n q} f) ∗ ℓ ↦[I]{rest (n + 1) q} f) :=
      pointsTo_share (PosShare.mem_left_op_right (rest n q))
    rw [BI.equiv_iff.mp ⟨hs.1, hs.2⟩]
    have h1 : iprop((bigSep (Finset.range n) fun i => ℓ ↦[I]{piece i q} f) ∗ (ℓ ↦[I]{piece n q} f) ∗ ℓ ↦[I]{rest (n + 1) q} f)
        ⊢ (iprop(((ℓ ↦[I]{piece n q} f) ∗ bigSep (Finset.range n) fun i => ℓ ↦[I]{piece i q} f) ∗ ℓ ↦[I]{rest (n + 1) q} f) : sProp 𝕄) := by
      iintro ⟨Hs, Hn, Hr⟩
      isplitl [Hs Hn]
      · isplitl [Hn]; · iexact Hn
        iexact Hs
      · iexact Hr
    have h2 : (iprop(((ℓ ↦[I]{piece n q} f) ∗ bigSep (Finset.range n) fun i => ℓ ↦[I]{piece i q} f) ∗ ℓ ↦[I]{rest (n + 1) q} f) : sProp 𝕄)
        ⊢ iprop((bigSep (Finset.range n) fun i => ℓ ↦[I]{piece i q} f) ∗ (ℓ ↦[I]{piece n q} f) ∗ ℓ ↦[I]{rest (n + 1) q} f) := by
      iintro ⟨⟨Hn, Hs⟩, Hr⟩
      isplitl [Hs]; · iexact Hs
      isplitl [Hn]; · iexact Hn
      iexact Hr
    exact BI.equiv_iff.mp ⟨h1, h2⟩

/-- The same over `Fin n`. -/
theorem pointsTo_pieces_fin (q : PosShare TreeShare) (n : ℕ) :
    (ℓ ↦[I]{q} f : sProp 𝕄) = iprop((bigSep Finset.univ fun i : Fin n => ℓ ↦[I]{piece i.val q} f) ∗ ℓ ↦[I]{rest n q} f) := by
  rw [pointsTo_pieces q n]
  congr 1
  have hm : (Finset.univ : Finset (Fin n)).map Fin.valEmbedding = Finset.range n := by
    ext a; simp only [Finset.mem_map, Finset.mem_univ, true_and, Fin.valEmbedding_apply, Finset.mem_range]
    exact ⟨fun ⟨i, hi⟩ => hi ▸ i.isLt, fun h => ⟨⟨a, h⟩, rfl⟩⟩
  rw [← hm, BI.bigSep_map]
  rfl

end Idealize.ShloMosaic.SharePeel

end
-- ==== Proof.KI.Pay.lean ====
/-
  What the launch's handshakes carry for the two SparseCore calls. Call 0 takes the transposed table (a read share per
  SparseCore, split among its tiles) and the 32 segments of its result, and brings the segments back at the column sums;
  call 1 takes the transposed index array and the array of all row sums (read shares) and the 32 rows of its result, and
  brings the rows back at the partial sums. The TensorCore's part of the row sums is whatever the TensorCore region left —
  related to the transposed table by the region's relation — so the array of all row sums travels under an existential.
-/
import proofs.«203338_g27195732918861_cont_9to1_1050_16_alg».proof.Proof.KI.Sets
import proofs.«203338_g27195732918861_cont_9to1_1050_16_alg».proof.Proof.LibSharePieces

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.ShloMosaic.SharePeel
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

-- What a tile of call 0 leaves in the result as a function of the transposed table, what a tile of call 1 leaves as a
-- function of the transposed indices and the row sums, and the relation between the transposed table and what the
-- TensorCore region leaves: the three bodies' proofs supply them.
variable (t0 : (d : Dev nD) → Buf (Elt F) (ttLoc d) → Buf (Elt F) (rsLoc d))
variable (t1 : (d : Dev nD) → Buf (Elt F) (itLoc d) → Buf (Elt F) (raLoc d) → Buf (Elt F) (ptLoc d))
variable (RR : (d : Dev nD) → Buf (Elt F) (ttLoc d) → Buf (Elt F) (rtLoc d) → Prop)

/-! ## The values of @main's arrays -/

/-- The transposed table, the transposed index array, the two halves of the row sums joined. -/
def TTv (d : Dev nD) : Buf (Elt F) (ttLoc d) :=
  ((transpose S32x1000000 [1, 0] · transposes_S1000000x32_S32x1000000_1_0) : (⟨S1000000x32, .f32⟩ : BufTy).Contents (Elt F) → (⟨S32x1000000, .f32⟩ : BufTy).Contents (Elt F)) (m (tLoc d))
def ITv (d : Dev nD) : Buf (Elt F) (itLoc d) :=
  ((transpose S26x16384 [1, 0] · transposes_S16384x26_S26x16384_1_0) : (⟨S16384x26, .i32⟩ : BufTy).Contents (Elt F) → (⟨S26x16384, .i32⟩ : BufTy).Contents (Elt F)) (m (xLoc d))
def catV (d : Dev nD) (a : Buf (Elt F) (rsLoc d)) (b : Buf (Elt F) (rtLoc d)) : Buf (Elt F) (raLoc d) :=
  ((fun a b => concatenate S1000000 0 [⟨S327680, a⟩, ⟨S672320, b⟩] concatenates_S327680_S672320_S1000000_d0) :
    (⟨S327680, .f32⟩ : BufTy).Contents (Elt F) → (⟨S672320, .f32⟩ : BufTy).Contents (Elt F) → (⟨S1000000, .f32⟩ : BufTy).Contents (Elt F)) a b

/-- The array of all row sums: the SparseCore half at its value, the TensorCore half related to the transposed table. -/
def Rel (d : Dev nD) (R : Buf (Elt F) (raLoc d)) : Prop :=
  ∃ G : Buf (Elt F) (rtLoc d), RR d (TTv m d) G ∧ R = catV d (t0 d (TTv m d)) G

/-! ## The shares -/

/-- SparseCore `c`'s share of a read-only array: a half. -/
def coreQ (c : ℕ) : PosShare TreeShare := if c = 0 then fullShare.left else fullShare.right

theorem pointsTo_cores {ℓ : Loc nD τ sig} (f : Buf (Elt F) ℓ) :
    (ℓ ↦{fullShare} f : sProp 𝕄) ⊣⊢ iprop((ℓ ↦{coreQ 0} f) ∗ ℓ ↦{coreQ 1} f) :=
  pointsTo_share (PosShare.mem_left_op_right fullShare)

/-! ## The payloads -/

abbrev go0 (d : Dev nD) (c : Fin 2) (i : Fin 16) (f : Buf (Elt F) (rsLoc d)) : sProp 𝕄 :=
  iprop((ttLoc d ↦{piece i.val (coreQ c.val)} TTv m d) ∗ rsLoc d ↦[outSeg0 (coords1 c i)]{fullShare} f)
abbrev st0 (d : Dev nD) (c : Fin 2) (f : Buf (Elt F) (rsLoc d)) : sProp 𝕄 :=
  iprop((ttLoc d ↦{coreQ c.val} TTv m d) ∗ bigSep Finset.univ fun i : Fin 16 => rsLoc d ↦[outSeg0 (coords1 c i)]{fullShare} f)
abbrev go1 (d : Dev nD) (c : Fin 2) (i : Fin 16) (f : Buf (Elt F) (raLoc d) → Buf (Elt F) (ptLoc d)) : sProp 𝕄 :=
  iprop(∃ R, (raLoc d ↦{piece i.val (coreQ c.val)} R) ∗ ⌜Rel m t0 RR d R⌝ ∗ (itLoc d ↦{piece i.val (coreQ c.val)} ITv m d)
    ∗ ptLoc d ↦[outRow1 (coords2 c i)]{fullShare} f R)
abbrev st1 (d : Dev nD) (c : Fin 2) (f : Buf (Elt F) (raLoc d) → Buf (Elt F) (ptLoc d)) : sProp 𝕄 :=
  iprop(∃ R, (raLoc d ↦{coreQ c.val} R) ∗ ⌜Rel m t0 RR d R⌝ ∗ (itLoc d ↦{coreQ c.val} ITv m d)
    ∗ bigSep Finset.univ fun i : Fin 16 => ptLoc d ↦[outRow1 (coords2 c i)]{fullShare} f R)

def P : (K (F := F)).Pay (nD := nD) (Val := Elt F) (Name := ℕ) (U := UU) where
  st := fun q d c => match q with
    | 0 => st0 m d c (m (rsLoc d))
    | 1 => st1 m t0 RR d c (fun _ => m (ptLoc d))
    | ⟨_ + 2, h⟩ => absurd h (Nat.not_lt.2 (Nat.le_add_left _ _))
  dn := fun q d c => match q with
    | 0 => st0 m d c (t0 d (TTv m d))
    | 1 => st1 m t0 RR d c (t1 d (ITv m d))
    | ⟨_ + 2, h⟩ => absurd h (Nat.not_lt.2 (Nat.le_add_left _ _))
  go := fun q d c i => match q with
    | 0 => go0 m d c i (m (rsLoc d))
    | 1 => go1 m t0 RR d c i (fun _ => m (ptLoc d))
    | ⟨_ + 2, h⟩ => absurd h (Nat.not_lt.2 (Nat.le_add_left _ _))
  td := fun q d c i => match q with
    | 0 => go0 m d c i (t0 d (TTv m d))
    | 1 => go1 m t0 RR d c i (t1 d (ITv m d))
    | ⟨_ + 2, h⟩ => absurd h (Nat.not_lt.2 (Nat.le_add_left _ _))
  x := fun _ _ => iprop(emp)

instance P_storable : (P (F := F) m t0 t1 RR).IsStorable where
  st q d c := match q with
    | 0 => (inferInstance : BI.Storable (upEmb : UEmb _ 𝕄) (st0 m d c (m (rsLoc d))))
    | 1 => (inferInstance : BI.Storable (upEmb : UEmb _ 𝕄) (st1 m t0 RR d c (fun _ => m (ptLoc d))))
  dn q d c := match q with
    | 0 => (inferInstance : BI.Storable (upEmb : UEmb _ 𝕄) (st0 m d c (t0 d (TTv m d))))
    | 1 => (inferInstance : BI.Storable (upEmb : UEmb _ 𝕄) (st1 m t0 RR d c (t1 d (ITv m d))))
  go q d c i := match q with
    | 0 => (inferInstance : BI.Storable (upEmb : UEmb _ 𝕄) (go0 m d c i (m (rsLoc d))))
    | 1 => (inferInstance : BI.Storable (upEmb : UEmb _ 𝕄) (go1 m t0 RR d c i (fun _ => m (ptLoc d))))
  td q d c i := match q with
    | 0 => (inferInstance : BI.Storable (upEmb : UEmb _ 𝕄) (go0 m d c i (t0 d (TTv m d))))
    | 1 => (inferInstance : BI.Storable (upEmb : UEmb _ 𝕄) (go1 m t0 RR d c i (t1 d (ITv m d))))

end Cert.Proof.KI

end
-- ==== Proof.KI.Split.lean ====
/-
  How a SparseCore's operands split among its sixteen tiles and how its results gather from theirs: a read share is
  handed out piece by piece, the result's pieces are the tiles' segments (rows); on the way back the pieces rejoin the
  remainder, and every tile's copy of the row sums agrees with the remainder the sequencer kept.
-/
import proofs.«203338_g27195732918861_cont_9to1_1050_16_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.ShloMosaic.SharePeel
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)
variable (t0 : (d : Dev nD) → Buf (Elt F) (ttLoc d) → Buf (Elt F) (rsLoc d))
variable (t1 : (d : Dev nD) → Buf (Elt F) (itLoc d) → Buf (Elt F) (raLoc d) → Buf (Elt F) (ptLoc d))
variable (RR : (d : Dev nD) → Buf (Elt F) (ttLoc d) → Buf (Elt F) (rtLoc d) → Prop)

/-- Holders of shares of one location agree on its contents: a family of holders, each at contents of its own, holds the
    contents of a holder beside it. -/
theorem agree_family {ι : Type} [DecidableEq ι] {ℓ : Loc nD τ sig} (q0 : PosShare TreeShare) (R : Buf (Elt F) ℓ) (s : Finset ι)
    (qs : ι → PosShare TreeShare) (Φ : ι → Buf (Elt F) ℓ → sProp 𝕄) :
    iprop((ℓ ↦{q0} R) ∗ bigSep s fun i => iprop(∃ R', (ℓ ↦{qs i} R') ∗ Φ i R'))
      ⊢ iprop((ℓ ↦{q0} R) ∗ bigSep s fun i => iprop((ℓ ↦{qs i} R) ∗ Φ i R)) := by
  induction s using Finset.induction_on with
  | empty => rw [bigSep_empty, bigSep_empty]
  | insert a s ha ih =>
    rw [SparseCore.bigSep_insert' ha, SparseCore.bigSep_insert' ha]
    iintro ⟨H0, ⟨%R', Ha, HΦ⟩, Hs⟩
    ihave H := (persistent_entails_right (pointsTo_agree (ℓ := ℓ) (I := Finset.univ) (J := Finset.univ) (q₁ := q0) (q₂ := qs a) (f := R) (g := R'))) $$ [H0 Ha]
    · isplitl [H0] <;> iassumption
    icases H with ⟨%h, H0, Ha⟩
    have e : R' = R := funext fun i => ((h i (by simp)).1).symm
    subst e
    ihave H' := ih $$ [H0 Hs]
    · isplitl [H0] <;> iassumption
    icases H' with ⟨H0, Hs⟩
    isplitl [H0]; · iexact H0
    isplitl [Ha HΦ]
    · isplitl [Ha] <;> iassumption
    · iexact Hs

theorem vecSplit0 : (K (F := F)).VecSplit' (P m t0 t1 RR) 0 := by
  intro d c
  show st0 m d c (m (rsLoc d)) ⊢ |={Set.univ}=> iprop((bigSep (Finset.univ : Finset (Fin 16)) fun i => go0 m d c i (m (rsLoc d)))
      ∗ ((bigSep (Finset.univ : Finset (Fin 16)) fun i => go0 m d c i (t0 d (TTv m d))) -∗ st0 m d c (t0 d (TTv m d))))
  unfold st0 go0
  rw [pointsTo_pieces_fin (ℓ := ttLoc d) (I := Finset.univ) (f := TTv m d) (coreQ c.val) 16, bigSep_sep', bigSep_sep']
  iintro ⟨⟨Hp, Hr⟩, Hs⟩; imodintro
  isplitl [Hp Hs]
  · isplitl [Hp] <;> iassumption
  iintro ⟨Hp, Hs⟩
  isplitl [Hp Hr]
  · isplitl [Hp] <;> iassumption
  iexact Hs

theorem vecSplit1 : (K (F := F)).VecSplit' (P m t0 t1 RR) 1 := by
  intro d c
  show st1 m t0 RR d c (fun _ => m (ptLoc d)) ⊢ |={Set.univ}=> iprop((bigSep (Finset.univ : Finset (Fin 16)) fun i => go1 m t0 RR d c i (fun _ => m (ptLoc d)))
      ∗ ((bigSep (Finset.univ : Finset (Fin 16)) fun i => go1 m t0 RR d c i (t1 d (ITv m d))) -∗ st1 m t0 RR d c (t1 d (ITv m d))))
  -- the pieces handed out, each with the row sums' contents named
  have hgo : ∀ R : Buf (Elt F) (raLoc d), Rel m t0 RR d R →
      (iprop((bigSep (Finset.univ : Finset (Fin 16)) fun i => raLoc d ↦{piece i.val (coreQ c.val)} R)
        ∗ (bigSep (Finset.univ : Finset (Fin 16)) fun i => itLoc d ↦{piece i.val (coreQ c.val)} ITv m d)
        ∗ bigSep (Finset.univ : Finset (Fin 16)) fun i => ptLoc d ↦[outRow1 (coords2 c i)]{fullShare} m (ptLoc d)) : sProp 𝕄)
      ⊢ bigSep (Finset.univ : Finset (Fin 16)) fun i => go1 m t0 RR d c i (fun _ => m (ptLoc d)) := by
    intro R hR
    have hi : ∀ i : Fin 16, (iprop((raLoc d ↦{piece i.val (coreQ c.val)} R)
          ∗ (itLoc d ↦{piece i.val (coreQ c.val)} ITv m d) ∗ ptLoc d ↦[outRow1 (coords2 c i)]{fullShare} m (ptLoc d)) : sProp 𝕄)
        ⊢ go1 m t0 RR d c i (fun _ => m (ptLoc d)) := by
      intro i
      unfold go1
      iintro ⟨Hr, Hi, Hp⟩
      iexists R
      isplitl [Hr]; · iexact Hr
      isplitr; · ipureintro; exact hR
      isplitl [Hi] <;> iassumption
    rw [← bigSep_sep', ← bigSep_sep']
    exact bigSep_mono fun i _ => hi i
  -- the pieces taken back, at the contents the sequencer's remainder holds
  have hback : ∀ R : Buf (Elt F) (raLoc d),
      (bigSep (Finset.univ : Finset (Fin 16)) fun i => iprop((raLoc d ↦{piece i.val (coreQ c.val)} R) ∗ (⌜Rel m t0 RR d R⌝ ∗ (itLoc d ↦{piece i.val (coreQ c.val)} ITv m d)
          ∗ ptLoc d ↦[outRow1 (coords2 c i)]{fullShare} t1 d (ITv m d) R)) : sProp 𝕄)
      ⊢ iprop((bigSep (Finset.univ : Finset (Fin 16)) fun i => raLoc d ↦{piece i.val (coreQ c.val)} R)
        ∗ (bigSep (Finset.univ : Finset (Fin 16)) fun i => itLoc d ↦{piece i.val (coreQ c.val)} ITv m d)
        ∗ bigSep (Finset.univ : Finset (Fin 16)) fun i => ptLoc d ↦[outRow1 (coords2 c i)]{fullShare} t1 d (ITv m d) R) := by
    intro R
    rw [bigSep_sep', bigSep_sep', bigSep_sep']
    iintro ⟨Hr, -, Hi, Hp⟩
    isplitl [Hr]; · iexact Hr
    isplitl [Hi] <;> iassumption
  unfold st1
  iintro ⟨%R, Hra, %hR, Hit, Hpt⟩
  ihave Hra' := (Entails.of_eq (pointsTo_pieces_fin (ℓ := raLoc d) (I := Finset.univ) (f := R) (U := UU) (Ix := HIx 2) (Name := ℕ) (Lvl := ℕ) (coreQ c.val) 16)) $$ Hra
  icases Hra' with ⟨Hrap, Hrar⟩
  ihave Hit' := (Entails.of_eq (pointsTo_pieces_fin (ℓ := itLoc d) (I := Finset.univ) (f := ITv m d) (U := UU) (Ix := HIx 2) (Name := ℕ) (Lvl := ℕ) (coreQ c.val) 16)) $$ Hit
  icases Hit' with ⟨Hitp, Hitr⟩
  imodintro
  isplitl [Hrap Hitp Hpt]
  · iapply (hgo R hR)
    isplitl [Hrap]; · iexact Hrap
    isplitl [Hitp] <;> iassumption
  iintro Htd
  ihave H := (agree_family (F := F) (rest 16 (coreQ c.val)) R (Finset.univ : Finset (Fin 16)) (fun i => piece i.val (coreQ c.val))
      (fun i R' => iprop(⌜Rel m t0 RR d R'⌝ ∗ (itLoc d ↦{piece i.val (coreQ c.val)} ITv m d)
        ∗ ptLoc d ↦[outRow1 (coords2 c i)]{fullShare} t1 d (ITv m d) R'))) $$ [Hrar Htd]
  · isplitl [Hrar] <;> iassumption
  icases H with ⟨Hrar, Htd⟩
  ihave H' := (hback R) $$ Htd
  icases H' with ⟨Hrap, Hitp, Hpt⟩
  iexists R
  isplitl [Hrap Hrar]
  · iapply (Entails.of_eq (pointsTo_pieces_fin (ℓ := raLoc d) (I := Finset.univ) (f := R) (U := UU) (Ix := HIx 2) (Name := ℕ) (Lvl := ℕ) (coreQ c.val) 16).symm)
    isplitl [Hrap] <;> iassumption
  isplitr; · ipureintro; exact hR
  isplitl [Hitp Hitr]
  · iapply (Entails.of_eq (pointsTo_pieces_fin (ℓ := itLoc d) (I := Finset.univ) (f := ITv m d) (U := UU) (Ix := HIx 2) (Name := ℕ) (Lvl := ℕ) (coreQ c.val) 16).symm)
    isplitl [Hitp] <;> iassumption
  iexact Hpt

end Cert.Proof.KI

end
-- ==== Proof.LibHloPoints.lean ====
/-
  A host operation stepped over the points-tos of the buffers it touches. The library's rule for an operation at the
  head of a program speaks of a set of buffers held at a valuation; here the same rule for the three plain arities, stated
  over one points-to per operand and result: the operands come back unchanged, the result holds the function's value.
  General in the signature, the thread, the buffers and the function.
-/
import Idealize.ShloMosaic.Lib.StableHlo.Run

noncomputable section

namespace Idealize.ShloMosaic.HloPoints

open Idealize.SL
open Idealize.SL.BI (sProp bigSep bigSep_singleton)
open scoped Idealize.SL.BI
open Idealize.SL.BI.BIBase Idealize.SL.BI.Laws Idealize.SL.Sem Idealize.SL.ProofMode
open Idealize.SL.RA
open Idealize.ShloMosaic.StableHlo
open Idealize.ShloMosaic.TcCoe

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Thread nD τ) (bd : Option 𝒱.V) (E : Set Name)
variable {α : Type} {hp : c.2.kind.runsHlo = true}

/-- `%y = op %x` over the two points-tos. -/
theorem wp_unary (V₀ : Valuation τ sig Val) (x y : Ref sig .tc) (hne : (x : DevRef τ sig) ≠ (y : DevRef τ sig))
    (f : x.ty.Contents Val → y.ty.Contents Val) (hx) (hy)
    (fx : (x : DevRef τ sig).ty.Contents Val) (fy : (y : DevRef τ sig).ty.Contents Val)
    {k : Prog (TpuEff nD τ sig Val Λ c.2) α} {Q : α → sProp 𝕄} :
    iprop(boundary c ∗ ((c.1, (x : DevRef τ sig)) ↦{fullShare} fx) ∗ ((c.1, (y : DevRef τ sig)) ↦{fullShare} fy))
      ⊢ iprop(((boundary c ∗ ((c.1, (x : DevRef τ sig)) ↦{fullShare} fx) ∗ ((c.1, (y : DevRef τ sig)) ↦{fullShare} (f fx : y.ty.Contents Val)))
            -∗ wp frame (wpE defs 𝒱 c bd) E k Q)
        -∗ wp frame (wpE defs 𝒱 c bd) E (hlo hp (unary x y f hx hy) fun _ => k) Q) := by
  classical
  let V : Valuation τ sig Val := Function.update (Function.update V₀ (x : DevRef τ sig) fx) (y : DevRef τ sig) fy
  have hVx : V (x : DevRef τ sig) = fx := by
    show Function.update (Function.update V₀ (x : DevRef τ sig) fx) (y : DevRef τ sig) fy (x : DevRef τ sig) = fx
    rw [Function.update_of_ne hne, Function.update_self]
  have hVy : V (y : DevRef τ sig) = fy := Function.update_self _ _ _
  have hrx : (unary x y f hx hy : HloOp τ sig Val).result V (x : DevRef τ sig) = fx := by
    rw [(unary x y f hx hy : HloOp τ sig Val).result_of_not_mem V (b := (x : DevRef τ sig)) (by
      show (x : DevRef τ sig) ∉ ({(y : DevRef τ sig)} : Finset (DevRef τ sig)); simpa using hne), hVx]
  have hry : (unary x y f hx hy : HloOp τ sig Val).result V (y : DevRef τ sig) = (f fx : y.ty.Contents Val) := by
    rw [unary_result, hVx]
  have h := wp_hlo_within (defs := defs) 𝒱 c bd E (hp := hp) (op := unary x y f hx hy) (S := {(x : DevRef τ sig), (y : DevRef τ sig)})
    (Finset.Subset.refl _) (V := V) (k := fun _ => k) (Q := Q)
  unfold held at h
  rw [BI.bigSep_insert (by simpa using hne), BI.bigSep_insert (by simpa using hne), bigSep_singleton, bigSep_singleton, hVx, hVy, hrx, hry] at h
  exact h

/-- `%y = op` over the result's points-to. -/
theorem wp_nullary (V₀ : Valuation τ sig Val) (y : Ref sig .tc) (v : y.ty.Contents Val) (hy)
    (fy : (y : DevRef τ sig).ty.Contents Val)
    {k : Prog (TpuEff nD τ sig Val Λ c.2) α} {Q : α → sProp 𝕄} :
    iprop(boundary c ∗ ((c.1, (y : DevRef τ sig)) ↦{fullShare} fy))
      ⊢ iprop(((boundary c ∗ ((c.1, (y : DevRef τ sig)) ↦{fullShare} (v : y.ty.Contents Val)))
            -∗ wp frame (wpE defs 𝒱 c bd) E k Q)
        -∗ wp frame (wpE defs 𝒱 c bd) E (hlo hp (nullary y v hy) fun _ => k) Q) := by
  classical
  let V : Valuation τ sig Val := Function.update V₀ (y : DevRef τ sig) fy
  have hVy : V (y : DevRef τ sig) = fy := Function.update_self _ _ _
  have hry : (nullary y v hy : HloOp τ sig Val).result V (y : DevRef τ sig) = (v : y.ty.Contents Val) := nullary_result y v hy V
  have h := wp_hlo_within (defs := defs) 𝒱 c bd E (hp := hp) (op := nullary y v hy) (S := {(y : DevRef τ sig)})
    (Finset.Subset.refl _) (V := V) (k := fun _ => k) (Q := Q)
  unfold held at h
  rw [bigSep_singleton, bigSep_singleton, hVy, hry] at h
  exact h

/-- `%y = op %a, %b` over the three points-tos (the operands distinct). -/
theorem wp_binary (V₀ : Valuation τ sig Val) (a b y : Ref sig .tc)
    (hab : (a : DevRef τ sig) ≠ (b : DevRef τ sig)) (hay : (a : DevRef τ sig) ≠ (y : DevRef τ sig)) (hby : (b : DevRef τ sig) ≠ (y : DevRef τ sig))
    (f : a.ty.Contents Val → b.ty.Contents Val → y.ty.Contents Val) (ha) (hb) (hy)
    (fa : (a : DevRef τ sig).ty.Contents Val) (fb : (b : DevRef τ sig).ty.Contents Val) (fy : (y : DevRef τ sig).ty.Contents Val)
    {k : Prog (TpuEff nD τ sig Val Λ c.2) α} {Q : α → sProp 𝕄} :
    iprop(boundary c ∗ ((c.1, (a : DevRef τ sig)) ↦{fullShare} fa) ∗ ((c.1, (b : DevRef τ sig)) ↦{fullShare} fb) ∗ ((c.1, (y : DevRef τ sig)) ↦{fullShare} fy))
      ⊢ iprop(((boundary c ∗ ((c.1, (a : DevRef τ sig)) ↦{fullShare} fa) ∗ ((c.1, (b : DevRef τ sig)) ↦{fullShare} fb)
              ∗ ((c.1, (y : DevRef τ sig)) ↦{fullShare} (f fa fb : y.ty.Contents Val)))
            -∗ wp frame (wpE defs 𝒱 c bd) E k Q)
        -∗ wp frame (wpE defs 𝒱 c bd) E (hlo hp (binary a b y f ha hb hy) fun _ => k) Q) := by
  classical
  let V : Valuation τ sig Val :=
    Function.update (Function.update (Function.update V₀ (a : DevRef τ sig) fa) (b : DevRef τ sig) fb) (y : DevRef τ sig) fy
  have hVa : V (a : DevRef τ sig) = fa := by
    show Function.update (Function.update (Function.update V₀ (a : DevRef τ sig) fa) (b : DevRef τ sig) fb) (y : DevRef τ sig) fy (a : DevRef τ sig) = fa
    rw [Function.update_of_ne hay, Function.update_of_ne hab, Function.update_self]
  have hVb : V (b : DevRef τ sig) = fb := by
    show Function.update (Function.update (Function.update V₀ (a : DevRef τ sig) fa) (b : DevRef τ sig) fb) (y : DevRef τ sig) fy (b : DevRef τ sig) = fb
    rw [Function.update_of_ne hby, Function.update_self]
  have hVy : V (y : DevRef τ sig) = fy := Function.update_self _ _ _
  have hna : (a : DevRef τ sig) ∉ ({(y : DevRef τ sig)} : Finset (DevRef τ sig)) := by simpa using hay
  have hnb : (b : DevRef τ sig) ∉ ({(y : DevRef τ sig)} : Finset (DevRef τ sig)) := by simpa using hby
  have hra : (binary a b y f ha hb hy : HloOp τ sig Val).result V (a : DevRef τ sig) = fa := by
    rw [(binary a b y f ha hb hy : HloOp τ sig Val).result_of_not_mem V (b := (a : DevRef τ sig)) hna, hVa]
  have hrb : (binary a b y f ha hb hy : HloOp τ sig Val).result V (b : DevRef τ sig) = fb := by
    rw [(binary a b y f ha hb hy : HloOp τ sig Val).result_of_not_mem V (b := (b : DevRef τ sig)) hnb, hVb]
  have hry : (binary a b y f ha hb hy : HloOp τ sig Val).result V (y : DevRef τ sig) = (f fa fb : y.ty.Contents Val) := by
    rw [binary_result, hVa, hVb]
  have h := wp_hlo_within (defs := defs) 𝒱 c bd E (hp := hp) (op := binary a b y f ha hb hy)
    (S := {(a : DevRef τ sig), (b : DevRef τ sig), (y : DevRef τ sig)}) (Finset.Subset.refl _) (V := V) (k := fun _ => k) (Q := Q)
  unfold held at h
  have hm1 : (a : DevRef τ sig) ∉ ({(b : DevRef τ sig), (y : DevRef τ sig)} : Finset (DevRef τ sig)) := by
    simp only [Finset.mem_insert, Finset.mem_singleton, not_or]; exact ⟨hab, hay⟩
  have hm2 : (b : DevRef τ sig) ∉ ({(y : DevRef τ sig)} : Finset (DevRef τ sig)) := hnb
  rw [BI.bigSep_insert hm1, BI.bigSep_insert hm1, BI.bigSep_insert hm2, BI.bigSep_insert hm2, bigSep_singleton, bigSep_singleton,
    hVa, hVb, hVy, hra, hrb, hry] at h
  exact h

end Idealize.ShloMosaic.HloPoints

end
-- ==== Proof.KI.Main.lean ====
/-
  @main on the TensorCore: the two transposes, the TensorCore region, the two SparseCore calls with the joining of the row
  sums between them, and the final sum and quotient. The arrays are held one points-to each; every host operation leaves
  its operands as they were and its result at the function's value; each SparseCore call takes its operands' shares and
  pieces and brings them back; what is left is the arguments unchanged and the result at its value.
-/
import proofs.«203338_g27195732918861_cont_9to1_1050_16_alg».proof.Proof.KI.Split
import proofs.«203338_g27195732918861_cont_9to1_1050_16_alg».proof.Proof.LibHloPoints

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.ShloMosaic.SharePeel
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type} [FloatOps F]

local notation "𝕄" => MT nD τ sig (HIx 2) (Elt F) ℕ UU ℕ

variable (m : (ℓ : Loc nD τ sig) → Buf (Elt F) ℓ) (ρ : Dev nD → PrngReg)
variable (t0 : (d : Dev nD) → Buf (Elt F) (ttLoc d) → Buf (Elt F) (rsLoc d))
variable (t1 : (d : Dev nD) → Buf (Elt F) (itLoc d) → Buf (Elt F) (raLoc d) → Buf (Elt F) (ptLoc d))
variable (RR : (d : Dev nD) → Buf (Elt F) (ttLoc d) → Buf (Elt F) (rtLoc d) → Prop)

/-! ## The arrays the TensorCore holds between regions -/

abbrev c0Loc (d : Dev nD) : Loc nD τ sig := (SparseCore.T d).loc main_cst
abbrev v6Loc (d : Dev nD) : Loc nD τ sig := (SparseCore.T d).loc main_v6
abbrev c1Loc (d : Dev nD) : Loc nD τ sig := (SparseCore.T d).loc main_cst_0
abbrev v7Loc (d : Dev nD) : Loc nD τ sig := (SparseCore.T d).loc main_v7

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (ttLoc d ↦{fullShare} W main_v0)
      ∗ (rtLoc d ↦{fullShare} W main_v1) ∗ (rsLoc d ↦{fullShare} W main_v2) ∗ (raLoc d ↦{fullShare} W main_v3) ∗ (itLoc d ↦{fullShare} W main_v4)
      ∗ (ptLoc d ↦{fullShare} W main_v5) ∗ (c0Loc d ↦{fullShare} W main_cst) ∗ (v6Loc d ↦{fullShare} W main_v6) ∗ (c1Loc d ↦{fullShare} W main_cst_0)
      ∗ (v7Loc d ↦{fullShare} W main_v7)) := by
  unfold unscopedBufs
  rw [show (Finset.univ.filter fun b : Ref sig .tc => ¬ b.isScoped)
      = {main_arg0, main_arg1, main_v0, main_v1, main_v2, main_v3, main_v4, main_v5, main_cst, main_v6, main_cst_0, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation of device `d`. -/
def V0 (d : Dev nD) : Valuation τ sig (Elt F) := fun b => m (d, b)

/-! ## A whole result array as its 32 pieces, per SparseCore -/

omit [FloatOps F] in
theorem rs_pieces (d : Dev nD) (f : Buf (Elt F) (rsLoc d)) :
    (rsLoc d ↦{fullShare} f : sProp 𝕄)
      = iprop((bigSep Finset.univ fun i : Fin 16 => rsLoc d ↦[outSeg0 (coords1 (0 : Fin 2) i)]{fullShare} f)
        ∗ bigSep Finset.univ fun i : Fin 16 => rsLoc d ↦[outSeg0 (coords1 (1 : Fin 2) i)]{fullShare} f) := by
  have h := pointsTo_biUnion (ℓ := rsLoc d) (q := fullShare) (f := f) (U := UU) (Ix := HIx 2) (Name := ℕ) (Lvl := ℕ) (Finset.univ : Finset (Fin 2 × Fin 16))
    (fun cs => outSeg0 (coords1 cs.1 cs.2)) outSeg0_disjoint
  rw [outSeg0_cover] at h
  rw [h, ← Finset.univ_product_univ, SparseCore.bigSep_product, show (Finset.univ : Finset (Fin 2)) = {0, 1} by decide,
    SparseCore.bigSep_insert' (by decide), bigSep_singleton]
omit [FloatOps F] in
theorem pt_pieces (d : Dev nD) (f : Buf (Elt F) (ptLoc d)) :
    (ptLoc d ↦{fullShare} f : sProp 𝕄)
      = iprop((bigSep Finset.univ fun i : Fin 16 => ptLoc d ↦[outRow1 (coords2 (0 : Fin 2) i)]{fullShare} f)
        ∗ bigSep Finset.univ fun i : Fin 16 => ptLoc d ↦[outRow1 (coords2 (1 : Fin 2) i)]{fullShare} f) := by
  have h := pointsTo_biUnion (ℓ := ptLoc d) (q := fullShare) (f := f) (U := UU) (Ix := HIx 2) (Name := ℕ) (Lvl := ℕ) (Finset.univ : Finset (Fin 2 × Fin 16))
    (fun cs => outRow1 (coords2 cs.1 cs.2)) outRow1_disjoint
  rw [outRow1_cover] at h
  rw [h, ← Finset.univ_product_univ, SparseCore.bigSep_product, show (Finset.univ : Finset (Fin 2)) = {0, 1} by decide,
    SparseCore.bigSep_insert' (by decide), bigSep_singleton]

/-! ## What each call takes and brings back, over the two SparseCores -/

theorem st_call0 (d : Dev nD) : (bigSep Finset.univ fun c : Fin ((K (F := F)).nCore 0) => (P m t0 t1 RR).st 0 d c)
    = iprop(st0 m d 0 (m (rsLoc d)) ∗ st0 m d 1 (m (rsLoc d))) := by
  show (bigSep (Finset.univ : Finset (Fin 2)) fun c => st0 m d c (m (rsLoc d))) = _
  rw [show (Finset.univ : Finset (Fin 2)) = {0, 1} by decide, SparseCore.bigSep_insert' (by decide), bigSep_singleton]
theorem dn_call0 (d : Dev nD) : (bigSep Finset.univ fun c : Fin ((K (F := F)).nCore 0) => (P m t0 t1 RR).dn 0 d c)
    = iprop(st0 m d 0 (t0 d (TTv m d)) ∗ st0 m d 1 (t0 d (TTv m d))) := by
  show (bigSep (Finset.univ : Finset (Fin 2)) fun c => st0 m d c (t0 d (TTv m d))) = _
  rw [show (Finset.univ : Finset (Fin 2)) = {0, 1} by decide, SparseCore.bigSep_insert' (by decide), bigSep_singleton]
theorem st_call1 (d : Dev nD) : (bigSep Finset.univ fun c : Fin ((K (F := F)).nCore 1) => (P m t0 t1 RR).st 1 d c)
    = iprop(st1 m t0 RR d 0 (fun _ => m (ptLoc d)) ∗ st1 m t0 RR d 1 (fun _ => m (ptLoc d))) := by
  show (bigSep (Finset.univ : Finset (Fin 2)) fun c => st1 m t0 RR d c (fun _ => m (ptLoc d))) = _
  rw [show (Finset.univ : Finset (Fin 2)) = {0, 1} by decide, SparseCore.bigSep_insert' (by decide), bigSep_singleton]
theorem dn_call1 (d : Dev nD) : (bigSep Finset.univ fun c : Fin ((K (F := F)).nCore 1) => (P m t0 t1 RR).dn 1 d c)
    = iprop(st1 m t0 RR d 0 (t1 d (ITv m d)) ∗ st1 m t0 RR d 1 (t1 d (ITv m d))) := by
  show (bigSep (Finset.univ : Finset (Fin 2)) fun c => st1 m t0 RR d c (t1 d (ITv m d))) = _
  rw [show (Finset.univ : Finset (Fin 2)) = {0, 1} by decide, SparseCore.bigSep_insert' (by decide), bigSep_singleton]

/-! ## The result -/

/-- The program's result as a function of the array of all row sums. -/
def outV (d : Dev nD) (R : Buf (Elt F) (raLoc d)) : Buf (Elt F) (v7Loc d) :=
  (Host.divf : (⟨S_, .f32⟩ : BufTy).Contents (Elt F) → (⟨S_, .f32⟩ : BufTy).Contents (Elt F) → (⟨S_, .f32⟩ : BufTy).Contents (Elt F))
    (((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
      (t1 d (ITv m d) R) (constant S_ .f32 0x00000000#32))
    (constant S_ .f32 0x4B500000#32)

/-- What @main leaves the claim: the arguments at their launch contents, the result at its value. -/
def FIN (d : Dev nD) : sProp 𝕄 :=
  iprop((xLoc d ↦{fullShare} m (xLoc d)) ∗ (tLoc d ↦{fullShare} m (tLoc d)) ∗ ∃ R, ⌜Rel m t0 RR d R⌝ ∗ v7Loc d ↦{fullShare} outV m t1 d R)

/-- The TensorCore region's obligation, as @main's proof uses it. -/
def RegionSpec : Prop :=
  ∀ (d : Dev nD) (O : CellTallies nD τ sig (HIx 2)) (_ : ∀ g, O g none = 0) (b : ℕ) (TT : Buf (Elt F) (ttLoc d)) (f0 : Buf (Elt F) (rtLoc d)),
    iprop(levAts (K (F := F)).L (K (F := F)).lev ∗ boundary (T d) ∗ Pipeline.cellsGhost cfgs EP 0 d ∗ Pipeline.toksInit cfgs EP 0 d
        ∗ (ttLoc d ↦{fullShare} TT) ∗ (rtLoc d ↦{fullShare} f0) ∗ (∃ W, ⌜(K (F := F)).WBelow (T d) W b⌝ ∗ owes (T d) O W))
      ⊢ wp frame (wpE ((K (F := F)).defs (D (F := F))) 𝒱 (T d) none) Set.univ (Prog.lift (.customCall (SparseCore.inner (Pipeline.entry 0)) ()))
          fun _ => (iprop(boundary (T d) ∗ (ttLoc d ↦{fullShare} TT) ∗ (∃ G, ⌜RR d TT G⌝ ∗ rtLoc d ↦{fullShare} G)
            ∗ ∃ W, ⌜(K (F := F)).WBelow (T d) W b⌝ ∗ owes (T d) O W) : sProp 𝕄)

/-- The pipeline's ghost state the launch hands device `d`'s TensorCore. -/
abbrev Gd (d : Dev nD) : sProp 𝕄 := iprop(Pipeline.cellsGhost cfgs EP 0 d ∗ Pipeline.toksInit cfgs EP 0 d)

/-! ## @main -/

theorem hmain (hreg : RegionSpec (F := F) RR) (hOtc : ∀ (d : Dev nD) (n : ℕ) g, (K (F := F)).Otc d n g none = 0)
    (κ : GSem nD τ sig → ℕ) (d : Dev nD) :
    iprop((K (F := F)).ctx EH (P m t0 t1 RR) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 2 ∗ FIN m t0 t1 RR d) := by
  obtain ⟨X, hX⟩ : ∃ X : sProp 𝕄, (K (F := F)).tcSt EH d 0
      = iprop((∃ W, ⌜(K (F := F)).WBelow (T d) W (8 * 0)⌝ ∗ owes (T d) ((K (F := F)).Otc d 0) W) ∗ X) := ⟨_, rfl⟩
  unfold SparseCore.Cfg.tcRes
  rw [unscopedBufs_eq, hX]
  simp only [main, wp_bind, wp_pure]
  iintro ⟨#Hctx, ⟨Howes, HX⟩, ⟨Hb, ⟨Hx, Ht, Htt, Hrt, Hrs, Hra, Hit, Hpt, Hc0, Hv6, Hc1, Hv7⟩, -, -⟩, ⟨Hcg, Htk⟩⟩
  -- the table transposed
  iapply (HloPoints.wp_unary 𝒱 (T d) none Set.univ (V0 m d) main_arg1 main_v0 (by decide) _ _ _ (m (tLoc d)) (m (ttLoc d))) $$ [Hb Ht Htt]
  · isplitl [Hb]; · iexact Hb
    isplitl [Ht]; · iexact Ht
    iexact Htt
  iintro ⟨Hb, Ht, Htt⟩
  rw [wp_ret]; imodintro
  -- the TensorCore region: the row sums of the table's upper part
  ihave Hlv := ((K (F := F)).ctx_levAts κ) $$ Hctx
  iapply (wp_wand_r frame (wpE ((K (F := F)).defs (D (F := F))) 𝒱 (SparseCore.T d) none) Set.univ
    (Q := fun _ => iprop(boundary (T d) ∗ (ttLoc d ↦{fullShare} TTv m d) ∗ (∃ G, ⌜RR d (TTv m d) G⌝ ∗ rtLoc d ↦{fullShare} G)
      ∗ ∃ W, ⌜(K (F := F)).WBelow (T d) W (8 * 0)⌝ ∗ owes (T d) ((K (F := F)).Otc d 0) W)))
  isplitl [Hlv Hb Hcg Htk Htt Hrt Howes]
  · iapply (hreg d ((K (F := F)).Otc d 0) (hOtc d 0) (8 * 0) (TTv m d) (m (rtLoc d)))
    isplitl [Hlv]; · iexact Hlv
    isplitl [Hb]; · iexact Hb
    isplitl [Hcg]; · iexact Hcg
    isplitl [Htk]; · iexact Htk
    isplitl [Htt]; · iexact Htt
    isplitl [Hrt]; · iexact Hrt
    iexact Howes
  iintro %u ⟨Hb, Htt, ⟨%G, %hG, Hrt⟩, Howes⟩
  -- SparseCore call 0: the row sums of the table's lower part
  ihave Htt2 := (pointsTo_cores (F := F) (TTv m d)).1 $$ Htt
  icases Htt2 with ⟨Htt0, Htt1⟩
  ihave Hrs2 := (Entails.of_eq (rs_pieces (F := F) d (m (rsLoc d)))) $$ Hrs
  icases Hrs2 with ⟨Hrs0, Hrs1⟩
  iapply ((K (F := F)).wp_run (D (F := F)) 𝒱 (EH := EH) (P := P m t0 t1 RR) κ d 0) $$ [Howes HX Htt0 Htt1 Hrs0 Hrs1 Hx Ht Hb Hrt Hra Hit Hpt Hc0 Hv6 Hc1 Hv7]
  isplitr; · iexact Hctx
  isplitl [Howes HX]
  · iapply (Entails.of_eq hX.symm)
    isplitl [Howes]; · iexact Howes
    iexact HX
  isplitl [Htt0 Htt1 Hrs0 Hrs1]
  · rw [st_call0]
    isplitl [Htt0 Hrs0]
    · isplitl [Htt0]; · iexact Htt0
      iexact Hrs0
    · isplitl [Htt1]; · iexact Htt1
      iexact Hrs1
  iintro ⟨Hst, Hdn⟩
  ihave Hdn' := (Entails.of_eq (dn_call0 m t0 t1 RR d)) $$ Hdn
  icases Hdn' with ⟨⟨Htt0, Hrs0⟩, ⟨Htt1, Hrs1⟩⟩
  ihave Htt := (pointsTo_cores (F := F) (TTv m d)).2 $$ [Htt0 Htt1]
  · isplitl [Htt0]; · iexact Htt0
    iexact Htt1
  ihave Hrs := (Entails.of_eq (rs_pieces (F := F) d (t0 d (TTv m d))).symm) $$ [Hrs0 Hrs1]
  · isplitl [Hrs0]; · iexact Hrs0
    iexact Hrs1
  -- the two halves joined
  iapply (HloPoints.wp_binary 𝒱 (T d) none Set.univ (V0 m d) main_v2 main_v1 main_v3 (by decide) (by decide) (by decide) _ _ _ _
    (t0 d (TTv m d)) G (m (raLoc d))) $$ [Hb Hrs Hrt Hra]
  · isplitl [Hb]; · iexact Hb
    isplitl [Hrs]; · iexact Hrs
    isplitl [Hrt]; · iexact Hrt
    iexact Hra
  iintro ⟨Hb, Hrs, Hrt, Hra⟩
  rw [wp_ret]; imodintro
  have hR : Rel m t0 RR d (catV d (t0 d (TTv m d)) G) := ⟨G, hG, rfl⟩
  -- the indices transposed
  iapply (HloPoints.wp_unary 𝒱 (T d) none Set.univ (V0 m d) main_arg0 main_v4 (by decide) _ _ _ (m (xLoc d)) (m (itLoc d))) $$ [Hb Hx Hit]
  · isplitl [Hb]; · iexact Hb
    isplitl [Hx]; · iexact Hx
    iexact Hit
  iintro ⟨Hb, Hx, Hit⟩
  rw [wp_ret]; imodintro
  -- SparseCore call 1: the partial sums
  ihave Hit2 := (pointsTo_cores (F := F) _).1 $$ Hit
  icases Hit2 with ⟨Hit0, Hit1⟩
  ihave Hra2 := (pointsTo_cores (F := F) _).1 $$ Hra
  icases Hra2 with ⟨Hra0, Hra1⟩
  ihave Hpt2 := (Entails.of_eq (pt_pieces (F := F) d (m (ptLoc d)))) $$ Hpt
  icases Hpt2 with ⟨Hpt0, Hpt1⟩
  iapply ((K (F := F)).wp_run (D (F := F)) 𝒱 (EH := EH) (P := P m t0 t1 RR) κ d 1) $$ [Hst Hit0 Hit1 Hra0 Hra1 Hpt0 Hpt1 Hx Ht Hb Hrs Hrt Htt Hc0 Hv6 Hc1 Hv7]
  isplitr; · iexact Hctx
  isplitl [Hst]; · iexact Hst
  isplitl [Hit0 Hit1 Hra0 Hra1 Hpt0 Hpt1]
  · rw [st_call1]
    isplitl [Hit0 Hra0 Hpt0]
    · iexists (catV d (t0 d (TTv m d)) G)
      isplitl [Hra0]; · iexact Hra0
      isplitr; · ipureintro; exact hR
      isplitl [Hit0]; · iexact Hit0
      iexact Hpt0
    · iexists (catV d (t0 d (TTv m d)) G)
      isplitl [Hra1]; · iexact Hra1
      isplitr; · ipureintro; exact hR
      isplitl [Hit1]; · iexact Hit1
      iexact Hpt1
  iintro ⟨Hst, Hdn⟩
  ihave Hdn' := (Entails.of_eq (dn_call1 m t0 t1 RR d)) $$ Hdn
  icases Hdn' with ⟨⟨%R0, Hra0, %hR0, Hit0, Hpt0⟩, ⟨%R1, Hra1, -, Hit1, Hpt1⟩⟩
  ihave Hag := (persistent_entails_right (pointsTo_agree (ℓ := raLoc d) (I := Finset.univ) (J := Finset.univ) (q₁ := coreQ 0) (q₂ := coreQ 1) (f := R0) (g := R1)
    (U := UU) (Ix := HIx 2) (Name := ℕ) (Lvl := ℕ))) $$ [Hra0 Hra1]
  · isplitl [Hra0]; · iexact Hra0
    iexact Hra1
  icases Hag with ⟨%hag, Hra0, Hra1⟩
  have e : R1 = R0 := funext fun i => ((hag i (by simp)).1).symm
  subst e
  ihave Hpt := (Entails.of_eq (pt_pieces (F := F) d (t1 d (ITv m d) R1)).symm) $$ [Hpt0 Hpt1]
  · isplitl [Hpt0]; · iexact Hpt0
    iexact Hpt1
  -- the sum of the partial sums and the quotient
  iapply (HloPoints.wp_nullary 𝒱 (T d) none Set.univ (V0 m d) main_cst _ _ (m (c0Loc d))) $$ [Hb Hc0]
  · isplitl [Hb]; · iexact Hb
    iexact Hc0
  iintro ⟨Hb, Hc0⟩
  rw [wp_ret]; imodintro
  iapply (HloPoints.wp_binary 𝒱 (T d) none Set.univ (V0 m d) main_v5 main_cst main_v6 (by decide) (by decide) (by decide) _ _ _ _
    (t1 d (ITv m d) R1) _ (m (v6Loc d))) $$ [Hb Hpt Hc0 Hv6]
  · isplitl [Hb]; · iexact Hb
    isplitl [Hpt]; · iexact Hpt
    isplitl [Hc0]; · iexact Hc0
    iexact Hv6
  iintro ⟨Hb, Hpt, Hc0, Hv6⟩
  rw [wp_ret]; imodintro
  iapply (HloPoints.wp_nullary 𝒱 (T d) none Set.univ (V0 m d) main_cst_0 _ _ (m (c1Loc d))) $$ [Hb Hc1]
  · isplitl [Hb]; · iexact Hb
    iexact Hc1
  iintro ⟨Hb, Hc1⟩
  rw [wp_ret]; imodintro
  iapply (HloPoints.wp_binary 𝒱 (T d) none Set.univ (V0 m d) main_v6 main_cst_0 main_v7 (by decide) (by decide) (by decide) _ _ _ _
    _ _ (m (v7Loc d))) $$ [Hb Hv6 Hc1 Hv7]
  · isplitl [Hb]; · iexact Hb
    isplitl [Hv6]; · iexact Hv6
    isplitl [Hc1]; · iexact Hc1
    iexact Hv7
  iintro ⟨Hb, Hv6, Hc1, Hv7⟩
  rw [wp_ret]; imodintro; imodintro
  isplitl [Hst]; · iexact Hst
  unfold FIN
  isplitl [Hx]; · iexact Hx
  isplitl [Ht]; · iexact Ht
  iexists R1
  isplitr; · ipureintro; exact hR0
  iexact Hv7

end Cert.Proof.KI

end
-- ==== Proof.KI.Run.lean ====
/-
  The program's run. Each SparseCore call's tile obligation is its body's proof at the tile's coordinates, over what the
  launch hands the tile; the launch element is the handshakes' rounds beside the pipeline's staging cells' rounds; the
  final memory holds the arguments unchanged and the result at its value.
-/
import proofs.«203338_g27195732918861_cont_9to1_1050_16_alg».proof.Proof.KI.Main

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.ShloMosaic.SharePeel
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)
variable (t0 : (d : Dev nD) → Buf (Elt F) (ttLoc d) → Buf (Elt F) (rsLoc d))
variable (t1 : (d : Dev nD) → Buf (Elt F) (itLoc d) → Buf (Elt F) (raLoc d) → Buf (Elt F) (ptLoc d))
variable (RR : (d : Dev nD) → Buf (Elt F) (ttLoc d) → Buf (Elt F) (rtLoc d) → Prop)

/-! ## The bodies' obligations, as the launch uses them -/

abbrev tileThr1 (d : Dev nD) (L : grid1.Coords) : Thread nD τ := V d ((L 0).castLE hcore1) ((L 1).castLE hsub1)
abbrev tileThr2 (d : Dev nD) (L : grid2.Coords) : Thread nD τ := V d ((L 0).castLE hcore2) ((L 1).castLE hsub2)

/-- Call 0's body at tile `L`: from a read share of the transposed table and the tile's segment of the result, the segment
    at the column sums. -/
def Tile0Spec : Prop :=
  ∀ (d : Dev nD) (L : grid1.Coords) (O : CellTallies nD τ sig (HIx 2)) (W : Waits sig (HIx 2)) (_ : ∀ g, O g none = 0)
    (q : PosShare TreeShare) (TT : Buf (Elt F) (ttLoc d)) (f0 : Buf (Elt F) (rsLoc d)),
    iprop(levAts (K (F := F)).L (K (F := F)).lev ∗ ((ttLoc d ↦{q} TT) ∗ rsLoc d ↦[outSeg0 L]{fullShare} f0)
        ∗ scopedBufs (tileThr1 d L) ∗ scopedSems0 (tileThr1 d L) ∗ owes (tileThr1 d L) O W)
      ⊢ wp frame (wpE (defs₀ (F := F)) 𝒱₀ (tileThr1 d L) none) Set.univ
          (cc1_rs_kernel L (Memref.whole main_v0_scv) (Memref.isWhole_whole _) (Memref.whole main_v2_scv) (Memref.isWhole_whole _)
            (Memref.whole cc1_scratch0) (Memref.isWhole_whole _) (Memref.whole cc1_scratch1) (Memref.isWhole_whole _)
            (Memref.whole cc1_scratch2) (Memref.isWhole_whole _) cc1_scratch3 cc1_scratch4 cc1_scoped0)
          fun _ => (iprop(((ttLoc d ↦{q} TT) ∗ rsLoc d ↦[outSeg0 L]{fullShare} t0 d TT)
            ∗ scopedBufs (tileThr1 d L) ∗ scopedSems0 (tileThr1 d L) ∗ ∃ W', ⌜∀ p ∈ W', p ∈ W ∨ p.2 = none⌝ ∗ owes (tileThr1 d L) O W') : sProp 𝕄)

/-- Call 1's body at tile `L`: from read shares of the transposed indices (every word a row number) and of the row sums
    and the tile's row of the result, the row at the partial sums. -/
def Tile1Spec : Prop :=
  ∀ (d : Dev nD) (L : grid2.Coords) (O : CellTallies nD τ sig (HIx 2)) (W : Waits sig (HIx 2)) (_ : ∀ g, O g none = 0)
    (q : PosShare TreeShare) (I : Buf (Elt F) (itLoc d)) (R : Buf (Elt F) (raLoc d)) (f0 : Buf (Elt F) (ptLoc d)) (_ : ∀ i, (I i).toNat < 1000000),
    iprop(levAts (K (F := F)).L (K (F := F)).lev ∗ ((itLoc d ↦{q} I) ∗ (raLoc d ↦{q} R) ∗ ptLoc d ↦[outRow1 L]{fullShare} f0)
        ∗ scopedBufs (tileThr2 d L) ∗ scopedSems0 (tileThr2 d L) ∗ owes (tileThr2 d L) O W)
      ⊢ wp frame (wpE (defs₀ (F := F)) 𝒱₀ (tileThr2 d L) none) Set.univ
          (cc2_sc_kernel L (Memref.whole main_v4_scv) (Memref.isWhole_whole _) (Memref.whole main_v3_scv) (Memref.isWhole_whole _)
            (Memref.whole main_v5_scv) (Memref.isWhole_whole _) (Memref.whole cc2_scratch0) (Memref.isWhole_whole _)
            (Memref.whole cc2_scratch1) (Memref.isWhole_whole _) (Memref.whole cc2_scratch2) (Memref.isWhole_whole _)
            (Memref.whole cc2_scratch3) (Memref.isWhole_whole _) (Memref.whole cc2_scratch4) (Memref.isWhole_whole _)
            (Memref.whole cc2_scratch5) (Memref.isWhole_whole _) (Memref.whole cc2_scratch6) (Memref.isWhole_whole _)
            (Memref.whole cc2_scratch7) (Memref.isWhole_whole _) (Memref.whole cc2_scratch8) (Memref.isWhole_whole _)
            (Memref.whole cc2_scratch9) (Memref.isWhole_whole _) cc2_scratch10 cc2_scratch11 cc2_scratch12 cc2_scratch13 cc2_scratch14
            cc2_scratch15 cc2_scratch16 cc2_scratch17 cc2_scoped0 cc2_scoped1)
          fun _ => (iprop(((itLoc d ↦{q} I) ∗ (raLoc d ↦{q} R) ∗ ptLoc d ↦[outRow1 L]{fullShare} t1 d I R)
            ∗ scopedBufs (tileThr2 d L) ∗ scopedSems0 (tileThr2 d L) ∗ ∃ W', ⌜∀ p ∈ W', p ∈ W ∨ p.2 = none⌝ ∗ owes (tileThr2 d L) O W') : sProp 𝕄)

theorem defs₀_vector1 (c : Fin τ.nSC) (s : Fin τ.nSub) :
    defs₀ (F := F) (.scVector c s) 1 ()
      = SparseCore.onTile hcore1 hsub1 (fun c s => cc1_rs_kernel (coords1 c s)
          (Memref.whole main_v0_scv) (Memref.isWhole_whole _) (Memref.whole main_v2_scv) (Memref.isWhole_whole _)
          (Memref.whole cc1_scratch0) (Memref.isWhole_whole _) (Memref.whole cc1_scratch1) (Memref.isWhole_whole _)
          (Memref.whole cc1_scratch2) (Memref.isWhole_whole _) cc1_scratch3 cc1_scratch4 cc1_scoped0) ⟨⟩ c s := rfl

theorem defs₀_vector2 (c : Fin τ.nSC) (s : Fin τ.nSub) :
    defs₀ (F := F) (.scVector c s) 2 ()
      = SparseCore.onTile hcore2 hsub2 (fun c s => cc2_sc_kernel (coords2 c s)
          (Memref.whole main_v4_scv) (Memref.isWhole_whole _) (Memref.whole main_v3_scv) (Memref.isWhole_whole _)
          (Memref.whole main_v5_scv) (Memref.isWhole_whole _) (Memref.whole cc2_scratch0) (Memref.isWhole_whole _)
          (Memref.whole cc2_scratch1) (Memref.isWhole_whole _) (Memref.whole cc2_scratch2) (Memref.isWhole_whole _)
          (Memref.whole cc2_scratch3) (Memref.isWhole_whole _) (Memref.whole cc2_scratch4) (Memref.isWhole_whole _)
          (Memref.whole cc2_scratch5) (Memref.isWhole_whole _) (Memref.whole cc2_scratch6) (Memref.isWhole_whole _)
          (Memref.whole cc2_scratch7) (Memref.isWhole_whole _) (Memref.whole cc2_scratch8) (Memref.isWhole_whole _)
          (Memref.whole cc2_scratch9) (Memref.isWhole_whole _) cc2_scratch10 cc2_scratch11 cc2_scratch12 cc2_scratch13 cc2_scratch14
          cc2_scratch15 cc2_scratch16 cc2_scratch17 cc2_scoped0 cc2_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem drop_x {A X B : sProp 𝕄} : iprop(A ∗ X ∗ B) ⊢ iprop(A ∗ B) := by
  iintro ⟨HA, -, HB⟩
  isplitl [HA]; · iexact HA
  iexact HB

theorem tileObl0 (h0 : Tile0Spec (F := F) t0) : (K (F := F)).TileObl (D (F := F)) 𝒱 (P m t0 t1 RR) v₀ 0 := by
  intro d c i O W hO _ _
  simp only [show (P m t0 t1 RR).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  exact BI.Entails.trans drop_x ((h0 d (coords1 ⟨_, hc.1⟩ ⟨_, hc.2⟩) O W hO (piece i.val (coreQ c.val)) (TTv m d) (m (rsLoc d))).trans
    (wp_mono frame _ _ fun _ => obl_post))

theorem tileObl1 (h1 : Tile1Spec (F := F) t1) (hidx : ∀ (d : Dev nD) i, (ITv m d i).toNat < 1000000) :
    (K (F := F)).TileObl (D (F := F)) 𝒱 (P m t0 t1 RR) v₀ 1 := by
  intro d c i O W hO _ _
  simp only [show (P m t0 t1 RR).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  have hpost : ∀ R : Buf (Elt F) (raLoc d), Rel m t0 RR d R →
      (iprop(((itLoc d ↦{piece i.val (coreQ c.val)} ITv m d) ∗ (raLoc d ↦{piece i.val (coreQ c.val)} R)
            ∗ ptLoc d ↦[outRow1 (coords2 c i)]{fullShare} t1 d (ITv m d) R)
          ∗ scopedBufs (V d ((K (F := F)).core 1 c) ((K (F := F)).sub 1 i)) ∗ scopedSems0 (V d ((K (F := F)).core 1 c) ((K (F := F)).sub 1 i))
          ∗ ∃ W', ⌜∀ p ∈ W', p ∈ W ∨ p.2 = none⌝ ∗ owes (V d ((K (F := F)).core 1 c) ((K (F := F)).sub 1 i)) O W') : sProp 𝕄)
      ⊢ iprop(go1 m t0 RR d c i (t1 d (ITv m d))
          ∗ scopedBufs (V d ((K (F := F)).core 1 c) ((K (F := F)).sub 1 i)) ∗ scopedSems0 (V d ((K (F := F)).core 1 c) ((K (F := F)).sub 1 i))
          ∗ ∃ W', ⌜∀ p ∈ W', p ∈ W ∨ p.2 = none ∨ p.2 = some (1 : Fin 2)⌝ ∗ owes (V d ((K (F := F)).core 1 c) ((K (F := F)).sub 1 i)) O W') := by
    intro R hR
    unfold go1
    iintro ⟨⟨Hit, Hra, Hpt⟩, Hsb, Hss, %W', %hW', HO⟩
    isplitl [Hit Hra Hpt]
    · iexists R
      isplitl [Hra]; · iexact Hra
      isplitr; · ipureintro; exact hR
      isplitl [Hit]; · iexact Hit
      iexact Hpt
    isplitl [Hsb]; · iexact Hsb
    isplitl [Hss]; · iexact Hss
    iexists W'; isplitr
    · ipureintro; exact fun p hp => (hW' p hp).imp_right Or.inl
    · iexact HO
  have hpre : (iprop(levAts (K (F := F)).L (K (F := F)).lev ∗ (iprop(emp) : sProp 𝕄) ∗ go1 m t0 RR d c i (fun _ => m (ptLoc d))
        ∗ scopedBufs (V d ((K (F := F)).core 1 c) ((K (F := F)).sub 1 i)) ∗ scopedSems0 (V d ((K (F := F)).core 1 c) ((K (F := F)).sub 1 i))
        ∗ owes (V d ((K (F := F)).core 1 c) ((K (F := F)).sub 1 i)) O W) : sProp 𝕄)
      ⊢ wp frame (wpE (defs₀ (F := F)) 𝒱₀ (V d ((K (F := F)).core 1 c) ((K (F := F)).sub 1 i)) none) Set.univ
          (cc2_sc_kernel (coords2 ⟨_, hc.1⟩ ⟨_, hc.2⟩) (Memref.whole main_v4_scv) (Memref.isWhole_whole _) (Memref.whole main_v3_scv) (Memref.isWhole_whole _)
            (Memref.whole main_v5_scv) (Memref.isWhole_whole _) (Memref.whole cc2_scratch0) (Memref.isWhole_whole _)
            (Memref.whole cc2_scratch1) (Memref.isWhole_whole _) (Memref.whole cc2_scratch2) (Memref.isWhole_whole _)
            (Memref.whole cc2_scratch3) (Memref.isWhole_whole _) (Memref.whole cc2_scratch4) (Memref.isWhole_whole _)
            (Memref.whole cc2_scratch5) (Memref.isWhole_whole _) (Memref.whole cc2_scratch6) (Memref.isWhole_whole _)
            (Memref.whole cc2_scratch7) (Memref.isWhole_whole _) (Memref.whole cc2_scratch8) (Memref.isWhole_whole _)
            (Memref.whole cc2_scratch9) (Memref.isWhole_whole _) cc2_scratch10 cc2_scratch11 cc2_scratch12 cc2_scratch13 cc2_scratch14
            cc2_scratch15 cc2_scratch16 cc2_scratch17 cc2_scoped0 cc2_scoped1)
          fun _ => iprop(go1 m t0 RR d c i (t1 d (ITv m d))
            ∗ scopedBufs (V d ((K (F := F)).core 1 c) ((K (F := F)).sub 1 i)) ∗ scopedSems0 (V d ((K (F := F)).core 1 c) ((K (F := F)).sub 1 i))
            ∗ ∃ W', ⌜∀ p ∈ W', p ∈ W ∨ p.2 = none ∨ p.2 = some (1 : Fin 2)⌝ ∗ owes (V d ((K (F := F)).core 1 c) ((K (F := F)).sub 1 i)) O W') := by
    unfold go1
    iintro ⟨Hlv, -, ⟨%R, Hra, %hR, Hit, Hpt⟩, Hsb, Hss, HO⟩
    iapply ((h1 d (coords2 ⟨_, hc.1⟩ ⟨_, hc.2⟩) O W hO (piece i.val (coreQ c.val)) (ITv m d) R (m (ptLoc d)) (hidx d)).trans
      (wp_mono frame _ _ fun _ => hpost R hR))
    isplitl [Hlv]; · iexact Hlv
    isplitl [Hit Hra Hpt]
    · isplitl [Hit]; · iexact Hit
      isplitl [Hra]; · iexact Hra
      iexact Hpt
    isplitl [Hsb]; · iexact Hsb
    isplitl [Hss]; · iexact Hss
    iexact HO
  exact hpre

/-! ## The launch element -/

variable (pipeU : UP)

def u₀ : UU := (initOf (K (F := F)).hsCells (K (F := F)).hsToks, (pipeU, 1))

omit [FloatOps F] in
theorem bigSep_emp' {I : Type} (s : Finset I) : (bigSep s fun _ => iprop(emp)) = (iprop(emp) : sProp 𝕄) := bigSep_emp_const s

theorem hu₀ (hpipe : (BI.own (EP pipeU) : sProp 𝕄) ⊢ iprop(|==> bigSep Finset.univ fun d : Dev nD => Gd (F := F) d)) :
    (ownU (u₀ (F := F) pipeU) : sProp 𝕄)
      ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 2 => (P m t0 t1 RR).x q thr) := by
  unfold u₀
  iintro Hu
  ihave H := (ownU_split3 (F := F) _ _ _) $$ Hu
  icases H with ⟨HH, HP⟩
  imod hpipe $$ HP with HG
  imodintro
  isplitl [HH]; · iexact HH
  isplitl [HG]; · iexact HG
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## The final memory -/

def fq (d : Dev nD) (s' : Phys nD τ sig (Elt F)) : Prop :=
  s'.mem.mem (xLoc d) = m (xLoc d) ∧ s'.mem.mem (tLoc d) = m (tLoc d) ∧ ∃ R, Rel m t0 RR d R ∧ s'.mem.mem (v7Loc d) = outV m t1 d R

theorem hfin (d : Dev nD) (s' : Phys nD τ sig (Elt F)) : iprop(FIN m t0 t1 RR d ∗ SI s') ⊢ (⌜fq m t0 t1 RR d s'⌝ : sProp 𝕄) := by
  unfold FIN
  iintro ⟨⟨Hx, Ht, %R, %hR, Hv⟩, HSI⟩
  ihave H := (persistent_entails_right (SI_pointsTo_agree (st := s') (ℓ := xLoc d) (I := Finset.univ) (q := fullShare) (f := m (xLoc d)))) $$ [HSI Hx]
  · isplitl [HSI]; · iexact HSI
    iexact Hx
  icases H with ⟨%h1, HSI, -⟩
  ihave H := (persistent_entails_right (SI_pointsTo_agree (st := s') (ℓ := tLoc d) (I := Finset.univ) (q := fullShare) (f := m (tLoc d)))) $$ [HSI Ht]
  · isplitl [HSI]; · iexact HSI
    iexact Ht
  icases H with ⟨%h2, HSI, -⟩
  ihave H := (SI_pointsTo_agree (st := s') (ℓ := v7Loc d) (I := Finset.univ) (q := fullShare) (f := outV m t1 d R)) $$ [HSI Hv]
  · isplitl [HSI]; · iexact HSI
    iexact Hv
  icases H with %h3
  ipureintro
  exact ⟨funext fun i => h1 i (Finset.mem_univ i), funext fun i => h2 i (Finset.mem_univ i), R, hR, funext fun i => h3 i (Finset.mem_univ i)⟩

/-! ## The run -/

def QC : PUnit × MemSt nD τ sig (Elt F) → Prop := fun r => ∀ c : Dev nD,
  r.2.mem (xLoc c) = m (xLoc c) ∧ r.2.mem (tLoc c) = m (tLoc c) ∧ ∃ R, Rel m t0 RR c R ∧ r.2.mem (v7Loc c) = outV m t1 c R

theorem run_main [∀ e, Nonempty (Elt F e)] (h0 : Tile0Spec (F := F) t0) (h1 : Tile1Spec (F := F) t1) (hreg : RegionSpec (F := F) RR)
    (hOtc : ∀ (d : Dev nD) (n : ℕ) g, (K (F := F)).Otc d n g none = 0)
    (hidx : ∀ (d : Dev nD) i, (ITv m d i).toNat < 1000000)
    (hpipe : (BI.own (EP pipeU) : sProp 𝕄) ⊢ iprop(|==> bigSep Finset.univ fun d : Dev nD => Gd (F := F) d)) :
    θ_run (Cert.KernelIdeal.defs (F := F)) (Cert.KernelIdeal.threads (F := F)) ⟨m, fun _ => 0, ρ⟩ (QC m t0 t1 RR) :=
  SparseCore.Cfg.θ_run_sc (K := K (F := F)) (D := D (F := F)) (𝒱 := 𝒱) (EH := EH) (P := P m t0 t1 RR) facts v₀
    (fun q hq => match q with | 0 => nomatch hq | 1 => nomatch hq)
    (fun q _ => match q with | 0 => tileObl0 m t0 t1 RR h0 | 1 => tileObl1 m t0 t1 RR h1 hidx)
    (fun q _ => match q with | 0 => SparseCore.Cfg.VecSplit.of_plain (vecSplit0 m t0 t1 RR) | 1 => SparseCore.Cfg.VecSplit.of_plain (vecSplit1 m t0 t1 RR))
    m ρ main (fun d => Gd (F := F) d) (FIN m t0 t1 RR) (u₀ (F := F) pipeU) (sep_elim_left.trans (hu₀ m t0 t1 RR pipeU hpipe))
    (hmain m ρ t0 t1 RR hreg hOtc) (fq m t0 t1 RR) (hfin m t0 t1 RR) (QC m t0 t1 RR) (fun _ h => h)

end Cert.Proof.KI

end
-- ==== Proof.KI.IdxRange.lean ====
/-
  The transposed index array holds row numbers wherever the index array does: a transpose only exchanges coordinates.
-/
import proofs.«203338_g27195732918861_cont_9to1_1050_16_alg».proof.Proof.KI.Pay
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)

variable {F : FTy → Type} [FloatOps F]

variable (m : (ℓ : Loc nD τ sig) → Buf (Elt F) ℓ)

/-- The transposed index array at `(f, b)` is the index array at `(b, f)`. -/
theorem ITv_apply (d : Dev nD) (f : Fin 26) (b : Fin 16384) : ITv m d (ix2 f b) = m (xLoc d) (ix2 b f) :=
  transpose_apply _ _ _ _ (ix2 b f) (fun c => by match c with | ⟨0, _⟩ => rfl | ⟨1, _⟩ => rfl)

/-- Every word of the transposed index array is a row number when every word of the index array is. -/
theorem ITv_range (hx : ∀ (d : Dev nD) j, (m (xLoc d) j).toNat < 1000000) : ∀ (d : Dev nD) i, (ITv m d i).toNat < 1000000 := by
  intro d i
  obtain ⟨f, b, rfl⟩ : ∃ f b, i = ix2 f b := ⟨i 0, i 1, eq_ix2 i⟩
  rw [ITv_apply]
  exact hx d _

end Cert.Proof.KI

end
-- ==== Proof.KI.Region.lean ====
/-
  The TensorCore kernel region inside the SparseCore program: the pipelined call that sums the columns
  327680 ‥ 999999 of the transposed table, block by block, into the second piece of the row sums.
  Proved through the pipeline library's region rule over relational proof data: the input window's staging
  buffer is refetched at every point, the output window's is written back at every point, and what the body
  leaves in the output's buffer is the column sum of SOME filling of the input block past the array's end
  (the last block overhangs the table).
-/
import proofs.«203338_g27195732918861_cont_9to1_1050_16_alg».proof.Proof.KI.Common
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 2) (Elt F) ℕ UU ℕ

/-- The one admissible contents of the pipeline's (absent) prefetched tables. -/
abbrev adm : (p : Fin 1) → (pcfgs (F := F) p).Adm := fun p => (cfgs p).toPCfg_adm

section Data

variable (O : Dev nD → CellTallies nD τ sig (HIx 2)) (b : ℕ)
  (TT : (c : Dev nD) → Buf (Elt F) (ttLoc c)) (f0 : (c : Dev nD) → Buf (Elt F) (rtLoc c))

/-- The input block at point `t` as the fetch reads it: its part inside the array. -/
def inBlk (c : Dev nD) (t : Fin cfg0.N) : (win0_0.xblock (grid0.coords t)).Idx → Elt F .f32 :=
  (win0_0.blk t).view.read (Elt F) (TT c)

/-- The relational proof data of the pipeline on device `c`'s TensorCore. -/
def rdats (_ : Fin 1) (c : Dev nD) : RDat τ (Elt F) (HIx 2) ℕ UU ℕ cfg0 c where
  A w := match w with
    | ⟨0, _⟩ => TT c
    | ⟨1, _⟩ => f0 c
  after w t := match w with
    | ⟨0, _⟩ => fun _ _ => True
    | ⟨1, _⟩ => fun _ X => ∃ d, X = k0_pay1 (win0_0.fill (grid0.coords t) d (inBlk TT c t))
  Φ _ := iprop(emp)
  q _ := fullShare
  owed _ := O c
  recorded _ := {p | (K (F := F)).lev (T c, p.1) p.2 ≤ b}

/-- What the second piece of the row sums may hold after the region. -/
def RegionRel (c : Dev nD) (G : Buf (Elt F) (rtLoc c)) : Prop := (rdats O b TT f0 0 c).ArrAt 1 cfg0.N G

end Data

section Body

/-- The zero offsets, as the program spells them. -/
theorem hz2 : (![0, 0] : Fin 2 → Nat) = fun _ => 0 := funext fun a => by fin_cases a <;> rfl
theorem hz1 : (![0] : Fin 1 → Nat) = fun _ => 0 := funext fun a => by fin_cases a <;> rfl

/-- The kernel body on a staging buffer of each window: the whole load of the input's, the column sums, the (dead)
    load of the output's, the whole store: the output's buffer ends holding the column sums of what the input's holds. -/
theorem sound_body (c : Dev nD) (E : Set ℕ) (i : grid0.Coords) (s0 : Fin 2) (s1 : Fin 2)
    (X0 : S32x65536.Idx → Elt F .f32) (X1 : S65536.Idx → Elt F .f32) (Kk : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0 ∗ owns (c : Thread nD τ) (stage0_1 s1) fullShare (k0_pay1 X0)) -∗ Kk ⟨⟩))
      ⊢ wp frame (wpE (defs₀ (F := F)) 𝒱₀ c none) E
          (cc0_body i (stage0_0 s0) (hstage0_0 s0) (stage0_1 s1) (hstage0_1 s1)) Kk := by
  fin_cases s0 <;> fin_cases s1
  · -- the input's buffer `cc0_stg0_0`, the output's `cc0_stg1_0`
    simp only [owns_whole_eq, cc0_body_eq_skeleton]; unfold cc0_body_skel
    simp only [Prog.lift, Prog.bind_op, Prog.bind_ret]
    iintro ⟨⟨⟨%g0, %hg0, H0⟩, ⟨%g1, %hg1, H1⟩⟩, Hk⟩
    have hr : (Memref.whole cc0_stg0_0 : Memref sig .tc _ _ _).view.readAt (Elt F) (Rect.unit (s := S32x65536) ![0, 0] S32x65536.size
        inb_S32x65536_S32x65536_0_0).toLoadRect g0 = g0 := Memref.readAt_unit_zero (Elt F) cc0_stg0_0 hz2 _ g0
    have hw : ∀ f w, (((Memref.whole cc0_stg1_0).access (Rect.unit (s := S65536) ![0] S65536.size inb_S65536_S65536_0)) :
        View sig .tc _ _ _).write (Elt F) f w Finset.univ = w := Memref.write_access_unit_zero_univ (Elt F) cc0_stg1_0 hz1 _
    sl_steps
    iapply Hk
    rw [hr, hw]
    isplitl [H0]
    · iexists g0; isplitr; · ipureintro; exact hg0
      iexact H0
    · iexists k0_pay1 g0; isplitr; · ipureintro; rw [hg0]
      iexact H1
  · -- the input's buffer `cc0_stg0_0`, the output's `cc0_stg1_1`
    simp only [owns_whole_eq, cc0_body_eq_skeleton]; unfold cc0_body_skel
    simp only [Prog.lift, Prog.bind_op, Prog.bind_ret]
    iintro ⟨⟨⟨%g0, %hg0, H0⟩, ⟨%g1, %hg1, H1⟩⟩, Hk⟩
    have hr : (Memref.whole cc0_stg0_0 : Memref sig .tc _ _ _).view.readAt (Elt F) (Rect.unit (s := S32x65536) ![0, 0] S32x65536.size
        inb_S32x65536_S32x65536_0_0).toLoadRect g0 = g0 := Memref.readAt_unit_zero (Elt F) cc0_stg0_0 hz2 _ g0
    have hw : ∀ f w, (((Memref.whole cc0_stg1_1).access (Rect.unit (s := S65536) ![0] S65536.size inb_S65536_S65536_0)) :
        View sig .tc _ _ _).write (Elt F) f w Finset.univ = w := Memref.write_access_unit_zero_univ (Elt F) cc0_stg1_1 hz1 _
    sl_steps
    iapply Hk
    rw [hr, hw]
    isplitl [H0]
    · iexists g0; isplitr; · ipureintro; exact hg0
      iexact H0
    · iexists k0_pay1 g0; isplitr; · ipureintro; rw [hg0]
      iexact H1
  · -- the input's buffer `cc0_stg0_1`, the output's `cc0_stg1_0`
    simp only [owns_whole_eq, cc0_body_eq_skeleton]; unfold cc0_body_skel
    simp only [Prog.lift, Prog.bind_op, Prog.bind_ret]
    iintro ⟨⟨⟨%g0, %hg0, H0⟩, ⟨%g1, %hg1, H1⟩⟩, Hk⟩
    have hr : (Memref.whole cc0_stg0_1 : Memref sig .tc _ _ _).view.readAt (Elt F) (Rect.unit (s := S32x65536) ![0, 0] S32x65536.size
        inb_S32x65536_S32x65536_0_0).toLoadRect g0 = g0 := Memref.readAt_unit_zero (Elt F) cc0_stg0_1 hz2 _ g0
    have hw : ∀ f w, (((Memref.whole cc0_stg1_0).access (Rect.unit (s := S65536) ![0] S65536.size inb_S65536_S65536_0)) :
        View sig .tc _ _ _).write (Elt F) f w Finset.univ = w := Memref.write_access_unit_zero_univ (Elt F) cc0_stg1_0 hz1 _
    sl_steps
    iapply Hk
    rw [hr, hw]
    isplitl [H0]
    · iexists g0; isplitr; · ipureintro; exact hg0
      iexact H0
    · iexists k0_pay1 g0; isplitr; · ipureintro; rw [hg0]
      iexact H1
  · -- the input's buffer `cc0_stg0_1`, the output's `cc0_stg1_1`
    simp only [owns_whole_eq, cc0_body_eq_skeleton]; unfold cc0_body_skel
    simp only [Prog.lift, Prog.bind_op, Prog.bind_ret]
    iintro ⟨⟨⟨%g0, %hg0, H0⟩, ⟨%g1, %hg1, H1⟩⟩, Hk⟩
    have hr : (Memref.whole cc0_stg0_1 : Memref sig .tc _ _ _).view.readAt (Elt F) (Rect.unit (s := S32x65536) ![0, 0] S32x65536.size
        inb_S32x65536_S32x65536_0_0).toLoadRect g0 = g0 := Memref.readAt_unit_zero (Elt F) cc0_stg0_1 hz2 _ g0
    have hw : ∀ f w, (((Memref.whole cc0_stg1_1).access (Rect.unit (s := S65536) ![0] S65536.size inb_S65536_S65536_0)) :
        View sig .tc _ _ _).write (Elt F) f w Finset.univ = w := Memref.write_access_unit_zero_univ (Elt F) cc0_stg1_1 hz1 _
    sl_steps
    iapply Hk
    rw [hr, hw]
    isplitl [H0]
    · iexists g0; isplitr; · ipureintro; exact hg0
      iexact H0
    · iexists k0_pay1 g0; isplitr; · ipureintro; rw [hg0]
      iexact H1

variable (O : Dev nD → CellTallies nD τ sig (HIx 2)) (b : ℕ)
  (TT : (c : Dev nD) → Buf (Elt F) (ttLoc c)) (f0 : (c : Dev nD) → Buf (Elt F) (rtLoc c))

/-- The pipeline library's body obligation, from `sound_body` at the point's staging buffers: the input's buffer arrives
    just fetched — the block where the fetch filled it, anything past the array's end —, and the output's buffer is left
    at the column sums of that. -/
theorem body_obligation (c : Dev nD) : (rdats O b TT f0 0 c).BodyObligation (defs₀ (F := F)) 𝒱₀ none Set.univ := fun t Y hY => by
  obtain ⟨d0, hd0⟩ := ((rdats O b TT f0 0 c).finds_of_fetch (fetch0_0 t) (Y 0)).mp (hY 0)
  rw [bigSep_W0, bigSep_W0]
  rw [show (rdats O b TT f0 0 c).Φ t.succ = (rdats O b TT f0 0 c).Φ t.castSucc from rfl,
    show (rdats O b TT f0 0 c).owesAt none t.succ = (rdats O b TT f0 0 c).owesAt none t.castSucc from rfl]
  iintro ⟨HΦ, Ho, H0, H1⟩
  iapply (sound_body (F := F) c Set.univ (grid0.coords t) (cfg0.slots t 0) (cfg0.slots t 1) (Y 0) (Y 1) _)
  isplitl [H0 H1]
  · isplitl [H0]
    · iexact H0
    · iexact H1
  iintro ⟨H0, H1⟩
  isplitl [HΦ]; · iexact HΦ
  isplitl [Ho]; · iexact Ho
  isplitl [H0]
  · iexists Y 0; isplitr; · ipureintro; trivial
    iexact H0
  · iexists k0_pay1 (Y 0); isplitr
    · ipureintro; exact ⟨d0, by rw [hd0]; rfl⟩
    iexact H1

end Body

section Region

variable (O : Dev nD → CellTallies nD τ sig (HIx 2)) (hO : ∀ c g, O c g none = 0) (b : ℕ)
  (TT : (c : Dev nD) → Buf (Elt F) (ttLoc c)) (f0 : (c : Dev nD) → Buf (Elt F) (rtLoc c))
  (lv : GSem nD τ sig → HIx 2 → ℕ) (hlv : (K (F := F)).Refines lv)

/-- What the TensorCore owes the SparseCores' handshakes, every pair its waits have recorded at or below level `b`. -/
def owesB (c : Dev nD) : sProp 𝕄 := iprop(∃ W, ⌜(K (F := F)).WBelow (T c) W b⌝ ∗ owes (T c) (O c) W)

/-- The windowed arrays at contents `F`, as points-tos of their buffers at the full share. -/
theorem arrays_eq0 (c : Dev nD) (Fw : (w : Fin cfg0.W) → Buf (Elt F) ((cfg0.win w).arr.view.loc (c : Thread nD τ))) :
    (rdats O b TT f0 0 c).arrays Fw = iprop((ttLoc c ↦{fullShare} Fw 0) ∗ (rtLoc c ↦{fullShare} Fw 1)) := by
  rw [Pipeline.RDat.arrays_eq (pcfgs (F := F)) adm (rdats O b TT f0) 0 c arr_whole0
    ((rdats O b TT f0 0 c).share_full fun _ => rfl), bigSep_W0]

/-- The same after the write-backs below `n`: each at some contents it may then hold. -/
theorem arraysAt_eq0 (c : Dev nD) (n : Nat) :
    (rdats O b TT f0 0 c).arraysAt n
      = iprop((∃ G, ⌜(rdats O b TT f0 0 c).ArrAt 0 n G⌝ ∗ (ttLoc c ↦{fullShare} G)) ∗ (∃ G, ⌜(rdats O b TT f0 0 c).ArrAt 1 n G⌝ ∗ (rtLoc c ↦{fullShare} G))) := by
  unfold Pipeline.RDat.arraysAt
  rw [bigSep_W0, (arr_whole0 0).set_eq_univ, (arr_whole0 1).set_eq_univ,
    (rdats O b TT f0 0 c).share_full (fun _ => rfl) 0, (rdats O b TT f0 0 c).share_full (fun _ => rfl) 1]

include hO hlv in
/-- The pipeline's waits on its staging cells sit below everything the TensorCore owes the SparseCores. -/
theorem hwaits0 (c : Dev nD) :
    (levAts (K (F := F)).L lv : sProp 𝕄) ⊢ Pipeline.RDat.cellsWaits (Pipeline.pin (pcfgs (F := F)) adm) (rdats O b TT f0) none 0 c :=
  Pipeline.RDat.cellsWaits_intro (Pipeline.pin (pcfgs (F := F)) adm) (rdats O b TT f0) none 0 c
    fun w s t => (K (F := F)).mayWait_none _ (hO c) lv hlv

set_option backward.isDefEq.respectTransparency.types false in
/-- The region's record for the pipeline library's region rule. -/
def regionSeg : Pipeline.RDat.RegionSeg (pcfgs (F := F)) adm (rdats O b TT f0) none defs₀ 𝒱₀ (K (F := F)).L lv 0 where
  win := winFacts0.to₀
  block_pos := block_pos0
  stage_whole := stage_whole0
  K := PEmpty
  osem := fun k => k.elim
  ho := Pipeline.OwnSemFacts.none _
  hbody c := body_obligation O b TT f0 c
  hwaits c := hwaits0 O hO b TT f0 lv hlv c
  pre c := iprop((ttLoc c ↦{fullShare} TT c) ∗ (rtLoc c ↦{fullShare} f0 c) ∗ owesB O b c)
  post c := iprop((ttLoc c ↦{fullShare} TT c) ∗ (∃ G, ⌜RegionRel O b TT f0 c G⌝ ∗ (rtLoc c ↦{fullShare} G)) ∗ owesB O b c)
  X _ := iprop(emp)
  Y _ := iprop(emp)
  Z _ := iprop(emp)
  hentry c := by
    rw [Pipeline.ownSems0_none, arrays_eq0]
    iintro ⟨⟨Htt, Hrt, HO⟩, -, -⟩
    imodintro
    isplitl [Htt Hrt]
    · isplitl [Htt]; · iexact Htt
      iexact Hrt
    isplitr; · unfold Pipeline.prefHeld; rw [show (Finset.univ : Finset (Fin 0)) = ∅ from rfl, BI.bigSep_empty]; iempintro
    isplitl [HO]
    · unfold owesB Pipeline.RDat.owesAt Pipeline.owesWithin
      icases HO with ⟨%W, %hW, HO⟩; iexists W; isplitr
      · ipureintro; exact fun p hp => Or.inl (hW p (Finset.mem_coe.mp hp))
      iexact HO
    isplitr <;> iempintro
  hin c := by
    iintro -; iempintro
  hout c := by
    rw [Pipeline.ownSems0_none, scopedRest0_eq]
    iintro -
    isplitr; · iempintro
    isplitr <;> iempintro
  hexit c := by
    rw [arraysAt_eq0, (rdats O b TT f0 0 c).ArrAt_in (0 : Fin 2) rfl]
    iintro ⟨⟨⟨%G0, %h0, H0⟩, ⟨%G1, %h1, H1⟩⟩, HO, -, -⟩
    imodintro
    isplitl [H0]
    · rw [h0]; iexact H0
    isplitl [H1]
    · iexists G1; isplitr; · ipureintro; exact h1
      iexact H1
    unfold owesB Pipeline.RDat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

theorem regionSeg_pre (c : Dev nD) : (regionSeg O hO b TT f0 lv hlv).pre c
    = iprop((ttLoc c ↦{fullShare} TT c) ∗ (rtLoc c ↦{fullShare} f0 c) ∗ owesB O b c) := rfl
theorem regionSeg_post (c : Dev nD) : (regionSeg O hO b TT f0 lv hlv).post c
    = iprop((ttLoc c ↦{fullShare} TT c) ∗ (∃ G, ⌜RegionRel O b TT f0 c G⌝ ∗ (rtLoc c ↦{fullShare} G)) ∗ owesB O b c) := rfl

/-- The pipeline's entry call, continued by the return. -/
def entryCall : Prog (TpuEff nD τ sig (Elt F) (ΛP (F := F)) .tc) PUnit :=
  .op (.customCall (Pipeline.entry (0 : Fin 1)) ()) fun _ => .ret ⟨⟩

/-- The region's call as @main spells it is the pipeline's entry call, lifted to the SparseCore program's labels. -/
theorem lift_entry : (Prog.lift (.customCall (SparseCore.inner (Pipeline.entry (0 : Fin 1))) ()) :
      Prog (TpuEff nD τ sig (Elt F) (SparseCore.Sig (ΛP (F := F)) 2) .tc) PUnit)
    = SparseCore.liftProg (entryCall (F := F)) := rfl

/-- What the region leaves: the boundary holdings, the transposed table kept, the result array at contents the
    write-backs may leave, and what the TensorCore owes. -/
def regionPost (d : Dev nD) : PUnit → sProp 𝕄 := fun _ =>
  iprop(boundary (T d) ∗ (ttLoc d ↦{fullShare} TT d)
    ∗ (∃ G, ⌜RegionRel O b TT f0 d G⌝ ∗ (rtLoc d ↦{fullShare} G)) ∗ owesB O b d)

include hO hlv in
set_option backward.isDefEq.respectTransparency.types false in
/-- The region under the pipeline's own body table. -/
theorem region0_inner [∀ e, Nonempty (Elt F e)] (d : Dev nD) :
    iprop(levAts (K (F := F)).L lv ∗ boundary (T d) ∗ Pipeline.cellsGhost cfgs EP 0 d ∗ Pipeline.toksInit cfgs EP 0 d
        ∗ (ttLoc d ↦{fullShare} TT d) ∗ (rtLoc d ↦{fullShare} f0 d) ∗ owesB O b d)
      ⊢ wp frame (wpE (D (F := F)) 𝒱 (T d) none) Set.univ (entryCall (F := F)) (regionPost O b TT f0 d) := by
  have h := Pipeline.RDat.RegionSeg.wp (pcfgs (F := F)) adm (rdats O b TT f0) none cellOf_inj EP defs₀ 𝒱₀ (K (F := F)).L lv
    (regionSeg O hO b TT f0 lv hlv) d none (fun _ h => nomatch h) (fun _ => .ret ⟨⟩) (regionPost O b TT f0 d)
  rw [regionSeg_pre, regionSeg_post] at h
  iintro ⟨#Hla, Hb, Hg, Ht, Htt, Hrt, Ho⟩
  iapply h
  isplitr [Hb Hg Ht Htt Hrt Ho]
  · iintro ⟨Hb, Hpost⟩
    rw [wp_ret]; imodintro
    unfold regionPost
    isplitl [Hb]; · iexact Hb
    iexact Hpost
  isplitl [Hb]; · iexact Hb
  isplitl [Htt Hrt Ho]
  · isplitl [Htt]; · iexact Htt
    isplitl [Hrt]; · iexact Hrt
    iexact Ho
  isplitr; · iexact Hla
  isplitl [Hg]; · iexact Hg
  iexact Ht

include hO hlv in
/-- The region, from what @main holds at its line: the level facts, the TensorCore's region-boundary holdings, the
    pipeline's launch ghost state on the device, the transposed table, the result array, and what the TensorCore owes. -/
theorem region0 [∀ e, Nonempty (Elt F e)] (d : Dev nD) :
    iprop(levAts (K (F := F)).L lv ∗ boundary (T d) ∗ Pipeline.cellsGhost cfgs EP 0 d ∗ Pipeline.toksInit cfgs EP 0 d
        ∗ (ttLoc d ↦{fullShare} TT d) ∗ (rtLoc d ↦{fullShare} f0 d) ∗ owesB O b d)
      ⊢ wp frame (wpE ((K (F := F)).defs (D (F := F))) 𝒱 (T d) none) Set.univ
          (Prog.lift (.customCall (SparseCore.inner (Pipeline.entry 0)) ()))
          fun _ => iprop(boundary (T d) ∗ (ttLoc d ↦{fullShare} TT d)
            ∗ (∃ G, ⌜RegionRel O b TT f0 d G⌝ ∗ (rtLoc d ↦{fullShare} G)) ∗ owesB O b d) := by
  show _ ⊢ wp frame (wpE ((K (F := F)).defs (D (F := F))) 𝒱 (T d) none) Set.univ
    (Prog.lift (.customCall (SparseCore.inner (Pipeline.entry (0 : Fin 1))) ())) (regionPost O b TT f0 d)
  rw [lift_entry]
  have h2 := (K (F := F)).wp_liftProg (Name := ℕ) (U := UU) (D (F := F)) 𝒱 (T d) Set.univ none (entryCall (F := F)) (regionPost O b TT f0 d)
  exact (region0_inner O hO b TT f0 lv hlv d).trans h2

end Region

section Exports

/-- The TensorCore owes nothing at a kernel's own index: what it owes is start signals, each at its call's index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- The staging cells' part of the launch element: every staging cell's owner at round 0 and a duty token for every
    transfer the pipeline issues. -/
def pipeU₀ : UP := initOf (Pipeline.cells cfgs cellOf_inj) (Pipeline.launchToks cfgs cellOf_inj)

/-- What the launch deals device `d`'s TensorCore for the pipeline: its staging cells' launch ghost state and its
    transfers' duty tokens. -/
def pipeG (d : Dev nD) : sProp 𝕄 := iprop(Pipeline.cellsGhost cfgs EP 0 d ∗ Pipeline.toksInit cfgs EP 0 d)

/-- Funding: the staging cells' part of the launch element yields every device's. -/
theorem pipe_fund : (BI.own (EP (F := F) pipeU₀) : sProp 𝕄) ⊢ iprop(|==> bigSep Finset.univ fun d : Dev nD => pipeG (F := F) d) := by
  have h1 : ∀ (Φ : Fin 1 → sProp 𝕄), bigSep Finset.univ Φ = Φ 0 := fun Φ => by
    rw [show (Finset.univ : Finset (Fin 1)) = {0} from rfl, bigSep_singleton]
  have h := Pipeline.fund_ghost (Ix := HIx 2) (Val := Elt F) (Name := ℕ) (U := UU) (Lvl := ℕ) cfgs (EP (F := F)) cellOf_inj
  simp only [h1] at h
  unfold pipeG pipeU₀
  simp only [h1]
  exact h

/-- The mesh has one device. -/
theorem dev_eq (c d : Dev nD) : d = c := Fin.ext (by have hc : c.val < 1 := c.isLt; have hd : d.val < 1 := d.isLt; omega)

/-- Contents of an array of device `d` as a family over the (one) device. -/
def famT (d : Dev nD) (TT : Buf (Elt F) (ttLoc d)) : (c : Dev nD) → Buf (Elt F) (ttLoc c) := fun c => dev_eq c d ▸ TT
def famR (d : Dev nD) (f0 : Buf (Elt F) (rtLoc d)) : (c : Dev nD) → Buf (Elt F) (rtLoc c) := fun c => dev_eq c d ▸ f0

/-- What the second piece of the row sums may hold after the region, given the transposed table's contents. -/
def RR (d : Dev nD) (TT : Buf (Elt F) (ttLoc d)) (G : Buf (Elt F) (rtLoc d)) : Prop :=
  ∃ (O : Dev nD → CellTallies nD τ sig (HIx 2)) (b : ℕ) (f0 : (c : Dev nD) → Buf (Elt F) (rtLoc c)), RegionRel O b (famT d TT) f0 d G

/-- The region on device `d`, from what @main holds at its line. -/
theorem region_spec [∀ e, Nonempty (Elt F e)] (d : Dev nD) (O : CellTallies nD τ sig (HIx 2)) (hO : ∀ g, O g none = 0) (b : ℕ)
    (TT : Buf (Elt F) (ttLoc d)) (f0 : Buf (Elt F) (rtLoc d)) :
    iprop(levAts (K (F := F)).L (K (F := F)).lev ∗ boundary (T d) ∗ Pipeline.cellsGhost cfgs EP 0 d ∗ Pipeline.toksInit cfgs EP 0 d
        ∗ (ttLoc d ↦{fullShare} TT) ∗ (rtLoc d ↦{fullShare} f0) ∗ (∃ W, ⌜(K (F := F)).WBelow (T d) W b⌝ ∗ owes (T d) O W))
      ⊢ wp frame (wpE ((K (F := F)).defs (D (F := F))) 𝒱 (T d) none) Set.univ
          (Prog.lift (.customCall (SparseCore.inner (Pipeline.entry 0)) ()))
          fun _ => iprop(boundary (T d) ∗ (ttLoc d ↦{fullShare} TT) ∗ (∃ G, ⌜RR d TT G⌝ ∗ rtLoc d ↦{fullShare} G)
            ∗ ∃ W, ⌜(K (F := F)).WBelow (T d) W b⌝ ∗ owes (T d) O W) := by
  have h := region0 (F := F) (fun _ => O) (fun _ => hO) b (famT d TT) (famR d f0) (K (F := F)).lev (SparseCore.Cfg.refines_self _) d
  unfold owesB at h
  refine BIBase.Entails.trans h (wp_mono frame _ Set.univ fun _ => ?_)
  iintro ⟨Hb, Htt, ⟨%G, %hG, Hrt⟩, Ho⟩
  isplitl [Hb]; · iexact Hb
  isplitl [Htt]; · iexact Htt
  isplitl [Hrt]
  · iexists G; isplitr; · ipureintro; exact ⟨_, _, _, hG⟩
    iexact Hrt
  iexact Ho

end Exports

end Cert.Proof.KI

end
-- ==== Proof.KI.Tile0Defs.lean ====
/-
  The body of the first SparseCore call at a symbolic tile: the row sums of the tile's 10240 columns of the transposed
  table, ten chunks of 1024 columns through two slabs, each chunk fetched by four copies counted on one semaphore.
-/
import proofs.«203338_g27195732918861_cont_9to1_1050_16_alg».proof.Proof.KI.Sets

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid1.Coords)

/-- The tile's SparseCore and subcore numbers, and its thread. -/
abbrev cV (L : grid1.Coords) : Fin τ.nSC := (L 0).castLE hcore1
abbrev jV (L : grid1.Coords) : Fin τ.nSub := (L 1).castLE hsub1
abbrev thr0 (d : Dev nD) (L : grid1.Coords) : Thread nD τ := V d (cV L) (jV L)

/-- The kernel's operands as the tile names them. -/
abbrev ttM : Memref sig .scVector .hbm S32x1000000 .f32 := Memref.whole main_v0_scv
abbrev rsM : Memref sig .scVector .hbm S327680 .f32 := Memref.whole main_v2_scv
abbrev s0M : Memref sig .scVector .vmem S32x1024 .f32 := Memref.whole cc1_scratch0
abbrev s1M : Memref sig .scVector .vmem S32x1024 .f32 := Memref.whole cc1_scratch1
abbrev obM : Memref sig .scVector .vmem S10240 .f32 := Memref.whole cc1_scratch2

/-- The tile's three transfer cells: one per slab, and the final copy's. -/
abbrev cell3 (d : Dev nD) (L : grid1.Coords) : GSem nD τ sig := (thr0 d L, .dma cc1_scratch3.sem)
abbrev cell4 (d : Dev nD) (L : grid1.Coords) : GSem nD τ sig := (thr0 d L, .dma cc1_scratch4.sem)
abbrev cell6 (d : Dev nD) (L : grid1.Coords) : GSem nD τ sig := (thr0 d L, .dma cc1_scoped0.sem)

theorem ownSems0_V0 :
    (ownSems0 (thr0 d L) : sProp 𝕄)
      = iprop(semVal (cell3 d L) 0 ∗ semVal (cell4 d L) 0 ∗ semVal (cell6 d L) 0
          ∗ bigSep ((((ownCells (thr0 d L)).erase (cell3 d L)).erase (cell4 d L)).erase (cell6 d L)) fun g => semVal g 0) := by
  unfold SparseCore.Cfg.ownSems0
  rw [SparseCore.bigSep_erase' ((mem_ownCells (g := cell3 d L)).mpr ⟨rfl, by
      show (SemLoc.dma cc1_scratch3.sem : SemLoc sig).isScoped .scVector = true; decide⟩),
    SparseCore.bigSep_erase' (Finset.mem_erase.mpr ⟨by simp [cell3, cell4]; decide, (mem_ownCells (g := cell4 d L)).mpr ⟨rfl, by
      show (SemLoc.dma cc1_scratch4.sem : SemLoc sig).isScoped .scVector = true; decide⟩⟩),
    SparseCore.bigSep_erase' (Finset.mem_erase.mpr ⟨by simp [cell4, cell6]; decide, Finset.mem_erase.mpr ⟨by simp [cell3, cell6]; decide,
      (mem_ownCells (g := cell6 d L)).mpr ⟨rfl, by show (SemLoc.dma cc1_scoped0.sem : SemLoc sig).isScoped .scVector = true; decide⟩⟩⟩)]

/-- The two slabs and the result buffer are among the subcore's own: they are them, at some contents, and the rest. -/
theorem ownBufs_V0 :
    (ownBufs (thr0 d L) : sProp 𝕄)
      = iprop((∃ f, (thr0 d L).loc cc1_scratch0 ↦{fullShare} f) ∗ (∃ f, (thr0 d L).loc cc1_scratch1 ↦{fullShare} f)
          ∗ (∃ f, (thr0 d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ## The arrays as the tile's memrefs address them -/

theorem pts_tt (q : PosShare TreeShare) (f : Buf (Elt F) (ttLoc d)) :
    ((ttM).view.loc (thr0 d L) ↦{q} f : sProp 𝕄) = ttLoc d ↦{q} f := rfl
theorem pts_seg (f : Buf (Elt F) (rsLoc d)) :
    ((seg0M L).view.loc (thr0 d L) ↦[(seg0M L).view.set]{fullShare} f : sProp 𝕄) = rsLoc d ↦[outSeg0 L]{fullShare} f := rfl
theorem pts_s0 (f : Buf (Elt F) ((thr0 d L).loc cc1_scratch0)) :
    ((s0M).view.loc (thr0 d L) ↦{fullShare} f : sProp 𝕄) = (thr0 d L).loc cc1_scratch0 ↦{fullShare} f := rfl
theorem pts_s1 (f : Buf (Elt F) ((thr0 d L).loc cc1_scratch1)) :
    ((s1M).view.loc (thr0 d L) ↦{fullShare} f : sProp 𝕄) = (thr0 d L).loc cc1_scratch1 ↦{fullShare} f := rfl
theorem pts_ob (f : Buf (Elt F) ((thr0 d L).loc cc1_scratch2)) :
    ((obM).view.loc (thr0 d L) ↦{fullShare} f : sProp 𝕄) = (thr0 d L).loc cc1_scratch2 ↦{fullShare} f := rfl

/-! ## The transposed table read by both slabs' copies at once: one read share per slab's cell -/

/-- What is left of the table's share beside the two slabs' read shares. -/
def ttRest (q : PosShare TreeShare) (TT : Buf (Elt F) (ttLoc d)) : sProp 𝕄 :=
  iprop(((ttM).view.loc (thr0 d L) ↦{Transfers.shareDrop q 6} TT)
    ∗ BI.bigSep (Finset.range 4) (fun i => ((ttM).view.loc (thr0 d L) ↦{Transfers.shareTokN q i} TT : sProp 𝕄)))

/-- The table at share `q` is the two slabs' read shares (numbered as their cells) and the rest. -/
theorem tt_toks (q : PosShare TreeShare) (TT : Buf (Elt F) (ttLoc d)) :
    ((ttM).view.loc (thr0 d L) ↦{q} TT : sProp 𝕄)
      ⊣⊢ iprop(((ttM).view.loc (thr0 d L) ↦{Transfers.shareTokN q 4} TT) ∗ ((ttM).view.loc (thr0 d L) ↦{Transfers.shareTokN q 5} TT) ∗ ttRest d L q TT) := by
  have h := Transfers.pointsTo_toks_range (nD := nD) (τ := τ) (sig := sig) (Ix := HIx 2) (Val := Elt F) (Name := ℕ) (U := UU) (Lvl := ℕ)
    (ℓ := (ttM).view.loc (thr0 d L)) (S := Finset.univ) (f := TT) q 6
  have hb : BI.bigSep (Finset.range 6) (fun i => ((ttM).view.loc (thr0 d L) ↦{Transfers.shareTokN q i} TT : sProp 𝕄))
      = iprop(((ttM).view.loc (thr0 d L) ↦{Transfers.shareTokN q 5} TT) ∗ ((ttM).view.loc (thr0 d L) ↦{Transfers.shareTokN q 4} TT)
          ∗ BI.bigSep (Finset.range 4) (fun i => ((ttM).view.loc (thr0 d L) ↦{Transfers.shareTokN q i} TT : sProp 𝕄))) := by
    rw [show (6 : ℕ) = 5 + 1 from rfl, Finset.range_add_one, BI.bigSep_insert Finset.notMem_range_self,
      show (5 : ℕ) = 4 + 1 from rfl, Finset.range_add_one, BI.bigSep_insert Finset.notMem_range_self]
    rfl
  rw [hb] at h
  unfold ttRest
  constructor
  · refine h.1.trans ?_
    iintro ⟨Hd, H5, H4, Hr⟩
    isplitl [H4]; · iexact H4
    isplitl [H5]; · iexact H5
    isplitl [Hd]; · iexact Hd
    iexact Hr
  · refine BIBase.Entails.trans ?_ h.2
    iintro ⟨H4, H5, Hd, Hr⟩
    isplitl [Hd]; · iexact Hd
    isplitl [H5]; · iexact H5
    isplitl [H4]; · iexact H4
    iexact Hr

end Cert.Proof.KI

end
-- ==== Proof.KI.ColSum.lean ====
/-
  The value of the first SparseCore call: entry v of its result is the sum of column v of the transposed table, its 32
  entries added from row 0 to row 31 in that order.
-/
import proofs.«203338_g27195732918861_cont_9to1_1050_16_alg».proof.Proof.KI.Common
import Idealize.ShloMosaic.Lib.ValueIdx

noncomputable section

namespace Cert.Proof.KI

open Cert.KernelIdeal Cert.KernelIdeal.Gen

open Idealize.ShloMosaic Idealize.ShloMosaic.ValueIdx

variable {F : FTy → Type} [FloatOps F]

/-- The sum of 32 numbers added from left to right: ((a 0 + a 1) + a 2) + ⋯ + a 31. -/
def lsum32 (a : Fin 32 → F .f32) : F .f32 :=
  FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (a 0) (a 1)) (a 2)) (a 3)) (a 4)) (a 5)) (a 6)) (a 7)) (a 8)) (a 9)) (a 10)) (a 11)) (a 12)) (a 13)) (a 14)) (a 15)) (a 16)) (a 17)) (a 18)) (a 19)) (a 20)) (a 21)) (a 22)) (a 23)) (a 24)) (a 25)) (a 26)) (a 27)) (a 28)) (a 29)) (a 30)) (a 31)

/-- Column `j` (modulo 1024) of a slab's contents, summed from row 0 to row 31. -/
def slabSum (fsl : S32x1024.Idx → F .f32) (j : ℕ) : F .f32 :=
  lsum32 fun r => fsl (ix2 r (⟨j % 1024, Nat.mod_lt _ (by decide)⟩ : Fin 1024))

/-- Entry `v` of the first call's result as a function of the transposed table: column `v` summed from row 0 to row 31. -/
def tile0Val {d : Dev nD} (TT : Buf (Elt F) (ttLoc d)) : Buf (Elt F) (rsLoc d) :=
  fun v => lsum32 fun r => TT (ix2 r (⟨(v 0).val, Nat.lt_of_lt_of_le (v 0).isLt (show (327680 : ℕ) ≤ 1000000 by decide)⟩ : Fin 1000000))

end Cert.Proof.KI

end
-- ==== Proof.KI.Tile0Val.lean ====
/-
  The values the first SparseCore call's body carries: a slab's column sums, the result buffer patched chunk by chunk,
  and the two facts the run keeps — a slab holds its chunk of the transposed table, the result buffer's first entries are
  the tile's column sums.
-/
import proofs.«203338_g27195732918861_cont_9to1_1050_16_alg».proof.Proof.KI.Tile0Defs
import proofs.«203338_g27195732918861_cont_9to1_1050_16_alg».proof.Proof.KI.ColSum

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI

variable {F : FTy → Type} [FloatOps F]

variable (d : Dev nD) (L : grid1.Coords)

/-- The first column of tile `L`: 10240 times its number 2 (L 1) + (L 0). -/
def base0 (L : grid1.Coords) : ℕ := 20480 * (L 1).val + 10240 * (L 0).val

theorem base0_le (L : grid1.Coords) : base0 L + 10240 ≤ 327680 := by
  have h0 : (L 0).val < 2 := (L 0).isLt
  have h1 : (L 1).val < 16 := (L 1).isLt
  unfold base0; omega

/-- The result buffer's contents `fin` with entries `[a, a + n)` replaced by the slab's first `n` column sums. -/
def patch (fsl : S32x1024.Idx → F .f32) (a n : ℕ) (fin : S10240.Idx → F .f32) : S10240.Idx → F .f32 :=
  fun y => if a ≤ (y 0).val ∧ (y 0).val < a + n then slabSum fsl ((y 0).val - a) else fin y

theorem patch_zero (fsl : S32x1024.Idx → F .f32) (a : ℕ) (fin : S10240.Idx → F .f32) : patch fsl a 0 fin = fin := by
  funext y; unfold patch; rw [if_neg]; omega

/-- The slab holds chunk `c` of tile `L`'s columns of the transposed table. -/
def SlabOK (TT : Buf (Elt F) (ttLoc d)) (c : ℕ) (fsl : S32x1024.Idx → F .f32) : Prop :=
  ∀ (r : Fin 32) (j : Fin 1024) (h : base0 L + 1024 * c + j.val < 1000000), fsl (ix2 r j) = TT (ix2 r ⟨base0 L + 1024 * c + j.val, h⟩)

/-- The result buffer's first `m` entries are the tile's column sums. -/
def OutOK (TT : Buf (Elt F) (ttLoc d)) (m : ℕ) (f : S10240.Idx → F .f32) : Prop :=
  ∀ (y : S10240.Idx) (h : base0 L + (y 0).val < 327680), (y 0).val < m → f y = tile0Val TT (ix1 ⟨base0 L + (y 0).val, h⟩)

theorem outOK_zero (TT : Buf (Elt F) (ttLoc d)) (f : S10240.Idx → F .f32) : OutOK d L TT 0 f :=
  fun _ _ h => absurd h (Nat.not_lt_zero _)

/-- A chunk summed: the result buffer's first 1024 (c + 1) entries are column sums once chunk `c` of it is the slab's. -/
theorem outOK_step (TT : Buf (Elt F) (ttLoc d)) (c : ℕ) (hc : c < 10) (fsl : S32x1024.Idx → F .f32) (fin : S10240.Idx → F .f32)
    (hS : SlabOK d L TT c fsl) (hO : OutOK d L TT (1024 * c) fin) : OutOK d L TT (1024 * (c + 1)) (patch fsl (1024 * c) 1024 fin) := by
  intro y h hy
  have hb := base0_le L
  unfold patch
  by_cases h1 : (y 0).val < 1024 * c
  · rw [if_neg (by omega)]; exact hO y h h1
  · rw [if_pos (by omega)]
    have hj : ((y 0).val - 1024 * c) % 1024 = (y 0).val - 1024 * c := Nat.mod_eq_of_lt (by omega)
    unfold slabSum tile0Val
    congr 1; funext r
    rw [hS r ⟨((y 0).val - 1024 * c) % 1024, Nat.mod_lt _ (by decide)⟩ (by show base0 L + 1024 * c + ((y 0).val - 1024 * c) % 1024 < 1000000; rw [hj]; omega)]
    congr 2
    apply Fin.ext
    show base0 L + 1024 * c + ((y 0).val - 1024 * c) % 1024 = base0 L + (y 0).val
    rw [hj]; omega

/-- One inner trip's four stores: sixty-four more entries of the chunk become the slab's column sums. -/
theorem patch_step (fsl : S32x1024.Idx → F .f32) (a k : ℕ) (fin : S10240.Idx → F .f32)
    (o0 o1 o2 o3 : Fin 1 → ℕ) (h0 : ∀ i, o0 i + S16.size i ≤ S10240.size i) (h1 : ∀ i, o1 i + S16.size i ≤ S10240.size i)
    (h2 : ∀ i, o2 i + S16.size i ≤ S10240.size i) (h3 : ∀ i, o3 i + S16.size i ≤ S10240.size i)
    (w0 w1 w2 w3 : S16.Idx → F .f32)
    (e0 : o0 0 = a + 64 * k) (e1 : o1 0 = a + 64 * k + 16) (e2 : o2 0 = a + 64 * k + 32) (e3 : o3 0 = a + 64 * k + 48)
    (hw0 : ∀ x, w0 x = slabSum fsl (64 * k + (x 0).val)) (hw1 : ∀ x, w1 x = slabSum fsl (64 * k + 16 + (x 0).val))
    (hw2 : ∀ x, w2 x = slabSum fsl (64 * k + 32 + (x 0).val)) (hw3 : ∀ x, w3 x = slabSum fsl (64 * k + 48 + (x 0).val)) :
    (obM).view.writes (Elt F) (patch fsl a (64 * k) fin)
        [⟨Rect.unit (s := S10240) o3 S16.size h3, w3⟩, ⟨Rect.unit (s := S10240) o2 S16.size h2, w2⟩,
          ⟨Rect.unit (s := S10240) o1 S16.size h1, w1⟩, ⟨Rect.unit (s := S10240) o0 S16.size h0, w0⟩]
      = patch fsl a (64 * (k + 1)) fin := by
  funext y
  have hr : ∀ g : S10240.Idx → F .f32, (obM).view.read (Elt F) g = g := fun g => rfl
  refine (congrFun (hr _).symm y).trans ?_
  by_cases hc : a + 64 * k ≤ (y 0).val ∧ (y 0).val < a + 64 * k + 64
  · refine View.read_writes_apply_of_pieces (Val := Elt F) (obM).view _ (patch fsl a (64 * (k + 1)) fin : S10240.Idx → Elt F .f32) _ ?_ y ?_
    · intro p hp x
      simp only [List.mem_cons, List.mem_nil_iff, or_false] at hp
      rcases hp with rfl | rfl | rfl | rfl
      · show w3 x = patch fsl a (64 * (k + 1)) fin ((Rect.unit (s := S10240) o3 S16.size h3).emb x)
        have hx : (x 0).val < 16 := (x 0).isLt
        have he : (((Rect.unit (s := S10240) o3 S16.size h3).emb x) 0).val = o3 0 + (x 0).val := by
          rw [Rect.emb_apply]; simp
        unfold patch
        rw [if_pos (by rw [he, e3]; omega), hw3, he, e3]
        congr 1; omega
      · show w2 x = patch fsl a (64 * (k + 1)) fin ((Rect.unit (s := S10240) o2 S16.size h2).emb x)
        have hx : (x 0).val < 16 := (x 0).isLt
        have he : (((Rect.unit (s := S10240) o2 S16.size h2).emb x) 0).val = o2 0 + (x 0).val := by
          rw [Rect.emb_apply]; simp
        unfold patch
        rw [if_pos (by rw [he, e2]; omega), hw2, he, e2]
        congr 1; omega
      · show w1 x = patch fsl a (64 * (k + 1)) fin ((Rect.unit (s := S10240) o1 S16.size h1).emb x)
        have hx : (x 0).val < 16 := (x 0).isLt
        have he : (((Rect.unit (s := S10240) o1 S16.size h1).emb x) 0).val = o1 0 + (x 0).val := by
          rw [Rect.emb_apply]; simp
        unfold patch
        rw [if_pos (by rw [he, e1]; omega), hw1, he, e1]
        congr 1; omega
      · show w0 x = patch fsl a (64 * (k + 1)) fin ((Rect.unit (s := S10240) o0 S16.size h0).emb x)
        have hx : (x 0).val < 16 := (x 0).isLt
        have he : (((Rect.unit (s := S10240) o0 S16.size h0).emb x) 0).val = o0 0 + (x 0).val := by
          rw [Rect.emb_apply]; simp
        unfold patch
        rw [if_pos (by rw [he, e0]; omega), hw0, he, e0]
        congr 1; omega
    · have hy : (y 0).val - (a + 64 * k) < 64 := by omega
      rcases (show (y 0).val < a + 64 * k + 16 ∨ ((a + 64 * k + 16 ≤ (y 0).val ∧ (y 0).val < a + 64 * k + 32)
          ∨ ((a + 64 * k + 32 ≤ (y 0).val ∧ (y 0).val < a + 64 * k + 48) ∨ a + 64 * k + 48 ≤ (y 0).val)) by omega) with hq | hq | hq | hq
      · exact ⟨⟨Rect.unit (s := S10240) o0 S16.size h0, w0⟩, by simp,
          (Rect.mem_set_unit (inb := h0)).mpr (Fin.forall_fin_one.mpr ⟨by rw [e0]; omega, by rw [e0]; show (y 0).val < a + 64 * k + 16; omega⟩)⟩
      · exact ⟨⟨Rect.unit (s := S10240) o1 S16.size h1, w1⟩, by simp,
          (Rect.mem_set_unit (inb := h1)).mpr (Fin.forall_fin_one.mpr ⟨by rw [e1]; omega, by rw [e1]; show (y 0).val < a + 64 * k + 16 + 16; omega⟩)⟩
      · exact ⟨⟨Rect.unit (s := S10240) o2 S16.size h2, w2⟩, by simp,
          (Rect.mem_set_unit (inb := h2)).mpr (Fin.forall_fin_one.mpr ⟨by rw [e2]; omega, by rw [e2]; show (y 0).val < a + 64 * k + 32 + 16; omega⟩)⟩
      · exact ⟨⟨Rect.unit (s := S10240) o3 S16.size h3, w3⟩, by simp,
          (Rect.mem_set_unit (inb := h3)).mpr (Fin.forall_fin_one.mpr ⟨by rw [e3]; omega, by rw [e3]; show (y 0).val < a + 64 * k + 48 + 16; omega⟩)⟩
  · rw [View.read_writes_apply_of_forall_not_mem]
    · show patch fsl a (64 * k) fin y = patch fsl a (64 * (k + 1)) fin y
      unfold patch
      by_cases h1 : a ≤ (y 0).val ∧ (y 0).val < a + 64 * k
      · rw [if_pos h1, if_pos (by omega)]
      · rw [if_neg h1, if_neg (by omega)]
    · intro p hp
      simp only [List.mem_cons, List.mem_nil_iff, or_false] at hp
      rcases hp with rfl | rfl | rfl | rfl <;>
        (rw [Rect.mem_set_unit]; intro h; first | (have h' : o0 0 ≤ (y 0).val ∧ (y 0).val < o0 0 + 16 := h (0 : Fin 1); omega) | (have h' : o1 0 ≤ (y 0).val ∧ (y 0).val < o1 0 + 16 := h (0 : Fin 1); omega) | (have h' : o2 0 ≤ (y 0).val ∧ (y 0).val < o2 0 + 16 := h (0 : Fin 1); omega) | (have h' : o3 0 ≤ (y 0).val ∧ (y 0).val < o3 0 + 16 := h (0 : Fin 1); omega))

end Cert.Proof.KI

end
-- ==== Proof.KI.ColSumLemmas.lean ====
/-
  The eight stored payloads of the first SparseCore call's inner trips are left-to-right sums of the 32 loaded row pieces:
  each payload is a chain of lane-wise additions of 16-lane vectors, every loaded piece a [1, 16] vector read as 16 lanes,
  so lane `x` of the stored vector is ((p 0 + p 1) + p 2) + ⋯ + p 31 at lane `x`.
-/
import proofs.«203338_g27195732918861_cont_9to1_1050_16_alg».proof.Proof.KI.ColSum
import proofs.«203338_g27195732918861_cont_9to1_1050_16_alg».proof.Proof.Gen.KernelIdeal.Skeleton

noncomputable section

namespace Cert.Proof.KI

open Cert.KernelIdeal Cert.KernelIdeal.Gen

open Idealize.ShloMosaic Idealize.ShloMosaic.ValueIdx

variable {F : FTy → Type} [FloatOps F]

/-! ## The two shape casts and the lane-wise addition at a lane -/

/-- A [1, 16] vector read as 16 lanes: lane `x` is the entry at row 0, column `x`. -/
theorem cast_1x16 {α : Type} (v : S1x16.Idx → α) (h : S1x16.ShapeCasts S16) (x : S16.Idx) :
    shapeCast S16 v h x = v (ix2 0 (x 0)) := by
  unfold shapeCast
  refine congrArg v (Shape.reshapeEquiv_eq_of_rowMajor _ ?_)
  rw [Shape.rowMajor_val_two, Shape.rowMajor_val_one]
  show 0 * 16 + (x 0).val = (x 0).val
  omega

/-- A 16-lane vector cast to its own shape is itself. -/
theorem cast_16 {α : Type} (v : S16.Idx → α) (h : S16.ShapeCasts S16) : shapeCast S16 v h = v := by
  funext x
  unfold shapeCast
  rw [Shape.reshapeEquiv_self]

/-- Lane-wise addition at a lane. -/
theorem addf_at {s : Shape} (a b : FVec F s .f32) (i : s.Idx) : addf a b i = FloatOps.addf (a i) (b i) := rfl

/-! ## The eight chains -/

/-- Slab 0, store 0 of a trip: the stored lanes are the 32 loaded row pieces added from row 0 to row 31. -/
theorem chain2_u0 (p : Fin 32 → Vec F S1x16 .f32) (x : S16.Idx) :
    k1_pay5 (k1_pay4 (k1_pay3 (k1_pay2 (k1_pay1 (p 0) (p 1) (p 2) (p 3) (p 4) (p 5) (p 6)) (p 7) (p 8) (p 9) (p 10) (p 11) (p 12) (p 13)) (p 14) (p 15) (p 16) (p 17) (p 18) (p 19) (p 20) (p 21)) (p 22) (p 23) (p 24) (p 25) (p 26) (p 27) (p 28)) (p 29) (p 30) (p 31) x
      = lsum32 fun r => p r (ix2 0 (x 0)) := by
  simp only [k1_pay1, k1_pay2, k1_pay3, k1_pay4, k1_pay5, cast_16, addf_at, cast_1x16, lsum32]

/-- Slab 0, store 1 of a trip: the stored lanes are the 32 loaded row pieces added from row 0 to row 31. -/
theorem chain2_u1 (p : Fin 32 → Vec F S1x16 .f32) (x : S16.Idx) :
    k1_pay12 (k1_pay10 (k1_pay9 (k1_pay7 (k1_pay6 (p 0) (p 1) (p 2)) (p 3) (p 4) (p 5) (p 6) (p 7) (p 8) (p 9)) (k1_pay8 (p 10)) (p 11) (p 12) (p 13) (p 14) (p 15) (p 16) (p 17)) (p 18) (p 19) (p 20) (p 21) (p 22) (p 23) (p 24)) (k1_pay11 (p 25)) (p 26) (p 27) (p 28) (p 29) (p 30) (p 31) x
      = lsum32 fun r => p r (ix2 0 (x 0)) := by
  simp only [k1_pay6, k1_pay7, k1_pay8, k1_pay9, k1_pay10, k1_pay11, k1_pay12, cast_16, addf_at, cast_1x16, lsum32]

/-- Slab 0, store 2 of a trip: the stored lanes are the 32 loaded row pieces added from row 0 to row 31. -/
theorem chain2_u2 (p : Fin 32 → Vec F S1x16 .f32) (x : S16.Idx) :
    k1_pay17 (k1_pay16 (k1_pay15 (k1_pay14 (k1_pay13 (p 0) (p 1) (p 2) (p 3) (p 4) (p 5) (p 6)) (p 7) (p 8) (p 9) (p 10) (p 11) (p 12) (p 13)) (p 14) (p 15) (p 16) (p 17) (p 18) (p 19) (p 20) (p 21)) (p 22) (p 23) (p 24) (p 25) (p 26) (p 27) (p 28)) (p 29) (p 30) (p 31) x
      = lsum32 fun r => p r (ix2 0 (x 0)) := by
  simp only [k1_pay13, k1_pay14, k1_pay15, k1_pay16, k1_pay17, cast_16, addf_at, cast_1x16, lsum32]

/-- Slab 0, store 3 of a trip: the stored lanes are the 32 loaded row pieces added from row 0 to row 31. -/
theorem chain2_u3 (p : Fin 32 → Vec F S1x16 .f32) (x : S16.Idx) :
    k1_pay45 (k1_pay22 (k1_pay21 (k1_pay20 (k1_pay19 (k1_pay18 (p 0) (p 1) (p 2)) (p 3) (p 4) (p 5) (p 6) (p 7) (p 8) (p 9) (p 10)) (p 11) (p 12) (p 13) (p 14) (p 15) (p 16) (p 17)) (p 18) (p 19) (p 20) (p 21) (p 22) (p 23) (p 24) (p 25)) (p 26) (p 27) (p 28) (p 29) (p 30)) (p 31) x
      = lsum32 fun r => p r (ix2 0 (x 0)) := by
  simp only [k1_pay18, k1_pay19, k1_pay20, k1_pay21, k1_pay22, k1_pay45, cast_16, addf_at, cast_1x16, lsum32]

/-- Slab 1, store 0 of a trip: the stored lanes are the 32 loaded row pieces added from row 0 to row 31. -/
theorem chain3_u0 (p : Fin 32 → Vec F S1x16 .f32) (x : S16.Idx) :
    k1_pay27 (k1_pay26 (k1_pay25 (k1_pay24 (k1_pay23 (p 0) (p 1) (p 2) (p 3) (p 4) (p 5) (p 6)) (p 7) (p 8) (p 9) (p 10) (p 11) (p 12) (p 13)) (p 14) (p 15) (p 16) (p 17) (p 18) (p 19) (p 20) (p 21)) (p 22) (p 23) (p 24) (p 25) (p 26) (p 27) (p 28)) (p 29) (p 30) (p 31) x
      = lsum32 fun r => p r (ix2 0 (x 0)) := by
  simp only [k1_pay23, k1_pay24, k1_pay25, k1_pay26, k1_pay27, cast_16, addf_at, cast_1x16, lsum32]

/-- Slab 1, store 1 of a trip: the stored lanes are the 32 loaded row pieces added from row 0 to row 31. -/
theorem chain3_u1 (p : Fin 32 → Vec F S1x16 .f32) (x : S16.Idx) :
    k1_pay34 (k1_pay32 (k1_pay31 (k1_pay29 (k1_pay28 (p 0) (p 1) (p 2)) (p 3) (p 4) (p 5) (p 6) (p 7) (p 8) (p 9)) (k1_pay30 (p 10)) (p 11) (p 12) (p 13) (p 14) (p 15) (p 16) (p 17)) (p 18) (p 19) (p 20) (p 21) (p 22) (p 23) (p 24)) (k1_pay33 (p 25)) (p 26) (p 27) (p 28) (p 29) (p 30) (p 31) x
      = lsum32 fun r => p r (ix2 0 (x 0)) := by
  simp only [k1_pay28, k1_pay29, k1_pay30, k1_pay31, k1_pay32, k1_pay33, k1_pay34, cast_16, addf_at, cast_1x16, lsum32]

/-- Slab 1, store 2 of a trip: the stored lanes are the 32 loaded row pieces added from row 0 to row 31. -/
theorem chain3_u2 (p : Fin 32 → Vec F S1x16 .f32) (x : S16.Idx) :
    k1_pay39 (k1_pay38 (k1_pay37 (k1_pay36 (k1_pay35 (p 0) (p 1) (p 2) (p 3) (p 4) (p 5) (p 6)) (p 7) (p 8) (p 9) (p 10) (p 11) (p 12) (p 13)) (p 14) (p 15) (p 16) (p 17) (p 18) (p 19) (p 20) (p 21)) (p 22) (p 23) (p 24) (p 25) (p 26) (p 27) (p 28)) (p 29) (p 30) (p 31) x
      = lsum32 fun r => p r (ix2 0 (x 0)) := by
  simp only [k1_pay35, k1_pay36, k1_pay37, k1_pay38, k1_pay39, cast_16, addf_at, cast_1x16, lsum32]

/-- Slab 1, store 3 of a trip: the stored lanes are the 32 loaded row pieces added from row 0 to row 31. -/
theorem chain3_u3 (p : Fin 32 → Vec F S1x16 .f32) (x : S16.Idx) :
    k1_pay46 (k1_pay44 (k1_pay43 (k1_pay42 (k1_pay41 (k1_pay40 (p 0) (p 1) (p 2)) (p 3) (p 4) (p 5) (p 6) (p 7) (p 8) (p 9) (p 10)) (p 11) (p 12) (p 13) (p 14) (p 15) (p 16) (p 17)) (p 18) (p 19) (p 20) (p 21) (p 22) (p 23) (p 24) (p 25)) (p 26) (p 27) (p 28) (p 29) (p 30)) (p 31) x
      = lsum32 fun r => p r (ix2 0 (x 0)) := by
  simp only [k1_pay40, k1_pay41, k1_pay42, k1_pay43, k1_pay44, k1_pay46, cast_16, addf_at, cast_1x16, lsum32]

/-! ## A loaded piece read through the slab -/

/-- A [1, 16] piece loaded from slab 0 at row `r`, column `c`: lane `l` is the slab's entry at row `r`, column `c + l`. -/
theorem readAt_row0 (off : Fin 2 → ℕ) (h : ∀ a, off a + S1x16.size a ≤ S32x1024.size a)
    (f : (Memref.whole cc1_scratch0 : Memref sig .scVector .vmem S32x1024 .f32).view.ty.Contents (Elt F))
    (r : Fin 32) (c : ℕ) (hc : c + 16 ≤ 1024) (e : off = ![r.val, c]) (l : Fin 16) :
    (Memref.whole cc1_scratch0 : Memref sig .scVector .vmem S32x1024 .f32).view.readAt (Elt F)
        (Rect.unit (s := S32x1024) off S1x16.size h).toLoadRect f (ix2 0 l)
      = f (ix2 r ⟨c + l.val, by have := l.isLt; omega⟩) := by
  subst e
  show f ((Rect.unit (s := S32x1024) ![r.val, c] S1x16.size h).toLoadRect.idx (ix2 0 l)) = _
  refine congrArg f (funext fun a => Fin.ext ?_)
  match a with
  | ⟨0, _⟩ => show r.val + 1 * 0 = r.val; omega
  | ⟨1, _⟩ => show c + 1 * l.val = c + l.val; omega

/-- A [1, 16] piece loaded from slab 1 at row `r`, column `c`: lane `l` is the slab's entry at row `r`, column `c + l`. -/
theorem readAt_row1 (off : Fin 2 → ℕ) (h : ∀ a, off a + S1x16.size a ≤ S32x1024.size a)
    (f : (Memref.whole cc1_scratch1 : Memref sig .scVector .vmem S32x1024 .f32).view.ty.Contents (Elt F))
    (r : Fin 32) (c : ℕ) (hc : c + 16 ≤ 1024) (e : off = ![r.val, c]) (l : Fin 16) :
    (Memref.whole cc1_scratch1 : Memref sig .scVector .vmem S32x1024 .f32).view.readAt (Elt F)
        (Rect.unit (s := S32x1024) off S1x16.size h).toLoadRect f (ix2 0 l)
      = f (ix2 r ⟨c + l.val, by have := l.isLt; omega⟩) := by
  subst e
  show f ((Rect.unit (s := S32x1024) ![r.val, c] S1x16.size h).toLoadRect.idx (ix2 0 l)) = _
  refine congrArg f (funext fun a => Fin.ext ?_)
  match a with
  | ⟨0, _⟩ => show r.val + 1 * 0 = r.val; omega
  | ⟨1, _⟩ => show c + 1 * l.val = c + l.val; omega

/-! ## The payloads over the loads of a trip

A trip of the inner loop loads, for each of its four stores, the 32 row pieces of one 16-column group of the slab;
the stored vector's lane `x` is then the column sum of the slab at that column. -/

/-- Thirty-two pieces that are the rows of one 16-column group of a slab, starting at column `j`: their left-to-right sum
    at lane `x` is the slab's column sum at column `j + x`. -/
theorem lsum32_loads (f : S32x1024.Idx → F .f32) (ld : Fin 32 → Vec F S1x16 .f32) (j : ℕ) (hj : j + 16 ≤ 1024)
    (H : ∀ (r : Fin 32) (l : Fin 16), ld r (ix2 0 l) = f (ix2 r ⟨j + l.val, by have := l.isLt; omega⟩)) (x : S16.Idx) :
    (lsum32 fun r => ld r (ix2 0 (x 0))) = slabSum f (j + (x 0).val) := by
  unfold slabSum
  congr 1
  funext r
  rw [H r (x 0)]
  refine congrArg f (congrArg (ix2 r) (Fin.ext ?_))
  have hx : (x 0).val < 16 := (x 0).isLt
  show j + (x 0).val = (j + (x 0).val) % 1024
  rw [Nat.mod_eq_of_lt (by omega)]

/-- Slab 0, store 0 of trip `k`: lane `x` of the stored vector is the slab's column sum at column `64 k + 0 + x`. -/
theorem pay2_u0 (f : (Memref.whole cc1_scratch0 : Memref sig .scVector .vmem S32x1024 .f32).view.ty.Contents (Elt F))
    (k : Fin k1_t2_loop.trips) (x : S16.Idx) :
    k1_pay5 (k1_pay4 (k1_pay3 (k1_pay2 (k1_pay1 ((Memref.whole cc1_scratch0 : Memref sig .scVector .vmem S32x1024 .f32).view.readAt (Elt F) (Rect.unit (s := S32x1024) (k1_off9 k 0#32) S1x16.size (k1_off9_inb k 0)).toLoadRect f) ((Memref.whole cc1_scratch0 : Memref sig .scVector .vmem S32x1024 .f32).view.readAt (Elt F) (Rect.unit (s := S32x1024) (k1_off10 k 0#32) S1x16.size (k1_off10_inb k 0)).toLoadRect f) ((Memref.whole cc1_scratch0 : Memref sig .scVector .vmem S32x1024 .f32).view.readAt (Elt F) (Rect.unit (s := S32x1024) (k1_off11 k 0#32) S1x16.size (k1_off11_inb k 0)).toLoadRect f) ((Memref.whole cc1_scratch0 : Memref sig .scVector .vmem S32x1024 .f32).view.readAt (Elt F) (Rect.unit (s := S32x1024) (k1_off12 k 0#32) S1x16.size (k1_off12_inb k 0)).toLoadRect f) ((Memref.whole cc1_scratch0 : Memref sig .scVector .vmem S32x1024 .f32).view.readAt (Elt F) (Rect.unit (s := S32x1024) (k1_off13 k 0#32) S1x16.size (k1_off13_inb k 0)).toLoadRect f) ((Memref.whole cc1_scratch0 : Memref sig .scVector .vmem S32x1024 .f32).view.readAt (Elt F) (Rect.unit (s := S32x1024) (k1_off14 k 0#32) S1x16.size (k1_off14_inb k 0)).toLoadRect f) ((Memref.whole cc1_scratch0 : Memref sig .scVector .vmem S32x1024 .f32).view.readAt (Elt F) (Rect.unit (s := S32x1024) (k1_off15 k 0#32) S1x16.size (k1_off15_inb k 0)).toLoadRect f)) ((Memref.whole cc1_scratch0 : Memref sig .scVector .vmem S32x1024 .f32).view.readAt (Elt F) (Rect.unit (s := S32x1024) (k1_off16 k 0#32) S1x16.size (k1_off16_inb k 0)).toLoadRect f) ((Memref.whole cc1_scratch0 : Memref sig .scVector .vmem S32x1024 .f32).view.readAt (Elt F) (Rect.unit (s := S32x1024) (k1_off17 k 0#32) S1x16.size (k1_off17_inb k 0)).toLoadRect f) ((Memref.whole cc1_scratch0 : Memref sig .scVector .vmem S32x1024 .f32).view.readAt (Elt F) (Rect.unit (s := S32x1024) (k1_off18 k 0#32) S1x16.size (k1_off18_inb k 0)).toLoadRect f) ((Memref.whole cc1_scratch0 : Memref sig .scVector .vmem S32x1024 .f32).view.readAt (Elt F) (Rect.unit (s := S32x1024) (k1_off19 k 0#32) S1x16.size (k1_off19_inb k 0)).toLoadRect f) ((Memref.whole cc1_scratch0 : Memref sig .scVector .vmem S32x1024 .f32).view.readAt (Elt F) (Rect.unit (s := S32x1024) (k1_off20 k 0#32) S1x16.size (k1_off20_inb k 0)).toLoadRect f) ((Memref.whole cc1_scratch0 : Memref sig .scVector .vmem S32x1024 .f32).view.readAt (Elt F) (Rect.unit (s := S32x1024) (k1_off21 k 0#32) S1x16.size (k1_off21_inb k 0)).toLoadRect f) ((Memref.whole cc1_scratch0 : Memref sig .scVector .vmem S32x1024 .f32).view.readAt (Elt F) (Rect.unit (s := S32x1024) (k1_off22 k 0#32) S1x16.size (k1_off22_inb k 0)).toLoadRect f)) ((Memref.whole cc1_scratch0 : Memref sig .scVector .vmem S32x1024 .f32).view.readAt (Elt F) (Rect.unit (s := S32x1024) (k1_off23 k 0#32) S1x16.size (k1_off23_inb k 0)).toLoadRect f) ((Memref.whole cc1_scratch0 : Memref sig .scVector .vmem S32x1024 .f32).view.readAt (Elt F) (Rect.unit (s := S32x1024) (k1_off24 k 0#32) S1x16.size (k1_off24_inb k 0)).toLoadRect f) ((Memref.whole cc1_scratch0 : Memref sig .scVector .vmem S32x1024 .f32).view.readAt (Elt F) (Rect.unit (s := S32x1024) (k1_off25 k 0#32) S1x16.size (k1_off25_inb k 0)).toLoadRect f) ((Memref.whole cc1_scratch0 : Memref sig .scVector .vmem S32x1024 .f32).view.readAt (Elt F) (Rect.unit (s := S32x1024) (k1_off26 k 0#32) S1x16.size (k1_off26_inb k 0)).toLoadRect f) ((Memref.whole cc1_scratch0 : Memref sig .scVector .vmem S32x1024 .f32).view.readAt (Elt F) (Rect.unit (s := S32x1024) (k1_off27 k 0#32) S1x16.size (k1_off27_inb k 0)).toLoadRect f) ((Memref.whole cc1_scratch0 : Memref sig .scVector .vmem S32x1024 .f32).view.readAt (Elt F) (Rect.unit (s := S32x1024) (k1_off28 k 0#32) S1x16.size (k1_off28_inb k 0)).toLoadRect f) ((Memref.whole cc1_scratch0 : Memref sig .scVector .vmem S32x1024 .f32).view.readAt (Elt F) (Rect.unit (s := S32x1024) (k1_off29 k 0#32) S1x16.size (k1_off29_inb k 0)).toLoadRect f) ((Memref.whole cc1_scratch0 : Memref sig .scVector .vmem S32x1024 .f32).view.readAt (Elt F) (Rect.unit (s := S32x1024) (k1_off30 k 0#32) S1x16.size (k1_off30_inb k 0)).toLoadRect f)) ((Memref.whole cc1_scratch0 : Memref sig .scVector .vmem S32x1024 .f32).view.readAt (Elt F) (Rect.unit (s := S32x1024) (k1_off31 k 0#32) S1x16.size (k1_off31_inb k 0)).toLoadRect f) ((Memref.whole cc1_scratch0 : Memref sig .scVector .vmem S32x1024 .f32).view.readAt (Elt F) (Rect.unit (s := S32x1024) (k1_off32 k 0#32) S1x16.size (k1_off32_inb k 0)).toLoadRect f) ((Memref.whole cc1_scratch0 : Memref sig .scVector .vmem S32x1024 .f32).view.readAt (Elt F) (Rect.unit (s := S32x1024) (k1_off33 k 0#32) S1x16.size (k1_off33_inb k 0)).toLoadRect f) ((Memref.whole cc1_scratch0 : Memref sig .scVector .vmem S32x1024 .f32).view.readAt (Elt F) (Rect.unit (s := S32x1024) (k1_off34 k 0#32) S1x16.size (k1_off34_inb k 0)).toLoadRect f) ((Memref.whole cc1_scratch0 : Memref sig .scVector .vmem S32x1024 .f32).view.readAt (Elt F) (Rect.unit (s := S32x1024) (k1_off35 k 0#32) S1x16.size (k1_off35_inb k 0)).toLoadRect f) ((Memref.whole cc1_scratch0 : Memref sig .scVector .vmem S32x1024 .f32).view.readAt (Elt F) (Rect.unit (s := S32x1024) (k1_off36 k 0#32) S1x16.size (k1_off36_inb k 0)).toLoadRect f) ((Memref.whole cc1_scratch0 : Memref sig .scVector .vmem S32x1024 .f32).view.readAt (Elt F) (Rect.unit (s := S32x1024) (k1_off37 k 0#32) S1x16.size (k1_off37_inb k 0)).toLoadRect f)) ((Memref.whole cc1_scratch0 : Memref sig .scVector .vmem S32x1024 .f32).view.readAt (Elt F) (Rect.unit (s := S32x1024) (k1_off38 k 0#32) S1x16.size (k1_off38_inb k 0)).toLoadRect f) ((Memref.whole cc1_scratch0 : Memref sig .scVector .vmem S32x1024 .f32).view.readAt (Elt F) (Rect.unit (s := S32x1024) (k1_off39 k 0#32) S1x16.size (k1_off39_inb k 0)).toLoadRect f) ((Memref.whole cc1_scratch0 : Memref sig .scVector .vmem S32x1024 .f32).view.readAt (Elt F) (Rect.unit (s := S32x1024) (k1_off40 k 0#32) S1x16.size (k1_off40_inb k 0)).toLoadRect f) x
      = slabSum f (64 * k.val + (x 0).val) := by
  have hk : k.val < 16 := Nat.lt_of_lt_of_le k.isLt k1_t2_abs.2.1
  refine (chain2_u0 ![((Memref.whole cc1_scratch0 : Memref sig .scVector .vmem S32x1024 .f32).view.readAt (Elt F) (Rect.unit (s := S32x1024) (k1_off9 k 0#32) S1x16.size (k1_off9_inb k 0)).toLoadRect f),
      ((Memref.whole cc1_scratch0 : Memref sig .scVector .vmem S32x1024 .f32).view.readAt (Elt F) (Rect.unit (s := S32x1024) (k1_off10 k 0#32) S1x16.size (k1_off10_inb k 0)).toLoadRect f),
      ((Memref.whole cc1_scratch0 : Memref sig .scVector .vmem S32x1024 .f32).view.readAt (Elt F) (Rect.unit (s := S32x1024) (k1_off11 k 0#32) S1x16.size (k1_off11_inb k 0)).toLoadRect f),
      ((Memref.whole cc1_scratch0 : Memref sig .scVector .vmem S32x1024 .f32).view.readAt (Elt F) (Rect.unit (s := S32x1024) (k1_off12 k 0#32) S1x16.size (k1_off12_inb k 0)).toLoadRect f),
      ((Memref.whole cc1_scratch0 : Memref sig .scVector .vmem S32x1024 .f32).view.readAt (Elt F) (Rect.unit (s := S32x1024) (k1_off13 k 0#32) S1x16.size (k1_off13_inb k 0)).toLoadRect f),
      ((Memref.whole cc1_scratch0 : Memref sig .scVector .vmem S32x1024 .f32).view.readAt (Elt F) (Rect.unit (s := S32x1024) (k1_off14 k 0#32) S1x16.size (k1_off14_inb k 0)).toLoadRect f),
      ((Memref.whole cc1_scratch0 : Memref sig .scVector .vmem S32x1024 .f32).view.readAt (Elt F) (Rect.unit (s := S32x1024) (k1_off15 k 0#32) S1x16.size (k1_off15_inb k 0)).toLoadRect f),
      ((Memref.whole cc1_scratch0 : Memref sig .scVector .vmem S32x1024 .f32).view.readAt (Elt F) (Rect.unit (s := S32x1024) (k1_off16 k 0#32) S1x16.size (k1_off16_inb k 0)).toLoadRect f),
      ((Memref.whole cc1_scratch0 : Memref sig .scVector .vmem S32x1024 .f32).view.readAt (Elt F) (Rect.unit (s := S32x1024) (k1_off17 k 0#32) S1x16.size (k1_off17_inb k 0)).toLoadRect f),
      ((Memref.whole cc1_scratch0 : Memref sig .scVector .vmem S32x1024 .f32).view.readAt (Elt F) (Rect.unit (s := S32x1024) (k1_off18 k 0#32) S1x16.size (k1_off18_inb k 0)).toLoadRect f),
      ((Memref.whole cc1_scratch0 : Memref sig .scVector .vmem S32x1024 .f32).view.readAt (Elt F) (Rect.unit (s := S32x1024) (k1_off19 k 0#32) S1x16.size (k1_off19_inb k 0)).toLoadRect f),
      ((Memref.whole cc1_scratch0 : Memref sig .scVector .vmem S32x1024 .f32).view.readAt (Elt F) (Rect.unit (s := S32x1024) (k1_off20 k 0#32) S1x16.size (k1_off20_inb k 0)).toLoadRect f),
      ((Memref.whole cc1_scratch0 : Memref sig .scVector .vmem S32x1024 .f32).view.readAt (Elt F) (Rect.unit (s := S32x1024) (k1_off21 k 0#32) S1x16.size (k1_off21_inb k 0)).toLoadRect f),
      ((Memref.whole cc1_scratch0 : Memref sig .scVector .vmem S32x1024 .f32).view.readAt (Elt F) (Rect.unit (s := S32x1024) (k1_off22 k 0#32) S1x16.size (k1_off22_inb k 0)).toLoadRect f),
      ((Memref.whole cc1_scratch0 : Memref sig .scVector .vmem S32x1024 .f32).view.readAt (Elt F) (Rect.unit (s := S32x1024) (k1_off23 k 0#32) S1x16.size (k1_off23_inb k 0)).toLoadRect f),
      ((Memref.whole cc1_scratch0 : Memref sig .scVector .vmem S32x1024 .f32).view.readAt (Elt F) (Rect.unit (s := S32x1024) (k1_off24 k 0#32) S1x16.size (k1_off24_inb k 0)).toLoadRect f),
      ((Memref.whole cc1_scratch0 : Memref sig .scVector .vmem S32x1024 .f32).view.readAt (Elt F) (Rect.unit (s := S32x1024) (k1_off25 k 0#32) S1x16.size (k1_off25_inb k 0)).toLoadRect f),
      ((Memref.whole cc1_scratch0 : Memref sig .scVector .vmem S32x1024 .f32).view.readAt (Elt F) (Rect.unit (s := S32x1024) (k1_off26 k 0#32) S1x16.size (k1_off26_inb k 0)).toLoadRect f),
      ((Memref.whole cc1_scratch0 : Memref sig .scVector .vmem S32x1024 .f32).view.readAt (Elt F) (Rect.unit (s := S32x1024) (k1_off27 k 0#32) S1x16.size (k1_off27_inb k 0)).toLoadRect f),
      ((Memref.whole cc1_scratch0 : Memref sig .scVector .vmem S32x1024 .f32).view.readAt (Elt F) (Rect.unit (s := S32x1024) (k1_off28 k 0#32) S1x16.size (k1_off28_inb k 0)).toLoadRect f),
      ((Memref.whole cc1_scratch0 : Memref sig .scVector .vmem S32x1024 .f32).view.readAt (Elt F) (Rect.unit (s := S32x1024) (k1_off29 k 0#32) S1x16.size (k1_off29_inb k 0)).toLoadRect f),
      ((Memref.whole cc1_scratch0 : Memref sig .scVector .vmem S32x1024 .f32).view.readAt (Elt F) (Rect.unit (s := S32x1024) (k1_off30 k 0#32) S1x16.size (k1_off30_inb k 0)).toLoadRect f),
      ((Memref.whole cc1_scratch0 : Memref sig .scVector .vmem S32x1024 .f32).view.readAt (Elt F) (Rect.unit (s := S32x1024) (k1_off31 k 0#32) S1x16.size (k1_off31_inb k 0)).toLoadRect f),
      ((Memref.whole cc1_scratch0 : Memref sig .scVector .vmem S32x1024 .f32).view.readAt (Elt F) (Rect.unit (s := S32x1024) (k1_off32 k 0#32) S1x16.size (k1_off32_inb k 0)).toLoadRect f),
      ((Memref.whole cc1_scratch0 : Memref sig .scVector .vmem S32x1024 .f32).view.readAt (Elt F) (Rect.unit (s := S32x1024) (k1_off33 k 0#32) S1x16.size (k1_off33_inb k 0)).toLoadRect f),
      ((Memref.whole cc1_scratch0 : Memref sig .scVector .vmem S32x1024 .f32).view.readAt (Elt F) (Rect.unit (s := S32x1024) (k1_off34 k 0#32) S1x16.size (k1_off34_inb k 0)).toLoadRect f),
      ((Memref.whole cc1_scratch0 : Memref sig .scVector .vmem S32x1024 .f32).view.readAt (Elt F) (Rect.unit (s := S32x1024) (k1_off35 k 0#32) S1x16.size (k1_off35_inb k 0)).toLoadRect f),
      ((Memref.whole cc1_scratch0 : Memref sig .scVector .vmem S32x1024 .f32).view.readAt (Elt F) (Rect.unit (s := S32x1024) (k1_off36 k 0#32) S1x16.size (k1_off36_inb k 0)).toLoadRect f),
      ((Memref.whole cc1_scratch0 : Memref sig .scVector .vmem S32x1024 .f32).view.readAt (Elt F) (Rect.unit (s := S32x1024) (k1_off37 k 0#32) S1x16.size (k1_off37_inb k 0)).toLoadRect f),
      ((Memref.whole cc1_scratch0 : Memref sig .scVector .vmem S32x1024 .f32).view.readAt (Elt F) (Rect.unit (s := S32x1024) (k1_off38 k 0#32) S1x16.size (k1_off38_inb k 0)).toLoadRect f),
      ((Memref.whole cc1_scratch0 : Memref sig .scVector .vmem S32x1024 .f32).view.readAt (Elt F) (Rect.unit (s := S32x1024) (k1_off39 k 0#32) S1x16.size (k1_off39_inb k 0)).toLoadRect f),
      ((Memref.whole cc1_scratch0 : Memref sig .scVector .vmem S32x1024 .f32).view.readAt (Elt F) (Rect.unit (s := S32x1024) (k1_off40 k 0#32) S1x16.size (k1_off40_inb k 0)).toLoadRect f)] x).trans ?_
  refine lsum32_loads f _ (64 * k.val) (by omega) (fun r l => ?_) x
  fin_cases r
  · exact readAt_row0 _ _ f 0 (64 * k.val) (by omega) (k1_off9_eq k ⟨0, by decide⟩) l
  · exact readAt_row0 _ _ f 1 (64 * k.val) (by omega) (k1_off10_eq k ⟨0, by decide⟩) l
  · exact readAt_row0 _ _ f 2 (64 * k.val) (by omega) (k1_off11_eq k ⟨0, by decide⟩) l
  · exact readAt_row0 _ _ f 3 (64 * k.val) (by omega) (k1_off12_eq k ⟨0, by decide⟩) l
  · exact readAt_row0 _ _ f 4 (64 * k.val) (by omega) (k1_off13_eq k ⟨0, by decide⟩) l
  · exact readAt_row0 _ _ f 5 (64 * k.val) (by omega) (k1_off14_eq k ⟨0, by decide⟩) l
  · exact readAt_row0 _ _ f 6 (64 * k.val) (by omega) (k1_off15_eq k ⟨0, by decide⟩) l
  · exact readAt_row0 _ _ f 7 (64 * k.val) (by omega) (k1_off16_eq k ⟨0, by decide⟩) l
  · exact readAt_row0 _ _ f 8 (64 * k.val) (by omega) (k1_off17_eq k ⟨0, by decide⟩) l
  · exact readAt_row0 _ _ f 9 (64 * k.val) (by omega) (k1_off18_eq k ⟨0, by decide⟩) l
  · exact readAt_row0 _ _ f 10 (64 * k.val) (by omega) (k1_off19_eq k ⟨0, by decide⟩) l
  · exact readAt_row0 _ _ f 11 (64 * k.val) (by omega) (k1_off20_eq k ⟨0, by decide⟩) l
  · exact readAt_row0 _ _ f 12 (64 * k.val) (by omega) (k1_off21_eq k ⟨0, by decide⟩) l
  · exact readAt_row0 _ _ f 13 (64 * k.val) (by omega) (k1_off22_eq k ⟨0, by decide⟩) l
  · exact readAt_row0 _ _ f 14 (64 * k.val) (by omega) (k1_off23_eq k ⟨0, by decide⟩) l
  · exact readAt_row0 _ _ f 15 (64 * k.val) (by omega) (k1_off24_eq k ⟨0, by decide⟩) l
  · exact readAt_row0 _ _ f 16 (64 * k.val) (by omega) (k1_off25_eq k ⟨0, by decide⟩) l
  · exact readAt_row0 _ _ f 17 (64 * k.val) (by omega) (k1_off26_eq k ⟨0, by decide⟩) l
  · exact readAt_row0 _ _ f 18 (64 * k.val) (by omega) (k1_off27_eq k ⟨0, by decide⟩) l
  · exact readAt_row0 _ _ f 19 (64 * k.val) (by omega) (k1_off28_eq k ⟨0, by decide⟩) l
  · exact readAt_row0 _ _ f 20 (64 * k.val) (by omega) (k1_off29_eq k ⟨0, by decide⟩) l
  · exact readAt_row0 _ _ f 21 (64 * k.val) (by omega) (k1_off30_eq k ⟨0, by decide⟩) l
  · exact readAt_row0 _ _ f 22 (64 * k.val) (by omega) (k1_off31_eq k ⟨0, by decide⟩) l
  · exact readAt_row0 _ _ f 23 (64 * k.val) (by omega) (k1_off32_eq k ⟨0, by decide⟩) l
  · exact readAt_row0 _ _ f 24 (64 * k.val) (by omega) (k1_off33_eq k ⟨0, by decide⟩) l
  · exact readAt_row0 _ _ f 25 (64 * k.val) (by omega) (k1_off34_eq k ⟨0, by decide⟩) l
  · exact readAt_row0 _ _ f 26 (64 * k.val) (by omega) (k1_off35_eq k ⟨0, by decide⟩) l
  · exact readAt_row0 _ _ f 27 (64 * k.val) (by omega) (k1_off36_eq k ⟨0, by decide⟩) l
  · exact readAt_row0 _ _ f 28 (64 * k.val) (by omega) (k1_off37_eq k ⟨0, by decide⟩) l
  · exact readAt_row0 _ _ f 29 (64 * k.val) (by omega) (k1_off38_eq k ⟨0, by decide⟩) l
  · exact readAt_row0 _ _ f 30 (64 * k.val) (by omega) (k1_off39_eq k ⟨0, by decide⟩) l
  · exact readAt_row0 _ _ f 31 (64 * k.val) (by omega) (k1_off40_eq k ⟨0, by decide⟩) l

/-- Slab 0, store 1 of trip `k`: lane `x` of the stored vector is the slab's column sum at column `64 k + 16 + x`. -/
theorem pay2_u1 (f : (Memref.whole cc1_scratch0 : Memref sig .scVector .vmem S32x1024 .f32).view.ty.Contents (Elt F))
    (k : Fin k1_t2_loop.trips) (x : S16.Idx) :
    k1_pay12 (k1_pay10 (k1_pay9 (k1_pay7 (k1_pay6 ((Memref.whole cc1_scratch0 : Memref sig .scVector .vmem S32x1024 .f32).view.readAt (Elt F) (Rect.unit (s := S32x1024) (k1_off9 k 1#32) S1x16.size (k1_off9_inb k 1)).toLoadRect f) ((Memref.whole cc1_scratch0 : Memref sig .scVector .vmem S32x1024 .f32).view.readAt (Elt F) (Rect.unit (s := S32x1024) (k1_off10 k 1#32) S1x16.size (k1_off10_inb k 1)).toLoadRect f) ((Memref.whole cc1_scratch0 : Memref sig .scVector .vmem S32x1024 .f32).view.readAt (Elt F) (Rect.unit (s := S32x1024) (k1_off11 k 1#32) S1x16.size (k1_off11_inb k 1)).toLoadRect f)) ((Memref.whole cc1_scratch0 : Memref sig .scVector .vmem S32x1024 .f32).view.readAt (Elt F) (Rect.unit (s := S32x1024) (k1_off12 k 1#32) S1x16.size (k1_off12_inb k 1)).toLoadRect f) ((Memref.whole cc1_scratch0 : Memref sig .scVector .vmem S32x1024 .f32).view.readAt (Elt F) (Rect.unit (s := S32x1024) (k1_off13 k 1#32) S1x16.size (k1_off13_inb k 1)).toLoadRect f) ((Memref.whole cc1_scratch0 : Memref sig .scVector .vmem S32x1024 .f32).view.readAt (Elt F) (Rect.unit (s := S32x1024) (k1_off14 k 1#32) S1x16.size (k1_off14_inb k 1)).toLoadRect f) ((Memref.whole cc1_scratch0 : Memref sig .scVector .vmem S32x1024 .f32).view.readAt (Elt F) (Rect.unit (s := S32x1024) (k1_off15 k 1#32) S1x16.size (k1_off15_inb k 1)).toLoadRect f) ((Memref.whole cc1_scratch0 : Memref sig .scVector .vmem S32x1024 .f32).view.readAt (Elt F) (Rect.unit (s := S32x1024) (k1_off16 k 1#32) S1x16.size (k1_off16_inb k 1)).toLoadRect f) ((Memref.whole cc1_scratch0 : Memref sig .scVector .vmem S32x1024 .f32).view.readAt (Elt F) (Rect.unit (s := S32x1024) (k1_off17 k 1#32) S1x16.size (k1_off17_inb k 1)).toLoadRect f) ((Memref.whole cc1_scratch0 : Memref sig .scVector .vmem S32x1024 .f32).view.readAt (Elt F) (Rect.unit (s := S32x1024) (k1_off18 k 1#32) S1x16.size (k1_off18_inb k 1)).toLoadRect f)) (k1_pay8 ((Memref.whole cc1_scratch0 : Memref sig .scVector .vmem S32x1024 .f32).view.readAt (Elt F) (Rect.unit (s := S32x1024) (k1_off19 k 1#32) S1x16.size (k1_off19_inb k 1)).toLoadRect f)) ((Memref.whole cc1_scratch0 : Memref sig .scVector .vmem S32x1024 .f32).view.readAt (Elt F) (Rect.unit (s := S32x1024) (k1_off20 k 1#32) S1x16.size (k1_off20_inb k 1)).toLoadRect f) ((Memref.whole cc1_scratch0 : Memref sig .scVector .vmem S32x1024 .f32).view.readAt (Elt F) (Rect.unit (s := S32x1024) (k1_off21 k 1#32) S1x16.size (k1_off21_inb k 1)).toLoadRect f) ((Memref.whole cc1_scratch0 : Memref sig .scVector .vmem S32x1024 .f32).view.readAt (Elt F) (Rect.unit (s := S32x1024) (k1_off22 k 1#32) S1x16.size (k1_off22_inb k 1)).toLoadRect f) ((Memref.whole cc1_scratch0 : Memref sig .scVector .vmem S32x1024 .f32).view.readAt (Elt F) (Rect.unit (s := S32x1024) (k1_off23 k 1#32) S1x16.size (k1_off23_inb k 1)).toLoadRect f) ((Memref.whole cc1_scratch0 : Memref sig .scVector .vmem S32x1024 .f32).view.readAt (Elt F) (Rect.unit (s := S32x1024) (k1_off24 k 1#32) S1x16.size (k1_off24_inb k 1)).toLoadRect f) ((Memref.whole cc1_scratch0 : Memref sig .scVector .vmem S32x1024 .f32).view.readAt (Elt F) (Rect.unit (s := S32x1024) (k1_off25 k 1#32) S1x16.size (k1_off25_inb k 1)).toLoadRect f) ((Memref.whole cc1_scratch0 : Memref sig .scVector .vmem S32x1024 .f32).view.readAt (Elt F) (Rect.unit (s := S32x1024) (k1_off26 k 1#32) S1x16.size (k1_off26_inb k 1)).toLoadRect f)) ((Memref.whole cc1_scratch0 : Memref sig .scVector .vmem S32x1024 .f32).view.readAt (Elt F) (Rect.unit (s := S32x1024) (k1_off27 k 1#32) S1x16.size (k1_off27_inb k 1)).toLoadRect f) ((Memref.whole cc1_scratch0 : Memref sig .scVector .vmem S32x1024 .f32).view.readAt (Elt F) (Rect.unit (s := S32x1024) (k1_off28 k 1#32) S1x16.size (k1_off28_inb k 1)).toLoadRect f) ((Memref.whole cc1_scratch0 : Memref sig .scVector .vmem S32x1024 .f32).view.readAt (Elt F) (Rect.unit (s := S32x1024) (k1_off29 k 1#32) S1x16.size (k1_off29_inb k 1)).toLoadRect f) ((Memref.whole cc1_scratch0 : Memref sig .scVector .vmem S32x1024 .f32).view.readAt (Elt F) (Rect.unit (s := S32x1024) (k1_off30 k 1#32) S1x16.size (k1_off30_inb k 1)).toLoadRect f) ((Memref.whole cc1_scratch0 : Memref sig .scVector .vmem S32x1024 .f32).view.readAt (Elt F) (Rect.unit (s := S32x1024) (k1_off31 k 1#32) S1x16.size (k1_off31_inb k 1)).toLoadRect f) ((Memref.whole cc1_scratch0 : Memref sig .scVector .vmem S32x1024 .f32).view.readAt (Elt F) (Rect.unit (s := S32x1024) (k1_off32 k 1#32) S1x16.size (k1_off32_inb k 1)).toLoadRect f) ((Memref.whole cc1_scratch0 : Memref sig .scVector .vmem S32x1024 .f32).view.readAt (Elt F) (Rect.unit (s := S32x1024) (k1_off33 k 1#32) S1x16.size (k1_off33_inb k 1)).toLoadRect f)) (k1_pay11 ((Memref.whole cc1_scratch0 : Memref sig .scVector .vmem S32x1024 .f32).view.readAt (Elt F) (Rect.unit (s := S32x1024) (k1_off34 k 1#32) S1x16.size (k1_off34_inb k 1)).toLoadRect f)) ((Memref.whole cc1_scratch0 : Memref sig .scVector .vmem S32x1024 .f32).view.readAt (Elt F) (Rect.unit (s := S32x1024) (k1_off35 k 1#32) S1x16.size (k1_off35_inb k 1)).toLoadRect f) ((Memref.whole cc1_scratch0 : Memref sig .scVector .vmem S32x1024 .f32).view.readAt (Elt F) (Rect.unit (s := S32x1024) (k1_off36 k 1#32) S1x16.size (k1_off36_inb k 1)).toLoadRect f) ((Memref.whole cc1_scratch0 : Memref sig .scVector .vmem S32x1024 .f32).view.readAt (Elt F) (Rect.unit (s := S32x1024) (k1_off37 k 1#32) S1x16.size (k1_off37_inb k 1)).toLoadRect f) ((Memref.whole cc1_scratch0 : Memref sig .scVector .vmem S32x1024 .f32).view.readAt (Elt F) (Rect.unit (s := S32x1024) (k1_off38 k 1#32) S1x16.size (k1_off38_inb k 1)).toLoadRect f) ((Memref.whole cc1_scratch0 : Memref sig .scVector .vmem S32x1024 .f32).view.readAt (Elt F) (Rect.unit (s := S32x1024) (k1_off39 k 1#32) S1x16.size (k1_off39_inb k 1)).toLoadRect f) ((Memref.whole cc1_scratch0 : Memref sig .scVector .vmem S32x1024 .f32).view.readAt (Elt F) (Rect.unit (s := S32x1024) (k1_off40 k 1#32) S1x16.size (k1_off40_inb k 1)).toLoadRect f) x
      = slabSum f (64 * k.val + 16 + (x 0).val) := by
  have hk : k.val < 16 := Nat.lt_of_lt_of_le k.isLt k1_t2_abs.2.1
  refine (chain2_u1 ![((Memref.whole cc1_scratch0 : Memref sig .scVector .vmem S32x1024 .f32).view.readAt (Elt F) (Rect.unit (s := S32x1024) (k1_off9 k 1#32) S1x16.size (k1_off9_inb k 1)).toLoadRect f),
      ((Memref.whole cc1_scratch0 : Memref sig .scVector .vmem S32x1024 .f32).view.readAt (Elt F) (Rect.unit (s := S32x1024) (k1_off10 k 1#32) S1x16.size (k1_off10_inb k 1)).toLoadRect f),
      ((Memref.whole cc1_scratch0 : Memref sig .scVector .vmem S32x1024 .f32).view.readAt (Elt F) (Rect.unit (s := S32x1024) (k1_off11 k 1#32) S1x16.size (k1_off11_inb k 1)).toLoadRect f),
      ((Memref.whole cc1_scratch0 : Memref sig .scVector .vmem S32x1024 .f32).view.readAt (Elt F) (Rect.unit (s := S32x1024) (k1_off12 k 1#32) S1x16.size (k1_off12_inb k 1)).toLoadRect f),
      ((Memref.whole cc1_scratch0 : Memref sig .scVector .vmem S32x1024 .f32).view.readAt (Elt F) (Rect.unit (s := S32x1024) (k1_off13 k 1#32) S1x16.size (k1_off13_inb k 1)).toLoadRect f),
      ((Memref.whole cc1_scratch0 : Memref sig .scVector .vmem S32x1024 .f32).view.readAt (Elt F) (Rect.unit (s := S32x1024) (k1_off14 k 1#32) S1x16.size (k1_off14_inb k 1)).toLoadRect f),
      ((Memref.whole cc1_scratch0 : Memref sig .scVector .vmem S32x1024 .f32).view.readAt (Elt F) (Rect.unit (s := S32x1024) (k1_off15 k 1#32) S1x16.size (k1_off15_inb k 1)).toLoadRect f),
      ((Memref.whole cc1_scratch0 : Memref sig .scVector .vmem S32x1024 .f32).view.readAt (Elt F) (Rect.unit (s := S32x1024) (k1_off16 k 1#32) S1x16.size (k1_off16_inb k 1)).toLoadRect f),
      ((Memref.whole cc1_scratch0 : Memref sig .scVector .vmem S32x1024 .f32).view.readAt (Elt F) (Rect.unit (s := S32x1024) (k1_off17 k 1#32) S1x16.size (k1_off17_inb k 1)).toLoadRect f),
      ((Memref.whole cc1_scratch0 : Memref sig .scVector .vmem S32x1024 .f32).view.readAt (Elt F) (Rect.unit (s := S32x1024) (k1_off18 k 1#32) S1x16.size (k1_off18_inb k 1)).toLoadRect f),
      ((Memref.whole cc1_scratch0 : Memref sig .scVector .vmem S32x1024 .f32).view.readAt (Elt F) (Rect.unit (s := S32x1024) (k1_off19 k 1#32) S1x16.size (k1_off19_inb k 1)).toLoadRect f),
      ((Memref.whole cc1_scratch0 : Memref sig .scVector .vmem S32x1024 .f32).view.readAt (Elt F) (Rect.unit (s := S32x1024) (k1_off20 k 1#32) S1x16.size (k1_off20_inb k 1)).toLoadRect f),
      ((Memref.whole cc1_scratch0 : Memref sig .scVector .vmem S32x1024 .f32).view.readAt (Elt F) (Rect.unit (s := S32x1024) (k1_off21 k 1#32) S1x16.size (k1_off21_inb k 1)).toLoadRect f),
      ((Memref.whole cc1_scratch0 : Memref sig .scVector .vmem S32x1024 .f32).view.readAt (Elt F) (Rect.unit (s := S32x1024) (k1_off22 k 1#32) S1x16.size (k1_off22_inb k 1)).toLoadRect f),
      ((Memref.whole cc1_scratch0 : Memref sig .scVector .vmem S32x1024 .f32).view.readAt (Elt F) (Rect.unit (s := S32x1024) (k1_off23 k 1#32) S1x16.size (k1_off23_inb k 1)).toLoadRect f),
      ((Memref.whole cc1_scratch0 : Memref sig .scVector .vmem S32x1024 .f32).view.readAt (Elt F) (Rect.unit (s := S32x1024) (k1_off24 k 1#32) S1x16.size (k1_off24_inb k 1)).toLoadRect f),
      ((Memref.whole cc1_scratch0 : Memref sig .scVector .vmem S32x1024 .f32).view.readAt (Elt F) (Rect.unit (s := S32x1024) (k1_off25 k 1#32) S1x16.size (k1_off25_inb k 1)).toLoadRect f),
      ((Memref.whole cc1_scratch0 : Memref sig .scVector .vmem S32x1024 .f32).view.readAt (Elt F) (Rect.unit (s := S32x1024) (k1_off26 k 1#32) S1x16.size (k1_off26_inb k 1)).toLoadRect f),
      ((Memref.whole cc1_scratch0 : Memref sig .scVector .vmem S32x1024 .f32).view.readAt (Elt F) (Rect.unit (s := S32x1024) (k1_off27 k 1#32) S1x16.size (k1_off27_inb k 1)).toLoadRect f),
      ((Memref.whole cc1_scratch0 : Memref sig .scVector .vmem S32x1024 .f32).view.readAt (Elt F) (Rect.unit (s := S32x1024) (k1_off28 k 1#32) S1x16.size (k1_off28_inb k 1)).toLoadRect f),
      ((Memref.whole cc1_scratch0 : Memref sig .scVector .vmem S32x1024 .f32).view.readAt (Elt F) (Rect.unit (s := S32x1024) (k1_off29 k 1#32) S1x16.size (k1_off29_inb k 1)).toLoadRect f),
      ((Memref.whole cc1_scratch0 : Memref sig .scVector .vmem S32x1024 .f32).view.readAt (Elt F) (Rect.unit (s := S32x1024) (k1_off30 k 1#32) S1x16.size (k1_off30_inb k 1)).toLoadRect f),
      ((Memref.whole cc1_scratch0 : Memref sig .scVector .vmem S32x1024 .f32).view.readAt (Elt F) (Rect.unit (s := S32x1024) (k1_off31 k 1#32) S1x16.size (k1_off31_inb k 1)).toLoadRect f),
      ((Memref.whole cc1_scratch0 : Memref sig .scVector .vmem S32x1024 .f32).view.readAt (Elt F) (Rect.unit (s := S32x1024) (k1_off32 k 1#32) S1x16.size (k1_off32_inb k 1)).toLoadRect f),
      ((Memref.whole cc1_scratch0 : Memref sig .scVector .vmem S32x1024 .f32).view.readAt (Elt F) (Rect.unit (s := S32x1024) (k1_off33 k 1#32) S1x16.size (k1_off33_inb k 1)).toLoadRect f),
      ((Memref.whole cc1_scratch0 : Memref sig .scVector .vmem S32x1024 .f32).view.readAt (Elt F) (Rect.unit (s := S32x1024) (k1_off34 k 1#32) S1x16.size (k1_off34_inb k 1)).toLoadRect f),
      ((Memref.whole cc1_scratch0 : Memref sig .scVector .vmem S32x1024 .f32).view.readAt (Elt F) (Rect.unit (s := S32x1024) (k1_off35 k 1#32) S1x16.size (k1_off35_inb k 1)).toLoadRect f),
      ((Memref.whole cc1_scratch0 : Memref sig .scVector .vmem S32x1024 .f32).view.readAt (Elt F) (Rect.unit (s := S32x1024) (k1_off36 k 1#32) S1x16.size (k1_off36_inb k 1)).toLoadRect f),
      ((Memref.whole cc1_scratch0 : Memref sig .scVector .vmem S32x1024 .f32).view.readAt (Elt F) (Rect.unit (s := S32x1024) (k1_off37 k 1#32) S1x16.size (k1_off37_inb k 1)).toLoadRect f),
      ((Memref.whole cc1_scratch0 : Memref sig .scVector .vmem S32x1024 .f32).view.readAt (Elt F) (Rect.unit (s := S32x1024) (k1_off38 k 1#32) S1x16.size (k1_off38_inb k 1)).toLoadRect f),
      ((Memref.whole cc1_scratch0 : Memref sig .scVector .vmem S32x1024 .f32).view.readAt (Elt F) (Rect.unit (s := S32x1024) (k1_off39 k 1#32) S1x16.size (k1_off39_inb k 1)).toLoadRect f),
      ((Memref.whole cc1_scratch0 : Memref sig .scVector .vmem S32x1024 .f32).view.readAt (Elt F) (Rect.unit (s := S32x1024) (k1_off40 k 1#32) S1x16.size (k1_off40_inb k 1)).toLoadRect f)] x).trans ?_
  refine lsum32_loads f _ (64 * k.val + 16) (by omega) (fun r l => ?_) x
  fin_cases r
  · exact readAt_row0 _ _ f 0 (64 * k.val + 16) (by omega) (k1_off9_eq k ⟨1, by decide⟩) l
  · exact readAt_row0 _ _ f 1 (64 * k.val + 16) (by omega) (k1_off10_eq k ⟨1, by decide⟩) l
  · exact readAt_row0 _ _ f 2 (64 * k.val + 16) (by omega) (k1_off11_eq k ⟨1, by decide⟩) l
  · exact readAt_row0 _ _ f 3 (64 * k.val + 16) (by omega) (k1_off12_eq k ⟨1, by decide⟩) l
  · exact readAt_row0 _ _ f 4 (64 * k.val + 16) (by omega) (k1_off13_eq k ⟨1, by decide⟩) l
  · exact readAt_row0 _ _ f 5 (64 * k.val + 16) (by omega) (k1_off14_eq k ⟨1, by decide⟩) l
  · exact readAt_row0 _ _ f 6 (64 * k.val + 16) (by omega) (k1_off15_eq k ⟨1, by decide⟩) l
  · exact readAt_row0 _ _ f 7 (64 * k.val + 16) (by omega) (k1_off16_eq k ⟨1, by decide⟩) l
  · exact readAt_row0 _ _ f 8 (64 * k.val + 16) (by omega) (k1_off17_eq k ⟨1, by decide⟩) l
  · exact readAt_row0 _ _ f 9 (64 * k.val + 16) (by omega) (k1_off18_eq k ⟨1, by decide⟩) l
  · exact readAt_row0 _ _ f 10 (64 * k.val + 16) (by omega) (k1_off19_eq k ⟨1, by decide⟩) l
  · exact readAt_row0 _ _ f 11 (64 * k.val + 16) (by omega) (k1_off20_eq k ⟨1, by decide⟩) l
  · exact readAt_row0 _ _ f 12 (64 * k.val + 16) (by omega) (k1_off21_eq k ⟨1, by decide⟩) l
  · exact readAt_row0 _ _ f 13 (64 * k.val + 16) (by omega) (k1_off22_eq k ⟨1, by decide⟩) l
  · exact readAt_row0 _ _ f 14 (64 * k.val + 16) (by omega) (k1_off23_eq k ⟨1, by decide⟩) l
  · exact readAt_row0 _ _ f 15 (64 * k.val + 16) (by omega) (k1_off24_eq k ⟨1, by decide⟩) l
  · exact readAt_row0 _ _ f 16 (64 * k.val + 16) (by omega) (k1_off25_eq k ⟨1, by decide⟩) l
  · exact readAt_row0 _ _ f 17 (64 * k.val + 16) (by omega) (k1_off26_eq k ⟨1, by decide⟩) l
  · exact readAt_row0 _ _ f 18 (64 * k.val + 16) (by omega) (k1_off27_eq k ⟨1, by decide⟩) l
  · exact readAt_row0 _ _ f 19 (64 * k.val + 16) (by omega) (k1_off28_eq k ⟨1, by decide⟩) l
  · exact readAt_row0 _ _ f 20 (64 * k.val + 16) (by omega) (k1_off29_eq k ⟨1, by decide⟩) l
  · exact readAt_row0 _ _ f 21 (64 * k.val + 16) (by omega) (k1_off30_eq k ⟨1, by decide⟩) l
  · exact readAt_row0 _ _ f 22 (64 * k.val + 16) (by omega) (k1_off31_eq k ⟨1, by decide⟩) l
  · exact readAt_row0 _ _ f 23 (64 * k.val + 16) (by omega) (k1_off32_eq k ⟨1, by decide⟩) l
  · exact readAt_row0 _ _ f 24 (64 * k.val + 16) (by omega) (k1_off33_eq k ⟨1, by decide⟩) l
  · exact readAt_row0 _ _ f 25 (64 * k.val + 16) (by omega) (k1_off34_eq k ⟨1, by decide⟩) l
  · exact readAt_row0 _ _ f 26 (64 * k.val + 16) (by omega) (k1_off35_eq k ⟨1, by decide⟩) l
  · exact readAt_row0 _ _ f 27 (64 * k.val + 16) (by omega) (k1_off36_eq k ⟨1, by decide⟩) l
  · exact readAt_row0 _ _ f 28 (64 * k.val + 16) (by omega) (k1_off37_eq k ⟨1, by decide⟩) l
  · exact readAt_row0 _ _ f 29 (64 * k.val + 16) (by omega) (k1_off38_eq k ⟨1, by decide⟩) l
  · exact readAt_row0 _ _ f 30 (64 * k.val + 16) (by omega) (k1_off39_eq k ⟨1, by decide⟩) l
  · exact readAt_row0 _ _ f 31 (64 * k.val + 16) (by omega) (k1_off40_eq k ⟨1, by decide⟩) l

/-- Slab 0, store 2 of trip `k`: lane `x` of the stored vector is the slab's column sum at column `64 k + 32 + x`. -/
theorem pay2_u2 (f : (Memref.whole cc1_scratch0 : Memref sig .scVector .vmem S32x1024 .f32).view.ty.Contents (Elt F))
    (k : Fin k1_t2_loop.trips) (x : S16.Idx) :
    k1_pay17 (k1_pay16 (k1_pay15 (k1_pay14 (k1_pay13 ((Memref.whole cc1_scratch0 : Memref sig .scVector .vmem S32x1024 .f32).view.readAt (Elt F) (Rect.unit (s := S32x1024) (k1_off9 k 2#32) S1x16.size (k1_off9_inb k 2)).toLoadRect f) ((Memref.whole cc1_scratch0 : Memref sig .scVector .vmem S32x1024 .f32).view.readAt (Elt F) (Rect.unit (s := S32x1024) (k1_off10 k 2#32) S1x16.size (k1_off10_inb k 2)).toLoadRect f) ((Memref.whole cc1_scratch0 : Memref sig .scVector .vmem S32x1024 .f32).view.readAt (Elt F) (Rect.unit (s := S32x1024) (k1_off11 k 2#32) S1x16.size (k1_off11_inb k 2)).toLoadRect f) ((Memref.whole cc1_scratch0 : Memref sig .scVector .vmem S32x1024 .f32).view.readAt (Elt F) (Rect.unit (s := S32x1024) (k1_off12 k 2#32) S1x16.size (k1_off12_inb k 2)).toLoadRect f) ((Memref.whole cc1_scratch0 : Memref sig .scVector .vmem S32x1024 .f32).view.readAt (Elt F) (Rect.unit (s := S32x1024) (k1_off13 k 2#32) S1x16.size (k1_off13_inb k 2)).toLoadRect f) ((Memref.whole cc1_scratch0 : Memref sig .scVector .vmem S32x1024 .f32).view.readAt (Elt F) (Rect.unit (s := S32x1024) (k1_off14 k 2#32) S1x16.size (k1_off14_inb k 2)).toLoadRect f) ((Memref.whole cc1_scratch0 : Memref sig .scVector .vmem S32x1024 .f32).view.readAt (Elt F) (Rect.unit (s := S32x1024) (k1_off15 k 2#32) S1x16.size (k1_off15_inb k 2)).toLoadRect f)) ((Memref.whole cc1_scratch0 : Memref sig .scVector .vmem S32x1024 .f32).view.readAt (Elt F) (Rect.unit (s := S32x1024) (k1_off16 k 2#32) S1x16.size (k1_off16_inb k 2)).toLoadRect f) ((Memref.whole cc1_scratch0 : Memref sig .scVector .vmem S32x1024 .f32).view.readAt (Elt F) (Rect.unit (s := S32x1024) (k1_off17 k 2#32) S1x16.size (k1_off17_inb k 2)).toLoadRect f) ((Memref.whole cc1_scratch0 : Memref sig .scVector .vmem S32x1024 .f32).view.readAt (Elt F) (Rect.unit (s := S32x1024) (k1_off18 k 2#32) S1x16.size (k1_off18_inb k 2)).toLoadRect f) ((Memref.whole cc1_scratch0 : Memref sig .scVector .vmem S32x1024 .f32).view.readAt (Elt F) (Rect.unit (s := S32x1024) (k1_off19 k 2#32) S1x16.size (k1_off19_inb k 2)).toLoadRect f) ((Memref.whole cc1_scratch0 : Memref sig .scVector .vmem S32x1024 .f32).view.readAt (Elt F) (Rect.unit (s := S32x1024) (k1_off20 k 2#32) S1x16.size (k1_off20_inb k 2)).toLoadRect f) ((Memref.whole cc1_scratch0 : Memref sig .scVector .vmem S32x1024 .f32).view.readAt (Elt F) (Rect.unit (s := S32x1024) (k1_off21 k 2#32) S1x16.size (k1_off21_inb k 2)).toLoadRect f) ((Memref.whole cc1_scratch0 : Memref sig .scVector .vmem S32x1024 .f32).view.readAt (Elt F) (Rect.unit (s := S32x1024) (k1_off22 k 2#32) S1x16.size (k1_off22_inb k 2)).toLoadRect f)) ((Memref.whole cc1_scratch0 : Memref sig .scVector .vmem S32x1024 .f32).view.readAt (Elt F) (Rect.unit (s := S32x1024) (k1_off23 k 2#32) S1x16.size (k1_off23_inb k 2)).toLoadRect f) ((Memref.whole cc1_scratch0 : Memref sig .scVector .vmem S32x1024 .f32).view.readAt (Elt F) (Rect.unit (s := S32x1024) (k1_off24 k 2#32) S1x16.size (k1_off24_inb k 2)).toLoadRect f) ((Memref.whole cc1_scratch0 : Memref sig .scVector .vmem S32x1024 .f32).view.readAt (Elt F) (Rect.unit (s := S32x1024) (k1_off25 k 2#32) S1x16.size (k1_off25_inb k 2)).toLoadRect f) ((Memref.whole cc1_scratch0 : Memref sig .scVector .vmem S32x1024 .f32).view.readAt (Elt F) (Rect.unit (s := S32x1024) (k1_off26 k 2#32) S1x16.size (k1_off26_inb k 2)).toLoadRect f) ((Memref.whole cc1_scratch0 : Memref sig .scVector .vmem S32x1024 .f32).view.readAt (Elt F) (Rect.unit (s := S32x1024) (k1_off27 k 2#32) S1x16.size (k1_off27_inb k 2)).toLoadRect f) ((Memref.whole cc1_scratch0 : Memref sig .scVector .vmem S32x1024 .f32).view.readAt (Elt F) (Rect.unit (s := S32x1024) (k1_off28 k 2#32) S1x16.size (k1_off28_inb k 2)).toLoadRect f) ((Memref.whole cc1_scratch0 : Memref sig .scVector .vmem S32x1024 .f32).view.readAt (Elt F) (Rect.unit (s := S32x1024) (k1_off29 k 2#32) S1x16.size (k1_off29_inb k 2)).toLoadRect f) ((Memref.whole cc1_scratch0 : Memref sig .scVector .vmem S32x1024 .f32).view.readAt (Elt F) (Rect.unit (s := S32x1024) (k1_off30 k 2#32) S1x16.size (k1_off30_inb k 2)).toLoadRect f)) ((Memref.whole cc1_scratch0 : Memref sig .scVector .vmem S32x1024 .f32).view.readAt (Elt F) (Rect.unit (s := S32x1024) (k1_off31 k 2#32) S1x16.size (k1_off31_inb k 2)).toLoadRect f) ((Memref.whole cc1_scratch0 : Memref sig .scVector .vmem S32x1024 .f32).view.readAt (Elt F) (Rect.unit (s := S32x1024) (k1_off32 k 2#32) S1x16.size (k1_off32_inb k 2)).toLoadRect f) ((Memref.whole cc1_scratch0 : Memref sig .scVector .vmem S32x1024 .f32).view.readAt (Elt F) (Rect.unit (s := S32x1024) (k1_off33 k 2#32) S1x16.size (k1_off33_inb k 2)).toLoadRect f) ((Memref.whole cc1_scratch0 : Memref sig .scVector .vmem S32x1024 .f32).view.readAt (Elt F) (Rect.unit (s := S32x1024) (k1_off34 k 2#32) S1x16.size (k1_off34_inb k 2)).toLoadRect f) ((Memref.whole cc1_scratch0 : Memref sig .scVector .vmem S32x1024 .f32).view.readAt (Elt F) (Rect.unit (s := S32x1024) (k1_off35 k 2#32) S1x16.size (k1_off35_inb k 2)).toLoadRect f) ((Memref.whole cc1_scratch0 : Memref sig .scVector .vmem S32x1024 .f32).view.readAt (Elt F) (Rect.unit (s := S32x1024) (k1_off36 k 2#32) S1x16.size (k1_off36_inb k 2)).toLoadRect f) ((Memref.whole cc1_scratch0 : Memref sig .scVector .vmem S32x1024 .f32).view.readAt (Elt F) (Rect.unit (s := S32x1024) (k1_off37 k 2#32) S1x16.size (k1_off37_inb k 2)).toLoadRect f)) ((Memref.whole cc1_scratch0 : Memref sig .scVector .vmem S32x1024 .f32).view.readAt (Elt F) (Rect.unit (s := S32x1024) (k1_off38 k 2#32) S1x16.size (k1_off38_inb k 2)).toLoadRect f) ((Memref.whole cc1_scratch0 : Memref sig .scVector .vmem S32x1024 .f32).view.readAt (Elt F) (Rect.unit (s := S32x1024) (k1_off39 k 2#32) S1x16.size (k1_off39_inb k 2)).toLoadRect f) ((Memref.whole cc1_scratch0 : Memref sig .scVector .vmem S32x1024 .f32).view.readAt (Elt F) (Rect.unit (s := S32x1024) (k1_off40 k 2#32) S1x16.size (k1_off40_inb k 2)).toLoadRect f) x
      = slabSum f (64 * k.val + 32 + (x 0).val) := by
  have hk : k.val < 16 := Nat.lt_of_lt_of_le k.isLt k1_t2_abs.2.1
  refine (chain2_u2 ![((Memref.whole cc1_scratch0 : Memref sig .scVector .vmem S32x1024 .f32).view.readAt (Elt F) (Rect.unit (s := S32x1024) (k1_off9 k 2#32) S1x16.size (k1_off9_inb k 2)).toLoadRect f),
      ((Memref.whole cc1_scratch0 : Memref sig .scVector .vmem S32x1024 .f32).view.readAt (Elt F) (Rect.unit (s := S32x1024) (k1_off10 k 2#32) S1x16.size (k1_off10_inb k 2)).toLoadRect f),
      ((Memref.whole cc1_scratch0 : Memref sig .scVector .vmem S32x1024 .f32).view.readAt (Elt F) (Rect.unit (s := S32x1024) (k1_off11 k 2#32) S1x16.size (k1_off11_inb k 2)).toLoadRect f),
      ((Memref.whole cc1_scratch0 : Memref sig .scVector .vmem S32x1024 .f32).view.readAt (Elt F) (Rect.unit (s := S32x1024) (k1_off12 k 2#32) S1x16.size (k1_off12_inb k 2)).toLoadRect f),
      ((Memref.whole cc1_scratch0 : Memref sig .scVector .vmem S32x1024 .f32).view.readAt (Elt F) (Rect.unit (s := S32x1024) (k1_off13 k 2#32) S1x16.size (k1_off13_inb k 2)).toLoadRect f),
      ((Memref.whole cc1_scratch0 : Memref sig .scVector .vmem S32x1024 .f32).view.readAt (Elt F) (Rect.unit (s := S32x1024) (k1_off14 k 2#32) S1x16.size (k1_off14_inb k 2)).toLoadRect f),
      ((Memref.whole cc1_scratch0 : Memref sig .scVector .vmem S32x1024 .f32).view.readAt (Elt F) (Rect.unit (s := S32x1024) (k1_off15 k 2#32) S1x16.size (k1_off15_inb k 2)).toLoadRect f),
      ((Memref.whole cc1_scratch0 : Memref sig .scVector .vmem S32x1024 .f32).view.readAt (Elt F) (Rect.unit (s := S32x1024) (k1_off16 k 2#32) S1x16.size (k1_off16_inb k 2)).toLoadRect f),
      ((Memref.whole cc1_scratch0 : Memref sig .scVector .vmem S32x1024 .f32).view.readAt (Elt F) (Rect.unit (s := S32x1024) (k1_off17 k 2#32) S1x16.size (k1_off17_inb k 2)).toLoadRect f),
      ((Memref.whole cc1_scratch0 : Memref sig .scVector .vmem S32x1024 .f32).view.readAt (Elt F) (Rect.unit (s := S32x1024) (k1_off18 k 2#32) S1x16.size (k1_off18_inb k 2)).toLoadRect f),
      ((Memref.whole cc1_scratch0 : Memref sig .scVector .vmem S32x1024 .f32).view.readAt (Elt F) (Rect.unit (s := S32x1024) (k1_off19 k 2#32) S1x16.size (k1_off19_inb k 2)).toLoadRect f),
      ((Memref.whole cc1_scratch0 : Memref sig .scVector .vmem S32x1024 .f32).view.readAt (Elt F) (Rect.unit (s := S32x1024) (k1_off20 k 2#32) S1x16.size (k1_off20_inb k 2)).toLoadRect f),
      ((Memref.whole cc1_scratch0 : Memref sig .scVector .vmem S32x1024 .f32).view.readAt (Elt F) (Rect.unit (s := S32x1024) (k1_off21 k 2#32) S1x16.size (k1_off21_inb k 2)).toLoadRect f),
      ((Memref.whole cc1_scratch0 : Memref sig .scVector .vmem S32x1024 .f32).view.readAt (Elt F) (Rect.unit (s := S32x1024) (k1_off22 k 2#32) S1x16.size (k1_off22_inb k 2)).toLoadRect f),
      ((Memref.whole cc1_scratch0 : Memref sig .scVector .vmem S32x1024 .f32).view.readAt (Elt F) (Rect.unit (s := S32x1024) (k1_off23 k 2#32) S1x16.size (k1_off23_inb k 2)).toLoadRect f),
      ((Memref.whole cc1_scratch0 : Memref sig .scVector .vmem S32x1024 .f32).view.readAt (Elt F) (Rect.unit (s := S32x1024) (k1_off24 k 2#32) S1x16.size (k1_off24_inb k 2)).toLoadRect f),
      ((Memref.whole cc1_scratch0 : Memref sig .scVector .vmem S32x1024 .f32).view.readAt (Elt F) (Rect.unit (s := S32x1024) (k1_off25 k 2#32) S1x16.size (k1_off25_inb k 2)).toLoadRect f),
      ((Memref.whole cc1_scratch0 : Memref sig .scVector .vmem S32x1024 .f32).view.readAt (Elt F) (Rect.unit (s := S32x1024) (k1_off26 k 2#32) S1x16.size (k1_off26_inb k 2)).toLoadRect f),
      ((Memref.whole cc1_scratch0 : Memref sig .scVector .vmem S32x1024 .f32).view.readAt (Elt F) (Rect.unit (s := S32x1024) (k1_off27 k 2#32) S1x16.size (k1_off27_inb k 2)).toLoadRect f),
      ((Memref.whole cc1_scratch0 : Memref sig .scVector .vmem S32x1024 .f32).view.readAt (Elt F) (Rect.unit (s := S32x1024) (k1_off28 k 2#32) S1x16.size (k1_off28_inb k 2)).toLoadRect f),
      ((Memref.whole cc1_scratch0 : Memref sig .scVector .vmem S32x1024 .f32).view.readAt (Elt F) (Rect.unit (s := S32x1024) (k1_off29 k 2#32) S1x16.size (k1_off29_inb k 2)).toLoadRect f),
      ((Memref.whole cc1_scratch0 : Memref sig .scVector .vmem S32x1024 .f32).view.readAt (Elt F) (Rect.unit (s := S32x1024) (k1_off30 k 2#32) S1x16.size (k1_off30_inb k 2)).toLoadRect f),
      ((Memref.whole cc1_scratch0 : Memref sig .scVector .vmem S32x1024 .f32).view.readAt (Elt F) (Rect.unit (s := S32x1024) (k1_off31 k 2#32) S1x16.size (k1_off31_inb k 2)).toLoadRect f),
      ((Memref.whole cc1_scratch0 : Memref sig .scVector .vmem S32x1024 .f32).view.readAt (Elt F) (Rect.unit (s := S32x1024) (k1_off32 k 2#32) S1x16.size (k1_off32_inb k 2)).toLoadRect f),
      ((Memref.whole cc1_scratch0 : Memref sig .scVector .vmem S32x1024 .f32).view.readAt (Elt F) (Rect.unit (s := S32x1024) (k1_off33 k 2#32) S1x16.size (k1_off33_inb k 2)).toLoadRect f),
      ((Memref.whole cc1_scratch0 : Memref sig .scVector .vmem S32x1024 .f32).view.readAt (Elt F) (Rect.unit (s := S32x1024) (k1_off34 k 2#32) S1x16.size (k1_off34_inb k 2)).toLoadRect f),
      ((Memref.whole cc1_scratch0 : Memref sig .scVector .vmem S32x1024 .f32).view.readAt (Elt F) (Rect.unit (s := S32x1024) (k1_off35 k 2#32) S1x16.size (k1_off35_inb k 2)).toLoadRect f),
      ((Memref.whole cc1_scratch0 : Memref sig .scVector .vmem S32x1024 .f32).view.readAt (Elt F) (Rect.unit (s := S32x1024) (k1_off36 k 2#32) S1x16.size (k1_off36_inb k 2)).toLoadRect f),
      ((Memref.whole cc1_scratch0 : Memref sig .scVector .vmem S32x1024 .f32).view.readAt (Elt F) (Rect.unit (s := S32x1024) (k1_off37 k 2#32) S1x16.size (k1_off37_inb k 2)).toLoadRect f),
      ((Memref.whole cc1_scratch0 : Memref sig .scVector .vmem S32x1024 .f32).view.readAt (Elt F) (Rect.unit (s := S32x1024) (k1_off38 k 2#32) S1x16.size (k1_off38_inb k 2)).toLoadRect f),
      ((Memref.whole cc1_scratch0 : Memref sig .scVector .vmem S32x1024 .f32).view.readAt (Elt F) (Rect.unit (s := S32x1024) (k1_off39 k 2#32) S1x16.size (k1_off39_inb k 2)).toLoadRect f),
      ((Memref.whole cc1_scratch0 : Memref sig .scVector .vmem S32x1024 .f32).view.readAt (Elt F) (Rect.unit (s := S32x1024) (k1_off40 k 2#32) S1x16.size (k1_off40_inb k 2)).toLoadRect f)] x).trans ?_
  refine lsum32_loads f _ (64 * k.val + 32) (by omega) (fun r l => ?_) x
  fin_cases r
  · exact readAt_row0 _ _ f 0 (64 * k.val + 32) (by omega) (k1_off9_eq k ⟨2, by decide⟩) l
  · exact readAt_row0 _ _ f 1 (64 * k.val + 32) (by omega) (k1_off10_eq k ⟨2, by decide⟩) l
  · exact readAt_row0 _ _ f 2 (64 * k.val + 32) (by omega) (k1_off11_eq k ⟨2, by decide⟩) l
  · exact readAt_row0 _ _ f 3 (64 * k.val + 32) (by omega) (k1_off12_eq k ⟨2, by decide⟩) l
  · exact readAt_row0 _ _ f 4 (64 * k.val + 32) (by omega) (k1_off13_eq k ⟨2, by decide⟩) l
  · exact readAt_row0 _ _ f 5 (64 * k.val + 32) (by omega) (k1_off14_eq k ⟨2, by decide⟩) l
  · exact readAt_row0 _ _ f 6 (64 * k.val + 32) (by omega) (k1_off15_eq k ⟨2, by decide⟩) l
  · exact readAt_row0 _ _ f 7 (64 * k.val + 32) (by omega) (k1_off16_eq k ⟨2, by decide⟩) l
  · exact readAt_row0 _ _ f 8 (64 * k.val + 32) (by omega) (k1_off17_eq k ⟨2, by decide⟩) l
  · exact readAt_row0 _ _ f 9 (64 * k.val + 32) (by omega) (k1_off18_eq k ⟨2, by decide⟩) l
  · exact readAt_row0 _ _ f 10 (64 * k.val + 32) (by omega) (k1_off19_eq k ⟨2, by decide⟩) l
  · exact readAt_row0 _ _ f 11 (64 * k.val + 32) (by omega) (k1_off20_eq k ⟨2, by decide⟩) l
  · exact readAt_row0 _ _ f 12 (64 * k.val + 32) (by omega) (k1_off21_eq k ⟨2, by decide⟩) l
  · exact readAt_row0 _ _ f 13 (64 * k.val + 32) (by omega) (k1_off22_eq k ⟨2, by decide⟩) l
  · exact readAt_row0 _ _ f 14 (64 * k.val + 32) (by omega) (k1_off23_eq k ⟨2, by decide⟩) l
  · exact readAt_row0 _ _ f 15 (64 * k.val + 32) (by omega) (k1_off24_eq k ⟨2, by decide⟩) l
  · exact readAt_row0 _ _ f 16 (64 * k.val + 32) (by omega) (k1_off25_eq k ⟨2, by decide⟩) l
  · exact readAt_row0 _ _ f 17 (64 * k.val + 32) (by omega) (k1_off26_eq k ⟨2, by decide⟩) l
  · exact readAt_row0 _ _ f 18 (64 * k.val + 32) (by omega) (k1_off27_eq k ⟨2, by decide⟩) l
  · exact readAt_row0 _ _ f 19 (64 * k.val + 32) (by omega) (k1_off28_eq k ⟨2, by decide⟩) l
  · exact readAt_row0 _ _ f 20 (64 * k.val + 32) (by omega) (k1_off29_eq k ⟨2, by decide⟩) l
  · exact readAt_row0 _ _ f 21 (64 * k.val + 32) (by omega) (k1_off30_eq k ⟨2, by decide⟩) l
  · exact readAt_row0 _ _ f 22 (64 * k.val + 32) (by omega) (k1_off31_eq k ⟨2, by decide⟩) l
  · exact readAt_row0 _ _ f 23 (64 * k.val + 32) (by omega) (k1_off32_eq k ⟨2, by decide⟩) l
  · exact readAt_row0 _ _ f 24 (64 * k.val + 32) (by omega) (k1_off33_eq k ⟨2, by decide⟩) l
  · exact readAt_row0 _ _ f 25 (64 * k.val + 32) (by omega) (k1_off34_eq k ⟨2, by decide⟩) l
  · exact readAt_row0 _ _ f 26 (64 * k.val + 32) (by omega) (k1_off35_eq k ⟨2, by decide⟩) l
  · exact readAt_row0 _ _ f 27 (64 * k.val + 32) (by omega) (k1_off36_eq k ⟨2, by decide⟩) l
  · exact readAt_row0 _ _ f 28 (64 * k.val + 32) (by omega) (k1_off37_eq k ⟨2, by decide⟩) l
  · exact readAt_row0 _ _ f 29 (64 * k.val + 32) (by omega) (k1_off38_eq k ⟨2, by decide⟩) l
  · exact readAt_row0 _ _ f 30 (64 * k.val + 32) (by omega) (k1_off39_eq k ⟨2, by decide⟩) l
  · exact readAt_row0 _ _ f 31 (64 * k.val + 32) (by omega) (k1_off40_eq k ⟨2, by decide⟩) l

/-- Slab 0, store 3 of trip `k`: lane `x` of the stored vector is the slab's column sum at column `64 k + 48 + x`. -/
theorem pay2_u3 (f : (Memref.whole cc1_scratch0 : Memref sig .scVector .vmem S32x1024 .f32).view.ty.Contents (Elt F))
    (k : Fin k1_t2_loop.trips) (x : S16.Idx) :
    k1_pay45 (k1_pay22 (k1_pay21 (k1_pay20 (k1_pay19 (k1_pay18 ((Memref.whole cc1_scratch0 : Memref sig .scVector .vmem S32x1024 .f32).view.readAt (Elt F) (Rect.unit (s := S32x1024) (k1_off9 k 3#32) S1x16.size (k1_off9_inb k 3)).toLoadRect f) ((Memref.whole cc1_scratch0 : Memref sig .scVector .vmem S32x1024 .f32).view.readAt (Elt F) (Rect.unit (s := S32x1024) (k1_off10 k 3#32) S1x16.size (k1_off10_inb k 3)).toLoadRect f) ((Memref.whole cc1_scratch0 : Memref sig .scVector .vmem S32x1024 .f32).view.readAt (Elt F) (Rect.unit (s := S32x1024) (k1_off11 k 3#32) S1x16.size (k1_off11_inb k 3)).toLoadRect f)) ((Memref.whole cc1_scratch0 : Memref sig .scVector .vmem S32x1024 .f32).view.readAt (Elt F) (Rect.unit (s := S32x1024) (k1_off12 k 3#32) S1x16.size (k1_off12_inb k 3)).toLoadRect f) ((Memref.whole cc1_scratch0 : Memref sig .scVector .vmem S32x1024 .f32).view.readAt (Elt F) (Rect.unit (s := S32x1024) (k1_off13 k 3#32) S1x16.size (k1_off13_inb k 3)).toLoadRect f) ((Memref.whole cc1_scratch0 : Memref sig .scVector .vmem S32x1024 .f32).view.readAt (Elt F) (Rect.unit (s := S32x1024) (k1_off14 k 3#32) S1x16.size (k1_off14_inb k 3)).toLoadRect f) ((Memref.whole cc1_scratch0 : Memref sig .scVector .vmem S32x1024 .f32).view.readAt (Elt F) (Rect.unit (s := S32x1024) (k1_off15 k 3#32) S1x16.size (k1_off15_inb k 3)).toLoadRect f) ((Memref.whole cc1_scratch0 : Memref sig .scVector .vmem S32x1024 .f32).view.readAt (Elt F) (Rect.unit (s := S32x1024) (k1_off16 k 3#32) S1x16.size (k1_off16_inb k 3)).toLoadRect f) ((Memref.whole cc1_scratch0 : Memref sig .scVector .vmem S32x1024 .f32).view.readAt (Elt F) (Rect.unit (s := S32x1024) (k1_off17 k 3#32) S1x16.size (k1_off17_inb k 3)).toLoadRect f) ((Memref.whole cc1_scratch0 : Memref sig .scVector .vmem S32x1024 .f32).view.readAt (Elt F) (Rect.unit (s := S32x1024) (k1_off18 k 3#32) S1x16.size (k1_off18_inb k 3)).toLoadRect f) ((Memref.whole cc1_scratch0 : Memref sig .scVector .vmem S32x1024 .f32).view.readAt (Elt F) (Rect.unit (s := S32x1024) (k1_off19 k 3#32) S1x16.size (k1_off19_inb k 3)).toLoadRect f)) ((Memref.whole cc1_scratch0 : Memref sig .scVector .vmem S32x1024 .f32).view.readAt (Elt F) (Rect.unit (s := S32x1024) (k1_off20 k 3#32) S1x16.size (k1_off20_inb k 3)).toLoadRect f) ((Memref.whole cc1_scratch0 : Memref sig .scVector .vmem S32x1024 .f32).view.readAt (Elt F) (Rect.unit (s := S32x1024) (k1_off21 k 3#32) S1x16.size (k1_off21_inb k 3)).toLoadRect f) ((Memref.whole cc1_scratch0 : Memref sig .scVector .vmem S32x1024 .f32).view.readAt (Elt F) (Rect.unit (s := S32x1024) (k1_off22 k 3#32) S1x16.size (k1_off22_inb k 3)).toLoadRect f) ((Memref.whole cc1_scratch0 : Memref sig .scVector .vmem S32x1024 .f32).view.readAt (Elt F) (Rect.unit (s := S32x1024) (k1_off23 k 3#32) S1x16.size (k1_off23_inb k 3)).toLoadRect f) ((Memref.whole cc1_scratch0 : Memref sig .scVector .vmem S32x1024 .f32).view.readAt (Elt F) (Rect.unit (s := S32x1024) (k1_off24 k 3#32) S1x16.size (k1_off24_inb k 3)).toLoadRect f) ((Memref.whole cc1_scratch0 : Memref sig .scVector .vmem S32x1024 .f32).view.readAt (Elt F) (Rect.unit (s := S32x1024) (k1_off25 k 3#32) S1x16.size (k1_off25_inb k 3)).toLoadRect f) ((Memref.whole cc1_scratch0 : Memref sig .scVector .vmem S32x1024 .f32).view.readAt (Elt F) (Rect.unit (s := S32x1024) (k1_off26 k 3#32) S1x16.size (k1_off26_inb k 3)).toLoadRect f)) ((Memref.whole cc1_scratch0 : Memref sig .scVector .vmem S32x1024 .f32).view.readAt (Elt F) (Rect.unit (s := S32x1024) (k1_off27 k 3#32) S1x16.size (k1_off27_inb k 3)).toLoadRect f) ((Memref.whole cc1_scratch0 : Memref sig .scVector .vmem S32x1024 .f32).view.readAt (Elt F) (Rect.unit (s := S32x1024) (k1_off28 k 3#32) S1x16.size (k1_off28_inb k 3)).toLoadRect f) ((Memref.whole cc1_scratch0 : Memref sig .scVector .vmem S32x1024 .f32).view.readAt (Elt F) (Rect.unit (s := S32x1024) (k1_off29 k 3#32) S1x16.size (k1_off29_inb k 3)).toLoadRect f) ((Memref.whole cc1_scratch0 : Memref sig .scVector .vmem S32x1024 .f32).view.readAt (Elt F) (Rect.unit (s := S32x1024) (k1_off30 k 3#32) S1x16.size (k1_off30_inb k 3)).toLoadRect f) ((Memref.whole cc1_scratch0 : Memref sig .scVector .vmem S32x1024 .f32).view.readAt (Elt F) (Rect.unit (s := S32x1024) (k1_off31 k 3#32) S1x16.size (k1_off31_inb k 3)).toLoadRect f) ((Memref.whole cc1_scratch0 : Memref sig .scVector .vmem S32x1024 .f32).view.readAt (Elt F) (Rect.unit (s := S32x1024) (k1_off32 k 3#32) S1x16.size (k1_off32_inb k 3)).toLoadRect f) ((Memref.whole cc1_scratch0 : Memref sig .scVector .vmem S32x1024 .f32).view.readAt (Elt F) (Rect.unit (s := S32x1024) (k1_off33 k 3#32) S1x16.size (k1_off33_inb k 3)).toLoadRect f) ((Memref.whole cc1_scratch0 : Memref sig .scVector .vmem S32x1024 .f32).view.readAt (Elt F) (Rect.unit (s := S32x1024) (k1_off34 k 3#32) S1x16.size (k1_off34_inb k 3)).toLoadRect f)) ((Memref.whole cc1_scratch0 : Memref sig .scVector .vmem S32x1024 .f32).view.readAt (Elt F) (Rect.unit (s := S32x1024) (k1_off35 k 3#32) S1x16.size (k1_off35_inb k 3)).toLoadRect f) ((Memref.whole cc1_scratch0 : Memref sig .scVector .vmem S32x1024 .f32).view.readAt (Elt F) (Rect.unit (s := S32x1024) (k1_off36 k 3#32) S1x16.size (k1_off36_inb k 3)).toLoadRect f) ((Memref.whole cc1_scratch0 : Memref sig .scVector .vmem S32x1024 .f32).view.readAt (Elt F) (Rect.unit (s := S32x1024) (k1_off37 k 3#32) S1x16.size (k1_off37_inb k 3)).toLoadRect f) ((Memref.whole cc1_scratch0 : Memref sig .scVector .vmem S32x1024 .f32).view.readAt (Elt F) (Rect.unit (s := S32x1024) (k1_off38 k 3#32) S1x16.size (k1_off38_inb k 3)).toLoadRect f) ((Memref.whole cc1_scratch0 : Memref sig .scVector .vmem S32x1024 .f32).view.readAt (Elt F) (Rect.unit (s := S32x1024) (k1_off39 k 3#32) S1x16.size (k1_off39_inb k 3)).toLoadRect f)) ((Memref.whole cc1_scratch0 : Memref sig .scVector .vmem S32x1024 .f32).view.readAt (Elt F) (Rect.unit (s := S32x1024) (k1_off40 k 3#32) S1x16.size (k1_off40_inb k 3)).toLoadRect f) x
      = slabSum f (64 * k.val + 48 + (x 0).val) := by
  have hk : k.val < 16 := Nat.lt_of_lt_of_le k.isLt k1_t2_abs.2.1
  refine (chain2_u3 ![((Memref.whole cc1_scratch0 : Memref sig .scVector .vmem S32x1024 .f32).view.readAt (Elt F) (Rect.unit (s := S32x1024) (k1_off9 k 3#32) S1x16.size (k1_off9_inb k 3)).toLoadRect f),
      ((Memref.whole cc1_scratch0 : Memref sig .scVector .vmem S32x1024 .f32).view.readAt (Elt F) (Rect.unit (s := S32x1024) (k1_off10 k 3#32) S1x16.size (k1_off10_inb k 3)).toLoadRect f),
      ((Memref.whole cc1_scratch0 : Memref sig .scVector .vmem S32x1024 .f32).view.readAt (Elt F) (Rect.unit (s := S32x1024) (k1_off11 k 3#32) S1x16.size (k1_off11_inb k 3)).toLoadRect f),
      ((Memref.whole cc1_scratch0 : Memref sig .scVector .vmem S32x1024 .f32).view.readAt (Elt F) (Rect.unit (s := S32x1024) (k1_off12 k 3#32) S1x16.size (k1_off12_inb k 3)).toLoadRect f),
      ((Memref.whole cc1_scratch0 : Memref sig .scVector .vmem S32x1024 .f32).view.readAt (Elt F) (Rect.unit (s := S32x1024) (k1_off13 k 3#32) S1x16.size (k1_off13_inb k 3)).toLoadRect f),
      ((Memref.whole cc1_scratch0 : Memref sig .scVector .vmem S32x1024 .f32).view.readAt (Elt F) (Rect.unit (s := S32x1024) (k1_off14 k 3#32) S1x16.size (k1_off14_inb k 3)).toLoadRect f),
      ((Memref.whole cc1_scratch0 : Memref sig .scVector .vmem S32x1024 .f32).view.readAt (Elt F) (Rect.unit (s := S32x1024) (k1_off15 k 3#32) S1x16.size (k1_off15_inb k 3)).toLoadRect f),
      ((Memref.whole cc1_scratch0 : Memref sig .scVector .vmem S32x1024 .f32).view.readAt (Elt F) (Rect.unit (s := S32x1024) (k1_off16 k 3#32) S1x16.size (k1_off16_inb k 3)).toLoadRect f),
      ((Memref.whole cc1_scratch0 : Memref sig .scVector .vmem S32x1024 .f32).view.readAt (Elt F) (Rect.unit (s := S32x1024) (k1_off17 k 3#32) S1x16.size (k1_off17_inb k 3)).toLoadRect f),
      ((Memref.whole cc1_scratch0 : Memref sig .scVector .vmem S32x1024 .f32).view.readAt (Elt F) (Rect.unit (s := S32x1024) (k1_off18 k 3#32) S1x16.size (k1_off18_inb k 3)).toLoadRect f),
      ((Memref.whole cc1_scratch0 : Memref sig .scVector .vmem S32x1024 .f32).view.readAt (Elt F) (Rect.unit (s := S32x1024) (k1_off19 k 3#32) S1x16.size (k1_off19_inb k 3)).toLoadRect f),
      ((Memref.whole cc1_scratch0 : Memref sig .scVector .vmem S32x1024 .f32).view.readAt (Elt F) (Rect.unit (s := S32x1024) (k1_off20 k 3#32) S1x16.size (k1_off20_inb k 3)).toLoadRect f),
      ((Memref.whole cc1_scratch0 : Memref sig .scVector .vmem S32x1024 .f32).view.readAt (Elt F) (Rect.unit (s := S32x1024) (k1_off21 k 3#32) S1x16.size (k1_off21_inb k 3)).toLoadRect f),
      ((Memref.whole cc1_scratch0 : Memref sig .scVector .vmem S32x1024 .f32).view.readAt (Elt F) (Rect.unit (s := S32x1024) (k1_off22 k 3#32) S1x16.size (k1_off22_inb k 3)).toLoadRect f),
      ((Memref.whole cc1_scratch0 : Memref sig .scVector .vmem S32x1024 .f32).view.readAt (Elt F) (Rect.unit (s := S32x1024) (k1_off23 k 3#32) S1x16.size (k1_off23_inb k 3)).toLoadRect f),
      ((Memref.whole cc1_scratch0 : Memref sig .scVector .vmem S32x1024 .f32).view.readAt (Elt F) (Rect.unit (s := S32x1024) (k1_off24 k 3#32) S1x16.size (k1_off24_inb k 3)).toLoadRect f),
      ((Memref.whole cc1_scratch0 : Memref sig .scVector .vmem S32x1024 .f32).view.readAt (Elt F) (Rect.unit (s := S32x1024) (k1_off25 k 3#32) S1x16.size (k1_off25_inb k 3)).toLoadRect f),
      ((Memref.whole cc1_scratch0 : Memref sig .scVector .vmem S32x1024 .f32).view.readAt (Elt F) (Rect.unit (s := S32x1024) (k1_off26 k 3#32) S1x16.size (k1_off26_inb k 3)).toLoadRect f),
      ((Memref.whole cc1_scratch0 : Memref sig .scVector .vmem S32x1024 .f32).view.readAt (Elt F) (Rect.unit (s := S32x1024) (k1_off27 k 3#32) S1x16.size (k1_off27_inb k 3)).toLoadRect f),
      ((Memref.whole cc1_scratch0 : Memref sig .scVector .vmem S32x1024 .f32).view.readAt (Elt F) (Rect.unit (s := S32x1024) (k1_off28 k 3#32) S1x16.size (k1_off28_inb k 3)).toLoadRect f),
      ((Memref.whole cc1_scratch0 : Memref sig .scVector .vmem S32x1024 .f32).view.readAt (Elt F) (Rect.unit (s := S32x1024) (k1_off29 k 3#32) S1x16.size (k1_off29_inb k 3)).toLoadRect f),
      ((Memref.whole cc1_scratch0 : Memref sig .scVector .vmem S32x1024 .f32).view.readAt (Elt F) (Rect.unit (s := S32x1024) (k1_off30 k 3#32) S1x16.size (k1_off30_inb k 3)).toLoadRect f),
      ((Memref.whole cc1_scratch0 : Memref sig .scVector .vmem S32x1024 .f32).view.readAt (Elt F) (Rect.unit (s := S32x1024) (k1_off31 k 3#32) S1x16.size (k1_off31_inb k 3)).toLoadRect f),
      ((Memref.whole cc1_scratch0 : Memref sig .scVector .vmem S32x1024 .f32).view.readAt (Elt F) (Rect.unit (s := S32x1024) (k1_off32 k 3#32) S1x16.size (k1_off32_inb k 3)).toLoadRect f),
      ((Memref.whole cc1_scratch0 : Memref sig .scVector .vmem S32x1024 .f32).view.readAt (Elt F) (Rect.unit (s := S32x1024) (k1_off33 k 3#32) S1x16.size (k1_off33_inb k 3)).toLoadRect f),
      ((Memref.whole cc1_scratch0 : Memref sig .scVector .vmem S32x1024 .f32).view.readAt (Elt F) (Rect.unit (s := S32x1024) (k1_off34 k 3#32) S1x16.size (k1_off34_inb k 3)).toLoadRect f),
      ((Memref.whole cc1_scratch0 : Memref sig .scVector .vmem S32x1024 .f32).view.readAt (Elt F) (Rect.unit (s := S32x1024) (k1_off35 k 3#32) S1x16.size (k1_off35_inb k 3)).toLoadRect f),
      ((Memref.whole cc1_scratch0 : Memref sig .scVector .vmem S32x1024 .f32).view.readAt (Elt F) (Rect.unit (s := S32x1024) (k1_off36 k 3#32) S1x16.size (k1_off36_inb k 3)).toLoadRect f),
      ((Memref.whole cc1_scratch0 : Memref sig .scVector .vmem S32x1024 .f32).view.readAt (Elt F) (Rect.unit (s := S32x1024) (k1_off37 k 3#32) S1x16.size (k1_off37_inb k 3)).toLoadRect f),
      ((Memref.whole cc1_scratch0 : Memref sig .scVector .vmem S32x1024 .f32).view.readAt (Elt F) (Rect.unit (s := S32x1024) (k1_off38 k 3#32) S1x16.size (k1_off38_inb k 3)).toLoadRect f),
      ((Memref.whole cc1_scratch0 : Memref sig .scVector .vmem S32x1024 .f32).view.readAt (Elt F) (Rect.unit (s := S32x1024) (k1_off39 k 3#32) S1x16.size (k1_off39_inb k 3)).toLoadRect f),
      ((Memref.whole cc1_scratch0 : Memref sig .scVector .vmem S32x1024 .f32).view.readAt (Elt F) (Rect.unit (s := S32x1024) (k1_off40 k 3#32) S1x16.size (k1_off40_inb k 3)).toLoadRect f)] x).trans ?_
  refine lsum32_loads f _ (64 * k.val + 48) (by omega) (fun r l => ?_) x
  fin_cases r
  · exact readAt_row0 _ _ f 0 (64 * k.val + 48) (by omega) (k1_off9_eq k ⟨3, by decide⟩) l
  · exact readAt_row0 _ _ f 1 (64 * k.val + 48) (by omega) (k1_off10_eq k ⟨3, by decide⟩) l
  · exact readAt_row0 _ _ f 2 (64 * k.val + 48) (by omega) (k1_off11_eq k ⟨3, by decide⟩) l
  · exact readAt_row0 _ _ f 3 (64 * k.val + 48) (by omega) (k1_off12_eq k ⟨3, by decide⟩) l
  · exact readAt_row0 _ _ f 4 (64 * k.val + 48) (by omega) (k1_off13_eq k ⟨3, by decide⟩) l
  · exact readAt_row0 _ _ f 5 (64 * k.val + 48) (by omega) (k1_off14_eq k ⟨3, by decide⟩) l
  · exact readAt_row0 _ _ f 6 (64 * k.val + 48) (by omega) (k1_off15_eq k ⟨3, by decide⟩) l
  · exact readAt_row0 _ _ f 7 (64 * k.val + 48) (by omega) (k1_off16_eq k ⟨3, by decide⟩) l
  · exact readAt_row0 _ _ f 8 (64 * k.val + 48) (by omega) (k1_off17_eq k ⟨3, by decide⟩) l
  · exact readAt_row0 _ _ f 9 (64 * k.val + 48) (by omega) (k1_off18_eq k ⟨3, by decide⟩) l
  · exact readAt_row0 _ _ f 10 (64 * k.val + 48) (by omega) (k1_off19_eq k ⟨3, by decide⟩) l
  · exact readAt_row0 _ _ f 11 (64 * k.val + 48) (by omega) (k1_off20_eq k ⟨3, by decide⟩) l
  · exact readAt_row0 _ _ f 12 (64 * k.val + 48) (by omega) (k1_off21_eq k ⟨3, by decide⟩) l
  · exact readAt_row0 _ _ f 13 (64 * k.val + 48) (by omega) (k1_off22_eq k ⟨3, by decide⟩) l
  · exact readAt_row0 _ _ f 14 (64 * k.val + 48) (by omega) (k1_off23_eq k ⟨3, by decide⟩) l
  · exact readAt_row0 _ _ f 15 (64 * k.val + 48) (by omega) (k1_off24_eq k ⟨3, by decide⟩) l
  · exact readAt_row0 _ _ f 16 (64 * k.val + 48) (by omega) (k1_off25_eq k ⟨3, by decide⟩) l
  · exact readAt_row0 _ _ f 17 (64 * k.val + 48) (by omega) (k1_off26_eq k ⟨3, by decide⟩) l
  · exact readAt_row0 _ _ f 18 (64 * k.val + 48) (by omega) (k1_off27_eq k ⟨3, by decide⟩) l
  · exact readAt_row0 _ _ f 19 (64 * k.val + 48) (by omega) (k1_off28_eq k ⟨3, by decide⟩) l
  · exact readAt_row0 _ _ f 20 (64 * k.val + 48) (by omega) (k1_off29_eq k ⟨3, by decide⟩) l
  · exact readAt_row0 _ _ f 21 (64 * k.val + 48) (by omega) (k1_off30_eq k ⟨3, by decide⟩) l
  · exact readAt_row0 _ _ f 22 (64 * k.val + 48) (by omega) (k1_off31_eq k ⟨3, by decide⟩) l
  · exact readAt_row0 _ _ f 23 (64 * k.val + 48) (by omega) (k1_off32_eq k ⟨3, by decide⟩) l
  · exact readAt_row0 _ _ f 24 (64 * k.val + 48) (by omega) (k1_off33_eq k ⟨3, by decide⟩) l
  · exact readAt_row0 _ _ f 25 (64 * k.val + 48) (by omega) (k1_off34_eq k ⟨3, by decide⟩) l
  · exact readAt_row0 _ _ f 26 (64 * k.val + 48) (by omega) (k1_off35_eq k ⟨3, by decide⟩) l
  · exact readAt_row0 _ _ f 27 (64 * k.val + 48) (by omega) (k1_off36_eq k ⟨3, by decide⟩) l
  · exact readAt_row0 _ _ f 28 (64 * k.val + 48) (by omega) (k1_off37_eq k ⟨3, by decide⟩) l
  · exact readAt_row0 _ _ f 29 (64 * k.val + 48) (by omega) (k1_off38_eq k ⟨3, by decide⟩) l
  · exact readAt_row0 _ _ f 30 (64 * k.val + 48) (by omega) (k1_off39_eq k ⟨3, by decide⟩) l
  · exact readAt_row0 _ _ f 31 (64 * k.val + 48) (by omega) (k1_off40_eq k ⟨3, by decide⟩) l

/-- Slab 1, store 0 of trip `k`: lane `x` of the stored vector is the slab's column sum at column `64 k + 0 + x`. -/
theorem pay3_u0 (f : (Memref.whole cc1_scratch1 : Memref sig .scVector .vmem S32x1024 .f32).view.ty.Contents (Elt F))
    (k : Fin k1_t3_loop.trips) (x : S16.Idx) :
    k1_pay27 (k1_pay26 (k1_pay25 (k1_pay24 (k1_pay23 ((Memref.whole cc1_scratch1 : Memref sig .scVector .vmem S32x1024 .f32).view.readAt (Elt F) (Rect.unit (s := S32x1024) (k1_off46 k 0#32) S1x16.size (k1_off46_inb k 0)).toLoadRect f) ((Memref.whole cc1_scratch1 : Memref sig .scVector .vmem S32x1024 .f32).view.readAt (Elt F) (Rect.unit (s := S32x1024) (k1_off47 k 0#32) S1x16.size (k1_off47_inb k 0)).toLoadRect f) ((Memref.whole cc1_scratch1 : Memref sig .scVector .vmem S32x1024 .f32).view.readAt (Elt F) (Rect.unit (s := S32x1024) (k1_off48 k 0#32) S1x16.size (k1_off48_inb k 0)).toLoadRect f) ((Memref.whole cc1_scratch1 : Memref sig .scVector .vmem S32x1024 .f32).view.readAt (Elt F) (Rect.unit (s := S32x1024) (k1_off49 k 0#32) S1x16.size (k1_off49_inb k 0)).toLoadRect f) ((Memref.whole cc1_scratch1 : Memref sig .scVector .vmem S32x1024 .f32).view.readAt (Elt F) (Rect.unit (s := S32x1024) (k1_off50 k 0#32) S1x16.size (k1_off50_inb k 0)).toLoadRect f) ((Memref.whole cc1_scratch1 : Memref sig .scVector .vmem S32x1024 .f32).view.readAt (Elt F) (Rect.unit (s := S32x1024) (k1_off51 k 0#32) S1x16.size (k1_off51_inb k 0)).toLoadRect f) ((Memref.whole cc1_scratch1 : Memref sig .scVector .vmem S32x1024 .f32).view.readAt (Elt F) (Rect.unit (s := S32x1024) (k1_off52 k 0#32) S1x16.size (k1_off52_inb k 0)).toLoadRect f)) ((Memref.whole cc1_scratch1 : Memref sig .scVector .vmem S32x1024 .f32).view.readAt (Elt F) (Rect.unit (s := S32x1024) (k1_off53 k 0#32) S1x16.size (k1_off53_inb k 0)).toLoadRect f) ((Memref.whole cc1_scratch1 : Memref sig .scVector .vmem S32x1024 .f32).view.readAt (Elt F) (Rect.unit (s := S32x1024) (k1_off54 k 0#32) S1x16.size (k1_off54_inb k 0)).toLoadRect f) ((Memref.whole cc1_scratch1 : Memref sig .scVector .vmem S32x1024 .f32).view.readAt (Elt F) (Rect.unit (s := S32x1024) (k1_off55 k 0#32) S1x16.size (k1_off55_inb k 0)).toLoadRect f) ((Memref.whole cc1_scratch1 : Memref sig .scVector .vmem S32x1024 .f32).view.readAt (Elt F) (Rect.unit (s := S32x1024) (k1_off56 k 0#32) S1x16.size (k1_off56_inb k 0)).toLoadRect f) ((Memref.whole cc1_scratch1 : Memref sig .scVector .vmem S32x1024 .f32).view.readAt (Elt F) (Rect.unit (s := S32x1024) (k1_off57 k 0#32) S1x16.size (k1_off57_inb k 0)).toLoadRect f) ((Memref.whole cc1_scratch1 : Memref sig .scVector .vmem S32x1024 .f32).view.readAt (Elt F) (Rect.unit (s := S32x1024) (k1_off58 k 0#32) S1x16.size (k1_off58_inb k 0)).toLoadRect f) ((Memref.whole cc1_scratch1 : Memref sig .scVector .vmem S32x1024 .f32).view.readAt (Elt F) (Rect.unit (s := S32x1024) (k1_off59 k 0#32) S1x16.size (k1_off59_inb k 0)).toLoadRect f)) ((Memref.whole cc1_scratch1 : Memref sig .scVector .vmem S32x1024 .f32).view.readAt (Elt F) (Rect.unit (s := S32x1024) (k1_off60 k 0#32) S1x16.size (k1_off60_inb k 0)).toLoadRect f) ((Memref.whole cc1_scratch1 : Memref sig .scVector .vmem S32x1024 .f32).view.readAt (Elt F) (Rect.unit (s := S32x1024) (k1_off61 k 0#32) S1x16.size (k1_off61_inb k 0)).toLoadRect f) ((Memref.whole cc1_scratch1 : Memref sig .scVector .vmem S32x1024 .f32).view.readAt (Elt F) (Rect.unit (s := S32x1024) (k1_off62 k 0#32) S1x16.size (k1_off62_inb k 0)).toLoadRect f) ((Memref.whole cc1_scratch1 : Memref sig .scVector .vmem S32x1024 .f32).view.readAt (Elt F) (Rect.unit (s := S32x1024) (k1_off63 k 0#32) S1x16.size (k1_off63_inb k 0)).toLoadRect f) ((Memref.whole cc1_scratch1 : Memref sig .scVector .vmem S32x1024 .f32).view.readAt (Elt F) (Rect.unit (s := S32x1024) (k1_off64 k 0#32) S1x16.size (k1_off64_inb k 0)).toLoadRect f) ((Memref.whole cc1_scratch1 : Memref sig .scVector .vmem S32x1024 .f32).view.readAt (Elt F) (Rect.unit (s := S32x1024) (k1_off65 k 0#32) S1x16.size (k1_off65_inb k 0)).toLoadRect f) ((Memref.whole cc1_scratch1 : Memref sig .scVector .vmem S32x1024 .f32).view.readAt (Elt F) (Rect.unit (s := S32x1024) (k1_off66 k 0#32) S1x16.size (k1_off66_inb k 0)).toLoadRect f) ((Memref.whole cc1_scratch1 : Memref sig .scVector .vmem S32x1024 .f32).view.readAt (Elt F) (Rect.unit (s := S32x1024) (k1_off67 k 0#32) S1x16.size (k1_off67_inb k 0)).toLoadRect f)) ((Memref.whole cc1_scratch1 : Memref sig .scVector .vmem S32x1024 .f32).view.readAt (Elt F) (Rect.unit (s := S32x1024) (k1_off68 k 0#32) S1x16.size (k1_off68_inb k 0)).toLoadRect f) ((Memref.whole cc1_scratch1 : Memref sig .scVector .vmem S32x1024 .f32).view.readAt (Elt F) (Rect.unit (s := S32x1024) (k1_off69 k 0#32) S1x16.size (k1_off69_inb k 0)).toLoadRect f) ((Memref.whole cc1_scratch1 : Memref sig .scVector .vmem S32x1024 .f32).view.readAt (Elt F) (Rect.unit (s := S32x1024) (k1_off70 k 0#32) S1x16.size (k1_off70_inb k 0)).toLoadRect f) ((Memref.whole cc1_scratch1 : Memref sig .scVector .vmem S32x1024 .f32).view.readAt (Elt F) (Rect.unit (s := S32x1024) (k1_off71 k 0#32) S1x16.size (k1_off71_inb k 0)).toLoadRect f) ((Memref.whole cc1_scratch1 : Memref sig .scVector .vmem S32x1024 .f32).view.readAt (Elt F) (Rect.unit (s := S32x1024) (k1_off72 k 0#32) S1x16.size (k1_off72_inb k 0)).toLoadRect f) ((Memref.whole cc1_scratch1 : Memref sig .scVector .vmem S32x1024 .f32).view.readAt (Elt F) (Rect.unit (s := S32x1024) (k1_off73 k 0#32) S1x16.size (k1_off73_inb k 0)).toLoadRect f) ((Memref.whole cc1_scratch1 : Memref sig .scVector .vmem S32x1024 .f32).view.readAt (Elt F) (Rect.unit (s := S32x1024) (k1_off74 k 0#32) S1x16.size (k1_off74_inb k 0)).toLoadRect f)) ((Memref.whole cc1_scratch1 : Memref sig .scVector .vmem S32x1024 .f32).view.readAt (Elt F) (Rect.unit (s := S32x1024) (k1_off75 k 0#32) S1x16.size (k1_off75_inb k 0)).toLoadRect f) ((Memref.whole cc1_scratch1 : Memref sig .scVector .vmem S32x1024 .f32).view.readAt (Elt F) (Rect.unit (s := S32x1024) (k1_off76 k 0#32) S1x16.size (k1_off76_inb k 0)).toLoadRect f) ((Memref.whole cc1_scratch1 : Memref sig .scVector .vmem S32x1024 .f32).view.readAt (Elt F) (Rect.unit (s := S32x1024) (k1_off77 k 0#32) S1x16.size (k1_off77_inb k 0)).toLoadRect f) x
      = slabSum f (64 * k.val + (x 0).val) := by
  have hk : k.val < 16 := Nat.lt_of_lt_of_le k.isLt k1_t3_abs.2.1
  refine (chain3_u0 ![((Memref.whole cc1_scratch1 : Memref sig .scVector .vmem S32x1024 .f32).view.readAt (Elt F) (Rect.unit (s := S32x1024) (k1_off46 k 0#32) S1x16.size (k1_off46_inb k 0)).toLoadRect f),
      ((Memref.whole cc1_scratch1 : Memref sig .scVector .vmem S32x1024 .f32).view.readAt (Elt F) (Rect.unit (s := S32x1024) (k1_off47 k 0#32) S1x16.size (k1_off47_inb k 0)).toLoadRect f),
      ((Memref.whole cc1_scratch1 : Memref sig .scVector .vmem S32x1024 .f32).view.readAt (Elt F) (Rect.unit (s := S32x1024) (k1_off48 k 0#32) S1x16.size (k1_off48_inb k 0)).toLoadRect f),
      ((Memref.whole cc1_scratch1 : Memref sig .scVector .vmem S32x1024 .f32).view.readAt (Elt F) (Rect.unit (s := S32x1024) (k1_off49 k 0#32) S1x16.size (k1_off49_inb k 0)).toLoadRect f),
      ((Memref.whole cc1_scratch1 : Memref sig .scVector .vmem S32x1024 .f32).view.readAt (Elt F) (Rect.unit (s := S32x1024) (k1_off50 k 0#32) S1x16.size (k1_off50_inb k 0)).toLoadRect f),
      ((Memref.whole cc1_scratch1 : Memref sig .scVector .vmem S32x1024 .f32).view.readAt (Elt F) (Rect.unit (s := S32x1024) (k1_off51 k 0#32) S1x16.size (k1_off51_inb k 0)).toLoadRect f),
      ((Memref.whole cc1_scratch1 : Memref sig .scVector .vmem S32x1024 .f32).view.readAt (Elt F) (Rect.unit (s := S32x1024) (k1_off52 k 0#32) S1x16.size (k1_off52_inb k 0)).toLoadRect f),
      ((Memref.whole cc1_scratch1 : Memref sig .scVector .vmem S32x1024 .f32).view.readAt (Elt F) (Rect.unit (s := S32x1024) (k1_off53 k 0#32) S1x16.size (k1_off53_inb k 0)).toLoadRect f),
      ((Memref.whole cc1_scratch1 : Memref sig .scVector .vmem S32x1024 .f32).view.readAt (Elt F) (Rect.unit (s := S32x1024) (k1_off54 k 0#32) S1x16.size (k1_off54_inb k 0)).toLoadRect f),
      ((Memref.whole cc1_scratch1 : Memref sig .scVector .vmem S32x1024 .f32).view.readAt (Elt F) (Rect.unit (s := S32x1024) (k1_off55 k 0#32) S1x16.size (k1_off55_inb k 0)).toLoadRect f),
      ((Memref.whole cc1_scratch1 : Memref sig .scVector .vmem S32x1024 .f32).view.readAt (Elt F) (Rect.unit (s := S32x1024) (k1_off56 k 0#32) S1x16.size (k1_off56_inb k 0)).toLoadRect f),
      ((Memref.whole cc1_scratch1 : Memref sig .scVector .vmem S32x1024 .f32).view.readAt (Elt F) (Rect.unit (s := S32x1024) (k1_off57 k 0#32) S1x16.size (k1_off57_inb k 0)).toLoadRect f),
      ((Memref.whole cc1_scratch1 : Memref sig .scVector .vmem S32x1024 .f32).view.readAt (Elt F) (Rect.unit (s := S32x1024) (k1_off58 k 0#32) S1x16.size (k1_off58_inb k 0)).toLoadRect f),
      ((Memref.whole cc1_scratch1 : Memref sig .scVector .vmem S32x1024 .f32).view.readAt (Elt F) (Rect.unit (s := S32x1024) (k1_off59 k 0#32) S1x16.size (k1_off59_inb k 0)).toLoadRect f),
      ((Memref.whole cc1_scratch1 : Memref sig .scVector .vmem S32x1024 .f32).view.readAt (Elt F) (Rect.unit (s := S32x1024) (k1_off60 k 0#32) S1x16.size (k1_off60_inb k 0)).toLoadRect f),
      ((Memref.whole cc1_scratch1 : Memref sig .scVector .vmem S32x1024 .f32).view.readAt (Elt F) (Rect.unit (s := S32x1024) (k1_off61 k 0#32) S1x16.size (k1_off61_inb k 0)).toLoadRect f),
      ((Memref.whole cc1_scratch1 : Memref sig .scVector .vmem S32x1024 .f32).view.readAt (Elt F) (Rect.unit (s := S32x1024) (k1_off62 k 0#32) S1x16.size (k1_off62_inb k 0)).toLoadRect f),
      ((Memref.whole cc1_scratch1 : Memref sig .scVector .vmem S32x1024 .f32).view.readAt (Elt F) (Rect.unit (s := S32x1024) (k1_off63 k 0#32) S1x16.size (k1_off63_inb k 0)).toLoadRect f),
      ((Memref.whole cc1_scratch1 : Memref sig .scVector .vmem S32x1024 .f32).view.readAt (Elt F) (Rect.unit (s := S32x1024) (k1_off64 k 0#32) S1x16.size (k1_off64_inb k 0)).toLoadRect f),
      ((Memref.whole cc1_scratch1 : Memref sig .scVector .vmem S32x1024 .f32).view.readAt (Elt F) (Rect.unit (s := S32x1024) (k1_off65 k 0#32) S1x16.size (k1_off65_inb k 0)).toLoadRect f),
      ((Memref.whole cc1_scratch1 : Memref sig .scVector .vmem S32x1024 .f32).view.readAt (Elt F) (Rect.unit (s := S32x1024) (k1_off66 k 0#32) S1x16.size (k1_off66_inb k 0)).toLoadRect f),
      ((Memref.whole cc1_scratch1 : Memref sig .scVector .vmem S32x1024 .f32).view.readAt (Elt F) (Rect.unit (s := S32x1024) (k1_off67 k 0#32) S1x16.size (k1_off67_inb k 0)).toLoadRect f),
      ((Memref.whole cc1_scratch1 : Memref sig .scVector .vmem S32x1024 .f32).view.readAt (Elt F) (Rect.unit (s := S32x1024) (k1_off68 k 0#32) S1x16.size (k1_off68_inb k 0)).toLoadRect f),
      ((Memref.whole cc1_scratch1 : Memref sig .scVector .vmem S32x1024 .f32).view.readAt (Elt F) (Rect.unit (s := S32x1024) (k1_off69 k 0#32) S1x16.size (k1_off69_inb k 0)).toLoadRect f),
      ((Memref.whole cc1_scratch1 : Memref sig .scVector .vmem S32x1024 .f32).view.readAt (Elt F) (Rect.unit (s := S32x1024) (k1_off70 k 0#32) S1x16.size (k1_off70_inb k 0)).toLoadRect f),
      ((Memref.whole cc1_scratch1 : Memref sig .scVector .vmem S32x1024 .f32).view.readAt (Elt F) (Rect.unit (s := S32x1024) (k1_off71 k 0#32) S1x16.size (k1_off71_inb k 0)).toLoadRect f),
      ((Memref.whole cc1_scratch1 : Memref sig .scVector .vmem S32x1024 .f32).view.readAt (Elt F) (Rect.unit (s := S32x1024) (k1_off72 k 0#32) S1x16.size (k1_off72_inb k 0)).toLoadRect f),
      ((Memref.whole cc1_scratch1 : Memref sig .scVector .vmem S32x1024 .f32).view.readAt (Elt F) (Rect.unit (s := S32x1024) (k1_off73 k 0#32) S1x16.size (k1_off73_inb k 0)).toLoadRect f),
      ((Memref.whole cc1_scratch1 : Memref sig .scVector .vmem S32x1024 .f32).view.readAt (Elt F) (Rect.unit (s := S32x1024) (k1_off74 k 0#32) S1x16.size (k1_off74_inb k 0)).toLoadRect f),
      ((Memref.whole cc1_scratch1 : Memref sig .scVector .vmem S32x1024 .f32).view.readAt (Elt F) (Rect.unit (s := S32x1024) (k1_off75 k 0#32) S1x16.size (k1_off75_inb k 0)).toLoadRect f),
      ((Memref.whole cc1_scratch1 : Memref sig .scVector .vmem S32x1024 .f32).view.readAt (Elt F) (Rect.unit (s := S32x1024) (k1_off76 k 0#32) S1x16.size (k1_off76_inb k 0)).toLoadRect f),
      ((Memref.whole cc1_scratch1 : Memref sig .scVector .vmem S32x1024 .f32).view.readAt (Elt F) (Rect.unit (s := S32x1024) (k1_off77 k 0#32) S1x16.size (k1_off77_inb k 0)).toLoadRect f)] x).trans ?_
  refine lsum32_loads f _ (64 * k.val) (by omega) (fun r l => ?_) x
  fin_cases r
  · exact readAt_row1 _ _ f 0 (64 * k.val) (by omega) (k1_off46_eq k ⟨0, by decide⟩) l
  · exact readAt_row1 _ _ f 1 (64 * k.val) (by omega) (k1_off47_eq k ⟨0, by decide⟩) l
  · exact readAt_row1 _ _ f 2 (64 * k.val) (by omega) (k1_off48_eq k ⟨0, by decide⟩) l
  · exact readAt_row1 _ _ f 3 (64 * k.val) (by omega) (k1_off49_eq k ⟨0, by decide⟩) l
  · exact readAt_row1 _ _ f 4 (64 * k.val) (by omega) (k1_off50_eq k ⟨0, by decide⟩) l
  · exact readAt_row1 _ _ f 5 (64 * k.val) (by omega) (k1_off51_eq k ⟨0, by decide⟩) l
  · exact readAt_row1 _ _ f 6 (64 * k.val) (by omega) (k1_off52_eq k ⟨0, by decide⟩) l
  · exact readAt_row1 _ _ f 7 (64 * k.val) (by omega) (k1_off53_eq k ⟨0, by decide⟩) l
  · exact readAt_row1 _ _ f 8 (64 * k.val) (by omega) (k1_off54_eq k ⟨0, by decide⟩) l
  · exact readAt_row1 _ _ f 9 (64 * k.val) (by omega) (k1_off55_eq k ⟨0, by decide⟩) l
  · exact readAt_row1 _ _ f 10 (64 * k.val) (by omega) (k1_off56_eq k ⟨0, by decide⟩) l
  · exact readAt_row1 _ _ f 11 (64 * k.val) (by omega) (k1_off57_eq k ⟨0, by decide⟩) l
  · exact readAt_row1 _ _ f 12 (64 * k.val) (by omega) (k1_off58_eq k ⟨0, by decide⟩) l
  · exact readAt_row1 _ _ f 13 (64 * k.val) (by omega) (k1_off59_eq k ⟨0, by decide⟩) l
  · exact readAt_row1 _ _ f 14 (64 * k.val) (by omega) (k1_off60_eq k ⟨0, by decide⟩) l
  · exact readAt_row1 _ _ f 15 (64 * k.val) (by omega) (k1_off61_eq k ⟨0, by decide⟩) l
  · exact readAt_row1 _ _ f 16 (64 * k.val) (by omega) (k1_off62_eq k ⟨0, by decide⟩) l
  · exact readAt_row1 _ _ f 17 (64 * k.val) (by omega) (k1_off63_eq k ⟨0, by decide⟩) l
  · exact readAt_row1 _ _ f 18 (64 * k.val) (by omega) (k1_off64_eq k ⟨0, by decide⟩) l
  · exact readAt_row1 _ _ f 19 (64 * k.val) (by omega) (k1_off65_eq k ⟨0, by decide⟩) l
  · exact readAt_row1 _ _ f 20 (64 * k.val) (by omega) (k1_off66_eq k ⟨0, by decide⟩) l
  · exact readAt_row1 _ _ f 21 (64 * k.val) (by omega) (k1_off67_eq k ⟨0, by decide⟩) l
  · exact readAt_row1 _ _ f 22 (64 * k.val) (by omega) (k1_off68_eq k ⟨0, by decide⟩) l
  · exact readAt_row1 _ _ f 23 (64 * k.val) (by omega) (k1_off69_eq k ⟨0, by decide⟩) l
  · exact readAt_row1 _ _ f 24 (64 * k.val) (by omega) (k1_off70_eq k ⟨0, by decide⟩) l
  · exact readAt_row1 _ _ f 25 (64 * k.val) (by omega) (k1_off71_eq k ⟨0, by decide⟩) l
  · exact readAt_row1 _ _ f 26 (64 * k.val) (by omega) (k1_off72_eq k ⟨0, by decide⟩) l
  · exact readAt_row1 _ _ f 27 (64 * k.val) (by omega) (k1_off73_eq k ⟨0, by decide⟩) l
  · exact readAt_row1 _ _ f 28 (64 * k.val) (by omega) (k1_off74_eq k ⟨0, by decide⟩) l
  · exact readAt_row1 _ _ f 29 (64 * k.val) (by omega) (k1_off75_eq k ⟨0, by decide⟩) l
  · exact readAt_row1 _ _ f 30 (64 * k.val) (by omega) (k1_off76_eq k ⟨0, by decide⟩) l
  · exact readAt_row1 _ _ f 31 (64 * k.val) (by omega) (k1_off77_eq k ⟨0, by decide⟩) l

/-- Slab 1, store 1 of trip `k`: lane `x` of the stored vector is the slab's column sum at column `64 k + 16 + x`. -/
theorem pay3_u1 (f : (Memref.whole cc1_scratch1 : Memref sig .scVector .vmem S32x1024 .f32).view.ty.Contents (Elt F))
    (k : Fin k1_t3_loop.trips) (x : S16.Idx) :
    k1_pay34 (k1_pay32 (k1_pay31 (k1_pay29 (k1_pay28 ((Memref.whole cc1_scratch1 : Memref sig .scVector .vmem S32x1024 .f32).view.readAt (Elt F) (Rect.unit (s := S32x1024) (k1_off46 k 1#32) S1x16.size (k1_off46_inb k 1)).toLoadRect f) ((Memref.whole cc1_scratch1 : Memref sig .scVector .vmem S32x1024 .f32).view.readAt (Elt F) (Rect.unit (s := S32x1024) (k1_off47 k 1#32) S1x16.size (k1_off47_inb k 1)).toLoadRect f) ((Memref.whole cc1_scratch1 : Memref sig .scVector .vmem S32x1024 .f32).view.readAt (Elt F) (Rect.unit (s := S32x1024) (k1_off48 k 1#32) S1x16.size (k1_off48_inb k 1)).toLoadRect f)) ((Memref.whole cc1_scratch1 : Memref sig .scVector .vmem S32x1024 .f32).view.readAt (Elt F) (Rect.unit (s := S32x1024) (k1_off49 k 1#32) S1x16.size (k1_off49_inb k 1)).toLoadRect f) ((Memref.whole cc1_scratch1 : Memref sig .scVector .vmem S32x1024 .f32).view.readAt (Elt F) (Rect.unit (s := S32x1024) (k1_off50 k 1#32) S1x16.size (k1_off50_inb k 1)).toLoadRect f) ((Memref.whole cc1_scratch1 : Memref sig .scVector .vmem S32x1024 .f32).view.readAt (Elt F) (Rect.unit (s := S32x1024) (k1_off51 k 1#32) S1x16.size (k1_off51_inb k 1)).toLoadRect f) ((Memref.whole cc1_scratch1 : Memref sig .scVector .vmem S32x1024 .f32).view.readAt (Elt F) (Rect.unit (s := S32x1024) (k1_off52 k 1#32) S1x16.size (k1_off52_inb k 1)).toLoadRect f) ((Memref.whole cc1_scratch1 : Memref sig .scVector .vmem S32x1024 .f32).view.readAt (Elt F) (Rect.unit (s := S32x1024) (k1_off53 k 1#32) S1x16.size (k1_off53_inb k 1)).toLoadRect f) ((Memref.whole cc1_scratch1 : Memref sig .scVector .vmem S32x1024 .f32).view.readAt (Elt F) (Rect.unit (s := S32x1024) (k1_off54 k 1#32) S1x16.size (k1_off54_inb k 1)).toLoadRect f) ((Memref.whole cc1_scratch1 : Memref sig .scVector .vmem S32x1024 .f32).view.readAt (Elt F) (Rect.unit (s := S32x1024) (k1_off55 k 1#32) S1x16.size (k1_off55_inb k 1)).toLoadRect f)) (k1_pay30 ((Memref.whole cc1_scratch1 : Memref sig .scVector .vmem S32x1024 .f32).view.readAt (Elt F) (Rect.unit (s := S32x1024) (k1_off56 k 1#32) S1x16.size (k1_off56_inb k 1)).toLoadRect f)) ((Memref.whole cc1_scratch1 : Memref sig .scVector .vmem S32x1024 .f32).view.readAt (Elt F) (Rect.unit (s := S32x1024) (k1_off57 k 1#32) S1x16.size (k1_off57_inb k 1)).toLoadRect f) ((Memref.whole cc1_scratch1 : Memref sig .scVector .vmem S32x1024 .f32).view.readAt (Elt F) (Rect.unit (s := S32x1024) (k1_off58 k 1#32) S1x16.size (k1_off58_inb k 1)).toLoadRect f) ((Memref.whole cc1_scratch1 : Memref sig .scVector .vmem S32x1024 .f32).view.readAt (Elt F) (Rect.unit (s := S32x1024) (k1_off59 k 1#32) S1x16.size (k1_off59_inb k 1)).toLoadRect f) ((Memref.whole cc1_scratch1 : Memref sig .scVector .vmem S32x1024 .f32).view.readAt (Elt F) (Rect.unit (s := S32x1024) (k1_off60 k 1#32) S1x16.size (k1_off60_inb k 1)).toLoadRect f) ((Memref.whole cc1_scratch1 : Memref sig .scVector .vmem S32x1024 .f32).view.readAt (Elt F) (Rect.unit (s := S32x1024) (k1_off61 k 1#32) S1x16.size (k1_off61_inb k 1)).toLoadRect f) ((Memref.whole cc1_scratch1 : Memref sig .scVector .vmem S32x1024 .f32).view.readAt (Elt F) (Rect.unit (s := S32x1024) (k1_off62 k 1#32) S1x16.size (k1_off62_inb k 1)).toLoadRect f) ((Memref.whole cc1_scratch1 : Memref sig .scVector .vmem S32x1024 .f32).view.readAt (Elt F) (Rect.unit (s := S32x1024) (k1_off63 k 1#32) S1x16.size (k1_off63_inb k 1)).toLoadRect f)) ((Memref.whole cc1_scratch1 : Memref sig .scVector .vmem S32x1024 .f32).view.readAt (Elt F) (Rect.unit (s := S32x1024) (k1_off64 k 1#32) S1x16.size (k1_off64_inb k 1)).toLoadRect f) ((Memref.whole cc1_scratch1 : Memref sig .scVector .vmem S32x1024 .f32).view.readAt (Elt F) (Rect.unit (s := S32x1024) (k1_off65 k 1#32) S1x16.size (k1_off65_inb k 1)).toLoadRect f) ((Memref.whole cc1_scratch1 : Memref sig .scVector .vmem S32x1024 .f32).view.readAt (Elt F) (Rect.unit (s := S32x1024) (k1_off66 k 1#32) S1x16.size (k1_off66_inb k 1)).toLoadRect f) ((Memref.whole cc1_scratch1 : Memref sig .scVector .vmem S32x1024 .f32).view.readAt (Elt F) (Rect.unit (s := S32x1024) (k1_off67 k 1#32) S1x16.size (k1_off67_inb k 1)).toLoadRect f) ((Memref.whole cc1_scratch1 : Memref sig .scVector .vmem S32x1024 .f32).view.readAt (Elt F) (Rect.unit (s := S32x1024) (k1_off68 k 1#32) S1x16.size (k1_off68_inb k 1)).toLoadRect f) ((Memref.whole cc1_scratch1 : Memref sig .scVector .vmem S32x1024 .f32).view.readAt (Elt F) (Rect.unit (s := S32x1024) (k1_off69 k 1#32) S1x16.size (k1_off69_inb k 1)).toLoadRect f) ((Memref.whole cc1_scratch1 : Memref sig .scVector .vmem S32x1024 .f32).view.readAt (Elt F) (Rect.unit (s := S32x1024) (k1_off70 k 1#32) S1x16.size (k1_off70_inb k 1)).toLoadRect f)) (k1_pay33 ((Memref.whole cc1_scratch1 : Memref sig .scVector .vmem S32x1024 .f32).view.readAt (Elt F) (Rect.unit (s := S32x1024) (k1_off71 k 1#32) S1x16.size (k1_off71_inb k 1)).toLoadRect f)) ((Memref.whole cc1_scratch1 : Memref sig .scVector .vmem S32x1024 .f32).view.readAt (Elt F) (Rect.unit (s := S32x1024) (k1_off72 k 1#32) S1x16.size (k1_off72_inb k 1)).toLoadRect f) ((Memref.whole cc1_scratch1 : Memref sig .scVector .vmem S32x1024 .f32).view.readAt (Elt F) (Rect.unit (s := S32x1024) (k1_off73 k 1#32) S1x16.size (k1_off73_inb k 1)).toLoadRect f) ((Memref.whole cc1_scratch1 : Memref sig .scVector .vmem S32x1024 .f32).view.readAt (Elt F) (Rect.unit (s := S32x1024) (k1_off74 k 1#32) S1x16.size (k1_off74_inb k 1)).toLoadRect f) ((Memref.whole cc1_scratch1 : Memref sig .scVector .vmem S32x1024 .f32).view.readAt (Elt F) (Rect.unit (s := S32x1024) (k1_off75 k 1#32) S1x16.size (k1_off75_inb k 1)).toLoadRect f) ((Memref.whole cc1_scratch1 : Memref sig .scVector .vmem S32x1024 .f32).view.readAt (Elt F) (Rect.unit (s := S32x1024) (k1_off76 k 1#32) S1x16.size (k1_off76_inb k 1)).toLoadRect f) ((Memref.whole cc1_scratch1 : Memref sig .scVector .vmem S32x1024 .f32).view.readAt (Elt F) (Rect.unit (s := S32x1024) (k1_off77 k 1#32) S1x16.size (k1_off77_inb k 1)).toLoadRect f) x
      = slabSum f (64 * k.val + 16 + (x 0).val) := by
  have hk : k.val < 16 := Nat.lt_of_lt_of_le k.isLt k1_t3_abs.2.1
  refine (chain3_u1 ![((Memref.whole cc1_scratch1 : Memref sig .scVector .vmem S32x1024 .f32).view.readAt (Elt F) (Rect.unit (s := S32x1024) (k1_off46 k 1#32) S1x16.size (k1_off46_inb k 1)).toLoadRect f),
      ((Memref.whole cc1_scratch1 : Memref sig .scVector .vmem S32x1024 .f32).view.readAt (Elt F) (Rect.unit (s := S32x1024) (k1_off47 k 1#32) S1x16.size (k1_off47_inb k 1)).toLoadRect f),
      ((Memref.whole cc1_scratch1 : Memref sig .scVector .vmem S32x1024 .f32).view.readAt (Elt F) (Rect.unit (s := S32x1024) (k1_off48 k 1#32) S1x16.size (k1_off48_inb k 1)).toLoadRect f),
      ((Memref.whole cc1_scratch1 : Memref sig .scVector .vmem S32x1024 .f32).view.readAt (Elt F) (Rect.unit (s := S32x1024) (k1_off49 k 1#32) S1x16.size (k1_off49_inb k 1)).toLoadRect f),
      ((Memref.whole cc1_scratch1 : Memref sig .scVector .vmem S32x1024 .f32).view.readAt (Elt F) (Rect.unit (s := S32x1024) (k1_off50 k 1#32) S1x16.size (k1_off50_inb k 1)).toLoadRect f),
      ((Memref.whole cc1_scratch1 : Memref sig .scVector .vmem S32x1024 .f32).view.readAt (Elt F) (Rect.unit (s := S32x1024) (k1_off51 k 1#32) S1x16.size (k1_off51_inb k 1)).toLoadRect f),
      ((Memref.whole cc1_scratch1 : Memref sig .scVector .vmem S32x1024 .f32).view.readAt (Elt F) (Rect.unit (s := S32x1024) (k1_off52 k 1#32) S1x16.size (k1_off52_inb k 1)).toLoadRect f),
      ((Memref.whole cc1_scratch1 : Memref sig .scVector .vmem S32x1024 .f32).view.readAt (Elt F) (Rect.unit (s := S32x1024) (k1_off53 k 1#32) S1x16.size (k1_off53_inb k 1)).toLoadRect f),
      ((Memref.whole cc1_scratch1 : Memref sig .scVector .vmem S32x1024 .f32).view.readAt (Elt F) (Rect.unit (s := S32x1024) (k1_off54 k 1#32) S1x16.size (k1_off54_inb k 1)).toLoadRect f),
      ((Memref.whole cc1_scratch1 : Memref sig .scVector .vmem S32x1024 .f32).view.readAt (Elt F) (Rect.unit (s := S32x1024) (k1_off55 k 1#32) S1x16.size (k1_off55_inb k 1)).toLoadRect f),
      ((Memref.whole cc1_scratch1 : Memref sig .scVector .vmem S32x1024 .f32).view.readAt (Elt F) (Rect.unit (s := S32x1024) (k1_off56 k 1#32) S1x16.size (k1_off56_inb k 1)).toLoadRect f),
      ((Memref.whole cc1_scratch1 : Memref sig .scVector .vmem S32x1024 .f32).view.readAt (Elt F) (Rect.unit (s := S32x1024) (k1_off57 k 1#32) S1x16.size (k1_off57_inb k 1)).toLoadRect f),
      ((Memref.whole cc1_scratch1 : Memref sig .scVector .vmem S32x1024 .f32).view.readAt (Elt F) (Rect.unit (s := S32x1024) (k1_off58 k 1#32) S1x16.size (k1_off58_inb k 1)).toLoadRect f),
      ((Memref.whole cc1_scratch1 : Memref sig .scVector .vmem S32x1024 .f32).view.readAt (Elt F) (Rect.unit (s := S32x1024) (k1_off59 k 1#32) S1x16.size (k1_off59_inb k 1)).toLoadRect f),
      ((Memref.whole cc1_scratch1 : Memref sig .scVector .vmem S32x1024 .f32).view.readAt (Elt F) (Rect.unit (s := S32x1024) (k1_off60 k 1#32) S1x16.size (k1_off60_inb k 1)).toLoadRect f),
      ((Memref.whole cc1_scratch1 : Memref sig .scVector .vmem S32x1024 .f32).view.readAt (Elt F) (Rect.unit (s := S32x1024) (k1_off61 k 1#32) S1x16.size (k1_off61_inb k 1)).toLoadRect f),
      ((Memref.whole cc1_scratch1 : Memref sig .scVector .vmem S32x1024 .f32).view.readAt (Elt F) (Rect.unit (s := S32x1024) (k1_off62 k 1#32) S1x16.size (k1_off62_inb k 1)).toLoadRect f),
      ((Memref.whole cc1_scratch1 : Memref sig .scVector .vmem S32x1024 .f32).view.readAt (Elt F) (Rect.unit (s := S32x1024) (k1_off63 k 1#32) S1x16.size (k1_off63_inb k 1)).toLoadRect f),
      ((Memref.whole cc1_scratch1 : Memref sig .scVector .vmem S32x1024 .f32).view.readAt (Elt F) (Rect.unit (s := S32x1024) (k1_off64 k 1#32) S1x16.size (k1_off64_inb k 1)).toLoadRect f),
      ((Memref.whole cc1_scratch1 : Memref sig .scVector .vmem S32x1024 .f32).view.readAt (Elt F) (Rect.unit (s := S32x1024) (k1_off65 k 1#32) S1x16.size (k1_off65_inb k 1)).toLoadRect f),
      ((Memref.whole cc1_scratch1 : Memref sig .scVector .vmem S32x1024 .f32).view.readAt (Elt F) (Rect.unit (s := S32x1024) (k1_off66 k 1#32) S1x16.size (k1_off66_inb k 1)).toLoadRect f),
      ((Memref.whole cc1_scratch1 : Memref sig .scVector .vmem S32x1024 .f32).view.readAt (Elt F) (Rect.unit (s := S32x1024) (k1_off67 k 1#32) S1x16.size (k1_off67_inb k 1)).toLoadRect f),
      ((Memref.whole cc1_scratch1 : Memref sig .scVector .vmem S32x1024 .f32).view.readAt (Elt F) (Rect.unit (s := S32x1024) (k1_off68 k 1#32) S1x16.size (k1_off68_inb k 1)).toLoadRect f),
      ((Memref.whole cc1_scratch1 : Memref sig .scVector .vmem S32x1024 .f32).view.readAt (Elt F) (Rect.unit (s := S32x1024) (k1_off69 k 1#32) S1x16.size (k1_off69_inb k 1)).toLoadRect f),
      ((Memref.whole cc1_scratch1 : Memref sig .scVector .vmem S32x1024 .f32).view.readAt (Elt F) (Rect.unit (s := S32x1024) (k1_off70 k 1#32) S1x16.size (k1_off70_inb k 1)).toLoadRect f),
      ((Memref.whole cc1_scratch1 : Memref sig .scVector .vmem S32x1024 .f32).view.readAt (Elt F) (Rect.unit (s := S32x1024) (k1_off71 k 1#32) S1x16.size (k1_off71_inb k 1)).toLoadRect f),
      ((Memref.whole cc1_scratch1 : Memref sig .scVector .vmem S32x1024 .f32).view.readAt (Elt F) (Rect.unit (s := S32x1024) (k1_off72 k 1#32) S1x16.size (k1_off72_inb k 1)).toLoadRect f),
      ((Memref.whole cc1_scratch1 : Memref sig .scVector .vmem S32x1024 .f32).view.readAt (Elt F) (Rect.unit (s := S32x1024) (k1_off73 k 1#32) S1x16.size (k1_off73_inb k 1)).toLoadRect f),
      ((Memref.whole cc1_scratch1 : Memref sig .scVector .vmem S32x1024 .f32).view.readAt (Elt F) (Rect.unit (s := S32x1024) (k1_off74 k 1#32) S1x16.size (k1_off74_inb k 1)).toLoadRect f),
      ((Memref.whole cc1_scratch1 : Memref sig .scVector .vmem S32x1024 .f32).view.readAt (Elt F) (Rect.unit (s := S32x1024) (k1_off75 k 1#32) S1x16.size (k1_off75_inb k 1)).toLoadRect f),
      ((Memref.whole cc1_scratch1 : Memref sig .scVector .vmem S32x1024 .f32).view.readAt (Elt F) (Rect.unit (s := S32x1024) (k1_off76 k 1#32) S1x16.size (k1_off76_inb k 1)).toLoadRect f),
      ((Memref.whole cc1_scratch1 : Memref sig .scVector .vmem S32x1024 .f32).view.readAt (Elt F) (Rect.unit (s := S32x1024) (k1_off77 k 1#32) S1x16.size (k1_off77_inb k 1)).toLoadRect f)] x).trans ?_
  refine lsum32_loads f _ (64 * k.val + 16) (by omega) (fun r l => ?_) x
  fin_cases r
  · exact readAt_row1 _ _ f 0 (64 * k.val + 16) (by omega) (k1_off46_eq k ⟨1, by decide⟩) l
  · exact readAt_row1 _ _ f 1 (64 * k.val + 16) (by omega) (k1_off47_eq k ⟨1, by decide⟩) l
  · exact readAt_row1 _ _ f 2 (64 * k.val + 16) (by omega) (k1_off48_eq k ⟨1, by decide⟩) l
  · exact readAt_row1 _ _ f 3 (64 * k.val + 16) (by omega) (k1_off49_eq k ⟨1, by decide⟩) l
  · exact readAt_row1 _ _ f 4 (64 * k.val + 16) (by omega) (k1_off50_eq k ⟨1, by decide⟩) l
  · exact readAt_row1 _ _ f 5 (64 * k.val + 16) (by omega) (k1_off51_eq k ⟨1, by decide⟩) l
  · exact readAt_row1 _ _ f 6 (64 * k.val + 16) (by omega) (k1_off52_eq k ⟨1, by decide⟩) l
  · exact readAt_row1 _ _ f 7 (64 * k.val + 16) (by omega) (k1_off53_eq k ⟨1, by decide⟩) l
  · exact readAt_row1 _ _ f 8 (64 * k.val + 16) (by omega) (k1_off54_eq k ⟨1, by decide⟩) l
  · exact readAt_row1 _ _ f 9 (64 * k.val + 16) (by omega) (k1_off55_eq k ⟨1, by decide⟩) l
  · exact readAt_row1 _ _ f 10 (64 * k.val + 16) (by omega) (k1_off56_eq k ⟨1, by decide⟩) l
  · exact readAt_row1 _ _ f 11 (64 * k.val + 16) (by omega) (k1_off57_eq k ⟨1, by decide⟩) l
  · exact readAt_row1 _ _ f 12 (64 * k.val + 16) (by omega) (k1_off58_eq k ⟨1, by decide⟩) l
  · exact readAt_row1 _ _ f 13 (64 * k.val + 16) (by omega) (k1_off59_eq k ⟨1, by decide⟩) l
  · exact readAt_row1 _ _ f 14 (64 * k.val + 16) (by omega) (k1_off60_eq k ⟨1, by decide⟩) l
  · exact readAt_row1 _ _ f 15 (64 * k.val + 16) (by omega) (k1_off61_eq k ⟨1, by decide⟩) l
  · exact readAt_row1 _ _ f 16 (64 * k.val + 16) (by omega) (k1_off62_eq k ⟨1, by decide⟩) l
  · exact readAt_row1 _ _ f 17 (64 * k.val + 16) (by omega) (k1_off63_eq k ⟨1, by decide⟩) l
  · exact readAt_row1 _ _ f 18 (64 * k.val + 16) (by omega) (k1_off64_eq k ⟨1, by decide⟩) l
  · exact readAt_row1 _ _ f 19 (64 * k.val + 16) (by omega) (k1_off65_eq k ⟨1, by decide⟩) l
  · exact readAt_row1 _ _ f 20 (64 * k.val + 16) (by omega) (k1_off66_eq k ⟨1, by decide⟩) l
  · exact readAt_row1 _ _ f 21 (64 * k.val + 16) (by omega) (k1_off67_eq k ⟨1, by decide⟩) l
  · exact readAt_row1 _ _ f 22 (64 * k.val + 16) (by omega) (k1_off68_eq k ⟨1, by decide⟩) l
  · exact readAt_row1 _ _ f 23 (64 * k.val + 16) (by omega) (k1_off69_eq k ⟨1, by decide⟩) l
  · exact readAt_row1 _ _ f 24 (64 * k.val + 16) (by omega) (k1_off70_eq k ⟨1, by decide⟩) l
  · exact readAt_row1 _ _ f 25 (64 * k.val + 16) (by omega) (k1_off71_eq k ⟨1, by decide⟩) l
  · exact readAt_row1 _ _ f 26 (64 * k.val + 16) (by omega) (k1_off72_eq k ⟨1, by decide⟩) l
  · exact readAt_row1 _ _ f 27 (64 * k.val + 16) (by omega) (k1_off73_eq k ⟨1, by decide⟩) l
  · exact readAt_row1 _ _ f 28 (64 * k.val + 16) (by omega) (k1_off74_eq k ⟨1, by decide⟩) l
  · exact readAt_row1 _ _ f 29 (64 * k.val + 16) (by omega) (k1_off75_eq k ⟨1, by decide⟩) l
  · exact readAt_row1 _ _ f 30 (64 * k.val + 16) (by omega) (k1_off76_eq k ⟨1, by decide⟩) l
  · exact readAt_row1 _ _ f 31 (64 * k.val + 16) (by omega) (k1_off77_eq k ⟨1, by decide⟩) l

/-- Slab 1, store 2 of trip `k`: lane `x` of the stored vector is the slab's column sum at column `64 k + 32 + x`. -/
theorem pay3_u2 (f : (Memref.whole cc1_scratch1 : Memref sig .scVector .vmem S32x1024 .f32).view.ty.Contents (Elt F))
    (k : Fin k1_t3_loop.trips) (x : S16.Idx) :
    k1_pay39 (k1_pay38 (k1_pay37 (k1_pay36 (k1_pay35 ((Memref.whole cc1_scratch1 : Memref sig .scVector .vmem S32x1024 .f32).view.readAt (Elt F) (Rect.unit (s := S32x1024) (k1_off46 k 2#32) S1x16.size (k1_off46_inb k 2)).toLoadRect f) ((Memref.whole cc1_scratch1 : Memref sig .scVector .vmem S32x1024 .f32).view.readAt (Elt F) (Rect.unit (s := S32x1024) (k1_off47 k 2#32) S1x16.size (k1_off47_inb k 2)).toLoadRect f) ((Memref.whole cc1_scratch1 : Memref sig .scVector .vmem S32x1024 .f32).view.readAt (Elt F) (Rect.unit (s := S32x1024) (k1_off48 k 2#32) S1x16.size (k1_off48_inb k 2)).toLoadRect f) ((Memref.whole cc1_scratch1 : Memref sig .scVector .vmem S32x1024 .f32).view.readAt (Elt F) (Rect.unit (s := S32x1024) (k1_off49 k 2#32) S1x16.size (k1_off49_inb k 2)).toLoadRect f) ((Memref.whole cc1_scratch1 : Memref sig .scVector .vmem S32x1024 .f32).view.readAt (Elt F) (Rect.unit (s := S32x1024) (k1_off50 k 2#32) S1x16.size (k1_off50_inb k 2)).toLoadRect f) ((Memref.whole cc1_scratch1 : Memref sig .scVector .vmem S32x1024 .f32).view.readAt (Elt F) (Rect.unit (s := S32x1024) (k1_off51 k 2#32) S1x16.size (k1_off51_inb k 2)).toLoadRect f) ((Memref.whole cc1_scratch1 : Memref sig .scVector .vmem S32x1024 .f32).view.readAt (Elt F) (Rect.unit (s := S32x1024) (k1_off52 k 2#32) S1x16.size (k1_off52_inb k 2)).toLoadRect f)) ((Memref.whole cc1_scratch1 : Memref sig .scVector .vmem S32x1024 .f32).view.readAt (Elt F) (Rect.unit (s := S32x1024) (k1_off53 k 2#32) S1x16.size (k1_off53_inb k 2)).toLoadRect f) ((Memref.whole cc1_scratch1 : Memref sig .scVector .vmem S32x1024 .f32).view.readAt (Elt F) (Rect.unit (s := S32x1024) (k1_off54 k 2#32) S1x16.size (k1_off54_inb k 2)).toLoadRect f) ((Memref.whole cc1_scratch1 : Memref sig .scVector .vmem S32x1024 .f32).view.readAt (Elt F) (Rect.unit (s := S32x1024) (k1_off55 k 2#32) S1x16.size (k1_off55_inb k 2)).toLoadRect f) ((Memref.whole cc1_scratch1 : Memref sig .scVector .vmem S32x1024 .f32).view.readAt (Elt F) (Rect.unit (s := S32x1024) (k1_off56 k 2#32) S1x16.size (k1_off56_inb k 2)).toLoadRect f) ((Memref.whole cc1_scratch1 : Memref sig .scVector .vmem S32x1024 .f32).view.readAt (Elt F) (Rect.unit (s := S32x1024) (k1_off57 k 2#32) S1x16.size (k1_off57_inb k 2)).toLoadRect f) ((Memref.whole cc1_scratch1 : Memref sig .scVector .vmem S32x1024 .f32).view.readAt (Elt F) (Rect.unit (s := S32x1024) (k1_off58 k 2#32) S1x16.size (k1_off58_inb k 2)).toLoadRect f) ((Memref.whole cc1_scratch1 : Memref sig .scVector .vmem S32x1024 .f32).view.readAt (Elt F) (Rect.unit (s := S32x1024) (k1_off59 k 2#32) S1x16.size (k1_off59_inb k 2)).toLoadRect f)) ((Memref.whole cc1_scratch1 : Memref sig .scVector .vmem S32x1024 .f32).view.readAt (Elt F) (Rect.unit (s := S32x1024) (k1_off60 k 2#32) S1x16.size (k1_off60_inb k 2)).toLoadRect f) ((Memref.whole cc1_scratch1 : Memref sig .scVector .vmem S32x1024 .f32).view.readAt (Elt F) (Rect.unit (s := S32x1024) (k1_off61 k 2#32) S1x16.size (k1_off61_inb k 2)).toLoadRect f) ((Memref.whole cc1_scratch1 : Memref sig .scVector .vmem S32x1024 .f32).view.readAt (Elt F) (Rect.unit (s := S32x1024) (k1_off62 k 2#32) S1x16.size (k1_off62_inb k 2)).toLoadRect f) ((Memref.whole cc1_scratch1 : Memref sig .scVector .vmem S32x1024 .f32).view.readAt (Elt F) (Rect.unit (s := S32x1024) (k1_off63 k 2#32) S1x16.size (k1_off63_inb k 2)).toLoadRect f) ((Memref.whole cc1_scratch1 : Memref sig .scVector .vmem S32x1024 .f32).view.readAt (Elt F) (Rect.unit (s := S32x1024) (k1_off64 k 2#32) S1x16.size (k1_off64_inb k 2)).toLoadRect f) ((Memref.whole cc1_scratch1 : Memref sig .scVector .vmem S32x1024 .f32).view.readAt (Elt F) (Rect.unit (s := S32x1024) (k1_off65 k 2#32) S1x16.size (k1_off65_inb k 2)).toLoadRect f) ((Memref.whole cc1_scratch1 : Memref sig .scVector .vmem S32x1024 .f32).view.readAt (Elt F) (Rect.unit (s := S32x1024) (k1_off66 k 2#32) S1x16.size (k1_off66_inb k 2)).toLoadRect f) ((Memref.whole cc1_scratch1 : Memref sig .scVector .vmem S32x1024 .f32).view.readAt (Elt F) (Rect.unit (s := S32x1024) (k1_off67 k 2#32) S1x16.size (k1_off67_inb k 2)).toLoadRect f)) ((Memref.whole cc1_scratch1 : Memref sig .scVector .vmem S32x1024 .f32).view.readAt (Elt F) (Rect.unit (s := S32x1024) (k1_off68 k 2#32) S1x16.size (k1_off68_inb k 2)).toLoadRect f) ((Memref.whole cc1_scratch1 : Memref sig .scVector .vmem S32x1024 .f32).view.readAt (Elt F) (Rect.unit (s := S32x1024) (k1_off69 k 2#32) S1x16.size (k1_off69_inb k 2)).toLoadRect f) ((Memref.whole cc1_scratch1 : Memref sig .scVector .vmem S32x1024 .f32).view.readAt (Elt F) (Rect.unit (s := S32x1024) (k1_off70 k 2#32) S1x16.size (k1_off70_inb k 2)).toLoadRect f) ((Memref.whole cc1_scratch1 : Memref sig .scVector .vmem S32x1024 .f32).view.readAt (Elt F) (Rect.unit (s := S32x1024) (k1_off71 k 2#32) S1x16.size (k1_off71_inb k 2)).toLoadRect f) ((Memref.whole cc1_scratch1 : Memref sig .scVector .vmem S32x1024 .f32).view.readAt (Elt F) (Rect.unit (s := S32x1024) (k1_off72 k 2#32) S1x16.size (k1_off72_inb k 2)).toLoadRect f) ((Memref.whole cc1_scratch1 : Memref sig .scVector .vmem S32x1024 .f32).view.readAt (Elt F) (Rect.unit (s := S32x1024) (k1_off73 k 2#32) S1x16.size (k1_off73_inb k 2)).toLoadRect f) ((Memref.whole cc1_scratch1 : Memref sig .scVector .vmem S32x1024 .f32).view.readAt (Elt F) (Rect.unit (s := S32x1024) (k1_off74 k 2#32) S1x16.size (k1_off74_inb k 2)).toLoadRect f)) ((Memref.whole cc1_scratch1 : Memref sig .scVector .vmem S32x1024 .f32).view.readAt (Elt F) (Rect.unit (s := S32x1024) (k1_off75 k 2#32) S1x16.size (k1_off75_inb k 2)).toLoadRect f) ((Memref.whole cc1_scratch1 : Memref sig .scVector .vmem S32x1024 .f32).view.readAt (Elt F) (Rect.unit (s := S32x1024) (k1_off76 k 2#32) S1x16.size (k1_off76_inb k 2)).toLoadRect f) ((Memref.whole cc1_scratch1 : Memref sig .scVector .vmem S32x1024 .f32).view.readAt (Elt F) (Rect.unit (s := S32x1024) (k1_off77 k 2#32) S1x16.size (k1_off77_inb k 2)).toLoadRect f) x
      = slabSum f (64 * k.val + 32 + (x 0).val) := by
  have hk : k.val < 16 := Nat.lt_of_lt_of_le k.isLt k1_t3_abs.2.1
  refine (chain3_u2 ![((Memref.whole cc1_scratch1 : Memref sig .scVector .vmem S32x1024 .f32).view.readAt (Elt F) (Rect.unit (s := S32x1024) (k1_off46 k 2#32) S1x16.size (k1_off46_inb k 2)).toLoadRect f),
      ((Memref.whole cc1_scratch1 : Memref sig .scVector .vmem S32x1024 .f32).view.readAt (Elt F) (Rect.unit (s := S32x1024) (k1_off47 k 2#32) S1x16.size (k1_off47_inb k 2)).toLoadRect f),
      ((Memref.whole cc1_scratch1 : Memref sig .scVector .vmem S32x1024 .f32).view.readAt (Elt F) (Rect.unit (s := S32x1024) (k1_off48 k 2#32) S1x16.size (k1_off48_inb k 2)).toLoadRect f),
      ((Memref.whole cc1_scratch1 : Memref sig .scVector .vmem S32x1024 .f32).view.readAt (Elt F) (Rect.unit (s := S32x1024) (k1_off49 k 2#32) S1x16.size (k1_off49_inb k 2)).toLoadRect f),
      ((Memref.whole cc1_scratch1 : Memref sig .scVector .vmem S32x1024 .f32).view.readAt (Elt F) (Rect.unit (s := S32x1024) (k1_off50 k 2#32) S1x16.size (k1_off50_inb k 2)).toLoadRect f),
      ((Memref.whole cc1_scratch1 : Memref sig .scVector .vmem S32x1024 .f32).view.readAt (Elt F) (Rect.unit (s := S32x1024) (k1_off51 k 2#32) S1x16.size (k1_off51_inb k 2)).toLoadRect f),
      ((Memref.whole cc1_scratch1 : Memref sig .scVector .vmem S32x1024 .f32).view.readAt (Elt F) (Rect.unit (s := S32x1024) (k1_off52 k 2#32) S1x16.size (k1_off52_inb k 2)).toLoadRect f),
      ((Memref.whole cc1_scratch1 : Memref sig .scVector .vmem S32x1024 .f32).view.readAt (Elt F) (Rect.unit (s := S32x1024) (k1_off53 k 2#32) S1x16.size (k1_off53_inb k 2)).toLoadRect f),
      ((Memref.whole cc1_scratch1 : Memref sig .scVector .vmem S32x1024 .f32).view.readAt (Elt F) (Rect.unit (s := S32x1024) (k1_off54 k 2#32) S1x16.size (k1_off54_inb k 2)).toLoadRect f),
      ((Memref.whole cc1_scratch1 : Memref sig .scVector .vmem S32x1024 .f32).view.readAt (Elt F) (Rect.unit (s := S32x1024) (k1_off55 k 2#32) S1x16.size (k1_off55_inb k 2)).toLoadRect f),
      ((Memref.whole cc1_scratch1 : Memref sig .scVector .vmem S32x1024 .f32).view.readAt (Elt F) (Rect.unit (s := S32x1024) (k1_off56 k 2#32) S1x16.size (k1_off56_inb k 2)).toLoadRect f),
      ((Memref.whole cc1_scratch1 : Memref sig .scVector .vmem S32x1024 .f32).view.readAt (Elt F) (Rect.unit (s := S32x1024) (k1_off57 k 2#32) S1x16.size (k1_off57_inb k 2)).toLoadRect f),
      ((Memref.whole cc1_scratch1 : Memref sig .scVector .vmem S32x1024 .f32).view.readAt (Elt F) (Rect.unit (s := S32x1024) (k1_off58 k 2#32) S1x16.size (k1_off58_inb k 2)).toLoadRect f),
      ((Memref.whole cc1_scratch1 : Memref sig .scVector .vmem S32x1024 .f32).view.readAt (Elt F) (Rect.unit (s := S32x1024) (k1_off59 k 2#32) S1x16.size (k1_off59_inb k 2)).toLoadRect f),
      ((Memref.whole cc1_scratch1 : Memref sig .scVector .vmem S32x1024 .f32).view.readAt (Elt F) (Rect.unit (s := S32x1024) (k1_off60 k 2#32) S1x16.size (k1_off60_inb k 2)).toLoadRect f),
      ((Memref.whole cc1_scratch1 : Memref sig .scVector .vmem S32x1024 .f32).view.readAt (Elt F) (Rect.unit (s := S32x1024) (k1_off61 k 2#32) S1x16.size (k1_off61_inb k 2)).toLoadRect f),
      ((Memref.whole cc1_scratch1 : Memref sig .scVector .vmem S32x1024 .f32).view.readAt (Elt F) (Rect.unit (s := S32x1024) (k1_off62 k 2#32) S1x16.size (k1_off62_inb k 2)).toLoadRect f),
      ((Memref.whole cc1_scratch1 : Memref sig .scVector .vmem S32x1024 .f32).view.readAt (Elt F) (Rect.unit (s := S32x1024) (k1_off63 k 2#32) S1x16.size (k1_off63_inb k 2)).toLoadRect f),
      ((Memref.whole cc1_scratch1 : Memref sig .scVector .vmem S32x1024 .f32).view.readAt (Elt F) (Rect.unit (s := S32x1024) (k1_off64 k 2#32) S1x16.size (k1_off64_inb k 2)).toLoadRect f),
      ((Memref.whole cc1_scratch1 : Memref sig .scVector .vmem S32x1024 .f32).view.readAt (Elt F) (Rect.unit (s := S32x1024) (k1_off65 k 2#32) S1x16.size (k1_off65_inb k 2)).toLoadRect f),
      ((Memref.whole cc1_scratch1 : Memref sig .scVector .vmem S32x1024 .f32).view.readAt (Elt F) (Rect.unit (s := S32x1024) (k1_off66 k 2#32) S1x16.size (k1_off66_inb k 2)).toLoadRect f),
      ((Memref.whole cc1_scratch1 : Memref sig .scVector .vmem S32x1024 .f32).view.readAt (Elt F) (Rect.unit (s := S32x1024) (k1_off67 k 2#32) S1x16.size (k1_off67_inb k 2)).toLoadRect f),
      ((Memref.whole cc1_scratch1 : Memref sig .scVector .vmem S32x1024 .f32).view.readAt (Elt F) (Rect.unit (s := S32x1024) (k1_off68 k 2#32) S1x16.size (k1_off68_inb k 2)).toLoadRect f),
      ((Memref.whole cc1_scratch1 : Memref sig .scVector .vmem S32x1024 .f32).view.readAt (Elt F) (Rect.unit (s := S32x1024) (k1_off69 k 2#32) S1x16.size (k1_off69_inb k 2)).toLoadRect f),
      ((Memref.whole cc1_scratch1 : Memref sig .scVector .vmem S32x1024 .f32).view.readAt (Elt F) (Rect.unit (s := S32x1024) (k1_off70 k 2#32) S1x16.size (k1_off70_inb k 2)).toLoadRect f),
      ((Memref.whole cc1_scratch1 : Memref sig .scVector .vmem S32x1024 .f32).view.readAt (Elt F) (Rect.unit (s := S32x1024) (k1_off71 k 2#32) S1x16.size (k1_off71_inb k 2)).toLoadRect f),
      ((Memref.whole cc1_scratch1 : Memref sig .scVector .vmem S32x1024 .f32).view.readAt (Elt F) (Rect.unit (s := S32x1024) (k1_off72 k 2#32) S1x16.size (k1_off72_inb k 2)).toLoadRect f),
      ((Memref.whole cc1_scratch1 : Memref sig .scVector .vmem S32x1024 .f32).view.readAt (Elt F) (Rect.unit (s := S32x1024) (k1_off73 k 2#32) S1x16.size (k1_off73_inb k 2)).toLoadRect f),
      ((Memref.whole cc1_scratch1 : Memref sig .scVector .vmem S32x1024 .f32).view.readAt (Elt F) (Rect.unit (s := S32x1024) (k1_off74 k 2#32) S1x16.size (k1_off74_inb k 2)).toLoadRect f),
      ((Memref.whole cc1_scratch1 : Memref sig .scVector .vmem S32x1024 .f32).view.readAt (Elt F) (Rect.unit (s := S32x1024) (k1_off75 k 2#32) S1x16.size (k1_off75_inb k 2)).toLoadRect f),
      ((Memref.whole cc1_scratch1 : Memref sig .scVector .vmem S32x1024 .f32).view.readAt (Elt F) (Rect.unit (s := S32x1024) (k1_off76 k 2#32) S1x16.size (k1_off76_inb k 2)).toLoadRect f),
      ((Memref.whole cc1_scratch1 : Memref sig .scVector .vmem S32x1024 .f32).view.readAt (Elt F) (Rect.unit (s := S32x1024) (k1_off77 k 2#32) S1x16.size (k1_off77_inb k 2)).toLoadRect f)] x).trans ?_
  refine lsum32_loads f _ (64 * k.val + 32) (by omega) (fun r l => ?_) x
  fin_cases r
  · exact readAt_row1 _ _ f 0 (64 * k.val + 32) (by omega) (k1_off46_eq k ⟨2, by decide⟩) l
  · exact readAt_row1 _ _ f 1 (64 * k.val + 32) (by omega) (k1_off47_eq k ⟨2, by decide⟩) l
  · exact readAt_row1 _ _ f 2 (64 * k.val + 32) (by omega) (k1_off48_eq k ⟨2, by decide⟩) l
  · exact readAt_row1 _ _ f 3 (64 * k.val + 32) (by omega) (k1_off49_eq k ⟨2, by decide⟩) l
  · exact readAt_row1 _ _ f 4 (64 * k.val + 32) (by omega) (k1_off50_eq k ⟨2, by decide⟩) l
  · exact readAt_row1 _ _ f 5 (64 * k.val + 32) (by omega) (k1_off51_eq k ⟨2, by decide⟩) l
  · exact readAt_row1 _ _ f 6 (64 * k.val + 32) (by omega) (k1_off52_eq k ⟨2, by decide⟩) l
  · exact readAt_row1 _ _ f 7 (64 * k.val + 32) (by omega) (k1_off53_eq k ⟨2, by decide⟩) l
  · exact readAt_row1 _ _ f 8 (64 * k.val + 32) (by omega) (k1_off54_eq k ⟨2, by decide⟩) l
  · exact readAt_row1 _ _ f 9 (64 * k.val + 32) (by omega) (k1_off55_eq k ⟨2, by decide⟩) l
  · exact readAt_row1 _ _ f 10 (64 * k.val + 32) (by omega) (k1_off56_eq k ⟨2, by decide⟩) l
  · exact readAt_row1 _ _ f 11 (64 * k.val + 32) (by omega) (k1_off57_eq k ⟨2, by decide⟩) l
  · exact readAt_row1 _ _ f 12 (64 * k.val + 32) (by omega) (k1_off58_eq k ⟨2, by decide⟩) l
  · exact readAt_row1 _ _ f 13 (64 * k.val + 32) (by omega) (k1_off59_eq k ⟨2, by decide⟩) l
  · exact readAt_row1 _ _ f 14 (64 * k.val + 32) (by omega) (k1_off60_eq k ⟨2, by decide⟩) l
  · exact readAt_row1 _ _ f 15 (64 * k.val + 32) (by omega) (k1_off61_eq k ⟨2, by decide⟩) l
  · exact readAt_row1 _ _ f 16 (64 * k.val + 32) (by omega) (k1_off62_eq k ⟨2, by decide⟩) l
  · exact readAt_row1 _ _ f 17 (64 * k.val + 32) (by omega) (k1_off63_eq k ⟨2, by decide⟩) l
  · exact readAt_row1 _ _ f 18 (64 * k.val + 32) (by omega) (k1_off64_eq k ⟨2, by decide⟩) l
  · exact readAt_row1 _ _ f 19 (64 * k.val + 32) (by omega) (k1_off65_eq k ⟨2, by decide⟩) l
  · exact readAt_row1 _ _ f 20 (64 * k.val + 32) (by omega) (k1_off66_eq k ⟨2, by decide⟩) l
  · exact readAt_row1 _ _ f 21 (64 * k.val + 32) (by omega) (k1_off67_eq k ⟨2, by decide⟩) l
  · exact readAt_row1 _ _ f 22 (64 * k.val + 32) (by omega) (k1_off68_eq k ⟨2, by decide⟩) l
  · exact readAt_row1 _ _ f 23 (64 * k.val + 32) (by omega) (k1_off69_eq k ⟨2, by decide⟩) l
  · exact readAt_row1 _ _ f 24 (64 * k.val + 32) (by omega) (k1_off70_eq k ⟨2, by decide⟩) l
  · exact readAt_row1 _ _ f 25 (64 * k.val + 32) (by omega) (k1_off71_eq k ⟨2, by decide⟩) l
  · exact readAt_row1 _ _ f 26 (64 * k.val + 32) (by omega) (k1_off72_eq k ⟨2, by decide⟩) l
  · exact readAt_row1 _ _ f 27 (64 * k.val + 32) (by omega) (k1_off73_eq k ⟨2, by decide⟩) l
  · exact readAt_row1 _ _ f 28 (64 * k.val + 32) (by omega) (k1_off74_eq k ⟨2, by decide⟩) l
  · exact readAt_row1 _ _ f 29 (64 * k.val + 32) (by omega) (k1_off75_eq k ⟨2, by decide⟩) l
  · exact readAt_row1 _ _ f 30 (64 * k.val + 32) (by omega) (k1_off76_eq k ⟨2, by decide⟩) l
  · exact readAt_row1 _ _ f 31 (64 * k.val + 32) (by omega) (k1_off77_eq k ⟨2, by decide⟩) l

/-- Slab 1, store 3 of trip `k`: lane `x` of the stored vector is the slab's column sum at column `64 k + 48 + x`. -/
theorem pay3_u3 (f : (Memref.whole cc1_scratch1 : Memref sig .scVector .vmem S32x1024 .f32).view.ty.Contents (Elt F))
    (k : Fin k1_t3_loop.trips) (x : S16.Idx) :
    k1_pay46 (k1_pay44 (k1_pay43 (k1_pay42 (k1_pay41 (k1_pay40 ((Memref.whole cc1_scratch1 : Memref sig .scVector .vmem S32x1024 .f32).view.readAt (Elt F) (Rect.unit (s := S32x1024) (k1_off46 k 3#32) S1x16.size (k1_off46_inb k 3)).toLoadRect f) ((Memref.whole cc1_scratch1 : Memref sig .scVector .vmem S32x1024 .f32).view.readAt (Elt F) (Rect.unit (s := S32x1024) (k1_off47 k 3#32) S1x16.size (k1_off47_inb k 3)).toLoadRect f) ((Memref.whole cc1_scratch1 : Memref sig .scVector .vmem S32x1024 .f32).view.readAt (Elt F) (Rect.unit (s := S32x1024) (k1_off48 k 3#32) S1x16.size (k1_off48_inb k 3)).toLoadRect f)) ((Memref.whole cc1_scratch1 : Memref sig .scVector .vmem S32x1024 .f32).view.readAt (Elt F) (Rect.unit (s := S32x1024) (k1_off49 k 3#32) S1x16.size (k1_off49_inb k 3)).toLoadRect f) ((Memref.whole cc1_scratch1 : Memref sig .scVector .vmem S32x1024 .f32).view.readAt (Elt F) (Rect.unit (s := S32x1024) (k1_off50 k 3#32) S1x16.size (k1_off50_inb k 3)).toLoadRect f) ((Memref.whole cc1_scratch1 : Memref sig .scVector .vmem S32x1024 .f32).view.readAt (Elt F) (Rect.unit (s := S32x1024) (k1_off51 k 3#32) S1x16.size (k1_off51_inb k 3)).toLoadRect f) ((Memref.whole cc1_scratch1 : Memref sig .scVector .vmem S32x1024 .f32).view.readAt (Elt F) (Rect.unit (s := S32x1024) (k1_off52 k 3#32) S1x16.size (k1_off52_inb k 3)).toLoadRect f) ((Memref.whole cc1_scratch1 : Memref sig .scVector .vmem S32x1024 .f32).view.readAt (Elt F) (Rect.unit (s := S32x1024) (k1_off53 k 3#32) S1x16.size (k1_off53_inb k 3)).toLoadRect f) ((Memref.whole cc1_scratch1 : Memref sig .scVector .vmem S32x1024 .f32).view.readAt (Elt F) (Rect.unit (s := S32x1024) (k1_off54 k 3#32) S1x16.size (k1_off54_inb k 3)).toLoadRect f) ((Memref.whole cc1_scratch1 : Memref sig .scVector .vmem S32x1024 .f32).view.readAt (Elt F) (Rect.unit (s := S32x1024) (k1_off55 k 3#32) S1x16.size (k1_off55_inb k 3)).toLoadRect f) ((Memref.whole cc1_scratch1 : Memref sig .scVector .vmem S32x1024 .f32).view.readAt (Elt F) (Rect.unit (s := S32x1024) (k1_off56 k 3#32) S1x16.size (k1_off56_inb k 3)).toLoadRect f)) ((Memref.whole cc1_scratch1 : Memref sig .scVector .vmem S32x1024 .f32).view.readAt (Elt F) (Rect.unit (s := S32x1024) (k1_off57 k 3#32) S1x16.size (k1_off57_inb k 3)).toLoadRect f) ((Memref.whole cc1_scratch1 : Memref sig .scVector .vmem S32x1024 .f32).view.readAt (Elt F) (Rect.unit (s := S32x1024) (k1_off58 k 3#32) S1x16.size (k1_off58_inb k 3)).toLoadRect f) ((Memref.whole cc1_scratch1 : Memref sig .scVector .vmem S32x1024 .f32).view.readAt (Elt F) (Rect.unit (s := S32x1024) (k1_off59 k 3#32) S1x16.size (k1_off59_inb k 3)).toLoadRect f) ((Memref.whole cc1_scratch1 : Memref sig .scVector .vmem S32x1024 .f32).view.readAt (Elt F) (Rect.unit (s := S32x1024) (k1_off60 k 3#32) S1x16.size (k1_off60_inb k 3)).toLoadRect f) ((Memref.whole cc1_scratch1 : Memref sig .scVector .vmem S32x1024 .f32).view.readAt (Elt F) (Rect.unit (s := S32x1024) (k1_off61 k 3#32) S1x16.size (k1_off61_inb k 3)).toLoadRect f) ((Memref.whole cc1_scratch1 : Memref sig .scVector .vmem S32x1024 .f32).view.readAt (Elt F) (Rect.unit (s := S32x1024) (k1_off62 k 3#32) S1x16.size (k1_off62_inb k 3)).toLoadRect f) ((Memref.whole cc1_scratch1 : Memref sig .scVector .vmem S32x1024 .f32).view.readAt (Elt F) (Rect.unit (s := S32x1024) (k1_off63 k 3#32) S1x16.size (k1_off63_inb k 3)).toLoadRect f)) ((Memref.whole cc1_scratch1 : Memref sig .scVector .vmem S32x1024 .f32).view.readAt (Elt F) (Rect.unit (s := S32x1024) (k1_off64 k 3#32) S1x16.size (k1_off64_inb k 3)).toLoadRect f) ((Memref.whole cc1_scratch1 : Memref sig .scVector .vmem S32x1024 .f32).view.readAt (Elt F) (Rect.unit (s := S32x1024) (k1_off65 k 3#32) S1x16.size (k1_off65_inb k 3)).toLoadRect f) ((Memref.whole cc1_scratch1 : Memref sig .scVector .vmem S32x1024 .f32).view.readAt (Elt F) (Rect.unit (s := S32x1024) (k1_off66 k 3#32) S1x16.size (k1_off66_inb k 3)).toLoadRect f) ((Memref.whole cc1_scratch1 : Memref sig .scVector .vmem S32x1024 .f32).view.readAt (Elt F) (Rect.unit (s := S32x1024) (k1_off67 k 3#32) S1x16.size (k1_off67_inb k 3)).toLoadRect f) ((Memref.whole cc1_scratch1 : Memref sig .scVector .vmem S32x1024 .f32).view.readAt (Elt F) (Rect.unit (s := S32x1024) (k1_off68 k 3#32) S1x16.size (k1_off68_inb k 3)).toLoadRect f) ((Memref.whole cc1_scratch1 : Memref sig .scVector .vmem S32x1024 .f32).view.readAt (Elt F) (Rect.unit (s := S32x1024) (k1_off69 k 3#32) S1x16.size (k1_off69_inb k 3)).toLoadRect f) ((Memref.whole cc1_scratch1 : Memref sig .scVector .vmem S32x1024 .f32).view.readAt (Elt F) (Rect.unit (s := S32x1024) (k1_off70 k 3#32) S1x16.size (k1_off70_inb k 3)).toLoadRect f) ((Memref.whole cc1_scratch1 : Memref sig .scVector .vmem S32x1024 .f32).view.readAt (Elt F) (Rect.unit (s := S32x1024) (k1_off71 k 3#32) S1x16.size (k1_off71_inb k 3)).toLoadRect f)) ((Memref.whole cc1_scratch1 : Memref sig .scVector .vmem S32x1024 .f32).view.readAt (Elt F) (Rect.unit (s := S32x1024) (k1_off72 k 3#32) S1x16.size (k1_off72_inb k 3)).toLoadRect f) ((Memref.whole cc1_scratch1 : Memref sig .scVector .vmem S32x1024 .f32).view.readAt (Elt F) (Rect.unit (s := S32x1024) (k1_off73 k 3#32) S1x16.size (k1_off73_inb k 3)).toLoadRect f) ((Memref.whole cc1_scratch1 : Memref sig .scVector .vmem S32x1024 .f32).view.readAt (Elt F) (Rect.unit (s := S32x1024) (k1_off74 k 3#32) S1x16.size (k1_off74_inb k 3)).toLoadRect f) ((Memref.whole cc1_scratch1 : Memref sig .scVector .vmem S32x1024 .f32).view.readAt (Elt F) (Rect.unit (s := S32x1024) (k1_off75 k 3#32) S1x16.size (k1_off75_inb k 3)).toLoadRect f) ((Memref.whole cc1_scratch1 : Memref sig .scVector .vmem S32x1024 .f32).view.readAt (Elt F) (Rect.unit (s := S32x1024) (k1_off76 k 3#32) S1x16.size (k1_off76_inb k 3)).toLoadRect f)) ((Memref.whole cc1_scratch1 : Memref sig .scVector .vmem S32x1024 .f32).view.readAt (Elt F) (Rect.unit (s := S32x1024) (k1_off77 k 3#32) S1x16.size (k1_off77_inb k 3)).toLoadRect f) x
      = slabSum f (64 * k.val + 48 + (x 0).val) := by
  have hk : k.val < 16 := Nat.lt_of_lt_of_le k.isLt k1_t3_abs.2.1
  refine (chain3_u3 ![((Memref.whole cc1_scratch1 : Memref sig .scVector .vmem S32x1024 .f32).view.readAt (Elt F) (Rect.unit (s := S32x1024) (k1_off46 k 3#32) S1x16.size (k1_off46_inb k 3)).toLoadRect f),
      ((Memref.whole cc1_scratch1 : Memref sig .scVector .vmem S32x1024 .f32).view.readAt (Elt F) (Rect.unit (s := S32x1024) (k1_off47 k 3#32) S1x16.size (k1_off47_inb k 3)).toLoadRect f),
      ((Memref.whole cc1_scratch1 : Memref sig .scVector .vmem S32x1024 .f32).view.readAt (Elt F) (Rect.unit (s := S32x1024) (k1_off48 k 3#32) S1x16.size (k1_off48_inb k 3)).toLoadRect f),
      ((Memref.whole cc1_scratch1 : Memref sig .scVector .vmem S32x1024 .f32).view.readAt (Elt F) (Rect.unit (s := S32x1024) (k1_off49 k 3#32) S1x16.size (k1_off49_inb k 3)).toLoadRect f),
      ((Memref.whole cc1_scratch1 : Memref sig .scVector .vmem S32x1024 .f32).view.readAt (Elt F) (Rect.unit (s := S32x1024) (k1_off50 k 3#32) S1x16.size (k1_off50_inb k 3)).toLoadRect f),
      ((Memref.whole cc1_scratch1 : Memref sig .scVector .vmem S32x1024 .f32).view.readAt (Elt F) (Rect.unit (s := S32x1024) (k1_off51 k 3#32) S1x16.size (k1_off51_inb k 3)).toLoadRect f),
      ((Memref.whole cc1_scratch1 : Memref sig .scVector .vmem S32x1024 .f32).view.readAt (Elt F) (Rect.unit (s := S32x1024) (k1_off52 k 3#32) S1x16.size (k1_off52_inb k 3)).toLoadRect f),
      ((Memref.whole cc1_scratch1 : Memref sig .scVector .vmem S32x1024 .f32).view.readAt (Elt F) (Rect.unit (s := S32x1024) (k1_off53 k 3#32) S1x16.size (k1_off53_inb k 3)).toLoadRect f),
      ((Memref.whole cc1_scratch1 : Memref sig .scVector .vmem S32x1024 .f32).view.readAt (Elt F) (Rect.unit (s := S32x1024) (k1_off54 k 3#32) S1x16.size (k1_off54_inb k 3)).toLoadRect f),
      ((Memref.whole cc1_scratch1 : Memref sig .scVector .vmem S32x1024 .f32).view.readAt (Elt F) (Rect.unit (s := S32x1024) (k1_off55 k 3#32) S1x16.size (k1_off55_inb k 3)).toLoadRect f),
      ((Memref.whole cc1_scratch1 : Memref sig .scVector .vmem S32x1024 .f32).view.readAt (Elt F) (Rect.unit (s := S32x1024) (k1_off56 k 3#32) S1x16.size (k1_off56_inb k 3)).toLoadRect f),
      ((Memref.whole cc1_scratch1 : Memref sig .scVector .vmem S32x1024 .f32).view.readAt (Elt F) (Rect.unit (s := S32x1024) (k1_off57 k 3#32) S1x16.size (k1_off57_inb k 3)).toLoadRect f),
      ((Memref.whole cc1_scratch1 : Memref sig .scVector .vmem S32x1024 .f32).view.readAt (Elt F) (Rect.unit (s := S32x1024) (k1_off58 k 3#32) S1x16.size (k1_off58_inb k 3)).toLoadRect f),
      ((Memref.whole cc1_scratch1 : Memref sig .scVector .vmem S32x1024 .f32).view.readAt (Elt F) (Rect.unit (s := S32x1024) (k1_off59 k 3#32) S1x16.size (k1_off59_inb k 3)).toLoadRect f),
      ((Memref.whole cc1_scratch1 : Memref sig .scVector .vmem S32x1024 .f32).view.readAt (Elt F) (Rect.unit (s := S32x1024) (k1_off60 k 3#32) S1x16.size (k1_off60_inb k 3)).toLoadRect f),
      ((Memref.whole cc1_scratch1 : Memref sig .scVector .vmem S32x1024 .f32).view.readAt (Elt F) (Rect.unit (s := S32x1024) (k1_off61 k 3#32) S1x16.size (k1_off61_inb k 3)).toLoadRect f),
      ((Memref.whole cc1_scratch1 : Memref sig .scVector .vmem S32x1024 .f32).view.readAt (Elt F) (Rect.unit (s := S32x1024) (k1_off62 k 3#32) S1x16.size (k1_off62_inb k 3)).toLoadRect f),
      ((Memref.whole cc1_scratch1 : Memref sig .scVector .vmem S32x1024 .f32).view.readAt (Elt F) (Rect.unit (s := S32x1024) (k1_off63 k 3#32) S1x16.size (k1_off63_inb k 3)).toLoadRect f),
      ((Memref.whole cc1_scratch1 : Memref sig .scVector .vmem S32x1024 .f32).view.readAt (Elt F) (Rect.unit (s := S32x1024) (k1_off64 k 3#32) S1x16.size (k1_off64_inb k 3)).toLoadRect f),
      ((Memref.whole cc1_scratch1 : Memref sig .scVector .vmem S32x1024 .f32).view.readAt (Elt F) (Rect.unit (s := S32x1024) (k1_off65 k 3#32) S1x16.size (k1_off65_inb k 3)).toLoadRect f),
      ((Memref.whole cc1_scratch1 : Memref sig .scVector .vmem S32x1024 .f32).view.readAt (Elt F) (Rect.unit (s := S32x1024) (k1_off66 k 3#32) S1x16.size (k1_off66_inb k 3)).toLoadRect f),
      ((Memref.whole cc1_scratch1 : Memref sig .scVector .vmem S32x1024 .f32).view.readAt (Elt F) (Rect.unit (s := S32x1024) (k1_off67 k 3#32) S1x16.size (k1_off67_inb k 3)).toLoadRect f),
      ((Memref.whole cc1_scratch1 : Memref sig .scVector .vmem S32x1024 .f32).view.readAt (Elt F) (Rect.unit (s := S32x1024) (k1_off68 k 3#32) S1x16.size (k1_off68_inb k 3)).toLoadRect f),
      ((Memref.whole cc1_scratch1 : Memref sig .scVector .vmem S32x1024 .f32).view.readAt (Elt F) (Rect.unit (s := S32x1024) (k1_off69 k 3#32) S1x16.size (k1_off69_inb k 3)).toLoadRect f),
      ((Memref.whole cc1_scratch1 : Memref sig .scVector .vmem S32x1024 .f32).view.readAt (Elt F) (Rect.unit (s := S32x1024) (k1_off70 k 3#32) S1x16.size (k1_off70_inb k 3)).toLoadRect f),
      ((Memref.whole cc1_scratch1 : Memref sig .scVector .vmem S32x1024 .f32).view.readAt (Elt F) (Rect.unit (s := S32x1024) (k1_off71 k 3#32) S1x16.size (k1_off71_inb k 3)).toLoadRect f),
      ((Memref.whole cc1_scratch1 : Memref sig .scVector .vmem S32x1024 .f32).view.readAt (Elt F) (Rect.unit (s := S32x1024) (k1_off72 k 3#32) S1x16.size (k1_off72_inb k 3)).toLoadRect f),
      ((Memref.whole cc1_scratch1 : Memref sig .scVector .vmem S32x1024 .f32).view.readAt (Elt F) (Rect.unit (s := S32x1024) (k1_off73 k 3#32) S1x16.size (k1_off73_inb k 3)).toLoadRect f),
      ((Memref.whole cc1_scratch1 : Memref sig .scVector .vmem S32x1024 .f32).view.readAt (Elt F) (Rect.unit (s := S32x1024) (k1_off74 k 3#32) S1x16.size (k1_off74_inb k 3)).toLoadRect f),
      ((Memref.whole cc1_scratch1 : Memref sig .scVector .vmem S32x1024 .f32).view.readAt (Elt F) (Rect.unit (s := S32x1024) (k1_off75 k 3#32) S1x16.size (k1_off75_inb k 3)).toLoadRect f),
      ((Memref.whole cc1_scratch1 : Memref sig .scVector .vmem S32x1024 .f32).view.readAt (Elt F) (Rect.unit (s := S32x1024) (k1_off76 k 3#32) S1x16.size (k1_off76_inb k 3)).toLoadRect f),
      ((Memref.whole cc1_scratch1 : Memref sig .scVector .vmem S32x1024 .f32).view.readAt (Elt F) (Rect.unit (s := S32x1024) (k1_off77 k 3#32) S1x16.size (k1_off77_inb k 3)).toLoadRect f)] x).trans ?_
  refine lsum32_loads f _ (64 * k.val + 48) (by omega) (fun r l => ?_) x
  fin_cases r
  · exact readAt_row1 _ _ f 0 (64 * k.val + 48) (by omega) (k1_off46_eq k ⟨3, by decide⟩) l
  · exact readAt_row1 _ _ f 1 (64 * k.val + 48) (by omega) (k1_off47_eq k ⟨3, by decide⟩) l
  · exact readAt_row1 _ _ f 2 (64 * k.val + 48) (by omega) (k1_off48_eq k ⟨3, by decide⟩) l
  · exact readAt_row1 _ _ f 3 (64 * k.val + 48) (by omega) (k1_off49_eq k ⟨3, by decide⟩) l
  · exact readAt_row1 _ _ f 4 (64 * k.val + 48) (by omega) (k1_off50_eq k ⟨3, by decide⟩) l
  · exact readAt_row1 _ _ f 5 (64 * k.val + 48) (by omega) (k1_off51_eq k ⟨3, by decide⟩) l
  · exact readAt_row1 _ _ f 6 (64 * k.val + 48) (by omega) (k1_off52_eq k ⟨3, by decide⟩) l
  · exact readAt_row1 _ _ f 7 (64 * k.val + 48) (by omega) (k1_off53_eq k ⟨3, by decide⟩) l
  · exact readAt_row1 _ _ f 8 (64 * k.val + 48) (by omega) (k1_off54_eq k ⟨3, by decide⟩) l
  · exact readAt_row1 _ _ f 9 (64 * k.val + 48) (by omega) (k1_off55_eq k ⟨3, by decide⟩) l
  · exact readAt_row1 _ _ f 10 (64 * k.val + 48) (by omega) (k1_off56_eq k ⟨3, by decide⟩) l
  · exact readAt_row1 _ _ f 11 (64 * k.val + 48) (by omega) (k1_off57_eq k ⟨3, by decide⟩) l
  · exact readAt_row1 _ _ f 12 (64 * k.val + 48) (by omega) (k1_off58_eq k ⟨3, by decide⟩) l
  · exact readAt_row1 _ _ f 13 (64 * k.val + 48) (by omega) (k1_off59_eq k ⟨3, by decide⟩) l
  · exact readAt_row1 _ _ f 14 (64 * k.val + 48) (by omega) (k1_off60_eq k ⟨3, by decide⟩) l
  · exact readAt_row1 _ _ f 15 (64 * k.val + 48) (by omega) (k1_off61_eq k ⟨3, by decide⟩) l
  · exact readAt_row1 _ _ f 16 (64 * k.val + 48) (by omega) (k1_off62_eq k ⟨3, by decide⟩) l
  · exact readAt_row1 _ _ f 17 (64 * k.val + 48) (by omega) (k1_off63_eq k ⟨3, by decide⟩) l
  · exact readAt_row1 _ _ f 18 (64 * k.val + 48) (by omega) (k1_off64_eq k ⟨3, by decide⟩) l
  · exact readAt_row1 _ _ f 19 (64 * k.val + 48) (by omega) (k1_off65_eq k ⟨3, by decide⟩) l
  · exact readAt_row1 _ _ f 20 (64 * k.val + 48) (by omega) (k1_off66_eq k ⟨3, by decide⟩) l
  · exact readAt_row1 _ _ f 21 (64 * k.val + 48) (by omega) (k1_off67_eq k ⟨3, by decide⟩) l
  · exact readAt_row1 _ _ f 22 (64 * k.val + 48) (by omega) (k1_off68_eq k ⟨3, by decide⟩) l
  · exact readAt_row1 _ _ f 23 (64 * k.val + 48) (by omega) (k1_off69_eq k ⟨3, by decide⟩) l
  · exact readAt_row1 _ _ f 24 (64 * k.val + 48) (by omega) (k1_off70_eq k ⟨3, by decide⟩) l
  · exact readAt_row1 _ _ f 25 (64 * k.val + 48) (by omega) (k1_off71_eq k ⟨3, by decide⟩) l
  · exact readAt_row1 _ _ f 26 (64 * k.val + 48) (by omega) (k1_off72_eq k ⟨3, by decide⟩) l
  · exact readAt_row1 _ _ f 27 (64 * k.val + 48) (by omega) (k1_off73_eq k ⟨3, by decide⟩) l
  · exact readAt_row1 _ _ f 28 (64 * k.val + 48) (by omega) (k1_off74_eq k ⟨3, by decide⟩) l
  · exact readAt_row1 _ _ f 29 (64 * k.val + 48) (by omega) (k1_off75_eq k ⟨3, by decide⟩) l
  · exact readAt_row1 _ _ f 30 (64 * k.val + 48) (by omega) (k1_off76_eq k ⟨3, by decide⟩) l
  · exact readAt_row1 _ _ f 31 (64 * k.val + 48) (by omega) (k1_off77_eq k ⟨3, by decide⟩) l

end Cert.Proof.KI

end
-- ==== Proof.KI.Tile0Slab.lean ====
/-
  The four copies of a chunk leave the slab holding the chunk: each copy writes eight rows of 1024 columns of the
  transposed table into the slab's rows, the four together cover the slab, and an element under a copy reads the
  table's entry at the same row and at the chunk's first column plus its own column.
-/
import proofs.«203338_g27195732918861_cont_9to1_1050_16_alg».proof.Proof.KI.Tile0Val
import Idealize.ShloMosaic.Lib.Writes

noncomputable section

namespace Cert.Proof.KI

open Cert.KernelIdeal Cert.KernelIdeal.Gen

open Idealize.ShloMosaic Idealize.ShloMosaic.ValueIdx

variable {F : FTy → Type} [FloatOps F]

variable (d : Dev nD) (L : grid1.Coords)

/-- The four copies of a chunk into slab 0 — rows 0–7, 8–15, 16–23, 24–31 of columns `Y … Y + 1023` of the transposed
    table — leave the slab holding chunk `c` of the tile's columns, whatever it held before. -/
theorem slabOK_pieces0 (TT : Buf (Elt F) (ttLoc d)) (c Y : ℕ) (hc : c < 10) (hY : Y = base0 L + 1024 * c) (g0 : S32x1024.Idx → F .f32)
    (o0 o1 o2 o3 : Fin 2 → ℕ)
    (h0 : ∀ a, o0 a + S8x1024.size a ≤ S32x1000000.size a) (h1 : ∀ a, o1 a + S8x1024.size a ≤ S32x1000000.size a)
    (h2 : ∀ a, o2 a + S8x1024.size a ≤ S32x1000000.size a) (h3 : ∀ a, o3 a + S8x1024.size a ≤ S32x1000000.size a)
    (u0 : ∀ a, (Rect.unit (s := S32x1000000) o0 S8x1024.size h0).stride a = 1)
    (u1 : ∀ a, (Rect.unit (s := S32x1000000) o1 S8x1024.size h1).stride a = 1)
    (u2 : ∀ a, (Rect.unit (s := S32x1000000) o2 S8x1024.size h2).stride a = 1)
    (u3 : ∀ a, (Rect.unit (s := S32x1000000) o3 S8x1024.size h3).stride a = 1)
    (p0 : ∀ a, (![0, 0] : Fin 2 → ℕ) a + S8x1024.size a ≤ S32x1024.size a)
    (p1 : ∀ a, (![8, 0] : Fin 2 → ℕ) a + S8x1024.size a ≤ S32x1024.size a)
    (p2 : ∀ a, (![16, 0] : Fin 2 → ℕ) a + S8x1024.size a ≤ S32x1024.size a)
    (p3 : ∀ a, (![24, 0] : Fin 2 → ℕ) a + S8x1024.size a ≤ S32x1024.size a)
    (e0 : o0 = ![0, Y]) (e1 : o1 = ![8, Y]) (e2 : o2 = ![16, Y]) (e3 : o3 = ![24, Y]) :
    SlabOK d L TT c ((s0M).view.writes (Elt F) g0
      [⟨Rect.unit (s := S32x1024) ![24, 0] S8x1024.size p3, ReadAs.same.apply (((ttM).slice (Rect.unit (s := S32x1000000) o3 S8x1024.size h3) u3).view.read (Elt F) TT)⟩,
       ⟨Rect.unit (s := S32x1024) ![16, 0] S8x1024.size p2, ReadAs.same.apply (((ttM).slice (Rect.unit (s := S32x1000000) o2 S8x1024.size h2) u2).view.read (Elt F) TT)⟩,
       ⟨Rect.unit (s := S32x1024) ![8, 0] S8x1024.size p1, ReadAs.same.apply (((ttM).slice (Rect.unit (s := S32x1000000) o1 S8x1024.size h1) u1).view.read (Elt F) TT)⟩,
       ⟨Rect.unit (s := S32x1024) ![0, 0] S8x1024.size p0, ReadAs.same.apply (((ttM).slice (Rect.unit (s := S32x1000000) o0 S8x1024.size h0) u0).view.read (Elt F) TT)⟩]) := by
  intro r j h
  have hb := base0_le L
  have hr : ∀ g : S32x1024.Idx → F .f32, (s0M).view.read (Elt F) g = g := fun g => rfl
  subst e0 e1 e2 e3
  have hYb : ∀ y : S32x1024.Idx, Y + (y 1).val < 1000000 := fun y => by
    have hy : (y 1).val < 1024 := (y 1).isLt
    omega
  refine (congrFun (hr _).symm (ix2 r j)).trans ?_
  refine (View.read_writes_apply_of_pieces (Val := Elt F) (s0M).view _
    (fun y => TT (ix2 (y 0) ⟨Y + (y 1).val, hYb y⟩) : S32x1024.Idx → Elt F .f32) _ ?_ (ix2 r j) ?_).trans ?_
  · intro p hp x
    simp only [List.mem_cons, List.mem_nil_iff, or_false] at hp
    rcases hp with rfl | rfl | rfl | rfl
    · show TT ((Rect.unit (s := S32x1000000) ![24, Y] S8x1024.size h3).emb x)
          = TT (ix2 (((Rect.unit (s := S32x1024) ![24, 0] S8x1024.size p3).emb x) 0)
              ⟨Y + (((Rect.unit (s := S32x1024) ![24, 0] S8x1024.size p3).emb x) 1).val, hYb _⟩)
      refine congrArg TT (funext fun a => Fin.ext ?_)
      match a with
      | ⟨0, _⟩ => rfl
      | ⟨1, _⟩ =>
        show Y + 1 * (x 1).val = Y + (0 + 1 * (x 1).val)
        omega
    · show TT ((Rect.unit (s := S32x1000000) ![16, Y] S8x1024.size h2).emb x)
          = TT (ix2 (((Rect.unit (s := S32x1024) ![16, 0] S8x1024.size p2).emb x) 0)
              ⟨Y + (((Rect.unit (s := S32x1024) ![16, 0] S8x1024.size p2).emb x) 1).val, hYb _⟩)
      refine congrArg TT (funext fun a => Fin.ext ?_)
      match a with
      | ⟨0, _⟩ => rfl
      | ⟨1, _⟩ =>
        show Y + 1 * (x 1).val = Y + (0 + 1 * (x 1).val)
        omega
    · show TT ((Rect.unit (s := S32x1000000) ![8, Y] S8x1024.size h1).emb x)
          = TT (ix2 (((Rect.unit (s := S32x1024) ![8, 0] S8x1024.size p1).emb x) 0)
              ⟨Y + (((Rect.unit (s := S32x1024) ![8, 0] S8x1024.size p1).emb x) 1).val, hYb _⟩)
      refine congrArg TT (funext fun a => Fin.ext ?_)
      match a with
      | ⟨0, _⟩ => rfl
      | ⟨1, _⟩ =>
        show Y + 1 * (x 1).val = Y + (0 + 1 * (x 1).val)
        omega
    · show TT ((Rect.unit (s := S32x1000000) ![0, Y] S8x1024.size h0).emb x)
          = TT (ix2 (((Rect.unit (s := S32x1024) ![0, 0] S8x1024.size p0).emb x) 0)
              ⟨Y + (((Rect.unit (s := S32x1024) ![0, 0] S8x1024.size p0).emb x) 1).val, hYb _⟩)
      refine congrArg TT (funext fun a => Fin.ext ?_)
      match a with
      | ⟨0, _⟩ => rfl
      | ⟨1, _⟩ =>
        show Y + 1 * (x 1).val = Y + (0 + 1 * (x 1).val)
        omega
  · have hr32 : r.val < 32 := r.isLt
    have hj : j.val < 1024 := j.isLt
    rcases (show r.val < 8 ∨ ((8 ≤ r.val ∧ r.val < 16) ∨ ((16 ≤ r.val ∧ r.val < 24) ∨ 24 ≤ r.val)) by omega) with hq | hq | hq | hq
    ·
      exact ⟨_, List.mem_cons_of_mem _ (List.mem_cons_of_mem _ (List.mem_cons_of_mem _ List.mem_cons_self)),
        (Rect.mem_set_unit (inb := p0)).mpr (Fin.forall_fin_two.mpr
          ⟨⟨by show 0 ≤ r.val; omega, by show r.val < 0 + 8; omega⟩, ⟨by show 0 ≤ j.val; omega, by show j.val < 0 + 1024; omega⟩⟩)⟩
    ·
      exact ⟨_, List.mem_cons_of_mem _ (List.mem_cons_of_mem _ List.mem_cons_self),
        (Rect.mem_set_unit (inb := p1)).mpr (Fin.forall_fin_two.mpr
          ⟨⟨by show 8 ≤ r.val; omega, by show r.val < 8 + 8; omega⟩, ⟨by show 0 ≤ j.val; omega, by show j.val < 0 + 1024; omega⟩⟩)⟩
    ·
      exact ⟨_, List.mem_cons_of_mem _ List.mem_cons_self,
        (Rect.mem_set_unit (inb := p2)).mpr (Fin.forall_fin_two.mpr
          ⟨⟨by show 16 ≤ r.val; omega, by show r.val < 16 + 8; omega⟩, ⟨by show 0 ≤ j.val; omega, by show j.val < 0 + 1024; omega⟩⟩)⟩
    ·
      exact ⟨_, List.mem_cons_self,
        (Rect.mem_set_unit (inb := p3)).mpr (Fin.forall_fin_two.mpr
          ⟨⟨by show 24 ≤ r.val; omega, by show r.val < 24 + 8; omega⟩, ⟨by show 0 ≤ j.val; omega, by show j.val < 0 + 1024; omega⟩⟩)⟩
  · exact congrArg TT (congrArg (ix2 r) (Fin.ext (by show Y + j.val = base0 L + 1024 * c + j.val; rw [hY])))

/-- The four copies of a chunk into slab 1 — rows 0–7, 8–15, 16–23, 24–31 of columns `Y … Y + 1023` of the transposed
    table — leave the slab holding chunk `c` of the tile's columns, whatever it held before. -/
theorem slabOK_pieces1 (TT : Buf (Elt F) (ttLoc d)) (c Y : ℕ) (hc : c < 10) (hY : Y = base0 L + 1024 * c) (g0 : S32x1024.Idx → F .f32)
    (o0 o1 o2 o3 : Fin 2 → ℕ)
    (h0 : ∀ a, o0 a + S8x1024.size a ≤ S32x1000000.size a) (h1 : ∀ a, o1 a + S8x1024.size a ≤ S32x1000000.size a)
    (h2 : ∀ a, o2 a + S8x1024.size a ≤ S32x1000000.size a) (h3 : ∀ a, o3 a + S8x1024.size a ≤ S32x1000000.size a)
    (u0 : ∀ a, (Rect.unit (s := S32x1000000) o0 S8x1024.size h0).stride a = 1)
    (u1 : ∀ a, (Rect.unit (s := S32x1000000) o1 S8x1024.size h1).stride a = 1)
    (u2 : ∀ a, (Rect.unit (s := S32x1000000) o2 S8x1024.size h2).stride a = 1)
    (u3 : ∀ a, (Rect.unit (s := S32x1000000) o3 S8x1024.size h3).stride a = 1)
    (p0 : ∀ a, (![0, 0] : Fin 2 → ℕ) a + S8x1024.size a ≤ S32x1024.size a)
    (p1 : ∀ a, (![8, 0] : Fin 2 → ℕ) a + S8x1024.size a ≤ S32x1024.size a)
    (p2 : ∀ a, (![16, 0] : Fin 2 → ℕ) a + S8x1024.size a ≤ S32x1024.size a)
    (p3 : ∀ a, (![24, 0] : Fin 2 → ℕ) a + S8x1024.size a ≤ S32x1024.size a)
    (e0 : o0 = ![0, Y]) (e1 : o1 = ![8, Y]) (e2 : o2 = ![16, Y]) (e3 : o3 = ![24, Y]) :
    SlabOK d L TT c ((s1M).view.writes (Elt F) g0
      [⟨Rect.unit (s := S32x1024) ![24, 0] S8x1024.size p3, ReadAs.same.apply (((ttM).slice (Rect.unit (s := S32x1000000) o3 S8x1024.size h3) u3).view.read (Elt F) TT)⟩,
       ⟨Rect.unit (s := S32x1024) ![16, 0] S8x1024.size p2, ReadAs.same.apply (((ttM).slice (Rect.unit (s := S32x1000000) o2 S8x1024.size h2) u2).view.read (Elt F) TT)⟩,
       ⟨Rect.unit (s := S32x1024) ![8, 0] S8x1024.size p1, ReadAs.same.apply (((ttM).slice (Rect.unit (s := S32x1000000) o1 S8x1024.size h1) u1).view.read (Elt F) TT)⟩,
       ⟨Rect.unit (s := S32x1024) ![0, 0] S8x1024.size p0, ReadAs.same.apply (((ttM).slice (Rect.unit (s := S32x1000000) o0 S8x1024.size h0) u0).view.read (Elt F) TT)⟩]) := by
  intro r j h
  have hb := base0_le L
  have hr : ∀ g : S32x1024.Idx → F .f32, (s1M).view.read (Elt F) g = g := fun g => rfl
  subst e0 e1 e2 e3
  have hYb : ∀ y : S32x1024.Idx, Y + (y 1).val < 1000000 := fun y => by
    have hy : (y 1).val < 1024 := (y 1).isLt
    omega
  refine (congrFun (hr _).symm (ix2 r j)).trans ?_
  refine (View.read_writes_apply_of_pieces (Val := Elt F) (s1M).view _
    (fun y => TT (ix2 (y 0) ⟨Y + (y 1).val, hYb y⟩) : S32x1024.Idx → Elt F .f32) _ ?_ (ix2 r j) ?_).trans ?_
  · intro p hp x
    simp only [List.mem_cons, List.mem_nil_iff, or_false] at hp
    rcases hp with rfl | rfl | rfl | rfl
    · show TT ((Rect.unit (s := S32x1000000) ![24, Y] S8x1024.size h3).emb x)
          = TT (ix2 (((Rect.unit (s := S32x1024) ![24, 0] S8x1024.size p3).emb x) 0)
              ⟨Y + (((Rect.unit (s := S32x1024) ![24, 0] S8x1024.size p3).emb x) 1).val, hYb _⟩)
      refine congrArg TT (funext fun a => Fin.ext ?_)
      match a with
      | ⟨0, _⟩ => rfl
      | ⟨1, _⟩ =>
        show Y + 1 * (x 1).val = Y + (0 + 1 * (x 1).val)
        omega
    · show TT ((Rect.unit (s := S32x1000000) ![16, Y] S8x1024.size h2).emb x)
          = TT (ix2 (((Rect.unit (s := S32x1024) ![16, 0] S8x1024.size p2).emb x) 0)
              ⟨Y + (((Rect.unit (s := S32x1024) ![16, 0] S8x1024.size p2).emb x) 1).val, hYb _⟩)
      refine congrArg TT (funext fun a => Fin.ext ?_)
      match a with
      | ⟨0, _⟩ => rfl
      | ⟨1, _⟩ =>
        show Y + 1 * (x 1).val = Y + (0 + 1 * (x 1).val)
        omega
    · show TT ((Rect.unit (s := S32x1000000) ![8, Y] S8x1024.size h1).emb x)
          = TT (ix2 (((Rect.unit (s := S32x1024) ![8, 0] S8x1024.size p1).emb x) 0)
              ⟨Y + (((Rect.unit (s := S32x1024) ![8, 0] S8x1024.size p1).emb x) 1).val, hYb _⟩)
      refine congrArg TT (funext fun a => Fin.ext ?_)
      match a with
      | ⟨0, _⟩ => rfl
      | ⟨1, _⟩ =>
        show Y + 1 * (x 1).val = Y + (0 + 1 * (x 1).val)
        omega
    · show TT ((Rect.unit (s := S32x1000000) ![0, Y] S8x1024.size h0).emb x)
          = TT (ix2 (((Rect.unit (s := S32x1024) ![0, 0] S8x1024.size p0).emb x) 0)
              ⟨Y + (((Rect.unit (s := S32x1024) ![0, 0] S8x1024.size p0).emb x) 1).val, hYb _⟩)
      refine congrArg TT (funext fun a => Fin.ext ?_)
      match a with
      | ⟨0, _⟩ => rfl
      | ⟨1, _⟩ =>
        show Y + 1 * (x 1).val = Y + (0 + 1 * (x 1).val)
        omega
  · have hr32 : r.val < 32 := r.isLt
    have hj : j.val < 1024 := j.isLt
    rcases (show r.val < 8 ∨ ((8 ≤ r.val ∧ r.val < 16) ∨ ((16 ≤ r.val ∧ r.val < 24) ∨ 24 ≤ r.val)) by omega) with hq | hq | hq | hq
    ·
      exact ⟨_, List.mem_cons_of_mem _ (List.mem_cons_of_mem _ (List.mem_cons_of_mem _ List.mem_cons_self)),
        (Rect.mem_set_unit (inb := p0)).mpr (Fin.forall_fin_two.mpr
          ⟨⟨by show 0 ≤ r.val; omega, by show r.val < 0 + 8; omega⟩, ⟨by show 0 ≤ j.val; omega, by show j.val < 0 + 1024; omega⟩⟩)⟩
    ·
      exact ⟨_, List.mem_cons_of_mem _ (List.mem_cons_of_mem _ List.mem_cons_self),
        (Rect.mem_set_unit (inb := p1)).mpr (Fin.forall_fin_two.mpr
          ⟨⟨by show 8 ≤ r.val; omega, by show r.val < 8 + 8; omega⟩, ⟨by show 0 ≤ j.val; omega, by show j.val < 0 + 1024; omega⟩⟩)⟩
    ·
      exact ⟨_, List.mem_cons_of_mem _ List.mem_cons_self,
        (Rect.mem_set_unit (inb := p2)).mpr (Fin.forall_fin_two.mpr
          ⟨⟨by show 16 ≤ r.val; omega, by show r.val < 16 + 8; omega⟩, ⟨by show 0 ≤ j.val; omega, by show j.val < 0 + 1024; omega⟩⟩)⟩
    ·
      exact ⟨_, List.mem_cons_self,
        (Rect.mem_set_unit (inb := p3)).mpr (Fin.forall_fin_two.mpr
          ⟨⟨by show 24 ≤ r.val; omega, by show r.val < 24 + 8; omega⟩, ⟨by show 0 ≤ j.val; omega, by show j.val < 0 + 1024; omega⟩⟩)⟩
  · exact congrArg TT (congrArg (ix2 r) (Fin.ext (by show Y + j.val = base0 L + 1024 * c + j.val; rw [hY])))

end Cert.Proof.KI

end
-- ==== Proof.KI.Tile0Seg.lean ====
/-
  The last copy of the first SparseCore call: the result buffer, holding the tile's 10240 column sums, is copied onto the
  tile's segment of the call's result; on that segment the result then agrees with the column sums of the transposed table.
-/
import proofs.«203338_g27195732918861_cont_9to1_1050_16_alg».proof.Proof.KI.Tile0Val
import proofs.«203338_g27195732918861_cont_9to1_1050_16_alg».proof.Proof.KI.Sets
import Idealize.ShloMosaic.Lib.Writes

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI

variable {F : FTy → Type} [FloatOps F]

local notation "𝕄" => MT nD τ sig (HIx 2) (Elt F) ℕ UU ℕ

variable (d : Dev nD) (L : grid1.Coords)

/-- Element `y` of the tile's segment is entry `base0 L + y` of the call's result. -/
theorem seg0_emb (y : S10240.Idx) (h : base0 L + (y 0).val < 327680) :
    (seg0M L).view.emb y = (ix1 ⟨base0 L + (y 0).val, h⟩ : S327680.Idx) := by
  show ((Rect.unit (s := S327680) (k1_off83 L) S10240.size (k1_off83_inb L)).emb y : S327680.Idx) = _
  funext a
  revert a
  refine Fin.forall_fin_one.mpr (Fin.ext ?_)
  rw [Rect.emb_apply, Rect.off_unit, Rect.stride_unit]
  have e : k1_off83 L 0 = 20480 * (L 1).val + 10240 * (L 0).val := congrFun (k1_off83_eq L) 0
  show k1_off83 L 0 + 1 * (y 0).val = base0 L + (y 0).val
  unfold base0
  omega

/-- THE LAST COPY: the segment written whole with a result buffer that holds the tile's column sums is, on the segment,
    the first call's value. -/
theorem seg_final (TT : Buf (Elt F) (ttLoc d)) (f0 : Buf (Elt F) (rsLoc d)) (g : S10240.Idx → F .f32) (hg : OutOK d L TT 10240 g) :
    ((seg0M L).view.loc (thr0 d L) ↦[(seg0M L).view.set]{fullShare}
        (seg0M L).view.writes (Elt F) f0 [⟨Rect.whole S10240, ReadAs.same.apply ((obM).view.read (Elt F) g)⟩] : sProp 𝕄)
      = ((seg0M L).view.loc (thr0 d L) ↦[(seg0M L).view.set]{fullShare} (tile0Val TT : Buf (Elt F) (rsLoc d))) := by
  refine pointsTo_congr (fun i hi => ?_)
  obtain ⟨y, -, rfl⟩ := Finset.mem_map.mp hi
  have hb := base0_le L
  have hy : (y 0).val < 10240 := (y 0).isLt
  have h : base0 L + (y 0).val < 327680 := by omega
  have key := View.read_writes_cons_emb (Val := Elt F) (seg0M L).view f0 (Rect.whole S10240)
    (ReadAs.same.apply ((obM).view.read (Elt F) g)) [] y
  rw [Rect.emb_whole_apply, View.read_apply] at key
  have e1 := eq_of_heq ((cast_heq _ _).symm.trans (heq_of_eq key))
  refine e1.trans ?_
  show g y = _
  rw [hg y h hy]
  exact congrArg (tile0Val TT) (seg0_emb L y h).symm

end Cert.Proof.KI

end
-- ==== Proof.KI.Tile0.lean ====
/-
  The body of the first SparseCore call at a symbolic tile, run once: the two slabs' first chunks are started, the five
  outer trips are laid out in sequence (each waits for a slab's four copies, sums its 1024 columns sixty-four at a time
  into the result buffer and starts the slab's next chunk), and the result buffer is copied to the tile's segment.
-/
import proofs.«203338_g27195732918861_cont_9to1_1050_16_alg».proof.Proof.KI.Tile0Val
import proofs.«203338_g27195732918861_cont_9to1_1050_16_alg».proof.Proof.KI.ColSumLemmas
import proofs.«203338_g27195732918861_cont_9to1_1050_16_alg».proof.Proof.KI.Tile0Slab
import proofs.«203338_g27195732918861_cont_9to1_1050_16_alg».proof.Proof.KI.Tile0Seg

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)

/-! ## The inner loops, with the values: one trip turns 64 more entries of the chunk into the slab's column sums -/

/-- Where the four stores of inner trip `k` of outer trip `k1` over slab 0 land. -/
theorem off41_at (k1 : Fin k1_t1_loop.trips) (k : Fin k1_t2_loop.trips) (u : Fin 4) :
    k1_off41 k1 k (BitVec.ofNat 32 u.val) 0 = 1024 * (2 * k1.val) + 64 * k.val + 16 * u.val := by
  rw [k1_off41_eq]
  show 2048 * k1.val + 64 * k.val + 16 * u.val = _
  omega

/-- Where the four stores of inner trip `k` of outer trip `k1` over slab 1 land. -/
theorem off78_at (k1 : Fin k1_t1_loop.trips) (k : Fin k1_t3_loop.trips) (u : Fin 4) :
    k1_off78 k1 k (BitVec.ofNat 32 u.val) 0 = 1024 * (2 * k1.val + 1) + 64 * k.val + 16 * u.val := by
  rw [k1_off78_eq]
  show 2048 * k1.val + 64 * k.val + 16 * u.val + 1024 = _
  omega

/-- Before inner trip `k` over slab 0: the slab holds chunk `c`, the result buffer is the entry contents with the
    chunk's first `64 k` entries summed, and the entry contents' earlier chunks were the tile's column sums. -/
def inv2v (TT : Buf (Elt F) (ttLoc d)) (c : ℕ) (k : ℕ) (_ : Unit) : sProp 𝕄 :=
  iprop(∃ (fsl : S32x1024.Idx → F .f32) (fin : S10240.Idx → F .f32),
    ((s0M).view.loc (thr0 d L) ↦{fullShare} fsl) ∗ ((obM).view.loc (thr0 d L) ↦{fullShare} patch fsl (1024 * c) (64 * k) fin)
      ∗ ⌜SlabOK d L TT c fsl⌝ ∗ ⌜OutOK d L TT (1024 * c) fin⌝)

/-- Before inner trip `k` over slab 1. -/
def inv3v (TT : Buf (Elt F) (ttLoc d)) (c : ℕ) (k : ℕ) (_ : Unit) : sProp 𝕄 :=
  iprop(∃ (fsl : S32x1024.Idx → F .f32) (fin : S10240.Idx → F .f32),
    ((s1M).view.loc (thr0 d L) ↦{fullShare} fsl) ∗ ((obM).view.loc (thr0 d L) ↦{fullShare} patch fsl (1024 * c) (64 * k) fin)
      ∗ ⌜SlabOK d L TT c fsl⌝ ∗ ⌜OutOK d L TT (1024 * c) fin⌝)

set_option maxHeartbeats 4000000 in
/-- One inner trip over slab 0. -/
theorem trip2v (TT : Buf (Elt F) (ttLoc d)) (v2 arg9 v46 : BitVec 32) (k1_t1 : Fin k1_t1_loop.trips) (k : Fin k1_t2_loop.trips) (acc : Unit) :
    inv2v (F := F) d L TT (2 * k1_t1.val) k.val acc ⊢ wp frame (wpE (defs₀ (F := F)) 𝒱₀ (thr0 d L) none) Set.univ
      (k1_t2_body (F := F) L ttM (Memref.isWhole_whole _) rsM (Memref.isWhole_whole _) s0M (Memref.isWhole_whole _) s1M (Memref.isWhole_whole _) obM (Memref.isWhole_whole _) cc1_scratch3 cc1_scratch4 cc1_scoped0 v2 k1_t1 arg9 v46 k acc)
      (inv2v (F := F) d L TT (2 * k1_t1.val) (k.val + 1)) := by
  unfold inv2v k1_t2_body
  iintro ⟨%fsl, %fin, Hs, Hob, %hS, %hO⟩
  sl_exec_parts
  sl_step
  iexists fsl, fin
  isplitl [Hs]; · iexact Hs
  isplitl [Hob]
  · sl_unfold_run_names
    rw [patch_step fsl (1024 * (2 * k1_t1.val)) k.val fin]
    · iexact Hob
    · exact off41_at k1_t1 k ⟨0, by decide⟩
    · exact off41_at k1_t1 k ⟨1, by decide⟩
    · exact off41_at k1_t1 k ⟨2, by decide⟩
    · exact off41_at k1_t1 k ⟨3, by decide⟩
    · exact fun x => pay2_u0 fsl k x
    · exact fun x => pay2_u1 fsl k x
    · exact fun x => pay2_u2 fsl k x
    · exact fun x => pay2_u3 fsl k x
  isplitr <;> (ipureintro; assumption)

set_option maxHeartbeats 4000000 in
/-- One inner trip over slab 1. -/
theorem trip3v (TT : Buf (Elt F) (ttLoc d)) (v1 v2 c1024 v77 : BitVec 32) (k1_t1 : Fin k1_t1_loop.trips) (k : Fin k1_t3_loop.trips) (acc : Unit) :
    inv3v (F := F) d L TT (2 * k1_t1.val + 1) k.val acc ⊢ wp frame (wpE (defs₀ (F := F)) 𝒱₀ (thr0 d L) none) Set.univ
      (k1_t3_body (F := F) L ttM (Memref.isWhole_whole _) rsM (Memref.isWhole_whole _) s0M (Memref.isWhole_whole _) s1M (Memref.isWhole_whole _) obM (Memref.isWhole_whole _) cc1_scratch3 cc1_scratch4 cc1_scoped0 v1 v2 c1024 k1_t1 v77 k acc)
      (inv3v (F := F) d L TT (2 * k1_t1.val + 1) (k.val + 1)) := by
  unfold inv3v k1_t3_body
  iintro ⟨%fsl, %fin, Hs, Hob, %hS, %hO⟩
  sl_exec_parts
  sl_step
  iexists fsl, fin
  isplitl [Hs]; · iexact Hs
  isplitl [Hob]
  · sl_unfold_run_names
    rw [patch_step fsl (1024 * (2 * k1_t1.val + 1)) k.val fin]
    · iexact Hob
    · exact off78_at k1_t1 k ⟨0, by decide⟩
    · exact off78_at k1_t1 k ⟨1, by decide⟩
    · exact off78_at k1_t1 k ⟨2, by decide⟩
    · exact off78_at k1_t1 k ⟨3, by decide⟩
    · exact fun x => pay3_u0 fsl k x
    · exact fun x => pay3_u1 fsl k x
    · exact fun x => pay3_u2 fsl k x
    · exact fun x => pay3_u3 fsl k x
  isplitr <;> (ipureintro; assumption)

set_option maxHeartbeats 4000000 in
theorem tile0_body (hF : (K (F := F)).Facts) (O : CellTallies nD τ sig (HIx 2)) (W : Waits sig (HIx 2)) (hO : ∀ g, O g none = 0)
    (q : PosShare TreeShare) (TT : Buf (Elt F) (ttLoc d)) (f0 : Buf (Elt F) (rsLoc d)) :
    (iprop(levAts (K (F := F)).L (K (F := F)).lev ∗ ((ttLoc d ↦{q} TT) ∗ (rsLoc d ↦[outSeg0 L]{fullShare} f0))
        ∗ scopedBufs (thr0 d L) ∗ scopedSems0 (thr0 d L) ∗ owes (thr0 d L) O W) : sProp 𝕄)
      ⊢ wp frame (wpE (defs₀ (F := F)) 𝒱₀ (thr0 d L) none) Set.univ
          (cc1_rs_kernel (F := F) L ttM (Memref.isWhole_whole _) rsM (Memref.isWhole_whole _) s0M (Memref.isWhole_whole _) s1M (Memref.isWhole_whole _) obM (Memref.isWhole_whole _) cc1_scratch3 cc1_scratch4 cc1_scoped0)
          fun _ => iprop(((ttLoc d ↦{q} TT) ∗ (rsLoc d ↦[outSeg0 L]{fullShare} tile0Val TT))
            ∗ scopedBufs (thr0 d L) ∗ scopedSems0 (thr0 d L) ∗ ∃ W', ⌜∀ p ∈ W', p ∈ W ∨ p.2 = none⌝ ∗ owes (thr0 d L) O W') := by
  have hplan3 : Transfers.BatchOf (thr0 d L) (SemLoc.dma cc1_scratch3.sem) 4 true := trivial
  have hplan4 : Transfers.BatchOf (thr0 d L) (SemLoc.dma cc1_scratch4.sem) 4 true := trivial
  simp only [cc1_rs_kernel_eq_skeleton]; unfold cc1_rs_kernel_skel
  rw [(K (F := F)).scopedBufs_V hF d (cV L) (jV L), SparseCore.Cfg.scopedSems0_V (Val := Elt F) d (cV L) (jV L), ownSems0_V0, ownBufs_V0]
  iintro ⟨#Hlv, ⟨Htt, Hseg⟩, ⟨⟨%fs0, Hs0⟩, ⟨%fs1, Hs1⟩, ⟨%fob, Hob⟩, Hbufs⟩, ⟨Hsem3, Hsem4, Hsem6, Hsems⟩, HO⟩
  ihave Hmw := ((K (F := F)).mayWaits_none (thr := thr0 d L) hO) $$ Hlv
  ihave Htt' := (Entails.of_eq (pts_tt (F := F) d L q _).symm) $$ Htt
  ihave Htk := (tt_toks (F := F) d L q TT).1 $$ Htt'
  icases Htk with ⟨Htt4, Htt5, Httr⟩
  ihave Hseg' := (Entails.of_eq (pts_seg (F := F) d L _).symm) $$ Hseg
  ihave Hs0' := (Entails.of_eq (pts_s0 (F := F) d L _).symm) $$ Hs0
  ihave Hs1' := (Entails.of_eq (pts_s1 (F := F) d L _).symm) $$ Hs1
  ihave Hob' := (Entails.of_eq (pts_ob (F := F) d L _).symm) $$ Hob
  have hOK := outOK_zero (F := F) d L TT fob
  sl_exec
  sl_unroll
  sl_exec (disch := decide)
  sl_for (inv2v (F := F) d L TT 0) $$ [Hs0' Hob']
  case region => intro k acc; exact trip2v (F := F) d L TT _ _ _ ⟨0, by decide⟩ k acc
  · unfold inv2v
    iexists _, _
    isplitl [Hs0']; · iexact Hs0'
    isplitl [Hob']; · rw [show (64 * 0 : ℕ) = 0 from rfl, patch_zero]; iexact Hob'
    isplitr
    · ipureintro
      sl_unfold_run_names
      exact slabOK_pieces0 (F := F) d L TT 0 _ (by decide) (by unfold base0; first | (simp only [Fin.val_mk]; first | done | omega) | omega) _ _ _ _ _ _ _ _ _ _ _ _ _ _ _ _ _
        (k1_off1_eq L ⟨0, by first | decide | done⟩) (k1_off2_eq L ⟨0, by first | decide | done⟩) (k1_off3_eq L ⟨0, by first | decide | done⟩) (k1_off4_eq L ⟨0, by first | decide | done⟩)
    · ipureintro; exact hOK
  iintro %_ HI
  unfold inv2v
  icases HI with ⟨%fsl0, %fin0, Hs0', Hob', %hS0, %hO0⟩
  replace hOK := outOK_step d L TT 0 (by decide) fsl0 fin0 hS0 hO0
  sl_exec (disch := decide)
  sl_for (inv3v (F := F) d L TT 1) $$ [Hs1' Hob']
  case region => intro k acc; exact trip3v (F := F) d L TT _ _ _ _ ⟨0, by decide⟩ k acc
  · unfold inv3v
    iexists _, _
    isplitl [Hs1']; · iexact Hs1'
    isplitl [Hob']; · rw [show (64 * 0 : ℕ) = 0 from rfl, patch_zero]; iexact Hob'
    isplitr
    · ipureintro
      sl_unfold_run_names
      exact slabOK_pieces1 (F := F) d L TT 1 _ (by decide) (by unfold base0; first | (simp only [Fin.val_mk]; first | done | omega) | omega) _ _ _ _ _ _ _ _ _ _ _ _ _ _ _ _ _
        (k1_off1_eq L ⟨1, by first | decide | done⟩) (k1_off2_eq L ⟨1, by first | decide | done⟩) (k1_off3_eq L ⟨1, by first | decide | done⟩) (k1_off4_eq L ⟨1, by first | decide | done⟩)
    · ipureintro; exact hOK
  iintro %_ HI
  unfold inv3v
  icases HI with ⟨%fsl1, %fin1, Hs1', Hob', %hS1, %hO1⟩
  replace hOK := outOK_step d L TT 1 (by decide) fsl1 fin1 hS1 hO1
  sl_exec (disch := decide)
  sl_for (inv2v (F := F) d L TT 2) $$ [Hs0' Hob']
  case region => intro k acc; exact trip2v (F := F) d L TT _ _ _ ⟨1, by decide⟩ k acc
  · unfold inv2v
    iexists _, _
    isplitl [Hs0']; · iexact Hs0'
    isplitl [Hob']; · rw [show (64 * 0 : ℕ) = 0 from rfl, patch_zero]; iexact Hob'
    isplitr
    · ipureintro
      sl_unfold_run_names
      exact slabOK_pieces0 (F := F) d L TT 2 _ (by decide) (by unfold base0; first | (simp only [Fin.val_mk]; first | done | omega) | omega) _ _ _ _ _ _ _ _ _ _ _ _ _ _ _ _ _
        (k1_off42_eq L ⟨0, by first | decide | done⟩) (k1_off43_eq L ⟨0, by first | decide | done⟩) (k1_off44_eq L ⟨0, by first | decide | done⟩) (k1_off45_eq L ⟨0, by first | decide | done⟩)
    · ipureintro; exact hOK
  iintro %_ HI
  unfold inv2v
  icases HI with ⟨%fsl2, %fin2, Hs0', Hob', %hS2, %hO2⟩
  replace hOK := outOK_step d L TT 2 (by decide) fsl2 fin2 hS2 hO2
  sl_exec (disch := decide)
  sl_for (inv3v (F := F) d L TT 3) $$ [Hs1' Hob']
  case region => intro k acc; exact trip3v (F := F) d L TT _ _ _ _ ⟨1, by decide⟩ k acc
  · unfold inv3v
    iexists _, _
    isplitl [Hs1']; · iexact Hs1'
    isplitl [Hob']; · rw [show (64 * 0 : ℕ) = 0 from rfl, patch_zero]; iexact Hob'
    isplitr
    · ipureintro
      sl_unfold_run_names
      exact slabOK_pieces1 (F := F) d L TT 3 _ (by decide) (by unfold base0; first | (simp only [Fin.val_mk]; first | done | omega) | omega) _ _ _ _ _ _ _ _ _ _ _ _ _ _ _ _ _
        (k1_off79_eq L ⟨0, by first | decide | done⟩) (k1_off80_eq L ⟨0, by first | decide | done⟩) (k1_off81_eq L ⟨0, by first | decide | done⟩) (k1_off82_eq L ⟨0, by first | decide | done⟩)
    · ipureintro; exact hOK
  iintro %_ HI
  unfold inv3v
  icases HI with ⟨%fsl3, %fin3, Hs1', Hob', %hS3, %hO3⟩
  replace hOK := outOK_step d L TT 3 (by decide) fsl3 fin3 hS3 hO3
  sl_exec (disch := decide)
  sl_for (inv2v (F := F) d L TT 4) $$ [Hs0' Hob']
  case region => intro k acc; exact trip2v (F := F) d L TT _ _ _ ⟨2, by decide⟩ k acc
  · unfold inv2v
    iexists _, _
    isplitl [Hs0']; · iexact Hs0'
    isplitl [Hob']; · rw [show (64 * 0 : ℕ) = 0 from rfl, patch_zero]; iexact Hob'
    isplitr
    · ipureintro
      sl_unfold_run_names
      exact slabOK_pieces0 (F := F) d L TT 4 _ (by decide) (by unfold base0; first | (simp only [Fin.val_mk]; first | done | omega) | omega) _ _ _ _ _ _ _ _ _ _ _ _ _ _ _ _ _
        (k1_off42_eq L ⟨1, by first | decide | done⟩) (k1_off43_eq L ⟨1, by first | decide | done⟩) (k1_off44_eq L ⟨1, by first | decide | done⟩) (k1_off45_eq L ⟨1, by first | decide | done⟩)
    · ipureintro; exact hOK
  iintro %_ HI
  unfold inv2v
  icases HI with ⟨%fsl4, %fin4, Hs0', Hob', %hS4, %hO4⟩
  replace hOK := outOK_step d L TT 4 (by decide) fsl4 fin4 hS4 hO4
  sl_exec (disch := decide)
  sl_for (inv3v (F := F) d L TT 5) $$ [Hs1' Hob']
  case region => intro k acc; exact trip3v (F := F) d L TT _ _ _ _ ⟨2, by decide⟩ k acc
  · unfold inv3v
    iexists _, _
    isplitl [Hs1']; · iexact Hs1'
    isplitl [Hob']; · rw [show (64 * 0 : ℕ) = 0 from rfl, patch_zero]; iexact Hob'
    isplitr
    · ipureintro
      sl_unfold_run_names
      exact slabOK_pieces1 (F := F) d L TT 5 _ (by decide) (by unfold base0; first | (simp only [Fin.val_mk]; first | done | omega) | omega) _ _ _ _ _ _ _ _ _ _ _ _ _ _ _ _ _
        (k1_off79_eq L ⟨1, by first | decide | done⟩) (k1_off80_eq L ⟨1, by first | decide | done⟩) (k1_off81_eq L ⟨1, by first | decide | done⟩) (k1_off82_eq L ⟨1, by first | decide | done⟩)
    · ipureintro; exact hOK
  iintro %_ HI
  unfold inv3v
  icases HI with ⟨%fsl5, %fin5, Hs1', Hob', %hS5, %hO5⟩
  replace hOK := outOK_step d L TT 5 (by decide) fsl5 fin5 hS5 hO5
  sl_exec (disch := decide)
  sl_for (inv2v (F := F) d L TT 6) $$ [Hs0' Hob']
  case region => intro k acc; exact trip2v (F := F) d L TT _ _ _ ⟨3, by decide⟩ k acc
  · unfold inv2v
    iexists _, _
    isplitl [Hs0']; · iexact Hs0'
    isplitl [Hob']; · rw [show (64 * 0 : ℕ) = 0 from rfl, patch_zero]; iexact Hob'
    isplitr
    · ipureintro
      sl_unfold_run_names
      exact slabOK_pieces0 (F := F) d L TT 6 _ (by decide) (by unfold base0; first | (simp only [Fin.val_mk]; first | done | omega) | omega) _ _ _ _ _ _ _ _ _ _ _ _ _ _ _ _ _
        (k1_off42_eq L ⟨2, by first | decide | done⟩) (k1_off43_eq L ⟨2, by first | decide | done⟩) (k1_off44_eq L ⟨2, by first | decide | done⟩) (k1_off45_eq L ⟨2, by first | decide | done⟩)
    · ipureintro; exact hOK
  iintro %_ HI
  unfold inv2v
  icases HI with ⟨%fsl6, %fin6, Hs0', Hob', %hS6, %hO6⟩
  replace hOK := outOK_step d L TT 6 (by decide) fsl6 fin6 hS6 hO6
  sl_exec (disch := decide)
  sl_for (inv3v (F := F) d L TT 7) $$ [Hs1' Hob']
  case region => intro k acc; exact trip3v (F := F) d L TT _ _ _ _ ⟨3, by decide⟩ k acc
  · unfold inv3v
    iexists _, _
    isplitl [Hs1']; · iexact Hs1'
    isplitl [Hob']; · rw [show (64 * 0 : ℕ) = 0 from rfl, patch_zero]; iexact Hob'
    isplitr
    · ipureintro
      sl_unfold_run_names
      exact slabOK_pieces1 (F := F) d L TT 7 _ (by decide) (by unfold base0; first | (simp only [Fin.val_mk]; first | done | omega) | omega) _ _ _ _ _ _ _ _ _ _ _ _ _ _ _ _ _
        (k1_off79_eq L ⟨2, by first | decide | done⟩) (k1_off80_eq L ⟨2, by first | decide | done⟩) (k1_off81_eq L ⟨2, by first | decide | done⟩) (k1_off82_eq L ⟨2, by first | decide | done⟩)
    · ipureintro; exact hOK
  iintro %_ HI
  unfold inv3v
  icases HI with ⟨%fsl7, %fin7, Hs1', Hob', %hS7, %hO7⟩
  replace hOK := outOK_step d L TT 7 (by decide) fsl7 fin7 hS7 hO7
  sl_exec (disch := decide)
  sl_for (inv2v (F := F) d L TT 8) $$ [Hs0' Hob']
  case region => intro k acc; exact trip2v (F := F) d L TT _ _ _ ⟨4, by decide⟩ k acc
  · unfold inv2v
    iexists _, _
    isplitl [Hs0']; · iexact Hs0'
    isplitl [Hob']; · rw [show (64 * 0 : ℕ) = 0 from rfl, patch_zero]; iexact Hob'
    isplitr
    · ipureintro
      sl_unfold_run_names
      exact slabOK_pieces0 (F := F) d L TT 8 _ (by decide) (by unfold base0; first | (simp only [Fin.val_mk]; first | done | omega) | omega) _ _ _ _ _ _ _ _ _ _ _ _ _ _ _ _ _
        (k1_off42_eq L ⟨3, by first | decide | done⟩) (k1_off43_eq L ⟨3, by first | decide | done⟩) (k1_off44_eq L ⟨3, by first | decide | done⟩) (k1_off45_eq L ⟨3, by first | decide | done⟩)
    · ipureintro; exact hOK
  iintro %_ HI
  unfold inv2v
  icases HI with ⟨%fsl8, %fin8, Hs0', Hob', %hS8, %hO8⟩
  replace hOK := outOK_step d L TT 8 (by decide) fsl8 fin8 hS8 hO8
  sl_exec (disch := decide)
  sl_for (inv3v (F := F) d L TT 9) $$ [Hs1' Hob']
  case region => intro k acc; exact trip3v (F := F) d L TT _ _ _ _ ⟨4, by decide⟩ k acc
  · unfold inv3v
    iexists _, _
    isplitl [Hs1']; · iexact Hs1'
    isplitl [Hob']; · rw [show (64 * 0 : ℕ) = 0 from rfl, patch_zero]; iexact Hob'
    isplitr
    · ipureintro
      sl_unfold_run_names
      exact slabOK_pieces1 (F := F) d L TT 9 _ (by decide) (by unfold base0; first | (simp only [Fin.val_mk]; first | done | omega) | omega) _ _ _ _ _ _ _ _ _ _ _ _ _ _ _ _ _
        (k1_off79_eq L ⟨3, by first | decide | done⟩) (k1_off80_eq L ⟨3, by first | decide | done⟩) (k1_off81_eq L ⟨3, by first | decide | done⟩) (k1_off82_eq L ⟨3, by first | decide | done⟩)
    · ipureintro; exact hOK
  iintro %_ HI
  unfold inv3v
  icases HI with ⟨%fsl9, %fin9, Hs1', Hob', %hS9, %hO9⟩
  replace hOK := outOK_step d L TT 9 (by decide) fsl9 fin9 hS9 hO9
  sl_exec (disch := decide)
  sl_step
  isplitl [Htt4 Htt5 Httr Hseg']
  · isplitl [Htt4 Htt5 Httr]
    · iapply (Entails.of_eq (pts_tt (F := F) d L q _))
      iapply (tt_toks (F := F) d L q TT).2
      isplitl [Htt4]; · iexact Htt4
      isplitl [Htt5]; · iexact Htt5
      iexact Httr
    · iapply (Entails.of_eq (pts_seg (F := F) d L _))
      iapply (Entails.of_eq (seg_final (F := F) d L TT f0 _ hOK))
      iexact Hseg'
  isplitl [Hs0' Hs1' Hob' Hbufs]
  · isplitl [Hs0']; · iexists _; iapply (Entails.of_eq (pts_s0 (F := F) d L _)); iexact Hs0'
    isplitl [Hs1']; · iexists _; iapply (Entails.of_eq (pts_s1 (F := F) d L _)); iexact Hs1'
    isplitl [Hob']; · iexists _; iapply (Entails.of_eq (pts_ob (F := F) d L _)); iexact Hob'
    iexact Hbufs
  isplitl [Hsem3 Hsem4 Hsem6 Hsems]
  · isplitl [Hsem3]; · iexact Hsem3
    isplitl [Hsem4]; · iexact Hsem4
    isplitl [Hsem6]; · iexact Hsem6
    iexact Hsems
  iexists _; isplitr
  swap
  · iexact HO
  · ipureintro
    simp only [Finset.forall_mem_insert]
    repeat' (first | exact fun p hp => Or.inl hp | refine ⟨Or.inr rfl, ?_⟩)

end Cert.Proof.KI

end
-- ==== Proof.KI.Tile1Val.lean ====
/-
  What SparseCore call 1 leaves in its [32,16] result, as a plain function of the transposed index array and the table of
  row sums: tile w accumulates, chunk after chunk (104 chunks of 128 gathered words), the sum of the chunk's eight
  16-lane pieces, starting from the zero vector; entry (w, l) is lane l of tile w's accumulator.
-/
import proofs.«203338_g27195732918861_cont_9to1_1050_16_alg».proof.Proof.KI.Sets
import Idealize.ShloMosaic.Lib.ValueIdx

noncomputable section

namespace Cert.Proof.KI

open Cert.KernelIdeal Cert.KernelIdeal.Gen

open Idealize.ShloMosaic Idealize.ShloMosaic.ValueIdx

variable {F : FTy → Type}

/-- A natural number as a row of the table of row sums, reduced modulo its length (the identity below 1000000). -/
def rowOf1 (n : ℕ) : Fin 1000000 := ⟨n % 1000000, Nat.mod_lt _ (by norm_num)⟩

/-- Word `p` of chunk `j` of tile `w`: the row sum at the index word of field `j / 4`, batch column
    `512 w + 128 (j % 4) + p` (both reduced into range: the identity for `j < 104`, `w < 32`, `p < 128`). -/
def chunkWord {d : Dev nD} (I : Buf (Elt F) (itLoc d)) (R : Buf (Elt F) (raLoc d)) (w j p : ℕ) : Elt F .f32 :=
  R (ix1 (rowOf1 (I (ix2 (⟨(j / 4) % 26, Nat.mod_lt _ (by norm_num)⟩ : Fin 26)
    (⟨(w * 512 + (j % 4) * 128 + p) % 16384, Nat.mod_lt _ (by norm_num)⟩ : Fin 16384))).toNat))

variable [FloatOps F]

/-- The `r`-th sixteen-lane piece of chunk `j`. -/
def pieceV {d : Dev nD} (I : Buf (Elt F) (itLoc d)) (R : Buf (Elt F) (raLoc d)) (w j r : ℕ) : FVec F S16 .f32 :=
  shapeCast S16 (fun y : S16.Idx => chunkWord I R w j (16 * r + (y 0).val) : Vec F S16 .f32) shapeCasts_S16_S16

/-- The sum of a chunk's eight pieces, added from the left as the body adds them. -/
def chunkSum {d : Dev nD} (I : Buf (Elt F) (itLoc d)) (R : Buf (Elt F) (raLoc d)) (w j : ℕ) : FVec F S16 .f32 :=
  addf (addf (addf (addf (addf (addf (addf (pieceV I R w j 0) (pieceV I R w j 1)) (pieceV I R w j 2)) (pieceV I R w j 3)) (pieceV I R w j 4))
    (pieceV I R w j 5)) (pieceV I R w j 6)) (pieceV I R w j 7)

/-- Tile `w`'s accumulator after its first `j` chunks. -/
def accAt {d : Dev nD} (I : Buf (Elt F) (itLoc d)) (R : Buf (Elt F) (raLoc d)) (w : ℕ) : ℕ → FVec F S16 .f32
  | 0 => k2_pay1
  | j + 1 => addf (accAt I R w j) (chunkSum I R w j)

/-- The [32,16] result: entry (w, l) is lane l of tile w's accumulator after its 104 chunks. -/
def tile1Val {d : Dev nD} (I : Buf (Elt F) (itLoc d)) (R : Buf (Elt F) (raLoc d)) : Buf (Elt F) (ptLoc d) :=
  fun idx => k2_pay3 (accAt I R (idx 0).val 104) (ix1 (idx 1))

end Cert.Proof.KI

end
-- ==== Proof.KI.Tile1Mem.lean ====
/-
  SparseCore call 1 on one tile: the names of its memory — the tile's thread, its window of the transposed index array,
  the pieces of the index scratch the gathers take their offsets from, the table of row sums as the gathers slice it —
  and the chunk a gather leaves in its buffer, as a function on the buffer's 128 words.
-/
import proofs.«203338_g27195732918861_cont_9to1_1050_16_alg».proof.Proof.KI.Tile1Val
import Idealize.ShloMosaic.Lib.SparseCore.Stream

noncomputable section

namespace Cert.Proof.KI

open Cert.KernelIdeal Cert.KernelIdeal.Gen

open Idealize.ShloMosaic Idealize.ShloMosaic.ValueIdx
open Idealize.ShloMosaic.SparseCore (S V T)

variable {F : FTy → Type}

/-- The SparseCore and the subcore of grid point `L`. -/
abbrev cV1 (L : grid2.Coords) : Fin τ.nSC := (L 0).castLE hcore2
abbrev jV1 (L : grid2.Coords) : Fin τ.nSub := (L 1).castLE hsub2
/-- The tile's thread. -/
abbrev thr1 (d : Dev nD) (L : grid2.Coords) : Thread nD τ := V d (cV1 L) (jV1 L)

/-- The tile's window of the transposed index array: all 26 fields, the tile's 512 batch columns. -/
abbrev idxWinM (L : grid2.Coords) : Memref sig .scVector .hbm S26x512 .i32 :=
  (Memref.whole main_v4_scv : Memref sig .scVector .hbm S26x16384 .i32).slice (Rect.unit (s := S26x16384) (k2_off1 L) S26x512.size (k2_off1_inb L)) (fun _ => rfl)

/-- Its words. -/
def idxWin {d : Dev nD} (L : grid2.Coords) (I : Buf (Elt F) (itLoc d)) : S26x512.Idx → Elt F .i32 :=
  ReadAs.same.apply ((idxWinM L).view.read (Elt F) I)

/-- The index scratch after the window was copied in. -/
abbrev scr0 {d : Dev nD} (L : grid2.Coords) (I : Buf (Elt F) (itLoc d)) (fb : Buf (Elt F) ((thr1 d L).loc cc2_scratch0)) : Buf (Elt F) ((thr1 d L).loc cc2_scratch0) :=
  View.write (Elt F) (Memref.whole cc2_scratch0 : Memref sig .scVector .vmem S26x512 .i32).view fb (idxWin L I) Finset.univ

/-- A row piece of the index scratch, as the body slices it. -/
abbrev offM (off : Fin 2 → ℕ) (hb : ∀ a, off a + S1x128.size a ≤ S26x512.size a) : Memref sig .scVector .vmem S128 .i32 :=
  ((Memref.whole cc2_scratch0 : Memref sig .scVector .vmem S26x512 .i32).slice (Rect.unit (s := S26x512) off S1x128.size hb) (fun _ => rfl)).squeeze S128 squeezes_S1x128_S128

/-- The table of row sums, as every gather slices it (whole). -/
abbrev srcM : Memref sig .scVector .hbm S1000000 .f32 :=
  (Memref.whole main_v3_scv : Memref sig .scVector .hbm S1000000 .f32).slice (Rect.unit (s := S1000000) ![0] S1000000.size inb_S1000000_S1000000_0) (fun _ => rfl)

/-- Where chunk `8 k + b`'s offsets sit in the index scratch: field `(8 k + b) / 4`, quarter `(8 k + b) % 4`. -/
def offJ (b k : ℕ) : Fin 2 → ℕ := ![(8 * k + b) / 4, ((8 * k + b) % 4) * 128]

theorem offJ_inb : ∀ (b : Fin 8) (k : Fin 13) (a : Fin 2), offJ b.val k.val a + S1x128.size a ≤ S26x512.size a := by decide +kernel

/-- Chunk `j` of tile `w` as the contents of a 128-word buffer. -/
def chunkBuf {d : Dev nD} (I : Buf (Elt F) (itLoc d)) (R : Buf (Elt F) (raLoc d)) (w j : ℕ) : S128.Idx → Elt F .f32 :=
  fun x => chunkWord I R w j (x 0).val

end Cert.Proof.KI

end
-- ==== Proof.KI.Tile1.lean ====
/-
  SparseCore call 1 on one tile (grid point L, tile number 2 (L 1) + (L 0)): the body's run. The tile copies its window of the
  transposed index array into its index scratch, issues eight indirect gathers of 128 row sums each (one buffer and one
  DMA semaphore per gather, each holding a read share of the table of row sums and of the index scratch), and in thirteen
  trips waits for each buffer's gather, adds its eight 16-lane pieces to the accumulator and issues the next chunk's
  gather into the same buffer (none after the last trip); then stores the accumulator and copies it to its row of the
  result. One gather at a time per semaphore; the index scratch is never written again.
-/
import proofs.«203338_g27195732918861_cont_9to1_1050_16_alg».proof.Proof.KI.Tile1Mem

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## The tile's own semaphores and scratch buffers, taken out of what the launch hands it -/

omit [FloatOps F] in
theorem cell_ne1 {thr : Thread nD τ} {a b : SemLoc sig} (h : a ≠ b) : ((thr, a) : GSem nD τ sig) ≠ (thr, b) := fun e => h (Prod.mk.inj e).2

/-- The cell of one of the tile's DMA semaphores. -/
abbrev cell1 (d : Dev nD) (L : grid2.Coords) (s : DmaSems sig S_) : GSem nD τ sig := (thr1 d L, .dma s.sem)

/-- The tile's other semaphores, at zero. -/
def semsRest1 (d : Dev nD) (L : grid2.Coords) : sProp 𝕄 := bigSep (((((((((((ownCells (thr1 d L)).erase (cell1 d L cc2_scratch10)).erase (cell1 d L cc2_scratch11)).erase (cell1 d L cc2_scratch12)).erase (cell1 d L cc2_scratch13)).erase (cell1 d L cc2_scratch14)).erase (cell1 d L cc2_scratch15)).erase (cell1 d L cc2_scratch16)).erase (cell1 d L cc2_scratch17)).erase (cell1 d L cc2_scoped0)).erase (cell1 d L cc2_scoped1)) fun g => semVal g 0

/-- The tile's other buffers, at some contents. -/
def bufsRest1 (d : Dev nD) (L : grid2.Coords) : sProp 𝕄 := bigSep (((((((((((ownRefs (τ := τ) (.scVector (cV1 L) (jV1 L))).erase ((Proc.scVector (cV1 L) (jV1 L)).devRef cc2_scratch0)).erase ((Proc.scVector (cV1 L) (jV1 L)).devRef cc2_scratch1)).erase ((Proc.scVector (cV1 L) (jV1 L)).devRef cc2_scratch2)).erase ((Proc.scVector (cV1 L) (jV1 L)).devRef cc2_scratch3)).erase ((Proc.scVector (cV1 L) (jV1 L)).devRef cc2_scratch4)).erase ((Proc.scVector (cV1 L) (jV1 L)).devRef cc2_scratch5)).erase ((Proc.scVector (cV1 L) (jV1 L)).devRef cc2_scratch6)).erase ((Proc.scVector (cV1 L) (jV1 L)).devRef cc2_scratch7)).erase ((Proc.scVector (cV1 L) (jV1 L)).devRef cc2_scratch8)).erase ((Proc.scVector (cV1 L) (jV1 L)).devRef cc2_scratch9)) fun b => iprop(∃ f, ((d, b) : Loc nD τ sig) ↦{fullShare} f)

omit [FloatOps F] in
theorem ownSems0_T1 (d : Dev nD) (L : grid2.Coords) :
    (ownSems0 (thr1 d L) : sProp 𝕄)
      = iprop(semVal (cell1 d L cc2_scratch10) 0 ∗ semVal (cell1 d L cc2_scratch11) 0 ∗ semVal (cell1 d L cc2_scratch12) 0 ∗ semVal (cell1 d L cc2_scratch13) 0 ∗ semVal (cell1 d L cc2_scratch14) 0 ∗ semVal (cell1 d L cc2_scratch15) 0 ∗ semVal (cell1 d L cc2_scratch16) 0 ∗ semVal (cell1 d L cc2_scratch17) 0 ∗ semVal (cell1 d L cc2_scoped0) 0 ∗ semVal (cell1 d L cc2_scoped1) 0 ∗ semsRest1 d L) := by
  unfold SparseCore.Cfg.ownSems0 semsRest1
  rw [SparseCore.bigSep_erase' ((mem_ownCells (g := (cell1 d L cc2_scratch10))).mpr ⟨rfl, by show (SemLoc.dma cc2_scratch10.sem : SemLoc sig).isScoped .scVector = true; decide⟩),
    SparseCore.bigSep_erase' (Finset.mem_erase.mpr ⟨cell_ne1 (show (SemLoc.dma cc2_scratch11.sem : SemLoc sig) ≠ SemLoc.dma cc2_scratch10.sem by decide), (mem_ownCells (g := (cell1 d L cc2_scratch11))).mpr ⟨rfl, by show (SemLoc.dma cc2_scratch11.sem : SemLoc sig).isScoped .scVector = true; decide⟩⟩),
    SparseCore.bigSep_erase' (Finset.mem_erase.mpr ⟨cell_ne1 (show (SemLoc.dma cc2_scratch12.sem : SemLoc sig) ≠ SemLoc.dma cc2_scratch11.sem by decide), Finset.mem_erase.mpr ⟨cell_ne1 (show (SemLoc.dma cc2_scratch12.sem : SemLoc sig) ≠ SemLoc.dma cc2_scratch10.sem by decide), (mem_ownCells (g := (cell1 d L cc2_scratch12))).mpr ⟨rfl, by show (SemLoc.dma cc2_scratch12.sem : SemLoc sig).isScoped .scVector = true; decide⟩⟩⟩),
    SparseCore.bigSep_erase' (Finset.mem_erase.mpr ⟨cell_ne1 (show (SemLoc.dma cc2_scratch13.sem : SemLoc sig) ≠ SemLoc.dma cc2_scratch12.sem by decide), Finset.mem_erase.mpr ⟨cell_ne1 (show (SemLoc.dma cc2_scratch13.sem : SemLoc sig) ≠ SemLoc.dma cc2_scratch11.sem by decide), Finset.mem_erase.mpr ⟨cell_ne1 (show (SemLoc.dma cc2_scratch13.sem : SemLoc sig) ≠ SemLoc.dma cc2_scratch10.sem by decide), (mem_ownCells (g := (cell1 d L cc2_scratch13))).mpr ⟨rfl, by show (SemLoc.dma cc2_scratch13.sem : SemLoc sig).isScoped .scVector = true; decide⟩⟩⟩⟩),
    SparseCore.bigSep_erase' (Finset.mem_erase.mpr ⟨cell_ne1 (show (SemLoc.dma cc2_scratch14.sem : SemLoc sig) ≠ SemLoc.dma cc2_scratch13.sem by decide), Finset.mem_erase.mpr ⟨cell_ne1 (show (SemLoc.dma cc2_scratch14.sem : SemLoc sig) ≠ SemLoc.dma cc2_scratch12.sem by decide), Finset.mem_erase.mpr ⟨cell_ne1 (show (SemLoc.dma cc2_scratch14.sem : SemLoc sig) ≠ SemLoc.dma cc2_scratch11.sem by decide), Finset.mem_erase.mpr ⟨cell_ne1 (show (SemLoc.dma cc2_scratch14.sem : SemLoc sig) ≠ SemLoc.dma cc2_scratch10.sem by decide), (mem_ownCells (g := (cell1 d L cc2_scratch14))).mpr ⟨rfl, by show (SemLoc.dma cc2_scratch14.sem : SemLoc sig).isScoped .scVector = true; decide⟩⟩⟩⟩⟩),
    SparseCore.bigSep_erase' (Finset.mem_erase.mpr ⟨cell_ne1 (show (SemLoc.dma cc2_scratch15.sem : SemLoc sig) ≠ SemLoc.dma cc2_scratch14.sem by decide), Finset.mem_erase.mpr ⟨cell_ne1 (show (SemLoc.dma cc2_scratch15.sem : SemLoc sig) ≠ SemLoc.dma cc2_scratch13.sem by decide), Finset.mem_erase.mpr ⟨cell_ne1 (show (SemLoc.dma cc2_scratch15.sem : SemLoc sig) ≠ SemLoc.dma cc2_scratch12.sem by decide), Finset.mem_erase.mpr ⟨cell_ne1 (show (SemLoc.dma cc2_scratch15.sem : SemLoc sig) ≠ SemLoc.dma cc2_scratch11.sem by decide), Finset.mem_erase.mpr ⟨cell_ne1 (show (SemLoc.dma cc2_scratch15.sem : SemLoc sig) ≠ SemLoc.dma cc2_scratch10.sem by decide), (mem_ownCells (g := (cell1 d L cc2_scratch15))).mpr ⟨rfl, by show (SemLoc.dma cc2_scratch15.sem : SemLoc sig).isScoped .scVector = true; decide⟩⟩⟩⟩⟩⟩),
    SparseCore.bigSep_erase' (Finset.mem_erase.mpr ⟨cell_ne1 (show (SemLoc.dma cc2_scratch16.sem : SemLoc sig) ≠ SemLoc.dma cc2_scratch15.sem by decide), Finset.mem_erase.mpr ⟨cell_ne1 (show (SemLoc.dma cc2_scratch16.sem : SemLoc sig) ≠ SemLoc.dma cc2_scratch14.sem by decide), Finset.mem_erase.mpr ⟨cell_ne1 (show (SemLoc.dma cc2_scratch16.sem : SemLoc sig) ≠ SemLoc.dma cc2_scratch13.sem by decide), Finset.mem_erase.mpr ⟨cell_ne1 (show (SemLoc.dma cc2_scratch16.sem : SemLoc sig) ≠ SemLoc.dma cc2_scratch12.sem by decide), Finset.mem_erase.mpr ⟨cell_ne1 (show (SemLoc.dma cc2_scratch16.sem : SemLoc sig) ≠ SemLoc.dma cc2_scratch11.sem by decide), Finset.mem_erase.mpr ⟨cell_ne1 (show (SemLoc.dma cc2_scratch16.sem : SemLoc sig) ≠ SemLoc.dma cc2_scratch10.sem by decide), (mem_ownCells (g := (cell1 d L cc2_scratch16))).mpr ⟨rfl, by show (SemLoc.dma cc2_scratch16.sem : SemLoc sig).isScoped .scVector = true; decide⟩⟩⟩⟩⟩⟩⟩),
    SparseCore.bigSep_erase' (Finset.mem_erase.mpr ⟨cell_ne1 (show (SemLoc.dma cc2_scratch17.sem : SemLoc sig) ≠ SemLoc.dma cc2_scratch16.sem by decide), Finset.mem_erase.mpr ⟨cell_ne1 (show (SemLoc.dma cc2_scratch17.sem : SemLoc sig) ≠ SemLoc.dma cc2_scratch15.sem by decide), Finset.mem_erase.mpr ⟨cell_ne1 (show (SemLoc.dma cc2_scratch17.sem : SemLoc sig) ≠ SemLoc.dma cc2_scratch14.sem by decide), Finset.mem_erase.mpr ⟨cell_ne1 (show (SemLoc.dma cc2_scratch17.sem : SemLoc sig) ≠ SemLoc.dma cc2_scratch13.sem by decide), Finset.mem_erase.mpr ⟨cell_ne1 (show (SemLoc.dma cc2_scratch17.sem : SemLoc sig) ≠ SemLoc.dma cc2_scratch12.sem by decide), Finset.mem_erase.mpr ⟨cell_ne1 (show (SemLoc.dma cc2_scratch17.sem : SemLoc sig) ≠ SemLoc.dma cc2_scratch11.sem by decide), Finset.mem_erase.mpr ⟨cell_ne1 (show (SemLoc.dma cc2_scratch17.sem : SemLoc sig) ≠ SemLoc.dma cc2_scratch10.sem by decide), (mem_ownCells (g := (cell1 d L cc2_scratch17))).mpr ⟨rfl, by show (SemLoc.dma cc2_scratch17.sem : SemLoc sig).isScoped .scVector = true; decide⟩⟩⟩⟩⟩⟩⟩⟩),
    SparseCore.bigSep_erase' (Finset.mem_erase.mpr ⟨cell_ne1 (show (SemLoc.dma cc2_scoped0.sem : SemLoc sig) ≠ SemLoc.dma cc2_scratch17.sem by decide), Finset.mem_erase.mpr ⟨cell_ne1 (show (SemLoc.dma cc2_scoped0.sem : SemLoc sig) ≠ SemLoc.dma cc2_scratch16.sem by decide), Finset.mem_erase.mpr ⟨cell_ne1 (show (SemLoc.dma cc2_scoped0.sem : SemLoc sig) ≠ SemLoc.dma cc2_scratch15.sem by decide), Finset.mem_erase.mpr ⟨cell_ne1 (show (SemLoc.dma cc2_scoped0.sem : SemLoc sig) ≠ SemLoc.dma cc2_scratch14.sem by decide), Finset.mem_erase.mpr ⟨cell_ne1 (show (SemLoc.dma cc2_scoped0.sem : SemLoc sig) ≠ SemLoc.dma cc2_scratch13.sem by decide), Finset.mem_erase.mpr ⟨cell_ne1 (show (SemLoc.dma cc2_scoped0.sem : SemLoc sig) ≠ SemLoc.dma cc2_scratch12.sem by decide), Finset.mem_erase.mpr ⟨cell_ne1 (show (SemLoc.dma cc2_scoped0.sem : SemLoc sig) ≠ SemLoc.dma cc2_scratch11.sem by decide), Finset.mem_erase.mpr ⟨cell_ne1 (show (SemLoc.dma cc2_scoped0.sem : SemLoc sig) ≠ SemLoc.dma cc2_scratch10.sem by decide), (mem_ownCells (g := (cell1 d L cc2_scoped0))).mpr ⟨rfl, by show (SemLoc.dma cc2_scoped0.sem : SemLoc sig).isScoped .scVector = true; decide⟩⟩⟩⟩⟩⟩⟩⟩⟩),
    SparseCore.bigSep_erase' (Finset.mem_erase.mpr ⟨cell_ne1 (show (SemLoc.dma cc2_scoped1.sem : SemLoc sig) ≠ SemLoc.dma cc2_scoped0.sem by decide), Finset.mem_erase.mpr ⟨cell_ne1 (show (SemLoc.dma cc2_scoped1.sem : SemLoc sig) ≠ SemLoc.dma cc2_scratch17.sem by decide), Finset.mem_erase.mpr ⟨cell_ne1 (show (SemLoc.dma cc2_scoped1.sem : SemLoc sig) ≠ SemLoc.dma cc2_scratch16.sem by decide), Finset.mem_erase.mpr ⟨cell_ne1 (show (SemLoc.dma cc2_scoped1.sem : SemLoc sig) ≠ SemLoc.dma cc2_scratch15.sem by decide), Finset.mem_erase.mpr ⟨cell_ne1 (show (SemLoc.dma cc2_scoped1.sem : SemLoc sig) ≠ SemLoc.dma cc2_scratch14.sem by decide), Finset.mem_erase.mpr ⟨cell_ne1 (show (SemLoc.dma cc2_scoped1.sem : SemLoc sig) ≠ SemLoc.dma cc2_scratch13.sem by decide), Finset.mem_erase.mpr ⟨cell_ne1 (show (SemLoc.dma cc2_scoped1.sem : SemLoc sig) ≠ SemLoc.dma cc2_scratch12.sem by decide), Finset.mem_erase.mpr ⟨cell_ne1 (show (SemLoc.dma cc2_scoped1.sem : SemLoc sig) ≠ SemLoc.dma cc2_scratch11.sem by decide), Finset.mem_erase.mpr ⟨cell_ne1 (show (SemLoc.dma cc2_scoped1.sem : SemLoc sig) ≠ SemLoc.dma cc2_scratch10.sem by decide), (mem_ownCells (g := (cell1 d L cc2_scoped1))).mpr ⟨rfl, by show (SemLoc.dma cc2_scoped1.sem : SemLoc sig).isScoped .scVector = true; decide⟩⟩⟩⟩⟩⟩⟩⟩⟩⟩)]

omit [FloatOps F] in
theorem ownBufs_T1 (d : Dev nD) (L : grid2.Coords) :
    (ownBufs (thr1 d L) : sProp 𝕄)
      = iprop((∃ f, (thr1 d L).loc cc2_scratch0 ↦{fullShare} f) ∗ (∃ f, (thr1 d L).loc cc2_scratch1 ↦{fullShare} f) ∗ (∃ f, (thr1 d L).loc cc2_scratch2 ↦{fullShare} f) ∗ (∃ f, (thr1 d L).loc cc2_scratch3 ↦{fullShare} f) ∗ (∃ f, (thr1 d L).loc cc2_scratch4 ↦{fullShare} f) ∗ (∃ f, (thr1 d L).loc cc2_scratch5 ↦{fullShare} f) ∗ (∃ f, (thr1 d L).loc cc2_scratch6 ↦{fullShare} f) ∗ (∃ f, (thr1 d L).loc cc2_scratch7 ↦{fullShare} f) ∗ (∃ f, (thr1 d L).loc cc2_scratch8 ↦{fullShare} f) ∗ (∃ f, (thr1 d L).loc cc2_scratch9 ↦{fullShare} f) ∗ bufsRest1 d L) := by
  unfold SparseCore.Cfg.ownBufs bufsRest1
  refine (SparseCore.bigSep_erase' (SparseCore.Cfg.mem_ownRefs_of_owner (p := Proc.scVector (cV1 L) (jV1 L)) (b := ((Proc.scVector (cV1 L) (jV1 L)).devRef cc2_scratch0)) rfl)).trans ?_
  rw [SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV1 L) (jV1 L)) (b := ((Proc.scVector (cV1 L) (jV1 L)).devRef cc2_scratch1)) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV1 L) (jV1 L)) (b := ((Proc.scVector (cV1 L) (jV1 L)).devRef cc2_scratch2)) rfl⟩⟩),
    SparseCore.bigSep_erase' (Finset.mem_erase.mpr ⟨fun e => absurd (Proc.devRef_injective _ e) (show (cc2_scratch3 : Ref sig .scVector) ≠ cc2_scratch2 by decide), Finset.mem_erase.mpr ⟨fun e => absurd (Proc.devRef_injective _ e) (show (cc2_scratch3 : Ref sig .scVector) ≠ cc2_scratch1 by decide), Finset.mem_erase.mpr ⟨fun e => absurd (Proc.devRef_injective _ e) (show (cc2_scratch3 : Ref sig .scVector) ≠ cc2_scratch0 by decide), SparseCore.Cfg.mem_ownRefs_of_owner (p := Proc.scVector (cV1 L) (jV1 L)) (b := ((Proc.scVector (cV1 L) (jV1 L)).devRef cc2_scratch3)) rfl⟩⟩⟩),
    SparseCore.bigSep_erase' (Finset.mem_erase.mpr ⟨fun e => absurd (Proc.devRef_injective _ e) (show (cc2_scratch4 : Ref sig .scVector) ≠ cc2_scratch3 by decide), Finset.mem_erase.mpr ⟨fun e => absurd (Proc.devRef_injective _ e) (show (cc2_scratch4 : Ref sig .scVector) ≠ cc2_scratch2 by decide), Finset.mem_erase.mpr ⟨fun e => absurd (Proc.devRef_injective _ e) (show (cc2_scratch4 : Ref sig .scVector) ≠ cc2_scratch1 by decide), Finset.mem_erase.mpr ⟨fun e => absurd (Proc.devRef_injective _ e) (show (cc2_scratch4 : Ref sig .scVector) ≠ cc2_scratch0 by decide), SparseCore.Cfg.mem_ownRefs_of_owner (p := Proc.scVector (cV1 L) (jV1 L)) (b := ((Proc.scVector (cV1 L) (jV1 L)).devRef cc2_scratch4)) rfl⟩⟩⟩⟩),
    SparseCore.bigSep_erase' (Finset.mem_erase.mpr ⟨fun e => absurd (Proc.devRef_injective _ e) (show (cc2_scratch5 : Ref sig .scVector) ≠ cc2_scratch4 by decide), Finset.mem_erase.mpr ⟨fun e => absurd (Proc.devRef_injective _ e) (show (cc2_scratch5 : Ref sig .scVector) ≠ cc2_scratch3 by decide), Finset.mem_erase.mpr ⟨fun e => absurd (Proc.devRef_injective _ e) (show (cc2_scratch5 : Ref sig .scVector) ≠ cc2_scratch2 by decide), Finset.mem_erase.mpr ⟨fun e => absurd (Proc.devRef_injective _ e) (show (cc2_scratch5 : Ref sig .scVector) ≠ cc2_scratch1 by decide), Finset.mem_erase.mpr ⟨fun e => absurd (Proc.devRef_injective _ e) (show (cc2_scratch5 : Ref sig .scVector) ≠ cc2_scratch0 by decide), SparseCore.Cfg.mem_ownRefs_of_owner (p := Proc.scVector (cV1 L) (jV1 L)) (b := ((Proc.scVector (cV1 L) (jV1 L)).devRef cc2_scratch5)) rfl⟩⟩⟩⟩⟩),
    SparseCore.bigSep_erase' (Finset.mem_erase.mpr ⟨fun e => absurd (Proc.devRef_injective _ e) (show (cc2_scratch6 : Ref sig .scVector) ≠ cc2_scratch5 by decide), Finset.mem_erase.mpr ⟨fun e => absurd (Proc.devRef_injective _ e) (show (cc2_scratch6 : Ref sig .scVector) ≠ cc2_scratch4 by decide), Finset.mem_erase.mpr ⟨fun e => absurd (Proc.devRef_injective _ e) (show (cc2_scratch6 : Ref sig .scVector) ≠ cc2_scratch3 by decide), Finset.mem_erase.mpr ⟨fun e => absurd (Proc.devRef_injective _ e) (show (cc2_scratch6 : Ref sig .scVector) ≠ cc2_scratch2 by decide), Finset.mem_erase.mpr ⟨fun e => absurd (Proc.devRef_injective _ e) (show (cc2_scratch6 : Ref sig .scVector) ≠ cc2_scratch1 by decide), Finset.mem_erase.mpr ⟨fun e => absurd (Proc.devRef_injective _ e) (show (cc2_scratch6 : Ref sig .scVector) ≠ cc2_scratch0 by decide), SparseCore.Cfg.mem_ownRefs_of_owner (p := Proc.scVector (cV1 L) (jV1 L)) (b := ((Proc.scVector (cV1 L) (jV1 L)).devRef cc2_scratch6)) rfl⟩⟩⟩⟩⟩⟩),
    SparseCore.bigSep_erase' (Finset.mem_erase.mpr ⟨fun e => absurd (Proc.devRef_injective _ e) (show (cc2_scratch7 : Ref sig .scVector) ≠ cc2_scratch6 by decide), Finset.mem_erase.mpr ⟨fun e => absurd (Proc.devRef_injective _ e) (show (cc2_scratch7 : Ref sig .scVector) ≠ cc2_scratch5 by decide), Finset.mem_erase.mpr ⟨fun e => absurd (Proc.devRef_injective _ e) (show (cc2_scratch7 : Ref sig .scVector) ≠ cc2_scratch4 by decide), Finset.mem_erase.mpr ⟨fun e => absurd (Proc.devRef_injective _ e) (show (cc2_scratch7 : Ref sig .scVector) ≠ cc2_scratch3 by decide), Finset.mem_erase.mpr ⟨fun e => absurd (Proc.devRef_injective _ e) (show (cc2_scratch7 : Ref sig .scVector) ≠ cc2_scratch2 by decide), Finset.mem_erase.mpr ⟨fun e => absurd (Proc.devRef_injective _ e) (show (cc2_scratch7 : Ref sig .scVector) ≠ cc2_scratch1 by decide), Finset.mem_erase.mpr ⟨fun e => absurd (Proc.devRef_injective _ e) (show (cc2_scratch7 : Ref sig .scVector) ≠ cc2_scratch0 by decide), SparseCore.Cfg.mem_ownRefs_of_owner (p := Proc.scVector (cV1 L) (jV1 L)) (b := ((Proc.scVector (cV1 L) (jV1 L)).devRef cc2_scratch7)) rfl⟩⟩⟩⟩⟩⟩⟩),
    SparseCore.bigSep_erase' (Finset.mem_erase.mpr ⟨fun e => absurd (Proc.devRef_injective _ e) (show (cc2_scratch8 : Ref sig .scVector) ≠ cc2_scratch7 by decide), Finset.mem_erase.mpr ⟨fun e => absurd (Proc.devRef_injective _ e) (show (cc2_scratch8 : Ref sig .scVector) ≠ cc2_scratch6 by decide), Finset.mem_erase.mpr ⟨fun e => absurd (Proc.devRef_injective _ e) (show (cc2_scratch8 : Ref sig .scVector) ≠ cc2_scratch5 by decide), Finset.mem_erase.mpr ⟨fun e => absurd (Proc.devRef_injective _ e) (show (cc2_scratch8 : Ref sig .scVector) ≠ cc2_scratch4 by decide), Finset.mem_erase.mpr ⟨fun e => absurd (Proc.devRef_injective _ e) (show (cc2_scratch8 : Ref sig .scVector) ≠ cc2_scratch3 by decide), Finset.mem_erase.mpr ⟨fun e => absurd (Proc.devRef_injective _ e) (show (cc2_scratch8 : Ref sig .scVector) ≠ cc2_scratch2 by decide), Finset.mem_erase.mpr ⟨fun e => absurd (Proc.devRef_injective _ e) (show (cc2_scratch8 : Ref sig .scVector) ≠ cc2_scratch1 by decide), Finset.mem_erase.mpr ⟨fun e => absurd (Proc.devRef_injective _ e) (show (cc2_scratch8 : Ref sig .scVector) ≠ cc2_scratch0 by decide), SparseCore.Cfg.mem_ownRefs_of_owner (p := Proc.scVector (cV1 L) (jV1 L)) (b := ((Proc.scVector (cV1 L) (jV1 L)).devRef cc2_scratch8)) rfl⟩⟩⟩⟩⟩⟩⟩⟩),
    SparseCore.bigSep_erase' (Finset.mem_erase.mpr ⟨fun e => absurd (Proc.devRef_injective _ e) (show (cc2_scratch9 : Ref sig .scVector) ≠ cc2_scratch8 by decide), Finset.mem_erase.mpr ⟨fun e => absurd (Proc.devRef_injective _ e) (show (cc2_scratch9 : Ref sig .scVector) ≠ cc2_scratch7 by decide), Finset.mem_erase.mpr ⟨fun e => absurd (Proc.devRef_injective _ e) (show (cc2_scratch9 : Ref sig .scVector) ≠ cc2_scratch6 by decide), Finset.mem_erase.mpr ⟨fun e => absurd (Proc.devRef_injective _ e) (show (cc2_scratch9 : Ref sig .scVector) ≠ cc2_scratch5 by decide), Finset.mem_erase.mpr ⟨fun e => absurd (Proc.devRef_injective _ e) (show (cc2_scratch9 : Ref sig .scVector) ≠ cc2_scratch4 by decide), Finset.mem_erase.mpr ⟨fun e => absurd (Proc.devRef_injective _ e) (show (cc2_scratch9 : Ref sig .scVector) ≠ cc2_scratch3 by decide), Finset.mem_erase.mpr ⟨fun e => absurd (Proc.devRef_injective _ e) (show (cc2_scratch9 : Ref sig .scVector) ≠ cc2_scratch2 by decide), Finset.mem_erase.mpr ⟨fun e => absurd (Proc.devRef_injective _ e) (show (cc2_scratch9 : Ref sig .scVector) ≠ cc2_scratch1 by decide), Finset.mem_erase.mpr ⟨fun e => absurd (Proc.devRef_injective _ e) (show (cc2_scratch9 : Ref sig .scVector) ≠ cc2_scratch0 by decide), SparseCore.Cfg.mem_ownRefs_of_owner (p := Proc.scVector (cV1 L) (jV1 L)) (b := ((Proc.scVector (cV1 L) (jV1 L)).devRef cc2_scratch9)) rfl⟩⟩⟩⟩⟩⟩⟩⟩⟩)]

omit [FloatOps F] in
/-- The same, each scratch spelt through its whole memref's view. -/
theorem ownBufs_T1' (d : Dev nD) (L : grid2.Coords) :
    (ownBufs (thr1 d L) : sProp 𝕄)
      = iprop((∃ f, (Memref.whole cc2_scratch0 : Memref sig .scVector .vmem S26x512 .i32).view.loc (thr1 d L) ↦{fullShare} f) ∗ (∃ f, (Memref.whole cc2_scratch1 : Memref sig .scVector .vmem S128 .f32).view.loc (thr1 d L) ↦{fullShare} f) ∗ (∃ f, (Memref.whole cc2_scratch2 : Memref sig .scVector .vmem S128 .f32).view.loc (thr1 d L) ↦{fullShare} f) ∗ (∃ f, (Memref.whole cc2_scratch3 : Memref sig .scVector .vmem S128 .f32).view.loc (thr1 d L) ↦{fullShare} f) ∗ (∃ f, (Memref.whole cc2_scratch4 : Memref sig .scVector .vmem S128 .f32).view.loc (thr1 d L) ↦{fullShare} f) ∗ (∃ f, (Memref.whole cc2_scratch5 : Memref sig .scVector .vmem S128 .f32).view.loc (thr1 d L) ↦{fullShare} f) ∗ (∃ f, (Memref.whole cc2_scratch6 : Memref sig .scVector .vmem S128 .f32).view.loc (thr1 d L) ↦{fullShare} f) ∗ (∃ f, (Memref.whole cc2_scratch7 : Memref sig .scVector .vmem S128 .f32).view.loc (thr1 d L) ↦{fullShare} f) ∗ (∃ f, (Memref.whole cc2_scratch8 : Memref sig .scVector .vmem S128 .f32).view.loc (thr1 d L) ↦{fullShare} f) ∗ (∃ f, (Memref.whole cc2_scratch9 : Memref sig .scVector .vmem S16 .f32).view.loc (thr1 d L) ↦{fullShare} f) ∗ bufsRest1 d L) :=
  ownBufs_T1 d L

/-! ## The arrays and the scratches as the tile's memrefs address them -/

omit [FloatOps F] in
theorem pts_it1 (d : Dev nD) (L : grid2.Coords) (q : PosShare TreeShare) (f : Buf (Elt F) (itLoc d)) :
    ((Memref.whole main_v4_scv : Memref sig .scVector .hbm S26x16384 .i32).view.loc (thr1 d L) ↦{q} f : sProp 𝕄) = itLoc d ↦{q} f := by
  simp only [Memref.view_whole, View.set_whole]
omit [FloatOps F] in
theorem pts_ra1 (d : Dev nD) (L : grid2.Coords) (q : PosShare TreeShare) (f : Buf (Elt F) (raLoc d)) :
    ((Memref.whole main_v3_scv : Memref sig .scVector .hbm S1000000 .f32).view.loc (thr1 d L) ↦{q} f : sProp 𝕄) = raLoc d ↦{q} f := by
  simp only [Memref.view_whole, View.set_whole]
omit [FloatOps F] in
theorem pts_row1 (d : Dev nD) (L : grid2.Coords) (f : Buf (Elt F) (ptLoc d)) :
    ((row1M L).view.loc (thr1 d L) ↦[(row1M L).view.set]{fullShare} f : sProp 𝕄) = ptLoc d ↦[outRow1 L]{fullShare} f := rfl

/-! ## Read shares for eight gathers in flight -/

omit [FloatOps F] in
/-- A points-to splits into eight read shares: seven halves and what is left. -/
theorem pts_split8 {ℓ : Loc nD τ sig} {S : Finset (Idx ℓ)} {f : Buf (Elt F) ℓ} (q : PosShare TreeShare) :
    (ℓ ↦[S]{q} f : sProp 𝕄)
      = iprop((ℓ ↦[S]{Transfers.shareTokN q 0} f) ∗ (ℓ ↦[S]{Transfers.shareTokN q 1} f) ∗ (ℓ ↦[S]{Transfers.shareTokN q 2} f) ∗ (ℓ ↦[S]{Transfers.shareTokN q 3} f)
          ∗ (ℓ ↦[S]{Transfers.shareTokN q 4} f) ∗ (ℓ ↦[S]{Transfers.shareTokN q 5} f) ∗ (ℓ ↦[S]{Transfers.shareTokN q 6} f) ∗ (ℓ ↦[S]{Transfers.shareDrop q 7} f)) := by
  have e1 : ∀ p : PosShare TreeShare, (ℓ ↦[S]{p} f : sProp 𝕄) ⊢ iprop((ℓ ↦[S]{p.right} f) ∗ ℓ ↦[S]{p.left} f) := fun p =>
    (pointsTo_share (PosShare.mem_left_op_right p)).1.trans sep_comm.1
  have e2 : ∀ p : PosShare TreeShare, iprop((ℓ ↦[S]{p.right} f) ∗ ℓ ↦[S]{p.left} f) ⊢ (ℓ ↦[S]{p} f : sProp 𝕄) := fun p =>
    sep_comm.1.trans (pointsTo_share (PosShare.mem_left_op_right p)).2
  have e : ∀ p : PosShare TreeShare, (ℓ ↦[S]{p} f : sProp 𝕄) = iprop((ℓ ↦[S]{p.right} f) ∗ ℓ ↦[S]{p.left} f) := fun p => BI.equiv_iff.mp ⟨e1 p, e2 p⟩
  simp only [Transfers.shareTokN, Transfers.shareDrop]
  rw [e q, e q.left, e q.left.left, e q.left.left.left, e q.left.left.left.left, e q.left.left.left.left.left, e q.left.left.left.left.left.left]

/-! ## The index window and the offsets' range -/

omit [FloatOps F] in
/-- Every word of the window is a row number of the table of row sums. -/
theorem idxWin_lt {d : Dev nD} (L : grid2.Coords) (I : Buf (Elt F) (itLoc d)) (hI : ∀ i, (I i).toNat < 1000000) (y : S26x512.Idx) :
    (idxWin L I y).toNat < 1000000 := by
  unfold idxWin
  rw [ReadAs.apply_same, View.read_apply]
  exact hI _

omit [FloatOps F] in
/-- So is every word any gather reads off the index scratch. -/
theorem hin1 {d : Dev nD} (L : grid2.Coords) (I : Buf (Elt F) (itLoc d)) (hI : ∀ i, (I i).toNat < 1000000)
    (off : Fin 2 → ℕ) (hb : ∀ a, off a + S1x128.size a ≤ S26x512.size a) (fb : Buf (Elt F) ((thr1 d L).loc cc2_scratch0)) (x : S128.Idx) :
    (View.read (Elt F) (offM off hb).view (scr0 L I fb) x).toNat < 1000000 := by
  have h1 : scr0 L I fb = idxWin L I := View.write_whole_univ _ _ _
  rw [h1, View.read_apply]
  exact idxWin_lt L I hI _

omit [FloatOps F] in
/-- A buffer's contents, named. -/
theorem pts_name {ℓ : Loc nD τ sig} {S : Finset (Idx ℓ)} {q : PosShare TreeShare} (c : Buf (Elt F) ℓ) :
    (ℓ ↦[S]{q} c : sProp 𝕄) ⊢ iprop(∃ fo, ⌜fo = c⌝ ∗ ℓ ↦[S]{q} fo) := by
  iintro H
  iexists c
  isplitr
  · ipureintro; rfl
  · iexact H

/-! ## The loop: eight gathers in flight -/

theorem k2_off3_eq' : ∀ k : Fin k2_t1_loop.trips, k2_cond1 k = 1#1 → k2_off3 k = offJ 0 (k.val + 1) := by decide +kernel
theorem k2_off4_eq' : ∀ k : Fin k2_t1_loop.trips, k2_cond2 k = 1#1 → k2_off4 k = offJ 1 (k.val + 1) := by decide +kernel
theorem k2_off5_eq' : ∀ k : Fin k2_t1_loop.trips, k2_cond3 k = 1#1 → k2_off5 k = offJ 2 (k.val + 1) := by decide +kernel
theorem k2_off6_eq' : ∀ k : Fin k2_t1_loop.trips, k2_cond4 k = 1#1 → k2_off6 k = offJ 3 (k.val + 1) := by decide +kernel
theorem k2_off7_eq' : ∀ k : Fin k2_t1_loop.trips, k2_cond5 k = 1#1 → k2_off7 k = offJ 4 (k.val + 1) := by decide +kernel
theorem k2_off8_eq' : ∀ k : Fin k2_t1_loop.trips, k2_cond6 k = 1#1 → k2_off8 k = offJ 5 (k.val + 1) := by decide +kernel
theorem k2_off9_eq' : ∀ k : Fin k2_t1_loop.trips, k2_cond7 k = 1#1 → k2_off9 k = offJ 6 (k.val + 1) := by decide +kernel
theorem k2_off10_eq' : ∀ k : Fin k2_t1_loop.trips, k2_cond8 k = 1#1 → k2_off10 k = offJ 7 (k.val + 1) := by decide +kernel

theorem k2_cond_pos : ∀ k : Fin k2_t1_loop.trips, k.val < 12 → (k2_cond1 k = 1#1 ∧ k2_cond2 k = 1#1 ∧ k2_cond3 k = 1#1 ∧ k2_cond4 k = 1#1 ∧ k2_cond5 k = 1#1 ∧ k2_cond6 k = 1#1 ∧ k2_cond7 k = 1#1 ∧ k2_cond8 k = 1#1) := by decide +kernel
theorem k2_cond_neg : ∀ k : Fin k2_t1_loop.trips, ¬ k.val < 12 → (¬ k2_cond1 k = 1#1 ∧ ¬ k2_cond2 k = 1#1 ∧ ¬ k2_cond3 k = 1#1 ∧ ¬ k2_cond4 k = 1#1 ∧ ¬ k2_cond5 k = 1#1 ∧ ¬ k2_cond6 k = 1#1 ∧ ¬ k2_cond7 k = 1#1 ∧ ¬ k2_cond8 k = 1#1) := by decide +kernel

/-- One buffer with its gather in flight: the flight delivers the buffer at `C`, the offsets' piece of the index scratch and a read share of the table;
    beside it, what the three arrays hold outside the pieces lent. -/
def slotF (d : Dev nD) (L : grid2.Coords) (I : Buf (Elt F) (itLoc d)) (R : Buf (Elt F) (raLoc d)) (fb0 : Buf (Elt F) ((thr1 d L).loc cc2_scratch0))
    (m : Memref sig .scVector .vmem S128 .f32) (sem : DmaSem sig) (qs qo : PosShare TreeShare)
    (off : Fin 2 → ℕ) (hb : ∀ a, off a + S1x128.size a ≤ S26x512.size a) (C : Buf (Elt F) (m.view.loc (thr1 d L))) : sProp 𝕄 :=
  iprop((Transfers.Flight countersEmb (thr1 d L) (SemLoc.dma sem) default 4096
        iprop(((m.view.loc (thr1 d L) ↦[m.view.set]{fullShare} C)
            ∗ ((Memref.whole cc2_scratch0 : Memref sig .scVector .vmem S26x512 .i32).view.loc (thr1 d L) ↦[(offM off hb).view.set]{qo} fb0))
          ∗ ((Memref.whole main_v3_scv : Memref sig .scVector .hbm S1000000 .f32).view.loc (thr1 d L) ↦[srcM.view.set]{qs} R)))
    ∗ ((Memref.whole main_v3_scv : Memref sig .scVector .hbm S1000000 .f32).view.loc (thr1 d L) ↦[Finset.univ \ srcM.view.set]{qs} R)
    ∗ (m.view.loc (thr1 d L) ↦[Finset.univ \ m.view.set]{fullShare} C)
    ∗ ((Memref.whole cc2_scratch0 : Memref sig .scVector .vmem S26x512 .i32).view.loc (thr1 d L) ↦[Finset.univ \ (offM off hb).view.set]{qo} fb0))

omit [FloatOps F] in
theorem slotF_congr (d : Dev nD) (L : grid2.Coords) (I : Buf (Elt F) (itLoc d)) (R : Buf (Elt F) (raLoc d)) (fb0 : Buf (Elt F) ((thr1 d L).loc cc2_scratch0))
    (m : Memref sig .scVector .vmem S128 .f32) (sem : DmaSem sig) (qs qo : PosShare TreeShare)
    {off off' : Fin 2 → ℕ} (h : off = off') (hb : ∀ a, off a + S1x128.size a ≤ S26x512.size a) (hb' : ∀ a, off' a + S1x128.size a ≤ S26x512.size a)
    (C : Buf (Elt F) (m.view.loc (thr1 d L))) :
    slotF d L I R fb0 m sem qs qo off hb C = slotF d L I R fb0 m sem qs qo off' hb' C := by subst h; rfl

/-- One buffer at rest: the buffer at some contents, its read shares of the table and of the index scratch back whole, its semaphore at zero. -/
def doneF (d : Dev nD) (L : grid2.Coords) (I : Buf (Elt F) (itLoc d)) (R : Buf (Elt F) (raLoc d)) (fb0 : Buf (Elt F) ((thr1 d L).loc cc2_scratch0))
    (m : Memref sig .scVector .vmem S128 .f32) (sem : DmaSem sig) (qs qo : PosShare TreeShare) : sProp 𝕄 :=
  iprop((∃ C, m.view.loc (thr1 d L) ↦{fullShare} C)
    ∗ ((Memref.whole main_v3_scv : Memref sig .scVector .hbm S1000000 .f32).view.loc (thr1 d L) ↦{qs} R)
    ∗ ((Memref.whole cc2_scratch0 : Memref sig .scVector .vmem S26x512 .i32).view.loc (thr1 d L) ↦{qo} fb0)
    ∗ semVal (thr1 d L, SemLoc.dma sem) 0)

/-- Before trip `k`: the eight gathers of chunks `8 k .. 8 k + 7` in flight (all at rest once the thirteen trips are over), and what the tile owes. -/
def inv1 (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (k : ℕ) (_acc : FVec F S16 .f32) : sProp 𝕄 :=
  iprop(Transfers.MayWaits (thr1 d L) (none : HIx 2) O
    ∗ (if h : k < 13 then
        iprop((∃ C, slotF d L I R fb0 (Memref.whole cc2_scratch1 : Memref sig .scVector .vmem S128 .f32) cc2_scratch10.sem (Transfers.shareTokN q 0) (Transfers.shareTokN fullShare 0) (offJ 0 k) (offJ_inb ⟨0, by decide⟩ ⟨k, h⟩) C)
          ∗ (∃ C, slotF d L I R fb0 (Memref.whole cc2_scratch2 : Memref sig .scVector .vmem S128 .f32) cc2_scratch11.sem (Transfers.shareTokN q 1) (Transfers.shareTokN fullShare 1) (offJ 1 k) (offJ_inb ⟨1, by decide⟩ ⟨k, h⟩) C)
          ∗ (∃ C, slotF d L I R fb0 (Memref.whole cc2_scratch3 : Memref sig .scVector .vmem S128 .f32) cc2_scratch12.sem (Transfers.shareTokN q 2) (Transfers.shareTokN fullShare 2) (offJ 2 k) (offJ_inb ⟨2, by decide⟩ ⟨k, h⟩) C)
          ∗ (∃ C, slotF d L I R fb0 (Memref.whole cc2_scratch4 : Memref sig .scVector .vmem S128 .f32) cc2_scratch13.sem (Transfers.shareTokN q 3) (Transfers.shareTokN fullShare 3) (offJ 3 k) (offJ_inb ⟨3, by decide⟩ ⟨k, h⟩) C)
          ∗ (∃ C, slotF d L I R fb0 (Memref.whole cc2_scratch5 : Memref sig .scVector .vmem S128 .f32) cc2_scratch14.sem (Transfers.shareTokN q 4) (Transfers.shareTokN fullShare 4) (offJ 4 k) (offJ_inb ⟨4, by decide⟩ ⟨k, h⟩) C)
          ∗ (∃ C, slotF d L I R fb0 (Memref.whole cc2_scratch6 : Memref sig .scVector .vmem S128 .f32) cc2_scratch15.sem (Transfers.shareTokN q 5) (Transfers.shareTokN fullShare 5) (offJ 5 k) (offJ_inb ⟨5, by decide⟩ ⟨k, h⟩) C)
          ∗ (∃ C, slotF d L I R fb0 (Memref.whole cc2_scratch7 : Memref sig .scVector .vmem S128 .f32) cc2_scratch16.sem (Transfers.shareTokN q 6) (Transfers.shareTokN fullShare 6) (offJ 6 k) (offJ_inb ⟨6, by decide⟩ ⟨k, h⟩) C)
          ∗ (∃ C, slotF d L I R fb0 (Memref.whole cc2_scratch8 : Memref sig .scVector .vmem S128 .f32) cc2_scratch17.sem (Transfers.shareDrop q 7) (Transfers.shareDrop fullShare 7) (offJ 7 k) (offJ_inb ⟨7, by decide⟩ ⟨k, h⟩) C))
      else
        iprop(doneF d L I R fb0 (Memref.whole cc2_scratch1 : Memref sig .scVector .vmem S128 .f32) cc2_scratch10.sem (Transfers.shareTokN q 0) (Transfers.shareTokN fullShare 0)
          ∗ doneF d L I R fb0 (Memref.whole cc2_scratch2 : Memref sig .scVector .vmem S128 .f32) cc2_scratch11.sem (Transfers.shareTokN q 1) (Transfers.shareTokN fullShare 1)
          ∗ doneF d L I R fb0 (Memref.whole cc2_scratch3 : Memref sig .scVector .vmem S128 .f32) cc2_scratch12.sem (Transfers.shareTokN q 2) (Transfers.shareTokN fullShare 2)
          ∗ doneF d L I R fb0 (Memref.whole cc2_scratch4 : Memref sig .scVector .vmem S128 .f32) cc2_scratch13.sem (Transfers.shareTokN q 3) (Transfers.shareTokN fullShare 3)
          ∗ doneF d L I R fb0 (Memref.whole cc2_scratch5 : Memref sig .scVector .vmem S128 .f32) cc2_scratch14.sem (Transfers.shareTokN q 4) (Transfers.shareTokN fullShare 4)
          ∗ doneF d L I R fb0 (Memref.whole cc2_scratch6 : Memref sig .scVector .vmem S128 .f32) cc2_scratch15.sem (Transfers.shareTokN q 5) (Transfers.shareTokN fullShare 5)
          ∗ doneF d L I R fb0 (Memref.whole cc2_scratch7 : Memref sig .scVector .vmem S128 .f32) cc2_scratch16.sem (Transfers.shareTokN q 6) (Transfers.shareTokN fullShare 6)
          ∗ doneF d L I R fb0 (Memref.whole cc2_scratch8 : Memref sig .scVector .vmem S128 .f32) cc2_scratch17.sem (Transfers.shareDrop q 7) (Transfers.shareDrop fullShare 7)))
    ∗ ∃ W', ⌜∀ p ∈ W', p ∈ W ∨ p.2 = none⌝ ∗ owes (thr1 d L) O W')

theorem inv1_pos (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (k : ℕ) (acc : FVec F S16 .f32) (h : k < 13) :
    inv1 d L O W q I R fb0 k acc
      = iprop(Transfers.MayWaits (thr1 d L) (none : HIx 2) O
        ∗ ((∃ C, slotF d L I R fb0 (Memref.whole cc2_scratch1 : Memref sig .scVector .vmem S128 .f32) cc2_scratch10.sem (Transfers.shareTokN q 0) (Transfers.shareTokN fullShare 0) (offJ 0 k) (offJ_inb ⟨0, by decide⟩ ⟨k, h⟩) C)
          ∗ (∃ C, slotF d L I R fb0 (Memref.whole cc2_scratch2 : Memref sig .scVector .vmem S128 .f32) cc2_scratch11.sem (Transfers.shareTokN q 1) (Transfers.shareTokN fullShare 1) (offJ 1 k) (offJ_inb ⟨1, by decide⟩ ⟨k, h⟩) C)
          ∗ (∃ C, slotF d L I R fb0 (Memref.whole cc2_scratch3 : Memref sig .scVector .vmem S128 .f32) cc2_scratch12.sem (Transfers.shareTokN q 2) (Transfers.shareTokN fullShare 2) (offJ 2 k) (offJ_inb ⟨2, by decide⟩ ⟨k, h⟩) C)
          ∗ (∃ C, slotF d L I R fb0 (Memref.whole cc2_scratch4 : Memref sig .scVector .vmem S128 .f32) cc2_scratch13.sem (Transfers.shareTokN q 3) (Transfers.shareTokN fullShare 3) (offJ 3 k) (offJ_inb ⟨3, by decide⟩ ⟨k, h⟩) C)
          ∗ (∃ C, slotF d L I R fb0 (Memref.whole cc2_scratch5 : Memref sig .scVector .vmem S128 .f32) cc2_scratch14.sem (Transfers.shareTokN q 4) (Transfers.shareTokN fullShare 4) (offJ 4 k) (offJ_inb ⟨4, by decide⟩ ⟨k, h⟩) C)
          ∗ (∃ C, slotF d L I R fb0 (Memref.whole cc2_scratch6 : Memref sig .scVector .vmem S128 .f32) cc2_scratch15.sem (Transfers.shareTokN q 5) (Transfers.shareTokN fullShare 5) (offJ 5 k) (offJ_inb ⟨5, by decide⟩ ⟨k, h⟩) C)
          ∗ (∃ C, slotF d L I R fb0 (Memref.whole cc2_scratch7 : Memref sig .scVector .vmem S128 .f32) cc2_scratch16.sem (Transfers.shareTokN q 6) (Transfers.shareTokN fullShare 6) (offJ 6 k) (offJ_inb ⟨6, by decide⟩ ⟨k, h⟩) C)
          ∗ (∃ C, slotF d L I R fb0 (Memref.whole cc2_scratch8 : Memref sig .scVector .vmem S128 .f32) cc2_scratch17.sem (Transfers.shareDrop q 7) (Transfers.shareDrop fullShare 7) (offJ 7 k) (offJ_inb ⟨7, by decide⟩ ⟨k, h⟩) C))
        ∗ ∃ W', ⌜∀ p ∈ W', p ∈ W ∨ p.2 = none⌝ ∗ owes (thr1 d L) O W') := by
  unfold inv1; rw [dif_pos h]

theorem inv1_neg (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (k : ℕ) (acc : FVec F S16 .f32) (h : ¬ k < 13) :
    inv1 d L O W q I R fb0 k acc
      = iprop(Transfers.MayWaits (thr1 d L) (none : HIx 2) O
        ∗ (doneF d L I R fb0 (Memref.whole cc2_scratch1 : Memref sig .scVector .vmem S128 .f32) cc2_scratch10.sem (Transfers.shareTokN q 0) (Transfers.shareTokN fullShare 0)
          ∗ doneF d L I R fb0 (Memref.whole cc2_scratch2 : Memref sig .scVector .vmem S128 .f32) cc2_scratch11.sem (Transfers.shareTokN q 1) (Transfers.shareTokN fullShare 1)
          ∗ doneF d L I R fb0 (Memref.whole cc2_scratch3 : Memref sig .scVector .vmem S128 .f32) cc2_scratch12.sem (Transfers.shareTokN q 2) (Transfers.shareTokN fullShare 2)
          ∗ doneF d L I R fb0 (Memref.whole cc2_scratch4 : Memref sig .scVector .vmem S128 .f32) cc2_scratch13.sem (Transfers.shareTokN q 3) (Transfers.shareTokN fullShare 3)
          ∗ doneF d L I R fb0 (Memref.whole cc2_scratch5 : Memref sig .scVector .vmem S128 .f32) cc2_scratch14.sem (Transfers.shareTokN q 4) (Transfers.shareTokN fullShare 4)
          ∗ doneF d L I R fb0 (Memref.whole cc2_scratch6 : Memref sig .scVector .vmem S128 .f32) cc2_scratch15.sem (Transfers.shareTokN q 5) (Transfers.shareTokN fullShare 5)
          ∗ doneF d L I R fb0 (Memref.whole cc2_scratch7 : Memref sig .scVector .vmem S128 .f32) cc2_scratch16.sem (Transfers.shareTokN q 6) (Transfers.shareTokN fullShare 6)
          ∗ doneF d L I R fb0 (Memref.whole cc2_scratch8 : Memref sig .scVector .vmem S128 .f32) cc2_scratch17.sem (Transfers.shareDrop q 7) (Transfers.shareDrop fullShare 7))
        ∗ ∃ W', ⌜∀ p ∈ W', p ∈ W ∨ p.2 = none⌝ ∗ owes (thr1 d L) O W') := by
  unfold inv1; rw [dif_neg h]

/-- After the last trip: every buffer at rest, spelt out. -/
theorem inv1_done (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (k : ℕ) (acc : FVec F S16 .f32) (h : ¬ k < 13) :
    inv1 d L O W q I R fb0 k acc
      = iprop(Transfers.MayWaits (thr1 d L) (none : HIx 2) O
        ∗ (((∃ C, (Memref.whole cc2_scratch1 : Memref sig .scVector .vmem S128 .f32).view.loc (thr1 d L) ↦{fullShare} C)
            ∗ ((Memref.whole main_v3_scv : Memref sig .scVector .hbm S1000000 .f32).view.loc (thr1 d L) ↦{Transfers.shareTokN q 0} R)
            ∗ ((Memref.whole cc2_scratch0 : Memref sig .scVector .vmem S26x512 .i32).view.loc (thr1 d L) ↦{Transfers.shareTokN fullShare 0} fb0)
            ∗ semVal (thr1 d L, SemLoc.dma cc2_scratch10.sem) 0)
          ∗ ((∃ C, (Memref.whole cc2_scratch2 : Memref sig .scVector .vmem S128 .f32).view.loc (thr1 d L) ↦{fullShare} C)
            ∗ ((Memref.whole main_v3_scv : Memref sig .scVector .hbm S1000000 .f32).view.loc (thr1 d L) ↦{Transfers.shareTokN q 1} R)
            ∗ ((Memref.whole cc2_scratch0 : Memref sig .scVector .vmem S26x512 .i32).view.loc (thr1 d L) ↦{Transfers.shareTokN fullShare 1} fb0)
            ∗ semVal (thr1 d L, SemLoc.dma cc2_scratch11.sem) 0)
          ∗ ((∃ C, (Memref.whole cc2_scratch3 : Memref sig .scVector .vmem S128 .f32).view.loc (thr1 d L) ↦{fullShare} C)
            ∗ ((Memref.whole main_v3_scv : Memref sig .scVector .hbm S1000000 .f32).view.loc (thr1 d L) ↦{Transfers.shareTokN q 2} R)
            ∗ ((Memref.whole cc2_scratch0 : Memref sig .scVector .vmem S26x512 .i32).view.loc (thr1 d L) ↦{Transfers.shareTokN fullShare 2} fb0)
            ∗ semVal (thr1 d L, SemLoc.dma cc2_scratch12.sem) 0)
          ∗ ((∃ C, (Memref.whole cc2_scratch4 : Memref sig .scVector .vmem S128 .f32).view.loc (thr1 d L) ↦{fullShare} C)
            ∗ ((Memref.whole main_v3_scv : Memref sig .scVector .hbm S1000000 .f32).view.loc (thr1 d L) ↦{Transfers.shareTokN q 3} R)
            ∗ ((Memref.whole cc2_scratch0 : Memref sig .scVector .vmem S26x512 .i32).view.loc (thr1 d L) ↦{Transfers.shareTokN fullShare 3} fb0)
            ∗ semVal (thr1 d L, SemLoc.dma cc2_scratch13.sem) 0)
          ∗ ((∃ C, (Memref.whole cc2_scratch5 : Memref sig .scVector .vmem S128 .f32).view.loc (thr1 d L) ↦{fullShare} C)
            ∗ ((Memref.whole main_v3_scv : Memref sig .scVector .hbm S1000000 .f32).view.loc (thr1 d L) ↦{Transfers.shareTokN q 4} R)
            ∗ ((Memref.whole cc2_scratch0 : Memref sig .scVector .vmem S26x512 .i32).view.loc (thr1 d L) ↦{Transfers.shareTokN fullShare 4} fb0)
            ∗ semVal (thr1 d L, SemLoc.dma cc2_scratch14.sem) 0)
          ∗ ((∃ C, (Memref.whole cc2_scratch6 : Memref sig .scVector .vmem S128 .f32).view.loc (thr1 d L) ↦{fullShare} C)
            ∗ ((Memref.whole main_v3_scv : Memref sig .scVector .hbm S1000000 .f32).view.loc (thr1 d L) ↦{Transfers.shareTokN q 5} R)
            ∗ ((Memref.whole cc2_scratch0 : Memref sig .scVector .vmem S26x512 .i32).view.loc (thr1 d L) ↦{Transfers.shareTokN fullShare 5} fb0)
            ∗ semVal (thr1 d L, SemLoc.dma cc2_scratch15.sem) 0)
          ∗ ((∃ C, (Memref.whole cc2_scratch7 : Memref sig .scVector .vmem S128 .f32).view.loc (thr1 d L) ↦{fullShare} C)
            ∗ ((Memref.whole main_v3_scv : Memref sig .scVector .hbm S1000000 .f32).view.loc (thr1 d L) ↦{Transfers.shareTokN q 6} R)
            ∗ ((Memref.whole cc2_scratch0 : Memref sig .scVector .vmem S26x512 .i32).view.loc (thr1 d L) ↦{Transfers.shareTokN fullShare 6} fb0)
            ∗ semVal (thr1 d L, SemLoc.dma cc2_scratch16.sem) 0)
          ∗ ((∃ C, (Memref.whole cc2_scratch8 : Memref sig .scVector .vmem S128 .f32).view.loc (thr1 d L) ↦{fullShare} C)
            ∗ ((Memref.whole main_v3_scv : Memref sig .scVector .hbm S1000000 .f32).view.loc (thr1 d L) ↦{Transfers.shareDrop q 7} R)
            ∗ ((Memref.whole cc2_scratch0 : Memref sig .scVector .vmem S26x512 .i32).view.loc (thr1 d L) ↦{Transfers.shareDrop fullShare 7} fb0)
            ∗ semVal (thr1 d L, SemLoc.dma cc2_scratch17.sem) 0))
        ∗ ∃ W', ⌜∀ p ∈ W', p ∈ W ∨ p.2 = none⌝ ∗ owes (thr1 d L) O W') := by
  unfold inv1 doneF; rw [dif_neg h]

omit [FloatOps F] in
/-- One more wait at index `none` keeps the record of waits admissible. -/
theorem waits_ok1 {W W' : Waits sig (HIx 2)} (hW' : ∀ p ∈ W', p ∈ W ∨ p.2 = none) (s : SemLoc sig) :
    ∀ p ∈ insert (s, (default : HIx 2)) W', p ∈ W ∨ p.2 = none := by
  intro p hp
  rcases Finset.mem_insert.mp hp with hp | hp
  · exact .inr (hp ▸ rfl)
  · exact hW' p hp

set_option maxHeartbeats 4000000 in
/-- One trip: each buffer's gather is waited for, its eight pieces added up, and the next chunk's gather issued into it (none after the last trip). -/
theorem trip1 (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (hin : ∀ (off : Fin 2 → ℕ) (hb : ∀ a, off a + S1x128.size a ≤ S26x512.size a) (x : S128.Idx), (View.read (Elt F) (offM off hb).view fb0 x).toNat < 1000000)
    (k : Fin k2_t1_loop.trips) (acc : FVec F S16 .f32) :
    inv1 d L O W q I R fb0 k.val acc
      ⊢ wp frame (wpE (defs₀ (F := F)) 𝒱₀ (thr1 d L) none) Set.univ
          (k2_t1_body L (Memref.whole main_v4_scv) (Memref.isWhole_whole _) (Memref.whole main_v3_scv) (Memref.isWhole_whole _) (Memref.whole main_v5_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scratch16 cc2_scratch17 cc2_scoped0 cc2_scoped1 k acc)
          (fun a => inv1 d L O W q I R fb0 (k.val + 1) a) := by
  rw [inv1_pos d L O W q I R fb0 k.val acc k.isLt]
  unfold slotF k2_t1_body
  iintro ⟨Hmw, ⟨⟨%C0, Hf0, Hsr0, Hbr0, Hor0⟩, ⟨%C1, Hf1, Hsr1, Hbr1, Hor1⟩, ⟨%C2, Hf2, Hsr2, Hbr2, Hor2⟩, ⟨%C3, Hf3, Hsr3, Hbr3, Hor3⟩, ⟨%C4, Hf4, Hsr4, Hbr4, Hor4⟩, ⟨%C5, Hf5, Hsr5, Hbr5, Hor5⟩, ⟨%C6, Hf6, Hsr6, Hbr6, Hor6⟩, ⟨%C7, Hf7, Hsr7, Hbr7, Hor7⟩⟩, %W', %hW', HO⟩
  by_cases hk : k.val < 12
  · obtain ⟨h1, h2, h3, h4, h5, h6, h7, h8⟩ := k2_cond_pos k hk
    sl_exec
    sl_step
    rw [inv1_pos d L O W q I R fb0 (k.val + 1) _ (by omega)]
    isplitl [Hmw]; · iexact Hmw
    isplitr [HO]
    isplitl [Hf0 Hsr0 Hbr0 Hor0]
    · iexists _
      iapply (Entails.of_eq (slotF_congr d L I R fb0 _ _ _ _ (k2_off3_eq' k h1) (k2_off3_inb k h1) _ _))
      unfold slotF
      isplitl [Hf0]; · iexact Hf0
      isplitl [Hsr0]; · iexact Hsr0
      isplitl [Hbr0]; · iexact Hbr0
      iexact Hor0
    isplitl [Hf1 Hsr1 Hbr1 Hor1]
    · iexists _
      iapply (Entails.of_eq (slotF_congr d L I R fb0 _ _ _ _ (k2_off4_eq' k h2) (k2_off4_inb k h2) _ _))
      unfold slotF
      isplitl [Hf1]; · iexact Hf1
      isplitl [Hsr1]; · iexact Hsr1
      isplitl [Hbr1]; · iexact Hbr1
      iexact Hor1
    isplitl [Hf2 Hsr2 Hbr2 Hor2]
    · iexists _
      iapply (Entails.of_eq (slotF_congr d L I R fb0 _ _ _ _ (k2_off5_eq' k h3) (k2_off5_inb k h3) _ _))
      unfold slotF
      isplitl [Hf2]; · iexact Hf2
      isplitl [Hsr2]; · iexact Hsr2
      isplitl [Hbr2]; · iexact Hbr2
      iexact Hor2
    isplitl [Hf3 Hsr3 Hbr3 Hor3]
    · iexists _
      iapply (Entails.of_eq (slotF_congr d L I R fb0 _ _ _ _ (k2_off6_eq' k h4) (k2_off6_inb k h4) _ _))
      unfold slotF
      isplitl [Hf3]; · iexact Hf3
      isplitl [Hsr3]; · iexact Hsr3
      isplitl [Hbr3]; · iexact Hbr3
      iexact Hor3
    isplitl [Hf4 Hsr4 Hbr4 Hor4]
    · iexists _
      iapply (Entails.of_eq (slotF_congr d L I R fb0 _ _ _ _ (k2_off7_eq' k h5) (k2_off7_inb k h5) _ _))
      unfold slotF
      isplitl [Hf4]; · iexact Hf4
      isplitl [Hsr4]; · iexact Hsr4
      isplitl [Hbr4]; · iexact Hbr4
      iexact Hor4
    isplitl [Hf5 Hsr5 Hbr5 Hor5]
    · iexists _
      iapply (Entails.of_eq (slotF_congr d L I R fb0 _ _ _ _ (k2_off8_eq' k h6) (k2_off8_inb k h6) _ _))
      unfold slotF
      isplitl [Hf5]; · iexact Hf5
      isplitl [Hsr5]; · iexact Hsr5
      isplitl [Hbr5]; · iexact Hbr5
      iexact Hor5
    isplitl [Hf6 Hsr6 Hbr6 Hor6]
    · iexists _
      iapply (Entails.of_eq (slotF_congr d L I R fb0 _ _ _ _ (k2_off9_eq' k h7) (k2_off9_inb k h7) _ _))
      unfold slotF
      isplitl [Hf6]; · iexact Hf6
      isplitl [Hsr6]; · iexact Hsr6
      isplitl [Hbr6]; · iexact Hbr6
      iexact Hor6
    · iexists _
      iapply (Entails.of_eq (slotF_congr d L I R fb0 _ _ _ _ (k2_off10_eq' k h8) (k2_off10_inb k h8) _ _))
      unfold slotF
      isplitl [Hf7]; · iexact Hf7
      isplitl [Hsr7]; · iexact Hsr7
      isplitl [Hbr7]; · iexact Hbr7
      iexact Hor7
    iexists _; isplitr
    pick_goal 2
    · iexact HO
    · ipureintro; exact waits_ok1 (waits_ok1 (waits_ok1 (waits_ok1 (waits_ok1 (waits_ok1 (waits_ok1 (waits_ok1 (hW') _) _) _) _) _) _) _) _
  · obtain ⟨h1, h2, h3, h4, h5, h6, h7, h8⟩ := k2_cond_neg k hk
    sl_exec
    sl_step
    rw [inv1_neg d L O W q I R fb0 (k.val + 1) _ (by omega)]
    isplitl [Hmw]; · iexact Hmw
    isplitr [HO]
    isplitl [Hf0 Hsr0 Hbr0 Hor0]
    · unfold doneF
      isplitl [Hbr0]; · iexists _; iexact Hbr0
      isplitl [Hsr0]; · iexact Hsr0
      isplitl [Hor0]; · iexact Hor0
      iexact Hf0
    isplitl [Hf1 Hsr1 Hbr1 Hor1]
    · unfold doneF
      isplitl [Hbr1]; · iexists _; iexact Hbr1
      isplitl [Hsr1]; · iexact Hsr1
      isplitl [Hor1]; · iexact Hor1
      iexact Hf1
    isplitl [Hf2 Hsr2 Hbr2 Hor2]
    · unfold doneF
      isplitl [Hbr2]; · iexists _; iexact Hbr2
      isplitl [Hsr2]; · iexact Hsr2
      isplitl [Hor2]; · iexact Hor2
      iexact Hf2
    isplitl [Hf3 Hsr3 Hbr3 Hor3]
    · unfold doneF
      isplitl [Hbr3]; · iexists _; iexact Hbr3
      isplitl [Hsr3]; · iexact Hsr3
      isplitl [Hor3]; · iexact Hor3
      iexact Hf3
    isplitl [Hf4 Hsr4 Hbr4 Hor4]
    · unfold doneF
      isplitl [Hbr4]; · iexists _; iexact Hbr4
      isplitl [Hsr4]; · iexact Hsr4
      isplitl [Hor4]; · iexact Hor4
      iexact Hf4
    isplitl [Hf5 Hsr5 Hbr5 Hor5]
    · unfold doneF
      isplitl [Hbr5]; · iexists _; iexact Hbr5
      isplitl [Hsr5]; · iexact Hsr5
      isplitl [Hor5]; · iexact Hor5
      iexact Hf5
    isplitl [Hf6 Hsr6 Hbr6 Hor6]
    · unfold doneF
      isplitl [Hbr6]; · iexists _; iexact Hbr6
      isplitl [Hsr6]; · iexact Hsr6
      isplitl [Hor6]; · iexact Hor6
      iexact Hf6
    · unfold doneF
      isplitl [Hbr7]; · iexists _; iexact Hbr7
      isplitl [Hsr7]; · iexact Hsr7
      isplitl [Hor7]; · iexact Hor7
      iexact Hf7
    iexists _; isplitr
    pick_goal 2
    · iexact HO
    · ipureintro; exact waits_ok1 (waits_ok1 (waits_ok1 (waits_ok1 (waits_ok1 (waits_ok1 (waits_ok1 (waits_ok1 (hW') _) _) _) _) _) _) _) _

set_option maxHeartbeats 4000000 in
theorem tile1_frame (hF : (K (F := F)).Facts) (d : Dev nD) (L : grid2.Coords) (O : CellTallies nD τ sig (HIx 2)) (W : Waits sig (HIx 2)) (hO : ∀ g, O g none = 0)
    (q : PosShare TreeShare) (I : Buf (Elt F) (itLoc d)) (R : Buf (Elt F) (raLoc d)) (f0 : Buf (Elt F) (ptLoc d))
    (hI : ∀ i, (I i).toNat < 1000000) :
    iprop(levAts (K (F := F)).L (K (F := F)).lev
        ∗ ((itLoc d ↦{q} I) ∗ (raLoc d ↦{q} R) ∗ (ptLoc d ↦[outRow1 L]{fullShare} f0))
        ∗ scopedBufs (thr1 d L) ∗ scopedSems0 (thr1 d L) ∗ owes (thr1 d L) O W)
      ⊢ (wp frame (wpE (defs₀ (F := F)) 𝒱₀ (thr1 d L) none) Set.univ
          (cc2_sc_kernel L (Memref.whole main_v4_scv) (Memref.isWhole_whole _) (Memref.whole main_v3_scv) (Memref.isWhole_whole _) (Memref.whole main_v5_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scratch16 cc2_scratch17 cc2_scoped0 cc2_scoped1)
          fun _ => iprop(((itLoc d ↦{q} I) ∗ (raLoc d ↦{q} R) ∗ (∃ f, ptLoc d ↦[outRow1 L]{fullShare} f))
            ∗ scopedBufs (thr1 d L) ∗ scopedSems0 (thr1 d L) ∗ ∃ W', ⌜∀ p ∈ W', p ∈ W ∨ p.2 = none⌝ ∗ owes (thr1 d L) O W') : sProp 𝕄) := by
  simp only [cc2_sc_kernel_eq_skeleton]; unfold cc2_sc_kernel_skel
  rw [(K (F := F)).scopedBufs_V hF d (cV1 L) (jV1 L), SparseCore.Cfg.scopedSems0_V (Val := Elt F) d (cV1 L) (jV1 L), ownSems0_T1, ownBufs_T1']
  iintro ⟨#Hlv, ⟨Hi, Hr, Ho⟩, ⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, ⟨%fb8, Hb8⟩, ⟨%fb9, Hb9⟩, Hbufs⟩, ⟨Hs0, Hs1, Hs2, Hs3, Hs4, Hs5, Hs6, Hs7, Hs8, Hs9, Hsems⟩, HO⟩
  ihave Hmw := ((K (F := F)).mayWaits_none (thr := thr1 d L) hO) $$ Hlv
  ihave Hi' := (Entails.of_eq (pts_it1 (F := F) d L q _).symm) $$ Hi
  ihave Hr' := (Entails.of_eq (pts_ra1 (F := F) d L q _).symm) $$ Hr
  ihave Ho' := (Entails.of_eq (pts_row1 (F := F) d L _).symm) $$ Ho
  sl_exec
  -- the index scratch now holds the tile's window: its contents named
  ihave Hb0e := (pts_name (F := F) _) $$ Hb0
  icases Hb0e with ⟨%fo, %hfo, Hb0⟩
  have hin : ∀ (off : Fin 2 → ℕ) (hb : ∀ a, off a + S1x128.size a ≤ S26x512.size a) (x : S128.Idx), (View.read (Elt F) (offM off hb).view fo x).toNat < 1000000 := by
    intro off hb x; rw [hfo]; exact hin1 (F := F) L I hI off hb fb0 x
  -- eight read shares of the table of row sums and of the index scratch, one per buffer in flight
  ihave Hr8 := (Entails.of_eq (pts_split8 (F := F) q)) $$ Hr'
  icases Hr8 with ⟨HR0, HR1, HR2, HR3, HR4, HR5, HR6, HR7⟩
  ihave Hx8 := (Entails.of_eq (pts_split8 (F := F) fullShare)) $$ Hb0
  icases Hx8 with ⟨HX0, HX1, HX2, HX3, HX4, HX5, HX6, HX7⟩
  sl_exec
  sl_for (inv1 d L O W q I R fo) $$ [Hmw Hs0 HR0 Hb1 HX0 Hs1 HR1 Hb2 HX1 Hs2 HR2 Hb3 HX2 Hs3 HR3 Hb4 HX3 Hs4 HR4 Hb5 HX4 Hs5 HR5 Hb6 HX5 Hs6 HR6 Hb7 HX6 Hs7 HR7 Hb8 HX7 HO]
  case region => exact fun k acc => trip1 d L O W q I R fo hin k acc
  · rw [inv1_pos d L O W q I R fo 0 _ (by norm_num)]
    isplitl [Hmw]; · iexact Hmw
    isplitr [HO]
    isplitl [Hs0 HR0 Hb1 HX0]
    · iexists _
      iapply (Entails.of_eq (slotF_congr d L I R fo _ _ _ _ (show (![0, 0] : Fin 2 → ℕ) = offJ 0 0 from by decide) inb_S26x512_S1x128_0_0 _ _))
      unfold slotF
      isplitl [Hs0]; · iexact Hs0
      isplitl [HR0]; · iexact HR0
      isplitl [Hb1]; · iexact Hb1
      iexact HX0
    isplitl [Hs1 HR1 Hb2 HX1]
    · iexists _
      iapply (Entails.of_eq (slotF_congr d L I R fo _ _ _ _ (show (![0, 128] : Fin 2 → ℕ) = offJ 1 0 from by decide) inb_S26x512_S1x128_0_128 _ _))
      unfold slotF
      isplitl [Hs1]; · iexact Hs1
      isplitl [HR1]; · iexact HR1
      isplitl [Hb2]; · iexact Hb2
      iexact HX1
    isplitl [Hs2 HR2 Hb3 HX2]
    · iexists _
      iapply (Entails.of_eq (slotF_congr d L I R fo _ _ _ _ (show (![0, 256] : Fin 2 → ℕ) = offJ 2 0 from by decide) inb_S26x512_S1x128_0_256 _ _))
      unfold slotF
      isplitl [Hs2]; · iexact Hs2
      isplitl [HR2]; · iexact HR2
      isplitl [Hb3]; · iexact Hb3
      iexact HX2
    isplitl [Hs3 HR3 Hb4 HX3]
    · iexists _
      iapply (Entails.of_eq (slotF_congr d L I R fo _ _ _ _ (show (![0, 384] : Fin 2 → ℕ) = offJ 3 0 from by decide) inb_S26x512_S1x128_0_384 _ _))
      unfold slotF
      isplitl [Hs3]; · iexact Hs3
      isplitl [HR3]; · iexact HR3
      isplitl [Hb4]; · iexact Hb4
      iexact HX3
    isplitl [Hs4 HR4 Hb5 HX4]
    · iexists _
      iapply (Entails.of_eq (slotF_congr d L I R fo _ _ _ _ (show (![1, 0] : Fin 2 → ℕ) = offJ 4 0 from by decide) inb_S26x512_S1x128_1_0 _ _))
      unfold slotF
      isplitl [Hs4]; · iexact Hs4
      isplitl [HR4]; · iexact HR4
      isplitl [Hb5]; · iexact Hb5
      iexact HX4
    isplitl [Hs5 HR5 Hb6 HX5]
    · iexists _
      iapply (Entails.of_eq (slotF_congr d L I R fo _ _ _ _ (show (![1, 128] : Fin 2 → ℕ) = offJ 5 0 from by decide) inb_S26x512_S1x128_1_128 _ _))
      unfold slotF
      isplitl [Hs5]; · iexact Hs5
      isplitl [HR5]; · iexact HR5
      isplitl [Hb6]; · iexact Hb6
      iexact HX5
    isplitl [Hs6 HR6 Hb7 HX6]
    · iexists _
      iapply (Entails.of_eq (slotF_congr d L I R fo _ _ _ _ (show (![1, 256] : Fin 2 → ℕ) = offJ 6 0 from by decide) inb_S26x512_S1x128_1_256 _ _))
      unfold slotF
      isplitl [Hs6]; · iexact Hs6
      isplitl [HR6]; · iexact HR6
      isplitl [Hb7]; · iexact Hb7
      iexact HX6
    · iexists _
      iapply (Entails.of_eq (slotF_congr d L I R fo _ _ _ _ (show (![1, 384] : Fin 2 → ℕ) = offJ 7 0 from by decide) inb_S26x512_S1x128_1_384 _ _))
      unfold slotF
      isplitl [Hs7]; · iexact Hs7
      isplitl [HR7]; · iexact HR7
      isplitl [Hb8]; · iexact Hb8
      iexact HX7
    iexists _; isplitr
    pick_goal 2
    · iexact HO
    · ipureintro; exact waits_ok1 (fun p hp => .inl hp) _
  iintro %accF HI
  ihave HI' := (Entails.of_eq (inv1_done d L O W q I R fo _ accF (show ¬ k2_t1_loop.trips < 13 by decide))) $$ HI
  icases HI' with ⟨-, ⟨⟨⟨%C0, Hb1⟩, HR0, HX0, Hs0⟩, ⟨⟨%C1, Hb2⟩, HR1, HX1, Hs1⟩, ⟨⟨%C2, Hb3⟩, HR2, HX2, Hs2⟩, ⟨⟨%C3, Hb4⟩, HR3, HX3, Hs3⟩, ⟨⟨%C4, Hb5⟩, HR4, HX4, Hs4⟩, ⟨⟨%C5, Hb6⟩, HR5, HX5, Hs5⟩, ⟨⟨%C6, Hb7⟩, HR6, HX6, Hs6⟩, ⟨⟨%C7, Hb8⟩, HR7, HX7, Hs7⟩⟩, %W', %hW', HO⟩
  ihave Hr' := (Entails.of_eq (pts_split8 (F := F) q).symm) $$ [HR0 HR1 HR2 HR3 HR4 HR5 HR6 HR7]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HR7
  ihave Hb0 := (Entails.of_eq (pts_split8 (F := F) fullShare).symm) $$ [HX0 HX1 HX2 HX3 HX4 HX5 HX6 HX7]
  · isplitl [HX0]; · iexact HX0
    isplitl [HX1]; · iexact HX1
    isplitl [HX2]; · iexact HX2
    isplitl [HX3]; · iexact HX3
    isplitl [HX4]; · iexact HX4
    isplitl [HX5]; · iexact HX5
    isplitl [HX6]; · iexact HX6
    iexact HX7
  sl_exec
  sl_step
  isplitl [Hi' Hr' Ho']
  · isplitl [Hi']; · iapply (Entails.of_eq (pts_it1 (F := F) d L q _)); iexact Hi'
    isplitl [Hr']; · iapply (Entails.of_eq (pts_ra1 (F := F) d L q _)); iexact Hr'
    iexists _; iapply (Entails.of_eq (pts_row1 (F := F) d L _)); iexact Ho'
  isplitl [Hb0 Hb1 Hb2 Hb3 Hb4 Hb5 Hb6 Hb7 Hb8 Hb9 Hbufs]
  ·
    isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    iexact Hbufs
  isplitl [Hs0 Hs1 Hs2 Hs3 Hs4 Hs5 Hs6 Hs7 Hs8 Hs9 Hsems]
  ·
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists _; isplitr
  pick_goal 2
  · iexact HO
  · ipureintro; exact waits_ok1 hW' _

end Cert.Proof.KI

end
-- ==== Proof.KI.Tile1Steps.lean ====
/-
  One step of a trip of the second SparseCore call, as a value: the eight 16-lane pieces loaded from a gather buffer that
  holds a chunk are the chunk's eight pieces, so the step adds the chunk's sum to the accumulator.
-/
import proofs.«203338_g27195732918861_cont_9to1_1050_16_alg».proof.Proof.KI.Tile1Mem

noncomputable section

namespace Cert.Proof.KI

open Cert.KernelIdeal Cert.KernelIdeal.Gen

open Idealize.ShloMosaic Idealize.ShloMosaic.ValueIdx

variable {F : FTy → Type} [FloatOps F]

/-- A 16-lane load at word `o` of gather buffer 0 held whole: lane `y` is the buffer's word `o + y`. -/
theorem readAt_words1 (o : ℕ) (h : ∀ a, (![o] : Fin 1 → ℕ) a + S16.size a ≤ S128.size a)
    (C : (Memref.whole cc2_scratch1 : Memref sig .scVector .vmem S128 .f32).view.ty.Contents (Elt F)) :
    (Memref.whole cc2_scratch1 : Memref sig .scVector .vmem S128 .f32).view.readAt (Elt F) (Rect.unit (s := S128) ![o] S16.size h).toLoadRect C
      = fun y : S16.Idx => C (ix1 (⟨o + (y 0).val, by have h0 : o + 16 ≤ 128 := h 0; have hy : (y 0).val < 16 := (y 0).isLt; omega⟩ : Fin 128)) := by
  funext y
  show C ((Rect.unit (s := S128) ![o] S16.size h).toLoadRect.idx y) = _
  refine congrArg C (funext fun a => Fin.ext ?_)
  match a with
  | ⟨0, _⟩ => show o + 1 * (y 0).val = o + (y 0).val; omega

/-- A 16-lane load at word `o` of gather buffer 1 held whole: lane `y` is the buffer's word `o + y`. -/
theorem readAt_words2 (o : ℕ) (h : ∀ a, (![o] : Fin 1 → ℕ) a + S16.size a ≤ S128.size a)
    (C : (Memref.whole cc2_scratch2 : Memref sig .scVector .vmem S128 .f32).view.ty.Contents (Elt F)) :
    (Memref.whole cc2_scratch2 : Memref sig .scVector .vmem S128 .f32).view.readAt (Elt F) (Rect.unit (s := S128) ![o] S16.size h).toLoadRect C
      = fun y : S16.Idx => C (ix1 (⟨o + (y 0).val, by have h0 : o + 16 ≤ 128 := h 0; have hy : (y 0).val < 16 := (y 0).isLt; omega⟩ : Fin 128)) := by
  funext y
  show C ((Rect.unit (s := S128) ![o] S16.size h).toLoadRect.idx y) = _
  refine congrArg C (funext fun a => Fin.ext ?_)
  match a with
  | ⟨0, _⟩ => show o + 1 * (y 0).val = o + (y 0).val; omega

/-- A 16-lane load at word `o` of gather buffer 2 held whole: lane `y` is the buffer's word `o + y`. -/
theorem readAt_words3 (o : ℕ) (h : ∀ a, (![o] : Fin 1 → ℕ) a + S16.size a ≤ S128.size a)
    (C : (Memref.whole cc2_scratch3 : Memref sig .scVector .vmem S128 .f32).view.ty.Contents (Elt F)) :
    (Memref.whole cc2_scratch3 : Memref sig .scVector .vmem S128 .f32).view.readAt (Elt F) (Rect.unit (s := S128) ![o] S16.size h).toLoadRect C
      = fun y : S16.Idx => C (ix1 (⟨o + (y 0).val, by have h0 : o + 16 ≤ 128 := h 0; have hy : (y 0).val < 16 := (y 0).isLt; omega⟩ : Fin 128)) := by
  funext y
  show C ((Rect.unit (s := S128) ![o] S16.size h).toLoadRect.idx y) = _
  refine congrArg C (funext fun a => Fin.ext ?_)
  match a with
  | ⟨0, _⟩ => show o + 1 * (y 0).val = o + (y 0).val; omega

/-- A 16-lane load at word `o` of gather buffer 3 held whole: lane `y` is the buffer's word `o + y`. -/
theorem readAt_words4 (o : ℕ) (h : ∀ a, (![o] : Fin 1 → ℕ) a + S16.size a ≤ S128.size a)
    (C : (Memref.whole cc2_scratch4 : Memref sig .scVector .vmem S128 .f32).view.ty.Contents (Elt F)) :
    (Memref.whole cc2_scratch4 : Memref sig .scVector .vmem S128 .f32).view.readAt (Elt F) (Rect.unit (s := S128) ![o] S16.size h).toLoadRect C
      = fun y : S16.Idx => C (ix1 (⟨o + (y 0).val, by have h0 : o + 16 ≤ 128 := h 0; have hy : (y 0).val < 16 := (y 0).isLt; omega⟩ : Fin 128)) := by
  funext y
  show C ((Rect.unit (s := S128) ![o] S16.size h).toLoadRect.idx y) = _
  refine congrArg C (funext fun a => Fin.ext ?_)
  match a with
  | ⟨0, _⟩ => show o + 1 * (y 0).val = o + (y 0).val; omega

/-- A 16-lane load at word `o` of gather buffer 4 held whole: lane `y` is the buffer's word `o + y`. -/
theorem readAt_words5 (o : ℕ) (h : ∀ a, (![o] : Fin 1 → ℕ) a + S16.size a ≤ S128.size a)
    (C : (Memref.whole cc2_scratch5 : Memref sig .scVector .vmem S128 .f32).view.ty.Contents (Elt F)) :
    (Memref.whole cc2_scratch5 : Memref sig .scVector .vmem S128 .f32).view.readAt (Elt F) (Rect.unit (s := S128) ![o] S16.size h).toLoadRect C
      = fun y : S16.Idx => C (ix1 (⟨o + (y 0).val, by have h0 : o + 16 ≤ 128 := h 0; have hy : (y 0).val < 16 := (y 0).isLt; omega⟩ : Fin 128)) := by
  funext y
  show C ((Rect.unit (s := S128) ![o] S16.size h).toLoadRect.idx y) = _
  refine congrArg C (funext fun a => Fin.ext ?_)
  match a with
  | ⟨0, _⟩ => show o + 1 * (y 0).val = o + (y 0).val; omega

/-- A 16-lane load at word `o` of gather buffer 5 held whole: lane `y` is the buffer's word `o + y`. -/
theorem readAt_words6 (o : ℕ) (h : ∀ a, (![o] : Fin 1 → ℕ) a + S16.size a ≤ S128.size a)
    (C : (Memref.whole cc2_scratch6 : Memref sig .scVector .vmem S128 .f32).view.ty.Contents (Elt F)) :
    (Memref.whole cc2_scratch6 : Memref sig .scVector .vmem S128 .f32).view.readAt (Elt F) (Rect.unit (s := S128) ![o] S16.size h).toLoadRect C
      = fun y : S16.Idx => C (ix1 (⟨o + (y 0).val, by have h0 : o + 16 ≤ 128 := h 0; have hy : (y 0).val < 16 := (y 0).isLt; omega⟩ : Fin 128)) := by
  funext y
  show C ((Rect.unit (s := S128) ![o] S16.size h).toLoadRect.idx y) = _
  refine congrArg C (funext fun a => Fin.ext ?_)
  match a with
  | ⟨0, _⟩ => show o + 1 * (y 0).val = o + (y 0).val; omega

/-- A 16-lane load at word `o` of gather buffer 6 held whole: lane `y` is the buffer's word `o + y`. -/
theorem readAt_words7 (o : ℕ) (h : ∀ a, (![o] : Fin 1 → ℕ) a + S16.size a ≤ S128.size a)
    (C : (Memref.whole cc2_scratch7 : Memref sig .scVector .vmem S128 .f32).view.ty.Contents (Elt F)) :
    (Memref.whole cc2_scratch7 : Memref sig .scVector .vmem S128 .f32).view.readAt (Elt F) (Rect.unit (s := S128) ![o] S16.size h).toLoadRect C
      = fun y : S16.Idx => C (ix1 (⟨o + (y 0).val, by have h0 : o + 16 ≤ 128 := h 0; have hy : (y 0).val < 16 := (y 0).isLt; omega⟩ : Fin 128)) := by
  funext y
  show C ((Rect.unit (s := S128) ![o] S16.size h).toLoadRect.idx y) = _
  refine congrArg C (funext fun a => Fin.ext ?_)
  match a with
  | ⟨0, _⟩ => show o + 1 * (y 0).val = o + (y 0).val; omega

/-- A 16-lane load at word `o` of gather buffer 7 held whole: lane `y` is the buffer's word `o + y`. -/
theorem readAt_words8 (o : ℕ) (h : ∀ a, (![o] : Fin 1 → ℕ) a + S16.size a ≤ S128.size a)
    (C : (Memref.whole cc2_scratch8 : Memref sig .scVector .vmem S128 .f32).view.ty.Contents (Elt F)) :
    (Memref.whole cc2_scratch8 : Memref sig .scVector .vmem S128 .f32).view.readAt (Elt F) (Rect.unit (s := S128) ![o] S16.size h).toLoadRect C
      = fun y : S16.Idx => C (ix1 (⟨o + (y 0).val, by have h0 : o + 16 ≤ 128 := h 0; have hy : (y 0).val < 16 := (y 0).isLt; omega⟩ : Fin 128)) := by
  funext y
  show C ((Rect.unit (s := S128) ![o] S16.size h).toLoadRect.idx y) = _
  refine congrArg C (funext fun a => Fin.ext ?_)
  match a with
  | ⟨0, _⟩ => show o + 1 * (y 0).val = o + (y 0).val; omega

set_option maxHeartbeats 1000000 in
/-- Step 0 of a trip: the eight 16-lane loads of gather buffer 0, holding chunk `j` of tile `w`, added from the left and
    then to the accumulator, are the accumulator plus the chunk's sum. -/
theorem step0_chunk {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay5 acc (k2_pay4 ((Memref.whole cc2_scratch1 : Memref sig .scVector .vmem S128 .f32).view.readAt (Elt F) (Rect.unit (s := S128) ![0] S16.size h0).toLoadRect (chunkBuf I R w j))
        ((Memref.whole cc2_scratch1 : Memref sig .scVector .vmem S128 .f32).view.readAt (Elt F) (Rect.unit (s := S128) ![16] S16.size h1).toLoadRect (chunkBuf I R w j)))
        ((Memref.whole cc2_scratch1 : Memref sig .scVector .vmem S128 .f32).view.readAt (Elt F) (Rect.unit (s := S128) ![32] S16.size h2).toLoadRect (chunkBuf I R w j))
        ((Memref.whole cc2_scratch1 : Memref sig .scVector .vmem S128 .f32).view.readAt (Elt F) (Rect.unit (s := S128) ![48] S16.size h3).toLoadRect (chunkBuf I R w j))
        ((Memref.whole cc2_scratch1 : Memref sig .scVector .vmem S128 .f32).view.readAt (Elt F) (Rect.unit (s := S128) ![64] S16.size h4).toLoadRect (chunkBuf I R w j))
        ((Memref.whole cc2_scratch1 : Memref sig .scVector .vmem S128 .f32).view.readAt (Elt F) (Rect.unit (s := S128) ![80] S16.size h5).toLoadRect (chunkBuf I R w j))
        ((Memref.whole cc2_scratch1 : Memref sig .scVector .vmem S128 .f32).view.readAt (Elt F) (Rect.unit (s := S128) ![96] S16.size h6).toLoadRect (chunkBuf I R w j))
        ((Memref.whole cc2_scratch1 : Memref sig .scVector .vmem S128 .f32).view.readAt (Elt F) (Rect.unit (s := S128) ![112] S16.size h7).toLoadRect (chunkBuf I R w j))
      = addf acc (chunkSum I R w j) := by
  rw [readAt_words1 0 h0, readAt_words1 16 h1, readAt_words1 32 h2, readAt_words1 48 h3, readAt_words1 64 h4, readAt_words1 80 h5, readAt_words1 96 h6, readAt_words1 112 h7]
  rfl

set_option maxHeartbeats 1000000 in
/-- Step 1 of a trip: the eight 16-lane loads of gather buffer 1, holding chunk `j` of tile `w`, added from the left and
    then to the accumulator, are the accumulator plus the chunk's sum. -/
theorem step1_chunk {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay6 acc
        ((Memref.whole cc2_scratch2 : Memref sig .scVector .vmem S128 .f32).view.readAt (Elt F) (Rect.unit (s := S128) ![0] S16.size h0).toLoadRect (chunkBuf I R w j))
        ((Memref.whole cc2_scratch2 : Memref sig .scVector .vmem S128 .f32).view.readAt (Elt F) (Rect.unit (s := S128) ![16] S16.size h1).toLoadRect (chunkBuf I R w j))
        ((Memref.whole cc2_scratch2 : Memref sig .scVector .vmem S128 .f32).view.readAt (Elt F) (Rect.unit (s := S128) ![32] S16.size h2).toLoadRect (chunkBuf I R w j))
        ((Memref.whole cc2_scratch2 : Memref sig .scVector .vmem S128 .f32).view.readAt (Elt F) (Rect.unit (s := S128) ![48] S16.size h3).toLoadRect (chunkBuf I R w j))
        ((Memref.whole cc2_scratch2 : Memref sig .scVector .vmem S128 .f32).view.readAt (Elt F) (Rect.unit (s := S128) ![64] S16.size h4).toLoadRect (chunkBuf I R w j))
        ((Memref.whole cc2_scratch2 : Memref sig .scVector .vmem S128 .f32).view.readAt (Elt F) (Rect.unit (s := S128) ![80] S16.size h5).toLoadRect (chunkBuf I R w j))
        ((Memref.whole cc2_scratch2 : Memref sig .scVector .vmem S128 .f32).view.readAt (Elt F) (Rect.unit (s := S128) ![96] S16.size h6).toLoadRect (chunkBuf I R w j))
        ((Memref.whole cc2_scratch2 : Memref sig .scVector .vmem S128 .f32).view.readAt (Elt F) (Rect.unit (s := S128) ![112] S16.size h7).toLoadRect (chunkBuf I R w j))
      = addf acc (chunkSum I R w j) := by
  rw [readAt_words2 0 h0, readAt_words2 16 h1, readAt_words2 32 h2, readAt_words2 48 h3, readAt_words2 64 h4, readAt_words2 80 h5, readAt_words2 96 h6, readAt_words2 112 h7]
  rfl

set_option maxHeartbeats 1000000 in
/-- Step 2 of a trip: the eight 16-lane loads of gather buffer 2, holding chunk `j` of tile `w`, added from the left and
    then to the accumulator, are the accumulator plus the chunk's sum. -/
theorem step2_chunk {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay9 acc (k2_pay7 ((Memref.whole cc2_scratch3 : Memref sig .scVector .vmem S128 .f32).view.readAt (Elt F) (Rect.unit (s := S128) ![0] S16.size h0).toLoadRect (chunkBuf I R w j)))
        (k2_pay8 ((Memref.whole cc2_scratch3 : Memref sig .scVector .vmem S128 .f32).view.readAt (Elt F) (Rect.unit (s := S128) ![16] S16.size h1).toLoadRect (chunkBuf I R w j)))
        ((Memref.whole cc2_scratch3 : Memref sig .scVector .vmem S128 .f32).view.readAt (Elt F) (Rect.unit (s := S128) ![32] S16.size h2).toLoadRect (chunkBuf I R w j))
        ((Memref.whole cc2_scratch3 : Memref sig .scVector .vmem S128 .f32).view.readAt (Elt F) (Rect.unit (s := S128) ![48] S16.size h3).toLoadRect (chunkBuf I R w j))
        ((Memref.whole cc2_scratch3 : Memref sig .scVector .vmem S128 .f32).view.readAt (Elt F) (Rect.unit (s := S128) ![64] S16.size h4).toLoadRect (chunkBuf I R w j))
        ((Memref.whole cc2_scratch3 : Memref sig .scVector .vmem S128 .f32).view.readAt (Elt F) (Rect.unit (s := S128) ![80] S16.size h5).toLoadRect (chunkBuf I R w j))
        ((Memref.whole cc2_scratch3 : Memref sig .scVector .vmem S128 .f32).view.readAt (Elt F) (Rect.unit (s := S128) ![96] S16.size h6).toLoadRect (chunkBuf I R w j))
        ((Memref.whole cc2_scratch3 : Memref sig .scVector .vmem S128 .f32).view.readAt (Elt F) (Rect.unit (s := S128) ![112] S16.size h7).toLoadRect (chunkBuf I R w j))
      = addf acc (chunkSum I R w j) := by
  rw [readAt_words3 0 h0, readAt_words3 16 h1, readAt_words3 32 h2, readAt_words3 48 h3, readAt_words3 64 h4, readAt_words3 80 h5, readAt_words3 96 h6, readAt_words3 112 h7]
  rfl

set_option maxHeartbeats 1000000 in
/-- Step 3 of a trip: the eight 16-lane loads of gather buffer 3, holding chunk `j` of tile `w`, added from the left and
    then to the accumulator, are the accumulator plus the chunk's sum. -/
theorem step3_chunk {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay10 acc
        ((Memref.whole cc2_scratch4 : Memref sig .scVector .vmem S128 .f32).view.readAt (Elt F) (Rect.unit (s := S128) ![0] S16.size h0).toLoadRect (chunkBuf I R w j))
        ((Memref.whole cc2_scratch4 : Memref sig .scVector .vmem S128 .f32).view.readAt (Elt F) (Rect.unit (s := S128) ![16] S16.size h1).toLoadRect (chunkBuf I R w j))
        ((Memref.whole cc2_scratch4 : Memref sig .scVector .vmem S128 .f32).view.readAt (Elt F) (Rect.unit (s := S128) ![32] S16.size h2).toLoadRect (chunkBuf I R w j))
        ((Memref.whole cc2_scratch4 : Memref sig .scVector .vmem S128 .f32).view.readAt (Elt F) (Rect.unit (s := S128) ![48] S16.size h3).toLoadRect (chunkBuf I R w j))
        ((Memref.whole cc2_scratch4 : Memref sig .scVector .vmem S128 .f32).view.readAt (Elt F) (Rect.unit (s := S128) ![64] S16.size h4).toLoadRect (chunkBuf I R w j))
        ((Memref.whole cc2_scratch4 : Memref sig .scVector .vmem S128 .f32).view.readAt (Elt F) (Rect.unit (s := S128) ![80] S16.size h5).toLoadRect (chunkBuf I R w j))
        ((Memref.whole cc2_scratch4 : Memref sig .scVector .vmem S128 .f32).view.readAt (Elt F) (Rect.unit (s := S128) ![96] S16.size h6).toLoadRect (chunkBuf I R w j))
        ((Memref.whole cc2_scratch4 : Memref sig .scVector .vmem S128 .f32).view.readAt (Elt F) (Rect.unit (s := S128) ![112] S16.size h7).toLoadRect (chunkBuf I R w j))
      = addf acc (chunkSum I R w j) := by
  rw [readAt_words4 0 h0, readAt_words4 16 h1, readAt_words4 32 h2, readAt_words4 48 h3, readAt_words4 64 h4, readAt_words4 80 h5, readAt_words4 96 h6, readAt_words4 112 h7]
  rfl

set_option maxHeartbeats 1000000 in
/-- Step 4 of a trip: the eight 16-lane loads of gather buffer 4, holding chunk `j` of tile `w`, added from the left and
    then to the accumulator, are the accumulator plus the chunk's sum. -/
theorem step4_chunk {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay12 acc (k2_pay11 ((Memref.whole cc2_scratch5 : Memref sig .scVector .vmem S128 .f32).view.readAt (Elt F) (Rect.unit (s := S128) ![0] S16.size h0).toLoadRect (chunkBuf I R w j)))
        ((Memref.whole cc2_scratch5 : Memref sig .scVector .vmem S128 .f32).view.readAt (Elt F) (Rect.unit (s := S128) ![16] S16.size h1).toLoadRect (chunkBuf I R w j))
        ((Memref.whole cc2_scratch5 : Memref sig .scVector .vmem S128 .f32).view.readAt (Elt F) (Rect.unit (s := S128) ![32] S16.size h2).toLoadRect (chunkBuf I R w j))
        ((Memref.whole cc2_scratch5 : Memref sig .scVector .vmem S128 .f32).view.readAt (Elt F) (Rect.unit (s := S128) ![48] S16.size h3).toLoadRect (chunkBuf I R w j))
        ((Memref.whole cc2_scratch5 : Memref sig .scVector .vmem S128 .f32).view.readAt (Elt F) (Rect.unit (s := S128) ![64] S16.size h4).toLoadRect (chunkBuf I R w j))
        ((Memref.whole cc2_scratch5 : Memref sig .scVector .vmem S128 .f32).view.readAt (Elt F) (Rect.unit (s := S128) ![80] S16.size h5).toLoadRect (chunkBuf I R w j))
        ((Memref.whole cc2_scratch5 : Memref sig .scVector .vmem S128 .f32).view.readAt (Elt F) (Rect.unit (s := S128) ![96] S16.size h6).toLoadRect (chunkBuf I R w j))
        ((Memref.whole cc2_scratch5 : Memref sig .scVector .vmem S128 .f32).view.readAt (Elt F) (Rect.unit (s := S128) ![112] S16.size h7).toLoadRect (chunkBuf I R w j))
      = addf acc (chunkSum I R w j) := by
  rw [readAt_words5 0 h0, readAt_words5 16 h1, readAt_words5 32 h2, readAt_words5 48 h3, readAt_words5 64 h4, readAt_words5 80 h5, readAt_words5 96 h6, readAt_words5 112 h7]
  rfl

set_option maxHeartbeats 1000000 in
/-- Step 5 of a trip: the eight 16-lane loads of gather buffer 5, holding chunk `j` of tile `w`, added from the left and
    then to the accumulator, are the accumulator plus the chunk's sum. -/
theorem step5_chunk {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay13 acc
        ((Memref.whole cc2_scratch6 : Memref sig .scVector .vmem S128 .f32).view.readAt (Elt F) (Rect.unit (s := S128) ![0] S16.size h0).toLoadRect (chunkBuf I R w j))
        ((Memref.whole cc2_scratch6 : Memref sig .scVector .vmem S128 .f32).view.readAt (Elt F) (Rect.unit (s := S128) ![16] S16.size h1).toLoadRect (chunkBuf I R w j))
        ((Memref.whole cc2_scratch6 : Memref sig .scVector .vmem S128 .f32).view.readAt (Elt F) (Rect.unit (s := S128) ![32] S16.size h2).toLoadRect (chunkBuf I R w j))
        ((Memref.whole cc2_scratch6 : Memref sig .scVector .vmem S128 .f32).view.readAt (Elt F) (Rect.unit (s := S128) ![48] S16.size h3).toLoadRect (chunkBuf I R w j))
        ((Memref.whole cc2_scratch6 : Memref sig .scVector .vmem S128 .f32).view.readAt (Elt F) (Rect.unit (s := S128) ![64] S16.size h4).toLoadRect (chunkBuf I R w j))
        ((Memref.whole cc2_scratch6 : Memref sig .scVector .vmem S128 .f32).view.readAt (Elt F) (Rect.unit (s := S128) ![80] S16.size h5).toLoadRect (chunkBuf I R w j))
        ((Memref.whole cc2_scratch6 : Memref sig .scVector .vmem S128 .f32).view.readAt (Elt F) (Rect.unit (s := S128) ![96] S16.size h6).toLoadRect (chunkBuf I R w j))
        ((Memref.whole cc2_scratch6 : Memref sig .scVector .vmem S128 .f32).view.readAt (Elt F) (Rect.unit (s := S128) ![112] S16.size h7).toLoadRect (chunkBuf I R w j))
      = addf acc (chunkSum I R w j) := by
  rw [readAt_words6 0 h0, readAt_words6 16 h1, readAt_words6 32 h2, readAt_words6 48 h3, readAt_words6 64 h4, readAt_words6 80 h5, readAt_words6 96 h6, readAt_words6 112 h7]
  rfl

set_option maxHeartbeats 1000000 in
/-- Step 6 of a trip: the eight 16-lane loads of gather buffer 6, holding chunk `j` of tile `w`, added from the left and
    then to the accumulator, are the accumulator plus the chunk's sum. -/
theorem step6_chunk {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay14 acc
        ((Memref.whole cc2_scratch7 : Memref sig .scVector .vmem S128 .f32).view.readAt (Elt F) (Rect.unit (s := S128) ![0] S16.size h0).toLoadRect (chunkBuf I R w j))
        ((Memref.whole cc2_scratch7 : Memref sig .scVector .vmem S128 .f32).view.readAt (Elt F) (Rect.unit (s := S128) ![16] S16.size h1).toLoadRect (chunkBuf I R w j))
        ((Memref.whole cc2_scratch7 : Memref sig .scVector .vmem S128 .f32).view.readAt (Elt F) (Rect.unit (s := S128) ![32] S16.size h2).toLoadRect (chunkBuf I R w j))
        ((Memref.whole cc2_scratch7 : Memref sig .scVector .vmem S128 .f32).view.readAt (Elt F) (Rect.unit (s := S128) ![48] S16.size h3).toLoadRect (chunkBuf I R w j))
        ((Memref.whole cc2_scratch7 : Memref sig .scVector .vmem S128 .f32).view.readAt (Elt F) (Rect.unit (s := S128) ![64] S16.size h4).toLoadRect (chunkBuf I R w j))
        ((Memref.whole cc2_scratch7 : Memref sig .scVector .vmem S128 .f32).view.readAt (Elt F) (Rect.unit (s := S128) ![80] S16.size h5).toLoadRect (chunkBuf I R w j))
        ((Memref.whole cc2_scratch7 : Memref sig .scVector .vmem S128 .f32).view.readAt (Elt F) (Rect.unit (s := S128) ![96] S16.size h6).toLoadRect (chunkBuf I R w j))
        ((Memref.whole cc2_scratch7 : Memref sig .scVector .vmem S128 .f32).view.readAt (Elt F) (Rect.unit (s := S128) ![112] S16.size h7).toLoadRect (chunkBuf I R w j))
      = addf acc (chunkSum I R w j) := by
  rw [readAt_words7 0 h0, readAt_words7 16 h1, readAt_words7 32 h2, readAt_words7 48 h3, readAt_words7 64 h4, readAt_words7 80 h5, readAt_words7 96 h6, readAt_words7 112 h7]
  rfl

set_option maxHeartbeats 1000000 in
/-- Step 7 of a trip: the eight 16-lane loads of gather buffer 7, holding chunk `j` of tile `w`, added from the left and
    then to the accumulator, are the accumulator plus the chunk's sum. -/
theorem step7_chunk {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay2 acc (k2_pay15
        ((Memref.whole cc2_scratch8 : Memref sig .scVector .vmem S128 .f32).view.readAt (Elt F) (Rect.unit (s := S128) ![0] S16.size h0).toLoadRect (chunkBuf I R w j))
        ((Memref.whole cc2_scratch8 : Memref sig .scVector .vmem S128 .f32).view.readAt (Elt F) (Rect.unit (s := S128) ![16] S16.size h1).toLoadRect (chunkBuf I R w j))
        ((Memref.whole cc2_scratch8 : Memref sig .scVector .vmem S128 .f32).view.readAt (Elt F) (Rect.unit (s := S128) ![32] S16.size h2).toLoadRect (chunkBuf I R w j))
        ((Memref.whole cc2_scratch8 : Memref sig .scVector .vmem S128 .f32).view.readAt (Elt F) (Rect.unit (s := S128) ![48] S16.size h3).toLoadRect (chunkBuf I R w j))
        ((Memref.whole cc2_scratch8 : Memref sig .scVector .vmem S128 .f32).view.readAt (Elt F) (Rect.unit (s := S128) ![64] S16.size h4).toLoadRect (chunkBuf I R w j))
        ((Memref.whole cc2_scratch8 : Memref sig .scVector .vmem S128 .f32).view.readAt (Elt F) (Rect.unit (s := S128) ![80] S16.size h5).toLoadRect (chunkBuf I R w j))
        ((Memref.whole cc2_scratch8 : Memref sig .scVector .vmem S128 .f32).view.readAt (Elt F) (Rect.unit (s := S128) ![96] S16.size h6).toLoadRect (chunkBuf I R w j))
        ((Memref.whole cc2_scratch8 : Memref sig .scVector .vmem S128 .f32).view.readAt (Elt F) (Rect.unit (s := S128) ![112] S16.size h7).toLoadRect (chunkBuf I R w j)))
      = addf acc (chunkSum I R w j) := by
  rw [readAt_words8 0 h0, readAt_words8 16 h1, readAt_words8 32 h2, readAt_words8 48 h3, readAt_words8 64 h4, readAt_words8 80 h5, readAt_words8 96 h6, readAt_words8 112 h7]
  rfl

end Cert.Proof.KI

end
-- ==== Proof.LibGatherRead.lean ====
/-
  What an indirect gather of single words leaves in its buffer, read at a position: for a rank-1 source of `N` words and a
  list of `M` offsets, entry `p` of the gathered payload is the source at the word the list holds at position `p`; and a
  whole-buffer write of a payload over any contents reads back the payload.
-/
import Idealize.ShloMosaic.Lib.SparseCore.Stream
import Idealize.ShloMosaic.Lib.Writes
import Idealize.ShloMosaic.Lib.ValueIdx

noncomputable section

namespace Cert.Proof.LibGatherRead

open Idealize.ShloMosaic Idealize.ShloMosaic.ValueIdx

variable {F : FTy → Type}

/-- The row-major position `k` of a rank-1 shape is the index `k`. -/
theorem rowMajor_symm_rank1 {M : ℕ} (k : Fin (⟨1, ![M]⟩ : Shape).numel) (hk : k.val < M) :
    (⟨1, ![M]⟩ : Shape).rowMajor.symm k = ix1 ⟨k.val, hk⟩ := by
  rw [Equiv.symm_apply_eq]
  refine Fin.ext ?_
  rw [Shape.rowMajor_val_one]
  rfl

/-- Entry `k` of a rank-1 offset list, as the row it names: the word at position `k`. -/
theorem rows_rank1 {M o z : ℕ} (idx : (⟨1, ![M]⟩ : Shape).Idx → Elt F .i32) (hn : (⟨1, ![M]⟩ : Shape).numel = o)
    (h : ∀ x, (idx x).toNat < z) (k : Fin o) (hk : k.val < M) :
    SparseCore.rows (F := F) idx hn h k = ⟨(idx (ix1 ⟨k.val, hk⟩)).toNat, h _⟩ := by
  unfold SparseCore.rows
  refine Fin.ext ?_
  show (idx ((⟨1, ![M]⟩ : Shape).rowMajor.symm (k.cast hn.symm))).toNat = (idx (ix1 ⟨k.val, hk⟩)).toNat
  rw [rowMajor_symm_rank1 (k.cast hn.symm) hk]
  rfl

/-- The payload of a gather of single words out of a rank-1 source, at position `p`: the source at the row named for `p`. -/
theorem gatherPayload_rank1 {N M : ℕ} {e : EltTy} (hg : (⟨1, ![N]⟩ : Shape).Gathers 0 ⟨1, ![M]⟩)
    (g : (⟨1, ![N]⟩ : Shape).Idx → Elt F e)
    (r : Fin ((⟨1, ![M]⟩ : Shape).size hg.axis') → Fin ((⟨1, ![N]⟩ : Shape).size hg.axis)) (p : Fin M) :
    SparseCore.gatherPayload (F := F) hg g r (ix1 p) = g (ix1 (r p : Fin N)) := by
  unfold SparseCore.gatherPayload
  refine congrArg g (funext fun b => ?_)
  obtain rfl : b = hg.axis := Subsingleton.elim _ _
  rw [Shape.Gathers.idx_axis]

/-- THE GATHER READ AT A POSITION: with the offsets a rank-1 list of `M` words, all below `N`, entry `p` of the payload is
    the source at the word the list holds at `p`. -/
theorem gather_read {N M : ℕ} {e : EltTy} (hg : (⟨1, ![N]⟩ : Shape).Gathers 0 ⟨1, ![M]⟩)
    (g : (⟨1, ![N]⟩ : Shape).Idx → Elt F e) (idx : (⟨1, ![M]⟩ : Shape).Idx → Elt F .i32)
    (hn : (⟨1, ![M]⟩ : Shape).numel = (⟨1, ![M]⟩ : Shape).size hg.axis')
    (hin : ∀ x, (idx x).toNat < (⟨1, ![N]⟩ : Shape).size hg.axis) (p : Fin M) :
    SparseCore.gatherPayload (F := F) hg g (SparseCore.rows (F := F) idx hn hin) (ix1 p)
      = g (ix1 (⟨(idx (ix1 p)).toNat, hin _⟩ : Fin N)) := by
  rw [gatherPayload_rank1, rows_rank1 idx hn hin p p.isLt]
  rfl

/-- A whole-buffer write of a payload, over any contents, leaves the payload. -/
theorem writes_whole {sig : RefSig} {κ : Kind} (Val : EltTy → Type) (b : Ref sig κ) (f w : b.ty.Contents Val) :
    (Memref.whole b : Memref sig κ _ _ _).view.writes Val f [⟨Rect.whole _, w⟩] = w :=
  Memref.write_access_whole_univ Val b f w

end Cert.Proof.LibGatherRead

end
-- ==== Proof.KI.Tile1Chunk.lean ====
/-
  The chunk a landed gather holds: the gather's payload at position `p` is the table of row sums at the word the offset
  piece holds at `p`; the piece is a row piece of the index scratch, the scratch holds the tile's window of the transposed
  index array, and the window's columns start at 512 times the tile's number — so the payload is the tile's chunk.
-/
import proofs.«203338_g27195732918861_cont_9to1_1050_16_alg».proof.Proof.KI.Tile1Mem
import proofs.«203338_g27195732918861_cont_9to1_1050_16_alg».proof.Proof.LibGatherRead
import Idealize.ShloMosaic.Lib.Writes

noncomputable section

namespace Cert.Proof.KI

open Cert.KernelIdeal Cert.KernelIdeal.Gen

open Idealize.ShloMosaic Idealize.ShloMosaic.ValueIdx
open Idealize.ShloMosaic.SparseCore (S V T)

variable {F : FTy → Type}

/-- A rank-1 index matched with the [1, N] shape of as many elements: row 0, the same column. -/
theorem reshape_1xN {N : ℕ} (h : (⟨1, ![N]⟩ : Shape).numel = (⟨2, ![1, N]⟩ : Shape).numel) (x : (⟨1, ![N]⟩ : Shape).Idx) :
    Shape.reshapeEquiv h x = (ix2 (0 : Fin 1) (⟨(x 0).val, (x 0).isLt⟩ : Fin N) : (⟨2, ![1, N]⟩ : Shape).Idx) :=
  Shape.reshapeEquiv_eq_of_rowMajor h (by
    rw [Shape.rowMajor_val_two, Shape.rowMajor_val_one]
    show 0 * N + (x 0).val = (x 0).val
    omega)

/-- Two indices of the transposed index array with equal coordinates are one index. -/
theorem idx2_ext {n0 n1 : ℕ} (i j : (⟨2, ![n0, n1]⟩ : Shape).Idx) (h0 : (i 0).val = (j 0).val) (h1 : (i 1).val = (j 1).val) : i = j := by
  funext a
  match a with
  | ⟨0, _⟩ => exact Fin.ext h0
  | ⟨1, _⟩ => exact Fin.ext h1

/-- Element `x` of a row piece of the index scratch sits at the piece's row and at its first column plus `x`. -/
theorem offM_emb_val (off : Fin 2 → ℕ) (hb : ∀ a, off a + S1x128.size a ≤ S26x512.size a) (x : S128.Idx) :
    (((offM off hb).view.emb x) 0).val = off 0 ∧ (((offM off hb).view.emb x) 1).val = off 1 + (x 0).val := by
  have e : (offM off hb).view.emb x
      = (Rect.unit (s := S26x512) off S1x128.size hb).emb (Shape.reshapeEquiv squeezes_S1x128_S128.numel_eq x) := rfl
  have er : Shape.reshapeEquiv squeezes_S1x128_S128.numel_eq x
      = (ix2 (0 : Fin 1) (⟨(x 0).val, (x 0).isLt⟩ : Fin 128) : S1x128.Idx) := reshape_1xN _ x
  rw [e, er]
  exact ⟨by show off 0 + 1 * 0 = off 0; omega, by show off 1 + 1 * (x 0).val = off 1 + (x 0).val; omega⟩

/-- Element `y` of the tile's window of the transposed index array sits at the same field and at the window's first
    column plus its own. -/
theorem idxWinM_emb_val (L : grid2.Coords) (y : S26x512.Idx) :
    (((idxWinM L).view.emb y) 0).val = (y 0).val
      ∧ (((idxWinM L).view.emb y) 1).val = 1024 * (L 1).val + 512 * (L 0).val + (y 1).val := by
  have e : (idxWinM L).view.emb y = (Rect.unit (s := S26x16384) (k2_off1 L) S26x512.size (k2_off1_inb L)).emb y := rfl
  have e0 : k2_off1 L 0 = 0 := congrFun (k2_off1_eq L) 0
  have e1 : k2_off1 L 1 = 1024 * (L 1).val + 512 * (L 0).val := congrFun (k2_off1_eq L) 1
  rw [e]
  exact ⟨by show k2_off1 L 0 + 1 * (y 0).val = (y 0).val; omega,
    by show k2_off1 L 1 + 1 * (y 1).val = 1024 * (L 1).val + 512 * (L 0).val + (y 1).val; omega⟩

/-- The table of row sums as the gathers slice it is the table. -/
theorem srcM_emb (y : S1000000.Idx) : srcM.view.emb y = y := by
  have e : srcM.view.emb y = (Rect.unit (s := S1000000) ![0] S1000000.size inb_S1000000_S1000000_0).emb y := rfl
  rw [e]
  funext a
  revert a
  refine Fin.forall_fin_one.mpr (Fin.ext ?_)
  show 0 + 1 * (y 0).val = (y 0).val
  omega

/-- THE CHUNK A LANDED GATHER HOLDS: the payload of the gather of chunk `8 k + b` is that chunk of the tile. -/
theorem gather_chunk {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) :
    SparseCore.gatherPayload gathers_S1000000_S128 (srcM.view.read (Elt F) R)
        (SparseCore.rows ((offM (offJ b k) (offJ_inb b k)).view.read (Elt F) fo) rfl (hin _ _))
      = chunkBuf I R (wid2 L).val (8 * k.val + b.val) := by
  funext x
  obtain ⟨p, rfl⟩ : ∃ p, x = ix1 p := ⟨x 0, eq_ix1 x⟩
  refine (LibGatherRead.gather_read (F := F) gathers_S1000000_S128 (srcM.view.read (Elt F) R)
    ((offM (offJ b k) (offJ_inb b k)).view.read (Elt F) fo) rfl (hin _ _) p).trans ?_
  -- the table through its slice is the table
  have hs : ∀ y : S1000000.Idx, srcM.view.read (Elt F) R y = R y := fun y => by
    rw [View.read_apply, srcM_emb]; rfl
  rw [hs]
  -- the word the piece holds at p
  have h1 : scr0 L I fb0 = idxWin L I := View.write_whole_univ _ _ _
  have hw : (offM (offJ b k) (offJ_inb b k)).view.read (Elt F) fo (ix1 p)
      = I ((idxWinM L).view.emb ((offM (offJ b k) (offJ_inb b k)).view.emb (ix1 p))) := by
    rw [hfo, h1]; rfl
  have hk : k.val < 13 := k.isLt
  have hbb : b.val < 8 := b.isLt
  have hp : p.val < 128 := p.isLt
  have hL0 : (L 0).val < 2 := (L 0).isLt
  have hL1 : (L 1).val < 16 := (L 1).isLt
  obtain ⟨eo0, eo1⟩ := offM_emb_val (offJ b k) (offJ_inb b k) (ix1 p)
  obtain ⟨ew0, ew1⟩ := idxWinM_emb_val L ((offM (offJ b k) (offJ_inb b k)).view.emb (ix1 p))
  have hj0 : offJ b k 0 = (8 * k.val + b.val) / 4 := rfl
  have hj1 : offJ b k 1 = ((8 * k.val + b.val) % 4) * 128 := rfl
  have hidx : (idxWinM L).view.emb ((offM (offJ b k) (offJ_inb b k)).view.emb (ix1 p))
      = (ix2 (⟨((8 * k.val + b.val) / 4) % 26, Nat.mod_lt _ (by norm_num)⟩ : Fin 26)
          (⟨((wid2 L).val * 512 + ((8 * k.val + b.val) % 4) * 128 + p.val) % 16384, Nat.mod_lt _ (by norm_num)⟩ : Fin 16384) : S26x16384.Idx) := by
    refine idx2_ext _ _ ?_ ?_
    · show _ = ((8 * k.val + b.val) / 4) % 26
      rw [ew0, eo0, hj0]; omega
    · show _ = ((wid2 L).val * 512 + ((8 * k.val + b.val) % 4) * 128 + p.val) % 16384
      rw [ew1, eo1, hj1]
      show _ = ((2 * (L 1).val + (L 0).val) * 512 + ((8 * k.val + b.val) % 4) * 128 + p.val) % 16384
      show 1024 * (L 1).val + 512 * (L 0).val + ((8 * k.val + b.val) % 4 * 128 + p.val) = _
      omega
  show R (ix1 ⟨((offM (offJ b k) (offJ_inb b k)).view.read (Elt F) fo (ix1 p)).toNat, _⟩) = chunkWord I R (wid2 L).val (8 * k.val + b.val) p.val
  unfold chunkWord
  refine congrArg R (congrArg ix1 (Fin.ext ?_))
  show ((offM (offJ b k) (offJ_inb b k)).view.read (Elt F) fo (ix1 p)).toNat = _ % 1000000
  rw [hw, hidx, Nat.mod_eq_of_lt (hI _)]

/-! ## The buffer after the gather has landed -/

/-- Buffer 1 written whole with the gather's payload, over any contents, holds the chunk. -/
theorem landed_chunk1 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) (C : (Memref.whole cc2_scratch1 : Memref sig .scVector .vmem S128 .f32).view.ty.Contents (Elt F)) :
    (Memref.whole cc2_scratch1 : Memref sig .scVector .vmem S128 .f32).view.writes (Elt F) C
        [⟨Rect.whole S128, SparseCore.gatherPayload gathers_S1000000_S128 (srcM.view.read (Elt F) R)
          (SparseCore.rows ((offM (offJ b k) (offJ_inb b k)).view.read (Elt F) fo) rfl (hin _ _))⟩]
      = chunkBuf I R (wid2 L).val (8 * k.val + b.val) :=
  (LibGatherRead.writes_whole (Elt F) cc2_scratch1 C _).trans (gather_chunk L I R fb0 fo hfo hI hin b k)

/-- Buffer 2 written whole with the gather's payload, over any contents, holds the chunk. -/
theorem landed_chunk2 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) (C : (Memref.whole cc2_scratch2 : Memref sig .scVector .vmem S128 .f32).view.ty.Contents (Elt F)) :
    (Memref.whole cc2_scratch2 : Memref sig .scVector .vmem S128 .f32).view.writes (Elt F) C
        [⟨Rect.whole S128, SparseCore.gatherPayload gathers_S1000000_S128 (srcM.view.read (Elt F) R)
          (SparseCore.rows ((offM (offJ b k) (offJ_inb b k)).view.read (Elt F) fo) rfl (hin _ _))⟩]
      = chunkBuf I R (wid2 L).val (8 * k.val + b.val) :=
  (LibGatherRead.writes_whole (Elt F) cc2_scratch2 C _).trans (gather_chunk L I R fb0 fo hfo hI hin b k)

/-- Buffer 3 written whole with the gather's payload, over any contents, holds the chunk. -/
theorem landed_chunk3 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) (C : (Memref.whole cc2_scratch3 : Memref sig .scVector .vmem S128 .f32).view.ty.Contents (Elt F)) :
    (Memref.whole cc2_scratch3 : Memref sig .scVector .vmem S128 .f32).view.writes (Elt F) C
        [⟨Rect.whole S128, SparseCore.gatherPayload gathers_S1000000_S128 (srcM.view.read (Elt F) R)
          (SparseCore.rows ((offM (offJ b k) (offJ_inb b k)).view.read (Elt F) fo) rfl (hin _ _))⟩]
      = chunkBuf I R (wid2 L).val (8 * k.val + b.val) :=
  (LibGatherRead.writes_whole (Elt F) cc2_scratch3 C _).trans (gather_chunk L I R fb0 fo hfo hI hin b k)

/-- Buffer 4 written whole with the gather's payload, over any contents, holds the chunk. -/
theorem landed_chunk4 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) (C : (Memref.whole cc2_scratch4 : Memref sig .scVector .vmem S128 .f32).view.ty.Contents (Elt F)) :
    (Memref.whole cc2_scratch4 : Memref sig .scVector .vmem S128 .f32).view.writes (Elt F) C
        [⟨Rect.whole S128, SparseCore.gatherPayload gathers_S1000000_S128 (srcM.view.read (Elt F) R)
          (SparseCore.rows ((offM (offJ b k) (offJ_inb b k)).view.read (Elt F) fo) rfl (hin _ _))⟩]
      = chunkBuf I R (wid2 L).val (8 * k.val + b.val) :=
  (LibGatherRead.writes_whole (Elt F) cc2_scratch4 C _).trans (gather_chunk L I R fb0 fo hfo hI hin b k)

/-- Buffer 5 written whole with the gather's payload, over any contents, holds the chunk. -/
theorem landed_chunk5 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) (C : (Memref.whole cc2_scratch5 : Memref sig .scVector .vmem S128 .f32).view.ty.Contents (Elt F)) :
    (Memref.whole cc2_scratch5 : Memref sig .scVector .vmem S128 .f32).view.writes (Elt F) C
        [⟨Rect.whole S128, SparseCore.gatherPayload gathers_S1000000_S128 (srcM.view.read (Elt F) R)
          (SparseCore.rows ((offM (offJ b k) (offJ_inb b k)).view.read (Elt F) fo) rfl (hin _ _))⟩]
      = chunkBuf I R (wid2 L).val (8 * k.val + b.val) :=
  (LibGatherRead.writes_whole (Elt F) cc2_scratch5 C _).trans (gather_chunk L I R fb0 fo hfo hI hin b k)

/-- Buffer 6 written whole with the gather's payload, over any contents, holds the chunk. -/
theorem landed_chunk6 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) (C : (Memref.whole cc2_scratch6 : Memref sig .scVector .vmem S128 .f32).view.ty.Contents (Elt F)) :
    (Memref.whole cc2_scratch6 : Memref sig .scVector .vmem S128 .f32).view.writes (Elt F) C
        [⟨Rect.whole S128, SparseCore.gatherPayload gathers_S1000000_S128 (srcM.view.read (Elt F) R)
          (SparseCore.rows ((offM (offJ b k) (offJ_inb b k)).view.read (Elt F) fo) rfl (hin _ _))⟩]
      = chunkBuf I R (wid2 L).val (8 * k.val + b.val) :=
  (LibGatherRead.writes_whole (Elt F) cc2_scratch6 C _).trans (gather_chunk L I R fb0 fo hfo hI hin b k)

/-- Buffer 7 written whole with the gather's payload, over any contents, holds the chunk. -/
theorem landed_chunk7 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) (C : (Memref.whole cc2_scratch7 : Memref sig .scVector .vmem S128 .f32).view.ty.Contents (Elt F)) :
    (Memref.whole cc2_scratch7 : Memref sig .scVector .vmem S128 .f32).view.writes (Elt F) C
        [⟨Rect.whole S128, SparseCore.gatherPayload gathers_S1000000_S128 (srcM.view.read (Elt F) R)
          (SparseCore.rows ((offM (offJ b k) (offJ_inb b k)).view.read (Elt F) fo) rfl (hin _ _))⟩]
      = chunkBuf I R (wid2 L).val (8 * k.val + b.val) :=
  (LibGatherRead.writes_whole (Elt F) cc2_scratch7 C _).trans (gather_chunk L I R fb0 fo hfo hI hin b k)

/-- Buffer 8 written whole with the gather's payload, over any contents, holds the chunk. -/
theorem landed_chunk8 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) (C : (Memref.whole cc2_scratch8 : Memref sig .scVector .vmem S128 .f32).view.ty.Contents (Elt F)) :
    (Memref.whole cc2_scratch8 : Memref sig .scVector .vmem S128 .f32).view.writes (Elt F) C
        [⟨Rect.whole S128, SparseCore.gatherPayload gathers_S1000000_S128 (srcM.view.read (Elt F) R)
          (SparseCore.rows ((offM (offJ b k) (offJ_inb b k)).view.read (Elt F) fo) rfl (hin _ _))⟩]
      = chunkBuf I R (wid2 L).val (8 * k.val + b.val) :=
  (LibGatherRead.writes_whole (Elt F) cc2_scratch8 C _).trans (gather_chunk L I R fb0 fo hfo hI hin b k)

end Cert.Proof.KI

end
-- ==== Proof.KI.Tile1Row.lean ====
/-
  The last copy of the second SparseCore call: the tile's 16-lane result vector is copied onto the tile's row of the call's
  [32, 16] result; on that row the result then is the call's value. And the result scratch read back after its store.
-/
import proofs.«203338_g27195732918861_cont_9to1_1050_16_alg».proof.Proof.KI.Tile1Mem
import proofs.«203338_g27195732918861_cont_9to1_1050_16_alg».proof.Proof.KI.Sets
import Idealize.ShloMosaic.Lib.Writes

noncomputable section

namespace Cert.Proof.KI

open Cert.KernelIdeal Cert.KernelIdeal.Gen

open Idealize.ShloMosaic Idealize.ShloMosaic.ValueIdx
open Idealize.ShloMosaic.SparseCore (S V T)

variable {F : FTy → Type} [FloatOps F]

/-- A rank-1 index matched with the [1, N] shape of as many elements: row 0, the same column. -/
theorem reshape_1xN' {N : ℕ} (h : (⟨1, ![N]⟩ : Shape).numel = (⟨2, ![1, N]⟩ : Shape).numel) (x : (⟨1, ![N]⟩ : Shape).Idx) :
    Shape.reshapeEquiv h x = (ix2 (0 : Fin 1) (⟨(x 0).val, (x 0).isLt⟩ : Fin N) : (⟨2, ![1, N]⟩ : Shape).Idx) :=
  Shape.reshapeEquiv_eq_of_rowMajor h (by
    rw [Shape.rowMajor_val_two, Shape.rowMajor_val_one]
    show 0 * N + (x 0).val = (x 0).val
    omega)

/-- Lane `y` of the tile's row sits at row `wid2 L`, column `y` of the [32, 16] result. -/
theorem row1M_emb_val (L : grid2.Coords) (y : S16.Idx) :
    (((row1M L).view.emb y) 0).val = (wid2 L).val ∧ (((row1M L).view.emb y) 1).val = (y 0).val := by
  have e : (row1M L).view.emb y
      = (Rect.unit (s := S32x16) (k2_off11 L) S1x16.size (k2_off11_inb L)).emb (Shape.reshapeEquiv squeezes_S1x16_S16.numel_eq y) := rfl
  have e0 : k2_off11 L 0 = 2 * (L 1).val + (L 0).val := congrFun (k2_off11_eq L) 0
  have e1 : k2_off11 L 1 = 0 := congrFun (k2_off11_eq L) 1
  have er : Shape.reshapeEquiv squeezes_S1x16_S16.numel_eq y
      = (ix2 (0 : Fin 1) (⟨(y 0).val, (y 0).isLt⟩ : Fin 16) : S1x16.Idx) := reshape_1xN' _ y
  rw [e, er]
  exact ⟨by show k2_off11 L 0 + 1 * 0 = (wid2 L).val; show k2_off11 L 0 + 1 * 0 = 2 * (L 1).val + (L 0).val; omega,
    by show k2_off11 L 1 + 1 * (y 0).val = (y 0).val; omega⟩

/-- THE LAST COPY: the tile's row written whole with the final accumulator's payload is, on the row, the call's value. -/
theorem row_final {d : Dev nD} (L : grid2.Coords) (I : Buf (Elt F) (itLoc d)) (R : Buf (Elt F) (raLoc d)) (f0 : Buf (Elt F) (ptLoc d))
    (P : S16.Idx → Elt F .f32) (acc : FVec F S16 .f32) (hP : ∀ y, P y = k2_pay3 acc y) (hacc : acc = accAt I R (wid2 L).val 104) :
    ∀ idx ∈ outRow1 L, ((row1M L).view.writes (Elt F) f0 [⟨Rect.whole S16, P⟩]) idx = tile1Val I R idx := by
  intro idx hi
  obtain ⟨y, -, rfl⟩ := Finset.mem_map.mp hi
  have key := View.read_writes_cons_emb (Val := Elt F) (row1M L).view f0 (Rect.whole S16) P [] y
  rw [Rect.emb_whole_apply, View.read_apply] at key
  have e1 := eq_of_heq ((cast_heq _ _).symm.trans (heq_of_eq key))
  refine e1.trans ?_
  rw [hP y, hacc]
  obtain ⟨h0, h1⟩ := row1M_emb_val L y
  unfold tile1Val
  rw [h0]
  refine congrArg (k2_pay3 (accAt I R (wid2 L).val 104)) ?_
  funext a
  revert a
  refine Fin.forall_fin_one.mpr (Fin.ext ?_)
  exact h1.symm

/-- The result scratch, stored whole at offset 0 over any contents, reads back the stored vector. -/
theorem scr9_read (fb9 : (Memref.whole cc2_scratch9 : Memref sig .scVector .vmem S16 .f32).view.ty.Contents (Elt F))
    (h : ∀ a, (![0] : Fin 1 → ℕ) a + S16.size a ≤ S16.size a) (v : S16.Idx → Elt F .f32) (y : S16.Idx) :
    ReadAs.same.apply ((Memref.whole cc2_scratch9 : Memref sig .scVector .vmem S16 .f32).view.read (Elt F)
      ((Memref.whole cc2_scratch9 : Memref sig .scVector .vmem S16 .f32).view.writes (Elt F) fb9
        [⟨Rect.unit (s := S16) ![0] S16.size h, v⟩])) y = v y := by
  have he : (Rect.unit (s := S16) ![0] S16.size h).emb y = y := by
    funext a
    revert a
    refine Fin.forall_fin_one.mpr (Fin.ext ?_)
    show 0 + 1 * (y 0).val = (y 0).val
    omega
  rw [ReadAs.apply_same]
  have key := View.read_writes_cons_emb (Val := Elt F) (Memref.whole cc2_scratch9 : Memref sig .scVector .vmem S16 .f32).view fb9
    (Rect.unit (s := S16) ![0] S16.size h) v [] y
  rw [he] at key
  exact key

end Cert.Proof.KI

end
-- ==== Proof.KI.Tile1Body.lean ====
/-
  SparseCore call 1 on one tile, with values: the run of KI/Tile1.lean carrying, in the loop's invariant, the accumulator
  as the left fold over the chunks done so far and each buffer in flight at the chunk it is fetching; the row the tile
  leaves is the [32,16] function of KI/Tile1Val.lean on the row's elements.
-/
import proofs.«203338_g27195732918861_cont_9to1_1050_16_alg».proof.Proof.KI.Tile1
import proofs.«203338_g27195732918861_cont_9to1_1050_16_alg».proof.Proof.KI.Tile1Steps
import proofs.«203338_g27195732918861_cont_9to1_1050_16_alg».proof.Proof.KI.Tile1Chunk
import proofs.«203338_g27195732918861_cont_9to1_1050_16_alg».proof.Proof.KI.Tile1Row

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

omit [FloatOps F] in
theorem landed_at1 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx), (View.read (Elt F) (offM off hb).view fo x).toNat < 1000000)
    (b : Fin 8) (k : Fin 13) (off : Fin 2 → ℕ) (hb : ∀ a, off a + S1x128.size a ≤ S26x512.size a) (e : off = offJ b.val k.val)
    (C : (Memref.whole cc2_scratch1 : Memref sig .scVector .vmem S128 .f32).view.ty.Contents (Elt F)) :
    (Memref.whole cc2_scratch1 : Memref sig .scVector .vmem S128 .f32).view.writes (Elt F) C
        [⟨Rect.whole S128, SparseCore.gatherPayload gathers_S1000000_S128 (srcM.view.read (Elt F) R) (SparseCore.rows ((offM off hb).view.read (Elt F) fo) rfl (hin off hb))⟩]
      = chunkBuf I R (wid2 L).val (8 * k.val + b.val) := by
  subst e
  exact landed_chunk1 L I R fb0 fo hfo hI hin b k C

omit [FloatOps F] in
theorem landed_at2 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx), (View.read (Elt F) (offM off hb).view fo x).toNat < 1000000)
    (b : Fin 8) (k : Fin 13) (off : Fin 2 → ℕ) (hb : ∀ a, off a + S1x128.size a ≤ S26x512.size a) (e : off = offJ b.val k.val)
    (C : (Memref.whole cc2_scratch2 : Memref sig .scVector .vmem S128 .f32).view.ty.Contents (Elt F)) :
    (Memref.whole cc2_scratch2 : Memref sig .scVector .vmem S128 .f32).view.writes (Elt F) C
        [⟨Rect.whole S128, SparseCore.gatherPayload gathers_S1000000_S128 (srcM.view.read (Elt F) R) (SparseCore.rows ((offM off hb).view.read (Elt F) fo) rfl (hin off hb))⟩]
      = chunkBuf I R (wid2 L).val (8 * k.val + b.val) := by
  subst e
  exact landed_chunk2 L I R fb0 fo hfo hI hin b k C

omit [FloatOps F] in
theorem landed_at3 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx), (View.read (Elt F) (offM off hb).view fo x).toNat < 1000000)
    (b : Fin 8) (k : Fin 13) (off : Fin 2 → ℕ) (hb : ∀ a, off a + S1x128.size a ≤ S26x512.size a) (e : off = offJ b.val k.val)
    (C : (Memref.whole cc2_scratch3 : Memref sig .scVector .vmem S128 .f32).view.ty.Contents (Elt F)) :
    (Memref.whole cc2_scratch3 : Memref sig .scVector .vmem S128 .f32).view.writes (Elt F) C
        [⟨Rect.whole S128, SparseCore.gatherPayload gathers_S1000000_S128 (srcM.view.read (Elt F) R) (SparseCore.rows ((offM off hb).view.read (Elt F) fo) rfl (hin off hb))⟩]
      = chunkBuf I R (wid2 L).val (8 * k.val + b.val) := by
  subst e
  exact landed_chunk3 L I R fb0 fo hfo hI hin b k C

omit [FloatOps F] in
theorem landed_at4 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx), (View.read (Elt F) (offM off hb).view fo x).toNat < 1000000)
    (b : Fin 8) (k : Fin 13) (off : Fin 2 → ℕ) (hb : ∀ a, off a + S1x128.size a ≤ S26x512.size a) (e : off = offJ b.val k.val)
    (C : (Memref.whole cc2_scratch4 : Memref sig .scVector .vmem S128 .f32).view.ty.Contents (Elt F)) :
    (Memref.whole cc2_scratch4 : Memref sig .scVector .vmem S128 .f32).view.writes (Elt F) C
        [⟨Rect.whole S128, SparseCore.gatherPayload gathers_S1000000_S128 (srcM.view.read (Elt F) R) (SparseCore.rows ((offM off hb).view.read (Elt F) fo) rfl (hin off hb))⟩]
      = chunkBuf I R (wid2 L).val (8 * k.val + b.val) := by
  subst e
  exact landed_chunk4 L I R fb0 fo hfo hI hin b k C

omit [FloatOps F] in
theorem landed_at5 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx), (View.read (Elt F) (offM off hb).view fo x).toNat < 1000000)
    (b : Fin 8) (k : Fin 13) (off : Fin 2 → ℕ) (hb : ∀ a, off a + S1x128.size a ≤ S26x512.size a) (e : off = offJ b.val k.val)
    (C : (Memref.whole cc2_scratch5 : Memref sig .scVector .vmem S128 .f32).view.ty.Contents (Elt F)) :
    (Memref.whole cc2_scratch5 : Memref sig .scVector .vmem S128 .f32).view.writes (Elt F) C
        [⟨Rect.whole S128, SparseCore.gatherPayload gathers_S1000000_S128 (srcM.view.read (Elt F) R) (SparseCore.rows ((offM off hb).view.read (Elt F) fo) rfl (hin off hb))⟩]
      = chunkBuf I R (wid2 L).val (8 * k.val + b.val) := by
  subst e
  exact landed_chunk5 L I R fb0 fo hfo hI hin b k C

omit [FloatOps F] in
theorem landed_at6 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx), (View.read (Elt F) (offM off hb).view fo x).toNat < 1000000)
    (b : Fin 8) (k : Fin 13) (off : Fin 2 → ℕ) (hb : ∀ a, off a + S1x128.size a ≤ S26x512.size a) (e : off = offJ b.val k.val)
    (C : (Memref.whole cc2_scratch6 : Memref sig .scVector .vmem S128 .f32).view.ty.Contents (Elt F)) :
    (Memref.whole cc2_scratch6 : Memref sig .scVector .vmem S128 .f32).view.writes (Elt F) C
        [⟨Rect.whole S128, SparseCore.gatherPayload gathers_S1000000_S128 (srcM.view.read (Elt F) R) (SparseCore.rows ((offM off hb).view.read (Elt F) fo) rfl (hin off hb))⟩]
      = chunkBuf I R (wid2 L).val (8 * k.val + b.val) := by
  subst e
  exact landed_chunk6 L I R fb0 fo hfo hI hin b k C

omit [FloatOps F] in
theorem landed_at7 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx), (View.read (Elt F) (offM off hb).view fo x).toNat < 1000000)
    (b : Fin 8) (k : Fin 13) (off : Fin 2 → ℕ) (hb : ∀ a, off a + S1x128.size a ≤ S26x512.size a) (e : off = offJ b.val k.val)
    (C : (Memref.whole cc2_scratch7 : Memref sig .scVector .vmem S128 .f32).view.ty.Contents (Elt F)) :
    (Memref.whole cc2_scratch7 : Memref sig .scVector .vmem S128 .f32).view.writes (Elt F) C
        [⟨Rect.whole S128, SparseCore.gatherPayload gathers_S1000000_S128 (srcM.view.read (Elt F) R) (SparseCore.rows ((offM off hb).view.read (Elt F) fo) rfl (hin off hb))⟩]
      = chunkBuf I R (wid2 L).val (8 * k.val + b.val) := by
  subst e
  exact landed_chunk7 L I R fb0 fo hfo hI hin b k C

omit [FloatOps F] in
theorem landed_at8 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx), (View.read (Elt F) (offM off hb).view fo x).toNat < 1000000)
    (b : Fin 8) (k : Fin 13) (off : Fin 2 → ℕ) (hb : ∀ a, off a + S1x128.size a ≤ S26x512.size a) (e : off = offJ b.val k.val)
    (C : (Memref.whole cc2_scratch8 : Memref sig .scVector .vmem S128 .f32).view.ty.Contents (Elt F)) :
    (Memref.whole cc2_scratch8 : Memref sig .scVector .vmem S128 .f32).view.writes (Elt F) C
        [⟨Rect.whole S128, SparseCore.gatherPayload gathers_S1000000_S128 (srcM.view.read (Elt F) R) (SparseCore.rows ((offM off hb).view.read (Elt F) fo) rfl (hin off hb))⟩]
      = chunkBuf I R (wid2 L).val (8 * k.val + b.val) := by
  subst e
  exact landed_chunk8 L I R fb0 fo hfo hI hin b k C
theorem step2_chunk' {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay9 acc (shapeCast S16 ((Memref.whole cc2_scratch3 : Memref sig .scVector .vmem S128 .f32).view.readAt (Elt F) (Rect.unit (s := S128) ![0] S16.size h0).toLoadRect (chunkBuf I R w j)) shapeCasts_S16_S16)
        (shapeCast S16 ((Memref.whole cc2_scratch3 : Memref sig .scVector .vmem S128 .f32).view.readAt (Elt F) (Rect.unit (s := S128) ![16] S16.size h1).toLoadRect (chunkBuf I R w j)) shapeCasts_S16_S16)
        ((Memref.whole cc2_scratch3 : Memref sig .scVector .vmem S128 .f32).view.readAt (Elt F) (Rect.unit (s := S128) ![32] S16.size h2).toLoadRect (chunkBuf I R w j))
        ((Memref.whole cc2_scratch3 : Memref sig .scVector .vmem S128 .f32).view.readAt (Elt F) (Rect.unit (s := S128) ![48] S16.size h3).toLoadRect (chunkBuf I R w j))
        ((Memref.whole cc2_scratch3 : Memref sig .scVector .vmem S128 .f32).view.readAt (Elt F) (Rect.unit (s := S128) ![64] S16.size h4).toLoadRect (chunkBuf I R w j))
        ((Memref.whole cc2_scratch3 : Memref sig .scVector .vmem S128 .f32).view.readAt (Elt F) (Rect.unit (s := S128) ![80] S16.size h5).toLoadRect (chunkBuf I R w j))
        ((Memref.whole cc2_scratch3 : Memref sig .scVector .vmem S128 .f32).view.readAt (Elt F) (Rect.unit (s := S128) ![96] S16.size h6).toLoadRect (chunkBuf I R w j))
        ((Memref.whole cc2_scratch3 : Memref sig .scVector .vmem S128 .f32).view.readAt (Elt F) (Rect.unit (s := S128) ![112] S16.size h7).toLoadRect (chunkBuf I R w j))
      = addf acc (chunkSum I R w j) :=
  step2_chunk I R w j acc h0 h1 h2 h3 h4 h5 h6 h7

theorem step4_chunk' {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay12 acc (shapeCast S16 ((Memref.whole cc2_scratch5 : Memref sig .scVector .vmem S128 .f32).view.readAt (Elt F) (Rect.unit (s := S128) ![0] S16.size h0).toLoadRect (chunkBuf I R w j)) shapeCasts_S16_S16)
        ((Memref.whole cc2_scratch5 : Memref sig .scVector .vmem S128 .f32).view.readAt (Elt F) (Rect.unit (s := S128) ![16] S16.size h1).toLoadRect (chunkBuf I R w j))
        ((Memref.whole cc2_scratch5 : Memref sig .scVector .vmem S128 .f32).view.readAt (Elt F) (Rect.unit (s := S128) ![32] S16.size h2).toLoadRect (chunkBuf I R w j))
        ((Memref.whole cc2_scratch5 : Memref sig .scVector .vmem S128 .f32).view.readAt (Elt F) (Rect.unit (s := S128) ![48] S16.size h3).toLoadRect (chunkBuf I R w j))
        ((Memref.whole cc2_scratch5 : Memref sig .scVector .vmem S128 .f32).view.readAt (Elt F) (Rect.unit (s := S128) ![64] S16.size h4).toLoadRect (chunkBuf I R w j))
        ((Memref.whole cc2_scratch5 : Memref sig .scVector .vmem S128 .f32).view.readAt (Elt F) (Rect.unit (s := S128) ![80] S16.size h5).toLoadRect (chunkBuf I R w j))
        ((Memref.whole cc2_scratch5 : Memref sig .scVector .vmem S128 .f32).view.readAt (Elt F) (Rect.unit (s := S128) ![96] S16.size h6).toLoadRect (chunkBuf I R w j))
        ((Memref.whole cc2_scratch5 : Memref sig .scVector .vmem S128 .f32).view.readAt (Elt F) (Rect.unit (s := S128) ![112] S16.size h7).toLoadRect (chunkBuf I R w j))
      = addf acc (chunkSum I R w j) :=
  step4_chunk I R w j acc h0 h1 h2 h3 h4 h5 h6 h7

/-! ## The invariant with values -/

/-- Before trip `k`: the accumulator is the fold over the first `8 k` chunks; buffer `b`'s gather in flight delivers chunk `8 k + b`. -/
def inv1v (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (k : ℕ) (acc : FVec F S16 .f32) : sProp 𝕄 :=
  iprop(⌜acc = accAt I R (wid2 L).val (8 * k)⌝ ∗ Transfers.MayWaits (thr1 d L) (none : HIx 2) O
    ∗ (if h : k < 13 then
        iprop((∃ C, ⌜C = chunkBuf I R (wid2 L).val (8 * k + 0)⌝ ∗ slotF d L I R fb0 (Memref.whole cc2_scratch1 : Memref sig .scVector .vmem S128 .f32) cc2_scratch10.sem (Transfers.shareTokN q 0) (Transfers.shareTokN fullShare 0) (offJ 0 k) (offJ_inb ⟨0, by decide⟩ ⟨k, h⟩) C)
          ∗ (∃ C, ⌜C = chunkBuf I R (wid2 L).val (8 * k + 1)⌝ ∗ slotF d L I R fb0 (Memref.whole cc2_scratch2 : Memref sig .scVector .vmem S128 .f32) cc2_scratch11.sem (Transfers.shareTokN q 1) (Transfers.shareTokN fullShare 1) (offJ 1 k) (offJ_inb ⟨1, by decide⟩ ⟨k, h⟩) C)
          ∗ (∃ C, ⌜C = chunkBuf I R (wid2 L).val (8 * k + 2)⌝ ∗ slotF d L I R fb0 (Memref.whole cc2_scratch3 : Memref sig .scVector .vmem S128 .f32) cc2_scratch12.sem (Transfers.shareTokN q 2) (Transfers.shareTokN fullShare 2) (offJ 2 k) (offJ_inb ⟨2, by decide⟩ ⟨k, h⟩) C)
          ∗ (∃ C, ⌜C = chunkBuf I R (wid2 L).val (8 * k + 3)⌝ ∗ slotF d L I R fb0 (Memref.whole cc2_scratch4 : Memref sig .scVector .vmem S128 .f32) cc2_scratch13.sem (Transfers.shareTokN q 3) (Transfers.shareTokN fullShare 3) (offJ 3 k) (offJ_inb ⟨3, by decide⟩ ⟨k, h⟩) C)
          ∗ (∃ C, ⌜C = chunkBuf I R (wid2 L).val (8 * k + 4)⌝ ∗ slotF d L I R fb0 (Memref.whole cc2_scratch5 : Memref sig .scVector .vmem S128 .f32) cc2_scratch14.sem (Transfers.shareTokN q 4) (Transfers.shareTokN fullShare 4) (offJ 4 k) (offJ_inb ⟨4, by decide⟩ ⟨k, h⟩) C)
          ∗ (∃ C, ⌜C = chunkBuf I R (wid2 L).val (8 * k + 5)⌝ ∗ slotF d L I R fb0 (Memref.whole cc2_scratch6 : Memref sig .scVector .vmem S128 .f32) cc2_scratch15.sem (Transfers.shareTokN q 5) (Transfers.shareTokN fullShare 5) (offJ 5 k) (offJ_inb ⟨5, by decide⟩ ⟨k, h⟩) C)
          ∗ (∃ C, ⌜C = chunkBuf I R (wid2 L).val (8 * k + 6)⌝ ∗ slotF d L I R fb0 (Memref.whole cc2_scratch7 : Memref sig .scVector .vmem S128 .f32) cc2_scratch16.sem (Transfers.shareTokN q 6) (Transfers.shareTokN fullShare 6) (offJ 6 k) (offJ_inb ⟨6, by decide⟩ ⟨k, h⟩) C)
          ∗ (∃ C, ⌜C = chunkBuf I R (wid2 L).val (8 * k + 7)⌝ ∗ slotF d L I R fb0 (Memref.whole cc2_scratch8 : Memref sig .scVector .vmem S128 .f32) cc2_scratch17.sem (Transfers.shareDrop q 7) (Transfers.shareDrop fullShare 7) (offJ 7 k) (offJ_inb ⟨7, by decide⟩ ⟨k, h⟩) C))
      else
        iprop(doneF d L I R fb0 (Memref.whole cc2_scratch1 : Memref sig .scVector .vmem S128 .f32) cc2_scratch10.sem (Transfers.shareTokN q 0) (Transfers.shareTokN fullShare 0)
          ∗ doneF d L I R fb0 (Memref.whole cc2_scratch2 : Memref sig .scVector .vmem S128 .f32) cc2_scratch11.sem (Transfers.shareTokN q 1) (Transfers.shareTokN fullShare 1)
          ∗ doneF d L I R fb0 (Memref.whole cc2_scratch3 : Memref sig .scVector .vmem S128 .f32) cc2_scratch12.sem (Transfers.shareTokN q 2) (Transfers.shareTokN fullShare 2)
          ∗ doneF d L I R fb0 (Memref.whole cc2_scratch4 : Memref sig .scVector .vmem S128 .f32) cc2_scratch13.sem (Transfers.shareTokN q 3) (Transfers.shareTokN fullShare 3)
          ∗ doneF d L I R fb0 (Memref.whole cc2_scratch5 : Memref sig .scVector .vmem S128 .f32) cc2_scratch14.sem (Transfers.shareTokN q 4) (Transfers.shareTokN fullShare 4)
          ∗ doneF d L I R fb0 (Memref.whole cc2_scratch6 : Memref sig .scVector .vmem S128 .f32) cc2_scratch15.sem (Transfers.shareTokN q 5) (Transfers.shareTokN fullShare 5)
          ∗ doneF d L I R fb0 (Memref.whole cc2_scratch7 : Memref sig .scVector .vmem S128 .f32) cc2_scratch16.sem (Transfers.shareTokN q 6) (Transfers.shareTokN fullShare 6)
          ∗ doneF d L I R fb0 (Memref.whole cc2_scratch8 : Memref sig .scVector .vmem S128 .f32) cc2_scratch17.sem (Transfers.shareDrop q 7) (Transfers.shareDrop fullShare 7)))
    ∗ ∃ W', ⌜∀ p ∈ W', p ∈ W ∨ p.2 = none⌝ ∗ owes (thr1 d L) O W')

theorem inv1v_pos (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (k : ℕ) (acc : FVec F S16 .f32) (h : k < 13) :
    inv1v d L O W q I R fb0 k acc
      = iprop(⌜acc = accAt I R (wid2 L).val (8 * k)⌝ ∗ Transfers.MayWaits (thr1 d L) (none : HIx 2) O
        ∗ ((∃ C, ⌜C = chunkBuf I R (wid2 L).val (8 * k + 0)⌝ ∗ slotF d L I R fb0 (Memref.whole cc2_scratch1 : Memref sig .scVector .vmem S128 .f32) cc2_scratch10.sem (Transfers.shareTokN q 0) (Transfers.shareTokN fullShare 0) (offJ 0 k) (offJ_inb ⟨0, by decide⟩ ⟨k, h⟩) C)
          ∗ (∃ C, ⌜C = chunkBuf I R (wid2 L).val (8 * k + 1)⌝ ∗ slotF d L I R fb0 (Memref.whole cc2_scratch2 : Memref sig .scVector .vmem S128 .f32) cc2_scratch11.sem (Transfers.shareTokN q 1) (Transfers.shareTokN fullShare 1) (offJ 1 k) (offJ_inb ⟨1, by decide⟩ ⟨k, h⟩) C)
          ∗ (∃ C, ⌜C = chunkBuf I R (wid2 L).val (8 * k + 2)⌝ ∗ slotF d L I R fb0 (Memref.whole cc2_scratch3 : Memref sig .scVector .vmem S128 .f32) cc2_scratch12.sem (Transfers.shareTokN q 2) (Transfers.shareTokN fullShare 2) (offJ 2 k) (offJ_inb ⟨2, by decide⟩ ⟨k, h⟩) C)
          ∗ (∃ C, ⌜C = chunkBuf I R (wid2 L).val (8 * k + 3)⌝ ∗ slotF d L I R fb0 (Memref.whole cc2_scratch4 : Memref sig .scVector .vmem S128 .f32) cc2_scratch13.sem (Transfers.shareTokN q 3) (Transfers.shareTokN fullShare 3) (offJ 3 k) (offJ_inb ⟨3, by decide⟩ ⟨k, h⟩) C)
          ∗ (∃ C, ⌜C = chunkBuf I R (wid2 L).val (8 * k + 4)⌝ ∗ slotF d L I R fb0 (Memref.whole cc2_scratch5 : Memref sig .scVector .vmem S128 .f32) cc2_scratch14.sem (Transfers.shareTokN q 4) (Transfers.shareTokN fullShare 4) (offJ 4 k) (offJ_inb ⟨4, by decide⟩ ⟨k, h⟩) C)
          ∗ (∃ C, ⌜C = chunkBuf I R (wid2 L).val (8 * k + 5)⌝ ∗ slotF d L I R fb0 (Memref.whole cc2_scratch6 : Memref sig .scVector .vmem S128 .f32) cc2_scratch15.sem (Transfers.shareTokN q 5) (Transfers.shareTokN fullShare 5) (offJ 5 k) (offJ_inb ⟨5, by decide⟩ ⟨k, h⟩) C)
          ∗ (∃ C, ⌜C = chunkBuf I R (wid2 L).val (8 * k + 6)⌝ ∗ slotF d L I R fb0 (Memref.whole cc2_scratch7 : Memref sig .scVector .vmem S128 .f32) cc2_scratch16.sem (Transfers.shareTokN q 6) (Transfers.shareTokN fullShare 6) (offJ 6 k) (offJ_inb ⟨6, by decide⟩ ⟨k, h⟩) C)
          ∗ (∃ C, ⌜C = chunkBuf I R (wid2 L).val (8 * k + 7)⌝ ∗ slotF d L I R fb0 (Memref.whole cc2_scratch8 : Memref sig .scVector .vmem S128 .f32) cc2_scratch17.sem (Transfers.shareDrop q 7) (Transfers.shareDrop fullShare 7) (offJ 7 k) (offJ_inb ⟨7, by decide⟩ ⟨k, h⟩) C))
        ∗ ∃ W', ⌜∀ p ∈ W', p ∈ W ∨ p.2 = none⌝ ∗ owes (thr1 d L) O W') := by
  unfold inv1v; rw [dif_pos h]

theorem inv1v_neg (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (k : ℕ) (acc : FVec F S16 .f32) (h : ¬ k < 13) :
    inv1v d L O W q I R fb0 k acc
      = iprop(⌜acc = accAt I R (wid2 L).val (8 * k)⌝ ∗ Transfers.MayWaits (thr1 d L) (none : HIx 2) O
        ∗ (doneF d L I R fb0 (Memref.whole cc2_scratch1 : Memref sig .scVector .vmem S128 .f32) cc2_scratch10.sem (Transfers.shareTokN q 0) (Transfers.shareTokN fullShare 0)
          ∗ doneF d L I R fb0 (Memref.whole cc2_scratch2 : Memref sig .scVector .vmem S128 .f32) cc2_scratch11.sem (Transfers.shareTokN q 1) (Transfers.shareTokN fullShare 1)
          ∗ doneF d L I R fb0 (Memref.whole cc2_scratch3 : Memref sig .scVector .vmem S128 .f32) cc2_scratch12.sem (Transfers.shareTokN q 2) (Transfers.shareTokN fullShare 2)
          ∗ doneF d L I R fb0 (Memref.whole cc2_scratch4 : Memref sig .scVector .vmem S128 .f32) cc2_scratch13.sem (Transfers.shareTokN q 3) (Transfers.shareTokN fullShare 3)
          ∗ doneF d L I R fb0 (Memref.whole cc2_scratch5 : Memref sig .scVector .vmem S128 .f32) cc2_scratch14.sem (Transfers.shareTokN q 4) (Transfers.shareTokN fullShare 4)
          ∗ doneF d L I R fb0 (Memref.whole cc2_scratch6 : Memref sig .scVector .vmem S128 .f32) cc2_scratch15.sem (Transfers.shareTokN q 5) (Transfers.shareTokN fullShare 5)
          ∗ doneF d L I R fb0 (Memref.whole cc2_scratch7 : Memref sig .scVector .vmem S128 .f32) cc2_scratch16.sem (Transfers.shareTokN q 6) (Transfers.shareTokN fullShare 6)
          ∗ doneF d L I R fb0 (Memref.whole cc2_scratch8 : Memref sig .scVector .vmem S128 .f32) cc2_scratch17.sem (Transfers.shareDrop q 7) (Transfers.shareDrop fullShare 7))
        ∗ ∃ W', ⌜∀ p ∈ W', p ∈ W ∨ p.2 = none⌝ ∗ owes (thr1 d L) O W') := by
  unfold inv1v; rw [dif_neg h]

theorem inv1v_done (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (k : ℕ) (acc : FVec F S16 .f32) (h : ¬ k < 13) :
    inv1v d L O W q I R fb0 k acc
      = iprop(⌜acc = accAt I R (wid2 L).val (8 * k)⌝ ∗ Transfers.MayWaits (thr1 d L) (none : HIx 2) O
        ∗ (((∃ C, (Memref.whole cc2_scratch1 : Memref sig .scVector .vmem S128 .f32).view.loc (thr1 d L) ↦{fullShare} C)
            ∗ ((Memref.whole main_v3_scv : Memref sig .scVector .hbm S1000000 .f32).view.loc (thr1 d L) ↦{Transfers.shareTokN q 0} R)
            ∗ ((Memref.whole cc2_scratch0 : Memref sig .scVector .vmem S26x512 .i32).view.loc (thr1 d L) ↦{Transfers.shareTokN fullShare 0} fb0)
            ∗ semVal (thr1 d L, SemLoc.dma cc2_scratch10.sem) 0)
          ∗ ((∃ C, (Memref.whole cc2_scratch2 : Memref sig .scVector .vmem S128 .f32).view.loc (thr1 d L) ↦{fullShare} C)
            ∗ ((Memref.whole main_v3_scv : Memref sig .scVector .hbm S1000000 .f32).view.loc (thr1 d L) ↦{Transfers.shareTokN q 1} R)
            ∗ ((Memref.whole cc2_scratch0 : Memref sig .scVector .vmem S26x512 .i32).view.loc (thr1 d L) ↦{Transfers.shareTokN fullShare 1} fb0)
            ∗ semVal (thr1 d L, SemLoc.dma cc2_scratch11.sem) 0)
          ∗ ((∃ C, (Memref.whole cc2_scratch3 : Memref sig .scVector .vmem S128 .f32).view.loc (thr1 d L) ↦{fullShare} C)
            ∗ ((Memref.whole main_v3_scv : Memref sig .scVector .hbm S1000000 .f32).view.loc (thr1 d L) ↦{Transfers.shareTokN q 2} R)
            ∗ ((Memref.whole cc2_scratch0 : Memref sig .scVector .vmem S26x512 .i32).view.loc (thr1 d L) ↦{Transfers.shareTokN fullShare 2} fb0)
            ∗ semVal (thr1 d L, SemLoc.dma cc2_scratch12.sem) 0)
          ∗ ((∃ C, (Memref.whole cc2_scratch4 : Memref sig .scVector .vmem S128 .f32).view.loc (thr1 d L) ↦{fullShare} C)
            ∗ ((Memref.whole main_v3_scv : Memref sig .scVector .hbm S1000000 .f32).view.loc (thr1 d L) ↦{Transfers.shareTokN q 3} R)
            ∗ ((Memref.whole cc2_scratch0 : Memref sig .scVector .vmem S26x512 .i32).view.loc (thr1 d L) ↦{Transfers.shareTokN fullShare 3} fb0)
            ∗ semVal (thr1 d L, SemLoc.dma cc2_scratch13.sem) 0)
          ∗ ((∃ C, (Memref.whole cc2_scratch5 : Memref sig .scVector .vmem S128 .f32).view.loc (thr1 d L) ↦{fullShare} C)
            ∗ ((Memref.whole main_v3_scv : Memref sig .scVector .hbm S1000000 .f32).view.loc (thr1 d L) ↦{Transfers.shareTokN q 4} R)
            ∗ ((Memref.whole cc2_scratch0 : Memref sig .scVector .vmem S26x512 .i32).view.loc (thr1 d L) ↦{Transfers.shareTokN fullShare 4} fb0)
            ∗ semVal (thr1 d L, SemLoc.dma cc2_scratch14.sem) 0)
          ∗ ((∃ C, (Memref.whole cc2_scratch6 : Memref sig .scVector .vmem S128 .f32).view.loc (thr1 d L) ↦{fullShare} C)
            ∗ ((Memref.whole main_v3_scv : Memref sig .scVector .hbm S1000000 .f32).view.loc (thr1 d L) ↦{Transfers.shareTokN q 5} R)
            ∗ ((Memref.whole cc2_scratch0 : Memref sig .scVector .vmem S26x512 .i32).view.loc (thr1 d L) ↦{Transfers.shareTokN fullShare 5} fb0)
            ∗ semVal (thr1 d L, SemLoc.dma cc2_scratch15.sem) 0)
          ∗ ((∃ C, (Memref.whole cc2_scratch7 : Memref sig .scVector .vmem S128 .f32).view.loc (thr1 d L) ↦{fullShare} C)
            ∗ ((Memref.whole main_v3_scv : Memref sig .scVector .hbm S1000000 .f32).view.loc (thr1 d L) ↦{Transfers.shareTokN q 6} R)
            ∗ ((Memref.whole cc2_scratch0 : Memref sig .scVector .vmem S26x512 .i32).view.loc (thr1 d L) ↦{Transfers.shareTokN fullShare 6} fb0)
            ∗ semVal (thr1 d L, SemLoc.dma cc2_scratch16.sem) 0)
          ∗ ((∃ C, (Memref.whole cc2_scratch8 : Memref sig .scVector .vmem S128 .f32).view.loc (thr1 d L) ↦{fullShare} C)
            ∗ ((Memref.whole main_v3_scv : Memref sig .scVector .hbm S1000000 .f32).view.loc (thr1 d L) ↦{Transfers.shareDrop q 7} R)
            ∗ ((Memref.whole cc2_scratch0 : Memref sig .scVector .vmem S26x512 .i32).view.loc (thr1 d L) ↦{Transfers.shareDrop fullShare 7} fb0)
            ∗ semVal (thr1 d L, SemLoc.dma cc2_scratch17.sem) 0))
        ∗ ∃ W', ⌜∀ p ∈ W', p ∈ W ∨ p.2 = none⌝ ∗ owes (thr1 d L) O W') := by
  unfold inv1v doneF; rw [dif_neg h]

set_option maxHeartbeats 4000000 in
/-- One trip, with values. -/
theorem trip1v (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (fbx : Buf (Elt F) ((thr1 d L).loc cc2_scratch0)) (hfo : fb0 = scr0 L I fbx) (hI : ∀ i, (I i).toNat < 1000000)
    (hin : ∀ (off : Fin 2 → ℕ) (hb : ∀ a, off a + S1x128.size a ≤ S26x512.size a) (x : S128.Idx), (View.read (Elt F) (offM off hb).view fb0 x).toNat < 1000000)
    (k : Fin k2_t1_loop.trips) (acc : FVec F S16 .f32) :
    inv1v d L O W q I R fb0 k.val acc
      ⊢ wp frame (wpE (defs₀ (F := F)) 𝒱₀ (thr1 d L) none) Set.univ
          (k2_t1_body L (Memref.whole main_v4_scv) (Memref.isWhole_whole _) (Memref.whole main_v3_scv) (Memref.isWhole_whole _) (Memref.whole main_v5_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scratch16 cc2_scratch17 cc2_scoped0 cc2_scoped1 k acc)
          (fun a => inv1v d L O W q I R fb0 (k.val + 1) a) := by
  rw [inv1v_pos d L O W q I R fb0 k.val acc k.isLt]
  unfold slotF k2_t1_body
  iintro ⟨%hacc, Hmw, ⟨⟨%C0, %hC0, Hf0, Hsr0, Hbr0, Hor0⟩, ⟨%C1, %hC1, Hf1, Hsr1, Hbr1, Hor1⟩, ⟨%C2, %hC2, Hf2, Hsr2, Hbr2, Hor2⟩, ⟨%C3, %hC3, Hf3, Hsr3, Hbr3, Hor3⟩, ⟨%C4, %hC4, Hf4, Hsr4, Hbr4, Hor4⟩, ⟨%C5, %hC5, Hf5, Hsr5, Hbr5, Hor5⟩, ⟨%C6, %hC6, Hf6, Hsr6, Hbr6, Hor6⟩, ⟨%C7, %hC7, Hf7, Hsr7, Hbr7, Hor7⟩⟩, %W', %hW', HO⟩
  subst hC0 hC1 hC2 hC3 hC4 hC5 hC6 hC7
  by_cases hk : k.val < 12
  · obtain ⟨h1, h2, h3, h4, h5, h6, h7, h8⟩ := k2_cond_pos k hk
    sl_exec
    sl_step
    rw [inv1v_pos d L O W q I R fb0 (k.val + 1) _ (by omega)]
    isplitr [Hmw Hf0 Hsr0 Hbr0 Hor0 Hf1 Hsr1 Hbr1 Hor1 Hf2 Hsr2 Hbr2 Hor2 Hf3 Hsr3 Hbr3 Hor3 Hf4 Hsr4 Hbr4 Hor4 Hf5 Hsr5 Hbr5 Hor5 Hf6 Hsr6 Hbr6 Hor6 Hf7 Hsr7 Hbr7 Hor7 HO]
    · ipureintro
      subst hacc
      sl_unfold_run_names
      rw [step0_chunk, step1_chunk]
      first | rw [step2_chunk] | rw [step2_chunk']
      rw [step3_chunk]
      first | rw [step4_chunk] | rw [step4_chunk']
      rw [step5_chunk, step6_chunk, step7_chunk]
      rfl
    isplitl [Hmw]; · iexact Hmw
    isplitr [HO]
    isplitl [Hf0 Hsr0 Hbr0 Hor0]
    · iexists _; isplitr
      pick_goal 2
      · iapply (Entails.of_eq (slotF_congr d L I R fb0 _ _ _ _ (k2_off3_eq' k h1) (k2_off3_inb k h1) _ _))
        unfold slotF
        isplitl [Hf0]; · iexact Hf0
        isplitl [Hsr0]; · iexact Hsr0
        isplitl [Hbr0]; · iexact Hbr0
        iexact Hor0
      · ipureintro
        exact landed_at1 L I R fbx fb0 hfo hI hin ⟨0, by decide⟩ ⟨k.val + 1, by omega⟩ _ _ (k2_off3_eq' k h1) _
    isplitl [Hf1 Hsr1 Hbr1 Hor1]
    · iexists _; isplitr
      pick_goal 2
      · iapply (Entails.of_eq (slotF_congr d L I R fb0 _ _ _ _ (k2_off4_eq' k h2) (k2_off4_inb k h2) _ _))
        unfold slotF
        isplitl [Hf1]; · iexact Hf1
        isplitl [Hsr1]; · iexact Hsr1
        isplitl [Hbr1]; · iexact Hbr1
        iexact Hor1
      · ipureintro
        exact landed_at2 L I R fbx fb0 hfo hI hin ⟨1, by decide⟩ ⟨k.val + 1, by omega⟩ _ _ (k2_off4_eq' k h2) _
    isplitl [Hf2 Hsr2 Hbr2 Hor2]
    · iexists _; isplitr
      pick_goal 2
      · iapply (Entails.of_eq (slotF_congr d L I R fb0 _ _ _ _ (k2_off5_eq' k h3) (k2_off5_inb k h3) _ _))
        unfold slotF
        isplitl [Hf2]; · iexact Hf2
        isplitl [Hsr2]; · iexact Hsr2
        isplitl [Hbr2]; · iexact Hbr2
        iexact Hor2
      · ipureintro
        exact landed_at3 L I R fbx fb0 hfo hI hin ⟨2, by decide⟩ ⟨k.val + 1, by omega⟩ _ _ (k2_off5_eq' k h3) _
    isplitl [Hf3 Hsr3 Hbr3 Hor3]
    · iexists _; isplitr
      pick_goal 2
      · iapply (Entails.of_eq (slotF_congr d L I R fb0 _ _ _ _ (k2_off6_eq' k h4) (k2_off6_inb k h4) _ _))
        unfold slotF
        isplitl [Hf3]; · iexact Hf3
        isplitl [Hsr3]; · iexact Hsr3
        isplitl [Hbr3]; · iexact Hbr3
        iexact Hor3
      · ipureintro
        exact landed_at4 L I R fbx fb0 hfo hI hin ⟨3, by decide⟩ ⟨k.val + 1, by omega⟩ _ _ (k2_off6_eq' k h4) _
    isplitl [Hf4 Hsr4 Hbr4 Hor4]
    · iexists _; isplitr
      pick_goal 2
      · iapply (Entails.of_eq (slotF_congr d L I R fb0 _ _ _ _ (k2_off7_eq' k h5) (k2_off7_inb k h5) _ _))
        unfold slotF
        isplitl [Hf4]; · iexact Hf4
        isplitl [Hsr4]; · iexact Hsr4
        isplitl [Hbr4]; · iexact Hbr4
        iexact Hor4
      · ipureintro
        exact landed_at5 L I R fbx fb0 hfo hI hin ⟨4, by decide⟩ ⟨k.val + 1, by omega⟩ _ _ (k2_off7_eq' k h5) _
    isplitl [Hf5 Hsr5 Hbr5 Hor5]
    · iexists _; isplitr
      pick_goal 2
      · iapply (Entails.of_eq (slotF_congr d L I R fb0 _ _ _ _ (k2_off8_eq' k h6) (k2_off8_inb k h6) _ _))
        unfold slotF
        isplitl [Hf5]; · iexact Hf5
        isplitl [Hsr5]; · iexact Hsr5
        isplitl [Hbr5]; · iexact Hbr5
        iexact Hor5
      · ipureintro
        exact landed_at6 L I R fbx fb0 hfo hI hin ⟨5, by decide⟩ ⟨k.val + 1, by omega⟩ _ _ (k2_off8_eq' k h6) _
    isplitl [Hf6 Hsr6 Hbr6 Hor6]
    · iexists _; isplitr
      pick_goal 2
      · iapply (Entails.of_eq (slotF_congr d L I R fb0 _ _ _ _ (k2_off9_eq' k h7) (k2_off9_inb k h7) _ _))
        unfold slotF
        isplitl [Hf6]; · iexact Hf6
        isplitl [Hsr6]; · iexact Hsr6
        isplitl [Hbr6]; · iexact Hbr6
        iexact Hor6
      · ipureintro
        exact landed_at7 L I R fbx fb0 hfo hI hin ⟨6, by decide⟩ ⟨k.val + 1, by omega⟩ _ _ (k2_off9_eq' k h7) _
    · iexists _; isplitr
      pick_goal 2
      · iapply (Entails.of_eq (slotF_congr d L I R fb0 _ _ _ _ (k2_off10_eq' k h8) (k2_off10_inb k h8) _ _))
        unfold slotF
        isplitl [Hf7]; · iexact Hf7
        isplitl [Hsr7]; · iexact Hsr7
        isplitl [Hbr7]; · iexact Hbr7
        iexact Hor7
      · ipureintro
        exact landed_at8 L I R fbx fb0 hfo hI hin ⟨7, by decide⟩ ⟨k.val + 1, by omega⟩ _ _ (k2_off10_eq' k h8) _
    iexists _; isplitr
    pick_goal 2
    · iexact HO
    · ipureintro; exact waits_ok1 (waits_ok1 (waits_ok1 (waits_ok1 (waits_ok1 (waits_ok1 (waits_ok1 (waits_ok1 (hW') _) _) _) _) _) _) _) _
  · obtain ⟨h1, h2, h3, h4, h5, h6, h7, h8⟩ := k2_cond_neg k hk
    sl_exec
    sl_step
    rw [inv1v_neg d L O W q I R fb0 (k.val + 1) _ (by omega)]
    isplitr [Hmw Hf0 Hsr0 Hbr0 Hor0 Hf1 Hsr1 Hbr1 Hor1 Hf2 Hsr2 Hbr2 Hor2 Hf3 Hsr3 Hbr3 Hor3 Hf4 Hsr4 Hbr4 Hor4 Hf5 Hsr5 Hbr5 Hor5 Hf6 Hsr6 Hbr6 Hor6 Hf7 Hsr7 Hbr7 Hor7 HO]
    · ipureintro
      subst hacc
      sl_unfold_run_names
      rw [step0_chunk, step1_chunk]
      first | rw [step2_chunk] | rw [step2_chunk']
      rw [step3_chunk]
      first | rw [step4_chunk] | rw [step4_chunk']
      rw [step5_chunk, step6_chunk, step7_chunk]
      rfl
    isplitl [Hmw]; · iexact Hmw
    isplitr [HO]
    isplitl [Hf0 Hsr0 Hbr0 Hor0]
    · unfold doneF
      isplitl [Hbr0]; · iexists _; iexact Hbr0
      isplitl [Hsr0]; · iexact Hsr0
      isplitl [Hor0]; · iexact Hor0
      iexact Hf0
    isplitl [Hf1 Hsr1 Hbr1 Hor1]
    · unfold doneF
      isplitl [Hbr1]; · iexists _; iexact Hbr1
      isplitl [Hsr1]; · iexact Hsr1
      isplitl [Hor1]; · iexact Hor1
      iexact Hf1
    isplitl [Hf2 Hsr2 Hbr2 Hor2]
    · unfold doneF
      isplitl [Hbr2]; · iexists _; iexact Hbr2
      isplitl [Hsr2]; · iexact Hsr2
      isplitl [Hor2]; · iexact Hor2
      iexact Hf2
    isplitl [Hf3 Hsr3 Hbr3 Hor3]
    · unfold doneF
      isplitl [Hbr3]; · iexists _; iexact Hbr3
      isplitl [Hsr3]; · iexact Hsr3
      isplitl [Hor3]; · iexact Hor3
      iexact Hf3
    isplitl [Hf4 Hsr4 Hbr4 Hor4]
    · unfold doneF
      isplitl [Hbr4]; · iexists _; iexact Hbr4
      isplitl [Hsr4]; · iexact Hsr4
      isplitl [Hor4]; · iexact Hor4
      iexact Hf4
    isplitl [Hf5 Hsr5 Hbr5 Hor5]
    · unfold doneF
      isplitl [Hbr5]; · iexists _; iexact Hbr5
      isplitl [Hsr5]; · iexact Hsr5
      isplitl [Hor5]; · iexact Hor5
      iexact Hf5
    isplitl [Hf6 Hsr6 Hbr6 Hor6]
    · unfold doneF
      isplitl [Hbr6]; · iexists _; iexact Hbr6
      isplitl [Hsr6]; · iexact Hsr6
      isplitl [Hor6]; · iexact Hor6
      iexact Hf6
    · unfold doneF
      isplitl [Hbr7]; · iexists _; iexact Hbr7
      isplitl [Hsr7]; · iexact Hsr7
      isplitl [Hor7]; · iexact Hor7
      iexact Hf7
    iexists _; isplitr
    pick_goal 2
    · iexact HO
    · ipureintro; exact waits_ok1 (waits_ok1 (waits_ok1 (waits_ok1 (waits_ok1 (waits_ok1 (waits_ok1 (waits_ok1 (hW') _) _) _) _) _) _) _) _

set_option maxHeartbeats 4000000 in
/-- The body of SparseCore call 1 on tile `L`: the two arrays it reads unchanged, its row of the result at the [32,16] function of KI/Tile1Val.lean,
    its scratch and semaphores back, the waits it made recorded at index `none`. -/
theorem tile1_body (hF : (K (F := F)).Facts) (d : Dev nD) (L : grid2.Coords) (O : CellTallies nD τ sig (HIx 2)) (W : Waits sig (HIx 2)) (hO : ∀ g, O g none = 0)
    (q : PosShare TreeShare) (I : Buf (Elt F) (itLoc d)) (R : Buf (Elt F) (raLoc d)) (f0 : Buf (Elt F) (ptLoc d))
    (hI : ∀ i, (I i).toNat < 1000000) :
    iprop(levAts (K (F := F)).L (K (F := F)).lev
        ∗ ((itLoc d ↦{q} I) ∗ (raLoc d ↦{q} R) ∗ (ptLoc d ↦[outRow1 L]{fullShare} f0))
        ∗ scopedBufs (thr1 d L) ∗ scopedSems0 (thr1 d L) ∗ owes (thr1 d L) O W)
      ⊢ (wp frame (wpE (defs₀ (F := F)) 𝒱₀ (thr1 d L) none) Set.univ
          (cc2_sc_kernel L (Memref.whole main_v4_scv) (Memref.isWhole_whole _) (Memref.whole main_v3_scv) (Memref.isWhole_whole _) (Memref.whole main_v5_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scratch16 cc2_scratch17 cc2_scoped0 cc2_scoped1)
          fun _ => iprop(((itLoc d ↦{q} I) ∗ (raLoc d ↦{q} R) ∗ (ptLoc d ↦[outRow1 L]{fullShare} tile1Val I R))
            ∗ scopedBufs (thr1 d L) ∗ scopedSems0 (thr1 d L) ∗ ∃ W', ⌜∀ p ∈ W', p ∈ W ∨ p.2 = none⌝ ∗ owes (thr1 d L) O W') : sProp 𝕄) := by
  simp only [cc2_sc_kernel_eq_skeleton]; unfold cc2_sc_kernel_skel
  rw [(K (F := F)).scopedBufs_V hF d (cV1 L) (jV1 L), SparseCore.Cfg.scopedSems0_V (Val := Elt F) d (cV1 L) (jV1 L), ownSems0_T1, ownBufs_T1']
  iintro ⟨#Hlv, ⟨Hi, Hr, Ho⟩, ⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, ⟨%fb8, Hb8⟩, ⟨%fb9, Hb9⟩, Hbufs⟩, ⟨Hs0, Hs1, Hs2, Hs3, Hs4, Hs5, Hs6, Hs7, Hs8, Hs9, Hsems⟩, HO⟩
  ihave Hmw := ((K (F := F)).mayWaits_none (thr := thr1 d L) hO) $$ Hlv
  ihave Hi' := (Entails.of_eq (pts_it1 (F := F) d L q _).symm) $$ Hi
  ihave Hr' := (Entails.of_eq (pts_ra1 (F := F) d L q _).symm) $$ Hr
  ihave Ho' := (Entails.of_eq (pts_row1 (F := F) d L _).symm) $$ Ho
  sl_exec
  -- the index scratch now holds the tile's window: its contents named
  ihave Hb0e := (pts_name (F := F) _) $$ Hb0
  icases Hb0e with ⟨%fo, %hfo, Hb0⟩
  have hin : ∀ (off : Fin 2 → ℕ) (hb : ∀ a, off a + S1x128.size a ≤ S26x512.size a) (x : S128.Idx), (View.read (Elt F) (offM off hb).view fo x).toNat < 1000000 := by
    intro off hb x; rw [hfo]; exact hin1 (F := F) L I hI off hb fb0 x
  -- eight read shares of the table of row sums and of the index scratch, one per buffer in flight
  ihave Hr8 := (Entails.of_eq (pts_split8 (F := F) q)) $$ Hr'
  icases Hr8 with ⟨HR0, HR1, HR2, HR3, HR4, HR5, HR6, HR7⟩
  ihave Hx8 := (Entails.of_eq (pts_split8 (F := F) fullShare)) $$ Hb0
  icases Hx8 with ⟨HX0, HX1, HX2, HX3, HX4, HX5, HX6, HX7⟩
  sl_exec
  sl_for (inv1v d L O W q I R fo) $$ [Hmw Hs0 HR0 Hb1 HX0 Hs1 HR1 Hb2 HX1 Hs2 HR2 Hb3 HX2 Hs3 HR3 Hb4 HX3 Hs4 HR4 Hb5 HX4 Hs5 HR5 Hb6 HX5 Hs6 HR6 Hb7 HX6 Hs7 HR7 Hb8 HX7 HO]
  case region => exact fun k acc => trip1v d L O W q I R fo fb0 hfo hI hin k acc
  · rw [inv1v_pos d L O W q I R fo 0 _ (by norm_num)]
    isplitr [Hmw Hs0 HR0 Hb1 HX0 Hs1 HR1 Hb2 HX1 Hs2 HR2 Hb3 HX2 Hs3 HR3 Hb4 HX3 Hs4 HR4 Hb5 HX4 Hs5 HR5 Hb6 HX5 Hs6 HR6 Hb7 HX6 Hs7 HR7 Hb8 HX7 HO]
    · ipureintro; rfl
    isplitl [Hmw]; · iexact Hmw
    isplitr [HO]
    isplitl [Hs0 HR0 Hb1 HX0]
    · iexists _; isplitr
      pick_goal 2
      · iapply (Entails.of_eq (slotF_congr d L I R fo _ _ _ _ (show (![0, 0] : Fin 2 → ℕ) = offJ 0 0 from by decide) inb_S26x512_S1x128_0_0 _ _))
        unfold slotF
        isplitl [Hs0]; · iexact Hs0
        isplitl [HR0]; · iexact HR0
        isplitl [Hb1]; · iexact Hb1
        iexact HX0
      · ipureintro
        exact landed_at1 L I R fb0 fo hfo hI hin ⟨0, by decide⟩ ⟨0, by decide⟩ _ _ (show (![0, 0] : Fin 2 → ℕ) = offJ 0 0 from by decide) _
    isplitl [Hs1 HR1 Hb2 HX1]
    · iexists _; isplitr
      pick_goal 2
      · iapply (Entails.of_eq (slotF_congr d L I R fo _ _ _ _ (show (![0, 128] : Fin 2 → ℕ) = offJ 1 0 from by decide) inb_S26x512_S1x128_0_128 _ _))
        unfold slotF
        isplitl [Hs1]; · iexact Hs1
        isplitl [HR1]; · iexact HR1
        isplitl [Hb2]; · iexact Hb2
        iexact HX1
      · ipureintro
        exact landed_at2 L I R fb0 fo hfo hI hin ⟨1, by decide⟩ ⟨0, by decide⟩ _ _ (show (![0, 128] : Fin 2 → ℕ) = offJ 1 0 from by decide) _
    isplitl [Hs2 HR2 Hb3 HX2]
    · iexists _; isplitr
      pick_goal 2
      · iapply (Entails.of_eq (slotF_congr d L I R fo _ _ _ _ (show (![0, 256] : Fin 2 → ℕ) = offJ 2 0 from by decide) inb_S26x512_S1x128_0_256 _ _))
        unfold slotF
        isplitl [Hs2]; · iexact Hs2
        isplitl [HR2]; · iexact HR2
        isplitl [Hb3]; · iexact Hb3
        iexact HX2
      · ipureintro
        exact landed_at3 L I R fb0 fo hfo hI hin ⟨2, by decide⟩ ⟨0, by decide⟩ _ _ (show (![0, 256] : Fin 2 → ℕ) = offJ 2 0 from by decide) _
    isplitl [Hs3 HR3 Hb4 HX3]
    · iexists _; isplitr
      pick_goal 2
      · iapply (Entails.of_eq (slotF_congr d L I R fo _ _ _ _ (show (![0, 384] : Fin 2 → ℕ) = offJ 3 0 from by decide) inb_S26x512_S1x128_0_384 _ _))
        unfold slotF
        isplitl [Hs3]; · iexact Hs3
        isplitl [HR3]; · iexact HR3
        isplitl [Hb4]; · iexact Hb4
        iexact HX3
      · ipureintro
        exact landed_at4 L I R fb0 fo hfo hI hin ⟨3, by decide⟩ ⟨0, by decide⟩ _ _ (show (![0, 384] : Fin 2 → ℕ) = offJ 3 0 from by decide) _
    isplitl [Hs4 HR4 Hb5 HX4]
    · iexists _; isplitr
      pick_goal 2
      · iapply (Entails.of_eq (slotF_congr d L I R fo _ _ _ _ (show (![1, 0] : Fin 2 → ℕ) = offJ 4 0 from by decide) inb_S26x512_S1x128_1_0 _ _))
        unfold slotF
        isplitl [Hs4]; · iexact Hs4
        isplitl [HR4]; · iexact HR4
        isplitl [Hb5]; · iexact Hb5
        iexact HX4
      · ipureintro
        exact landed_at5 L I R fb0 fo hfo hI hin ⟨4, by decide⟩ ⟨0, by decide⟩ _ _ (show (![1, 0] : Fin 2 → ℕ) = offJ 4 0 from by decide) _
    isplitl [Hs5 HR5 Hb6 HX5]
    · iexists _; isplitr
      pick_goal 2
      · iapply (Entails.of_eq (slotF_congr d L I R fo _ _ _ _ (show (![1, 128] : Fin 2 → ℕ) = offJ 5 0 from by decide) inb_S26x512_S1x128_1_128 _ _))
        unfold slotF
        isplitl [Hs5]; · iexact Hs5
        isplitl [HR5]; · iexact HR5
        isplitl [Hb6]; · iexact Hb6
        iexact HX5
      · ipureintro
        exact landed_at6 L I R fb0 fo hfo hI hin ⟨5, by decide⟩ ⟨0, by decide⟩ _ _ (show (![1, 128] : Fin 2 → ℕ) = offJ 5 0 from by decide) _
    isplitl [Hs6 HR6 Hb7 HX6]
    · iexists _; isplitr
      pick_goal 2
      · iapply (Entails.of_eq (slotF_congr d L I R fo _ _ _ _ (show (![1, 256] : Fin 2 → ℕ) = offJ 6 0 from by decide) inb_S26x512_S1x128_1_256 _ _))
        unfold slotF
        isplitl [Hs6]; · iexact Hs6
        isplitl [HR6]; · iexact HR6
        isplitl [Hb7]; · iexact Hb7
        iexact HX6
      · ipureintro
        exact landed_at7 L I R fb0 fo hfo hI hin ⟨6, by decide⟩ ⟨0, by decide⟩ _ _ (show (![1, 256] : Fin 2 → ℕ) = offJ 6 0 from by decide) _
    · iexists _; isplitr
      pick_goal 2
      · iapply (Entails.of_eq (slotF_congr d L I R fo _ _ _ _ (show (![1, 384] : Fin 2 → ℕ) = offJ 7 0 from by decide) inb_S26x512_S1x128_1_384 _ _))
        unfold slotF
        isplitl [Hs7]; · iexact Hs7
        isplitl [HR7]; · iexact HR7
        isplitl [Hb8]; · iexact Hb8
        iexact HX7
      · ipureintro
        exact landed_at8 L I R fb0 fo hfo hI hin ⟨7, by decide⟩ ⟨0, by decide⟩ _ _ (show (![1, 384] : Fin 2 → ℕ) = offJ 7 0 from by decide) _
    iexists _; isplitr
    pick_goal 2
    · iexact HO
    · ipureintro; exact waits_ok1 (fun p hp => .inl hp) _
  iintro %accF HI
  ihave HI' := (Entails.of_eq (inv1v_done d L O W q I R fo _ accF (show ¬ k2_t1_loop.trips < 13 by decide))) $$ HI
  icases HI' with ⟨%hacc, -, ⟨⟨⟨%C0, Hb1⟩, HR0, HX0, Hs0⟩, ⟨⟨%C1, Hb2⟩, HR1, HX1, Hs1⟩, ⟨⟨%C2, Hb3⟩, HR2, HX2, Hs2⟩, ⟨⟨%C3, Hb4⟩, HR3, HX3, Hs3⟩, ⟨⟨%C4, Hb5⟩, HR4, HX4, Hs4⟩, ⟨⟨%C5, Hb6⟩, HR5, HX5, Hs5⟩, ⟨⟨%C6, Hb7⟩, HR6, HX6, Hs6⟩, ⟨⟨%C7, Hb8⟩, HR7, HX7, Hs7⟩⟩, %W', %hW', HO⟩
  ihave Hr' := (Entails.of_eq (pts_split8 (F := F) q).symm) $$ [HR0 HR1 HR2 HR3 HR4 HR5 HR6 HR7]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HR7
  ihave Hb0 := (Entails.of_eq (pts_split8 (F := F) fullShare).symm) $$ [HX0 HX1 HX2 HX3 HX4 HX5 HX6 HX7]
  · isplitl [HX0]; · iexact HX0
    isplitl [HX1]; · iexact HX1
    isplitl [HX2]; · iexact HX2
    isplitl [HX3]; · iexact HX3
    isplitl [HX4]; · iexact HX4
    isplitl [HX5]; · iexact HX5
    isplitl [HX6]; · iexact HX6
    iexact HX7
  sl_exec
  sl_step
  isplitl [Hi' Hr' Ho']
  · isplitl [Hi']; · iapply (Entails.of_eq (pts_it1 (F := F) d L q _)); iexact Hi'
    isplitl [Hr']; · iapply (Entails.of_eq (pts_ra1 (F := F) d L q _)); iexact Hr'
    ihave Hoe := (pts_name (F := F) _) $$ Ho'
    icases Hoe with ⟨%X, %hX, Ho'⟩
    have hval : ∀ idx ∈ outRow1 L, X idx = tile1Val I R idx := by
      intro idx hidx
      rw [hX]
      exact row_final L I R f0 _ accF (fun y => scr9_read _ _ _ y) hacc idx hidx
    iapply (Entails.of_eq (pointsTo_congr hval))
    iapply (Entails.of_eq (pts_row1 (F := F) d L _))
    iexact Ho'
  isplitl [Hb0 Hb1 Hb2 Hb3 Hb4 Hb5 Hb6 Hb7 Hb8 Hb9 Hbufs]
  ·
    isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    iexact Hbufs
  isplitl [Hs0 Hs1 Hs2 Hs3 Hs4 Hs5 Hs6 Hs7 Hs8 Hs9 Hsems]
  ·
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists _; isplitr
  pick_goal 2
  · iexact HO
  · ipureintro; exact waits_ok1 hW' _

end Cert.Proof.KI

end
-- ==== Proof.KB.Common.lean ====
/-
  The program as the SparseCore launch theorem sees it: the label signature, the configuration of the two SparseCore
  calls, the body table under the one TensorCore pipeline, the variants, the configuration's facts, and the resource
  algebra — the handshakes' rounds beside the pipeline's staging-cell rounds beside the transfers' counters.
-/
import proofs.«203338_g27195732918861_cont_9to1_1050_16_alg».proof.Defs
import proofs.«203338_g27195732918861_cont_9to1_1050_16_alg».proof.Proof.Gen.Kernel
import proofs.«203338_g27195732918861_cont_9to1_1050_16_alg».proof.Proof.Gen.Kernel.Skeleton
import proofs.«203338_g27195732918861_cont_9to1_1050_16_alg».proof.Proof.Gen.Kernel.Launch
import proofs.«203338_g27195732918861_cont_9to1_1050_16_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_q (q : Fin 2) : (K (F := F)).nSub q = 16 := by fin_cases q <;> rfl
theorem nCore_q (q : Fin 2) : (K (F := F)).nCore q = 2 := by fin_cases q <;> rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The TensorCore pipeline's staging cells' rounds. -/
abbrev UP : Type := URounds (GSem nD τ sig) Unit
/-- Handshakes, staging cells, and the transfers' counters (found by instance in the right factor). -/
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) :=
  (Emb.inl : Emb UP (UP × Counters)).trans (embR (A := UH) (B := UP × Counters))

instance EP_landsIn : (EP : Emb UP 𝕄).LandsIn (upEmb : UEmb _ 𝕄) := by unfold EP embR; infer_instance

/-- The launch element splits into the handshakes' part, the staging cells' part and the counters' part. -/
theorem ownU_split3 (a : UH) (b : UP) (c : Counters) :
    (ownU ((a, (b, c)) : UU) : sProp 𝕄) ⊢ iprop(BI.own (EH a) ∗ BI.own (EP b)) := by
  iintro Hu
  ihave H := (ownU_pair (nD := nD) (τ := τ) (sig := sig) (Ix := HIx 2) (Val := Elt F) (Name := ℕ) (Lvl := ℕ) a ((b, c) : UP × Counters)) $$ Hu
  icases H with ⟨HH, HR⟩
  ihave H2 := (own_pair_emb (embR (nD := nD) (τ := τ) (sig := sig) (Ix := HIx 2) (Val := Elt F) (Name := ℕ) (Lvl := ℕ) (A := UH) (B := UP × Counters)) b c) $$ HR
  icases H2 with ⟨HP, -⟩
  isplitl [HH]; · iexact HH
  iexact HP

/-! ## The arrays of @main, as locations of device `d` -/

abbrev xLoc (d : Dev nD) : Loc nD τ sig := (SparseCore.T d).loc main_arg0
abbrev tLoc (d : Dev nD) : Loc nD τ sig := (SparseCore.T d).loc main_arg1
abbrev ttLoc (d : Dev nD) : Loc nD τ sig := (SparseCore.T d).loc main_v0
abbrev rtLoc (d : Dev nD) : Loc nD τ sig := (SparseCore.T d).loc main_v1
abbrev rsLoc (d : Dev nD) : Loc nD τ sig := (SparseCore.T d).loc main_v2
abbrev raLoc (d : Dev nD) : Loc nD τ sig := (SparseCore.T d).loc main_v3
abbrev itLoc (d : Dev nD) : Loc nD τ sig := (SparseCore.T d).loc main_v4
abbrev ptLoc (d : Dev nD) : Loc nD τ sig := (SparseCore.T d).loc main_v5

end Cert.Proof.KB

end
-- ==== Proof.KB.Sets.lean ====
/-
  The pieces of the two SparseCore calls' results: tile (c, s) — number 2 s + c — writes the 10240 entries
  [10240 (2 s + c), 10240 (2 s + c + 1)) of the first call's result and row 2 s + c of the second's. Each piece is spelt as
  the body slices it, is the corresponding equal part of the array, and the 32 pieces are pairwise disjoint and cover it.
-/
import proofs.«203338_g27195732918861_cont_9to1_1050_16_alg».proof.Proof.KB.Common

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI

/-- The number of tile (c, s): 2 s + c. -/
def wid (c : Fin 2) (s : Fin 16) : Fin 32 := ⟨2 * s.val + c.val, by have := c.isLt; have := s.isLt; omega⟩

theorem wid_injective : Function.Injective fun cs : Fin 2 × Fin 16 => wid cs.1 cs.2 := by
  rintro ⟨c, s⟩ ⟨c', s'⟩ h
  have h' : 2 * s.val + c.val = 2 * s'.val + c'.val := by simpa [wid] using congrArg Fin.val h
  have := c.isLt; have := c'.isLt
  exact Prod.ext (Fin.ext (by show c.val = c'.val; omega)) (Fin.ext (by show s.val = s'.val; omega))

theorem wid_surjective (w : Fin 32) : ∃ cs : Fin 2 × Fin 16, wid cs.1 cs.2 = w :=
  ⟨(⟨w.val % 2, Nat.mod_lt _ (by norm_num)⟩, ⟨w.val / 2, by have := w.isLt; omega⟩), Fin.ext (by show 2 * (w.val / 2) + w.val % 2 = w.val; omega)⟩

/-- A tile's grid coordinates from its SparseCore and subcore numbers. -/
def coords1 (c : Fin (grid1.bound 0)) (s : Fin (grid1.bound 1)) : grid1.Coords :=
  fun | 0 => c | 1 => s | ⟨_ + 2, h⟩ => absurd h (Nat.not_lt.2 (Nat.le_add_left _ _))
def coords2 (c : Fin (grid2.bound 0)) (s : Fin (grid2.bound 1)) : grid2.Coords :=
  fun | 0 => c | 1 => s | ⟨_ + 2, h⟩ => absurd h (Nat.not_lt.2 (Nat.le_add_left _ _))

theorem bound1_0 : grid1.bound 0 = 2 := rfl
theorem bound1_1 : grid1.bound 1 = 16 := rfl
theorem bound2_0 : grid2.bound 0 = 2 := rfl
theorem bound2_1 : grid2.bound 1 = 16 := rfl

def wid1 (L : grid1.Coords) : Fin 32 :=
  ⟨2 * (L 1).val + (L 0).val, by have h0 : (L 0).val < 2 := (L 0).isLt; have h1 : (L 1).val < 16 := (L 1).isLt; omega⟩
def wid2 (L : grid2.Coords) : Fin 32 :=
  ⟨2 * (L 1).val + (L 0).val, by have h0 : (L 0).val < 2 := (L 0).isLt; have h1 : (L 1).val < 16 := (L 1).isLt; omega⟩

theorem wid1_coords (c : Fin 2) (s : Fin 16) : wid1 (coords1 c s) = wid c s := rfl
theorem wid2_coords (c : Fin 2) (s : Fin 16) : wid2 (coords2 c s) = wid c s := rfl

/-- A slice of a whole array holds the elements of its rectangle. -/
theorem set_slice_whole {κ : Kind} {b : Ref sig κ} (r r' : Rect b.ty.shape) (h : r = r') : ((View.whole b).slice r).set = r'.set := by
  subst h; rw [View.set_slice]; exact Finset.map_refl

/-! ## The first call's result: 32 segments of 10240 entries -/

theorem hdiv0 : 32 ∣ S327680.size 0 := ⟨10240, rfl⟩

/-- Tile `L`'s segment of the first call's result, as the body's last copy slices it. -/
abbrev seg0M (L : grid1.Coords) : Memref sig .scVector .hbm S10240 .f32 :=
  (Memref.whole main_v2_scv).slice (Rect.unit (s := S327680) (k1_off83 L) S10240.size (k1_off83_inb L)) (fun _ => rfl)
def outSeg0 (L : grid1.Coords) : Finset S327680.Idx := (seg0M L).view.set

theorem seg0_rect (L : grid1.Coords) :
    Rect.unit (s := S327680) (k1_off83 L) S10240.size (k1_off83_inb L) = Rect.part (s := S327680) (a₀ := 0) hdiv0 (wid1 L) := by
  unfold Rect.part Rect.block
  congr 1 <;> funext a
  · rw [k1_off83_eq]
    match a with
    | 0 => simp [Shape.partIx, Shape.partSize, wid1]; omega
  · match a with
    | 0 => simp [Shape.partSize]

theorem outSeg0_eq (L : grid1.Coords) : outSeg0 L = (Rect.part (s := S327680) (a₀ := 0) hdiv0 (wid1 L)).set := by
  show ((View.whole (main_v2_scv : Ref sig .scVector)).slice (Rect.unit (s := S327680) (k1_off83 L) S10240.size (k1_off83_inb L))).set = _
  exact set_slice_whole _ _ (seg0_rect L)

/-! ## The second call's result: 32 rows of 16 lanes -/

theorem hdiv1 : 32 ∣ S32x16.size 0 := ⟨1, rfl⟩

/-- Tile `L`'s row of the second call's result, as the body's last copy slices and squeezes it. -/
abbrev row1M (L : grid2.Coords) : Memref sig .scVector .hbm S16 .f32 :=
  ((Memref.whole main_v5_scv).slice (Rect.unit (s := S32x16) (k2_off11 L) S1x16.size (k2_off11_inb L)) (fun _ => rfl)).squeeze S16 squeezes_S1x16_S16
def outRow1 (L : grid2.Coords) : Finset S32x16.Idx := (row1M L).view.set

theorem row1_rect (L : grid2.Coords) :
    Rect.unit (s := S32x16) (k2_off11 L) S1x16.size (k2_off11_inb L) = Rect.part (s := S32x16) (a₀ := 0) hdiv1 (wid2 L) := by
  unfold Rect.part Rect.block
  congr 1 <;> funext a
  · rw [k2_off11_eq]
    match a with
    | 0 => simp [Shape.partIx, Shape.partSize, wid2]
    | 1 => simp [Shape.partIx, Shape.partSize]
  · match a with
    | 0 => simp [Shape.partSize]
    | 1 => simp [Shape.partSize]

theorem outRow1_eq (L : grid2.Coords) : outRow1 L = (Rect.part (s := S32x16) (a₀ := 0) hdiv1 (wid2 L)).set := by
  show (((View.whole (main_v5_scv : Ref sig .scVector)).slice (Rect.unit (s := S32x16) (k2_off11 L) S1x16.size (k2_off11_inb L))).reshape S16 squeezes_S1x16_S16.numel_eq).set = _
  rw [View.set_reshape]
  exact set_slice_whole _ _ (row1_rect L)

/-! ## The pieces are pairwise disjoint and cover -/

theorem outSeg0_cs (c : Fin 2) (s : Fin 16) : outSeg0 (coords1 c s) = (Rect.part (s := S327680) (a₀ := 0) hdiv0 (wid c s)).set := by
  rw [outSeg0_eq, wid1_coords]
theorem outRow1_cs (c : Fin 2) (s : Fin 16) : outRow1 (coords2 c s) = (Rect.part (s := S32x16) (a₀ := 0) hdiv1 (wid c s)).set := by
  rw [outRow1_eq, wid2_coords]

theorem outSeg0_disjoint : ∀ cs ∈ (Finset.univ : Finset (Fin 2 × Fin 16)), ∀ cs' ∈ (Finset.univ : Finset (Fin 2 × Fin 16)), cs ≠ cs' →
    Disjoint (outSeg0 (coords1 cs.1 cs.2)) (outSeg0 (coords1 cs'.1 cs'.2)) :=
  fun cs _ cs' _ h => by rw [outSeg0_cs, outSeg0_cs]; exact Rect.part_disjoint hdiv0 fun e => h (wid_injective e)
theorem outRow1_disjoint : ∀ cs ∈ (Finset.univ : Finset (Fin 2 × Fin 16)), ∀ cs' ∈ (Finset.univ : Finset (Fin 2 × Fin 16)), cs ≠ cs' →
    Disjoint (outRow1 (coords2 cs.1 cs.2)) (outRow1 (coords2 cs'.1 cs'.2)) :=
  fun cs _ cs' _ h => by rw [outRow1_cs, outRow1_cs]; exact Rect.part_disjoint hdiv1 fun e => h (wid_injective e)

theorem outSeg0_cover : (Finset.univ : Finset (Fin 2 × Fin 16)).biUnion (fun cs => outSeg0 (coords1 cs.1 cs.2)) = Finset.univ := by
  ext i
  simp only [Finset.mem_biUnion, Finset.mem_univ, true_and, iff_true]
  obtain ⟨w, hw⟩ := Rect.exists_mem_part hdiv0 i
  obtain ⟨cs, rfl⟩ := wid_surjective w
  exact ⟨cs, by rw [outSeg0_cs]; exact hw⟩
theorem outRow1_cover : (Finset.univ : Finset (Fin 2 × Fin 16)).biUnion (fun cs => outRow1 (coords2 cs.1 cs.2)) = Finset.univ := by
  ext i
  simp only [Finset.mem_biUnion, Finset.mem_univ, true_and, iff_true]
  obtain ⟨w, hw⟩ := Rect.exists_mem_part hdiv1 i
  obtain ⟨cs, rfl⟩ := wid_surjective w
  exact ⟨cs, by rw [outRow1_cs]; exact hw⟩

end Cert.Proof.KB

end
-- ==== Proof.KB.Pay.lean ====
/-
  What the launch's handshakes carry for the two SparseCore calls. Call 0 takes the transposed table (a read share per
  SparseCore, split among its tiles) and the 32 segments of its result, and brings the segments back at the column sums;
  call 1 takes the transposed index array and the array of all row sums (read shares) and the 32 rows of its result, and
  brings the rows back at the partial sums. The TensorCore's part of the row sums is whatever the TensorCore region left —
  related to the transposed table by the region's relation — so the array of all row sums travels under an existential.
-/
import proofs.«203338_g27195732918861_cont_9to1_1050_16_alg».proof.Proof.KB.Sets
import proofs.«203338_g27195732918861_cont_9to1_1050_16_alg».proof.Proof.LibSharePieces

noncomputable section

namespace Cert.Proof.KB

open Cert.Kernel Cert.Kernel.Gen

open Idealize.ShloMosaic
open Idealize.ShloMosaic.SparseCore (S V T)
open Idealize.ShloMosaic.SparseCore.Cfg (HIx Pay)
open Idealize.ShloMosaic.SharePeel
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

-- What a tile of call 0 leaves in the result as a function of the transposed table, what a tile of call 1 leaves as a
-- function of the transposed indices and the row sums, and the relation between the transposed table and what the
-- TensorCore region leaves: the three bodies' proofs supply them.
variable (t0 : (d : Dev nD) → Buf (Elt F) (ttLoc d) → Buf (Elt F) (rsLoc d))
variable (t1 : (d : Dev nD) → Buf (Elt F) (itLoc d) → Buf (Elt F) (raLoc d) → Buf (Elt F) (ptLoc d))
variable (RR : (d : Dev nD) → Buf (Elt F) (ttLoc d) → Buf (Elt F) (rtLoc d) → Prop)

/-! ## The values of @main's arrays -/

/-- The transposed table, the transposed index array, the two halves of the row sums joined. -/
def TTv (d : Dev nD) : Buf (Elt F) (ttLoc d) :=
  ((transpose S32x1000000 [1, 0] · transposes_S1000000x32_S32x1000000_1_0) : (⟨S1000000x32, .f32⟩ : BufTy).Contents (Elt F) → (⟨S32x1000000, .f32⟩ : BufTy).Contents (Elt F)) (m (tLoc d))
def ITv (d : Dev nD) : Buf (Elt F) (itLoc d) :=
  ((transpose S26x16384 [1, 0] · transposes_S16384x26_S26x16384_1_0) : (⟨S16384x26, .i32⟩ : BufTy).Contents (Elt F) → (⟨S26x16384, .i32⟩ : BufTy).Contents (Elt F)) (m (xLoc d))
def catV (d : Dev nD) (a : Buf (Elt F) (rsLoc d)) (b : Buf (Elt F) (rtLoc d)) : Buf (Elt F) (raLoc d) :=
  ((fun a b => concatenate S1000000 0 [⟨S327680, a⟩, ⟨S672320, b⟩] concatenates_S327680_S672320_S1000000_d0) :
    (⟨S327680, .f32⟩ : BufTy).Contents (Elt F) → (⟨S672320, .f32⟩ : BufTy).Contents (Elt F) → (⟨S1000000, .f32⟩ : BufTy).Contents (Elt F)) a b

/-- The array of all row sums: the SparseCore half at its value, the TensorCore half related to the transposed table. -/
def Rel (d : Dev nD) (R : Buf (Elt F) (raLoc d)) : Prop :=
  ∃ G : Buf (Elt F) (rtLoc d), RR d (TTv m d) G ∧ R = catV d (t0 d (TTv m d)) G

/-! ## The shares -/

/-- SparseCore `c`'s share of a read-only array: a half. -/
def coreQ (c : ℕ) : PosShare TreeShare := if c = 0 then fullShare.left else fullShare.right

theorem pointsTo_cores {ℓ : Loc nD τ sig} (f : Buf (Elt F) ℓ) :
    (ℓ ↦{fullShare} f : sProp 𝕄) ⊣⊢ iprop((ℓ ↦{coreQ 0} f) ∗ ℓ ↦{coreQ 1} f) :=
  pointsTo_share (PosShare.mem_left_op_right fullShare)

/-! ## The payloads -/

abbrev go0 (d : Dev nD) (c : Fin 2) (i : Fin 16) (f : Buf (Elt F) (rsLoc d)) : sProp 𝕄 :=
  iprop((ttLoc d ↦{piece i.val (coreQ c.val)} TTv m d) ∗ rsLoc d ↦[outSeg0 (coords1 c i)]{fullShare} f)
abbrev st0 (d : Dev nD) (c : Fin 2) (f : Buf (Elt F) (rsLoc d)) : sProp 𝕄 :=
  iprop((ttLoc d ↦{coreQ c.val} TTv m d) ∗ bigSep Finset.univ fun i : Fin 16 => rsLoc d ↦[outSeg0 (coords1 c i)]{fullShare} f)
abbrev go1 (d : Dev nD) (c : Fin 2) (i : Fin 16) (f : Buf (Elt F) (raLoc d) → Buf (Elt F) (ptLoc d)) : sProp 𝕄 :=
  iprop(∃ R, (raLoc d ↦{piece i.val (coreQ c.val)} R) ∗ ⌜Rel m t0 RR d R⌝ ∗ (itLoc d ↦{piece i.val (coreQ c.val)} ITv m d)
    ∗ ptLoc d ↦[outRow1 (coords2 c i)]{fullShare} f R)
abbrev st1 (d : Dev nD) (c : Fin 2) (f : Buf (Elt F) (raLoc d) → Buf (Elt F) (ptLoc d)) : sProp 𝕄 :=
  iprop(∃ R, (raLoc d ↦{coreQ c.val} R) ∗ ⌜Rel m t0 RR d R⌝ ∗ (itLoc d ↦{coreQ c.val} ITv m d)
    ∗ bigSep Finset.univ fun i : Fin 16 => ptLoc d ↦[outRow1 (coords2 c i)]{fullShare} f R)

def P : (K (F := F)).Pay (nD := nD) (Val := Elt F) (Name := ℕ) (U := UU) where
  st := fun q d c => match q with
    | 0 => st0 m d c (m (rsLoc d))
    | 1 => st1 m t0 RR d c (fun _ => m (ptLoc d))
    | ⟨_ + 2, h⟩ => absurd h (Nat.not_lt.2 (Nat.le_add_left _ _))
  dn := fun q d c => match q with
    | 0 => st0 m d c (t0 d (TTv m d))
    | 1 => st1 m t0 RR d c (t1 d (ITv m d))
    | ⟨_ + 2, h⟩ => absurd h (Nat.not_lt.2 (Nat.le_add_left _ _))
  go := fun q d c i => match q with
    | 0 => go0 m d c i (m (rsLoc d))
    | 1 => go1 m t0 RR d c i (fun _ => m (ptLoc d))
    | ⟨_ + 2, h⟩ => absurd h (Nat.not_lt.2 (Nat.le_add_left _ _))
  td := fun q d c i => match q with
    | 0 => go0 m d c i (t0 d (TTv m d))
    | 1 => go1 m t0 RR d c i (t1 d (ITv m d))
    | ⟨_ + 2, h⟩ => absurd h (Nat.not_lt.2 (Nat.le_add_left _ _))
  x := fun _ _ => iprop(emp)

instance P_storable : (P (F := F) m t0 t1 RR).IsStorable where
  st q d c := match q with
    | 0 => (inferInstance : BI.Storable (upEmb : UEmb _ 𝕄) (st0 m d c (m (rsLoc d))))
    | 1 => (inferInstance : BI.Storable (upEmb : UEmb _ 𝕄) (st1 m t0 RR d c (fun _ => m (ptLoc d))))
  dn q d c := match q with
    | 0 => (inferInstance : BI.Storable (upEmb : UEmb _ 𝕄) (st0 m d c (t0 d (TTv m d))))
    | 1 => (inferInstance : BI.Storable (upEmb : UEmb _ 𝕄) (st1 m t0 RR d c (t1 d (ITv m d))))
  go q d c i := match q with
    | 0 => (inferInstance : BI.Storable (upEmb : UEmb _ 𝕄) (go0 m d c i (m (rsLoc d))))
    | 1 => (inferInstance : BI.Storable (upEmb : UEmb _ 𝕄) (go1 m t0 RR d c i (fun _ => m (ptLoc d))))
  td q d c i := match q with
    | 0 => (inferInstance : BI.Storable (upEmb : UEmb _ 𝕄) (go0 m d c i (t0 d (TTv m d))))
    | 1 => (inferInstance : BI.Storable (upEmb : UEmb _ 𝕄) (go1 m t0 RR d c i (t1 d (ITv m d))))

end Cert.Proof.KB

end
-- ==== Proof.KB.Split.lean ====
/-
  How a SparseCore's operands split among its sixteen tiles and how its results gather from theirs: a read share is
  handed out piece by piece, the result's pieces are the tiles' segments (rows); on the way back the pieces rejoin the
  remainder, and every tile's copy of the row sums agrees with the remainder the sequencer kept.
-/
import proofs.«203338_g27195732918861_cont_9to1_1050_16_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay)
open Idealize.ShloMosaic.SharePeel
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)
variable (t0 : (d : Dev nD) → Buf (Elt F) (ttLoc d) → Buf (Elt F) (rsLoc d))
variable (t1 : (d : Dev nD) → Buf (Elt F) (itLoc d) → Buf (Elt F) (raLoc d) → Buf (Elt F) (ptLoc d))
variable (RR : (d : Dev nD) → Buf (Elt F) (ttLoc d) → Buf (Elt F) (rtLoc d) → Prop)

/-- Holders of shares of one location agree on its contents: a family of holders, each at contents of its own, holds the
    contents of a holder beside it. -/
theorem agree_family {ι : Type} [DecidableEq ι] {ℓ : Loc nD τ sig} (q0 : PosShare TreeShare) (R : Buf (Elt F) ℓ) (s : Finset ι)
    (qs : ι → PosShare TreeShare) (Φ : ι → Buf (Elt F) ℓ → sProp 𝕄) :
    iprop((ℓ ↦{q0} R) ∗ bigSep s fun i => iprop(∃ R', (ℓ ↦{qs i} R') ∗ Φ i R'))
      ⊢ iprop((ℓ ↦{q0} R) ∗ bigSep s fun i => iprop((ℓ ↦{qs i} R) ∗ Φ i R)) := by
  induction s using Finset.induction_on with
  | empty => rw [bigSep_empty, bigSep_empty]
  | insert a s ha ih =>
    rw [SparseCore.bigSep_insert' ha, SparseCore.bigSep_insert' ha]
    iintro ⟨H0, ⟨%R', Ha, HΦ⟩, Hs⟩
    ihave H := (persistent_entails_right (pointsTo_agree (ℓ := ℓ) (I := Finset.univ) (J := Finset.univ) (q₁ := q0) (q₂ := qs a) (f := R) (g := R'))) $$ [H0 Ha]
    · isplitl [H0] <;> iassumption
    icases H with ⟨%h, H0, Ha⟩
    have e : R' = R := funext fun i => ((h i (by simp)).1).symm
    subst e
    ihave H' := ih $$ [H0 Hs]
    · isplitl [H0] <;> iassumption
    icases H' with ⟨H0, Hs⟩
    isplitl [H0]; · iexact H0
    isplitl [Ha HΦ]
    · isplitl [Ha] <;> iassumption
    · iexact Hs

theorem vecSplit0 : (K (F := F)).VecSplit' (P m t0 t1 RR) 0 := by
  intro d c
  show st0 m d c (m (rsLoc d)) ⊢ |={Set.univ}=> iprop((bigSep (Finset.univ : Finset (Fin 16)) fun i => go0 m d c i (m (rsLoc d)))
      ∗ ((bigSep (Finset.univ : Finset (Fin 16)) fun i => go0 m d c i (t0 d (TTv m d))) -∗ st0 m d c (t0 d (TTv m d))))
  unfold st0 go0
  rw [pointsTo_pieces_fin (ℓ := ttLoc d) (I := Finset.univ) (f := TTv m d) (coreQ c.val) 16, bigSep_sep', bigSep_sep']
  iintro ⟨⟨Hp, Hr⟩, Hs⟩; imodintro
  isplitl [Hp Hs]
  · isplitl [Hp] <;> iassumption
  iintro ⟨Hp, Hs⟩
  isplitl [Hp Hr]
  · isplitl [Hp] <;> iassumption
  iexact Hs

theorem vecSplit1 : (K (F := F)).VecSplit' (P m t0 t1 RR) 1 := by
  intro d c
  show st1 m t0 RR d c (fun _ => m (ptLoc d)) ⊢ |={Set.univ}=> iprop((bigSep (Finset.univ : Finset (Fin 16)) fun i => go1 m t0 RR d c i (fun _ => m (ptLoc d)))
      ∗ ((bigSep (Finset.univ : Finset (Fin 16)) fun i => go1 m t0 RR d c i (t1 d (ITv m d))) -∗ st1 m t0 RR d c (t1 d (ITv m d))))
  -- the pieces handed out, each with the row sums' contents named
  have hgo : ∀ R : Buf (Elt F) (raLoc d), Rel m t0 RR d R →
      (iprop((bigSep (Finset.univ : Finset (Fin 16)) fun i => raLoc d ↦{piece i.val (coreQ c.val)} R)
        ∗ (bigSep (Finset.univ : Finset (Fin 16)) fun i => itLoc d ↦{piece i.val (coreQ c.val)} ITv m d)
        ∗ bigSep (Finset.univ : Finset (Fin 16)) fun i => ptLoc d ↦[outRow1 (coords2 c i)]{fullShare} m (ptLoc d)) : sProp 𝕄)
      ⊢ bigSep (Finset.univ : Finset (Fin 16)) fun i => go1 m t0 RR d c i (fun _ => m (ptLoc d)) := by
    intro R hR
    have hi : ∀ i : Fin 16, (iprop((raLoc d ↦{piece i.val (coreQ c.val)} R)
          ∗ (itLoc d ↦{piece i.val (coreQ c.val)} ITv m d) ∗ ptLoc d ↦[outRow1 (coords2 c i)]{fullShare} m (ptLoc d)) : sProp 𝕄)
        ⊢ go1 m t0 RR d c i (fun _ => m (ptLoc d)) := by
      intro i
      unfold go1
      iintro ⟨Hr, Hi, Hp⟩
      iexists R
      isplitl [Hr]; · iexact Hr
      isplitr; · ipureintro; exact hR
      isplitl [Hi] <;> iassumption
    rw [← bigSep_sep', ← bigSep_sep']
    exact bigSep_mono fun i _ => hi i
  -- the pieces taken back, at the contents the sequencer's remainder holds
  have hback : ∀ R : Buf (Elt F) (raLoc d),
      (bigSep (Finset.univ : Finset (Fin 16)) fun i => iprop((raLoc d ↦{piece i.val (coreQ c.val)} R) ∗ (⌜Rel m t0 RR d R⌝ ∗ (itLoc d ↦{piece i.val (coreQ c.val)} ITv m d)
          ∗ ptLoc d ↦[outRow1 (coords2 c i)]{fullShare} t1 d (ITv m d) R)) : sProp 𝕄)
      ⊢ iprop((bigSep (Finset.univ : Finset (Fin 16)) fun i => raLoc d ↦{piece i.val (coreQ c.val)} R)
        ∗ (bigSep (Finset.univ : Finset (Fin 16)) fun i => itLoc d ↦{piece i.val (coreQ c.val)} ITv m d)
        ∗ bigSep (Finset.univ : Finset (Fin 16)) fun i => ptLoc d ↦[outRow1 (coords2 c i)]{fullShare} t1 d (ITv m d) R) := by
    intro R
    rw [bigSep_sep', bigSep_sep', bigSep_sep']
    iintro ⟨Hr, -, Hi, Hp⟩
    isplitl [Hr]; · iexact Hr
    isplitl [Hi] <;> iassumption
  unfold st1
  iintro ⟨%R, Hra, %hR, Hit, Hpt⟩
  ihave Hra' := (Entails.of_eq (pointsTo_pieces_fin (ℓ := raLoc d) (I := Finset.univ) (f := R) (U := UU) (Ix := HIx 2) (Name := ℕ) (Lvl := ℕ) (coreQ c.val) 16)) $$ Hra
  icases Hra' with ⟨Hrap, Hrar⟩
  ihave Hit' := (Entails.of_eq (pointsTo_pieces_fin (ℓ := itLoc d) (I := Finset.univ) (f := ITv m d) (U := UU) (Ix := HIx 2) (Name := ℕ) (Lvl := ℕ) (coreQ c.val) 16)) $$ Hit
  icases Hit' with ⟨Hitp, Hitr⟩
  imodintro
  isplitl [Hrap Hitp Hpt]
  · iapply (hgo R hR)
    isplitl [Hrap]; · iexact Hrap
    isplitl [Hitp] <;> iassumption
  iintro Htd
  ihave H := (agree_family (F := F) (rest 16 (coreQ c.val)) R (Finset.univ : Finset (Fin 16)) (fun i => piece i.val (coreQ c.val))
      (fun i R' => iprop(⌜Rel m t0 RR d R'⌝ ∗ (itLoc d ↦{piece i.val (coreQ c.val)} ITv m d)
        ∗ ptLoc d ↦[outRow1 (coords2 c i)]{fullShare} t1 d (ITv m d) R'))) $$ [Hrar Htd]
  · isplitl [Hrar] <;> iassumption
  icases H with ⟨Hrar, Htd⟩
  ihave H' := (hback R) $$ Htd
  icases H' with ⟨Hrap, Hitp, Hpt⟩
  iexists R
  isplitl [Hrap Hrar]
  · iapply (Entails.of_eq (pointsTo_pieces_fin (ℓ := raLoc d) (I := Finset.univ) (f := R) (U := UU) (Ix := HIx 2) (Name := ℕ) (Lvl := ℕ) (coreQ c.val) 16).symm)
    isplitl [Hrap] <;> iassumption
  isplitr; · ipureintro; exact hR
  isplitl [Hitp Hitr]
  · iapply (Entails.of_eq (pointsTo_pieces_fin (ℓ := itLoc d) (I := Finset.univ) (f := ITv m d) (U := UU) (Ix := HIx 2) (Name := ℕ) (Lvl := ℕ) (coreQ c.val) 16).symm)
    isplitl [Hitp] <;> iassumption
  iexact Hpt

end Cert.Proof.KB

end
-- ==== Proof.KB.Main.lean ====
/-
  @main on the TensorCore: the two transposes, the TensorCore region, the two SparseCore calls with the joining of the row
  sums between them, and the final sum and quotient. The arrays are held one points-to each; every host operation leaves
  its operands as they were and its result at the function's value; each SparseCore call takes its operands' shares and
  pieces and brings them back; what is left is the arguments unchanged and the result at its value.
-/
import proofs.«203338_g27195732918861_cont_9to1_1050_16_alg».proof.Proof.KB.Split
import proofs.«203338_g27195732918861_cont_9to1_1050_16_alg».proof.Proof.LibHloPoints

noncomputable section

namespace Cert.Proof.KB

open Cert.Kernel Cert.Kernel.Gen

open Idealize.ShloMosaic
open Idealize.ShloMosaic.SparseCore (S V T)
open Idealize.ShloMosaic.SparseCore.Cfg (HIx Pay)
open Idealize.ShloMosaic.SharePeel
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type} [FloatOps F]

local notation "𝕄" => MT nD τ sig (HIx 2) (Elt F) ℕ UU ℕ

variable (m : (ℓ : Loc nD τ sig) → Buf (Elt F) ℓ) (ρ : Dev nD → PrngReg)
variable (t0 : (d : Dev nD) → Buf (Elt F) (ttLoc d) → Buf (Elt F) (rsLoc d))
variable (t1 : (d : Dev nD) → Buf (Elt F) (itLoc d) → Buf (Elt F) (raLoc d) → Buf (Elt F) (ptLoc d))
variable (RR : (d : Dev nD) → Buf (Elt F) (ttLoc d) → Buf (Elt F) (rtLoc d) → Prop)

/-! ## The arrays the TensorCore holds between regions -/

abbrev c0Loc (d : Dev nD) : Loc nD τ sig := (SparseCore.T d).loc main_cst
abbrev v6Loc (d : Dev nD) : Loc nD τ sig := (SparseCore.T d).loc main_v6
abbrev c1Loc (d : Dev nD) : Loc nD τ sig := (SparseCore.T d).loc main_cst_0
abbrev v7Loc (d : Dev nD) : Loc nD τ sig := (SparseCore.T d).loc main_v7

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (ttLoc d ↦{fullShare} W main_v0)
      ∗ (rtLoc d ↦{fullShare} W main_v1) ∗ (rsLoc d ↦{fullShare} W main_v2) ∗ (raLoc d ↦{fullShare} W main_v3) ∗ (itLoc d ↦{fullShare} W main_v4)
      ∗ (ptLoc d ↦{fullShare} W main_v5) ∗ (c0Loc d ↦{fullShare} W main_cst) ∗ (v6Loc d ↦{fullShare} W main_v6) ∗ (c1Loc d ↦{fullShare} W main_cst_0)
      ∗ (v7Loc d ↦{fullShare} W main_v7)) := by
  unfold unscopedBufs
  rw [show (Finset.univ.filter fun b : Ref sig .tc => ¬ b.isScoped)
      = {main_arg0, main_arg1, main_v0, main_v1, main_v2, main_v3, main_v4, main_v5, main_cst, main_v6, main_cst_0, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation of device `d`. -/
def V0 (d : Dev nD) : Valuation τ sig (Elt F) := fun b => m (d, b)

/-! ## A whole result array as its 32 pieces, per SparseCore -/

omit [FloatOps F] in
theorem rs_pieces (d : Dev nD) (f : Buf (Elt F) (rsLoc d)) :
    (rsLoc d ↦{fullShare} f : sProp 𝕄)
      = iprop((bigSep Finset.univ fun i : Fin 16 => rsLoc d ↦[outSeg0 (coords1 (0 : Fin 2) i)]{fullShare} f)
        ∗ bigSep Finset.univ fun i : Fin 16 => rsLoc d ↦[outSeg0 (coords1 (1 : Fin 2) i)]{fullShare} f) := by
  have h := pointsTo_biUnion (ℓ := rsLoc d) (q := fullShare) (f := f) (U := UU) (Ix := HIx 2) (Name := ℕ) (Lvl := ℕ) (Finset.univ : Finset (Fin 2 × Fin 16))
    (fun cs => outSeg0 (coords1 cs.1 cs.2)) outSeg0_disjoint
  rw [outSeg0_cover] at h
  rw [h, ← Finset.univ_product_univ, SparseCore.bigSep_product, show (Finset.univ : Finset (Fin 2)) = {0, 1} by decide,
    SparseCore.bigSep_insert' (by decide), bigSep_singleton]
omit [FloatOps F] in
theorem pt_pieces (d : Dev nD) (f : Buf (Elt F) (ptLoc d)) :
    (ptLoc d ↦{fullShare} f : sProp 𝕄)
      = iprop((bigSep Finset.univ fun i : Fin 16 => ptLoc d ↦[outRow1 (coords2 (0 : Fin 2) i)]{fullShare} f)
        ∗ bigSep Finset.univ fun i : Fin 16 => ptLoc d ↦[outRow1 (coords2 (1 : Fin 2) i)]{fullShare} f) := by
  have h := pointsTo_biUnion (ℓ := ptLoc d) (q := fullShare) (f := f) (U := UU) (Ix := HIx 2) (Name := ℕ) (Lvl := ℕ) (Finset.univ : Finset (Fin 2 × Fin 16))
    (fun cs => outRow1 (coords2 cs.1 cs.2)) outRow1_disjoint
  rw [outRow1_cover] at h
  rw [h, ← Finset.univ_product_univ, SparseCore.bigSep_product, show (Finset.univ : Finset (Fin 2)) = {0, 1} by decide,
    SparseCore.bigSep_insert' (by decide), bigSep_singleton]

/-! ## What each call takes and brings back, over the two SparseCores -/

theorem st_call0 (d : Dev nD) : (bigSep Finset.univ fun c : Fin ((K (F := F)).nCore 0) => (P m t0 t1 RR).st 0 d c)
    = iprop(st0 m d 0 (m (rsLoc d)) ∗ st0 m d 1 (m (rsLoc d))) := by
  show (bigSep (Finset.univ : Finset (Fin 2)) fun c => st0 m d c (m (rsLoc d))) = _
  rw [show (Finset.univ : Finset (Fin 2)) = {0, 1} by decide, SparseCore.bigSep_insert' (by decide), bigSep_singleton]
theorem dn_call0 (d : Dev nD) : (bigSep Finset.univ fun c : Fin ((K (F := F)).nCore 0) => (P m t0 t1 RR).dn 0 d c)
    = iprop(st0 m d 0 (t0 d (TTv m d)) ∗ st0 m d 1 (t0 d (TTv m d))) := by
  show (bigSep (Finset.univ : Finset (Fin 2)) fun c => st0 m d c (t0 d (TTv m d))) = _
  rw [show (Finset.univ : Finset (Fin 2)) = {0, 1} by decide, SparseCore.bigSep_insert' (by decide), bigSep_singleton]
theorem st_call1 (d : Dev nD) : (bigSep Finset.univ fun c : Fin ((K (F := F)).nCore 1) => (P m t0 t1 RR).st 1 d c)
    = iprop(st1 m t0 RR d 0 (fun _ => m (ptLoc d)) ∗ st1 m t0 RR d 1 (fun _ => m (ptLoc d))) := by
  show (bigSep (Finset.univ : Finset (Fin 2)) fun c => st1 m t0 RR d c (fun _ => m (ptLoc d))) = _
  rw [show (Finset.univ : Finset (Fin 2)) = {0, 1} by decide, SparseCore.bigSep_insert' (by decide), bigSep_singleton]
theorem dn_call1 (d : Dev nD) : (bigSep Finset.univ fun c : Fin ((K (F := F)).nCore 1) => (P m t0 t1 RR).dn 1 d c)
    = iprop(st1 m t0 RR d 0 (t1 d (ITv m d)) ∗ st1 m t0 RR d 1 (t1 d (ITv m d))) := by
  show (bigSep (Finset.univ : Finset (Fin 2)) fun c => st1 m t0 RR d c (t1 d (ITv m d))) = _
  rw [show (Finset.univ : Finset (Fin 2)) = {0, 1} by decide, SparseCore.bigSep_insert' (by decide), bigSep_singleton]

/-! ## The result -/

/-- The program's result as a function of the array of all row sums. -/
def outV (d : Dev nD) (R : Buf (Elt F) (raLoc d)) : Buf (Elt F) (v7Loc d) :=
  (Host.divf : (⟨S_, .f32⟩ : BufTy).Contents (Elt F) → (⟨S_, .f32⟩ : BufTy).Contents (Elt F) → (⟨S_, .f32⟩ : BufTy).Contents (Elt F))
    (((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
      (t1 d (ITv m d) R) (constant S_ .f32 0x00000000#32))
    (constant S_ .f32 0x4B500000#32)

/-- What @main leaves the claim: the arguments at their launch contents, the result at its value. -/
def FIN (d : Dev nD) : sProp 𝕄 :=
  iprop((xLoc d ↦{fullShare} m (xLoc d)) ∗ (tLoc d ↦{fullShare} m (tLoc d)) ∗ ∃ R, ⌜Rel m t0 RR d R⌝ ∗ v7Loc d ↦{fullShare} outV m t1 d R)

/-- The TensorCore region's obligation, as @main's proof uses it. -/
def RegionSpec : Prop :=
  ∀ (d : Dev nD) (O : CellTallies nD τ sig (HIx 2)) (_ : ∀ g, O g none = 0) (b : ℕ) (TT : Buf (Elt F) (ttLoc d)) (f0 : Buf (Elt F) (rtLoc d)),
    iprop(levAts (K (F := F)).L (K (F := F)).lev ∗ boundary (T d) ∗ Pipeline.cellsGhost cfgs EP 0 d ∗ Pipeline.toksInit cfgs EP 0 d
        ∗ (ttLoc d ↦{fullShare} TT) ∗ (rtLoc d ↦{fullShare} f0) ∗ (∃ W, ⌜(K (F := F)).WBelow (T d) W b⌝ ∗ owes (T d) O W))
      ⊢ wp frame (wpE ((K (F := F)).defs (D (F := F))) 𝒱 (T d) none) Set.univ (Prog.lift (.customCall (SparseCore.inner (Pipeline.entry 0)) ()))
          fun _ => (iprop(boundary (T d) ∗ (ttLoc d ↦{fullShare} TT) ∗ (∃ G, ⌜RR d TT G⌝ ∗ rtLoc d ↦{fullShare} G)
            ∗ ∃ W, ⌜(K (F := F)).WBelow (T d) W b⌝ ∗ owes (T d) O W) : sProp 𝕄)

/-- The pipeline's ghost state the launch hands device `d`'s TensorCore. -/
abbrev Gd (d : Dev nD) : sProp 𝕄 := iprop(Pipeline.cellsGhost cfgs EP 0 d ∗ Pipeline.toksInit cfgs EP 0 d)

/-! ## @main -/

theorem hmain (hreg : RegionSpec (F := F) RR) (hOtc : ∀ (d : Dev nD) (n : ℕ) g, (K (F := F)).Otc d n g none = 0)
    (κ : GSem nD τ sig → ℕ) (d : Dev nD) :
    iprop((K (F := F)).ctx EH (P m t0 t1 RR) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 2 ∗ FIN m t0 t1 RR d) := by
  obtain ⟨X, hX⟩ : ∃ X : sProp 𝕄, (K (F := F)).tcSt EH d 0
      = iprop((∃ W, ⌜(K (F := F)).WBelow (T d) W (8 * 0)⌝ ∗ owes (T d) ((K (F := F)).Otc d 0) W) ∗ X) := ⟨_, rfl⟩
  unfold SparseCore.Cfg.tcRes
  rw [unscopedBufs_eq, hX]
  simp only [main, wp_bind, wp_pure]
  iintro ⟨#Hctx, ⟨Howes, HX⟩, ⟨Hb, ⟨Hx, Ht, Htt, Hrt, Hrs, Hra, Hit, Hpt, Hc0, Hv6, Hc1, Hv7⟩, -, -⟩, ⟨Hcg, Htk⟩⟩
  -- the table transposed
  iapply (HloPoints.wp_unary 𝒱 (T d) none Set.univ (V0 m d) main_arg1 main_v0 (by decide) _ _ _ (m (tLoc d)) (m (ttLoc d))) $$ [Hb Ht Htt]
  · isplitl [Hb]; · iexact Hb
    isplitl [Ht]; · iexact Ht
    iexact Htt
  iintro ⟨Hb, Ht, Htt⟩
  rw [wp_ret]; imodintro
  -- the TensorCore region: the row sums of the table's upper part
  ihave Hlv := ((K (F := F)).ctx_levAts κ) $$ Hctx
  iapply (wp_wand_r frame (wpE ((K (F := F)).defs (D (F := F))) 𝒱 (SparseCore.T d) none) Set.univ
    (Q := fun _ => iprop(boundary (T d) ∗ (ttLoc d ↦{fullShare} TTv m d) ∗ (∃ G, ⌜RR d (TTv m d) G⌝ ∗ rtLoc d ↦{fullShare} G)
      ∗ ∃ W, ⌜(K (F := F)).WBelow (T d) W (8 * 0)⌝ ∗ owes (T d) ((K (F := F)).Otc d 0) W)))
  isplitl [Hlv Hb Hcg Htk Htt Hrt Howes]
  · iapply (hreg d ((K (F := F)).Otc d 0) (hOtc d 0) (8 * 0) (TTv m d) (m (rtLoc d)))
    isplitl [Hlv]; · iexact Hlv
    isplitl [Hb]; · iexact Hb
    isplitl [Hcg]; · iexact Hcg
    isplitl [Htk]; · iexact Htk
    isplitl [Htt]; · iexact Htt
    isplitl [Hrt]; · iexact Hrt
    iexact Howes
  iintro %u ⟨Hb, Htt, ⟨%G, %hG, Hrt⟩, Howes⟩
  -- SparseCore call 0: the row sums of the table's lower part
  ihave Htt2 := (pointsTo_cores (F := F) (TTv m d)).1 $$ Htt
  icases Htt2 with ⟨Htt0, Htt1⟩
  ihave Hrs2 := (Entails.of_eq (rs_pieces (F := F) d (m (rsLoc d)))) $$ Hrs
  icases Hrs2 with ⟨Hrs0, Hrs1⟩
  iapply ((K (F := F)).wp_run (D (F := F)) 𝒱 (EH := EH) (P := P m t0 t1 RR) κ d 0) $$ [Howes HX Htt0 Htt1 Hrs0 Hrs1 Hx Ht Hb Hrt Hra Hit Hpt Hc0 Hv6 Hc1 Hv7]
  isplitr; · iexact Hctx
  isplitl [Howes HX]
  · iapply (Entails.of_eq hX.symm)
    isplitl [Howes]; · iexact Howes
    iexact HX
  isplitl [Htt0 Htt1 Hrs0 Hrs1]
  · rw [st_call0]
    isplitl [Htt0 Hrs0]
    · isplitl [Htt0]; · iexact Htt0
      iexact Hrs0
    · isplitl [Htt1]; · iexact Htt1
      iexact Hrs1
  iintro ⟨Hst, Hdn⟩
  ihave Hdn' := (Entails.of_eq (dn_call0 m t0 t1 RR d)) $$ Hdn
  icases Hdn' with ⟨⟨Htt0, Hrs0⟩, ⟨Htt1, Hrs1⟩⟩
  ihave Htt := (pointsTo_cores (F := F) (TTv m d)).2 $$ [Htt0 Htt1]
  · isplitl [Htt0]; · iexact Htt0
    iexact Htt1
  ihave Hrs := (Entails.of_eq (rs_pieces (F := F) d (t0 d (TTv m d))).symm) $$ [Hrs0 Hrs1]
  · isplitl [Hrs0]; · iexact Hrs0
    iexact Hrs1
  -- the two halves joined
  iapply (HloPoints.wp_binary 𝒱 (T d) none Set.univ (V0 m d) main_v2 main_v1 main_v3 (by decide) (by decide) (by decide) _ _ _ _
    (t0 d (TTv m d)) G (m (raLoc d))) $$ [Hb Hrs Hrt Hra]
  · isplitl [Hb]; · iexact Hb
    isplitl [Hrs]; · iexact Hrs
    isplitl [Hrt]; · iexact Hrt
    iexact Hra
  iintro ⟨Hb, Hrs, Hrt, Hra⟩
  rw [wp_ret]; imodintro
  have hR : Rel m t0 RR d (catV d (t0 d (TTv m d)) G) := ⟨G, hG, rfl⟩
  -- the indices transposed
  iapply (HloPoints.wp_unary 𝒱 (T d) none Set.univ (V0 m d) main_arg0 main_v4 (by decide) _ _ _ (m (xLoc d)) (m (itLoc d))) $$ [Hb Hx Hit]
  · isplitl [Hb]; · iexact Hb
    isplitl [Hx]; · iexact Hx
    iexact Hit
  iintro ⟨Hb, Hx, Hit⟩
  rw [wp_ret]; imodintro
  -- SparseCore call 1: the partial sums
  ihave Hit2 := (pointsTo_cores (F := F) _).1 $$ Hit
  icases Hit2 with ⟨Hit0, Hit1⟩
  ihave Hra2 := (pointsTo_cores (F := F) _).1 $$ Hra
  icases Hra2 with ⟨Hra0, Hra1⟩
  ihave Hpt2 := (Entails.of_eq (pt_pieces (F := F) d (m (ptLoc d)))) $$ Hpt
  icases Hpt2 with ⟨Hpt0, Hpt1⟩
  iapply ((K (F := F)).wp_run (D (F := F)) 𝒱 (EH := EH) (P := P m t0 t1 RR) κ d 1) $$ [Hst Hit0 Hit1 Hra0 Hra1 Hpt0 Hpt1 Hx Ht Hb Hrs Hrt Htt Hc0 Hv6 Hc1 Hv7]
  isplitr; · iexact Hctx
  isplitl [Hst]; · iexact Hst
  isplitl [Hit0 Hit1 Hra0 Hra1 Hpt0 Hpt1]
  · rw [st_call1]
    isplitl [Hit0 Hra0 Hpt0]
    · iexists (catV d (t0 d (TTv m d)) G)
      isplitl [Hra0]; · iexact Hra0
      isplitr; · ipureintro; exact hR
      isplitl [Hit0]; · iexact Hit0
      iexact Hpt0
    · iexists (catV d (t0 d (TTv m d)) G)
      isplitl [Hra1]; · iexact Hra1
      isplitr; · ipureintro; exact hR
      isplitl [Hit1]; · iexact Hit1
      iexact Hpt1
  iintro ⟨Hst, Hdn⟩
  ihave Hdn' := (Entails.of_eq (dn_call1 m t0 t1 RR d)) $$ Hdn
  icases Hdn' with ⟨⟨%R0, Hra0, %hR0, Hit0, Hpt0⟩, ⟨%R1, Hra1, -, Hit1, Hpt1⟩⟩
  ihave Hag := (persistent_entails_right (pointsTo_agree (ℓ := raLoc d) (I := Finset.univ) (J := Finset.univ) (q₁ := coreQ 0) (q₂ := coreQ 1) (f := R0) (g := R1)
    (U := UU) (Ix := HIx 2) (Name := ℕ) (Lvl := ℕ))) $$ [Hra0 Hra1]
  · isplitl [Hra0]; · iexact Hra0
    iexact Hra1
  icases Hag with ⟨%hag, Hra0, Hra1⟩
  have e : R1 = R0 := funext fun i => ((hag i (by simp)).1).symm
  subst e
  ihave Hpt := (Entails.of_eq (pt_pieces (F := F) d (t1 d (ITv m d) R1)).symm) $$ [Hpt0 Hpt1]
  · isplitl [Hpt0]; · iexact Hpt0
    iexact Hpt1
  -- the sum of the partial sums and the quotient
  iapply (HloPoints.wp_nullary 𝒱 (T d) none Set.univ (V0 m d) main_cst _ _ (m (c0Loc d))) $$ [Hb Hc0]
  · isplitl [Hb]; · iexact Hb
    iexact Hc0
  iintro ⟨Hb, Hc0⟩
  rw [wp_ret]; imodintro
  iapply (HloPoints.wp_binary 𝒱 (T d) none Set.univ (V0 m d) main_v5 main_cst main_v6 (by decide) (by decide) (by decide) _ _ _ _
    (t1 d (ITv m d) R1) _ (m (v6Loc d))) $$ [Hb Hpt Hc0 Hv6]
  · isplitl [Hb]; · iexact Hb
    isplitl [Hpt]; · iexact Hpt
    isplitl [Hc0]; · iexact Hc0
    iexact Hv6
  iintro ⟨Hb, Hpt, Hc0, Hv6⟩
  rw [wp_ret]; imodintro
  iapply (HloPoints.wp_nullary 𝒱 (T d) none Set.univ (V0 m d) main_cst_0 _ _ (m (c1Loc d))) $$ [Hb Hc1]
  · isplitl [Hb]; · iexact Hb
    iexact Hc1
  iintro ⟨Hb, Hc1⟩
  rw [wp_ret]; imodintro
  iapply (HloPoints.wp_binary 𝒱 (T d) none Set.univ (V0 m d) main_v6 main_cst_0 main_v7 (by decide) (by decide) (by decide) _ _ _ _
    _ _ (m (v7Loc d))) $$ [Hb Hv6 Hc1 Hv7]
  · isplitl [Hb]; · iexact Hb
    isplitl [Hv6]; · iexact Hv6
    isplitl [Hc1]; · iexact Hc1
    iexact Hv7
  iintro ⟨Hb, Hv6, Hc1, Hv7⟩
  rw [wp_ret]; imodintro; imodintro
  isplitl [Hst]; · iexact Hst
  unfold FIN
  isplitl [Hx]; · iexact Hx
  isplitl [Ht]; · iexact Ht
  iexists R1
  isplitr; · ipureintro; exact hR0
  iexact Hv7

end Cert.Proof.KB

end
-- ==== Proof.KB.Run.lean ====
/-
  The program's run. Each SparseCore call's tile obligation is its body's proof at the tile's coordinates, over what the
  launch hands the tile; the launch element is the handshakes' rounds beside the pipeline's staging cells' rounds; the
  final memory holds the arguments unchanged and the result at its value.
-/
import proofs.«203338_g27195732918861_cont_9to1_1050_16_alg».proof.Proof.KB.Main

noncomputable section

namespace Cert.Proof.KB

open Cert.Kernel Cert.Kernel.Gen

open Idealize.ShloMosaic
open Idealize.ShloMosaic.SparseCore (S V T)
open Idealize.ShloMosaic.SparseCore.Cfg (HIx Pay)
open Idealize.ShloMosaic.SharePeel
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)
variable (t0 : (d : Dev nD) → Buf (Elt F) (ttLoc d) → Buf (Elt F) (rsLoc d))
variable (t1 : (d : Dev nD) → Buf (Elt F) (itLoc d) → Buf (Elt F) (raLoc d) → Buf (Elt F) (ptLoc d))
variable (RR : (d : Dev nD) → Buf (Elt F) (ttLoc d) → Buf (Elt F) (rtLoc d) → Prop)

/-! ## The bodies' obligations, as the launch uses them -/

abbrev tileThr1 (d : Dev nD) (L : grid1.Coords) : Thread nD τ := V d ((L 0).castLE hcore1) ((L 1).castLE hsub1)
abbrev tileThr2 (d : Dev nD) (L : grid2.Coords) : Thread nD τ := V d ((L 0).castLE hcore2) ((L 1).castLE hsub2)

/-- Call 0's body at tile `L`: from a read share of the transposed table and the tile's segment of the result, the segment
    at the column sums. -/
def Tile0Spec : Prop :=
  ∀ (d : Dev nD) (L : grid1.Coords) (O : CellTallies nD τ sig (HIx 2)) (W : Waits sig (HIx 2)) (_ : ∀ g, O g none = 0)
    (q : PosShare TreeShare) (TT : Buf (Elt F) (ttLoc d)) (f0 : Buf (Elt F) (rsLoc d)),
    iprop(levAts (K (F := F)).L (K (F := F)).lev ∗ ((ttLoc d ↦{q} TT) ∗ rsLoc d ↦[outSeg0 L]{fullShare} f0)
        ∗ scopedBufs (tileThr1 d L) ∗ scopedSems0 (tileThr1 d L) ∗ owes (tileThr1 d L) O W)
      ⊢ wp frame (wpE (defs₀ (F := F)) 𝒱₀ (tileThr1 d L) none) Set.univ
          (cc1_rs_kernel L (Memref.whole main_v0_scv) (Memref.isWhole_whole _) (Memref.whole main_v2_scv) (Memref.isWhole_whole _)
            (Memref.whole cc1_scratch0) (Memref.isWhole_whole _) (Memref.whole cc1_scratch1) (Memref.isWhole_whole _)
            (Memref.whole cc1_scratch2) (Memref.isWhole_whole _) cc1_scratch3 cc1_scratch4 cc1_scoped0)
          fun _ => (iprop(((ttLoc d ↦{q} TT) ∗ rsLoc d ↦[outSeg0 L]{fullShare} t0 d TT)
            ∗ scopedBufs (tileThr1 d L) ∗ scopedSems0 (tileThr1 d L) ∗ ∃ W', ⌜∀ p ∈ W', p ∈ W ∨ p.2 = none⌝ ∗ owes (tileThr1 d L) O W') : sProp 𝕄)

/-- Call 1's body at tile `L`: from read shares of the transposed indices (every word a row number) and of the row sums
    and the tile's row of the result, the row at the partial sums. -/
def Tile1Spec : Prop :=
  ∀ (d : Dev nD) (L : grid2.Coords) (O : CellTallies nD τ sig (HIx 2)) (W : Waits sig (HIx 2)) (_ : ∀ g, O g none = 0)
    (q : PosShare TreeShare) (I : Buf (Elt F) (itLoc d)) (R : Buf (Elt F) (raLoc d)) (f0 : Buf (Elt F) (ptLoc d)) (_ : ∀ i, (I i).toNat < 1000000),
    iprop(levAts (K (F := F)).L (K (F := F)).lev ∗ ((itLoc d ↦{q} I) ∗ (raLoc d ↦{q} R) ∗ ptLoc d ↦[outRow1 L]{fullShare} f0)
        ∗ scopedBufs (tileThr2 d L) ∗ scopedSems0 (tileThr2 d L) ∗ owes (tileThr2 d L) O W)
      ⊢ wp frame (wpE (defs₀ (F := F)) 𝒱₀ (tileThr2 d L) none) Set.univ
          (cc2_sc_kernel L (Memref.whole main_v4_scv) (Memref.isWhole_whole _) (Memref.whole main_v3_scv) (Memref.isWhole_whole _)
            (Memref.whole main_v5_scv) (Memref.isWhole_whole _) (Memref.whole cc2_scratch0) (Memref.isWhole_whole _)
            (Memref.whole cc2_scratch1) (Memref.isWhole_whole _) (Memref.whole cc2_scratch2) (Memref.isWhole_whole _)
            (Memref.whole cc2_scratch3) (Memref.isWhole_whole _) (Memref.whole cc2_scratch4) (Memref.isWhole_whole _)
            (Memref.whole cc2_scratch5) (Memref.isWhole_whole _) (Memref.whole cc2_scratch6) (Memref.isWhole_whole _)
            (Memref.whole cc2_scratch7) (Memref.isWhole_whole _) (Memref.whole cc2_scratch8) (Memref.isWhole_whole _)
            (Memref.whole cc2_scratch9) (Memref.isWhole_whole _) cc2_scratch10 cc2_scratch11 cc2_scratch12 cc2_scratch13 cc2_scratch14
            cc2_scratch15 cc2_scratch16 cc2_scratch17 cc2_scoped0 cc2_scoped1)
          fun _ => (iprop(((itLoc d ↦{q} I) ∗ (raLoc d ↦{q} R) ∗ ptLoc d ↦[outRow1 L]{fullShare} t1 d I R)
            ∗ scopedBufs (tileThr2 d L) ∗ scopedSems0 (tileThr2 d L) ∗ ∃ W', ⌜∀ p ∈ W', p ∈ W ∨ p.2 = none⌝ ∗ owes (tileThr2 d L) O W') : sProp 𝕄)

theorem defs₀_vector1 (c : Fin τ.nSC) (s : Fin τ.nSub) :
    defs₀ (F := F) (.scVector c s) 1 ()
      = SparseCore.onTile hcore1 hsub1 (fun c s => cc1_rs_kernel (coords1 c s)
          (Memref.whole main_v0_scv) (Memref.isWhole_whole _) (Memref.whole main_v2_scv) (Memref.isWhole_whole _)
          (Memref.whole cc1_scratch0) (Memref.isWhole_whole _) (Memref.whole cc1_scratch1) (Memref.isWhole_whole _)
          (Memref.whole cc1_scratch2) (Memref.isWhole_whole _) cc1_scratch3 cc1_scratch4 cc1_scoped0) ⟨⟩ c s := rfl

theorem defs₀_vector2 (c : Fin τ.nSC) (s : Fin τ.nSub) :
    defs₀ (F := F) (.scVector c s) 2 ()
      = SparseCore.onTile hcore2 hsub2 (fun c s => cc2_sc_kernel (coords2 c s)
          (Memref.whole main_v4_scv) (Memref.isWhole_whole _) (Memref.whole main_v3_scv) (Memref.isWhole_whole _)
          (Memref.whole main_v5_scv) (Memref.isWhole_whole _) (Memref.whole cc2_scratch0) (Memref.isWhole_whole _)
          (Memref.whole cc2_scratch1) (Memref.isWhole_whole _) (Memref.whole cc2_scratch2) (Memref.isWhole_whole _)
          (Memref.whole cc2_scratch3) (Memref.isWhole_whole _) (Memref.whole cc2_scratch4) (Memref.isWhole_whole _)
          (Memref.whole cc2_scratch5) (Memref.isWhole_whole _) (Memref.whole cc2_scratch6) (Memref.isWhole_whole _)
          (Memref.whole cc2_scratch7) (Memref.isWhole_whole _) (Memref.whole cc2_scratch8) (Memref.isWhole_whole _)
          (Memref.whole cc2_scratch9) (Memref.isWhole_whole _) cc2_scratch10 cc2_scratch11 cc2_scratch12 cc2_scratch13 cc2_scratch14
          cc2_scratch15 cc2_scratch16 cc2_scratch17 cc2_scoped0 cc2_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem drop_x {A X B : sProp 𝕄} : iprop(A ∗ X ∗ B) ⊢ iprop(A ∗ B) := by
  iintro ⟨HA, -, HB⟩
  isplitl [HA]; · iexact HA
  iexact HB

theorem tileObl0 (h0 : Tile0Spec (F := F) t0) : (K (F := F)).TileObl (D (F := F)) 𝒱 (P m t0 t1 RR) v₀ 0 := by
  intro d c i O W hO _ _
  simp only [show (P m t0 t1 RR).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  exact BI.Entails.trans drop_x ((h0 d (coords1 ⟨_, hc.1⟩ ⟨_, hc.2⟩) O W hO (piece i.val (coreQ c.val)) (TTv m d) (m (rsLoc d))).trans
    (wp_mono frame _ _ fun _ => obl_post))

theorem tileObl1 (h1 : Tile1Spec (F := F) t1) (hidx : ∀ (d : Dev nD) i, (ITv m d i).toNat < 1000000) :
    (K (F := F)).TileObl (D (F := F)) 𝒱 (P m t0 t1 RR) v₀ 1 := by
  intro d c i O W hO _ _
  simp only [show (P m t0 t1 RR).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  have hpost : ∀ R : Buf (Elt F) (raLoc d), Rel m t0 RR d R →
      (iprop(((itLoc d ↦{piece i.val (coreQ c.val)} ITv m d) ∗ (raLoc d ↦{piece i.val (coreQ c.val)} R)
            ∗ ptLoc d ↦[outRow1 (coords2 c i)]{fullShare} t1 d (ITv m d) R)
          ∗ scopedBufs (V d ((K (F := F)).core 1 c) ((K (F := F)).sub 1 i)) ∗ scopedSems0 (V d ((K (F := F)).core 1 c) ((K (F := F)).sub 1 i))
          ∗ ∃ W', ⌜∀ p ∈ W', p ∈ W ∨ p.2 = none⌝ ∗ owes (V d ((K (F := F)).core 1 c) ((K (F := F)).sub 1 i)) O W') : sProp 𝕄)
      ⊢ iprop(go1 m t0 RR d c i (t1 d (ITv m d))
          ∗ scopedBufs (V d ((K (F := F)).core 1 c) ((K (F := F)).sub 1 i)) ∗ scopedSems0 (V d ((K (F := F)).core 1 c) ((K (F := F)).sub 1 i))
          ∗ ∃ W', ⌜∀ p ∈ W', p ∈ W ∨ p.2 = none ∨ p.2 = some (1 : Fin 2)⌝ ∗ owes (V d ((K (F := F)).core 1 c) ((K (F := F)).sub 1 i)) O W') := by
    intro R hR
    unfold go1
    iintro ⟨⟨Hit, Hra, Hpt⟩, Hsb, Hss, %W', %hW', HO⟩
    isplitl [Hit Hra Hpt]
    · iexists R
      isplitl [Hra]; · iexact Hra
      isplitr; · ipureintro; exact hR
      isplitl [Hit]; · iexact Hit
      iexact Hpt
    isplitl [Hsb]; · iexact Hsb
    isplitl [Hss]; · iexact Hss
    iexists W'; isplitr
    · ipureintro; exact fun p hp => (hW' p hp).imp_right Or.inl
    · iexact HO
  have hpre : (iprop(levAts (K (F := F)).L (K (F := F)).lev ∗ (iprop(emp) : sProp 𝕄) ∗ go1 m t0 RR d c i (fun _ => m (ptLoc d))
        ∗ scopedBufs (V d ((K (F := F)).core 1 c) ((K (F := F)).sub 1 i)) ∗ scopedSems0 (V d ((K (F := F)).core 1 c) ((K (F := F)).sub 1 i))
        ∗ owes (V d ((K (F := F)).core 1 c) ((K (F := F)).sub 1 i)) O W) : sProp 𝕄)
      ⊢ wp frame (wpE (defs₀ (F := F)) 𝒱₀ (V d ((K (F := F)).core 1 c) ((K (F := F)).sub 1 i)) none) Set.univ
          (cc2_sc_kernel (coords2 ⟨_, hc.1⟩ ⟨_, hc.2⟩) (Memref.whole main_v4_scv) (Memref.isWhole_whole _) (Memref.whole main_v3_scv) (Memref.isWhole_whole _)
            (Memref.whole main_v5_scv) (Memref.isWhole_whole _) (Memref.whole cc2_scratch0) (Memref.isWhole_whole _)
            (Memref.whole cc2_scratch1) (Memref.isWhole_whole _) (Memref.whole cc2_scratch2) (Memref.isWhole_whole _)
            (Memref.whole cc2_scratch3) (Memref.isWhole_whole _) (Memref.whole cc2_scratch4) (Memref.isWhole_whole _)
            (Memref.whole cc2_scratch5) (Memref.isWhole_whole _) (Memref.whole cc2_scratch6) (Memref.isWhole_whole _)
            (Memref.whole cc2_scratch7) (Memref.isWhole_whole _) (Memref.whole cc2_scratch8) (Memref.isWhole_whole _)
            (Memref.whole cc2_scratch9) (Memref.isWhole_whole _) cc2_scratch10 cc2_scratch11 cc2_scratch12 cc2_scratch13 cc2_scratch14
            cc2_scratch15 cc2_scratch16 cc2_scratch17 cc2_scoped0 cc2_scoped1)
          fun _ => iprop(go1 m t0 RR d c i (t1 d (ITv m d))
            ∗ scopedBufs (V d ((K (F := F)).core 1 c) ((K (F := F)).sub 1 i)) ∗ scopedSems0 (V d ((K (F := F)).core 1 c) ((K (F := F)).sub 1 i))
            ∗ ∃ W', ⌜∀ p ∈ W', p ∈ W ∨ p.2 = none ∨ p.2 = some (1 : Fin 2)⌝ ∗ owes (V d ((K (F := F)).core 1 c) ((K (F := F)).sub 1 i)) O W') := by
    unfold go1
    iintro ⟨Hlv, -, ⟨%R, Hra, %hR, Hit, Hpt⟩, Hsb, Hss, HO⟩
    iapply ((h1 d (coords2 ⟨_, hc.1⟩ ⟨_, hc.2⟩) O W hO (piece i.val (coreQ c.val)) (ITv m d) R (m (ptLoc d)) (hidx d)).trans
      (wp_mono frame _ _ fun _ => hpost R hR))
    isplitl [Hlv]; · iexact Hlv
    isplitl [Hit Hra Hpt]
    · isplitl [Hit]; · iexact Hit
      isplitl [Hra]; · iexact Hra
      iexact Hpt
    isplitl [Hsb]; · iexact Hsb
    isplitl [Hss]; · iexact Hss
    iexact HO
  exact hpre

/-! ## The launch element -/

variable (pipeU : UP)

def u₀ : UU := (initOf (K (F := F)).hsCells (K (F := F)).hsToks, (pipeU, 1))

omit [FloatOps F] in
theorem bigSep_emp' {I : Type} (s : Finset I) : (bigSep s fun _ => iprop(emp)) = (iprop(emp) : sProp 𝕄) := bigSep_emp_const s

theorem hu₀ (hpipe : (BI.own (EP pipeU) : sProp 𝕄) ⊢ iprop(|==> bigSep Finset.univ fun d : Dev nD => Gd (F := F) d)) :
    (ownU (u₀ (F := F) pipeU) : sProp 𝕄)
      ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 2 => (P m t0 t1 RR).x q thr) := by
  unfold u₀
  iintro Hu
  ihave H := (ownU_split3 (F := F) _ _ _) $$ Hu
  icases H with ⟨HH, HP⟩
  imod hpipe $$ HP with HG
  imodintro
  isplitl [HH]; · iexact HH
  isplitl [HG]; · iexact HG
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## The final memory -/

def fq (d : Dev nD) (s' : Phys nD τ sig (Elt F)) : Prop :=
  s'.mem.mem (xLoc d) = m (xLoc d) ∧ s'.mem.mem (tLoc d) = m (tLoc d) ∧ ∃ R, Rel m t0 RR d R ∧ s'.mem.mem (v7Loc d) = outV m t1 d R

theorem hfin (d : Dev nD) (s' : Phys nD τ sig (Elt F)) : iprop(FIN m t0 t1 RR d ∗ SI s') ⊢ (⌜fq m t0 t1 RR d s'⌝ : sProp 𝕄) := by
  unfold FIN
  iintro ⟨⟨Hx, Ht, %R, %hR, Hv⟩, HSI⟩
  ihave H := (persistent_entails_right (SI_pointsTo_agree (st := s') (ℓ := xLoc d) (I := Finset.univ) (q := fullShare) (f := m (xLoc d)))) $$ [HSI Hx]
  · isplitl [HSI]; · iexact HSI
    iexact Hx
  icases H with ⟨%h1, HSI, -⟩
  ihave H := (persistent_entails_right (SI_pointsTo_agree (st := s') (ℓ := tLoc d) (I := Finset.univ) (q := fullShare) (f := m (tLoc d)))) $$ [HSI Ht]
  · isplitl [HSI]; · iexact HSI
    iexact Ht
  icases H with ⟨%h2, HSI, -⟩
  ihave H := (SI_pointsTo_agree (st := s') (ℓ := v7Loc d) (I := Finset.univ) (q := fullShare) (f := outV m t1 d R)) $$ [HSI Hv]
  · isplitl [HSI]; · iexact HSI
    iexact Hv
  icases H with %h3
  ipureintro
  exact ⟨funext fun i => h1 i (Finset.mem_univ i), funext fun i => h2 i (Finset.mem_univ i), R, hR, funext fun i => h3 i (Finset.mem_univ i)⟩

/-! ## The run -/

def QC : PUnit × MemSt nD τ sig (Elt F) → Prop := fun r => ∀ c : Dev nD,
  r.2.mem (xLoc c) = m (xLoc c) ∧ r.2.mem (tLoc c) = m (tLoc c) ∧ ∃ R, Rel m t0 RR c R ∧ r.2.mem (v7Loc c) = outV m t1 c R

theorem run_main [∀ e, Nonempty (Elt F e)] (h0 : Tile0Spec (F := F) t0) (h1 : Tile1Spec (F := F) t1) (hreg : RegionSpec (F := F) RR)
    (hOtc : ∀ (d : Dev nD) (n : ℕ) g, (K (F := F)).Otc d n g none = 0)
    (hidx : ∀ (d : Dev nD) i, (ITv m d i).toNat < 1000000)
    (hpipe : (BI.own (EP pipeU) : sProp 𝕄) ⊢ iprop(|==> bigSep Finset.univ fun d : Dev nD => Gd (F := F) d)) :
    θ_run (Cert.Kernel.defs (F := F)) (Cert.Kernel.threads (F := F)) ⟨m, fun _ => 0, ρ⟩ (QC m t0 t1 RR) :=
  SparseCore.Cfg.θ_run_sc (K := K (F := F)) (D := D (F := F)) (𝒱 := 𝒱) (EH := EH) (P := P m t0 t1 RR) facts v₀
    (fun q hq => match q with | 0 => nomatch hq | 1 => nomatch hq)
    (fun q _ => match q with | 0 => tileObl0 m t0 t1 RR h0 | 1 => tileObl1 m t0 t1 RR h1 hidx)
    (fun q _ => match q with | 0 => SparseCore.Cfg.VecSplit.of_plain (vecSplit0 m t0 t1 RR) | 1 => SparseCore.Cfg.VecSplit.of_plain (vecSplit1 m t0 t1 RR))
    m ρ main (fun d => Gd (F := F) d) (FIN m t0 t1 RR) (u₀ (F := F) pipeU) (sep_elim_left.trans (hu₀ m t0 t1 RR pipeU hpipe))
    (hmain m ρ t0 t1 RR hreg hOtc) (fq m t0 t1 RR) (hfin m t0 t1 RR) (QC m t0 t1 RR) (fun _ h => h)

end Cert.Proof.KB

end
-- ==== Proof.KB.IdxRange.lean ====
/-
  The transposed index array holds row numbers wherever the index array does: a transpose only exchanges coordinates.
-/
import proofs.«203338_g27195732918861_cont_9to1_1050_16_alg».proof.Proof.KB.Pay
import Idealize.ShloMosaic.Lib.Pipeline.Value
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)

variable {F : FTy → Type} [FloatOps F]

variable (m : (ℓ : Loc nD τ sig) → Buf (Elt F) ℓ)

/-- The transposed index array at `(f, b)` is the index array at `(b, f)`. -/
theorem ITv_apply (d : Dev nD) (f : Fin 26) (b : Fin 16384) : ITv m d (ix2 f b) = m (xLoc d) (ix2 b f) :=
  transpose_apply _ _ _ _ (ix2 b f) (fun c => by match c with | ⟨0, _⟩ => rfl | ⟨1, _⟩ => rfl)

/-- Every word of the transposed index array is a row number when every word of the index array is. -/
theorem ITv_range (hx : ∀ (d : Dev nD) j, (m (xLoc d) j).toNat < 1000000) : ∀ (d : Dev nD) i, (ITv m d i).toNat < 1000000 := by
  intro d i
  obtain ⟨f, b, rfl⟩ : ∃ f b, i = ix2 f b := ⟨i 0, i 1, eq_ix2 i⟩
  rw [ITv_apply]
  exact hx d _

end Cert.Proof.KB

end
-- ==== Proof.KB.Region.lean ====
/-
  The TensorCore kernel region inside the SparseCore program: the pipelined call that sums the columns
  327680 ‥ 999999 of the transposed table, block by block, into the second piece of the row sums.
  Proved through the pipeline library's region rule over relational proof data: the input window's staging
  buffer is refetched at every point, the output window's is written back at every point, and what the body
  leaves in the output's buffer is the column sum of SOME filling of the input block past the array's end
  (the last block overhangs the table).
-/
import proofs.«203338_g27195732918861_cont_9to1_1050_16_alg».proof.Proof.KB.Common
import Idealize.ShloMosaic.Lib.Pipeline.Regions

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 2) (Elt F) ℕ UU ℕ

/-- The one admissible contents of the pipeline's (absent) prefetched tables. -/
abbrev adm : (p : Fin 1) → (pcfgs (F := F) p).Adm := fun p => (cfgs p).toPCfg_adm

section Data

variable (O : Dev nD → CellTallies nD τ sig (HIx 2)) (b : ℕ)
  (TT : (c : Dev nD) → Buf (Elt F) (ttLoc c)) (f0 : (c : Dev nD) → Buf (Elt F) (rtLoc c))

/-- The input block at point `t` as the fetch reads it: its part inside the array. -/
def inBlk (c : Dev nD) (t : Fin cfg0.N) : (win0_0.xblock (grid0.coords t)).Idx → Elt F .f32 :=
  (win0_0.blk t).view.read (Elt F) (TT c)

/-- The relational proof data of the pipeline on device `c`'s TensorCore. -/
def rdats (_ : Fin 1) (c : Dev nD) : RDat τ (Elt F) (HIx 2) ℕ UU ℕ cfg0 c where
  A w := match w with
    | ⟨0, _⟩ => TT c
    | ⟨1, _⟩ => f0 c
  after w t := match w with
    | ⟨0, _⟩ => fun _ _ => True
    | ⟨1, _⟩ => fun _ X => ∃ d, X = k0_pay1 (win0_0.fill (grid0.coords t) d (inBlk TT c t))
  Φ _ := iprop(emp)
  q _ := fullShare
  owed _ := O c
  recorded _ := {p | (K (F := F)).lev (T c, p.1) p.2 ≤ b}

/-- What the second piece of the row sums may hold after the region. -/
def RegionRel (c : Dev nD) (G : Buf (Elt F) (rtLoc c)) : Prop := (rdats O b TT f0 0 c).ArrAt 1 cfg0.N G

end Data

section Body

/-- The zero offsets, as the program spells them. -/
theorem hz2 : (![0, 0] : Fin 2 → Nat) = fun _ => 0 := funext fun a => by fin_cases a <;> rfl
theorem hz1 : (![0] : Fin 1 → Nat) = fun _ => 0 := funext fun a => by fin_cases a <;> rfl

/-- The kernel body on a staging buffer of each window: the whole load of the input's, the column sums, the (dead)
    load of the output's, the whole store: the output's buffer ends holding the column sums of what the input's holds. -/
theorem sound_body (c : Dev nD) (E : Set ℕ) (i : grid0.Coords) (s0 : Fin 2) (s1 : Fin 2)
    (X0 : S32x65536.Idx → Elt F .f32) (X1 : S65536.Idx → Elt F .f32) (Kk : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0 ∗ owns (c : Thread nD τ) (stage0_1 s1) fullShare (k0_pay1 X0)) -∗ Kk ⟨⟩))
      ⊢ wp frame (wpE (defs₀ (F := F)) 𝒱₀ c none) E
          (cc0_body i (stage0_0 s0) (hstage0_0 s0) (stage0_1 s1) (hstage0_1 s1)) Kk := by
  fin_cases s0 <;> fin_cases s1
  · -- the input's buffer `cc0_stg0_0`, the output's `cc0_stg1_0`
    simp only [owns_whole_eq, cc0_body_eq_skeleton]; unfold cc0_body_skel
    simp only [Prog.lift, Prog.bind_op, Prog.bind_ret]
    iintro ⟨⟨⟨%g0, %hg0, H0⟩, ⟨%g1, %hg1, H1⟩⟩, Hk⟩
    have hr : (Memref.whole cc0_stg0_0 : Memref sig .tc _ _ _).view.readAt (Elt F) (Rect.unit (s := S32x65536) ![0, 0] S32x65536.size
        inb_S32x65536_S32x65536_0_0).toLoadRect g0 = g0 := Memref.readAt_unit_zero (Elt F) cc0_stg0_0 hz2 _ g0
    have hw : ∀ f w, (((Memref.whole cc0_stg1_0).access (Rect.unit (s := S65536) ![0] S65536.size inb_S65536_S65536_0)) :
        View sig .tc _ _ _).write (Elt F) f w Finset.univ = w := Memref.write_access_unit_zero_univ (Elt F) cc0_stg1_0 hz1 _
    sl_steps
    iapply Hk
    rw [hr, hw]
    isplitl [H0]
    · iexists g0; isplitr; · ipureintro; exact hg0
      iexact H0
    · iexists k0_pay1 g0; isplitr; · ipureintro; rw [hg0]
      iexact H1
  · -- the input's buffer `cc0_stg0_0`, the output's `cc0_stg1_1`
    simp only [owns_whole_eq, cc0_body_eq_skeleton]; unfold cc0_body_skel
    simp only [Prog.lift, Prog.bind_op, Prog.bind_ret]
    iintro ⟨⟨⟨%g0, %hg0, H0⟩, ⟨%g1, %hg1, H1⟩⟩, Hk⟩
    have hr : (Memref.whole cc0_stg0_0 : Memref sig .tc _ _ _).view.readAt (Elt F) (Rect.unit (s := S32x65536) ![0, 0] S32x65536.size
        inb_S32x65536_S32x65536_0_0).toLoadRect g0 = g0 := Memref.readAt_unit_zero (Elt F) cc0_stg0_0 hz2 _ g0
    have hw : ∀ f w, (((Memref.whole cc0_stg1_1).access (Rect.unit (s := S65536) ![0] S65536.size inb_S65536_S65536_0)) :
        View sig .tc _ _ _).write (Elt F) f w Finset.univ = w := Memref.write_access_unit_zero_univ (Elt F) cc0_stg1_1 hz1 _
    sl_steps
    iapply Hk
    rw [hr, hw]
    isplitl [H0]
    · iexists g0; isplitr; · ipureintro; exact hg0
      iexact H0
    · iexists k0_pay1 g0; isplitr; · ipureintro; rw [hg0]
      iexact H1
  · -- the input's buffer `cc0_stg0_1`, the output's `cc0_stg1_0`
    simp only [owns_whole_eq, cc0_body_eq_skeleton]; unfold cc0_body_skel
    simp only [Prog.lift, Prog.bind_op, Prog.bind_ret]
    iintro ⟨⟨⟨%g0, %hg0, H0⟩, ⟨%g1, %hg1, H1⟩⟩, Hk⟩
    have hr : (Memref.whole cc0_stg0_1 : Memref sig .tc _ _ _).view.readAt (Elt F) (Rect.unit (s := S32x65536) ![0, 0] S32x65536.size
        inb_S32x65536_S32x65536_0_0).toLoadRect g0 = g0 := Memref.readAt_unit_zero (Elt F) cc0_stg0_1 hz2 _ g0
    have hw : ∀ f w, (((Memref.whole cc0_stg1_0).access (Rect.unit (s := S65536) ![0] S65536.size inb_S65536_S65536_0)) :
        View sig .tc _ _ _).write (Elt F) f w Finset.univ = w := Memref.write_access_unit_zero_univ (Elt F) cc0_stg1_0 hz1 _
    sl_steps
    iapply Hk
    rw [hr, hw]
    isplitl [H0]
    · iexists g0; isplitr; · ipureintro; exact hg0
      iexact H0
    · iexists k0_pay1 g0; isplitr; · ipureintro; rw [hg0]
      iexact H1
  · -- the input's buffer `cc0_stg0_1`, the output's `cc0_stg1_1`
    simp only [owns_whole_eq, cc0_body_eq_skeleton]; unfold cc0_body_skel
    simp only [Prog.lift, Prog.bind_op, Prog.bind_ret]
    iintro ⟨⟨⟨%g0, %hg0, H0⟩, ⟨%g1, %hg1, H1⟩⟩, Hk⟩
    have hr : (Memref.whole cc0_stg0_1 : Memref sig .tc _ _ _).view.readAt (Elt F) (Rect.unit (s := S32x65536) ![0, 0] S32x65536.size
        inb_S32x65536_S32x65536_0_0).toLoadRect g0 = g0 := Memref.readAt_unit_zero (Elt F) cc0_stg0_1 hz2 _ g0
    have hw : ∀ f w, (((Memref.whole cc0_stg1_1).access (Rect.unit (s := S65536) ![0] S65536.size inb_S65536_S65536_0)) :
        View sig .tc _ _ _).write (Elt F) f w Finset.univ = w := Memref.write_access_unit_zero_univ (Elt F) cc0_stg1_1 hz1 _
    sl_steps
    iapply Hk
    rw [hr, hw]
    isplitl [H0]
    · iexists g0; isplitr; · ipureintro; exact hg0
      iexact H0
    · iexists k0_pay1 g0; isplitr; · ipureintro; rw [hg0]
      iexact H1

variable (O : Dev nD → CellTallies nD τ sig (HIx 2)) (b : ℕ)
  (TT : (c : Dev nD) → Buf (Elt F) (ttLoc c)) (f0 : (c : Dev nD) → Buf (Elt F) (rtLoc c))

/-- The pipeline library's body obligation, from `sound_body` at the point's staging buffers: the input's buffer arrives
    just fetched — the block where the fetch filled it, anything past the array's end —, and the output's buffer is left
    at the column sums of that. -/
theorem body_obligation (c : Dev nD) : (rdats O b TT f0 0 c).BodyObligation (defs₀ (F := F)) 𝒱₀ none Set.univ := fun t Y hY => by
  obtain ⟨d0, hd0⟩ := ((rdats O b TT f0 0 c).finds_of_fetch (fetch0_0 t) (Y 0)).mp (hY 0)
  rw [bigSep_W0, bigSep_W0]
  rw [show (rdats O b TT f0 0 c).Φ t.succ = (rdats O b TT f0 0 c).Φ t.castSucc from rfl,
    show (rdats O b TT f0 0 c).owesAt none t.succ = (rdats O b TT f0 0 c).owesAt none t.castSucc from rfl]
  iintro ⟨HΦ, Ho, H0, H1⟩
  iapply (sound_body (F := F) c Set.univ (grid0.coords t) (cfg0.slots t 0) (cfg0.slots t 1) (Y 0) (Y 1) _)
  isplitl [H0 H1]
  · isplitl [H0]
    · iexact H0
    · iexact H1
  iintro ⟨H0, H1⟩
  isplitl [HΦ]; · iexact HΦ
  isplitl [Ho]; · iexact Ho
  isplitl [H0]
  · iexists Y 0; isplitr; · ipureintro; trivial
    iexact H0
  · iexists k0_pay1 (Y 0); isplitr
    · ipureintro; exact ⟨d0, by rw [hd0]; rfl⟩
    iexact H1

end Body

section Region

variable (O : Dev nD → CellTallies nD τ sig (HIx 2)) (hO : ∀ c g, O c g none = 0) (b : ℕ)
  (TT : (c : Dev nD) → Buf (Elt F) (ttLoc c)) (f0 : (c : Dev nD) → Buf (Elt F) (rtLoc c))
  (lv : GSem nD τ sig → HIx 2 → ℕ) (hlv : (K (F := F)).Refines lv)

/-- What the TensorCore owes the SparseCores' handshakes, every pair its waits have recorded at or below level `b`. -/
def owesB (c : Dev nD) : sProp 𝕄 := iprop(∃ W, ⌜(K (F := F)).WBelow (T c) W b⌝ ∗ owes (T c) (O c) W)

/-- The windowed arrays at contents `F`, as points-tos of their buffers at the full share. -/
theorem arrays_eq0 (c : Dev nD) (Fw : (w : Fin cfg0.W) → Buf (Elt F) ((cfg0.win w).arr.view.loc (c : Thread nD τ))) :
    (rdats O b TT f0 0 c).arrays Fw = iprop((ttLoc c ↦{fullShare} Fw 0) ∗ (rtLoc c ↦{fullShare} Fw 1)) := by
  rw [Pipeline.RDat.arrays_eq (pcfgs (F := F)) adm (rdats O b TT f0) 0 c arr_whole0
    ((rdats O b TT f0 0 c).share_full fun _ => rfl), bigSep_W0]

/-- The same after the write-backs below `n`: each at some contents it may then hold. -/
theorem arraysAt_eq0 (c : Dev nD) (n : Nat) :
    (rdats O b TT f0 0 c).arraysAt n
      = iprop((∃ G, ⌜(rdats O b TT f0 0 c).ArrAt 0 n G⌝ ∗ (ttLoc c ↦{fullShare} G)) ∗ (∃ G, ⌜(rdats O b TT f0 0 c).ArrAt 1 n G⌝ ∗ (rtLoc c ↦{fullShare} G))) := by
  unfold Pipeline.RDat.arraysAt
  rw [bigSep_W0, (arr_whole0 0).set_eq_univ, (arr_whole0 1).set_eq_univ,
    (rdats O b TT f0 0 c).share_full (fun _ => rfl) 0, (rdats O b TT f0 0 c).share_full (fun _ => rfl) 1]

include hO hlv in
/-- The pipeline's waits on its staging cells sit below everything the TensorCore owes the SparseCores. -/
theorem hwaits0 (c : Dev nD) :
    (levAts (K (F := F)).L lv : sProp 𝕄) ⊢ Pipeline.RDat.cellsWaits (Pipeline.pin (pcfgs (F := F)) adm) (rdats O b TT f0) none 0 c :=
  Pipeline.RDat.cellsWaits_intro (Pipeline.pin (pcfgs (F := F)) adm) (rdats O b TT f0) none 0 c
    fun w s t => (K (F := F)).mayWait_none _ (hO c) lv hlv

set_option backward.isDefEq.respectTransparency.types false in
/-- The region's record for the pipeline library's region rule. -/
def regionSeg : Pipeline.RDat.RegionSeg (pcfgs (F := F)) adm (rdats O b TT f0) none defs₀ 𝒱₀ (K (F := F)).L lv 0 where
  win := winFacts0.to₀
  block_pos := block_pos0
  stage_whole := stage_whole0
  K := PEmpty
  osem := fun k => k.elim
  ho := Pipeline.OwnSemFacts.none _
  hbody c := body_obligation O b TT f0 c
  hwaits c := hwaits0 O hO b TT f0 lv hlv c
  pre c := iprop((ttLoc c ↦{fullShare} TT c) ∗ (rtLoc c ↦{fullShare} f0 c) ∗ owesB O b c)
  post c := iprop((ttLoc c ↦{fullShare} TT c) ∗ (∃ G, ⌜RegionRel O b TT f0 c G⌝ ∗ (rtLoc c ↦{fullShare} G)) ∗ owesB O b c)
  X _ := iprop(emp)
  Y _ := iprop(emp)
  Z _ := iprop(emp)
  hentry c := by
    rw [Pipeline.ownSems0_none, arrays_eq0]
    iintro ⟨⟨Htt, Hrt, HO⟩, -, -⟩
    imodintro
    isplitl [Htt Hrt]
    · isplitl [Htt]; · iexact Htt
      iexact Hrt
    isplitr; · unfold Pipeline.prefHeld; rw [show (Finset.univ : Finset (Fin 0)) = ∅ from rfl, BI.bigSep_empty]; iempintro
    isplitl [HO]
    · unfold owesB Pipeline.RDat.owesAt Pipeline.owesWithin
      icases HO with ⟨%W, %hW, HO⟩; iexists W; isplitr
      · ipureintro; exact fun p hp => Or.inl (hW p (Finset.mem_coe.mp hp))
      iexact HO
    isplitr <;> iempintro
  hin c := by
    iintro -; iempintro
  hout c := by
    rw [Pipeline.ownSems0_none, scopedRest0_eq]
    iintro -
    isplitr; · iempintro
    isplitr <;> iempintro
  hexit c := by
    rw [arraysAt_eq0, (rdats O b TT f0 0 c).ArrAt_in (0 : Fin 2) rfl]
    iintro ⟨⟨⟨%G0, %h0, H0⟩, ⟨%G1, %h1, H1⟩⟩, HO, -, -⟩
    imodintro
    isplitl [H0]
    · rw [h0]; iexact H0
    isplitl [H1]
    · iexists G1; isplitr; · ipureintro; exact h1
      iexact H1
    unfold owesB Pipeline.RDat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

theorem regionSeg_pre (c : Dev nD) : (regionSeg O hO b TT f0 lv hlv).pre c
    = iprop((ttLoc c ↦{fullShare} TT c) ∗ (rtLoc c ↦{fullShare} f0 c) ∗ owesB O b c) := rfl
theorem regionSeg_post (c : Dev nD) : (regionSeg O hO b TT f0 lv hlv).post c
    = iprop((ttLoc c ↦{fullShare} TT c) ∗ (∃ G, ⌜RegionRel O b TT f0 c G⌝ ∗ (rtLoc c ↦{fullShare} G)) ∗ owesB O b c) := rfl

/-- The pipeline's entry call, continued by the return. -/
def entryCall : Prog (TpuEff nD τ sig (Elt F) (ΛP (F := F)) .tc) PUnit :=
  .op (.customCall (Pipeline.entry (0 : Fin 1)) ()) fun _ => .ret ⟨⟩

/-- The region's call as @main spells it is the pipeline's entry call, lifted to the SparseCore program's labels. -/
theorem lift_entry : (Prog.lift (.customCall (SparseCore.inner (Pipeline.entry (0 : Fin 1))) ()) :
      Prog (TpuEff nD τ sig (Elt F) (SparseCore.Sig (ΛP (F := F)) 2) .tc) PUnit)
    = SparseCore.liftProg (entryCall (F := F)) := rfl

/-- What the region leaves: the boundary holdings, the transposed table kept, the result array at contents the
    write-backs may leave, and what the TensorCore owes. -/
def regionPost (d : Dev nD) : PUnit → sProp 𝕄 := fun _ =>
  iprop(boundary (T d) ∗ (ttLoc d ↦{fullShare} TT d)
    ∗ (∃ G, ⌜RegionRel O b TT f0 d G⌝ ∗ (rtLoc d ↦{fullShare} G)) ∗ owesB O b d)

include hO hlv in
set_option backward.isDefEq.respectTransparency.types false in
/-- The region under the pipeline's own body table. -/
theorem region0_inner [∀ e, Nonempty (Elt F e)] (d : Dev nD) :
    iprop(levAts (K (F := F)).L lv ∗ boundary (T d) ∗ Pipeline.cellsGhost cfgs EP 0 d ∗ Pipeline.toksInit cfgs EP 0 d
        ∗ (ttLoc d ↦{fullShare} TT d) ∗ (rtLoc d ↦{fullShare} f0 d) ∗ owesB O b d)
      ⊢ wp frame (wpE (D (F := F)) 𝒱 (T d) none) Set.univ (entryCall (F := F)) (regionPost O b TT f0 d) := by
  have h := Pipeline.RDat.RegionSeg.wp (pcfgs (F := F)) adm (rdats O b TT f0) none cellOf_inj EP defs₀ 𝒱₀ (K (F := F)).L lv
    (regionSeg O hO b TT f0 lv hlv) d none (fun _ h => nomatch h) (fun _ => .ret ⟨⟩) (regionPost O b TT f0 d)
  rw [regionSeg_pre, regionSeg_post] at h
  iintro ⟨#Hla, Hb, Hg, Ht, Htt, Hrt, Ho⟩
  iapply h
  isplitr [Hb Hg Ht Htt Hrt Ho]
  · iintro ⟨Hb, Hpost⟩
    rw [wp_ret]; imodintro
    unfold regionPost
    isplitl [Hb]; · iexact Hb
    iexact Hpost
  isplitl [Hb]; · iexact Hb
  isplitl [Htt Hrt Ho]
  · isplitl [Htt]; · iexact Htt
    isplitl [Hrt]; · iexact Hrt
    iexact Ho
  isplitr; · iexact Hla
  isplitl [Hg]; · iexact Hg
  iexact Ht

include hO hlv in
/-- The region, from what @main holds at its line: the level facts, the TensorCore's region-boundary holdings, the
    pipeline's launch ghost state on the device, the transposed table, the result array, and what the TensorCore owes. -/
theorem region0 [∀ e, Nonempty (Elt F e)] (d : Dev nD) :
    iprop(levAts (K (F := F)).L lv ∗ boundary (T d) ∗ Pipeline.cellsGhost cfgs EP 0 d ∗ Pipeline.toksInit cfgs EP 0 d
        ∗ (ttLoc d ↦{fullShare} TT d) ∗ (rtLoc d ↦{fullShare} f0 d) ∗ owesB O b d)
      ⊢ wp frame (wpE ((K (F := F)).defs (D (F := F))) 𝒱 (T d) none) Set.univ
          (Prog.lift (.customCall (SparseCore.inner (Pipeline.entry 0)) ()))
          fun _ => iprop(boundary (T d) ∗ (ttLoc d ↦{fullShare} TT d)
            ∗ (∃ G, ⌜RegionRel O b TT f0 d G⌝ ∗ (rtLoc d ↦{fullShare} G)) ∗ owesB O b d) := by
  show _ ⊢ wp frame (wpE ((K (F := F)).defs (D (F := F))) 𝒱 (T d) none) Set.univ
    (Prog.lift (.customCall (SparseCore.inner (Pipeline.entry (0 : Fin 1))) ())) (regionPost O b TT f0 d)
  rw [lift_entry]
  have h2 := (K (F := F)).wp_liftProg (Name := ℕ) (U := UU) (D (F := F)) 𝒱 (T d) Set.univ none (entryCall (F := F)) (regionPost O b TT f0 d)
  exact (region0_inner O hO b TT f0 lv hlv d).trans h2

end Region

section Exports

/-- The TensorCore owes nothing at a kernel's own index: what it owes is start signals, each at its call's index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- The staging cells' part of the launch element: every staging cell's owner at round 0 and a duty token for every
    transfer the pipeline issues. -/
def pipeU₀ : UP := initOf (Pipeline.cells cfgs cellOf_inj) (Pipeline.launchToks cfgs cellOf_inj)

/-- What the launch deals device `d`'s TensorCore for the pipeline: its staging cells' launch ghost state and its
    transfers' duty tokens. -/
def pipeG (d : Dev nD) : sProp 𝕄 := iprop(Pipeline.cellsGhost cfgs EP 0 d ∗ Pipeline.toksInit cfgs EP 0 d)

/-- Funding: the staging cells' part of the launch element yields every device's. -/
theorem pipe_fund : (BI.own (EP (F := F) pipeU₀) : sProp 𝕄) ⊢ iprop(|==> bigSep Finset.univ fun d : Dev nD => pipeG (F := F) d) := by
  have h1 : ∀ (Φ : Fin 1 → sProp 𝕄), bigSep Finset.univ Φ = Φ 0 := fun Φ => by
    rw [show (Finset.univ : Finset (Fin 1)) = {0} from rfl, bigSep_singleton]
  have h := Pipeline.fund_ghost (Ix := HIx 2) (Val := Elt F) (Name := ℕ) (U := UU) (Lvl := ℕ) cfgs (EP (F := F)) cellOf_inj
  simp only [h1] at h
  unfold pipeG pipeU₀
  simp only [h1]
  exact h

/-- The mesh has one device. -/
theorem dev_eq (c d : Dev nD) : d = c := Fin.ext (by have hc : c.val < 1 := c.isLt; have hd : d.val < 1 := d.isLt; omega)

/-- Contents of an array of device `d` as a family over the (one) device. -/
def famT (d : Dev nD) (TT : Buf (Elt F) (ttLoc d)) : (c : Dev nD) → Buf (Elt F) (ttLoc c) := fun c => dev_eq c d ▸ TT
def famR (d : Dev nD) (f0 : Buf (Elt F) (rtLoc d)) : (c : Dev nD) → Buf (Elt F) (rtLoc c) := fun c => dev_eq c d ▸ f0

/-- What the second piece of the row sums may hold after the region, given the transposed table's contents. -/
def RR (d : Dev nD) (TT : Buf (Elt F) (ttLoc d)) (G : Buf (Elt F) (rtLoc d)) : Prop :=
  ∃ (O : Dev nD → CellTallies nD τ sig (HIx 2)) (b : ℕ) (f0 : (c : Dev nD) → Buf (Elt F) (rtLoc c)), RegionRel O b (famT d TT) f0 d G

/-- The region on device `d`, from what @main holds at its line. -/
theorem region_spec [∀ e, Nonempty (Elt F e)] (d : Dev nD) (O : CellTallies nD τ sig (HIx 2)) (hO : ∀ g, O g none = 0) (b : ℕ)
    (TT : Buf (Elt F) (ttLoc d)) (f0 : Buf (Elt F) (rtLoc d)) :
    iprop(levAts (K (F := F)).L (K (F := F)).lev ∗ boundary (T d) ∗ Pipeline.cellsGhost cfgs EP 0 d ∗ Pipeline.toksInit cfgs EP 0 d
        ∗ (ttLoc d ↦{fullShare} TT) ∗ (rtLoc d ↦{fullShare} f0) ∗ (∃ W, ⌜(K (F := F)).WBelow (T d) W b⌝ ∗ owes (T d) O W))
      ⊢ wp frame (wpE ((K (F := F)).defs (D (F := F))) 𝒱 (T d) none) Set.univ
          (Prog.lift (.customCall (SparseCore.inner (Pipeline.entry 0)) ()))
          fun _ => iprop(boundary (T d) ∗ (ttLoc d ↦{fullShare} TT) ∗ (∃ G, ⌜RR d TT G⌝ ∗ rtLoc d ↦{fullShare} G)
            ∗ ∃ W, ⌜(K (F := F)).WBelow (T d) W b⌝ ∗ owes (T d) O W) := by
  have h := region0 (F := F) (fun _ => O) (fun _ => hO) b (famT d TT) (famR d f0) (K (F := F)).lev (SparseCore.Cfg.refines_self _) d
  unfold owesB at h
  refine BIBase.Entails.trans h (wp_mono frame _ Set.univ fun _ => ?_)
  iintro ⟨Hb, Htt, ⟨%G, %hG, Hrt⟩, Ho⟩
  isplitl [Hb]; · iexact Hb
  isplitl [Htt]; · iexact Htt
  isplitl [Hrt]
  · iexists G; isplitr; · ipureintro; exact ⟨_, _, _, hG⟩
    iexact Hrt
  iexact Ho

end Exports

end Cert.Proof.KB

end
-- ==== Proof.KB.Tile0Defs.lean ====
/-
  The body of the first SparseCore call at a symbolic tile: the row sums of the tile's 10240 columns of the transposed
  table, ten chunks of 1024 columns through two slabs, each chunk fetched by four copies counted on one semaphore.
-/
import proofs.«203338_g27195732918861_cont_9to1_1050_16_alg».proof.Proof.KB.Sets

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid1.Coords)

/-- The tile's SparseCore and subcore numbers, and its thread. -/
abbrev cV (L : grid1.Coords) : Fin τ.nSC := (L 0).castLE hcore1
abbrev jV (L : grid1.Coords) : Fin τ.nSub := (L 1).castLE hsub1
abbrev thr0 (d : Dev nD) (L : grid1.Coords) : Thread nD τ := V d (cV L) (jV L)

/-- The kernel's operands as the tile names them. -/
abbrev ttM : Memref sig .scVector .hbm S32x1000000 .f32 := Memref.whole main_v0_scv
abbrev rsM : Memref sig .scVector .hbm S327680 .f32 := Memref.whole main_v2_scv
abbrev s0M : Memref sig .scVector .vmem S32x1024 .f32 := Memref.whole cc1_scratch0
abbrev s1M : Memref sig .scVector .vmem S32x1024 .f32 := Memref.whole cc1_scratch1
abbrev obM : Memref sig .scVector .vmem S10240 .f32 := Memref.whole cc1_scratch2

/-- The tile's three transfer cells: one per slab, and the final copy's. -/
abbrev cell3 (d : Dev nD) (L : grid1.Coords) : GSem nD τ sig := (thr0 d L, .dma cc1_scratch3.sem)
abbrev cell4 (d : Dev nD) (L : grid1.Coords) : GSem nD τ sig := (thr0 d L, .dma cc1_scratch4.sem)
abbrev cell6 (d : Dev nD) (L : grid1.Coords) : GSem nD τ sig := (thr0 d L, .dma cc1_scoped0.sem)

theorem ownSems0_V0 :
    (ownSems0 (thr0 d L) : sProp 𝕄)
      = iprop(semVal (cell3 d L) 0 ∗ semVal (cell4 d L) 0 ∗ semVal (cell6 d L) 0
          ∗ bigSep ((((ownCells (thr0 d L)).erase (cell3 d L)).erase (cell4 d L)).erase (cell6 d L)) fun g => semVal g 0) := by
  unfold SparseCore.Cfg.ownSems0
  rw [SparseCore.bigSep_erase' ((mem_ownCells (g := cell3 d L)).mpr ⟨rfl, by
      show (SemLoc.dma cc1_scratch3.sem : SemLoc sig).isScoped .scVector = true; decide⟩),
    SparseCore.bigSep_erase' (Finset.mem_erase.mpr ⟨by simp [cell3, cell4]; decide, (mem_ownCells (g := cell4 d L)).mpr ⟨rfl, by
      show (SemLoc.dma cc1_scratch4.sem : SemLoc sig).isScoped .scVector = true; decide⟩⟩),
    SparseCore.bigSep_erase' (Finset.mem_erase.mpr ⟨by simp [cell4, cell6]; decide, Finset.mem_erase.mpr ⟨by simp [cell3, cell6]; decide,
      (mem_ownCells (g := cell6 d L)).mpr ⟨rfl, by show (SemLoc.dma cc1_scoped0.sem : SemLoc sig).isScoped .scVector = true; decide⟩⟩⟩)]

/-- The two slabs and the result buffer are among the subcore's own: they are them, at some contents, and the rest. -/
theorem ownBufs_V0 :
    (ownBufs (thr0 d L) : sProp 𝕄)
      = iprop((∃ f, (thr0 d L).loc cc1_scratch0 ↦{fullShare} f) ∗ (∃ f, (thr0 d L).loc cc1_scratch1 ↦{fullShare} f)
          ∗ (∃ f, (thr0 d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ## The arrays as the tile's memrefs address them -/

theorem pts_tt (q : PosShare TreeShare) (f : Buf (Elt F) (ttLoc d)) :
    ((ttM).view.loc (thr0 d L) ↦{q} f : sProp 𝕄) = ttLoc d ↦{q} f := rfl
theorem pts_seg (f : Buf (Elt F) (rsLoc d)) :
    ((seg0M L).view.loc (thr0 d L) ↦[(seg0M L).view.set]{fullShare} f : sProp 𝕄) = rsLoc d ↦[outSeg0 L]{fullShare} f := rfl
theorem pts_s0 (f : Buf (Elt F) ((thr0 d L).loc cc1_scratch0)) :
    ((s0M).view.loc (thr0 d L) ↦{fullShare} f : sProp 𝕄) = (thr0 d L).loc cc1_scratch0 ↦{fullShare} f := rfl
theorem pts_s1 (f : Buf (Elt F) ((thr0 d L).loc cc1_scratch1)) :
    ((s1M).view.loc (thr0 d L) ↦{fullShare} f : sProp 𝕄) = (thr0 d L).loc cc1_scratch1 ↦{fullShare} f := rfl
theorem pts_ob (f : Buf (Elt F) ((thr0 d L).loc cc1_scratch2)) :
    ((obM).view.loc (thr0 d L) ↦{fullShare} f : sProp 𝕄) = (thr0 d L).loc cc1_scratch2 ↦{fullShare} f := rfl

/-! ## The transposed table read by both slabs' copies at once: one read share per slab's cell -/

/-- What is left of the table's share beside the two slabs' read shares. -/
def ttRest (q : PosShare TreeShare) (TT : Buf (Elt F) (ttLoc d)) : sProp 𝕄 :=
  iprop(((ttM).view.loc (thr0 d L) ↦{Transfers.shareDrop q 6} TT)
    ∗ BI.bigSep (Finset.range 4) (fun i => ((ttM).view.loc (thr0 d L) ↦{Transfers.shareTokN q i} TT : sProp 𝕄)))

/-- The table at share `q` is the two slabs' read shares (numbered as their cells) and the rest. -/
theorem tt_toks (q : PosShare TreeShare) (TT : Buf (Elt F) (ttLoc d)) :
    ((ttM).view.loc (thr0 d L) ↦{q} TT : sProp 𝕄)
      ⊣⊢ iprop(((ttM).view.loc (thr0 d L) ↦{Transfers.shareTokN q 4} TT) ∗ ((ttM).view.loc (thr0 d L) ↦{Transfers.shareTokN q 5} TT) ∗ ttRest d L q TT) := by
  have h := Transfers.pointsTo_toks_range (nD := nD) (τ := τ) (sig := sig) (Ix := HIx 2) (Val := Elt F) (Name := ℕ) (U := UU) (Lvl := ℕ)
    (ℓ := (ttM).view.loc (thr0 d L)) (S := Finset.univ) (f := TT) q 6
  have hb : BI.bigSep (Finset.range 6) (fun i => ((ttM).view.loc (thr0 d L) ↦{Transfers.shareTokN q i} TT : sProp 𝕄))
      = iprop(((ttM).view.loc (thr0 d L) ↦{Transfers.shareTokN q 5} TT) ∗ ((ttM).view.loc (thr0 d L) ↦{Transfers.shareTokN q 4} TT)
          ∗ BI.bigSep (Finset.range 4) (fun i => ((ttM).view.loc (thr0 d L) ↦{Transfers.shareTokN q i} TT : sProp 𝕄))) := by
    rw [show (6 : ℕ) = 5 + 1 from rfl, Finset.range_add_one, BI.bigSep_insert Finset.notMem_range_self,
      show (5 : ℕ) = 4 + 1 from rfl, Finset.range_add_one, BI.bigSep_insert Finset.notMem_range_self]
    rfl
  rw [hb] at h
  unfold ttRest
  constructor
  · refine h.1.trans ?_
    iintro ⟨Hd, H5, H4, Hr⟩
    isplitl [H4]; · iexact H4
    isplitl [H5]; · iexact H5
    isplitl [Hd]; · iexact Hd
    iexact Hr
  · refine BIBase.Entails.trans ?_ h.2
    iintro ⟨H4, H5, Hd, Hr⟩
    isplitl [Hd]; · iexact Hd
    isplitl [H5]; · iexact H5
    isplitl [H4]; · iexact H4
    iexact Hr

end Cert.Proof.KB

end
-- ==== Proof.KB.ColSum.lean ====
/-
  The value of the first SparseCore call: entry v of its result is the sum of column v of the transposed table, its 32
  entries added from row 0 to row 31 in that order.
-/
import proofs.«203338_g27195732918861_cont_9to1_1050_16_alg».proof.Proof.KB.Common
import Idealize.ShloMosaic.Lib.ValueIdx

noncomputable section

namespace Cert.Proof.KB

open Cert.Kernel Cert.Kernel.Gen

open Idealize.ShloMosaic Idealize.ShloMosaic.ValueIdx

variable {F : FTy → Type} [FloatOps F]

/-- The sum of 32 numbers added from left to right: ((a 0 + a 1) + a 2) + ⋯ + a 31. -/
def lsum32 (a : Fin 32 → F .f32) : F .f32 :=
  FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (a 0) (a 1)) (a 2)) (a 3)) (a 4)) (a 5)) (a 6)) (a 7)) (a 8)) (a 9)) (a 10)) (a 11)) (a 12)) (a 13)) (a 14)) (a 15)) (a 16)) (a 17)) (a 18)) (a 19)) (a 20)) (a 21)) (a 22)) (a 23)) (a 24)) (a 25)) (a 26)) (a 27)) (a 28)) (a 29)) (a 30)) (a 31)

/-- Column `j` (modulo 1024) of a slab's contents, summed from row 0 to row 31. -/
def slabSum (fsl : S32x1024.Idx → F .f32) (j : ℕ) : F .f32 :=
  lsum32 fun r => fsl (ix2 r (⟨j % 1024, Nat.mod_lt _ (by decide)⟩ : Fin 1024))

/-- Entry `v` of the first call's result as a function of the transposed table: column `v` summed from row 0 to row 31. -/
def tile0Val {d : Dev nD} (TT : Buf (Elt F) (ttLoc d)) : Buf (Elt F) (rsLoc d) :=
  fun v => lsum32 fun r => TT (ix2 r (⟨(v 0).val, Nat.lt_of_lt_of_le (v 0).isLt (show (327680 : ℕ) ≤ 1000000 by decide)⟩ : Fin 1000000))

end Cert.Proof.KB

end
-- ==== Proof.KB.Tile0Val.lean ====
/-
  The values the first SparseCore call's body carries: a slab's column sums, the result buffer patched chunk by chunk,
  and the two facts the run keeps — a slab holds its chunk of the transposed table, the result buffer's first entries are
  the tile's column sums.
-/
import proofs.«203338_g27195732918861_cont_9to1_1050_16_alg».proof.Proof.KB.Tile0Defs
import proofs.«203338_g27195732918861_cont_9to1_1050_16_alg».proof.Proof.KB.ColSum

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI

variable {F : FTy → Type} [FloatOps F]

variable (d : Dev nD) (L : grid1.Coords)

/-- The first column of tile `L`: 10240 times its number 2 (L 1) + (L 0). -/
def base0 (L : grid1.Coords) : ℕ := 20480 * (L 1).val + 10240 * (L 0).val

theorem base0_le (L : grid1.Coords) : base0 L + 10240 ≤ 327680 := by
  have h0 : (L 0).val < 2 := (L 0).isLt
  have h1 : (L 1).val < 16 := (L 1).isLt
  unfold base0; omega

/-- The result buffer's contents `fin` with entries `[a, a + n)` replaced by the slab's first `n` column sums. -/
def patch (fsl : S32x1024.Idx → F .f32) (a n : ℕ) (fin : S10240.Idx → F .f32) : S10240.Idx → F .f32 :=
  fun y => if a ≤ (y 0).val ∧ (y 0).val < a + n then slabSum fsl ((y 0).val - a) else fin y

theorem patch_zero (fsl : S32x1024.Idx → F .f32) (a : ℕ) (fin : S10240.Idx → F .f32) : patch fsl a 0 fin = fin := by
  funext y; unfold patch; rw [if_neg]; omega

/-- The slab holds chunk `c` of tile `L`'s columns of the transposed table. -/
def SlabOK (TT : Buf (Elt F) (ttLoc d)) (c : ℕ) (fsl : S32x1024.Idx → F .f32) : Prop :=
  ∀ (r : Fin 32) (j : Fin 1024) (h : base0 L + 1024 * c + j.val < 1000000), fsl (ix2 r j) = TT (ix2 r ⟨base0 L + 1024 * c + j.val, h⟩)

/-- The result buffer's first `m` entries are the tile's column sums. -/
def OutOK (TT : Buf (Elt F) (ttLoc d)) (m : ℕ) (f : S10240.Idx → F .f32) : Prop :=
  ∀ (y : S10240.Idx) (h : base0 L + (y 0).val < 327680), (y 0).val < m → f y = tile0Val TT (ix1 ⟨base0 L + (y 0).val, h⟩)

theorem outOK_zero (TT : Buf (Elt F) (ttLoc d)) (f : S10240.Idx → F .f32) : OutOK d L TT 0 f :=
  fun _ _ h => absurd h (Nat.not_lt_zero _)

/-- A chunk summed: the result buffer's first 1024 (c + 1) entries are column sums once chunk `c` of it is the slab's. -/
theorem outOK_step (TT : Buf (Elt F) (ttLoc d)) (c : ℕ) (hc : c < 10) (fsl : S32x1024.Idx → F .f32) (fin : S10240.Idx → F .f32)
    (hS : SlabOK d L TT c fsl) (hO : OutOK d L TT (1024 * c) fin) : OutOK d L TT (1024 * (c + 1)) (patch fsl (1024 * c) 1024 fin) := by
  intro y h hy
  have hb := base0_le L
  unfold patch
  by_cases h1 : (y 0).val < 1024 * c
  · rw [if_neg (by omega)]; exact hO y h h1
  · rw [if_pos (by omega)]
    have hj : ((y 0).val - 1024 * c) % 1024 = (y 0).val - 1024 * c := Nat.mod_eq_of_lt (by omega)
    unfold slabSum tile0Val
    congr 1; funext r
    rw [hS r ⟨((y 0).val - 1024 * c) % 1024, Nat.mod_lt _ (by decide)⟩ (by show base0 L + 1024 * c + ((y 0).val - 1024 * c) % 1024 < 1000000; rw [hj]; omega)]
    congr 2
    apply Fin.ext
    show base0 L + 1024 * c + ((y 0).val - 1024 * c) % 1024 = base0 L + (y 0).val
    rw [hj]; omega

/-- One inner trip's four stores: sixty-four more entries of the chunk become the slab's column sums. -/
theorem patch_step (fsl : S32x1024.Idx → F .f32) (a k : ℕ) (fin : S10240.Idx → F .f32)
    (o0 o1 o2 o3 : Fin 1 → ℕ) (h0 : ∀ i, o0 i + S16.size i ≤ S10240.size i) (h1 : ∀ i, o1 i + S16.size i ≤ S10240.size i)
    (h2 : ∀ i, o2 i + S16.size i ≤ S10240.size i) (h3 : ∀ i, o3 i + S16.size i ≤ S10240.size i)
    (w0 w1 w2 w3 : S16.Idx → F .f32)
    (e0 : o0 0 = a + 64 * k) (e1 : o1 0 = a + 64 * k + 16) (e2 : o2 0 = a + 64 * k + 32) (e3 : o3 0 = a + 64 * k + 48)
    (hw0 : ∀ x, w0 x = slabSum fsl (64 * k + (x 0).val)) (hw1 : ∀ x, w1 x = slabSum fsl (64 * k + 16 + (x 0).val))
    (hw2 : ∀ x, w2 x = slabSum fsl (64 * k + 32 + (x 0).val)) (hw3 : ∀ x, w3 x = slabSum fsl (64 * k + 48 + (x 0).val)) :
    (obM).view.writes (Elt F) (patch fsl a (64 * k) fin)
        [⟨Rect.unit (s := S10240) o3 S16.size h3, w3⟩, ⟨Rect.unit (s := S10240) o2 S16.size h2, w2⟩,
          ⟨Rect.unit (s := S10240) o1 S16.size h1, w1⟩, ⟨Rect.unit (s := S10240) o0 S16.size h0, w0⟩]
      = patch fsl a (64 * (k + 1)) fin := by
  funext y
  have hr : ∀ g : S10240.Idx → F .f32, (obM).view.read (Elt F) g = g := fun g => rfl
  refine (congrFun (hr _).symm y).trans ?_
  by_cases hc : a + 64 * k ≤ (y 0).val ∧ (y 0).val < a + 64 * k + 64
  · refine View.read_writes_apply_of_pieces (Val := Elt F) (obM).view _ (patch fsl a (64 * (k + 1)) fin : S10240.Idx → Elt F .f32) _ ?_ y ?_
    · intro p hp x
      simp only [List.mem_cons, List.mem_nil_iff, or_false] at hp
      rcases hp with rfl | rfl | rfl | rfl
      · show w3 x = patch fsl a (64 * (k + 1)) fin ((Rect.unit (s := S10240) o3 S16.size h3).emb x)
        have hx : (x 0).val < 16 := (x 0).isLt
        have he : (((Rect.unit (s := S10240) o3 S16.size h3).emb x) 0).val = o3 0 + (x 0).val := by
          rw [Rect.emb_apply]; simp
        unfold patch
        rw [if_pos (by rw [he, e3]; omega), hw3, he, e3]
        congr 1; omega
      · show w2 x = patch fsl a (64 * (k + 1)) fin ((Rect.unit (s := S10240) o2 S16.size h2).emb x)
        have hx : (x 0).val < 16 := (x 0).isLt
        have he : (((Rect.unit (s := S10240) o2 S16.size h2).emb x) 0).val = o2 0 + (x 0).val := by
          rw [Rect.emb_apply]; simp
        unfold patch
        rw [if_pos (by rw [he, e2]; omega), hw2, he, e2]
        congr 1; omega
      · show w1 x = patch fsl a (64 * (k + 1)) fin ((Rect.unit (s := S10240) o1 S16.size h1).emb x)
        have hx : (x 0).val < 16 := (x 0).isLt
        have he : (((Rect.unit (s := S10240) o1 S16.size h1).emb x) 0).val = o1 0 + (x 0).val := by
          rw [Rect.emb_apply]; simp
        unfold patch
        rw [if_pos (by rw [he, e1]; omega), hw1, he, e1]
        congr 1; omega
      · show w0 x = patch fsl a (64 * (k + 1)) fin ((Rect.unit (s := S10240) o0 S16.size h0).emb x)
        have hx : (x 0).val < 16 := (x 0).isLt
        have he : (((Rect.unit (s := S10240) o0 S16.size h0).emb x) 0).val = o0 0 + (x 0).val := by
          rw [Rect.emb_apply]; simp
        unfold patch
        rw [if_pos (by rw [he, e0]; omega), hw0, he, e0]
        congr 1; omega
    · have hy : (y 0).val - (a + 64 * k) < 64 := by omega
      rcases (show (y 0).val < a + 64 * k + 16 ∨ ((a + 64 * k + 16 ≤ (y 0).val ∧ (y 0).val < a + 64 * k + 32)
          ∨ ((a + 64 * k + 32 ≤ (y 0).val ∧ (y 0).val < a + 64 * k + 48) ∨ a + 64 * k + 48 ≤ (y 0).val)) by omega) with hq | hq | hq | hq
      · exact ⟨⟨Rect.unit (s := S10240) o0 S16.size h0, w0⟩, by simp,
          (Rect.mem_set_unit (inb := h0)).mpr (Fin.forall_fin_one.mpr ⟨by rw [e0]; omega, by rw [e0]; show (y 0).val < a + 64 * k + 16; omega⟩)⟩
      · exact ⟨⟨Rect.unit (s := S10240) o1 S16.size h1, w1⟩, by simp,
          (Rect.mem_set_unit (inb := h1)).mpr (Fin.forall_fin_one.mpr ⟨by rw [e1]; omega, by rw [e1]; show (y 0).val < a + 64 * k + 16 + 16; omega⟩)⟩
      · exact ⟨⟨Rect.unit (s := S10240) o2 S16.size h2, w2⟩, by simp,
          (Rect.mem_set_unit (inb := h2)).mpr (Fin.forall_fin_one.mpr ⟨by rw [e2]; omega, by rw [e2]; show (y 0).val < a + 64 * k + 32 + 16; omega⟩)⟩
      · exact ⟨⟨Rect.unit (s := S10240) o3 S16.size h3, w3⟩, by simp,
          (Rect.mem_set_unit (inb := h3)).mpr (Fin.forall_fin_one.mpr ⟨by rw [e3]; omega, by rw [e3]; show (y 0).val < a + 64 * k + 48 + 16; omega⟩)⟩
  · rw [View.read_writes_apply_of_forall_not_mem]
    · show patch fsl a (64 * k) fin y = patch fsl a (64 * (k + 1)) fin y
      unfold patch
      by_cases h1 : a ≤ (y 0).val ∧ (y 0).val < a + 64 * k
      · rw [if_pos h1, if_pos (by omega)]
      · rw [if_neg h1, if_neg (by omega)]
    · intro p hp
      simp only [List.mem_cons, List.mem_nil_iff, or_false] at hp
      rcases hp with rfl | rfl | rfl | rfl <;>
        (rw [Rect.mem_set_unit]; intro h; first | (have h' : o0 0 ≤ (y 0).val ∧ (y 0).val < o0 0 + 16 := h (0 : Fin 1); omega) | (have h' : o1 0 ≤ (y 0).val ∧ (y 0).val < o1 0 + 16 := h (0 : Fin 1); omega) | (have h' : o2 0 ≤ (y 0).val ∧ (y 0).val < o2 0 + 16 := h (0 : Fin 1); omega) | (have h' : o3 0 ≤ (y 0).val ∧ (y 0).val < o3 0 + 16 := h (0 : Fin 1); omega))

end Cert.Proof.KB

end
-- ==== Proof.KB.ColSumLemmas.lean ====
/-
  The eight stored payloads of the first SparseCore call's inner trips are left-to-right sums of the 32 loaded row pieces:
  each payload is a chain of lane-wise additions of 16-lane vectors, every loaded piece a [1, 16] vector read as 16 lanes,
  so lane `x` of the stored vector is ((p 0 + p 1) + p 2) + ⋯ + p 31 at lane `x`.
-/
import proofs.«203338_g27195732918861_cont_9to1_1050_16_alg».proof.Proof.KB.ColSum
import proofs.«203338_g27195732918861_cont_9to1_1050_16_alg».proof.Proof.Gen.Kernel.Skeleton

noncomputable section

namespace Cert.Proof.KB

open Cert.Kernel Cert.Kernel.Gen

open Idealize.ShloMosaic Idealize.ShloMosaic.ValueIdx

variable {F : FTy → Type} [FloatOps F]

/-! ## The two shape casts and the lane-wise addition at a lane -/

/-- A [1, 16] vector read as 16 lanes: lane `x` is the entry at row 0, column `x`. -/
theorem cast_1x16 {α : Type} (v : S1x16.Idx → α) (h : S1x16.ShapeCasts S16) (x : S16.Idx) :
    shapeCast S16 v h x = v (ix2 0 (x 0)) := by
  unfold shapeCast
  refine congrArg v (Shape.reshapeEquiv_eq_of_rowMajor _ ?_)
  rw [Shape.rowMajor_val_two, Shape.rowMajor_val_one]
  show 0 * 16 + (x 0).val = (x 0).val
  omega

/-- A 16-lane vector cast to its own shape is itself. -/
theorem cast_16 {α : Type} (v : S16.Idx → α) (h : S16.ShapeCasts S16) : shapeCast S16 v h = v := by
  funext x
  unfold shapeCast
  rw [Shape.reshapeEquiv_self]

/-- Lane-wise addition at a lane. -/
theorem addf_at {s : Shape} (a b : FVec F s .f32) (i : s.Idx) : addf a b i = FloatOps.addf (a i) (b i) := rfl

/-! ## The eight chains -/

/-- Slab 0, store 0 of a trip: the stored lanes are the 32 loaded row pieces added from row 0 to row 31. -/
theorem chain2_u0 (p : Fin 32 → Vec F S1x16 .f32) (x : S16.Idx) :
    k1_pay5 (k1_pay4 (k1_pay3 (k1_pay2 (k1_pay1 (p 0) (p 1) (p 2) (p 3) (p 4) (p 5) (p 6)) (p 7) (p 8) (p 9) (p 10) (p 11) (p 12) (p 13)) (p 14) (p 15) (p 16) (p 17) (p 18) (p 19) (p 20) (p 21)) (p 22) (p 23) (p 24) (p 25) (p 26) (p 27) (p 28)) (p 29) (p 30) (p 31) x
      = lsum32 fun r => p r (ix2 0 (x 0)) := by
  simp only [k1_pay1, k1_pay2, k1_pay3, k1_pay4, k1_pay5, cast_16, addf_at, cast_1x16, lsum32]

/-- Slab 0, store 1 of a trip: the stored lanes are the 32 loaded row pieces added from row 0 to row 31. -/
theorem chain2_u1 (p : Fin 32 → Vec F S1x16 .f32) (x : S16.Idx) :
    k1_pay12 (k1_pay10 (k1_pay9 (k1_pay7 (k1_pay6 (p 0) (p 1) (p 2)) (p 3) (p 4) (p 5) (p 6) (p 7) (p 8) (p 9)) (k1_pay8 (p 10)) (p 11) (p 12) (p 13) (p 14) (p 15) (p 16) (p 17)) (p 18) (p 19) (p 20) (p 21) (p 22) (p 23) (p 24)) (k1_pay11 (p 25)) (p 26) (p 27) (p 28) (p 29) (p 30) (p 31) x
      = lsum32 fun r => p r (ix2 0 (x 0)) := by
  simp only [k1_pay6, k1_pay7, k1_pay8, k1_pay9, k1_pay10, k1_pay11, k1_pay12, cast_16, addf_at, cast_1x16, lsum32]

/-- Slab 0, store 2 of a trip: the stored lanes are the 32 loaded row pieces added from row 0 to row 31. -/
theorem chain2_u2 (p : Fin 32 → Vec F S1x16 .f32) (x : S16.Idx) :
    k1_pay17 (k1_pay16 (k1_pay15 (k1_pay14 (k1_pay13 (p 0) (p 1) (p 2) (p 3) (p 4) (p 5) (p 6)) (p 7) (p 8) (p 9) (p 10) (p 11) (p 12) (p 13)) (p 14) (p 15) (p 16) (p 17) (p 18) (p 19) (p 20) (p 21)) (p 22) (p 23) (p 24) (p 25) (p 26) (p 27) (p 28)) (p 29) (p 30) (p 31) x
      = lsum32 fun r => p r (ix2 0 (x 0)) := by
  simp only [k1_pay13, k1_pay14, k1_pay15, k1_pay16, k1_pay17, cast_16, addf_at, cast_1x16, lsum32]

/-- Slab 0, store 3 of a trip: the stored lanes are the 32 loaded row pieces added from row 0 to row 31. -/
theorem chain2_u3 (p : Fin 32 → Vec F S1x16 .f32) (x : S16.Idx) :
    k1_pay45 (k1_pay22 (k1_pay21 (k1_pay20 (k1_pay19 (k1_pay18 (p 0) (p 1) (p 2)) (p 3) (p 4) (p 5) (p 6) (p 7) (p 8) (p 9) (p 10)) (p 11) (p 12) (p 13) (p 14) (p 15) (p 16) (p 17)) (p 18) (p 19) (p 20) (p 21) (p 22) (p 23) (p 24) (p 25)) (p 26) (p 27) (p 28) (p 29) (p 30)) (p 31) x
      = lsum32 fun r => p r (ix2 0 (x 0)) := by
  simp only [k1_pay18, k1_pay19, k1_pay20, k1_pay21, k1_pay22, k1_pay45, cast_16, addf_at, cast_1x16, lsum32]

/-- Slab 1, store 0 of a trip: the stored lanes are the 32 loaded row pieces added from row 0 to row 31. -/
theorem chain3_u0 (p : Fin 32 → Vec F S1x16 .f32) (x : S16.Idx) :
    k1_pay27 (k1_pay26 (k1_pay25 (k1_pay24 (k1_pay23 (p 0) (p 1) (p 2) (p 3) (p 4) (p 5) (p 6)) (p 7) (p 8) (p 9) (p 10) (p 11) (p 12) (p 13)) (p 14) (p 15) (p 16) (p 17) (p 18) (p 19) (p 20) (p 21)) (p 22) (p 23) (p 24) (p 25) (p 26) (p 27) (p 28)) (p 29) (p 30) (p 31) x
      = lsum32 fun r => p r (ix2 0 (x 0)) := by
  simp only [k1_pay23, k1_pay24, k1_pay25, k1_pay26, k1_pay27, cast_16, addf_at, cast_1x16, lsum32]

/-- Slab 1, store 1 of a trip: the stored lanes are the 32 loaded row pieces added from row 0 to row 31. -/
theorem chain3_u1 (p : Fin 32 → Vec F S1x16 .f32) (x : S16.Idx) :
    k1_pay34 (k1_pay32 (k1_pay31 (k1_pay29 (k1_pay28 (p 0) (p 1) (p 2)) (p 3) (p 4) (p 5) (p 6) (p 7) (p 8) (p 9)) (k1_pay30 (p 10)) (p 11) (p 12) (p 13) (p 14) (p 15) (p 16) (p 17)) (p 18) (p 19) (p 20) (p 21) (p 22) (p 23) (p 24)) (k1_pay33 (p 25)) (p 26) (p 27) (p 28) (p 29) (p 30) (p 31) x
      = lsum32 fun r => p r (ix2 0 (x 0)) := by
  simp only [k1_pay28, k1_pay29, k1_pay30, k1_pay31, k1_pay32, k1_pay33, k1_pay34, cast_16, addf_at, cast_1x16, lsum32]

/-- Slab 1, store 2 of a trip: the stored lanes are the 32 loaded row pieces added from row 0 to row 31. -/
theorem chain3_u2 (p : Fin 32 → Vec F S1x16 .f32) (x : S16.Idx) :
    k1_pay39 (k1_pay38 (k1_pay37 (k1_pay36 (k1_pay35 (p 0) (p 1) (p 2) (p 3) (p 4) (p 5) (p 6)) (p 7) (p 8) (p 9) (p 10) (p 11) (p 12) (p 13)) (p 14) (p 15) (p 16) (p 17) (p 18) (p 19) (p 20) (p 21)) (p 22) (p 23) (p 24) (p 25) (p 26) (p 27) (p 28)) (p 29) (p 30) (p 31) x
      = lsum32 fun r => p r (ix2 0 (x 0)) := by
  simp only [k1_pay35, k1_pay36, k1_pay37, k1_pay38, k1_pay39, cast_16, addf_at, cast_1x16, lsum32]

/-- Slab 1, store 3 of a trip: the stored lanes are the 32 loaded row pieces added from row 0 to row 31. -/
theorem chain3_u3 (p : Fin 32 → Vec F S1x16 .f32) (x : S16.Idx) :
    k1_pay46 (k1_pay44 (k1_pay43 (k1_pay42 (k1_pay41 (k1_pay40 (p 0) (p 1) (p 2)) (p 3) (p 4) (p 5) (p 6) (p 7) (p 8) (p 9) (p 10)) (p 11) (p 12) (p 13) (p 14) (p 15) (p 16) (p 17)) (p 18) (p 19) (p 20) (p 21) (p 22) (p 23) (p 24) (p 25)) (p 26) (p 27) (p 28) (p 29) (p 30)) (p 31) x
      = lsum32 fun r => p r (ix2 0 (x 0)) := by
  simp only [k1_pay40, k1_pay41, k1_pay42, k1_pay43, k1_pay44, k1_pay46, cast_16, addf_at, cast_1x16, lsum32]

/-! ## A loaded piece read through the slab -/

/-- A [1, 16] piece loaded from slab 0 at row `r`, column `c`: lane `l` is the slab's entry at row `r`, column `c + l`. -/
theorem readAt_row0 (off : Fin 2 → ℕ) (h : ∀ a, off a + S1x16.size a ≤ S32x1024.size a)
    (f : (Memref.whole cc1_scratch0 : Memref sig .scVector .vmem S32x1024 .f32).view.ty.Contents (Elt F))
    (r : Fin 32) (c : ℕ) (hc : c + 16 ≤ 1024) (e : off = ![r.val, c]) (l : Fin 16) :
    (Memref.whole cc1_scratch0 : Memref sig .scVector .vmem S32x1024 .f32).view.readAt (Elt F)
        (Rect.unit (s := S32x1024) off S1x16.size h).toLoadRect f (ix2 0 l)
      = f (ix2 r ⟨c + l.val, by have := l.isLt; omega⟩) := by
  subst e
  show f ((Rect.unit (s := S32x1024) ![r.val, c] S1x16.size h).toLoadRect.idx (ix2 0 l)) = _
  refine congrArg f (funext fun a => Fin.ext ?_)
  match a with
  | ⟨0, _⟩ => show r.val + 1 * 0 = r.val; omega
  | ⟨1, _⟩ => show c + 1 * l.val = c + l.val; omega

/-- A [1, 16] piece loaded from slab 1 at row `r`, column `c`: lane `l` is the slab's entry at row `r`, column `c + l`. -/
theorem readAt_row1 (off : Fin 2 → ℕ) (h : ∀ a, off a + S1x16.size a ≤ S32x1024.size a)
    (f : (Memref.whole cc1_scratch1 : Memref sig .scVector .vmem S32x1024 .f32).view.ty.Contents (Elt F))
    (r : Fin 32) (c : ℕ) (hc : c + 16 ≤ 1024) (e : off = ![r.val, c]) (l : Fin 16) :
    (Memref.whole cc1_scratch1 : Memref sig .scVector .vmem S32x1024 .f32).view.readAt (Elt F)
        (Rect.unit (s := S32x1024) off S1x16.size h).toLoadRect f (ix2 0 l)
      = f (ix2 r ⟨c + l.val, by have := l.isLt; omega⟩) := by
  subst e
  show f ((Rect.unit (s := S32x1024) ![r.val, c] S1x16.size h).toLoadRect.idx (ix2 0 l)) = _
  refine congrArg f (funext fun a => Fin.ext ?_)
  match a with
  | ⟨0, _⟩ => show r.val + 1 * 0 = r.val; omega
  | ⟨1, _⟩ => show c + 1 * l.val = c + l.val; omega

/-! ## The payloads over the loads of a trip

A trip of the inner loop loads, for each of its four stores, the 32 row pieces of one 16-column group of the slab;
the stored vector's lane `x` is then the column sum of the slab at that column. -/

/-- Thirty-two pieces that are the rows of one 16-column group of a slab, starting at column `j`: their left-to-right sum
    at lane `x` is the slab's column sum at column `j + x`. -/
theorem lsum32_loads (f : S32x1024.Idx → F .f32) (ld : Fin 32 → Vec F S1x16 .f32) (j : ℕ) (hj : j + 16 ≤ 1024)
    (H : ∀ (r : Fin 32) (l : Fin 16), ld r (ix2 0 l) = f (ix2 r ⟨j + l.val, by have := l.isLt; omega⟩)) (x : S16.Idx) :
    (lsum32 fun r => ld r (ix2 0 (x 0))) = slabSum f (j + (x 0).val) := by
  unfold slabSum
  congr 1
  funext r
  rw [H r (x 0)]
  refine congrArg f (congrArg (ix2 r) (Fin.ext ?_))
  have hx : (x 0).val < 16 := (x 0).isLt
  show j + (x 0).val = (j + (x 0).val) % 1024
  rw [Nat.mod_eq_of_lt (by omega)]

/-- Slab 0, store 0 of trip `k`: lane `x` of the stored vector is the slab's column sum at column `64 k + 0 + x`. -/
theorem pay2_u0 (f : (Memref.whole cc1_scratch0 : Memref sig .scVector .vmem S32x1024 .f32).view.ty.Contents (Elt F))
    (k : Fin k1_t2_loop.trips) (x : S16.Idx) :
    k1_pay5 (k1_pay4 (k1_pay3 (k1_pay2 (k1_pay1 ((Memref.whole cc1_scratch0 : Memref sig .scVector .vmem S32x1024 .f32).view.readAt (Elt F) (Rect.unit (s := S32x1024) (k1_off9 k 0#32) S1x16.size (k1_off9_inb k 0)).toLoadRect f) ((Memref.whole cc1_scratch0 : Memref sig .scVector .vmem S32x1024 .f32).view.readAt (Elt F) (Rect.unit (s := S32x1024) (k1_off10 k 0#32) S1x16.size (k1_off10_inb k 0)).toLoadRect f) ((Memref.whole cc1_scratch0 : Memref sig .scVector .vmem S32x1024 .f32).view.readAt (Elt F) (Rect.unit (s := S32x1024) (k1_off11 k 0#32) S1x16.size (k1_off11_inb k 0)).toLoadRect f) ((Memref.whole cc1_scratch0 : Memref sig .scVector .vmem S32x1024 .f32).view.readAt (Elt F) (Rect.unit (s := S32x1024) (k1_off12 k 0#32) S1x16.size (k1_off12_inb k 0)).toLoadRect f) ((Memref.whole cc1_scratch0 : Memref sig .scVector .vmem S32x1024 .f32).view.readAt (Elt F) (Rect.unit (s := S32x1024) (k1_off13 k 0#32) S1x16.size (k1_off13_inb k 0)).toLoadRect f) ((Memref.whole cc1_scratch0 : Memref sig .scVector .vmem S32x1024 .f32).view.readAt (Elt F) (Rect.unit (s := S32x1024) (k1_off14 k 0#32) S1x16.size (k1_off14_inb k 0)).toLoadRect f) ((Memref.whole cc1_scratch0 : Memref sig .scVector .vmem S32x1024 .f32).view.readAt (Elt F) (Rect.unit (s := S32x1024) (k1_off15 k 0#32) S1x16.size (k1_off15_inb k 0)).toLoadRect f)) ((Memref.whole cc1_scratch0 : Memref sig .scVector .vmem S32x1024 .f32).view.readAt (Elt F) (Rect.unit (s := S32x1024) (k1_off16 k 0#32) S1x16.size (k1_off16_inb k 0)).toLoadRect f) ((Memref.whole cc1_scratch0 : Memref sig .scVector .vmem S32x1024 .f32).view.readAt (Elt F) (Rect.unit (s := S32x1024) (k1_off17 k 0#32) S1x16.size (k1_off17_inb k 0)).toLoadRect f) ((Memref.whole cc1_scratch0 : Memref sig .scVector .vmem S32x1024 .f32).view.readAt (Elt F) (Rect.unit (s := S32x1024) (k1_off18 k 0#32) S1x16.size (k1_off18_inb k 0)).toLoadRect f) ((Memref.whole cc1_scratch0 : Memref sig .scVector .vmem S32x1024 .f32).view.readAt (Elt F) (Rect.unit (s := S32x1024) (k1_off19 k 0#32) S1x16.size (k1_off19_inb k 0)).toLoadRect f) ((Memref.whole cc1_scratch0 : Memref sig .scVector .vmem S32x1024 .f32).view.readAt (Elt F) (Rect.unit (s := S32x1024) (k1_off20 k 0#32) S1x16.size (k1_off20_inb k 0)).toLoadRect f) ((Memref.whole cc1_scratch0 : Memref sig .scVector .vmem S32x1024 .f32).view.readAt (Elt F) (Rect.unit (s := S32x1024) (k1_off21 k 0#32) S1x16.size (k1_off21_inb k 0)).toLoadRect f) ((Memref.whole cc1_scratch0 : Memref sig .scVector .vmem S32x1024 .f32).view.readAt (Elt F) (Rect.unit (s := S32x1024) (k1_off22 k 0#32) S1x16.size (k1_off22_inb k 0)).toLoadRect f)) ((Memref.whole cc1_scratch0 : Memref sig .scVector .vmem S32x1024 .f32).view.readAt (Elt F) (Rect.unit (s := S32x1024) (k1_off23 k 0#32) S1x16.size (k1_off23_inb k 0)).toLoadRect f) ((Memref.whole cc1_scratch0 : Memref sig .scVector .vmem S32x1024 .f32).view.readAt (Elt F) (Rect.unit (s := S32x1024) (k1_off24 k 0#32) S1x16.size (k1_off24_inb k 0)).toLoadRect f) ((Memref.whole cc1_scratch0 : Memref sig .scVector .vmem S32x1024 .f32).view.readAt (Elt F) (Rect.unit (s := S32x1024) (k1_off25 k 0#32) S1x16.size (k1_off25_inb k 0)).toLoadRect f) ((Memref.whole cc1_scratch0 : Memref sig .scVector .vmem S32x1024 .f32).view.readAt (Elt F) (Rect.unit (s := S32x1024) (k1_off26 k 0#32) S1x16.size (k1_off26_inb k 0)).toLoadRect f) ((Memref.whole cc1_scratch0 : Memref sig .scVector .vmem S32x1024 .f32).view.readAt (Elt F) (Rect.unit (s := S32x1024) (k1_off27 k 0#32) S1x16.size (k1_off27_inb k 0)).toLoadRect f) ((Memref.whole cc1_scratch0 : Memref sig .scVector .vmem S32x1024 .f32).view.readAt (Elt F) (Rect.unit (s := S32x1024) (k1_off28 k 0#32) S1x16.size (k1_off28_inb k 0)).toLoadRect f) ((Memref.whole cc1_scratch0 : Memref sig .scVector .vmem S32x1024 .f32).view.readAt (Elt F) (Rect.unit (s := S32x1024) (k1_off29 k 0#32) S1x16.size (k1_off29_inb k 0)).toLoadRect f) ((Memref.whole cc1_scratch0 : Memref sig .scVector .vmem S32x1024 .f32).view.readAt (Elt F) (Rect.unit (s := S32x1024) (k1_off30 k 0#32) S1x16.size (k1_off30_inb k 0)).toLoadRect f)) ((Memref.whole cc1_scratch0 : Memref sig .scVector .vmem S32x1024 .f32).view.readAt (Elt F) (Rect.unit (s := S32x1024) (k1_off31 k 0#32) S1x16.size (k1_off31_inb k 0)).toLoadRect f) ((Memref.whole cc1_scratch0 : Memref sig .scVector .vmem S32x1024 .f32).view.readAt (Elt F) (Rect.unit (s := S32x1024) (k1_off32 k 0#32) S1x16.size (k1_off32_inb k 0)).toLoadRect f) ((Memref.whole cc1_scratch0 : Memref sig .scVector .vmem S32x1024 .f32).view.readAt (Elt F) (Rect.unit (s := S32x1024) (k1_off33 k 0#32) S1x16.size (k1_off33_inb k 0)).toLoadRect f) ((Memref.whole cc1_scratch0 : Memref sig .scVector .vmem S32x1024 .f32).view.readAt (Elt F) (Rect.unit (s := S32x1024) (k1_off34 k 0#32) S1x16.size (k1_off34_inb k 0)).toLoadRect f) ((Memref.whole cc1_scratch0 : Memref sig .scVector .vmem S32x1024 .f32).view.readAt (Elt F) (Rect.unit (s := S32x1024) (k1_off35 k 0#32) S1x16.size (k1_off35_inb k 0)).toLoadRect f) ((Memref.whole cc1_scratch0 : Memref sig .scVector .vmem S32x1024 .f32).view.readAt (Elt F) (Rect.unit (s := S32x1024) (k1_off36 k 0#32) S1x16.size (k1_off36_inb k 0)).toLoadRect f) ((Memref.whole cc1_scratch0 : Memref sig .scVector .vmem S32x1024 .f32).view.readAt (Elt F) (Rect.unit (s := S32x1024) (k1_off37 k 0#32) S1x16.size (k1_off37_inb k 0)).toLoadRect f)) ((Memref.whole cc1_scratch0 : Memref sig .scVector .vmem S32x1024 .f32).view.readAt (Elt F) (Rect.unit (s := S32x1024) (k1_off38 k 0#32) S1x16.size (k1_off38_inb k 0)).toLoadRect f) ((Memref.whole cc1_scratch0 : Memref sig .scVector .vmem S32x1024 .f32).view.readAt (Elt F) (Rect.unit (s := S32x1024) (k1_off39 k 0#32) S1x16.size (k1_off39_inb k 0)).toLoadRect f) ((Memref.whole cc1_scratch0 : Memref sig .scVector .vmem S32x1024 .f32).view.readAt (Elt F) (Rect.unit (s := S32x1024) (k1_off40 k 0#32) S1x16.size (k1_off40_inb k 0)).toLoadRect f) x
      = slabSum f (64 * k.val + (x 0).val) := by
  have hk : k.val < 16 := Nat.lt_of_lt_of_le k.isLt k1_t2_abs.2.1
  refine (chain2_u0 ![((Memref.whole cc1_scratch0 : Memref sig .scVector .vmem S32x1024 .f32).view.readAt (Elt F) (Rect.unit (s := S32x1024) (k1_off9 k 0#32) S1x16.size (k1_off9_inb k 0)).toLoadRect f),
      ((Memref.whole cc1_scratch0 : Memref sig .scVector .vmem S32x1024 .f32).view.readAt (Elt F) (Rect.unit (s := S32x1024) (k1_off10 k 0#32) S1x16.size (k1_off10_inb k 0)).toLoadRect f),
      ((Memref.whole cc1_scratch0 : Memref sig .scVector .vmem S32x1024 .f32).view.readAt (Elt F) (Rect.unit (s := S32x1024) (k1_off11 k 0#32) S1x16.size (k1_off11_inb k 0)).toLoadRect f),
      ((Memref.whole cc1_scratch0 : Memref sig .scVector .vmem S32x1024 .f32).view.readAt (Elt F) (Rect.unit (s := S32x1024) (k1_off12 k 0#32) S1x16.size (k1_off12_inb k 0)).toLoadRect f),
      ((Memref.whole cc1_scratch0 : Memref sig .scVector .vmem S32x1024 .f32).view.readAt (Elt F) (Rect.unit (s := S32x1024) (k1_off13 k 0#32) S1x16.size (k1_off13_inb k 0)).toLoadRect f),
      ((Memref.whole cc1_scratch0 : Memref sig .scVector .vmem S32x1024 .f32).view.readAt (Elt F) (Rect.unit (s := S32x1024) (k1_off14 k 0#32) S1x16.size (k1_off14_inb k 0)).toLoadRect f),
      ((Memref.whole cc1_scratch0 : Memref sig .scVector .vmem S32x1024 .f32).view.readAt (Elt F) (Rect.unit (s := S32x1024) (k1_off15 k 0#32) S1x16.size (k1_off15_inb k 0)).toLoadRect f),
      ((Memref.whole cc1_scratch0 : Memref sig .scVector .vmem S32x1024 .f32).view.readAt (Elt F) (Rect.unit (s := S32x1024) (k1_off16 k 0#32) S1x16.size (k1_off16_inb k 0)).toLoadRect f),
      ((Memref.whole cc1_scratch0 : Memref sig .scVector .vmem S32x1024 .f32).view.readAt (Elt F) (Rect.unit (s := S32x1024) (k1_off17 k 0#32) S1x16.size (k1_off17_inb k 0)).toLoadRect f),
      ((Memref.whole cc1_scratch0 : Memref sig .scVector .vmem S32x1024 .f32).view.readAt (Elt F) (Rect.unit (s := S32x1024) (k1_off18 k 0#32) S1x16.size (k1_off18_inb k 0)).toLoadRect f),
      ((Memref.whole cc1_scratch0 : Memref sig .scVector .vmem S32x1024 .f32).view.readAt (Elt F) (Rect.unit (s := S32x1024) (k1_off19 k 0#32) S1x16.size (k1_off19_inb k 0)).toLoadRect f),
      ((Memref.whole cc1_scratch0 : Memref sig .scVector .vmem S32x1024 .f32).view.readAt (Elt F) (Rect.unit (s := S32x1024) (k1_off20 k 0#32) S1x16.size (k1_off20_inb k 0)).toLoadRect f),
      ((Memref.whole cc1_scratch0 : Memref sig .scVector .vmem S32x1024 .f32).view.readAt (Elt F) (Rect.unit (s := S32x1024) (k1_off21 k 0#32) S1x16.size (k1_off21_inb k 0)).toLoadRect f),
      ((Memref.whole cc1_scratch0 : Memref sig .scVector .vmem S32x1024 .f32).view.readAt (Elt F) (Rect.unit (s := S32x1024) (k1_off22 k 0#32) S1x16.size (k1_off22_inb k 0)).toLoadRect f),
      ((Memref.whole cc1_scratch0 : Memref sig .scVector .vmem S32x1024 .f32).view.readAt (Elt F) (Rect.unit (s := S32x1024) (k1_off23 k 0#32) S1x16.size (k1_off23_inb k 0)).toLoadRect f),
      ((Memref.whole cc1_scratch0 : Memref sig .scVector .vmem S32x1024 .f32).view.readAt (Elt F) (Rect.unit (s := S32x1024) (k1_off24 k 0#32) S1x16.size (k1_off24_inb k 0)).toLoadRect f),
      ((Memref.whole cc1_scratch0 : Memref sig .scVector .vmem S32x1024 .f32).view.readAt (Elt F) (Rect.unit (s := S32x1024) (k1_off25 k 0#32) S1x16.size (k1_off25_inb k 0)).toLoadRect f),
      ((Memref.whole cc1_scratch0 : Memref sig .scVector .vmem S32x1024 .f32).view.readAt (Elt F) (Rect.unit (s := S32x1024) (k1_off26 k 0#32) S1x16.size (k1_off26_inb k 0)).toLoadRect f),
      ((Memref.whole cc1_scratch0 : Memref sig .scVector .vmem S32x1024 .f32).view.readAt (Elt F) (Rect.unit (s := S32x1024) (k1_off27 k 0#32) S1x16.size (k1_off27_inb k 0)).toLoadRect f),
      ((Memref.whole cc1_scratch0 : Memref sig .scVector .vmem S32x1024 .f32).view.readAt (Elt F) (Rect.unit (s := S32x1024) (k1_off28 k 0#32) S1x16.size (k1_off28_inb k 0)).toLoadRect f),
      ((Memref.whole cc1_scratch0 : Memref sig .scVector .vmem S32x1024 .f32).view.readAt (Elt F) (Rect.unit (s := S32x1024) (k1_off29 k 0#32) S1x16.size (k1_off29_inb k 0)).toLoadRect f),
      ((Memref.whole cc1_scratch0 : Memref sig .scVector .vmem S32x1024 .f32).view.readAt (Elt F) (Rect.unit (s := S32x1024) (k1_off30 k 0#32) S1x16.size (k1_off30_inb k 0)).toLoadRect f),
      ((Memref.whole cc1_scratch0 : Memref sig .scVector .vmem S32x1024 .f32).view.readAt (Elt F) (Rect.unit (s := S32x1024) (k1_off31 k 0#32) S1x16.size (k1_off31_inb k 0)).toLoadRect f),
      ((Memref.whole cc1_scratch0 : Memref sig .scVector .vmem S32x1024 .f32).view.readAt (Elt F) (Rect.unit (s := S32x1024) (k1_off32 k 0#32) S1x16.size (k1_off32_inb k 0)).toLoadRect f),
      ((Memref.whole cc1_scratch0 : Memref sig .scVector .vmem S32x1024 .f32).view.readAt (Elt F) (Rect.unit (s := S32x1024) (k1_off33 k 0#32) S1x16.size (k1_off33_inb k 0)).toLoadRect f),
      ((Memref.whole cc1_scratch0 : Memref sig .scVector .vmem S32x1024 .f32).view.readAt (Elt F) (Rect.unit (s := S32x1024) (k1_off34 k 0#32) S1x16.size (k1_off34_inb k 0)).toLoadRect f),
      ((Memref.whole cc1_scratch0 : Memref sig .scVector .vmem S32x1024 .f32).view.readAt (Elt F) (Rect.unit (s := S32x1024) (k1_off35 k 0#32) S1x16.size (k1_off35_inb k 0)).toLoadRect f),
      ((Memref.whole cc1_scratch0 : Memref sig .scVector .vmem S32x1024 .f32).view.readAt (Elt F) (Rect.unit (s := S32x1024) (k1_off36 k 0#32) S1x16.size (k1_off36_inb k 0)).toLoadRect f),
      ((Memref.whole cc1_scratch0 : Memref sig .scVector .vmem S32x1024 .f32).view.readAt (Elt F) (Rect.unit (s := S32x1024) (k1_off37 k 0#32) S1x16.size (k1_off37_inb k 0)).toLoadRect f),
      ((Memref.whole cc1_scratch0 : Memref sig .scVector .vmem S32x1024 .f32).view.readAt (Elt F) (Rect.unit (s := S32x1024) (k1_off38 k 0#32) S1x16.size (k1_off38_inb k 0)).toLoadRect f),
      ((Memref.whole cc1_scratch0 : Memref sig .scVector .vmem S32x1024 .f32).view.readAt (Elt F) (Rect.unit (s := S32x1024) (k1_off39 k 0#32) S1x16.size (k1_off39_inb k 0)).toLoadRect f),
      ((Memref.whole cc1_scratch0 : Memref sig .scVector .vmem S32x1024 .f32).view.readAt (Elt F) (Rect.unit (s := S32x1024) (k1_off40 k 0#32) S1x16.size (k1_off40_inb k 0)).toLoadRect f)] x).trans ?_
  refine lsum32_loads f _ (64 * k.val) (by omega) (fun r l => ?_) x
  fin_cases r
  · exact readAt_row0 _ _ f 0 (64 * k.val) (by omega) (k1_off9_eq k ⟨0, by decide⟩) l
  · exact readAt_row0 _ _ f 1 (64 * k.val) (by omega) (k1_off10_eq k ⟨0, by decide⟩) l
  · exact readAt_row0 _ _ f 2 (64 * k.val) (by omega) (k1_off11_eq k ⟨0, by decide⟩) l
  · exact readAt_row0 _ _ f 3 (64 * k.val) (by omega) (k1_off12_eq k ⟨0, by decide⟩) l
  · exact readAt_row0 _ _ f 4 (64 * k.val) (by omega) (k1_off13_eq k ⟨0, by decide⟩) l
  · exact readAt_row0 _ _ f 5 (64 * k.val) (by omega) (k1_off14_eq k ⟨0, by decide⟩) l
  · exact readAt_row0 _ _ f 6 (64 * k.val) (by omega) (k1_off15_eq k ⟨0, by decide⟩) l
  · exact readAt_row0 _ _ f 7 (64 * k.val) (by omega) (k1_off16_eq k ⟨0, by decide⟩) l
  · exact readAt_row0 _ _ f 8 (64 * k.val) (by omega) (k1_off17_eq k ⟨0, by decide⟩) l
  · exact readAt_row0 _ _ f 9 (64 * k.val) (by omega) (k1_off18_eq k ⟨0, by decide⟩) l
  · exact readAt_row0 _ _ f 10 (64 * k.val) (by omega) (k1_off19_eq k ⟨0, by decide⟩) l
  · exact readAt_row0 _ _ f 11 (64 * k.val) (by omega) (k1_off20_eq k ⟨0, by decide⟩) l
  · exact readAt_row0 _ _ f 12 (64 * k.val) (by omega) (k1_off21_eq k ⟨0, by decide⟩) l
  · exact readAt_row0 _ _ f 13 (64 * k.val) (by omega) (k1_off22_eq k ⟨0, by decide⟩) l
  · exact readAt_row0 _ _ f 14 (64 * k.val) (by omega) (k1_off23_eq k ⟨0, by decide⟩) l
  · exact readAt_row0 _ _ f 15 (64 * k.val) (by omega) (k1_off24_eq k ⟨0, by decide⟩) l
  · exact readAt_row0 _ _ f 16 (64 * k.val) (by omega) (k1_off25_eq k ⟨0, by decide⟩) l
  · exact readAt_row0 _ _ f 17 (64 * k.val) (by omega) (k1_off26_eq k ⟨0, by decide⟩) l
  · exact readAt_row0 _ _ f 18 (64 * k.val) (by omega) (k1_off27_eq k ⟨0, by decide⟩) l
  · exact readAt_row0 _ _ f 19 (64 * k.val) (by omega) (k1_off28_eq k ⟨0, by decide⟩) l
  · exact readAt_row0 _ _ f 20 (64 * k.val) (by omega) (k1_off29_eq k ⟨0, by decide⟩) l
  · exact readAt_row0 _ _ f 21 (64 * k.val) (by omega) (k1_off30_eq k ⟨0, by decide⟩) l
  · exact readAt_row0 _ _ f 22 (64 * k.val) (by omega) (k1_off31_eq k ⟨0, by decide⟩) l
  · exact readAt_row0 _ _ f 23 (64 * k.val) (by omega) (k1_off32_eq k ⟨0, by decide⟩) l
  · exact readAt_row0 _ _ f 24 (64 * k.val) (by omega) (k1_off33_eq k ⟨0, by decide⟩) l
  · exact readAt_row0 _ _ f 25 (64 * k.val) (by omega) (k1_off34_eq k ⟨0, by decide⟩) l
  · exact readAt_row0 _ _ f 26 (64 * k.val) (by omega) (k1_off35_eq k ⟨0, by decide⟩) l
  · exact readAt_row0 _ _ f 27 (64 * k.val) (by omega) (k1_off36_eq k ⟨0, by decide⟩) l
  · exact readAt_row0 _ _ f 28 (64 * k.val) (by omega) (k1_off37_eq k ⟨0, by decide⟩) l
  · exact readAt_row0 _ _ f 29 (64 * k.val) (by omega) (k1_off38_eq k ⟨0, by decide⟩) l
  · exact readAt_row0 _ _ f 30 (64 * k.val) (by omega) (k1_off39_eq k ⟨0, by decide⟩) l
  · exact readAt_row0 _ _ f 31 (64 * k.val) (by omega) (k1_off40_eq k ⟨0, by decide⟩) l

/-- Slab 0, store 1 of trip `k`: lane `x` of the stored vector is the slab's column sum at column `64 k + 16 + x`. -/
theorem pay2_u1 (f : (Memref.whole cc1_scratch0 : Memref sig .scVector .vmem S32x1024 .f32).view.ty.Contents (Elt F))
    (k : Fin k1_t2_loop.trips) (x : S16.Idx) :
    k1_pay12 (k1_pay10 (k1_pay9 (k1_pay7 (k1_pay6 ((Memref.whole cc1_scratch0 : Memref sig .scVector .vmem S32x1024 .f32).view.readAt (Elt F) (Rect.unit (s := S32x1024) (k1_off9 k 1#32) S1x16.size (k1_off9_inb k 1)).toLoadRect f) ((Memref.whole cc1_scratch0 : Memref sig .scVector .vmem S32x1024 .f32).view.readAt (Elt F) (Rect.unit (s := S32x1024) (k1_off10 k 1#32) S1x16.size (k1_off10_inb k 1)).toLoadRect f) ((Memref.whole cc1_scratch0 : Memref sig .scVector .vmem S32x1024 .f32).view.readAt (Elt F) (Rect.unit (s := S32x1024) (k1_off11 k 1#32) S1x16.size (k1_off11_inb k 1)).toLoadRect f)) ((Memref.whole cc1_scratch0 : Memref sig .scVector .vmem S32x1024 .f32).view.readAt (Elt F) (Rect.unit (s := S32x1024) (k1_off12 k 1#32) S1x16.size (k1_off12_inb k 1)).toLoadRect f) ((Memref.whole cc1_scratch0 : Memref sig .scVector .vmem S32x1024 .f32).view.readAt (Elt F) (Rect.unit (s := S32x1024) (k1_off13 k 1#32) S1x16.size (k1_off13_inb k 1)).toLoadRect f) ((Memref.whole cc1_scratch0 : Memref sig .scVector .vmem S32x1024 .f32).view.readAt (Elt F) (Rect.unit (s := S32x1024) (k1_off14 k 1#32) S1x16.size (k1_off14_inb k 1)).toLoadRect f) ((Memref.whole cc1_scratch0 : Memref sig .scVector .vmem S32x1024 .f32).view.readAt (Elt F) (Rect.unit (s := S32x1024) (k1_off15 k 1#32) S1x16.size (k1_off15_inb k 1)).toLoadRect f) ((Memref.whole cc1_scratch0 : Memref sig .scVector .vmem S32x1024 .f32).view.readAt (Elt F) (Rect.unit (s := S32x1024) (k1_off16 k 1#32) S1x16.size (k1_off16_inb k 1)).toLoadRect f) ((Memref.whole cc1_scratch0 : Memref sig .scVector .vmem S32x1024 .f32).view.readAt (Elt F) (Rect.unit (s := S32x1024) (k1_off17 k 1#32) S1x16.size (k1_off17_inb k 1)).toLoadRect f) ((Memref.whole cc1_scratch0 : Memref sig .scVector .vmem S32x1024 .f32).view.readAt (Elt F) (Rect.unit (s := S32x1024) (k1_off18 k 1#32) S1x16.size (k1_off18_inb k 1)).toLoadRect f)) (k1_pay8 ((Memref.whole cc1_scratch0 : Memref sig .scVector .vmem S32x1024 .f32).view.readAt (Elt F) (Rect.unit (s := S32x1024) (k1_off19 k 1#32) S1x16.size (k1_off19_inb k 1)).toLoadRect f)) ((Memref.whole cc1_scratch0 : Memref sig .scVector .vmem S32x1024 .f32).view.readAt (Elt F) (Rect.unit (s := S32x1024) (k1_off20 k 1#32) S1x16.size (k1_off20_inb k 1)).toLoadRect f) ((Memref.whole cc1_scratch0 : Memref sig .scVector .vmem S32x1024 .f32).view.readAt (Elt F) (Rect.unit (s := S32x1024) (k1_off21 k 1#32) S1x16.size (k1_off21_inb k 1)).toLoadRect f) ((Memref.whole cc1_scratch0 : Memref sig .scVector .vmem S32x1024 .f32).view.readAt (Elt F) (Rect.unit (s := S32x1024) (k1_off22 k 1#32) S1x16.size (k1_off22_inb k 1)).toLoadRect f) ((Memref.whole cc1_scratch0 : Memref sig .scVector .vmem S32x1024 .f32).view.readAt (Elt F) (Rect.unit (s := S32x1024) (k1_off23 k 1#32) S1x16.size (k1_off23_inb k 1)).toLoadRect f) ((Memref.whole cc1_scratch0 : Memref sig .scVector .vmem S32x1024 .f32).view.readAt (Elt F) (Rect.unit (s := S32x1024) (k1_off24 k 1#32) S1x16.size (k1_off24_inb k 1)).toLoadRect f) ((Memref.whole cc1_scratch0 : Memref sig .scVector .vmem S32x1024 .f32).view.readAt (Elt F) (Rect.unit (s := S32x1024) (k1_off25 k 1#32) S1x16.size (k1_off25_inb k 1)).toLoadRect f) ((Memref.whole cc1_scratch0 : Memref sig .scVector .vmem S32x1024 .f32).view.readAt (Elt F) (Rect.unit (s := S32x1024) (k1_off26 k 1#32) S1x16.size (k1_off26_inb k 1)).toLoadRect f)) ((Memref.whole cc1_scratch0 : Memref sig .scVector .vmem S32x1024 .f32).view.readAt (Elt F) (Rect.unit (s := S32x1024) (k1_off27 k 1#32) S1x16.size (k1_off27_inb k 1)).toLoadRect f) ((Memref.whole cc1_scratch0 : Memref sig .scVector .vmem S32x1024 .f32).view.readAt (Elt F) (Rect.unit (s := S32x1024) (k1_off28 k 1#32) S1x16.size (k1_off28_inb k 1)).toLoadRect f) ((Memref.whole cc1_scratch0 : Memref sig .scVector .vmem S32x1024 .f32).view.readAt (Elt F) (Rect.unit (s := S32x1024) (k1_off29 k 1#32) S1x16.size (k1_off29_inb k 1)).toLoadRect f) ((Memref.whole cc1_scratch0 : Memref sig .scVector .vmem S32x1024 .f32).view.readAt (Elt F) (Rect.unit (s := S32x1024) (k1_off30 k 1#32) S1x16.size (k1_off30_inb k 1)).toLoadRect f) ((Memref.whole cc1_scratch0 : Memref sig .scVector .vmem S32x1024 .f32).view.readAt (Elt F) (Rect.unit (s := S32x1024) (k1_off31 k 1#32) S1x16.size (k1_off31_inb k 1)).toLoadRect f) ((Memref.whole cc1_scratch0 : Memref sig .scVector .vmem S32x1024 .f32).view.readAt (Elt F) (Rect.unit (s := S32x1024) (k1_off32 k 1#32) S1x16.size (k1_off32_inb k 1)).toLoadRect f) ((Memref.whole cc1_scratch0 : Memref sig .scVector .vmem S32x1024 .f32).view.readAt (Elt F) (Rect.unit (s := S32x1024) (k1_off33 k 1#32) S1x16.size (k1_off33_inb k 1)).toLoadRect f)) (k1_pay11 ((Memref.whole cc1_scratch0 : Memref sig .scVector .vmem S32x1024 .f32).view.readAt (Elt F) (Rect.unit (s := S32x1024) (k1_off34 k 1#32) S1x16.size (k1_off34_inb k 1)).toLoadRect f)) ((Memref.whole cc1_scratch0 : Memref sig .scVector .vmem S32x1024 .f32).view.readAt (Elt F) (Rect.unit (s := S32x1024) (k1_off35 k 1#32) S1x16.size (k1_off35_inb k 1)).toLoadRect f) ((Memref.whole cc1_scratch0 : Memref sig .scVector .vmem S32x1024 .f32).view.readAt (Elt F) (Rect.unit (s := S32x1024) (k1_off36 k 1#32) S1x16.size (k1_off36_inb k 1)).toLoadRect f) ((Memref.whole cc1_scratch0 : Memref sig .scVector .vmem S32x1024 .f32).view.readAt (Elt F) (Rect.unit (s := S32x1024) (k1_off37 k 1#32) S1x16.size (k1_off37_inb k 1)).toLoadRect f) ((Memref.whole cc1_scratch0 : Memref sig .scVector .vmem S32x1024 .f32).view.readAt (Elt F) (Rect.unit (s := S32x1024) (k1_off38 k 1#32) S1x16.size (k1_off38_inb k 1)).toLoadRect f) ((Memref.whole cc1_scratch0 : Memref sig .scVector .vmem S32x1024 .f32).view.readAt (Elt F) (Rect.unit (s := S32x1024) (k1_off39 k 1#32) S1x16.size (k1_off39_inb k 1)).toLoadRect f) ((Memref.whole cc1_scratch0 : Memref sig .scVector .vmem S32x1024 .f32).view.readAt (Elt F) (Rect.unit (s := S32x1024) (k1_off40 k 1#32) S1x16.size (k1_off40_inb k 1)).toLoadRect f) x
      = slabSum f (64 * k.val + 16 + (x 0).val) := by
  have hk : k.val < 16 := Nat.lt_of_lt_of_le k.isLt k1_t2_abs.2.1
  refine (chain2_u1 ![((Memref.whole cc1_scratch0 : Memref sig .scVector .vmem S32x1024 .f32).view.readAt (Elt F) (Rect.unit (s := S32x1024) (k1_off9 k 1#32) S1x16.size (k1_off9_inb k 1)).toLoadRect f),
      ((Memref.whole cc1_scratch0 : Memref sig .scVector .vmem S32x1024 .f32).view.readAt (Elt F) (Rect.unit (s := S32x1024) (k1_off10 k 1#32) S1x16.size (k1_off10_inb k 1)).toLoadRect f),
      ((Memref.whole cc1_scratch0 : Memref sig .scVector .vmem S32x1024 .f32).view.readAt (Elt F) (Rect.unit (s := S32x1024) (k1_off11 k 1#32) S1x16.size (k1_off11_inb k 1)).toLoadRect f),
      ((Memref.whole cc1_scratch0 : Memref sig .scVector .vmem S32x1024 .f32).view.readAt (Elt F) (Rect.unit (s := S32x1024) (k1_off12 k 1#32) S1x16.size (k1_off12_inb k 1)).toLoadRect f),
      ((Memref.whole cc1_scratch0 : Memref sig .scVector .vmem S32x1024 .f32).view.readAt (Elt F) (Rect.unit (s := S32x1024) (k1_off13 k 1#32) S1x16.size (k1_off13_inb k 1)).toLoadRect f),
      ((Memref.whole cc1_scratch0 : Memref sig .scVector .vmem S32x1024 .f32).view.readAt (Elt F) (Rect.unit (s := S32x1024) (k1_off14 k 1#32) S1x16.size (k1_off14_inb k 1)).toLoadRect f),
      ((Memref.whole cc1_scratch0 : Memref sig .scVector .vmem S32x1024 .f32).view.readAt (Elt F) (Rect.unit (s := S32x1024) (k1_off15 k 1#32) S1x16.size (k1_off15_inb k 1)).toLoadRect f),
      ((Memref.whole cc1_scratch0 : Memref sig .scVector .vmem S32x1024 .f32).view.readAt (Elt F) (Rect.unit (s := S32x1024) (k1_off16 k 1#32) S1x16.size (k1_off16_inb k 1)).toLoadRect f),
      ((Memref.whole cc1_scratch0 : Memref sig .scVector .vmem S32x1024 .f32).view.readAt (Elt F) (Rect.unit (s := S32x1024) (k1_off17 k 1#32) S1x16.size (k1_off17_inb k 1)).toLoadRect f),
      ((Memref.whole cc1_scratch0 : Memref sig .scVector .vmem S32x1024 .f32).view.readAt (Elt F) (Rect.unit (s := S32x1024) (k1_off18 k 1#32) S1x16.size (k1_off18_inb k 1)).toLoadRect f),
      ((Memref.whole cc1_scratch0 : Memref sig .scVector .vmem S32x1024 .f32).view.readAt (Elt F) (Rect.unit (s := S32x1024) (k1_off19 k 1#32) S1x16.size (k1_off19_inb k 1)).toLoadRect f),
      ((Memref.whole cc1_scratch0 : Memref sig .scVector .vmem S32x1024 .f32).view.readAt (Elt F) (Rect.unit (s := S32x1024) (k1_off20 k 1#32) S1x16.size (k1_off20_inb k 1)).toLoadRect f),
      ((Memref.whole cc1_scratch0 : Memref sig .scVector .vmem S32x1024 .f32).view.readAt (Elt F) (Rect.unit (s := S32x1024) (k1_off21 k 1#32) S1x16.size (k1_off21_inb k 1)).toLoadRect f),
      ((Memref.whole cc1_scratch0 : Memref sig .scVector .vmem S32x1024 .f32).view.readAt (Elt F) (Rect.unit (s := S32x1024) (k1_off22 k 1#32) S1x16.size (k1_off22_inb k 1)).toLoadRect f),
      ((Memref.whole cc1_scratch0 : Memref sig .scVector .vmem S32x1024 .f32).view.readAt (Elt F) (Rect.unit (s := S32x1024) (k1_off23 k 1#32) S1x16.size (k1_off23_inb k 1)).toLoadRect f),
      ((Memref.whole cc1_scratch0 : Memref sig .scVector .vmem S32x1024 .f32).view.readAt (Elt F) (Rect.unit (s := S32x1024) (k1_off24 k 1#32) S1x16.size (k1_off24_inb k 1)).toLoadRect f),
      ((Memref.whole cc1_scratch0 : Memref sig .scVector .vmem S32x1024 .f32).view.readAt (Elt F) (Rect.unit (s := S32x1024) (k1_off25 k 1#32) S1x16.size (k1_off25_inb k 1)).toLoadRect f),
      ((Memref.whole cc1_scratch0 : Memref sig .scVector .vmem S32x1024 .f32).view.readAt (Elt F) (Rect.unit (s := S32x1024) (k1_off26 k 1#32) S1x16.size (k1_off26_inb k 1)).toLoadRect f),
      ((Memref.whole cc1_scratch0 : Memref sig .scVector .vmem S32x1024 .f32).view.readAt (Elt F) (Rect.unit (s := S32x1024) (k1_off27 k 1#32) S1x16.size (k1_off27_inb k 1)).toLoadRect f),
      ((Memref.whole cc1_scratch0 : Memref sig .scVector .vmem S32x1024 .f32).view.readAt (Elt F) (Rect.unit (s := S32x1024) (k1_off28 k 1#32) S1x16.size (k1_off28_inb k 1)).toLoadRect f),
      ((Memref.whole cc1_scratch0 : Memref sig .scVector .vmem S32x1024 .f32).view.readAt (Elt F) (Rect.unit (s := S32x1024) (k1_off29 k 1#32) S1x16.size (k1_off29_inb k 1)).toLoadRect f),
      ((Memref.whole cc1_scratch0 : Memref sig .scVector .vmem S32x1024 .f32).view.readAt (Elt F) (Rect.unit (s := S32x1024) (k1_off30 k 1#32) S1x16.size (k1_off30_inb k 1)).toLoadRect f),
      ((Memref.whole cc1_scratch0 : Memref sig .scVector .vmem S32x1024 .f32).view.readAt (Elt F) (Rect.unit (s := S32x1024) (k1_off31 k 1#32) S1x16.size (k1_off31_inb k 1)).toLoadRect f),
      ((Memref.whole cc1_scratch0 : Memref sig .scVector .vmem S32x1024 .f32).view.readAt (Elt F) (Rect.unit (s := S32x1024) (k1_off32 k 1#32) S1x16.size (k1_off32_inb k 1)).toLoadRect f),
      ((Memref.whole cc1_scratch0 : Memref sig .scVector .vmem S32x1024 .f32).view.readAt (Elt F) (Rect.unit (s := S32x1024) (k1_off33 k 1#32) S1x16.size (k1_off33_inb k 1)).toLoadRect f),
      ((Memref.whole cc1_scratch0 : Memref sig .scVector .vmem S32x1024 .f32).view.readAt (Elt F) (Rect.unit (s := S32x1024) (k1_off34 k 1#32) S1x16.size (k1_off34_inb k 1)).toLoadRect f),
      ((Memref.whole cc1_scratch0 : Memref sig .scVector .vmem S32x1024 .f32).view.readAt (Elt F) (Rect.unit (s := S32x1024) (k1_off35 k 1#32) S1x16.size (k1_off35_inb k 1)).toLoadRect f),
      ((Memref.whole cc1_scratch0 : Memref sig .scVector .vmem S32x1024 .f32).view.readAt (Elt F) (Rect.unit (s := S32x1024) (k1_off36 k 1#32) S1x16.size (k1_off36_inb k 1)).toLoadRect f),
      ((Memref.whole cc1_scratch0 : Memref sig .scVector .vmem S32x1024 .f32).view.readAt (Elt F) (Rect.unit (s := S32x1024) (k1_off37 k 1#32) S1x16.size (k1_off37_inb k 1)).toLoadRect f),
      ((Memref.whole cc1_scratch0 : Memref sig .scVector .vmem S32x1024 .f32).view.readAt (Elt F) (Rect.unit (s := S32x1024) (k1_off38 k 1#32) S1x16.size (k1_off38_inb k 1)).toLoadRect f),
      ((Memref.whole cc1_scratch0 : Memref sig .scVector .vmem S32x1024 .f32).view.readAt (Elt F) (Rect.unit (s := S32x1024) (k1_off39 k 1#32) S1x16.size (k1_off39_inb k 1)).toLoadRect f),
      ((Memref.whole cc1_scratch0 : Memref sig .scVector .vmem S32x1024 .f32).view.readAt (Elt F) (Rect.unit (s := S32x1024) (k1_off40 k 1#32) S1x16.size (k1_off40_inb k 1)).toLoadRect f)] x).trans ?_
  refine lsum32_loads f _ (64 * k.val + 16) (by omega) (fun r l => ?_) x
  fin_cases r
  · exact readAt_row0 _ _ f 0 (64 * k.val + 16) (by omega) (k1_off9_eq k ⟨1, by decide⟩) l
  · exact readAt_row0 _ _ f 1 (64 * k.val + 16) (by omega) (k1_off10_eq k ⟨1, by decide⟩) l
  · exact readAt_row0 _ _ f 2 (64 * k.val + 16) (by omega) (k1_off11_eq k ⟨1, by decide⟩) l
  · exact readAt_row0 _ _ f 3 (64 * k.val + 16) (by omega) (k1_off12_eq k ⟨1, by decide⟩) l
  · exact readAt_row0 _ _ f 4 (64 * k.val + 16) (by omega) (k1_off13_eq k ⟨1, by decide⟩) l
  · exact readAt_row0 _ _ f 5 (64 * k.val + 16) (by omega) (k1_off14_eq k ⟨1, by decide⟩) l
  · exact readAt_row0 _ _ f 6 (64 * k.val + 16) (by omega) (k1_off15_eq k ⟨1, by decide⟩) l
  · exact readAt_row0 _ _ f 7 (64 * k.val + 16) (by omega) (k1_off16_eq k ⟨1, by decide⟩) l
  · exact readAt_row0 _ _ f 8 (64 * k.val + 16) (by omega) (k1_off17_eq k ⟨1, by decide⟩) l
  · exact readAt_row0 _ _ f 9 (64 * k.val + 16) (by omega) (k1_off18_eq k ⟨1, by decide⟩) l
  · exact readAt_row0 _ _ f 10 (64 * k.val + 16) (by omega) (k1_off19_eq k ⟨1, by decide⟩) l
  · exact readAt_row0 _ _ f 11 (64 * k.val + 16) (by omega) (k1_off20_eq k ⟨1, by decide⟩) l
  · exact readAt_row0 _ _ f 12 (64 * k.val + 16) (by omega) (k1_off21_eq k ⟨1, by decide⟩) l
  · exact readAt_row0 _ _ f 13 (64 * k.val + 16) (by omega) (k1_off22_eq k ⟨1, by decide⟩) l
  · exact readAt_row0 _ _ f 14 (64 * k.val + 16) (by omega) (k1_off23_eq k ⟨1, by decide⟩) l
  · exact readAt_row0 _ _ f 15 (64 * k.val + 16) (by omega) (k1_off24_eq k ⟨1, by decide⟩) l
  · exact readAt_row0 _ _ f 16 (64 * k.val + 16) (by omega) (k1_off25_eq k ⟨1, by decide⟩) l
  · exact readAt_row0 _ _ f 17 (64 * k.val + 16) (by omega) (k1_off26_eq k ⟨1, by decide⟩) l
  · exact readAt_row0 _ _ f 18 (64 * k.val + 16) (by omega) (k1_off27_eq k ⟨1, by decide⟩) l
  · exact readAt_row0 _ _ f 19 (64 * k.val + 16) (by omega) (k1_off28_eq k ⟨1, by decide⟩) l
  · exact readAt_row0 _ _ f 20 (64 * k.val + 16) (by omega) (k1_off29_eq k ⟨1, by decide⟩) l
  · exact readAt_row0 _ _ f 21 (64 * k.val + 16) (by omega) (k1_off30_eq k ⟨1, by decide⟩) l
  · exact readAt_row0 _ _ f 22 (64 * k.val + 16) (by omega) (k1_off31_eq k ⟨1, by decide⟩) l
  · exact readAt_row0 _ _ f 23 (64 * k.val + 16) (by omega) (k1_off32_eq k ⟨1, by decide⟩) l
  · exact readAt_row0 _ _ f 24 (64 * k.val + 16) (by omega) (k1_off33_eq k ⟨1, by decide⟩) l
  · exact readAt_row0 _ _ f 25 (64 * k.val + 16) (by omega) (k1_off34_eq k ⟨1, by decide⟩) l
  · exact readAt_row0 _ _ f 26 (64 * k.val + 16) (by omega) (k1_off35_eq k ⟨1, by decide⟩) l
  · exact readAt_row0 _ _ f 27 (64 * k.val + 16) (by omega) (k1_off36_eq k ⟨1, by decide⟩) l
  · exact readAt_row0 _ _ f 28 (64 * k.val + 16) (by omega) (k1_off37_eq k ⟨1, by decide⟩) l
  · exact readAt_row0 _ _ f 29 (64 * k.val + 16) (by omega) (k1_off38_eq k ⟨1, by decide⟩) l
  · exact readAt_row0 _ _ f 30 (64 * k.val + 16) (by omega) (k1_off39_eq k ⟨1, by decide⟩) l
  · exact readAt_row0 _ _ f 31 (64 * k.val + 16) (by omega) (k1_off40_eq k ⟨1, by decide⟩) l

/-- Slab 0, store 2 of trip `k`: lane `x` of the stored vector is the slab's column sum at column `64 k + 32 + x`. -/
theorem pay2_u2 (f : (Memref.whole cc1_scratch0 : Memref sig .scVector .vmem S32x1024 .f32).view.ty.Contents (Elt F))
    (k : Fin k1_t2_loop.trips) (x : S16.Idx) :
    k1_pay17 (k1_pay16 (k1_pay15 (k1_pay14 (k1_pay13 ((Memref.whole cc1_scratch0 : Memref sig .scVector .vmem S32x1024 .f32).view.readAt (Elt F) (Rect.unit (s := S32x1024) (k1_off9 k 2#32) S1x16.size (k1_off9_inb k 2)).toLoadRect f) ((Memref.whole cc1_scratch0 : Memref sig .scVector .vmem S32x1024 .f32).view.readAt (Elt F) (Rect.unit (s := S32x1024) (k1_off10 k 2#32) S1x16.size (k1_off10_inb k 2)).toLoadRect f) ((Memref.whole cc1_scratch0 : Memref sig .scVector .vmem S32x1024 .f32).view.readAt (Elt F) (Rect.unit (s := S32x1024) (k1_off11 k 2#32) S1x16.size (k1_off11_inb k 2)).toLoadRect f) ((Memref.whole cc1_scratch0 : Memref sig .scVector .vmem S32x1024 .f32).view.readAt (Elt F) (Rect.unit (s := S32x1024) (k1_off12 k 2#32) S1x16.size (k1_off12_inb k 2)).toLoadRect f) ((Memref.whole cc1_scratch0 : Memref sig .scVector .vmem S32x1024 .f32).view.readAt (Elt F) (Rect.unit (s := S32x1024) (k1_off13 k 2#32) S1x16.size (k1_off13_inb k 2)).toLoadRect f) ((Memref.whole cc1_scratch0 : Memref sig .scVector .vmem S32x1024 .f32).view.readAt (Elt F) (Rect.unit (s := S32x1024) (k1_off14 k 2#32) S1x16.size (k1_off14_inb k 2)).toLoadRect f) ((Memref.whole cc1_scratch0 : Memref sig .scVector .vmem S32x1024 .f32).view.readAt (Elt F) (Rect.unit (s := S32x1024) (k1_off15 k 2#32) S1x16.size (k1_off15_inb k 2)).toLoadRect f)) ((Memref.whole cc1_scratch0 : Memref sig .scVector .vmem S32x1024 .f32).view.readAt (Elt F) (Rect.unit (s := S32x1024) (k1_off16 k 2#32) S1x16.size (k1_off16_inb k 2)).toLoadRect f) ((Memref.whole cc1_scratch0 : Memref sig .scVector .vmem S32x1024 .f32).view.readAt (Elt F) (Rect.unit (s := S32x1024) (k1_off17 k 2#32) S1x16.size (k1_off17_inb k 2)).toLoadRect f) ((Memref.whole cc1_scratch0 : Memref sig .scVector .vmem S32x1024 .f32).view.readAt (Elt F) (Rect.unit (s := S32x1024) (k1_off18 k 2#32) S1x16.size (k1_off18_inb k 2)).toLoadRect f) ((Memref.whole cc1_scratch0 : Memref sig .scVector .vmem S32x1024 .f32).view.readAt (Elt F) (Rect.unit (s := S32x1024) (k1_off19 k 2#32) S1x16.size (k1_off19_inb k 2)).toLoadRect f) ((Memref.whole cc1_scratch0 : Memref sig .scVector .vmem S32x1024 .f32).view.readAt (Elt F) (Rect.unit (s := S32x1024) (k1_off20 k 2#32) S1x16.size (k1_off20_inb k 2)).toLoadRect f) ((Memref.whole cc1_scratch0 : Memref sig .scVector .vmem S32x1024 .f32).view.readAt (Elt F) (Rect.unit (s := S32x1024) (k1_off21 k 2#32) S1x16.size (k1_off21_inb k 2)).toLoadRect f) ((Memref.whole cc1_scratch0 : Memref sig .scVector .vmem S32x1024 .f32).view.readAt (Elt F) (Rect.unit (s := S32x1024) (k1_off22 k 2#32) S1x16.size (k1_off22_inb k 2)).toLoadRect f)) ((Memref.whole cc1_scratch0 : Memref sig .scVector .vmem S32x1024 .f32).view.readAt (Elt F) (Rect.unit (s := S32x1024) (k1_off23 k 2#32) S1x16.size (k1_off23_inb k 2)).toLoadRect f) ((Memref.whole cc1_scratch0 : Memref sig .scVector .vmem S32x1024 .f32).view.readAt (Elt F) (Rect.unit (s := S32x1024) (k1_off24 k 2#32) S1x16.size (k1_off24_inb k 2)).toLoadRect f) ((Memref.whole cc1_scratch0 : Memref sig .scVector .vmem S32x1024 .f32).view.readAt (Elt F) (Rect.unit (s := S32x1024) (k1_off25 k 2#32) S1x16.size (k1_off25_inb k 2)).toLoadRect f) ((Memref.whole cc1_scratch0 : Memref sig .scVector .vmem S32x1024 .f32).view.readAt (Elt F) (Rect.unit (s := S32x1024) (k1_off26 k 2#32) S1x16.size (k1_off26_inb k 2)).toLoadRect f) ((Memref.whole cc1_scratch0 : Memref sig .scVector .vmem S32x1024 .f32).view.readAt (Elt F) (Rect.unit (s := S32x1024) (k1_off27 k 2#32) S1x16.size (k1_off27_inb k 2)).toLoadRect f) ((Memref.whole cc1_scratch0 : Memref sig .scVector .vmem S32x1024 .f32).view.readAt (Elt F) (Rect.unit (s := S32x1024) (k1_off28 k 2#32) S1x16.size (k1_off28_inb k 2)).toLoadRect f) ((Memref.whole cc1_scratch0 : Memref sig .scVector .vmem S32x1024 .f32).view.readAt (Elt F) (Rect.unit (s := S32x1024) (k1_off29 k 2#32) S1x16.size (k1_off29_inb k 2)).toLoadRect f) ((Memref.whole cc1_scratch0 : Memref sig .scVector .vmem S32x1024 .f32).view.readAt (Elt F) (Rect.unit (s := S32x1024) (k1_off30 k 2#32) S1x16.size (k1_off30_inb k 2)).toLoadRect f)) ((Memref.whole cc1_scratch0 : Memref sig .scVector .vmem S32x1024 .f32).view.readAt (Elt F) (Rect.unit (s := S32x1024) (k1_off31 k 2#32) S1x16.size (k1_off31_inb k 2)).toLoadRect f) ((Memref.whole cc1_scratch0 : Memref sig .scVector .vmem S32x1024 .f32).view.readAt (Elt F) (Rect.unit (s := S32x1024) (k1_off32 k 2#32) S1x16.size (k1_off32_inb k 2)).toLoadRect f) ((Memref.whole cc1_scratch0 : Memref sig .scVector .vmem S32x1024 .f32).view.readAt (Elt F) (Rect.unit (s := S32x1024) (k1_off33 k 2#32) S1x16.size (k1_off33_inb k 2)).toLoadRect f) ((Memref.whole cc1_scratch0 : Memref sig .scVector .vmem S32x1024 .f32).view.readAt (Elt F) (Rect.unit (s := S32x1024) (k1_off34 k 2#32) S1x16.size (k1_off34_inb k 2)).toLoadRect f) ((Memref.whole cc1_scratch0 : Memref sig .scVector .vmem S32x1024 .f32).view.readAt (Elt F) (Rect.unit (s := S32x1024) (k1_off35 k 2#32) S1x16.size (k1_off35_inb k 2)).toLoadRect f) ((Memref.whole cc1_scratch0 : Memref sig .scVector .vmem S32x1024 .f32).view.readAt (Elt F) (Rect.unit (s := S32x1024) (k1_off36 k 2#32) S1x16.size (k1_off36_inb k 2)).toLoadRect f) ((Memref.whole cc1_scratch0 : Memref sig .scVector .vmem S32x1024 .f32).view.readAt (Elt F) (Rect.unit (s := S32x1024) (k1_off37 k 2#32) S1x16.size (k1_off37_inb k 2)).toLoadRect f)) ((Memref.whole cc1_scratch0 : Memref sig .scVector .vmem S32x1024 .f32).view.readAt (Elt F) (Rect.unit (s := S32x1024) (k1_off38 k 2#32) S1x16.size (k1_off38_inb k 2)).toLoadRect f) ((Memref.whole cc1_scratch0 : Memref sig .scVector .vmem S32x1024 .f32).view.readAt (Elt F) (Rect.unit (s := S32x1024) (k1_off39 k 2#32) S1x16.size (k1_off39_inb k 2)).toLoadRect f) ((Memref.whole cc1_scratch0 : Memref sig .scVector .vmem S32x1024 .f32).view.readAt (Elt F) (Rect.unit (s := S32x1024) (k1_off40 k 2#32) S1x16.size (k1_off40_inb k 2)).toLoadRect f) x
      = slabSum f (64 * k.val + 32 + (x 0).val) := by
  have hk : k.val < 16 := Nat.lt_of_lt_of_le k.isLt k1_t2_abs.2.1
  refine (chain2_u2 ![((Memref.whole cc1_scratch0 : Memref sig .scVector .vmem S32x1024 .f32).view.readAt (Elt F) (Rect.unit (s := S32x1024) (k1_off9 k 2#32) S1x16.size (k1_off9_inb k 2)).toLoadRect f),
      ((Memref.whole cc1_scratch0 : Memref sig .scVector .vmem S32x1024 .f32).view.readAt (Elt F) (Rect.unit (s := S32x1024) (k1_off10 k 2#32) S1x16.size (k1_off10_inb k 2)).toLoadRect f),
      ((Memref.whole cc1_scratch0 : Memref sig .scVector .vmem S32x1024 .f32).view.readAt (Elt F) (Rect.unit (s := S32x1024) (k1_off11 k 2#32) S1x16.size (k1_off11_inb k 2)).toLoadRect f),
      ((Memref.whole cc1_scratch0 : Memref sig .scVector .vmem S32x1024 .f32).view.readAt (Elt F) (Rect.unit (s := S32x1024) (k1_off12 k 2#32) S1x16.size (k1_off12_inb k 2)).toLoadRect f),
      ((Memref.whole cc1_scratch0 : Memref sig .scVector .vmem S32x1024 .f32).view.readAt (Elt F) (Rect.unit (s := S32x1024) (k1_off13 k 2#32) S1x16.size (k1_off13_inb k 2)).toLoadRect f),
      ((Memref.whole cc1_scratch0 : Memref sig .scVector .vmem S32x1024 .f32).view.readAt (Elt F) (Rect.unit (s := S32x1024) (k1_off14 k 2#32) S1x16.size (k1_off14_inb k 2)).toLoadRect f),
      ((Memref.whole cc1_scratch0 : Memref sig .scVector .vmem S32x1024 .f32).view.readAt (Elt F) (Rect.unit (s := S32x1024) (k1_off15 k 2#32) S1x16.size (k1_off15_inb k 2)).toLoadRect f),
      ((Memref.whole cc1_scratch0 : Memref sig .scVector .vmem S32x1024 .f32).view.readAt (Elt F) (Rect.unit (s := S32x1024) (k1_off16 k 2#32) S1x16.size (k1_off16_inb k 2)).toLoadRect f),
      ((Memref.whole cc1_scratch0 : Memref sig .scVector .vmem S32x1024 .f32).view.readAt (Elt F) (Rect.unit (s := S32x1024) (k1_off17 k 2#32) S1x16.size (k1_off17_inb k 2)).toLoadRect f),
      ((Memref.whole cc1_scratch0 : Memref sig .scVector .vmem S32x1024 .f32).view.readAt (Elt F) (Rect.unit (s := S32x1024) (k1_off18 k 2#32) S1x16.size (k1_off18_inb k 2)).toLoadRect f),
      ((Memref.whole cc1_scratch0 : Memref sig .scVector .vmem S32x1024 .f32).view.readAt (Elt F) (Rect.unit (s := S32x1024) (k1_off19 k 2#32) S1x16.size (k1_off19_inb k 2)).toLoadRect f),
      ((Memref.whole cc1_scratch0 : Memref sig .scVector .vmem S32x1024 .f32).view.readAt (Elt F) (Rect.unit (s := S32x1024) (k1_off20 k 2#32) S1x16.size (k1_off20_inb k 2)).toLoadRect f),
      ((Memref.whole cc1_scratch0 : Memref sig .scVector .vmem S32x1024 .f32).view.readAt (Elt F) (Rect.unit (s := S32x1024) (k1_off21 k 2#32) S1x16.size (k1_off21_inb k 2)).toLoadRect f),
      ((Memref.whole cc1_scratch0 : Memref sig .scVector .vmem S32x1024 .f32).view.readAt (Elt F) (Rect.unit (s := S32x1024) (k1_off22 k 2#32) S1x16.size (k1_off22_inb k 2)).toLoadRect f),
      ((Memref.whole cc1_scratch0 : Memref sig .scVector .vmem S32x1024 .f32).view.readAt (Elt F) (Rect.unit (s := S32x1024) (k1_off23 k 2#32) S1x16.size (k1_off23_inb k 2)).toLoadRect f),
      ((Memref.whole cc1_scratch0 : Memref sig .scVector .vmem S32x1024 .f32).view.readAt (Elt F) (Rect.unit (s := S32x1024) (k1_off24 k 2#32) S1x16.size (k1_off24_inb k 2)).toLoadRect f),
      ((Memref.whole cc1_scratch0 : Memref sig .scVector .vmem S32x1024 .f32).view.readAt (Elt F) (Rect.unit (s := S32x1024) (k1_off25 k 2#32) S1x16.size (k1_off25_inb k 2)).toLoadRect f),
      ((Memref.whole cc1_scratch0 : Memref sig .scVector .vmem S32x1024 .f32).view.readAt (Elt F) (Rect.unit (s := S32x1024) (k1_off26 k 2#32) S1x16.size (k1_off26_inb k 2)).toLoadRect f),
      ((Memref.whole cc1_scratch0 : Memref sig .scVector .vmem S32x1024 .f32).view.readAt (Elt F) (Rect.unit (s := S32x1024) (k1_off27 k 2#32) S1x16.size (k1_off27_inb k 2)).toLoadRect f),
      ((Memref.whole cc1_scratch0 : Memref sig .scVector .vmem S32x1024 .f32).view.readAt (Elt F) (Rect.unit (s := S32x1024) (k1_off28 k 2#32) S1x16.size (k1_off28_inb k 2)).toLoadRect f),
      ((Memref.whole cc1_scratch0 : Memref sig .scVector .vmem S32x1024 .f32).view.readAt (Elt F) (Rect.unit (s := S32x1024) (k1_off29 k 2#32) S1x16.size (k1_off29_inb k 2)).toLoadRect f),
      ((Memref.whole cc1_scratch0 : Memref sig .scVector .vmem S32x1024 .f32).view.readAt (Elt F) (Rect.unit (s := S32x1024) (k1_off30 k 2#32) S1x16.size (k1_off30_inb k 2)).toLoadRect f),
      ((Memref.whole cc1_scratch0 : Memref sig .scVector .vmem S32x1024 .f32).view.readAt (Elt F) (Rect.unit (s := S32x1024) (k1_off31 k 2#32) S1x16.size (k1_off31_inb k 2)).toLoadRect f),
      ((Memref.whole cc1_scratch0 : Memref sig .scVector .vmem S32x1024 .f32).view.readAt (Elt F) (Rect.unit (s := S32x1024) (k1_off32 k 2#32) S1x16.size (k1_off32_inb k 2)).toLoadRect f),
      ((Memref.whole cc1_scratch0 : Memref sig .scVector .vmem S32x1024 .f32).view.readAt (Elt F) (Rect.unit (s := S32x1024) (k1_off33 k 2#32) S1x16.size (k1_off33_inb k 2)).toLoadRect f),
      ((Memref.whole cc1_scratch0 : Memref sig .scVector .vmem S32x1024 .f32).view.readAt (Elt F) (Rect.unit (s := S32x1024) (k1_off34 k 2#32) S1x16.size (k1_off34_inb k 2)).toLoadRect f),
      ((Memref.whole cc1_scratch0 : Memref sig .scVector .vmem S32x1024 .f32).view.readAt (Elt F) (Rect.unit (s := S32x1024) (k1_off35 k 2#32) S1x16.size (k1_off35_inb k 2)).toLoadRect f),
      ((Memref.whole cc1_scratch0 : Memref sig .scVector .vmem S32x1024 .f32).view.readAt (Elt F) (Rect.unit (s := S32x1024) (k1_off36 k 2#32) S1x16.size (k1_off36_inb k 2)).toLoadRect f),
      ((Memref.whole cc1_scratch0 : Memref sig .scVector .vmem S32x1024 .f32).view.readAt (Elt F) (Rect.unit (s := S32x1024) (k1_off37 k 2#32) S1x16.size (k1_off37_inb k 2)).toLoadRect f),
      ((Memref.whole cc1_scratch0 : Memref sig .scVector .vmem S32x1024 .f32).view.readAt (Elt F) (Rect.unit (s := S32x1024) (k1_off38 k 2#32) S1x16.size (k1_off38_inb k 2)).toLoadRect f),
      ((Memref.whole cc1_scratch0 : Memref sig .scVector .vmem S32x1024 .f32).view.readAt (Elt F) (Rect.unit (s := S32x1024) (k1_off39 k 2#32) S1x16.size (k1_off39_inb k 2)).toLoadRect f),
      ((Memref.whole cc1_scratch0 : Memref sig .scVector .vmem S32x1024 .f32).view.readAt (Elt F) (Rect.unit (s := S32x1024) (k1_off40 k 2#32) S1x16.size (k1_off40_inb k 2)).toLoadRect f)] x).trans ?_
  refine lsum32_loads f _ (64 * k.val + 32) (by omega) (fun r l => ?_) x
  fin_cases r
  · exact readAt_row0 _ _ f 0 (64 * k.val + 32) (by omega) (k1_off9_eq k ⟨2, by decide⟩) l
  · exact readAt_row0 _ _ f 1 (64 * k.val + 32) (by omega) (k1_off10_eq k ⟨2, by decide⟩) l
  · exact readAt_row0 _ _ f 2 (64 * k.val + 32) (by omega) (k1_off11_eq k ⟨2, by decide⟩) l
  · exact readAt_row0 _ _ f 3 (64 * k.val + 32) (by omega) (k1_off12_eq k ⟨2, by decide⟩) l
  · exact readAt_row0 _ _ f 4 (64 * k.val + 32) (by omega) (k1_off13_eq k ⟨2, by decide⟩) l
  · exact readAt_row0 _ _ f 5 (64 * k.val + 32) (by omega) (k1_off14_eq k ⟨2, by decide⟩) l
  · exact readAt_row0 _ _ f 6 (64 * k.val + 32) (by omega) (k1_off15_eq k ⟨2, by decide⟩) l
  · exact readAt_row0 _ _ f 7 (64 * k.val + 32) (by omega) (k1_off16_eq k ⟨2, by decide⟩) l
  · exact readAt_row0 _ _ f 8 (64 * k.val + 32) (by omega) (k1_off17_eq k ⟨2, by decide⟩) l
  · exact readAt_row0 _ _ f 9 (64 * k.val + 32) (by omega) (k1_off18_eq k ⟨2, by decide⟩) l
  · exact readAt_row0 _ _ f 10 (64 * k.val + 32) (by omega) (k1_off19_eq k ⟨2, by decide⟩) l
  · exact readAt_row0 _ _ f 11 (64 * k.val + 32) (by omega) (k1_off20_eq k ⟨2, by decide⟩) l
  · exact readAt_row0 _ _ f 12 (64 * k.val + 32) (by omega) (k1_off21_eq k ⟨2, by decide⟩) l
  · exact readAt_row0 _ _ f 13 (64 * k.val + 32) (by omega) (k1_off22_eq k ⟨2, by decide⟩) l
  · exact readAt_row0 _ _ f 14 (64 * k.val + 32) (by omega) (k1_off23_eq k ⟨2, by decide⟩) l
  · exact readAt_row0 _ _ f 15 (64 * k.val + 32) (by omega) (k1_off24_eq k ⟨2, by decide⟩) l
  · exact readAt_row0 _ _ f 16 (64 * k.val + 32) (by omega) (k1_off25_eq k ⟨2, by decide⟩) l
  · exact readAt_row0 _ _ f 17 (64 * k.val + 32) (by omega) (k1_off26_eq k ⟨2, by decide⟩) l
  · exact readAt_row0 _ _ f 18 (64 * k.val + 32) (by omega) (k1_off27_eq k ⟨2, by decide⟩) l
  · exact readAt_row0 _ _ f 19 (64 * k.val + 32) (by omega) (k1_off28_eq k ⟨2, by decide⟩) l
  · exact readAt_row0 _ _ f 20 (64 * k.val + 32) (by omega) (k1_off29_eq k ⟨2, by decide⟩) l
  · exact readAt_row0 _ _ f 21 (64 * k.val + 32) (by omega) (k1_off30_eq k ⟨2, by decide⟩) l
  · exact readAt_row0 _ _ f 22 (64 * k.val + 32) (by omega) (k1_off31_eq k ⟨2, by decide⟩) l
  · exact readAt_row0 _ _ f 23 (64 * k.val + 32) (by omega) (k1_off32_eq k ⟨2, by decide⟩) l
  · exact readAt_row0 _ _ f 24 (64 * k.val + 32) (by omega) (k1_off33_eq k ⟨2, by decide⟩) l
  · exact readAt_row0 _ _ f 25 (64 * k.val + 32) (by omega) (k1_off34_eq k ⟨2, by decide⟩) l
  · exact readAt_row0 _ _ f 26 (64 * k.val + 32) (by omega) (k1_off35_eq k ⟨2, by decide⟩) l
  · exact readAt_row0 _ _ f 27 (64 * k.val + 32) (by omega) (k1_off36_eq k ⟨2, by decide⟩) l
  · exact readAt_row0 _ _ f 28 (64 * k.val + 32) (by omega) (k1_off37_eq k ⟨2, by decide⟩) l
  · exact readAt_row0 _ _ f 29 (64 * k.val + 32) (by omega) (k1_off38_eq k ⟨2, by decide⟩) l
  · exact readAt_row0 _ _ f 30 (64 * k.val + 32) (by omega) (k1_off39_eq k ⟨2, by decide⟩) l
  · exact readAt_row0 _ _ f 31 (64 * k.val + 32) (by omega) (k1_off40_eq k ⟨2, by decide⟩) l

/-- Slab 0, store 3 of trip `k`: lane `x` of the stored vector is the slab's column sum at column `64 k + 48 + x`. -/
theorem pay2_u3 (f : (Memref.whole cc1_scratch0 : Memref sig .scVector .vmem S32x1024 .f32).view.ty.Contents (Elt F))
    (k : Fin k1_t2_loop.trips) (x : S16.Idx) :
    k1_pay45 (k1_pay22 (k1_pay21 (k1_pay20 (k1_pay19 (k1_pay18 ((Memref.whole cc1_scratch0 : Memref sig .scVector .vmem S32x1024 .f32).view.readAt (Elt F) (Rect.unit (s := S32x1024) (k1_off9 k 3#32) S1x16.size (k1_off9_inb k 3)).toLoadRect f) ((Memref.whole cc1_scratch0 : Memref sig .scVector .vmem S32x1024 .f32).view.readAt (Elt F) (Rect.unit (s := S32x1024) (k1_off10 k 3#32) S1x16.size (k1_off10_inb k 3)).toLoadRect f) ((Memref.whole cc1_scratch0 : Memref sig .scVector .vmem S32x1024 .f32).view.readAt (Elt F) (Rect.unit (s := S32x1024) (k1_off11 k 3#32) S1x16.size (k1_off11_inb k 3)).toLoadRect f)) ((Memref.whole cc1_scratch0 : Memref sig .scVector .vmem S32x1024 .f32).view.readAt (Elt F) (Rect.unit (s := S32x1024) (k1_off12 k 3#32) S1x16.size (k1_off12_inb k 3)).toLoadRect f) ((Memref.whole cc1_scratch0 : Memref sig .scVector .vmem S32x1024 .f32).view.readAt (Elt F) (Rect.unit (s := S32x1024) (k1_off13 k 3#32) S1x16.size (k1_off13_inb k 3)).toLoadRect f) ((Memref.whole cc1_scratch0 : Memref sig .scVector .vmem S32x1024 .f32).view.readAt (Elt F) (Rect.unit (s := S32x1024) (k1_off14 k 3#32) S1x16.size (k1_off14_inb k 3)).toLoadRect f) ((Memref.whole cc1_scratch0 : Memref sig .scVector .vmem S32x1024 .f32).view.readAt (Elt F) (Rect.unit (s := S32x1024) (k1_off15 k 3#32) S1x16.size (k1_off15_inb k 3)).toLoadRect f) ((Memref.whole cc1_scratch0 : Memref sig .scVector .vmem S32x1024 .f32).view.readAt (Elt F) (Rect.unit (s := S32x1024) (k1_off16 k 3#32) S1x16.size (k1_off16_inb k 3)).toLoadRect f) ((Memref.whole cc1_scratch0 : Memref sig .scVector .vmem S32x1024 .f32).view.readAt (Elt F) (Rect.unit (s := S32x1024) (k1_off17 k 3#32) S1x16.size (k1_off17_inb k 3)).toLoadRect f) ((Memref.whole cc1_scratch0 : Memref sig .scVector .vmem S32x1024 .f32).view.readAt (Elt F) (Rect.unit (s := S32x1024) (k1_off18 k 3#32) S1x16.size (k1_off18_inb k 3)).toLoadRect f) ((Memref.whole cc1_scratch0 : Memref sig .scVector .vmem S32x1024 .f32).view.readAt (Elt F) (Rect.unit (s := S32x1024) (k1_off19 k 3#32) S1x16.size (k1_off19_inb k 3)).toLoadRect f)) ((Memref.whole cc1_scratch0 : Memref sig .scVector .vmem S32x1024 .f32).view.readAt (Elt F) (Rect.unit (s := S32x1024) (k1_off20 k 3#32) S1x16.size (k1_off20_inb k 3)).toLoadRect f) ((Memref.whole cc1_scratch0 : Memref sig .scVector .vmem S32x1024 .f32).view.readAt (Elt F) (Rect.unit (s := S32x1024) (k1_off21 k 3#32) S1x16.size (k1_off21_inb k 3)).toLoadRect f) ((Memref.whole cc1_scratch0 : Memref sig .scVector .vmem S32x1024 .f32).view.readAt (Elt F) (Rect.unit (s := S32x1024) (k1_off22 k 3#32) S1x16.size (k1_off22_inb k 3)).toLoadRect f) ((Memref.whole cc1_scratch0 : Memref sig .scVector .vmem S32x1024 .f32).view.readAt (Elt F) (Rect.unit (s := S32x1024) (k1_off23 k 3#32) S1x16.size (k1_off23_inb k 3)).toLoadRect f) ((Memref.whole cc1_scratch0 : Memref sig .scVector .vmem S32x1024 .f32).view.readAt (Elt F) (Rect.unit (s := S32x1024) (k1_off24 k 3#32) S1x16.size (k1_off24_inb k 3)).toLoadRect f) ((Memref.whole cc1_scratch0 : Memref sig .scVector .vmem S32x1024 .f32).view.readAt (Elt F) (Rect.unit (s := S32x1024) (k1_off25 k 3#32) S1x16.size (k1_off25_inb k 3)).toLoadRect f) ((Memref.whole cc1_scratch0 : Memref sig .scVector .vmem S32x1024 .f32).view.readAt (Elt F) (Rect.unit (s := S32x1024) (k1_off26 k 3#32) S1x16.size (k1_off26_inb k 3)).toLoadRect f)) ((Memref.whole cc1_scratch0 : Memref sig .scVector .vmem S32x1024 .f32).view.readAt (Elt F) (Rect.unit (s := S32x1024) (k1_off27 k 3#32) S1x16.size (k1_off27_inb k 3)).toLoadRect f) ((Memref.whole cc1_scratch0 : Memref sig .scVector .vmem S32x1024 .f32).view.readAt (Elt F) (Rect.unit (s := S32x1024) (k1_off28 k 3#32) S1x16.size (k1_off28_inb k 3)).toLoadRect f) ((Memref.whole cc1_scratch0 : Memref sig .scVector .vmem S32x1024 .f32).view.readAt (Elt F) (Rect.unit (s := S32x1024) (k1_off29 k 3#32) S1x16.size (k1_off29_inb k 3)).toLoadRect f) ((Memref.whole cc1_scratch0 : Memref sig .scVector .vmem S32x1024 .f32).view.readAt (Elt F) (Rect.unit (s := S32x1024) (k1_off30 k 3#32) S1x16.size (k1_off30_inb k 3)).toLoadRect f) ((Memref.whole cc1_scratch0 : Memref sig .scVector .vmem S32x1024 .f32).view.readAt (Elt F) (Rect.unit (s := S32x1024) (k1_off31 k 3#32) S1x16.size (k1_off31_inb k 3)).toLoadRect f) ((Memref.whole cc1_scratch0 : Memref sig .scVector .vmem S32x1024 .f32).view.readAt (Elt F) (Rect.unit (s := S32x1024) (k1_off32 k 3#32) S1x16.size (k1_off32_inb k 3)).toLoadRect f) ((Memref.whole cc1_scratch0 : Memref sig .scVector .vmem S32x1024 .f32).view.readAt (Elt F) (Rect.unit (s := S32x1024) (k1_off33 k 3#32) S1x16.size (k1_off33_inb k 3)).toLoadRect f) ((Memref.whole cc1_scratch0 : Memref sig .scVector .vmem S32x1024 .f32).view.readAt (Elt F) (Rect.unit (s := S32x1024) (k1_off34 k 3#32) S1x16.size (k1_off34_inb k 3)).toLoadRect f)) ((Memref.whole cc1_scratch0 : Memref sig .scVector .vmem S32x1024 .f32).view.readAt (Elt F) (Rect.unit (s := S32x1024) (k1_off35 k 3#32) S1x16.size (k1_off35_inb k 3)).toLoadRect f) ((Memref.whole cc1_scratch0 : Memref sig .scVector .vmem S32x1024 .f32).view.readAt (Elt F) (Rect.unit (s := S32x1024) (k1_off36 k 3#32) S1x16.size (k1_off36_inb k 3)).toLoadRect f) ((Memref.whole cc1_scratch0 : Memref sig .scVector .vmem S32x1024 .f32).view.readAt (Elt F) (Rect.unit (s := S32x1024) (k1_off37 k 3#32) S1x16.size (k1_off37_inb k 3)).toLoadRect f) ((Memref.whole cc1_scratch0 : Memref sig .scVector .vmem S32x1024 .f32).view.readAt (Elt F) (Rect.unit (s := S32x1024) (k1_off38 k 3#32) S1x16.size (k1_off38_inb k 3)).toLoadRect f) ((Memref.whole cc1_scratch0 : Memref sig .scVector .vmem S32x1024 .f32).view.readAt (Elt F) (Rect.unit (s := S32x1024) (k1_off39 k 3#32) S1x16.size (k1_off39_inb k 3)).toLoadRect f)) ((Memref.whole cc1_scratch0 : Memref sig .scVector .vmem S32x1024 .f32).view.readAt (Elt F) (Rect.unit (s := S32x1024) (k1_off40 k 3#32) S1x16.size (k1_off40_inb k 3)).toLoadRect f) x
      = slabSum f (64 * k.val + 48 + (x 0).val) := by
  have hk : k.val < 16 := Nat.lt_of_lt_of_le k.isLt k1_t2_abs.2.1
  refine (chain2_u3 ![((Memref.whole cc1_scratch0 : Memref sig .scVector .vmem S32x1024 .f32).view.readAt (Elt F) (Rect.unit (s := S32x1024) (k1_off9 k 3#32) S1x16.size (k1_off9_inb k 3)).toLoadRect f),
      ((Memref.whole cc1_scratch0 : Memref sig .scVector .vmem S32x1024 .f32).view.readAt (Elt F) (Rect.unit (s := S32x1024) (k1_off10 k 3#32) S1x16.size (k1_off10_inb k 3)).toLoadRect f),
      ((Memref.whole cc1_scratch0 : Memref sig .scVector .vmem S32x1024 .f32).view.readAt (Elt F) (Rect.unit (s := S32x1024) (k1_off11 k 3#32) S1x16.size (k1_off11_inb k 3)).toLoadRect f),
      ((Memref.whole cc1_scratch0 : Memref sig .scVector .vmem S32x1024 .f32).view.readAt (Elt F) (Rect.unit (s := S32x1024) (k1_off12 k 3#32) S1x16.size (k1_off12_inb k 3)).toLoadRect f),
      ((Memref.whole cc1_scratch0 : Memref sig .scVector .vmem S32x1024 .f32).view.readAt (Elt F) (Rect.unit (s := S32x1024) (k1_off13 k 3#32) S1x16.size (k1_off13_inb k 3)).toLoadRect f),
      ((Memref.whole cc1_scratch0 : Memref sig .scVector .vmem S32x1024 .f32).view.readAt (Elt F) (Rect.unit (s := S32x1024) (k1_off14 k 3#32) S1x16.size (k1_off14_inb k 3)).toLoadRect f),
      ((Memref.whole cc1_scratch0 : Memref sig .scVector .vmem S32x1024 .f32).view.readAt (Elt F) (Rect.unit (s := S32x1024) (k1_off15 k 3#32) S1x16.size (k1_off15_inb k 3)).toLoadRect f),
      ((Memref.whole cc1_scratch0 : Memref sig .scVector .vmem S32x1024 .f32).view.readAt (Elt F) (Rect.unit (s := S32x1024) (k1_off16 k 3#32) S1x16.size (k1_off16_inb k 3)).toLoadRect f),
      ((Memref.whole cc1_scratch0 : Memref sig .scVector .vmem S32x1024 .f32).view.readAt (Elt F) (Rect.unit (s := S32x1024) (k1_off17 k 3#32) S1x16.size (k1_off17_inb k 3)).toLoadRect f),
      ((Memref.whole cc1_scratch0 : Memref sig .scVector .vmem S32x1024 .f32).view.readAt (Elt F) (Rect.unit (s := S32x1024) (k1_off18 k 3#32) S1x16.size (k1_off18_inb k 3)).toLoadRect f),
      ((Memref.whole cc1_scratch0 : Memref sig .scVector .vmem S32x1024 .f32).view.readAt (Elt F) (Rect.unit (s := S32x1024) (k1_off19 k 3#32) S1x16.size (k1_off19_inb k 3)).toLoadRect f),
      ((Memref.whole cc1_scratch0 : Memref sig .scVector .vmem S32x1024 .f32).view.readAt (Elt F) (Rect.unit (s := S32x1024) (k1_off20 k 3#32) S1x16.size (k1_off20_inb k 3)).toLoadRect f),
      ((Memref.whole cc1_scratch0 : Memref sig .scVector .vmem S32x1024 .f32).view.readAt (Elt F) (Rect.unit (s := S32x1024) (k1_off21 k 3#32) S1x16.size (k1_off21_inb k 3)).toLoadRect f),
      ((Memref.whole cc1_scratch0 : Memref sig .scVector .vmem S32x1024 .f32).view.readAt (Elt F) (Rect.unit (s := S32x1024) (k1_off22 k 3#32) S1x16.size (k1_off22_inb k 3)).toLoadRect f),
      ((Memref.whole cc1_scratch0 : Memref sig .scVector .vmem S32x1024 .f32).view.readAt (Elt F) (Rect.unit (s := S32x1024) (k1_off23 k 3#32) S1x16.size (k1_off23_inb k 3)).toLoadRect f),
      ((Memref.whole cc1_scratch0 : Memref sig .scVector .vmem S32x1024 .f32).view.readAt (Elt F) (Rect.unit (s := S32x1024) (k1_off24 k 3#32) S1x16.size (k1_off24_inb k 3)).toLoadRect f),
      ((Memref.whole cc1_scratch0 : Memref sig .scVector .vmem S32x1024 .f32).view.readAt (Elt F) (Rect.unit (s := S32x1024) (k1_off25 k 3#32) S1x16.size (k1_off25_inb k 3)).toLoadRect f),
      ((Memref.whole cc1_scratch0 : Memref sig .scVector .vmem S32x1024 .f32).view.readAt (Elt F) (Rect.unit (s := S32x1024) (k1_off26 k 3#32) S1x16.size (k1_off26_inb k 3)).toLoadRect f),
      ((Memref.whole cc1_scratch0 : Memref sig .scVector .vmem S32x1024 .f32).view.readAt (Elt F) (Rect.unit (s := S32x1024) (k1_off27 k 3#32) S1x16.size (k1_off27_inb k 3)).toLoadRect f),
      ((Memref.whole cc1_scratch0 : Memref sig .scVector .vmem S32x1024 .f32).view.readAt (Elt F) (Rect.unit (s := S32x1024) (k1_off28 k 3#32) S1x16.size (k1_off28_inb k 3)).toLoadRect f),
      ((Memref.whole cc1_scratch0 : Memref sig .scVector .vmem S32x1024 .f32).view.readAt (Elt F) (Rect.unit (s := S32x1024) (k1_off29 k 3#32) S1x16.size (k1_off29_inb k 3)).toLoadRect f),
      ((Memref.whole cc1_scratch0 : Memref sig .scVector .vmem S32x1024 .f32).view.readAt (Elt F) (Rect.unit (s := S32x1024) (k1_off30 k 3#32) S1x16.size (k1_off30_inb k 3)).toLoadRect f),
      ((Memref.whole cc1_scratch0 : Memref sig .scVector .vmem S32x1024 .f32).view.readAt (Elt F) (Rect.unit (s := S32x1024) (k1_off31 k 3#32) S1x16.size (k1_off31_inb k 3)).toLoadRect f),
      ((Memref.whole cc1_scratch0 : Memref sig .scVector .vmem S32x1024 .f32).view.readAt (Elt F) (Rect.unit (s := S32x1024) (k1_off32 k 3#32) S1x16.size (k1_off32_inb k 3)).toLoadRect f),
      ((Memref.whole cc1_scratch0 : Memref sig .scVector .vmem S32x1024 .f32).view.readAt (Elt F) (Rect.unit (s := S32x1024) (k1_off33 k 3#32) S1x16.size (k1_off33_inb k 3)).toLoadRect f),
      ((Memref.whole cc1_scratch0 : Memref sig .scVector .vmem S32x1024 .f32).view.readAt (Elt F) (Rect.unit (s := S32x1024) (k1_off34 k 3#32) S1x16.size (k1_off34_inb k 3)).toLoadRect f),
      ((Memref.whole cc1_scratch0 : Memref sig .scVector .vmem S32x1024 .f32).view.readAt (Elt F) (Rect.unit (s := S32x1024) (k1_off35 k 3#32) S1x16.size (k1_off35_inb k 3)).toLoadRect f),
      ((Memref.whole cc1_scratch0 : Memref sig .scVector .vmem S32x1024 .f32).view.readAt (Elt F) (Rect.unit (s := S32x1024) (k1_off36 k 3#32) S1x16.size (k1_off36_inb k 3)).toLoadRect f),
      ((Memref.whole cc1_scratch0 : Memref sig .scVector .vmem S32x1024 .f32).view.readAt (Elt F) (Rect.unit (s := S32x1024) (k1_off37 k 3#32) S1x16.size (k1_off37_inb k 3)).toLoadRect f),
      ((Memref.whole cc1_scratch0 : Memref sig .scVector .vmem S32x1024 .f32).view.readAt (Elt F) (Rect.unit (s := S32x1024) (k1_off38 k 3#32) S1x16.size (k1_off38_inb k 3)).toLoadRect f),
      ((Memref.whole cc1_scratch0 : Memref sig .scVector .vmem S32x1024 .f32).view.readAt (Elt F) (Rect.unit (s := S32x1024) (k1_off39 k 3#32) S1x16.size (k1_off39_inb k 3)).toLoadRect f),
      ((Memref.whole cc1_scratch0 : Memref sig .scVector .vmem S32x1024 .f32).view.readAt (Elt F) (Rect.unit (s := S32x1024) (k1_off40 k 3#32) S1x16.size (k1_off40_inb k 3)).toLoadRect f)] x).trans ?_
  refine lsum32_loads f _ (64 * k.val + 48) (by omega) (fun r l => ?_) x
  fin_cases r
  · exact readAt_row0 _ _ f 0 (64 * k.val + 48) (by omega) (k1_off9_eq k ⟨3, by decide⟩) l
  · exact readAt_row0 _ _ f 1 (64 * k.val + 48) (by omega) (k1_off10_eq k ⟨3, by decide⟩) l
  · exact readAt_row0 _ _ f 2 (64 * k.val + 48) (by omega) (k1_off11_eq k ⟨3, by decide⟩) l
  · exact readAt_row0 _ _ f 3 (64 * k.val + 48) (by omega) (k1_off12_eq k ⟨3, by decide⟩) l
  · exact readAt_row0 _ _ f 4 (64 * k.val + 48) (by omega) (k1_off13_eq k ⟨3, by decide⟩) l
  · exact readAt_row0 _ _ f 5 (64 * k.val + 48) (by omega) (k1_off14_eq k ⟨3, by decide⟩) l
  · exact readAt_row0 _ _ f 6 (64 * k.val + 48) (by omega) (k1_off15_eq k ⟨3, by decide⟩) l
  · exact readAt_row0 _ _ f 7 (64 * k.val + 48) (by omega) (k1_off16_eq k ⟨3, by decide⟩) l
  · exact readAt_row0 _ _ f 8 (64 * k.val + 48) (by omega) (k1_off17_eq k ⟨3, by decide⟩) l
  · exact readAt_row0 _ _ f 9 (64 * k.val + 48) (by omega) (k1_off18_eq k ⟨3, by decide⟩) l
  · exact readAt_row0 _ _ f 10 (64 * k.val + 48) (by omega) (k1_off19_eq k ⟨3, by decide⟩) l
  · exact readAt_row0 _ _ f 11 (64 * k.val + 48) (by omega) (k1_off20_eq k ⟨3, by decide⟩) l
  · exact readAt_row0 _ _ f 12 (64 * k.val + 48) (by omega) (k1_off21_eq k ⟨3, by decide⟩) l
  · exact readAt_row0 _ _ f 13 (64 * k.val + 48) (by omega) (k1_off22_eq k ⟨3, by decide⟩) l
  · exact readAt_row0 _ _ f 14 (64 * k.val + 48) (by omega) (k1_off23_eq k ⟨3, by decide⟩) l
  · exact readAt_row0 _ _ f 15 (64 * k.val + 48) (by omega) (k1_off24_eq k ⟨3, by decide⟩) l
  · exact readAt_row0 _ _ f 16 (64 * k.val + 48) (by omega) (k1_off25_eq k ⟨3, by decide⟩) l
  · exact readAt_row0 _ _ f 17 (64 * k.val + 48) (by omega) (k1_off26_eq k ⟨3, by decide⟩) l
  · exact readAt_row0 _ _ f 18 (64 * k.val + 48) (by omega) (k1_off27_eq k ⟨3, by decide⟩) l
  · exact readAt_row0 _ _ f 19 (64 * k.val + 48) (by omega) (k1_off28_eq k ⟨3, by decide⟩) l
  · exact readAt_row0 _ _ f 20 (64 * k.val + 48) (by omega) (k1_off29_eq k ⟨3, by decide⟩) l
  · exact readAt_row0 _ _ f 21 (64 * k.val + 48) (by omega) (k1_off30_eq k ⟨3, by decide⟩) l
  · exact readAt_row0 _ _ f 22 (64 * k.val + 48) (by omega) (k1_off31_eq k ⟨3, by decide⟩) l
  · exact readAt_row0 _ _ f 23 (64 * k.val + 48) (by omega) (k1_off32_eq k ⟨3, by decide⟩) l
  · exact readAt_row0 _ _ f 24 (64 * k.val + 48) (by omega) (k1_off33_eq k ⟨3, by decide⟩) l
  · exact readAt_row0 _ _ f 25 (64 * k.val + 48) (by omega) (k1_off34_eq k ⟨3, by decide⟩) l
  · exact readAt_row0 _ _ f 26 (64 * k.val + 48) (by omega) (k1_off35_eq k ⟨3, by decide⟩) l
  · exact readAt_row0 _ _ f 27 (64 * k.val + 48) (by omega) (k1_off36_eq k ⟨3, by decide⟩) l
  · exact readAt_row0 _ _ f 28 (64 * k.val + 48) (by omega) (k1_off37_eq k ⟨3, by decide⟩) l
  · exact readAt_row0 _ _ f 29 (64 * k.val + 48) (by omega) (k1_off38_eq k ⟨3, by decide⟩) l
  · exact readAt_row0 _ _ f 30 (64 * k.val + 48) (by omega) (k1_off39_eq k ⟨3, by decide⟩) l
  · exact readAt_row0 _ _ f 31 (64 * k.val + 48) (by omega) (k1_off40_eq k ⟨3, by decide⟩) l

/-- Slab 1, store 0 of trip `k`: lane `x` of the stored vector is the slab's column sum at column `64 k + 0 + x`. -/
theorem pay3_u0 (f : (Memref.whole cc1_scratch1 : Memref sig .scVector .vmem S32x1024 .f32).view.ty.Contents (Elt F))
    (k : Fin k1_t3_loop.trips) (x : S16.Idx) :
    k1_pay27 (k1_pay26 (k1_pay25 (k1_pay24 (k1_pay23 ((Memref.whole cc1_scratch1 : Memref sig .scVector .vmem S32x1024 .f32).view.readAt (Elt F) (Rect.unit (s := S32x1024) (k1_off46 k 0#32) S1x16.size (k1_off46_inb k 0)).toLoadRect f) ((Memref.whole cc1_scratch1 : Memref sig .scVector .vmem S32x1024 .f32).view.readAt (Elt F) (Rect.unit (s := S32x1024) (k1_off47 k 0#32) S1x16.size (k1_off47_inb k 0)).toLoadRect f) ((Memref.whole cc1_scratch1 : Memref sig .scVector .vmem S32x1024 .f32).view.readAt (Elt F) (Rect.unit (s := S32x1024) (k1_off48 k 0#32) S1x16.size (k1_off48_inb k 0)).toLoadRect f) ((Memref.whole cc1_scratch1 : Memref sig .scVector .vmem S32x1024 .f32).view.readAt (Elt F) (Rect.unit (s := S32x1024) (k1_off49 k 0#32) S1x16.size (k1_off49_inb k 0)).toLoadRect f) ((Memref.whole cc1_scratch1 : Memref sig .scVector .vmem S32x1024 .f32).view.readAt (Elt F) (Rect.unit (s := S32x1024) (k1_off50 k 0#32) S1x16.size (k1_off50_inb k 0)).toLoadRect f) ((Memref.whole cc1_scratch1 : Memref sig .scVector .vmem S32x1024 .f32).view.readAt (Elt F) (Rect.unit (s := S32x1024) (k1_off51 k 0#32) S1x16.size (k1_off51_inb k 0)).toLoadRect f) ((Memref.whole cc1_scratch1 : Memref sig .scVector .vmem S32x1024 .f32).view.readAt (Elt F) (Rect.unit (s := S32x1024) (k1_off52 k 0#32) S1x16.size (k1_off52_inb k 0)).toLoadRect f)) ((Memref.whole cc1_scratch1 : Memref sig .scVector .vmem S32x1024 .f32).view.readAt (Elt F) (Rect.unit (s := S32x1024) (k1_off53 k 0#32) S1x16.size (k1_off53_inb k 0)).toLoadRect f) ((Memref.whole cc1_scratch1 : Memref sig .scVector .vmem S32x1024 .f32).view.readAt (Elt F) (Rect.unit (s := S32x1024) (k1_off54 k 0#32) S1x16.size (k1_off54_inb k 0)).toLoadRect f) ((Memref.whole cc1_scratch1 : Memref sig .scVector .vmem S32x1024 .f32).view.readAt (Elt F) (Rect.unit (s := S32x1024) (k1_off55 k 0#32) S1x16.size (k1_off55_inb k 0)).toLoadRect f) ((Memref.whole cc1_scratch1 : Memref sig .scVector .vmem S32x1024 .f32).view.readAt (Elt F) (Rect.unit (s := S32x1024) (k1_off56 k 0#32) S1x16.size (k1_off56_inb k 0)).toLoadRect f) ((Memref.whole cc1_scratch1 : Memref sig .scVector .vmem S32x1024 .f32).view.readAt (Elt F) (Rect.unit (s := S32x1024) (k1_off57 k 0#32) S1x16.size (k1_off57_inb k 0)).toLoadRect f) ((Memref.whole cc1_scratch1 : Memref sig .scVector .vmem S32x1024 .f32).view.readAt (Elt F) (Rect.unit (s := S32x1024) (k1_off58 k 0#32) S1x16.size (k1_off58_inb k 0)).toLoadRect f) ((Memref.whole cc1_scratch1 : Memref sig .scVector .vmem S32x1024 .f32).view.readAt (Elt F) (Rect.unit (s := S32x1024) (k1_off59 k 0#32) S1x16.size (k1_off59_inb k 0)).toLoadRect f)) ((Memref.whole cc1_scratch1 : Memref sig .scVector .vmem S32x1024 .f32).view.readAt (Elt F) (Rect.unit (s := S32x1024) (k1_off60 k 0#32) S1x16.size (k1_off60_inb k 0)).toLoadRect f) ((Memref.whole cc1_scratch1 : Memref sig .scVector .vmem S32x1024 .f32).view.readAt (Elt F) (Rect.unit (s := S32x1024) (k1_off61 k 0#32) S1x16.size (k1_off61_inb k 0)).toLoadRect f) ((Memref.whole cc1_scratch1 : Memref sig .scVector .vmem S32x1024 .f32).view.readAt (Elt F) (Rect.unit (s := S32x1024) (k1_off62 k 0#32) S1x16.size (k1_off62_inb k 0)).toLoadRect f) ((Memref.whole cc1_scratch1 : Memref sig .scVector .vmem S32x1024 .f32).view.readAt (Elt F) (Rect.unit (s := S32x1024) (k1_off63 k 0#32) S1x16.size (k1_off63_inb k 0)).toLoadRect f) ((Memref.whole cc1_scratch1 : Memref sig .scVector .vmem S32x1024 .f32).view.readAt (Elt F) (Rect.unit (s := S32x1024) (k1_off64 k 0#32) S1x16.size (k1_off64_inb k 0)).toLoadRect f) ((Memref.whole cc1_scratch1 : Memref sig .scVector .vmem S32x1024 .f32).view.readAt (Elt F) (Rect.unit (s := S32x1024) (k1_off65 k 0#32) S1x16.size (k1_off65_inb k 0)).toLoadRect f) ((Memref.whole cc1_scratch1 : Memref sig .scVector .vmem S32x1024 .f32).view.readAt (Elt F) (Rect.unit (s := S32x1024) (k1_off66 k 0#32) S1x16.size (k1_off66_inb k 0)).toLoadRect f) ((Memref.whole cc1_scratch1 : Memref sig .scVector .vmem S32x1024 .f32).view.readAt (Elt F) (Rect.unit (s := S32x1024) (k1_off67 k 0#32) S1x16.size (k1_off67_inb k 0)).toLoadRect f)) ((Memref.whole cc1_scratch1 : Memref sig .scVector .vmem S32x1024 .f32).view.readAt (Elt F) (Rect.unit (s := S32x1024) (k1_off68 k 0#32) S1x16.size (k1_off68_inb k 0)).toLoadRect f) ((Memref.whole cc1_scratch1 : Memref sig .scVector .vmem S32x1024 .f32).view.readAt (Elt F) (Rect.unit (s := S32x1024) (k1_off69 k 0#32) S1x16.size (k1_off69_inb k 0)).toLoadRect f) ((Memref.whole cc1_scratch1 : Memref sig .scVector .vmem S32x1024 .f32).view.readAt (Elt F) (Rect.unit (s := S32x1024) (k1_off70 k 0#32) S1x16.size (k1_off70_inb k 0)).toLoadRect f) ((Memref.whole cc1_scratch1 : Memref sig .scVector .vmem S32x1024 .f32).view.readAt (Elt F) (Rect.unit (s := S32x1024) (k1_off71 k 0#32) S1x16.size (k1_off71_inb k 0)).toLoadRect f) ((Memref.whole cc1_scratch1 : Memref sig .scVector .vmem S32x1024 .f32).view.readAt (Elt F) (Rect.unit (s := S32x1024) (k1_off72 k 0#32) S1x16.size (k1_off72_inb k 0)).toLoadRect f) ((Memref.whole cc1_scratch1 : Memref sig .scVector .vmem S32x1024 .f32).view.readAt (Elt F) (Rect.unit (s := S32x1024) (k1_off73 k 0#32) S1x16.size (k1_off73_inb k 0)).toLoadRect f) ((Memref.whole cc1_scratch1 : Memref sig .scVector .vmem S32x1024 .f32).view.readAt (Elt F) (Rect.unit (s := S32x1024) (k1_off74 k 0#32) S1x16.size (k1_off74_inb k 0)).toLoadRect f)) ((Memref.whole cc1_scratch1 : Memref sig .scVector .vmem S32x1024 .f32).view.readAt (Elt F) (Rect.unit (s := S32x1024) (k1_off75 k 0#32) S1x16.size (k1_off75_inb k 0)).toLoadRect f) ((Memref.whole cc1_scratch1 : Memref sig .scVector .vmem S32x1024 .f32).view.readAt (Elt F) (Rect.unit (s := S32x1024) (k1_off76 k 0#32) S1x16.size (k1_off76_inb k 0)).toLoadRect f) ((Memref.whole cc1_scratch1 : Memref sig .scVector .vmem S32x1024 .f32).view.readAt (Elt F) (Rect.unit (s := S32x1024) (k1_off77 k 0#32) S1x16.size (k1_off77_inb k 0)).toLoadRect f) x
      = slabSum f (64 * k.val + (x 0).val) := by
  have hk : k.val < 16 := Nat.lt_of_lt_of_le k.isLt k1_t3_abs.2.1
  refine (chain3_u0 ![((Memref.whole cc1_scratch1 : Memref sig .scVector .vmem S32x1024 .f32).view.readAt (Elt F) (Rect.unit (s := S32x1024) (k1_off46 k 0#32) S1x16.size (k1_off46_inb k 0)).toLoadRect f),
      ((Memref.whole cc1_scratch1 : Memref sig .scVector .vmem S32x1024 .f32).view.readAt (Elt F) (Rect.unit (s := S32x1024) (k1_off47 k 0#32) S1x16.size (k1_off47_inb k 0)).toLoadRect f),
      ((Memref.whole cc1_scratch1 : Memref sig .scVector .vmem S32x1024 .f32).view.readAt (Elt F) (Rect.unit (s := S32x1024) (k1_off48 k 0#32) S1x16.size (k1_off48_inb k 0)).toLoadRect f),
      ((Memref.whole cc1_scratch1 : Memref sig .scVector .vmem S32x1024 .f32).view.readAt (Elt F) (Rect.unit (s := S32x1024) (k1_off49 k 0#32) S1x16.size (k1_off49_inb k 0)).toLoadRect f),
      ((Memref.whole cc1_scratch1 : Memref sig .scVector .vmem S32x1024 .f32).view.readAt (Elt F) (Rect.unit (s := S32x1024) (k1_off50 k 0#32) S1x16.size (k1_off50_inb k 0)).toLoadRect f),
      ((Memref.whole cc1_scratch1 : Memref sig .scVector .vmem S32x1024 .f32).view.readAt (Elt F) (Rect.unit (s := S32x1024) (k1_off51 k 0#32) S1x16.size (k1_off51_inb k 0)).toLoadRect f),
      ((Memref.whole cc1_scratch1 : Memref sig .scVector .vmem S32x1024 .f32).view.readAt (Elt F) (Rect.unit (s := S32x1024) (k1_off52 k 0#32) S1x16.size (k1_off52_inb k 0)).toLoadRect f),
      ((Memref.whole cc1_scratch1 : Memref sig .scVector .vmem S32x1024 .f32).view.readAt (Elt F) (Rect.unit (s := S32x1024) (k1_off53 k 0#32) S1x16.size (k1_off53_inb k 0)).toLoadRect f),
      ((Memref.whole cc1_scratch1 : Memref sig .scVector .vmem S32x1024 .f32).view.readAt (Elt F) (Rect.unit (s := S32x1024) (k1_off54 k 0#32) S1x16.size (k1_off54_inb k 0)).toLoadRect f),
      ((Memref.whole cc1_scratch1 : Memref sig .scVector .vmem S32x1024 .f32).view.readAt (Elt F) (Rect.unit (s := S32x1024) (k1_off55 k 0#32) S1x16.size (k1_off55_inb k 0)).toLoadRect f),
      ((Memref.whole cc1_scratch1 : Memref sig .scVector .vmem S32x1024 .f32).view.readAt (Elt F) (Rect.unit (s := S32x1024) (k1_off56 k 0#32) S1x16.size (k1_off56_inb k 0)).toLoadRect f),
      ((Memref.whole cc1_scratch1 : Memref sig .scVector .vmem S32x1024 .f32).view.readAt (Elt F) (Rect.unit (s := S32x1024) (k1_off57 k 0#32) S1x16.size (k1_off57_inb k 0)).toLoadRect f),
      ((Memref.whole cc1_scratch1 : Memref sig .scVector .vmem S32x1024 .f32).view.readAt (Elt F) (Rect.unit (s := S32x1024) (k1_off58 k 0#32) S1x16.size (k1_off58_inb k 0)).toLoadRect f),
      ((Memref.whole cc1_scratch1 : Memref sig .scVector .vmem S32x1024 .f32).view.readAt (Elt F) (Rect.unit (s := S32x1024) (k1_off59 k 0#32) S1x16.size (k1_off59_inb k 0)).toLoadRect f),
      ((Memref.whole cc1_scratch1 : Memref sig .scVector .vmem S32x1024 .f32).view.readAt (Elt F) (Rect.unit (s := S32x1024) (k1_off60 k 0#32) S1x16.size (k1_off60_inb k 0)).toLoadRect f),
      ((Memref.whole cc1_scratch1 : Memref sig .scVector .vmem S32x1024 .f32).view.readAt (Elt F) (Rect.unit (s := S32x1024) (k1_off61 k 0#32) S1x16.size (k1_off61_inb k 0)).toLoadRect f),
      ((Memref.whole cc1_scratch1 : Memref sig .scVector .vmem S32x1024 .f32).view.readAt (Elt F) (Rect.unit (s := S32x1024) (k1_off62 k 0#32) S1x16.size (k1_off62_inb k 0)).toLoadRect f),
      ((Memref.whole cc1_scratch1 : Memref sig .scVector .vmem S32x1024 .f32).view.readAt (Elt F) (Rect.unit (s := S32x1024) (k1_off63 k 0#32) S1x16.size (k1_off63_inb k 0)).toLoadRect f),
      ((Memref.whole cc1_scratch1 : Memref sig .scVector .vmem S32x1024 .f32).view.readAt (Elt F) (Rect.unit (s := S32x1024) (k1_off64 k 0#32) S1x16.size (k1_off64_inb k 0)).toLoadRect f),
      ((Memref.whole cc1_scratch1 : Memref sig .scVector .vmem S32x1024 .f32).view.readAt (Elt F) (Rect.unit (s := S32x1024) (k1_off65 k 0#32) S1x16.size (k1_off65_inb k 0)).toLoadRect f),
      ((Memref.whole cc1_scratch1 : Memref sig .scVector .vmem S32x1024 .f32).view.readAt (Elt F) (Rect.unit (s := S32x1024) (k1_off66 k 0#32) S1x16.size (k1_off66_inb k 0)).toLoadRect f),
      ((Memref.whole cc1_scratch1 : Memref sig .scVector .vmem S32x1024 .f32).view.readAt (Elt F) (Rect.unit (s := S32x1024) (k1_off67 k 0#32) S1x16.size (k1_off67_inb k 0)).toLoadRect f),
      ((Memref.whole cc1_scratch1 : Memref sig .scVector .vmem S32x1024 .f32).view.readAt (Elt F) (Rect.unit (s := S32x1024) (k1_off68 k 0#32) S1x16.size (k1_off68_inb k 0)).toLoadRect f),
      ((Memref.whole cc1_scratch1 : Memref sig .scVector .vmem S32x1024 .f32).view.readAt (Elt F) (Rect.unit (s := S32x1024) (k1_off69 k 0#32) S1x16.size (k1_off69_inb k 0)).toLoadRect f),
      ((Memref.whole cc1_scratch1 : Memref sig .scVector .vmem S32x1024 .f32).view.readAt (Elt F) (Rect.unit (s := S32x1024) (k1_off70 k 0#32) S1x16.size (k1_off70_inb k 0)).toLoadRect f),
      ((Memref.whole cc1_scratch1 : Memref sig .scVector .vmem S32x1024 .f32).view.readAt (Elt F) (Rect.unit (s := S32x1024) (k1_off71 k 0#32) S1x16.size (k1_off71_inb k 0)).toLoadRect f),
      ((Memref.whole cc1_scratch1 : Memref sig .scVector .vmem S32x1024 .f32).view.readAt (Elt F) (Rect.unit (s := S32x1024) (k1_off72 k 0#32) S1x16.size (k1_off72_inb k 0)).toLoadRect f),
      ((Memref.whole cc1_scratch1 : Memref sig .scVector .vmem S32x1024 .f32).view.readAt (Elt F) (Rect.unit (s := S32x1024) (k1_off73 k 0#32) S1x16.size (k1_off73_inb k 0)).toLoadRect f),
      ((Memref.whole cc1_scratch1 : Memref sig .scVector .vmem S32x1024 .f32).view.readAt (Elt F) (Rect.unit (s := S32x1024) (k1_off74 k 0#32) S1x16.size (k1_off74_inb k 0)).toLoadRect f),
      ((Memref.whole cc1_scratch1 : Memref sig .scVector .vmem S32x1024 .f32).view.readAt (Elt F) (Rect.unit (s := S32x1024) (k1_off75 k 0#32) S1x16.size (k1_off75_inb k 0)).toLoadRect f),
      ((Memref.whole cc1_scratch1 : Memref sig .scVector .vmem S32x1024 .f32).view.readAt (Elt F) (Rect.unit (s := S32x1024) (k1_off76 k 0#32) S1x16.size (k1_off76_inb k 0)).toLoadRect f),
      ((Memref.whole cc1_scratch1 : Memref sig .scVector .vmem S32x1024 .f32).view.readAt (Elt F) (Rect.unit (s := S32x1024) (k1_off77 k 0#32) S1x16.size (k1_off77_inb k 0)).toLoadRect f)] x).trans ?_
  refine lsum32_loads f _ (64 * k.val) (by omega) (fun r l => ?_) x
  fin_cases r
  · exact readAt_row1 _ _ f 0 (64 * k.val) (by omega) (k1_off46_eq k ⟨0, by decide⟩) l
  · exact readAt_row1 _ _ f 1 (64 * k.val) (by omega) (k1_off47_eq k ⟨0, by decide⟩) l
  · exact readAt_row1 _ _ f 2 (64 * k.val) (by omega) (k1_off48_eq k ⟨0, by decide⟩) l
  · exact readAt_row1 _ _ f 3 (64 * k.val) (by omega) (k1_off49_eq k ⟨0, by decide⟩) l
  · exact readAt_row1 _ _ f 4 (64 * k.val) (by omega) (k1_off50_eq k ⟨0, by decide⟩) l
  · exact readAt_row1 _ _ f 5 (64 * k.val) (by omega) (k1_off51_eq k ⟨0, by decide⟩) l
  · exact readAt_row1 _ _ f 6 (64 * k.val) (by omega) (k1_off52_eq k ⟨0, by decide⟩) l
  · exact readAt_row1 _ _ f 7 (64 * k.val) (by omega) (k1_off53_eq k ⟨0, by decide⟩) l
  · exact readAt_row1 _ _ f 8 (64 * k.val) (by omega) (k1_off54_eq k ⟨0, by decide⟩) l
  · exact readAt_row1 _ _ f 9 (64 * k.val) (by omega) (k1_off55_eq k ⟨0, by decide⟩) l
  · exact readAt_row1 _ _ f 10 (64 * k.val) (by omega) (k1_off56_eq k ⟨0, by decide⟩) l
  · exact readAt_row1 _ _ f 11 (64 * k.val) (by omega) (k1_off57_eq k ⟨0, by decide⟩) l
  · exact readAt_row1 _ _ f 12 (64 * k.val) (by omega) (k1_off58_eq k ⟨0, by decide⟩) l
  · exact readAt_row1 _ _ f 13 (64 * k.val) (by omega) (k1_off59_eq k ⟨0, by decide⟩) l
  · exact readAt_row1 _ _ f 14 (64 * k.val) (by omega) (k1_off60_eq k ⟨0, by decide⟩) l
  · exact readAt_row1 _ _ f 15 (64 * k.val) (by omega) (k1_off61_eq k ⟨0, by decide⟩) l
  · exact readAt_row1 _ _ f 16 (64 * k.val) (by omega) (k1_off62_eq k ⟨0, by decide⟩) l
  · exact readAt_row1 _ _ f 17 (64 * k.val) (by omega) (k1_off63_eq k ⟨0, by decide⟩) l
  · exact readAt_row1 _ _ f 18 (64 * k.val) (by omega) (k1_off64_eq k ⟨0, by decide⟩) l
  · exact readAt_row1 _ _ f 19 (64 * k.val) (by omega) (k1_off65_eq k ⟨0, by decide⟩) l
  · exact readAt_row1 _ _ f 20 (64 * k.val) (by omega) (k1_off66_eq k ⟨0, by decide⟩) l
  · exact readAt_row1 _ _ f 21 (64 * k.val) (by omega) (k1_off67_eq k ⟨0, by decide⟩) l
  · exact readAt_row1 _ _ f 22 (64 * k.val) (by omega) (k1_off68_eq k ⟨0, by decide⟩) l
  · exact readAt_row1 _ _ f 23 (64 * k.val) (by omega) (k1_off69_eq k ⟨0, by decide⟩) l
  · exact readAt_row1 _ _ f 24 (64 * k.val) (by omega) (k1_off70_eq k ⟨0, by decide⟩) l
  · exact readAt_row1 _ _ f 25 (64 * k.val) (by omega) (k1_off71_eq k ⟨0, by decide⟩) l
  · exact readAt_row1 _ _ f 26 (64 * k.val) (by omega) (k1_off72_eq k ⟨0, by decide⟩) l
  · exact readAt_row1 _ _ f 27 (64 * k.val) (by omega) (k1_off73_eq k ⟨0, by decide⟩) l
  · exact readAt_row1 _ _ f 28 (64 * k.val) (by omega) (k1_off74_eq k ⟨0, by decide⟩) l
  · exact readAt_row1 _ _ f 29 (64 * k.val) (by omega) (k1_off75_eq k ⟨0, by decide⟩) l
  · exact readAt_row1 _ _ f 30 (64 * k.val) (by omega) (k1_off76_eq k ⟨0, by decide⟩) l
  · exact readAt_row1 _ _ f 31 (64 * k.val) (by omega) (k1_off77_eq k ⟨0, by decide⟩) l

/-- Slab 1, store 1 of trip `k`: lane `x` of the stored vector is the slab's column sum at column `64 k + 16 + x`. -/
theorem pay3_u1 (f : (Memref.whole cc1_scratch1 : Memref sig .scVector .vmem S32x1024 .f32).view.ty.Contents (Elt F))
    (k : Fin k1_t3_loop.trips) (x : S16.Idx) :
    k1_pay34 (k1_pay32 (k1_pay31 (k1_pay29 (k1_pay28 ((Memref.whole cc1_scratch1 : Memref sig .scVector .vmem S32x1024 .f32).view.readAt (Elt F) (Rect.unit (s := S32x1024) (k1_off46 k 1#32) S1x16.size (k1_off46_inb k 1)).toLoadRect f) ((Memref.whole cc1_scratch1 : Memref sig .scVector .vmem S32x1024 .f32).view.readAt (Elt F) (Rect.unit (s := S32x1024) (k1_off47 k 1#32) S1x16.size (k1_off47_inb k 1)).toLoadRect f) ((Memref.whole cc1_scratch1 : Memref sig .scVector .vmem S32x1024 .f32).view.readAt (Elt F) (Rect.unit (s := S32x1024) (k1_off48 k 1#32) S1x16.size (k1_off48_inb k 1)).toLoadRect f)) ((Memref.whole cc1_scratch1 : Memref sig .scVector .vmem S32x1024 .f32).view.readAt (Elt F) (Rect.unit (s := S32x1024) (k1_off49 k 1#32) S1x16.size (k1_off49_inb k 1)).toLoadRect f) ((Memref.whole cc1_scratch1 : Memref sig .scVector .vmem S32x1024 .f32).view.readAt (Elt F) (Rect.unit (s := S32x1024) (k1_off50 k 1#32) S1x16.size (k1_off50_inb k 1)).toLoadRect f) ((Memref.whole cc1_scratch1 : Memref sig .scVector .vmem S32x1024 .f32).view.readAt (Elt F) (Rect.unit (s := S32x1024) (k1_off51 k 1#32) S1x16.size (k1_off51_inb k 1)).toLoadRect f) ((Memref.whole cc1_scratch1 : Memref sig .scVector .vmem S32x1024 .f32).view.readAt (Elt F) (Rect.unit (s := S32x1024) (k1_off52 k 1#32) S1x16.size (k1_off52_inb k 1)).toLoadRect f) ((Memref.whole cc1_scratch1 : Memref sig .scVector .vmem S32x1024 .f32).view.readAt (Elt F) (Rect.unit (s := S32x1024) (k1_off53 k 1#32) S1x16.size (k1_off53_inb k 1)).toLoadRect f) ((Memref.whole cc1_scratch1 : Memref sig .scVector .vmem S32x1024 .f32).view.readAt (Elt F) (Rect.unit (s := S32x1024) (k1_off54 k 1#32) S1x16.size (k1_off54_inb k 1)).toLoadRect f) ((Memref.whole cc1_scratch1 : Memref sig .scVector .vmem S32x1024 .f32).view.readAt (Elt F) (Rect.unit (s := S32x1024) (k1_off55 k 1#32) S1x16.size (k1_off55_inb k 1)).toLoadRect f)) (k1_pay30 ((Memref.whole cc1_scratch1 : Memref sig .scVector .vmem S32x1024 .f32).view.readAt (Elt F) (Rect.unit (s := S32x1024) (k1_off56 k 1#32) S1x16.size (k1_off56_inb k 1)).toLoadRect f)) ((Memref.whole cc1_scratch1 : Memref sig .scVector .vmem S32x1024 .f32).view.readAt (Elt F) (Rect.unit (s := S32x1024) (k1_off57 k 1#32) S1x16.size (k1_off57_inb k 1)).toLoadRect f) ((Memref.whole cc1_scratch1 : Memref sig .scVector .vmem S32x1024 .f32).view.readAt (Elt F) (Rect.unit (s := S32x1024) (k1_off58 k 1#32) S1x16.size (k1_off58_inb k 1)).toLoadRect f) ((Memref.whole cc1_scratch1 : Memref sig .scVector .vmem S32x1024 .f32).view.readAt (Elt F) (Rect.unit (s := S32x1024) (k1_off59 k 1#32) S1x16.size (k1_off59_inb k 1)).toLoadRect f) ((Memref.whole cc1_scratch1 : Memref sig .scVector .vmem S32x1024 .f32).view.readAt (Elt F) (Rect.unit (s := S32x1024) (k1_off60 k 1#32) S1x16.size (k1_off60_inb k 1)).toLoadRect f) ((Memref.whole cc1_scratch1 : Memref sig .scVector .vmem S32x1024 .f32).view.readAt (Elt F) (Rect.unit (s := S32x1024) (k1_off61 k 1#32) S1x16.size (k1_off61_inb k 1)).toLoadRect f) ((Memref.whole cc1_scratch1 : Memref sig .scVector .vmem S32x1024 .f32).view.readAt (Elt F) (Rect.unit (s := S32x1024) (k1_off62 k 1#32) S1x16.size (k1_off62_inb k 1)).toLoadRect f) ((Memref.whole cc1_scratch1 : Memref sig .scVector .vmem S32x1024 .f32).view.readAt (Elt F) (Rect.unit (s := S32x1024) (k1_off63 k 1#32) S1x16.size (k1_off63_inb k 1)).toLoadRect f)) ((Memref.whole cc1_scratch1 : Memref sig .scVector .vmem S32x1024 .f32).view.readAt (Elt F) (Rect.unit (s := S32x1024) (k1_off64 k 1#32) S1x16.size (k1_off64_inb k 1)).toLoadRect f) ((Memref.whole cc1_scratch1 : Memref sig .scVector .vmem S32x1024 .f32).view.readAt (Elt F) (Rect.unit (s := S32x1024) (k1_off65 k 1#32) S1x16.size (k1_off65_inb k 1)).toLoadRect f) ((Memref.whole cc1_scratch1 : Memref sig .scVector .vmem S32x1024 .f32).view.readAt (Elt F) (Rect.unit (s := S32x1024) (k1_off66 k 1#32) S1x16.size (k1_off66_inb k 1)).toLoadRect f) ((Memref.whole cc1_scratch1 : Memref sig .scVector .vmem S32x1024 .f32).view.readAt (Elt F) (Rect.unit (s := S32x1024) (k1_off67 k 1#32) S1x16.size (k1_off67_inb k 1)).toLoadRect f) ((Memref.whole cc1_scratch1 : Memref sig .scVector .vmem S32x1024 .f32).view.readAt (Elt F) (Rect.unit (s := S32x1024) (k1_off68 k 1#32) S1x16.size (k1_off68_inb k 1)).toLoadRect f) ((Memref.whole cc1_scratch1 : Memref sig .scVector .vmem S32x1024 .f32).view.readAt (Elt F) (Rect.unit (s := S32x1024) (k1_off69 k 1#32) S1x16.size (k1_off69_inb k 1)).toLoadRect f) ((Memref.whole cc1_scratch1 : Memref sig .scVector .vmem S32x1024 .f32).view.readAt (Elt F) (Rect.unit (s := S32x1024) (k1_off70 k 1#32) S1x16.size (k1_off70_inb k 1)).toLoadRect f)) (k1_pay33 ((Memref.whole cc1_scratch1 : Memref sig .scVector .vmem S32x1024 .f32).view.readAt (Elt F) (Rect.unit (s := S32x1024) (k1_off71 k 1#32) S1x16.size (k1_off71_inb k 1)).toLoadRect f)) ((Memref.whole cc1_scratch1 : Memref sig .scVector .vmem S32x1024 .f32).view.readAt (Elt F) (Rect.unit (s := S32x1024) (k1_off72 k 1#32) S1x16.size (k1_off72_inb k 1)).toLoadRect f) ((Memref.whole cc1_scratch1 : Memref sig .scVector .vmem S32x1024 .f32).view.readAt (Elt F) (Rect.unit (s := S32x1024) (k1_off73 k 1#32) S1x16.size (k1_off73_inb k 1)).toLoadRect f) ((Memref.whole cc1_scratch1 : Memref sig .scVector .vmem S32x1024 .f32).view.readAt (Elt F) (Rect.unit (s := S32x1024) (k1_off74 k 1#32) S1x16.size (k1_off74_inb k 1)).toLoadRect f) ((Memref.whole cc1_scratch1 : Memref sig .scVector .vmem S32x1024 .f32).view.readAt (Elt F) (Rect.unit (s := S32x1024) (k1_off75 k 1#32) S1x16.size (k1_off75_inb k 1)).toLoadRect f) ((Memref.whole cc1_scratch1 : Memref sig .scVector .vmem S32x1024 .f32).view.readAt (Elt F) (Rect.unit (s := S32x1024) (k1_off76 k 1#32) S1x16.size (k1_off76_inb k 1)).toLoadRect f) ((Memref.whole cc1_scratch1 : Memref sig .scVector .vmem S32x1024 .f32).view.readAt (Elt F) (Rect.unit (s := S32x1024) (k1_off77 k 1#32) S1x16.size (k1_off77_inb k 1)).toLoadRect f) x
      = slabSum f (64 * k.val + 16 + (x 0).val) := by
  have hk : k.val < 16 := Nat.lt_of_lt_of_le k.isLt k1_t3_abs.2.1
  refine (chain3_u1 ![((Memref.whole cc1_scratch1 : Memref sig .scVector .vmem S32x1024 .f32).view.readAt (Elt F) (Rect.unit (s := S32x1024) (k1_off46 k 1#32) S1x16.size (k1_off46_inb k 1)).toLoadRect f),
      ((Memref.whole cc1_scratch1 : Memref sig .scVector .vmem S32x1024 .f32).view.readAt (Elt F) (Rect.unit (s := S32x1024) (k1_off47 k 1#32) S1x16.size (k1_off47_inb k 1)).toLoadRect f),
      ((Memref.whole cc1_scratch1 : Memref sig .scVector .vmem S32x1024 .f32).view.readAt (Elt F) (Rect.unit (s := S32x1024) (k1_off48 k 1#32) S1x16.size (k1_off48_inb k 1)).toLoadRect f),
      ((Memref.whole cc1_scratch1 : Memref sig .scVector .vmem S32x1024 .f32).view.readAt (Elt F) (Rect.unit (s := S32x1024) (k1_off49 k 1#32) S1x16.size (k1_off49_inb k 1)).toLoadRect f),
      ((Memref.whole cc1_scratch1 : Memref sig .scVector .vmem S32x1024 .f32).view.readAt (Elt F) (Rect.unit (s := S32x1024) (k1_off50 k 1#32) S1x16.size (k1_off50_inb k 1)).toLoadRect f),
      ((Memref.whole cc1_scratch1 : Memref sig .scVector .vmem S32x1024 .f32).view.readAt (Elt F) (Rect.unit (s := S32x1024) (k1_off51 k 1#32) S1x16.size (k1_off51_inb k 1)).toLoadRect f),
      ((Memref.whole cc1_scratch1 : Memref sig .scVector .vmem S32x1024 .f32).view.readAt (Elt F) (Rect.unit (s := S32x1024) (k1_off52 k 1#32) S1x16.size (k1_off52_inb k 1)).toLoadRect f),
      ((Memref.whole cc1_scratch1 : Memref sig .scVector .vmem S32x1024 .f32).view.readAt (Elt F) (Rect.unit (s := S32x1024) (k1_off53 k 1#32) S1x16.size (k1_off53_inb k 1)).toLoadRect f),
      ((Memref.whole cc1_scratch1 : Memref sig .scVector .vmem S32x1024 .f32).view.readAt (Elt F) (Rect.unit (s := S32x1024) (k1_off54 k 1#32) S1x16.size (k1_off54_inb k 1)).toLoadRect f),
      ((Memref.whole cc1_scratch1 : Memref sig .scVector .vmem S32x1024 .f32).view.readAt (Elt F) (Rect.unit (s := S32x1024) (k1_off55 k 1#32) S1x16.size (k1_off55_inb k 1)).toLoadRect f),
      ((Memref.whole cc1_scratch1 : Memref sig .scVector .vmem S32x1024 .f32).view.readAt (Elt F) (Rect.unit (s := S32x1024) (k1_off56 k 1#32) S1x16.size (k1_off56_inb k 1)).toLoadRect f),
      ((Memref.whole cc1_scratch1 : Memref sig .scVector .vmem S32x1024 .f32).view.readAt (Elt F) (Rect.unit (s := S32x1024) (k1_off57 k 1#32) S1x16.size (k1_off57_inb k 1)).toLoadRect f),
      ((Memref.whole cc1_scratch1 : Memref sig .scVector .vmem S32x1024 .f32).view.readAt (Elt F) (Rect.unit (s := S32x1024) (k1_off58 k 1#32) S1x16.size (k1_off58_inb k 1)).toLoadRect f),
      ((Memref.whole cc1_scratch1 : Memref sig .scVector .vmem S32x1024 .f32).view.readAt (Elt F) (Rect.unit (s := S32x1024) (k1_off59 k 1#32) S1x16.size (k1_off59_inb k 1)).toLoadRect f),
      ((Memref.whole cc1_scratch1 : Memref sig .scVector .vmem S32x1024 .f32).view.readAt (Elt F) (Rect.unit (s := S32x1024) (k1_off60 k 1#32) S1x16.size (k1_off60_inb k 1)).toLoadRect f),
      ((Memref.whole cc1_scratch1 : Memref sig .scVector .vmem S32x1024 .f32).view.readAt (Elt F) (Rect.unit (s := S32x1024) (k1_off61 k 1#32) S1x16.size (k1_off61_inb k 1)).toLoadRect f),
      ((Memref.whole cc1_scratch1 : Memref sig .scVector .vmem S32x1024 .f32).view.readAt (Elt F) (Rect.unit (s := S32x1024) (k1_off62 k 1#32) S1x16.size (k1_off62_inb k 1)).toLoadRect f),
      ((Memref.whole cc1_scratch1 : Memref sig .scVector .vmem S32x1024 .f32).view.readAt (Elt F) (Rect.unit (s := S32x1024) (k1_off63 k 1#32) S1x16.size (k1_off63_inb k 1)).toLoadRect f),
      ((Memref.whole cc1_scratch1 : Memref sig .scVector .vmem S32x1024 .f32).view.readAt (Elt F) (Rect.unit (s := S32x1024) (k1_off64 k 1#32) S1x16.size (k1_off64_inb k 1)).toLoadRect f),
      ((Memref.whole cc1_scratch1 : Memref sig .scVector .vmem S32x1024 .f32).view.readAt (Elt F) (Rect.unit (s := S32x1024) (k1_off65 k 1#32) S1x16.size (k1_off65_inb k 1)).toLoadRect f),
      ((Memref.whole cc1_scratch1 : Memref sig .scVector .vmem S32x1024 .f32).view.readAt (Elt F) (Rect.unit (s := S32x1024) (k1_off66 k 1#32) S1x16.size (k1_off66_inb k 1)).toLoadRect f),
      ((Memref.whole cc1_scratch1 : Memref sig .scVector .vmem S32x1024 .f32).view.readAt (Elt F) (Rect.unit (s := S32x1024) (k1_off67 k 1#32) S1x16.size (k1_off67_inb k 1)).toLoadRect f),
      ((Memref.whole cc1_scratch1 : Memref sig .scVector .vmem S32x1024 .f32).view.readAt (Elt F) (Rect.unit (s := S32x1024) (k1_off68 k 1#32) S1x16.size (k1_off68_inb k 1)).toLoadRect f),
      ((Memref.whole cc1_scratch1 : Memref sig .scVector .vmem S32x1024 .f32).view.readAt (Elt F) (Rect.unit (s := S32x1024) (k1_off69 k 1#32) S1x16.size (k1_off69_inb k 1)).toLoadRect f),
      ((Memref.whole cc1_scratch1 : Memref sig .scVector .vmem S32x1024 .f32).view.readAt (Elt F) (Rect.unit (s := S32x1024) (k1_off70 k 1#32) S1x16.size (k1_off70_inb k 1)).toLoadRect f),
      ((Memref.whole cc1_scratch1 : Memref sig .scVector .vmem S32x1024 .f32).view.readAt (Elt F) (Rect.unit (s := S32x1024) (k1_off71 k 1#32) S1x16.size (k1_off71_inb k 1)).toLoadRect f),
      ((Memref.whole cc1_scratch1 : Memref sig .scVector .vmem S32x1024 .f32).view.readAt (Elt F) (Rect.unit (s := S32x1024) (k1_off72 k 1#32) S1x16.size (k1_off72_inb k 1)).toLoadRect f),
      ((Memref.whole cc1_scratch1 : Memref sig .scVector .vmem S32x1024 .f32).view.readAt (Elt F) (Rect.unit (s := S32x1024) (k1_off73 k 1#32) S1x16.size (k1_off73_inb k 1)).toLoadRect f),
      ((Memref.whole cc1_scratch1 : Memref sig .scVector .vmem S32x1024 .f32).view.readAt (Elt F) (Rect.unit (s := S32x1024) (k1_off74 k 1#32) S1x16.size (k1_off74_inb k 1)).toLoadRect f),
      ((Memref.whole cc1_scratch1 : Memref sig .scVector .vmem S32x1024 .f32).view.readAt (Elt F) (Rect.unit (s := S32x1024) (k1_off75 k 1#32) S1x16.size (k1_off75_inb k 1)).toLoadRect f),
      ((Memref.whole cc1_scratch1 : Memref sig .scVector .vmem S32x1024 .f32).view.readAt (Elt F) (Rect.unit (s := S32x1024) (k1_off76 k 1#32) S1x16.size (k1_off76_inb k 1)).toLoadRect f),
      ((Memref.whole cc1_scratch1 : Memref sig .scVector .vmem S32x1024 .f32).view.readAt (Elt F) (Rect.unit (s := S32x1024) (k1_off77 k 1#32) S1x16.size (k1_off77_inb k 1)).toLoadRect f)] x).trans ?_
  refine lsum32_loads f _ (64 * k.val + 16) (by omega) (fun r l => ?_) x
  fin_cases r
  · exact readAt_row1 _ _ f 0 (64 * k.val + 16) (by omega) (k1_off46_eq k ⟨1, by decide⟩) l
  · exact readAt_row1 _ _ f 1 (64 * k.val + 16) (by omega) (k1_off47_eq k ⟨1, by decide⟩) l
  · exact readAt_row1 _ _ f 2 (64 * k.val + 16) (by omega) (k1_off48_eq k ⟨1, by decide⟩) l
  · exact readAt_row1 _ _ f 3 (64 * k.val + 16) (by omega) (k1_off49_eq k ⟨1, by decide⟩) l
  · exact readAt_row1 _ _ f 4 (64 * k.val + 16) (by omega) (k1_off50_eq k ⟨1, by decide⟩) l
  · exact readAt_row1 _ _ f 5 (64 * k.val + 16) (by omega) (k1_off51_eq k ⟨1, by decide⟩) l
  · exact readAt_row1 _ _ f 6 (64 * k.val + 16) (by omega) (k1_off52_eq k ⟨1, by decide⟩) l
  · exact readAt_row1 _ _ f 7 (64 * k.val + 16) (by omega) (k1_off53_eq k ⟨1, by decide⟩) l
  · exact readAt_row1 _ _ f 8 (64 * k.val + 16) (by omega) (k1_off54_eq k ⟨1, by decide⟩) l
  · exact readAt_row1 _ _ f 9 (64 * k.val + 16) (by omega) (k1_off55_eq k ⟨1, by decide⟩) l
  · exact readAt_row1 _ _ f 10 (64 * k.val + 16) (by omega) (k1_off56_eq k ⟨1, by decide⟩) l
  · exact readAt_row1 _ _ f 11 (64 * k.val + 16) (by omega) (k1_off57_eq k ⟨1, by decide⟩) l
  · exact readAt_row1 _ _ f 12 (64 * k.val + 16) (by omega) (k1_off58_eq k ⟨1, by decide⟩) l
  · exact readAt_row1 _ _ f 13 (64 * k.val + 16) (by omega) (k1_off59_eq k ⟨1, by decide⟩) l
  · exact readAt_row1 _ _ f 14 (64 * k.val + 16) (by omega) (k1_off60_eq k ⟨1, by decide⟩) l
  · exact readAt_row1 _ _ f 15 (64 * k.val + 16) (by omega) (k1_off61_eq k ⟨1, by decide⟩) l
  · exact readAt_row1 _ _ f 16 (64 * k.val + 16) (by omega) (k1_off62_eq k ⟨1, by decide⟩) l
  · exact readAt_row1 _ _ f 17 (64 * k.val + 16) (by omega) (k1_off63_eq k ⟨1, by decide⟩) l
  · exact readAt_row1 _ _ f 18 (64 * k.val + 16) (by omega) (k1_off64_eq k ⟨1, by decide⟩) l
  · exact readAt_row1 _ _ f 19 (64 * k.val + 16) (by omega) (k1_off65_eq k ⟨1, by decide⟩) l
  · exact readAt_row1 _ _ f 20 (64 * k.val + 16) (by omega) (k1_off66_eq k ⟨1, by decide⟩) l
  · exact readAt_row1 _ _ f 21 (64 * k.val + 16) (by omega) (k1_off67_eq k ⟨1, by decide⟩) l
  · exact readAt_row1 _ _ f 22 (64 * k.val + 16) (by omega) (k1_off68_eq k ⟨1, by decide⟩) l
  · exact readAt_row1 _ _ f 23 (64 * k.val + 16) (by omega) (k1_off69_eq k ⟨1, by decide⟩) l
  · exact readAt_row1 _ _ f 24 (64 * k.val + 16) (by omega) (k1_off70_eq k ⟨1, by decide⟩) l
  · exact readAt_row1 _ _ f 25 (64 * k.val + 16) (by omega) (k1_off71_eq k ⟨1, by decide⟩) l
  · exact readAt_row1 _ _ f 26 (64 * k.val + 16) (by omega) (k1_off72_eq k ⟨1, by decide⟩) l
  · exact readAt_row1 _ _ f 27 (64 * k.val + 16) (by omega) (k1_off73_eq k ⟨1, by decide⟩) l
  · exact readAt_row1 _ _ f 28 (64 * k.val + 16) (by omega) (k1_off74_eq k ⟨1, by decide⟩) l
  · exact readAt_row1 _ _ f 29 (64 * k.val + 16) (by omega) (k1_off75_eq k ⟨1, by decide⟩) l
  · exact readAt_row1 _ _ f 30 (64 * k.val + 16) (by omega) (k1_off76_eq k ⟨1, by decide⟩) l
  · exact readAt_row1 _ _ f 31 (64 * k.val + 16) (by omega) (k1_off77_eq k ⟨1, by decide⟩) l

/-- Slab 1, store 2 of trip `k`: lane `x` of the stored vector is the slab's column sum at column `64 k + 32 + x`. -/
theorem pay3_u2 (f : (Memref.whole cc1_scratch1 : Memref sig .scVector .vmem S32x1024 .f32).view.ty.Contents (Elt F))
    (k : Fin k1_t3_loop.trips) (x : S16.Idx) :
    k1_pay39 (k1_pay38 (k1_pay37 (k1_pay36 (k1_pay35 ((Memref.whole cc1_scratch1 : Memref sig .scVector .vmem S32x1024 .f32).view.readAt (Elt F) (Rect.unit (s := S32x1024) (k1_off46 k 2#32) S1x16.size (k1_off46_inb k 2)).toLoadRect f) ((Memref.whole cc1_scratch1 : Memref sig .scVector .vmem S32x1024 .f32).view.readAt (Elt F) (Rect.unit (s := S32x1024) (k1_off47 k 2#32) S1x16.size (k1_off47_inb k 2)).toLoadRect f) ((Memref.whole cc1_scratch1 : Memref sig .scVector .vmem S32x1024 .f32).view.readAt (Elt F) (Rect.unit (s := S32x1024) (k1_off48 k 2#32) S1x16.size (k1_off48_inb k 2)).toLoadRect f) ((Memref.whole cc1_scratch1 : Memref sig .scVector .vmem S32x1024 .f32).view.readAt (Elt F) (Rect.unit (s := S32x1024) (k1_off49 k 2#32) S1x16.size (k1_off49_inb k 2)).toLoadRect f) ((Memref.whole cc1_scratch1 : Memref sig .scVector .vmem S32x1024 .f32).view.readAt (Elt F) (Rect.unit (s := S32x1024) (k1_off50 k 2#32) S1x16.size (k1_off50_inb k 2)).toLoadRect f) ((Memref.whole cc1_scratch1 : Memref sig .scVector .vmem S32x1024 .f32).view.readAt (Elt F) (Rect.unit (s := S32x1024) (k1_off51 k 2#32) S1x16.size (k1_off51_inb k 2)).toLoadRect f) ((Memref.whole cc1_scratch1 : Memref sig .scVector .vmem S32x1024 .f32).view.readAt (Elt F) (Rect.unit (s := S32x1024) (k1_off52 k 2#32) S1x16.size (k1_off52_inb k 2)).toLoadRect f)) ((Memref.whole cc1_scratch1 : Memref sig .scVector .vmem S32x1024 .f32).view.readAt (Elt F) (Rect.unit (s := S32x1024) (k1_off53 k 2#32) S1x16.size (k1_off53_inb k 2)).toLoadRect f) ((Memref.whole cc1_scratch1 : Memref sig .scVector .vmem S32x1024 .f32).view.readAt (Elt F) (Rect.unit (s := S32x1024) (k1_off54 k 2#32) S1x16.size (k1_off54_inb k 2)).toLoadRect f) ((Memref.whole cc1_scratch1 : Memref sig .scVector .vmem S32x1024 .f32).view.readAt (Elt F) (Rect.unit (s := S32x1024) (k1_off55 k 2#32) S1x16.size (k1_off55_inb k 2)).toLoadRect f) ((Memref.whole cc1_scratch1 : Memref sig .scVector .vmem S32x1024 .f32).view.readAt (Elt F) (Rect.unit (s := S32x1024) (k1_off56 k 2#32) S1x16.size (k1_off56_inb k 2)).toLoadRect f) ((Memref.whole cc1_scratch1 : Memref sig .scVector .vmem S32x1024 .f32).view.readAt (Elt F) (Rect.unit (s := S32x1024) (k1_off57 k 2#32) S1x16.size (k1_off57_inb k 2)).toLoadRect f) ((Memref.whole cc1_scratch1 : Memref sig .scVector .vmem S32x1024 .f32).view.readAt (Elt F) (Rect.unit (s := S32x1024) (k1_off58 k 2#32) S1x16.size (k1_off58_inb k 2)).toLoadRect f) ((Memref.whole cc1_scratch1 : Memref sig .scVector .vmem S32x1024 .f32).view.readAt (Elt F) (Rect.unit (s := S32x1024) (k1_off59 k 2#32) S1x16.size (k1_off59_inb k 2)).toLoadRect f)) ((Memref.whole cc1_scratch1 : Memref sig .scVector .vmem S32x1024 .f32).view.readAt (Elt F) (Rect.unit (s := S32x1024) (k1_off60 k 2#32) S1x16.size (k1_off60_inb k 2)).toLoadRect f) ((Memref.whole cc1_scratch1 : Memref sig .scVector .vmem S32x1024 .f32).view.readAt (Elt F) (Rect.unit (s := S32x1024) (k1_off61 k 2#32) S1x16.size (k1_off61_inb k 2)).toLoadRect f) ((Memref.whole cc1_scratch1 : Memref sig .scVector .vmem S32x1024 .f32).view.readAt (Elt F) (Rect.unit (s := S32x1024) (k1_off62 k 2#32) S1x16.size (k1_off62_inb k 2)).toLoadRect f) ((Memref.whole cc1_scratch1 : Memref sig .scVector .vmem S32x1024 .f32).view.readAt (Elt F) (Rect.unit (s := S32x1024) (k1_off63 k 2#32) S1x16.size (k1_off63_inb k 2)).toLoadRect f) ((Memref.whole cc1_scratch1 : Memref sig .scVector .vmem S32x1024 .f32).view.readAt (Elt F) (Rect.unit (s := S32x1024) (k1_off64 k 2#32) S1x16.size (k1_off64_inb k 2)).toLoadRect f) ((Memref.whole cc1_scratch1 : Memref sig .scVector .vmem S32x1024 .f32).view.readAt (Elt F) (Rect.unit (s := S32x1024) (k1_off65 k 2#32) S1x16.size (k1_off65_inb k 2)).toLoadRect f) ((Memref.whole cc1_scratch1 : Memref sig .scVector .vmem S32x1024 .f32).view.readAt (Elt F) (Rect.unit (s := S32x1024) (k1_off66 k 2#32) S1x16.size (k1_off66_inb k 2)).toLoadRect f) ((Memref.whole cc1_scratch1 : Memref sig .scVector .vmem S32x1024 .f32).view.readAt (Elt F) (Rect.unit (s := S32x1024) (k1_off67 k 2#32) S1x16.size (k1_off67_inb k 2)).toLoadRect f)) ((Memref.whole cc1_scratch1 : Memref sig .scVector .vmem S32x1024 .f32).view.readAt (Elt F) (Rect.unit (s := S32x1024) (k1_off68 k 2#32) S1x16.size (k1_off68_inb k 2)).toLoadRect f) ((Memref.whole cc1_scratch1 : Memref sig .scVector .vmem S32x1024 .f32).view.readAt (Elt F) (Rect.unit (s := S32x1024) (k1_off69 k 2#32) S1x16.size (k1_off69_inb k 2)).toLoadRect f) ((Memref.whole cc1_scratch1 : Memref sig .scVector .vmem S32x1024 .f32).view.readAt (Elt F) (Rect.unit (s := S32x1024) (k1_off70 k 2#32) S1x16.size (k1_off70_inb k 2)).toLoadRect f) ((Memref.whole cc1_scratch1 : Memref sig .scVector .vmem S32x1024 .f32).view.readAt (Elt F) (Rect.unit (s := S32x1024) (k1_off71 k 2#32) S1x16.size (k1_off71_inb k 2)).toLoadRect f) ((Memref.whole cc1_scratch1 : Memref sig .scVector .vmem S32x1024 .f32).view.readAt (Elt F) (Rect.unit (s := S32x1024) (k1_off72 k 2#32) S1x16.size (k1_off72_inb k 2)).toLoadRect f) ((Memref.whole cc1_scratch1 : Memref sig .scVector .vmem S32x1024 .f32).view.readAt (Elt F) (Rect.unit (s := S32x1024) (k1_off73 k 2#32) S1x16.size (k1_off73_inb k 2)).toLoadRect f) ((Memref.whole cc1_scratch1 : Memref sig .scVector .vmem S32x1024 .f32).view.readAt (Elt F) (Rect.unit (s := S32x1024) (k1_off74 k 2#32) S1x16.size (k1_off74_inb k 2)).toLoadRect f)) ((Memref.whole cc1_scratch1 : Memref sig .scVector .vmem S32x1024 .f32).view.readAt (Elt F) (Rect.unit (s := S32x1024) (k1_off75 k 2#32) S1x16.size (k1_off75_inb k 2)).toLoadRect f) ((Memref.whole cc1_scratch1 : Memref sig .scVector .vmem S32x1024 .f32).view.readAt (Elt F) (Rect.unit (s := S32x1024) (k1_off76 k 2#32) S1x16.size (k1_off76_inb k 2)).toLoadRect f) ((Memref.whole cc1_scratch1 : Memref sig .scVector .vmem S32x1024 .f32).view.readAt (Elt F) (Rect.unit (s := S32x1024) (k1_off77 k 2#32) S1x16.size (k1_off77_inb k 2)).toLoadRect f) x
      = slabSum f (64 * k.val + 32 + (x 0).val) := by
  have hk : k.val < 16 := Nat.lt_of_lt_of_le k.isLt k1_t3_abs.2.1
  refine (chain3_u2 ![((Memref.whole cc1_scratch1 : Memref sig .scVector .vmem S32x1024 .f32).view.readAt (Elt F) (Rect.unit (s := S32x1024) (k1_off46 k 2#32) S1x16.size (k1_off46_inb k 2)).toLoadRect f),
      ((Memref.whole cc1_scratch1 : Memref sig .scVector .vmem S32x1024 .f32).view.readAt (Elt F) (Rect.unit (s := S32x1024) (k1_off47 k 2#32) S1x16.size (k1_off47_inb k 2)).toLoadRect f),
      ((Memref.whole cc1_scratch1 : Memref sig .scVector .vmem S32x1024 .f32).view.readAt (Elt F) (Rect.unit (s := S32x1024) (k1_off48 k 2#32) S1x16.size (k1_off48_inb k 2)).toLoadRect f),
      ((Memref.whole cc1_scratch1 : Memref sig .scVector .vmem S32x1024 .f32).view.readAt (Elt F) (Rect.unit (s := S32x1024) (k1_off49 k 2#32) S1x16.size (k1_off49_inb k 2)).toLoadRect f),
      ((Memref.whole cc1_scratch1 : Memref sig .scVector .vmem S32x1024 .f32).view.readAt (Elt F) (Rect.unit (s := S32x1024) (k1_off50 k 2#32) S1x16.size (k1_off50_inb k 2)).toLoadRect f),
      ((Memref.whole cc1_scratch1 : Memref sig .scVector .vmem S32x1024 .f32).view.readAt (Elt F) (Rect.unit (s := S32x1024) (k1_off51 k 2#32) S1x16.size (k1_off51_inb k 2)).toLoadRect f),
      ((Memref.whole cc1_scratch1 : Memref sig .scVector .vmem S32x1024 .f32).view.readAt (Elt F) (Rect.unit (s := S32x1024) (k1_off52 k 2#32) S1x16.size (k1_off52_inb k 2)).toLoadRect f),
      ((Memref.whole cc1_scratch1 : Memref sig .scVector .vmem S32x1024 .f32).view.readAt (Elt F) (Rect.unit (s := S32x1024) (k1_off53 k 2#32) S1x16.size (k1_off53_inb k 2)).toLoadRect f),
      ((Memref.whole cc1_scratch1 : Memref sig .scVector .vmem S32x1024 .f32).view.readAt (Elt F) (Rect.unit (s := S32x1024) (k1_off54 k 2#32) S1x16.size (k1_off54_inb k 2)).toLoadRect f),
      ((Memref.whole cc1_scratch1 : Memref sig .scVector .vmem S32x1024 .f32).view.readAt (Elt F) (Rect.unit (s := S32x1024) (k1_off55 k 2#32) S1x16.size (k1_off55_inb k 2)).toLoadRect f),
      ((Memref.whole cc1_scratch1 : Memref sig .scVector .vmem S32x1024 .f32).view.readAt (Elt F) (Rect.unit (s := S32x1024) (k1_off56 k 2#32) S1x16.size (k1_off56_inb k 2)).toLoadRect f),
      ((Memref.whole cc1_scratch1 : Memref sig .scVector .vmem S32x1024 .f32).view.readAt (Elt F) (Rect.unit (s := S32x1024) (k1_off57 k 2#32) S1x16.size (k1_off57_inb k 2)).toLoadRect f),
      ((Memref.whole cc1_scratch1 : Memref sig .scVector .vmem S32x1024 .f32).view.readAt (Elt F) (Rect.unit (s := S32x1024) (k1_off58 k 2#32) S1x16.size (k1_off58_inb k 2)).toLoadRect f),
      ((Memref.whole cc1_scratch1 : Memref sig .scVector .vmem S32x1024 .f32).view.readAt (Elt F) (Rect.unit (s := S32x1024) (k1_off59 k 2#32) S1x16.size (k1_off59_inb k 2)).toLoadRect f),
      ((Memref.whole cc1_scratch1 : Memref sig .scVector .vmem S32x1024 .f32).view.readAt (Elt F) (Rect.unit (s := S32x1024) (k1_off60 k 2#32) S1x16.size (k1_off60_inb k 2)).toLoadRect f),
      ((Memref.whole cc1_scratch1 : Memref sig .scVector .vmem S32x1024 .f32).view.readAt (Elt F) (Rect.unit (s := S32x1024) (k1_off61 k 2#32) S1x16.size (k1_off61_inb k 2)).toLoadRect f),
      ((Memref.whole cc1_scratch1 : Memref sig .scVector .vmem S32x1024 .f32).view.readAt (Elt F) (Rect.unit (s := S32x1024) (k1_off62 k 2#32) S1x16.size (k1_off62_inb k 2)).toLoadRect f),
      ((Memref.whole cc1_scratch1 : Memref sig .scVector .vmem S32x1024 .f32).view.readAt (Elt F) (Rect.unit (s := S32x1024) (k1_off63 k 2#32) S1x16.size (k1_off63_inb k 2)).toLoadRect f),
      ((Memref.whole cc1_scratch1 : Memref sig .scVector .vmem S32x1024 .f32).view.readAt (Elt F) (Rect.unit (s := S32x1024) (k1_off64 k 2#32) S1x16.size (k1_off64_inb k 2)).toLoadRect f),
      ((Memref.whole cc1_scratch1 : Memref sig .scVector .vmem S32x1024 .f32).view.readAt (Elt F) (Rect.unit (s := S32x1024) (k1_off65 k 2#32) S1x16.size (k1_off65_inb k 2)).toLoadRect f),
      ((Memref.whole cc1_scratch1 : Memref sig .scVector .vmem S32x1024 .f32).view.readAt (Elt F) (Rect.unit (s := S32x1024) (k1_off66 k 2#32) S1x16.size (k1_off66_inb k 2)).toLoadRect f),
      ((Memref.whole cc1_scratch1 : Memref sig .scVector .vmem S32x1024 .f32).view.readAt (Elt F) (Rect.unit (s := S32x1024) (k1_off67 k 2#32) S1x16.size (k1_off67_inb k 2)).toLoadRect f),
      ((Memref.whole cc1_scratch1 : Memref sig .scVector .vmem S32x1024 .f32).view.readAt (Elt F) (Rect.unit (s := S32x1024) (k1_off68 k 2#32) S1x16.size (k1_off68_inb k 2)).toLoadRect f),
      ((Memref.whole cc1_scratch1 : Memref sig .scVector .vmem S32x1024 .f32).view.readAt (Elt F) (Rect.unit (s := S32x1024) (k1_off69 k 2#32) S1x16.size (k1_off69_inb k 2)).toLoadRect f),
      ((Memref.whole cc1_scratch1 : Memref sig .scVector .vmem S32x1024 .f32).view.readAt (Elt F) (Rect.unit (s := S32x1024) (k1_off70 k 2#32) S1x16.size (k1_off70_inb k 2)).toLoadRect f),
      ((Memref.whole cc1_scratch1 : Memref sig .scVector .vmem S32x1024 .f32).view.readAt (Elt F) (Rect.unit (s := S32x1024) (k1_off71 k 2#32) S1x16.size (k1_off71_inb k 2)).toLoadRect f),
      ((Memref.whole cc1_scratch1 : Memref sig .scVector .vmem S32x1024 .f32).view.readAt (Elt F) (Rect.unit (s := S32x1024) (k1_off72 k 2#32) S1x16.size (k1_off72_inb k 2)).toLoadRect f),
      ((Memref.whole cc1_scratch1 : Memref sig .scVector .vmem S32x1024 .f32).view.readAt (Elt F) (Rect.unit (s := S32x1024) (k1_off73 k 2#32) S1x16.size (k1_off73_inb k 2)).toLoadRect f),
      ((Memref.whole cc1_scratch1 : Memref sig .scVector .vmem S32x1024 .f32).view.readAt (Elt F) (Rect.unit (s := S32x1024) (k1_off74 k 2#32) S1x16.size (k1_off74_inb k 2)).toLoadRect f),
      ((Memref.whole cc1_scratch1 : Memref sig .scVector .vmem S32x1024 .f32).view.readAt (Elt F) (Rect.unit (s := S32x1024) (k1_off75 k 2#32) S1x16.size (k1_off75_inb k 2)).toLoadRect f),
      ((Memref.whole cc1_scratch1 : Memref sig .scVector .vmem S32x1024 .f32).view.readAt (Elt F) (Rect.unit (s := S32x1024) (k1_off76 k 2#32) S1x16.size (k1_off76_inb k 2)).toLoadRect f),
      ((Memref.whole cc1_scratch1 : Memref sig .scVector .vmem S32x1024 .f32).view.readAt (Elt F) (Rect.unit (s := S32x1024) (k1_off77 k 2#32) S1x16.size (k1_off77_inb k 2)).toLoadRect f)] x).trans ?_
  refine lsum32_loads f _ (64 * k.val + 32) (by omega) (fun r l => ?_) x
  fin_cases r
  · exact readAt_row1 _ _ f 0 (64 * k.val + 32) (by omega) (k1_off46_eq k ⟨2, by decide⟩) l
  · exact readAt_row1 _ _ f 1 (64 * k.val + 32) (by omega) (k1_off47_eq k ⟨2, by decide⟩) l
  · exact readAt_row1 _ _ f 2 (64 * k.val + 32) (by omega) (k1_off48_eq k ⟨2, by decide⟩) l
  · exact readAt_row1 _ _ f 3 (64 * k.val + 32) (by omega) (k1_off49_eq k ⟨2, by decide⟩) l
  · exact readAt_row1 _ _ f 4 (64 * k.val + 32) (by omega) (k1_off50_eq k ⟨2, by decide⟩) l
  · exact readAt_row1 _ _ f 5 (64 * k.val + 32) (by omega) (k1_off51_eq k ⟨2, by decide⟩) l
  · exact readAt_row1 _ _ f 6 (64 * k.val + 32) (by omega) (k1_off52_eq k ⟨2, by decide⟩) l
  · exact readAt_row1 _ _ f 7 (64 * k.val + 32) (by omega) (k1_off53_eq k ⟨2, by decide⟩) l
  · exact readAt_row1 _ _ f 8 (64 * k.val + 32) (by omega) (k1_off54_eq k ⟨2, by decide⟩) l
  · exact readAt_row1 _ _ f 9 (64 * k.val + 32) (by omega) (k1_off55_eq k ⟨2, by decide⟩) l
  · exact readAt_row1 _ _ f 10 (64 * k.val + 32) (by omega) (k1_off56_eq k ⟨2, by decide⟩) l
  · exact readAt_row1 _ _ f 11 (64 * k.val + 32) (by omega) (k1_off57_eq k ⟨2, by decide⟩) l
  · exact readAt_row1 _ _ f 12 (64 * k.val + 32) (by omega) (k1_off58_eq k ⟨2, by decide⟩) l
  · exact readAt_row1 _ _ f 13 (64 * k.val + 32) (by omega) (k1_off59_eq k ⟨2, by decide⟩) l
  · exact readAt_row1 _ _ f 14 (64 * k.val + 32) (by omega) (k1_off60_eq k ⟨2, by decide⟩) l
  · exact readAt_row1 _ _ f 15 (64 * k.val + 32) (by omega) (k1_off61_eq k ⟨2, by decide⟩) l
  · exact readAt_row1 _ _ f 16 (64 * k.val + 32) (by omega) (k1_off62_eq k ⟨2, by decide⟩) l
  · exact readAt_row1 _ _ f 17 (64 * k.val + 32) (by omega) (k1_off63_eq k ⟨2, by decide⟩) l
  · exact readAt_row1 _ _ f 18 (64 * k.val + 32) (by omega) (k1_off64_eq k ⟨2, by decide⟩) l
  · exact readAt_row1 _ _ f 19 (64 * k.val + 32) (by omega) (k1_off65_eq k ⟨2, by decide⟩) l
  · exact readAt_row1 _ _ f 20 (64 * k.val + 32) (by omega) (k1_off66_eq k ⟨2, by decide⟩) l
  · exact readAt_row1 _ _ f 21 (64 * k.val + 32) (by omega) (k1_off67_eq k ⟨2, by decide⟩) l
  · exact readAt_row1 _ _ f 22 (64 * k.val + 32) (by omega) (k1_off68_eq k ⟨2, by decide⟩) l
  · exact readAt_row1 _ _ f 23 (64 * k.val + 32) (by omega) (k1_off69_eq k ⟨2, by decide⟩) l
  · exact readAt_row1 _ _ f 24 (64 * k.val + 32) (by omega) (k1_off70_eq k ⟨2, by decide⟩) l
  · exact readAt_row1 _ _ f 25 (64 * k.val + 32) (by omega) (k1_off71_eq k ⟨2, by decide⟩) l
  · exact readAt_row1 _ _ f 26 (64 * k.val + 32) (by omega) (k1_off72_eq k ⟨2, by decide⟩) l
  · exact readAt_row1 _ _ f 27 (64 * k.val + 32) (by omega) (k1_off73_eq k ⟨2, by decide⟩) l
  · exact readAt_row1 _ _ f 28 (64 * k.val + 32) (by omega) (k1_off74_eq k ⟨2, by decide⟩) l
  · exact readAt_row1 _ _ f 29 (64 * k.val + 32) (by omega) (k1_off75_eq k ⟨2, by decide⟩) l
  · exact readAt_row1 _ _ f 30 (64 * k.val + 32) (by omega) (k1_off76_eq k ⟨2, by decide⟩) l
  · exact readAt_row1 _ _ f 31 (64 * k.val + 32) (by omega) (k1_off77_eq k ⟨2, by decide⟩) l

/-- Slab 1, store 3 of trip `k`: lane `x` of the stored vector is the slab's column sum at column `64 k + 48 + x`. -/
theorem pay3_u3 (f : (Memref.whole cc1_scratch1 : Memref sig .scVector .vmem S32x1024 .f32).view.ty.Contents (Elt F))
    (k : Fin k1_t3_loop.trips) (x : S16.Idx) :
    k1_pay46 (k1_pay44 (k1_pay43 (k1_pay42 (k1_pay41 (k1_pay40 ((Memref.whole cc1_scratch1 : Memref sig .scVector .vmem S32x1024 .f32).view.readAt (Elt F) (Rect.unit (s := S32x1024) (k1_off46 k 3#32) S1x16.size (k1_off46_inb k 3)).toLoadRect f) ((Memref.whole cc1_scratch1 : Memref sig .scVector .vmem S32x1024 .f32).view.readAt (Elt F) (Rect.unit (s := S32x1024) (k1_off47 k 3#32) S1x16.size (k1_off47_inb k 3)).toLoadRect f) ((Memref.whole cc1_scratch1 : Memref sig .scVector .vmem S32x1024 .f32).view.readAt (Elt F) (Rect.unit (s := S32x1024) (k1_off48 k 3#32) S1x16.size (k1_off48_inb k 3)).toLoadRect f)) ((Memref.whole cc1_scratch1 : Memref sig .scVector .vmem S32x1024 .f32).view.readAt (Elt F) (Rect.unit (s := S32x1024) (k1_off49 k 3#32) S1x16.size (k1_off49_inb k 3)).toLoadRect f) ((Memref.whole cc1_scratch1 : Memref sig .scVector .vmem S32x1024 .f32).view.readAt (Elt F) (Rect.unit (s := S32x1024) (k1_off50 k 3#32) S1x16.size (k1_off50_inb k 3)).toLoadRect f) ((Memref.whole cc1_scratch1 : Memref sig .scVector .vmem S32x1024 .f32).view.readAt (Elt F) (Rect.unit (s := S32x1024) (k1_off51 k 3#32) S1x16.size (k1_off51_inb k 3)).toLoadRect f) ((Memref.whole cc1_scratch1 : Memref sig .scVector .vmem S32x1024 .f32).view.readAt (Elt F) (Rect.unit (s := S32x1024) (k1_off52 k 3#32) S1x16.size (k1_off52_inb k 3)).toLoadRect f) ((Memref.whole cc1_scratch1 : Memref sig .scVector .vmem S32x1024 .f32).view.readAt (Elt F) (Rect.unit (s := S32x1024) (k1_off53 k 3#32) S1x16.size (k1_off53_inb k 3)).toLoadRect f) ((Memref.whole cc1_scratch1 : Memref sig .scVector .vmem S32x1024 .f32).view.readAt (Elt F) (Rect.unit (s := S32x1024) (k1_off54 k 3#32) S1x16.size (k1_off54_inb k 3)).toLoadRect f) ((Memref.whole cc1_scratch1 : Memref sig .scVector .vmem S32x1024 .f32).view.readAt (Elt F) (Rect.unit (s := S32x1024) (k1_off55 k 3#32) S1x16.size (k1_off55_inb k 3)).toLoadRect f) ((Memref.whole cc1_scratch1 : Memref sig .scVector .vmem S32x1024 .f32).view.readAt (Elt F) (Rect.unit (s := S32x1024) (k1_off56 k 3#32) S1x16.size (k1_off56_inb k 3)).toLoadRect f)) ((Memref.whole cc1_scratch1 : Memref sig .scVector .vmem S32x1024 .f32).view.readAt (Elt F) (Rect.unit (s := S32x1024) (k1_off57 k 3#32) S1x16.size (k1_off57_inb k 3)).toLoadRect f) ((Memref.whole cc1_scratch1 : Memref sig .scVector .vmem S32x1024 .f32).view.readAt (Elt F) (Rect.unit (s := S32x1024) (k1_off58 k 3#32) S1x16.size (k1_off58_inb k 3)).toLoadRect f) ((Memref.whole cc1_scratch1 : Memref sig .scVector .vmem S32x1024 .f32).view.readAt (Elt F) (Rect.unit (s := S32x1024) (k1_off59 k 3#32) S1x16.size (k1_off59_inb k 3)).toLoadRect f) ((Memref.whole cc1_scratch1 : Memref sig .scVector .vmem S32x1024 .f32).view.readAt (Elt F) (Rect.unit (s := S32x1024) (k1_off60 k 3#32) S1x16.size (k1_off60_inb k 3)).toLoadRect f) ((Memref.whole cc1_scratch1 : Memref sig .scVector .vmem S32x1024 .f32).view.readAt (Elt F) (Rect.unit (s := S32x1024) (k1_off61 k 3#32) S1x16.size (k1_off61_inb k 3)).toLoadRect f) ((Memref.whole cc1_scratch1 : Memref sig .scVector .vmem S32x1024 .f32).view.readAt (Elt F) (Rect.unit (s := S32x1024) (k1_off62 k 3#32) S1x16.size (k1_off62_inb k 3)).toLoadRect f) ((Memref.whole cc1_scratch1 : Memref sig .scVector .vmem S32x1024 .f32).view.readAt (Elt F) (Rect.unit (s := S32x1024) (k1_off63 k 3#32) S1x16.size (k1_off63_inb k 3)).toLoadRect f)) ((Memref.whole cc1_scratch1 : Memref sig .scVector .vmem S32x1024 .f32).view.readAt (Elt F) (Rect.unit (s := S32x1024) (k1_off64 k 3#32) S1x16.size (k1_off64_inb k 3)).toLoadRect f) ((Memref.whole cc1_scratch1 : Memref sig .scVector .vmem S32x1024 .f32).view.readAt (Elt F) (Rect.unit (s := S32x1024) (k1_off65 k 3#32) S1x16.size (k1_off65_inb k 3)).toLoadRect f) ((Memref.whole cc1_scratch1 : Memref sig .scVector .vmem S32x1024 .f32).view.readAt (Elt F) (Rect.unit (s := S32x1024) (k1_off66 k 3#32) S1x16.size (k1_off66_inb k 3)).toLoadRect f) ((Memref.whole cc1_scratch1 : Memref sig .scVector .vmem S32x1024 .f32).view.readAt (Elt F) (Rect.unit (s := S32x1024) (k1_off67 k 3#32) S1x16.size (k1_off67_inb k 3)).toLoadRect f) ((Memref.whole cc1_scratch1 : Memref sig .scVector .vmem S32x1024 .f32).view.readAt (Elt F) (Rect.unit (s := S32x1024) (k1_off68 k 3#32) S1x16.size (k1_off68_inb k 3)).toLoadRect f) ((Memref.whole cc1_scratch1 : Memref sig .scVector .vmem S32x1024 .f32).view.readAt (Elt F) (Rect.unit (s := S32x1024) (k1_off69 k 3#32) S1x16.size (k1_off69_inb k 3)).toLoadRect f) ((Memref.whole cc1_scratch1 : Memref sig .scVector .vmem S32x1024 .f32).view.readAt (Elt F) (Rect.unit (s := S32x1024) (k1_off70 k 3#32) S1x16.size (k1_off70_inb k 3)).toLoadRect f) ((Memref.whole cc1_scratch1 : Memref sig .scVector .vmem S32x1024 .f32).view.readAt (Elt F) (Rect.unit (s := S32x1024) (k1_off71 k 3#32) S1x16.size (k1_off71_inb k 3)).toLoadRect f)) ((Memref.whole cc1_scratch1 : Memref sig .scVector .vmem S32x1024 .f32).view.readAt (Elt F) (Rect.unit (s := S32x1024) (k1_off72 k 3#32) S1x16.size (k1_off72_inb k 3)).toLoadRect f) ((Memref.whole cc1_scratch1 : Memref sig .scVector .vmem S32x1024 .f32).view.readAt (Elt F) (Rect.unit (s := S32x1024) (k1_off73 k 3#32) S1x16.size (k1_off73_inb k 3)).toLoadRect f) ((Memref.whole cc1_scratch1 : Memref sig .scVector .vmem S32x1024 .f32).view.readAt (Elt F) (Rect.unit (s := S32x1024) (k1_off74 k 3#32) S1x16.size (k1_off74_inb k 3)).toLoadRect f) ((Memref.whole cc1_scratch1 : Memref sig .scVector .vmem S32x1024 .f32).view.readAt (Elt F) (Rect.unit (s := S32x1024) (k1_off75 k 3#32) S1x16.size (k1_off75_inb k 3)).toLoadRect f) ((Memref.whole cc1_scratch1 : Memref sig .scVector .vmem S32x1024 .f32).view.readAt (Elt F) (Rect.unit (s := S32x1024) (k1_off76 k 3#32) S1x16.size (k1_off76_inb k 3)).toLoadRect f)) ((Memref.whole cc1_scratch1 : Memref sig .scVector .vmem S32x1024 .f32).view.readAt (Elt F) (Rect.unit (s := S32x1024) (k1_off77 k 3#32) S1x16.size (k1_off77_inb k 3)).toLoadRect f) x
      = slabSum f (64 * k.val + 48 + (x 0).val) := by
  have hk : k.val < 16 := Nat.lt_of_lt_of_le k.isLt k1_t3_abs.2.1
  refine (chain3_u3 ![((Memref.whole cc1_scratch1 : Memref sig .scVector .vmem S32x1024 .f32).view.readAt (Elt F) (Rect.unit (s := S32x1024) (k1_off46 k 3#32) S1x16.size (k1_off46_inb k 3)).toLoadRect f),
      ((Memref.whole cc1_scratch1 : Memref sig .scVector .vmem S32x1024 .f32).view.readAt (Elt F) (Rect.unit (s := S32x1024) (k1_off47 k 3#32) S1x16.size (k1_off47_inb k 3)).toLoadRect f),
      ((Memref.whole cc1_scratch1 : Memref sig .scVector .vmem S32x1024 .f32).view.readAt (Elt F) (Rect.unit (s := S32x1024) (k1_off48 k 3#32) S1x16.size (k1_off48_inb k 3)).toLoadRect f),
      ((Memref.whole cc1_scratch1 : Memref sig .scVector .vmem S32x1024 .f32).view.readAt (Elt F) (Rect.unit (s := S32x1024) (k1_off49 k 3#32) S1x16.size (k1_off49_inb k 3)).toLoadRect f),
      ((Memref.whole cc1_scratch1 : Memref sig .scVector .vmem S32x1024 .f32).view.readAt (Elt F) (Rect.unit (s := S32x1024) (k1_off50 k 3#32) S1x16.size (k1_off50_inb k 3)).toLoadRect f),
      ((Memref.whole cc1_scratch1 : Memref sig .scVector .vmem S32x1024 .f32).view.readAt (Elt F) (Rect.unit (s := S32x1024) (k1_off51 k 3#32) S1x16.size (k1_off51_inb k 3)).toLoadRect f),
      ((Memref.whole cc1_scratch1 : Memref sig .scVector .vmem S32x1024 .f32).view.readAt (Elt F) (Rect.unit (s := S32x1024) (k1_off52 k 3#32) S1x16.size (k1_off52_inb k 3)).toLoadRect f),
      ((Memref.whole cc1_scratch1 : Memref sig .scVector .vmem S32x1024 .f32).view.readAt (Elt F) (Rect.unit (s := S32x1024) (k1_off53 k 3#32) S1x16.size (k1_off53_inb k 3)).toLoadRect f),
      ((Memref.whole cc1_scratch1 : Memref sig .scVector .vmem S32x1024 .f32).view.readAt (Elt F) (Rect.unit (s := S32x1024) (k1_off54 k 3#32) S1x16.size (k1_off54_inb k 3)).toLoadRect f),
      ((Memref.whole cc1_scratch1 : Memref sig .scVector .vmem S32x1024 .f32).view.readAt (Elt F) (Rect.unit (s := S32x1024) (k1_off55 k 3#32) S1x16.size (k1_off55_inb k 3)).toLoadRect f),
      ((Memref.whole cc1_scratch1 : Memref sig .scVector .vmem S32x1024 .f32).view.readAt (Elt F) (Rect.unit (s := S32x1024) (k1_off56 k 3#32) S1x16.size (k1_off56_inb k 3)).toLoadRect f),
      ((Memref.whole cc1_scratch1 : Memref sig .scVector .vmem S32x1024 .f32).view.readAt (Elt F) (Rect.unit (s := S32x1024) (k1_off57 k 3#32) S1x16.size (k1_off57_inb k 3)).toLoadRect f),
      ((Memref.whole cc1_scratch1 : Memref sig .scVector .vmem S32x1024 .f32).view.readAt (Elt F) (Rect.unit (s := S32x1024) (k1_off58 k 3#32) S1x16.size (k1_off58_inb k 3)).toLoadRect f),
      ((Memref.whole cc1_scratch1 : Memref sig .scVector .vmem S32x1024 .f32).view.readAt (Elt F) (Rect.unit (s := S32x1024) (k1_off59 k 3#32) S1x16.size (k1_off59_inb k 3)).toLoadRect f),
      ((Memref.whole cc1_scratch1 : Memref sig .scVector .vmem S32x1024 .f32).view.readAt (Elt F) (Rect.unit (s := S32x1024) (k1_off60 k 3#32) S1x16.size (k1_off60_inb k 3)).toLoadRect f),
      ((Memref.whole cc1_scratch1 : Memref sig .scVector .vmem S32x1024 .f32).view.readAt (Elt F) (Rect.unit (s := S32x1024) (k1_off61 k 3#32) S1x16.size (k1_off61_inb k 3)).toLoadRect f),
      ((Memref.whole cc1_scratch1 : Memref sig .scVector .vmem S32x1024 .f32).view.readAt (Elt F) (Rect.unit (s := S32x1024) (k1_off62 k 3#32) S1x16.size (k1_off62_inb k 3)).toLoadRect f),
      ((Memref.whole cc1_scratch1 : Memref sig .scVector .vmem S32x1024 .f32).view.readAt (Elt F) (Rect.unit (s := S32x1024) (k1_off63 k 3#32) S1x16.size (k1_off63_inb k 3)).toLoadRect f),
      ((Memref.whole cc1_scratch1 : Memref sig .scVector .vmem S32x1024 .f32).view.readAt (Elt F) (Rect.unit (s := S32x1024) (k1_off64 k 3#32) S1x16.size (k1_off64_inb k 3)).toLoadRect f),
      ((Memref.whole cc1_scratch1 : Memref sig .scVector .vmem S32x1024 .f32).view.readAt (Elt F) (Rect.unit (s := S32x1024) (k1_off65 k 3#32) S1x16.size (k1_off65_inb k 3)).toLoadRect f),
      ((Memref.whole cc1_scratch1 : Memref sig .scVector .vmem S32x1024 .f32).view.readAt (Elt F) (Rect.unit (s := S32x1024) (k1_off66 k 3#32) S1x16.size (k1_off66_inb k 3)).toLoadRect f),
      ((Memref.whole cc1_scratch1 : Memref sig .scVector .vmem S32x1024 .f32).view.readAt (Elt F) (Rect.unit (s := S32x1024) (k1_off67 k 3#32) S1x16.size (k1_off67_inb k 3)).toLoadRect f),
      ((Memref.whole cc1_scratch1 : Memref sig .scVector .vmem S32x1024 .f32).view.readAt (Elt F) (Rect.unit (s := S32x1024) (k1_off68 k 3#32) S1x16.size (k1_off68_inb k 3)).toLoadRect f),
      ((Memref.whole cc1_scratch1 : Memref sig .scVector .vmem S32x1024 .f32).view.readAt (Elt F) (Rect.unit (s := S32x1024) (k1_off69 k 3#32) S1x16.size (k1_off69_inb k 3)).toLoadRect f),
      ((Memref.whole cc1_scratch1 : Memref sig .scVector .vmem S32x1024 .f32).view.readAt (Elt F) (Rect.unit (s := S32x1024) (k1_off70 k 3#32) S1x16.size (k1_off70_inb k 3)).toLoadRect f),
      ((Memref.whole cc1_scratch1 : Memref sig .scVector .vmem S32x1024 .f32).view.readAt (Elt F) (Rect.unit (s := S32x1024) (k1_off71 k 3#32) S1x16.size (k1_off71_inb k 3)).toLoadRect f),
      ((Memref.whole cc1_scratch1 : Memref sig .scVector .vmem S32x1024 .f32).view.readAt (Elt F) (Rect.unit (s := S32x1024) (k1_off72 k 3#32) S1x16.size (k1_off72_inb k 3)).toLoadRect f),
      ((Memref.whole cc1_scratch1 : Memref sig .scVector .vmem S32x1024 .f32).view.readAt (Elt F) (Rect.unit (s := S32x1024) (k1_off73 k 3#32) S1x16.size (k1_off73_inb k 3)).toLoadRect f),
      ((Memref.whole cc1_scratch1 : Memref sig .scVector .vmem S32x1024 .f32).view.readAt (Elt F) (Rect.unit (s := S32x1024) (k1_off74 k 3#32) S1x16.size (k1_off74_inb k 3)).toLoadRect f),
      ((Memref.whole cc1_scratch1 : Memref sig .scVector .vmem S32x1024 .f32).view.readAt (Elt F) (Rect.unit (s := S32x1024) (k1_off75 k 3#32) S1x16.size (k1_off75_inb k 3)).toLoadRect f),
      ((Memref.whole cc1_scratch1 : Memref sig .scVector .vmem S32x1024 .f32).view.readAt (Elt F) (Rect.unit (s := S32x1024) (k1_off76 k 3#32) S1x16.size (k1_off76_inb k 3)).toLoadRect f),
      ((Memref.whole cc1_scratch1 : Memref sig .scVector .vmem S32x1024 .f32).view.readAt (Elt F) (Rect.unit (s := S32x1024) (k1_off77 k 3#32) S1x16.size (k1_off77_inb k 3)).toLoadRect f)] x).trans ?_
  refine lsum32_loads f _ (64 * k.val + 48) (by omega) (fun r l => ?_) x
  fin_cases r
  · exact readAt_row1 _ _ f 0 (64 * k.val + 48) (by omega) (k1_off46_eq k ⟨3, by decide⟩) l
  · exact readAt_row1 _ _ f 1 (64 * k.val + 48) (by omega) (k1_off47_eq k ⟨3, by decide⟩) l
  · exact readAt_row1 _ _ f 2 (64 * k.val + 48) (by omega) (k1_off48_eq k ⟨3, by decide⟩) l
  · exact readAt_row1 _ _ f 3 (64 * k.val + 48) (by omega) (k1_off49_eq k ⟨3, by decide⟩) l
  · exact readAt_row1 _ _ f 4 (64 * k.val + 48) (by omega) (k1_off50_eq k ⟨3, by decide⟩) l
  · exact readAt_row1 _ _ f 5 (64 * k.val + 48) (by omega) (k1_off51_eq k ⟨3, by decide⟩) l
  · exact readAt_row1 _ _ f 6 (64 * k.val + 48) (by omega) (k1_off52_eq k ⟨3, by decide⟩) l
  · exact readAt_row1 _ _ f 7 (64 * k.val + 48) (by omega) (k1_off53_eq k ⟨3, by decide⟩) l
  · exact readAt_row1 _ _ f 8 (64 * k.val + 48) (by omega) (k1_off54_eq k ⟨3, by decide⟩) l
  · exact readAt_row1 _ _ f 9 (64 * k.val + 48) (by omega) (k1_off55_eq k ⟨3, by decide⟩) l
  · exact readAt_row1 _ _ f 10 (64 * k.val + 48) (by omega) (k1_off56_eq k ⟨3, by decide⟩) l
  · exact readAt_row1 _ _ f 11 (64 * k.val + 48) (by omega) (k1_off57_eq k ⟨3, by decide⟩) l
  · exact readAt_row1 _ _ f 12 (64 * k.val + 48) (by omega) (k1_off58_eq k ⟨3, by decide⟩) l
  · exact readAt_row1 _ _ f 13 (64 * k.val + 48) (by omega) (k1_off59_eq k ⟨3, by decide⟩) l
  · exact readAt_row1 _ _ f 14 (64 * k.val + 48) (by omega) (k1_off60_eq k ⟨3, by decide⟩) l
  · exact readAt_row1 _ _ f 15 (64 * k.val + 48) (by omega) (k1_off61_eq k ⟨3, by decide⟩) l
  · exact readAt_row1 _ _ f 16 (64 * k.val + 48) (by omega) (k1_off62_eq k ⟨3, by decide⟩) l
  · exact readAt_row1 _ _ f 17 (64 * k.val + 48) (by omega) (k1_off63_eq k ⟨3, by decide⟩) l
  · exact readAt_row1 _ _ f 18 (64 * k.val + 48) (by omega) (k1_off64_eq k ⟨3, by decide⟩) l
  · exact readAt_row1 _ _ f 19 (64 * k.val + 48) (by omega) (k1_off65_eq k ⟨3, by decide⟩) l
  · exact readAt_row1 _ _ f 20 (64 * k.val + 48) (by omega) (k1_off66_eq k ⟨3, by decide⟩) l
  · exact readAt_row1 _ _ f 21 (64 * k.val + 48) (by omega) (k1_off67_eq k ⟨3, by decide⟩) l
  · exact readAt_row1 _ _ f 22 (64 * k.val + 48) (by omega) (k1_off68_eq k ⟨3, by decide⟩) l
  · exact readAt_row1 _ _ f 23 (64 * k.val + 48) (by omega) (k1_off69_eq k ⟨3, by decide⟩) l
  · exact readAt_row1 _ _ f 24 (64 * k.val + 48) (by omega) (k1_off70_eq k ⟨3, by decide⟩) l
  · exact readAt_row1 _ _ f 25 (64 * k.val + 48) (by omega) (k1_off71_eq k ⟨3, by decide⟩) l
  · exact readAt_row1 _ _ f 26 (64 * k.val + 48) (by omega) (k1_off72_eq k ⟨3, by decide⟩) l
  · exact readAt_row1 _ _ f 27 (64 * k.val + 48) (by omega) (k1_off73_eq k ⟨3, by decide⟩) l
  · exact readAt_row1 _ _ f 28 (64 * k.val + 48) (by omega) (k1_off74_eq k ⟨3, by decide⟩) l
  · exact readAt_row1 _ _ f 29 (64 * k.val + 48) (by omega) (k1_off75_eq k ⟨3, by decide⟩) l
  · exact readAt_row1 _ _ f 30 (64 * k.val + 48) (by omega) (k1_off76_eq k ⟨3, by decide⟩) l
  · exact readAt_row1 _ _ f 31 (64 * k.val + 48) (by omega) (k1_off77_eq k ⟨3, by decide⟩) l

end Cert.Proof.KB

end
-- ==== Proof.KB.Tile0Slab.lean ====
/-
  The four copies of a chunk leave the slab holding the chunk: each copy writes eight rows of 1024 columns of the
  transposed table into the slab's rows, the four together cover the slab, and an element under a copy reads the
  table's entry at the same row and at the chunk's first column plus its own column.
-/
import proofs.«203338_g27195732918861_cont_9to1_1050_16_alg».proof.Proof.KB.Tile0Val
import Idealize.ShloMosaic.Lib.Writes

noncomputable section

namespace Cert.Proof.KB

open Cert.Kernel Cert.Kernel.Gen

open Idealize.ShloMosaic Idealize.ShloMosaic.ValueIdx

variable {F : FTy → Type} [FloatOps F]

variable (d : Dev nD) (L : grid1.Coords)

/-- The four copies of a chunk into slab 0 — rows 0–7, 8–15, 16–23, 24–31 of columns `Y … Y + 1023` of the transposed
    table — leave the slab holding chunk `c` of the tile's columns, whatever it held before. -/
theorem slabOK_pieces0 (TT : Buf (Elt F) (ttLoc d)) (c Y : ℕ) (hc : c < 10) (hY : Y = base0 L + 1024 * c) (g0 : S32x1024.Idx → F .f32)
    (o0 o1 o2 o3 : Fin 2 → ℕ)
    (h0 : ∀ a, o0 a + S8x1024.size a ≤ S32x1000000.size a) (h1 : ∀ a, o1 a + S8x1024.size a ≤ S32x1000000.size a)
    (h2 : ∀ a, o2 a + S8x1024.size a ≤ S32x1000000.size a) (h3 : ∀ a, o3 a + S8x1024.size a ≤ S32x1000000.size a)
    (u0 : ∀ a, (Rect.unit (s := S32x1000000) o0 S8x1024.size h0).stride a = 1)
    (u1 : ∀ a, (Rect.unit (s := S32x1000000) o1 S8x1024.size h1).stride a = 1)
    (u2 : ∀ a, (Rect.unit (s := S32x1000000) o2 S8x1024.size h2).stride a = 1)
    (u3 : ∀ a, (Rect.unit (s := S32x1000000) o3 S8x1024.size h3).stride a = 1)
    (p0 : ∀ a, (![0, 0] : Fin 2 → ℕ) a + S8x1024.size a ≤ S32x1024.size a)
    (p1 : ∀ a, (![8, 0] : Fin 2 → ℕ) a + S8x1024.size a ≤ S32x1024.size a)
    (p2 : ∀ a, (![16, 0] : Fin 2 → ℕ) a + S8x1024.size a ≤ S32x1024.size a)
    (p3 : ∀ a, (![24, 0] : Fin 2 → ℕ) a + S8x1024.size a ≤ S32x1024.size a)
    (e0 : o0 = ![0, Y]) (e1 : o1 = ![8, Y]) (e2 : o2 = ![16, Y]) (e3 : o3 = ![24, Y]) :
    SlabOK d L TT c ((s0M).view.writes (Elt F) g0
      [⟨Rect.unit (s := S32x1024) ![24, 0] S8x1024.size p3, ReadAs.same.apply (((ttM).slice (Rect.unit (s := S32x1000000) o3 S8x1024.size h3) u3).view.read (Elt F) TT)⟩,
       ⟨Rect.unit (s := S32x1024) ![16, 0] S8x1024.size p2, ReadAs.same.apply (((ttM).slice (Rect.unit (s := S32x1000000) o2 S8x1024.size h2) u2).view.read (Elt F) TT)⟩,
       ⟨Rect.unit (s := S32x1024) ![8, 0] S8x1024.size p1, ReadAs.same.apply (((ttM).slice (Rect.unit (s := S32x1000000) o1 S8x1024.size h1) u1).view.read (Elt F) TT)⟩,
       ⟨Rect.unit (s := S32x1024) ![0, 0] S8x1024.size p0, ReadAs.same.apply (((ttM).slice (Rect.unit (s := S32x1000000) o0 S8x1024.size h0) u0).view.read (Elt F) TT)⟩]) := by
  intro r j h
  have hb := base0_le L
  have hr : ∀ g : S32x1024.Idx → F .f32, (s0M).view.read (Elt F) g = g := fun g => rfl
  subst e0 e1 e2 e3
  have hYb : ∀ y : S32x1024.Idx, Y + (y 1).val < 1000000 := fun y => by
    have hy : (y 1).val < 1024 := (y 1).isLt
    omega
  refine (congrFun (hr _).symm (ix2 r j)).trans ?_
  refine (View.read_writes_apply_of_pieces (Val := Elt F) (s0M).view _
    (fun y => TT (ix2 (y 0) ⟨Y + (y 1).val, hYb y⟩) : S32x1024.Idx → Elt F .f32) _ ?_ (ix2 r j) ?_).trans ?_
  · intro p hp x
    simp only [List.mem_cons, List.mem_nil_iff, or_false] at hp
    rcases hp with rfl | rfl | rfl | rfl
    · show TT ((Rect.unit (s := S32x1000000) ![24, Y] S8x1024.size h3).emb x)
          = TT (ix2 (((Rect.unit (s := S32x1024) ![24, 0] S8x1024.size p3).emb x) 0)
              ⟨Y + (((Rect.unit (s := S32x1024) ![24, 0] S8x1024.size p3).emb x) 1).val, hYb _⟩)
      refine congrArg TT (funext fun a => Fin.ext ?_)
      match a with
      | ⟨0, _⟩ => rfl
      | ⟨1, _⟩ =>
        show Y + 1 * (x 1).val = Y + (0 + 1 * (x 1).val)
        omega
    · show TT ((Rect.unit (s := S32x1000000) ![16, Y] S8x1024.size h2).emb x)
          = TT (ix2 (((Rect.unit (s := S32x1024) ![16, 0] S8x1024.size p2).emb x) 0)
              ⟨Y + (((Rect.unit (s := S32x1024) ![16, 0] S8x1024.size p2).emb x) 1).val, hYb _⟩)
      refine congrArg TT (funext fun a => Fin.ext ?_)
      match a with
      | ⟨0, _⟩ => rfl
      | ⟨1, _⟩ =>
        show Y + 1 * (x 1).val = Y + (0 + 1 * (x 1).val)
        omega
    · show TT ((Rect.unit (s := S32x1000000) ![8, Y] S8x1024.size h1).emb x)
          = TT (ix2 (((Rect.unit (s := S32x1024) ![8, 0] S8x1024.size p1).emb x) 0)
              ⟨Y + (((Rect.unit (s := S32x1024) ![8, 0] S8x1024.size p1).emb x) 1).val, hYb _⟩)
      refine congrArg TT (funext fun a => Fin.ext ?_)
      match a with
      | ⟨0, _⟩ => rfl
      | ⟨1, _⟩ =>
        show Y + 1 * (x 1).val = Y + (0 + 1 * (x 1).val)
        omega
    · show TT ((Rect.unit (s := S32x1000000) ![0, Y] S8x1024.size h0).emb x)
          = TT (ix2 (((Rect.unit (s := S32x1024) ![0, 0] S8x1024.size p0).emb x) 0)
              ⟨Y + (((Rect.unit (s := S32x1024) ![0, 0] S8x1024.size p0).emb x) 1).val, hYb _⟩)
      refine congrArg TT (funext fun a => Fin.ext ?_)
      match a with
      | ⟨0, _⟩ => rfl
      | ⟨1, _⟩ =>
        show Y + 1 * (x 1).val = Y + (0 + 1 * (x 1).val)
        omega
  · have hr32 : r.val < 32 := r.isLt
    have hj : j.val < 1024 := j.isLt
    rcases (show r.val < 8 ∨ ((8 ≤ r.val ∧ r.val < 16) ∨ ((16 ≤ r.val ∧ r.val < 24) ∨ 24 ≤ r.val)) by omega) with hq | hq | hq | hq
    ·
      exact ⟨_, List.mem_cons_of_mem _ (List.mem_cons_of_mem _ (List.mem_cons_of_mem _ List.mem_cons_self)),
        (Rect.mem_set_unit (inb := p0)).mpr (Fin.forall_fin_two.mpr
          ⟨⟨by show 0 ≤ r.val; omega, by show r.val < 0 + 8; omega⟩, ⟨by show 0 ≤ j.val; omega, by show j.val < 0 + 1024; omega⟩⟩)⟩
    ·
      exact ⟨_, List.mem_cons_of_mem _ (List.mem_cons_of_mem _ List.mem_cons_self),
        (Rect.mem_set_unit (inb := p1)).mpr (Fin.forall_fin_two.mpr
          ⟨⟨by show 8 ≤ r.val; omega, by show r.val < 8 + 8; omega⟩, ⟨by show 0 ≤ j.val; omega, by show j.val < 0 + 1024; omega⟩⟩)⟩
    ·
      exact ⟨_, List.mem_cons_of_mem _ List.mem_cons_self,
        (Rect.mem_set_unit (inb := p2)).mpr (Fin.forall_fin_two.mpr
          ⟨⟨by show 16 ≤ r.val; omega, by show r.val < 16 + 8; omega⟩, ⟨by show 0 ≤ j.val; omega, by show j.val < 0 + 1024; omega⟩⟩)⟩
    ·
      exact ⟨_, List.mem_cons_self,
        (Rect.mem_set_unit (inb := p3)).mpr (Fin.forall_fin_two.mpr
          ⟨⟨by show 24 ≤ r.val; omega, by show r.val < 24 + 8; omega⟩, ⟨by show 0 ≤ j.val; omega, by show j.val < 0 + 1024; omega⟩⟩)⟩
  · exact congrArg TT (congrArg (ix2 r) (Fin.ext (by show Y + j.val = base0 L + 1024 * c + j.val; rw [hY])))

/-- The four copies of a chunk into slab 1 — rows 0–7, 8–15, 16–23, 24–31 of columns `Y … Y + 1023` of the transposed
    table — leave the slab holding chunk `c` of the tile's columns, whatever it held before. -/
theorem slabOK_pieces1 (TT : Buf (Elt F) (ttLoc d)) (c Y : ℕ) (hc : c < 10) (hY : Y = base0 L + 1024 * c) (g0 : S32x1024.Idx → F .f32)
    (o0 o1 o2 o3 : Fin 2 → ℕ)
    (h0 : ∀ a, o0 a + S8x1024.size a ≤ S32x1000000.size a) (h1 : ∀ a, o1 a + S8x1024.size a ≤ S32x1000000.size a)
    (h2 : ∀ a, o2 a + S8x1024.size a ≤ S32x1000000.size a) (h3 : ∀ a, o3 a + S8x1024.size a ≤ S32x1000000.size a)
    (u0 : ∀ a, (Rect.unit (s := S32x1000000) o0 S8x1024.size h0).stride a = 1)
    (u1 : ∀ a, (Rect.unit (s := S32x1000000) o1 S8x1024.size h1).stride a = 1)
    (u2 : ∀ a, (Rect.unit (s := S32x1000000) o2 S8x1024.size h2).stride a = 1)
    (u3 : ∀ a, (Rect.unit (s := S32x1000000) o3 S8x1024.size h3).stride a = 1)
    (p0 : ∀ a, (![0, 0] : Fin 2 → ℕ) a + S8x1024.size a ≤ S32x1024.size a)
    (p1 : ∀ a, (![8, 0] : Fin 2 → ℕ) a + S8x1024.size a ≤ S32x1024.size a)
    (p2 : ∀ a, (![16, 0] : Fin 2 → ℕ) a + S8x1024.size a ≤ S32x1024.size a)
    (p3 : ∀ a, (![24, 0] : Fin 2 → ℕ) a + S8x1024.size a ≤ S32x1024.size a)
    (e0 : o0 = ![0, Y]) (e1 : o1 = ![8, Y]) (e2 : o2 = ![16, Y]) (e3 : o3 = ![24, Y]) :
    SlabOK d L TT c ((s1M).view.writes (Elt F) g0
      [⟨Rect.unit (s := S32x1024) ![24, 0] S8x1024.size p3, ReadAs.same.apply (((ttM).slice (Rect.unit (s := S32x1000000) o3 S8x1024.size h3) u3).view.read (Elt F) TT)⟩,
       ⟨Rect.unit (s := S32x1024) ![16, 0] S8x1024.size p2, ReadAs.same.apply (((ttM).slice (Rect.unit (s := S32x1000000) o2 S8x1024.size h2) u2).view.read (Elt F) TT)⟩,
       ⟨Rect.unit (s := S32x1024) ![8, 0] S8x1024.size p1, ReadAs.same.apply (((ttM).slice (Rect.unit (s := S32x1000000) o1 S8x1024.size h1) u1).view.read (Elt F) TT)⟩,
       ⟨Rect.unit (s := S32x1024) ![0, 0] S8x1024.size p0, ReadAs.same.apply (((ttM).slice (Rect.unit (s := S32x1000000) o0 S8x1024.size h0) u0).view.read (Elt F) TT)⟩]) := by
  intro r j h
  have hb := base0_le L
  have hr : ∀ g : S32x1024.Idx → F .f32, (s1M).view.read (Elt F) g = g := fun g => rfl
  subst e0 e1 e2 e3
  have hYb : ∀ y : S32x1024.Idx, Y + (y 1).val < 1000000 := fun y => by
    have hy : (y 1).val < 1024 := (y 1).isLt
    omega
  refine (congrFun (hr _).symm (ix2 r j)).trans ?_
  refine (View.read_writes_apply_of_pieces (Val := Elt F) (s1M).view _
    (fun y => TT (ix2 (y 0) ⟨Y + (y 1).val, hYb y⟩) : S32x1024.Idx → Elt F .f32) _ ?_ (ix2 r j) ?_).trans ?_
  · intro p hp x
    simp only [List.mem_cons, List.mem_nil_iff, or_false] at hp
    rcases hp with rfl | rfl | rfl | rfl
    · show TT ((Rect.unit (s := S32x1000000) ![24, Y] S8x1024.size h3).emb x)
          = TT (ix2 (((Rect.unit (s := S32x1024) ![24, 0] S8x1024.size p3).emb x) 0)
              ⟨Y + (((Rect.unit (s := S32x1024) ![24, 0] S8x1024.size p3).emb x) 1).val, hYb _⟩)
      refine congrArg TT (funext fun a => Fin.ext ?_)
      match a with
      | ⟨0, _⟩ => rfl
      | ⟨1, _⟩ =>
        show Y + 1 * (x 1).val = Y + (0 + 1 * (x 1).val)
        omega
    · show TT ((Rect.unit (s := S32x1000000) ![16, Y] S8x1024.size h2).emb x)
          = TT (ix2 (((Rect.unit (s := S32x1024) ![16, 0] S8x1024.size p2).emb x) 0)
              ⟨Y + (((Rect.unit (s := S32x1024) ![16, 0] S8x1024.size p2).emb x) 1).val, hYb _⟩)
      refine congrArg TT (funext fun a => Fin.ext ?_)
      match a with
      | ⟨0, _⟩ => rfl
      | ⟨1, _⟩ =>
        show Y + 1 * (x 1).val = Y + (0 + 1 * (x 1).val)
        omega
    · show TT ((Rect.unit (s := S32x1000000) ![8, Y] S8x1024.size h1).emb x)
          = TT (ix2 (((Rect.unit (s := S32x1024) ![8, 0] S8x1024.size p1).emb x) 0)
              ⟨Y + (((Rect.unit (s := S32x1024) ![8, 0] S8x1024.size p1).emb x) 1).val, hYb _⟩)
      refine congrArg TT (funext fun a => Fin.ext ?_)
      match a with
      | ⟨0, _⟩ => rfl
      | ⟨1, _⟩ =>
        show Y + 1 * (x 1).val = Y + (0 + 1 * (x 1).val)
        omega
    · show TT ((Rect.unit (s := S32x1000000) ![0, Y] S8x1024.size h0).emb x)
          = TT (ix2 (((Rect.unit (s := S32x1024) ![0, 0] S8x1024.size p0).emb x) 0)
              ⟨Y + (((Rect.unit (s := S32x1024) ![0, 0] S8x1024.size p0).emb x) 1).val, hYb _⟩)
      refine congrArg TT (funext fun a => Fin.ext ?_)
      match a with
      | ⟨0, _⟩ => rfl
      | ⟨1, _⟩ =>
        show Y + 1 * (x 1).val = Y + (0 + 1 * (x 1).val)
        omega
  · have hr32 : r.val < 32 := r.isLt
    have hj : j.val < 1024 := j.isLt
    rcases (show r.val < 8 ∨ ((8 ≤ r.val ∧ r.val < 16) ∨ ((16 ≤ r.val ∧ r.val < 24) ∨ 24 ≤ r.val)) by omega) with hq | hq | hq | hq
    ·
      exact ⟨_, List.mem_cons_of_mem _ (List.mem_cons_of_mem _ (List.mem_cons_of_mem _ List.mem_cons_self)),
        (Rect.mem_set_unit (inb := p0)).mpr (Fin.forall_fin_two.mpr
          ⟨⟨by show 0 ≤ r.val; omega, by show r.val < 0 + 8; omega⟩, ⟨by show 0 ≤ j.val; omega, by show j.val < 0 + 1024; omega⟩⟩)⟩
    ·
      exact ⟨_, List.mem_cons_of_mem _ (List.mem_cons_of_mem _ List.mem_cons_self),
        (Rect.mem_set_unit (inb := p1)).mpr (Fin.forall_fin_two.mpr
          ⟨⟨by show 8 ≤ r.val; omega, by show r.val < 8 + 8; omega⟩, ⟨by show 0 ≤ j.val; omega, by show j.val < 0 + 1024; omega⟩⟩)⟩
    ·
      exact ⟨_, List.mem_cons_of_mem _ List.mem_cons_self,
        (Rect.mem_set_unit (inb := p2)).mpr (Fin.forall_fin_two.mpr
          ⟨⟨by show 16 ≤ r.val; omega, by show r.val < 16 + 8; omega⟩, ⟨by show 0 ≤ j.val; omega, by show j.val < 0 + 1024; omega⟩⟩)⟩
    ·
      exact ⟨_, List.mem_cons_self,
        (Rect.mem_set_unit (inb := p3)).mpr (Fin.forall_fin_two.mpr
          ⟨⟨by show 24 ≤ r.val; omega, by show r.val < 24 + 8; omega⟩, ⟨by show 0 ≤ j.val; omega, by show j.val < 0 + 1024; omega⟩⟩)⟩
  · exact congrArg TT (congrArg (ix2 r) (Fin.ext (by show Y + j.val = base0 L + 1024 * c + j.val; rw [hY])))

end Cert.Proof.KB

end
-- ==== Proof.KB.Tile0Seg.lean ====
/-
  The last copy of the first SparseCore call: the result buffer, holding the tile's 10240 column sums, is copied onto the
  tile's segment of the call's result; on that segment the result then agrees with the column sums of the transposed table.
-/
import proofs.«203338_g27195732918861_cont_9to1_1050_16_alg».proof.Proof.KB.Tile0Val
import proofs.«203338_g27195732918861_cont_9to1_1050_16_alg».proof.Proof.KB.Sets
import Idealize.ShloMosaic.Lib.Writes

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI

variable {F : FTy → Type} [FloatOps F]

local notation "𝕄" => MT nD τ sig (HIx 2) (Elt F) ℕ UU ℕ

variable (d : Dev nD) (L : grid1.Coords)

/-- Element `y` of the tile's segment is entry `base0 L + y` of the call's result. -/
theorem seg0_emb (y : S10240.Idx) (h : base0 L + (y 0).val < 327680) :
    (seg0M L).view.emb y = (ix1 ⟨base0 L + (y 0).val, h⟩ : S327680.Idx) := by
  show ((Rect.unit (s := S327680) (k1_off83 L) S10240.size (k1_off83_inb L)).emb y : S327680.Idx) = _
  funext a
  revert a
  refine Fin.forall_fin_one.mpr (Fin.ext ?_)
  rw [Rect.emb_apply, Rect.off_unit, Rect.stride_unit]
  have e : k1_off83 L 0 = 20480 * (L 1).val + 10240 * (L 0).val := congrFun (k1_off83_eq L) 0
  show k1_off83 L 0 + 1 * (y 0).val = base0 L + (y 0).val
  unfold base0
  omega

/-- THE LAST COPY: the segment written whole with a result buffer that holds the tile's column sums is, on the segment,
    the first call's value. -/
theorem seg_final (TT : Buf (Elt F) (ttLoc d)) (f0 : Buf (Elt F) (rsLoc d)) (g : S10240.Idx → F .f32) (hg : OutOK d L TT 10240 g) :
    ((seg0M L).view.loc (thr0 d L) ↦[(seg0M L).view.set]{fullShare}
        (seg0M L).view.writes (Elt F) f0 [⟨Rect.whole S10240, ReadAs.same.apply ((obM).view.read (Elt F) g)⟩] : sProp 𝕄)
      = ((seg0M L).view.loc (thr0 d L) ↦[(seg0M L).view.set]{fullShare} (tile0Val TT : Buf (Elt F) (rsLoc d))) := by
  refine pointsTo_congr (fun i hi => ?_)
  obtain ⟨y, -, rfl⟩ := Finset.mem_map.mp hi
  have hb := base0_le L
  have hy : (y 0).val < 10240 := (y 0).isLt
  have h : base0 L + (y 0).val < 327680 := by omega
  have key := View.read_writes_cons_emb (Val := Elt F) (seg0M L).view f0 (Rect.whole S10240)
    (ReadAs.same.apply ((obM).view.read (Elt F) g)) [] y
  rw [Rect.emb_whole_apply, View.read_apply] at key
  have e1 := eq_of_heq ((cast_heq _ _).symm.trans (heq_of_eq key))
  refine e1.trans ?_
  show g y = _
  rw [hg y h hy]
  exact congrArg (tile0Val TT) (seg0_emb L y h).symm

end Cert.Proof.KB

end
-- ==== Proof.KB.Tile0.lean ====
/-
  The body of the first SparseCore call at a symbolic tile, run once: the two slabs' first chunks are started, the five
  outer trips are laid out in sequence (each waits for a slab's four copies, sums its 1024 columns sixty-four at a time
  into the result buffer and starts the slab's next chunk), and the result buffer is copied to the tile's segment.
-/
import proofs.«203338_g27195732918861_cont_9to1_1050_16_alg».proof.Proof.KB.Tile0Val
import proofs.«203338_g27195732918861_cont_9to1_1050_16_alg».proof.Proof.KB.ColSumLemmas
import proofs.«203338_g27195732918861_cont_9to1_1050_16_alg».proof.Proof.KB.Tile0Slab
import proofs.«203338_g27195732918861_cont_9to1_1050_16_alg».proof.Proof.KB.Tile0Seg

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)

/-! ## The inner loops, with the values: one trip turns 64 more entries of the chunk into the slab's column sums -/

/-- Where the four stores of inner trip `k` of outer trip `k1` over slab 0 land. -/
theorem off41_at (k1 : Fin k1_t1_loop.trips) (k : Fin k1_t2_loop.trips) (u : Fin 4) :
    k1_off41 k1 k (BitVec.ofNat 32 u.val) 0 = 1024 * (2 * k1.val) + 64 * k.val + 16 * u.val := by
  rw [k1_off41_eq]
  show 2048 * k1.val + 64 * k.val + 16 * u.val = _
  omega

/-- Where the four stores of inner trip `k` of outer trip `k1` over slab 1 land. -/
theorem off78_at (k1 : Fin k1_t1_loop.trips) (k : Fin k1_t3_loop.trips) (u : Fin 4) :
    k1_off78 k1 k (BitVec.ofNat 32 u.val) 0 = 1024 * (2 * k1.val + 1) + 64 * k.val + 16 * u.val := by
  rw [k1_off78_eq]
  show 2048 * k1.val + 64 * k.val + 16 * u.val + 1024 = _
  omega

/-- Before inner trip `k` over slab 0: the slab holds chunk `c`, the result buffer is the entry contents with the
    chunk's first `64 k` entries summed, and the entry contents' earlier chunks were the tile's column sums. -/
def inv2v (TT : Buf (Elt F) (ttLoc d)) (c : ℕ) (k : ℕ) (_ : Unit) : sProp 𝕄 :=
  iprop(∃ (fsl : S32x1024.Idx → F .f32) (fin : S10240.Idx → F .f32),
    ((s0M).view.loc (thr0 d L) ↦{fullShare} fsl) ∗ ((obM).view.loc (thr0 d L) ↦{fullShare} patch fsl (1024 * c) (64 * k) fin)
      ∗ ⌜SlabOK d L TT c fsl⌝ ∗ ⌜OutOK d L TT (1024 * c) fin⌝)

/-- Before inner trip `k` over slab 1. -/
def inv3v (TT : Buf (Elt F) (ttLoc d)) (c : ℕ) (k : ℕ) (_ : Unit) : sProp 𝕄 :=
  iprop(∃ (fsl : S32x1024.Idx → F .f32) (fin : S10240.Idx → F .f32),
    ((s1M).view.loc (thr0 d L) ↦{fullShare} fsl) ∗ ((obM).view.loc (thr0 d L) ↦{fullShare} patch fsl (1024 * c) (64 * k) fin)
      ∗ ⌜SlabOK d L TT c fsl⌝ ∗ ⌜OutOK d L TT (1024 * c) fin⌝)

set_option maxHeartbeats 4000000 in
/-- One inner trip over slab 0. -/
theorem trip2v (TT : Buf (Elt F) (ttLoc d)) (v2 arg9 v46 : BitVec 32) (k1_t1 : Fin k1_t1_loop.trips) (k : Fin k1_t2_loop.trips) (acc : Unit) :
    inv2v (F := F) d L TT (2 * k1_t1.val) k.val acc ⊢ wp frame (wpE (defs₀ (F := F)) 𝒱₀ (thr0 d L) none) Set.univ
      (k1_t2_body (F := F) L ttM (Memref.isWhole_whole _) rsM (Memref.isWhole_whole _) s0M (Memref.isWhole_whole _) s1M (Memref.isWhole_whole _) obM (Memref.isWhole_whole _) cc1_scratch3 cc1_scratch4 cc1_scoped0 v2 k1_t1 arg9 v46 k acc)
      (inv2v (F := F) d L TT (2 * k1_t1.val) (k.val + 1)) := by
  unfold inv2v k1_t2_body
  iintro ⟨%fsl, %fin, Hs, Hob, %hS, %hO⟩
  sl_exec_parts
  sl_step
  iexists fsl, fin
  isplitl [Hs]; · iexact Hs
  isplitl [Hob]
  · sl_unfold_run_names
    rw [patch_step fsl (1024 * (2 * k1_t1.val)) k.val fin]
    · iexact Hob
    · exact off41_at k1_t1 k ⟨0, by decide⟩
    · exact off41_at k1_t1 k ⟨1, by decide⟩
    · exact off41_at k1_t1 k ⟨2, by decide⟩
    · exact off41_at k1_t1 k ⟨3, by decide⟩
    · exact fun x => pay2_u0 fsl k x
    · exact fun x => pay2_u1 fsl k x
    · exact fun x => pay2_u2 fsl k x
    · exact fun x => pay2_u3 fsl k x
  isplitr <;> (ipureintro; assumption)

set_option maxHeartbeats 4000000 in
/-- One inner trip over slab 1. -/
theorem trip3v (TT : Buf (Elt F) (ttLoc d)) (v1 v2 c1024 v77 : BitVec 32) (k1_t1 : Fin k1_t1_loop.trips) (k : Fin k1_t3_loop.trips) (acc : Unit) :
    inv3v (F := F) d L TT (2 * k1_t1.val + 1) k.val acc ⊢ wp frame (wpE (defs₀ (F := F)) 𝒱₀ (thr0 d L) none) Set.univ
      (k1_t3_body (F := F) L ttM (Memref.isWhole_whole _) rsM (Memref.isWhole_whole _) s0M (Memref.isWhole_whole _) s1M (Memref.isWhole_whole _) obM (Memref.isWhole_whole _) cc1_scratch3 cc1_scratch4 cc1_scoped0 v1 v2 c1024 k1_t1 v77 k acc)
      (inv3v (F := F) d L TT (2 * k1_t1.val + 1) (k.val + 1)) := by
  unfold inv3v k1_t3_body
  iintro ⟨%fsl, %fin, Hs, Hob, %hS, %hO⟩
  sl_exec_parts
  sl_step
  iexists fsl, fin
  isplitl [Hs]; · iexact Hs
  isplitl [Hob]
  · sl_unfold_run_names
    rw [patch_step fsl (1024 * (2 * k1_t1.val + 1)) k.val fin]
    · iexact Hob
    · exact off78_at k1_t1 k ⟨0, by decide⟩
    · exact off78_at k1_t1 k ⟨1, by decide⟩
    · exact off78_at k1_t1 k ⟨2, by decide⟩
    · exact off78_at k1_t1 k ⟨3, by decide⟩
    · exact fun x => pay3_u0 fsl k x
    · exact fun x => pay3_u1 fsl k x
    · exact fun x => pay3_u2 fsl k x
    · exact fun x => pay3_u3 fsl k x
  isplitr <;> (ipureintro; assumption)

set_option maxHeartbeats 4000000 in
theorem tile0_body (hF : (K (F := F)).Facts) (O : CellTallies nD τ sig (HIx 2)) (W : Waits sig (HIx 2)) (hO : ∀ g, O g none = 0)
    (q : PosShare TreeShare) (TT : Buf (Elt F) (ttLoc d)) (f0 : Buf (Elt F) (rsLoc d)) :
    (iprop(levAts (K (F := F)).L (K (F := F)).lev ∗ ((ttLoc d ↦{q} TT) ∗ (rsLoc d ↦[outSeg0 L]{fullShare} f0))
        ∗ scopedBufs (thr0 d L) ∗ scopedSems0 (thr0 d L) ∗ owes (thr0 d L) O W) : sProp 𝕄)
      ⊢ wp frame (wpE (defs₀ (F := F)) 𝒱₀ (thr0 d L) none) Set.univ
          (cc1_rs_kernel (F := F) L ttM (Memref.isWhole_whole _) rsM (Memref.isWhole_whole _) s0M (Memref.isWhole_whole _) s1M (Memref.isWhole_whole _) obM (Memref.isWhole_whole _) cc1_scratch3 cc1_scratch4 cc1_scoped0)
          fun _ => iprop(((ttLoc d ↦{q} TT) ∗ (rsLoc d ↦[outSeg0 L]{fullShare} tile0Val TT))
            ∗ scopedBufs (thr0 d L) ∗ scopedSems0 (thr0 d L) ∗ ∃ W', ⌜∀ p ∈ W', p ∈ W ∨ p.2 = none⌝ ∗ owes (thr0 d L) O W') := by
  have hplan3 : Transfers.BatchOf (thr0 d L) (SemLoc.dma cc1_scratch3.sem) 4 true := trivial
  have hplan4 : Transfers.BatchOf (thr0 d L) (SemLoc.dma cc1_scratch4.sem) 4 true := trivial
  simp only [cc1_rs_kernel_eq_skeleton]; unfold cc1_rs_kernel_skel
  rw [(K (F := F)).scopedBufs_V hF d (cV L) (jV L), SparseCore.Cfg.scopedSems0_V (Val := Elt F) d (cV L) (jV L), ownSems0_V0, ownBufs_V0]
  iintro ⟨#Hlv, ⟨Htt, Hseg⟩, ⟨⟨%fs0, Hs0⟩, ⟨%fs1, Hs1⟩, ⟨%fob, Hob⟩, Hbufs⟩, ⟨Hsem3, Hsem4, Hsem6, Hsems⟩, HO⟩
  ihave Hmw := ((K (F := F)).mayWaits_none (thr := thr0 d L) hO) $$ Hlv
  ihave Htt' := (Entails.of_eq (pts_tt (F := F) d L q _).symm) $$ Htt
  ihave Htk := (tt_toks (F := F) d L q TT).1 $$ Htt'
  icases Htk with ⟨Htt4, Htt5, Httr⟩
  ihave Hseg' := (Entails.of_eq (pts_seg (F := F) d L _).symm) $$ Hseg
  ihave Hs0' := (Entails.of_eq (pts_s0 (F := F) d L _).symm) $$ Hs0
  ihave Hs1' := (Entails.of_eq (pts_s1 (F := F) d L _).symm) $$ Hs1
  ihave Hob' := (Entails.of_eq (pts_ob (F := F) d L _).symm) $$ Hob
  have hOK := outOK_zero (F := F) d L TT fob
  sl_exec
  sl_unroll
  sl_exec (disch := decide)
  sl_for (inv2v (F := F) d L TT 0) $$ [Hs0' Hob']
  case region => intro k acc; exact trip2v (F := F) d L TT _ _ _ ⟨0, by decide⟩ k acc
  · unfold inv2v
    iexists _, _
    isplitl [Hs0']; · iexact Hs0'
    isplitl [Hob']; · rw [show (64 * 0 : ℕ) = 0 from rfl, patch_zero]; iexact Hob'
    isplitr
    · ipureintro
      sl_unfold_run_names
      exact slabOK_pieces0 (F := F) d L TT 0 _ (by decide) (by unfold base0; first | (simp only [Fin.val_mk]; first | done | omega) | omega) _ _ _ _ _ _ _ _ _ _ _ _ _ _ _ _ _
        (k1_off1_eq L ⟨0, by first | decide | done⟩) (k1_off2_eq L ⟨0, by first | decide | done⟩) (k1_off3_eq L ⟨0, by first | decide | done⟩) (k1_off4_eq L ⟨0, by first | decide | done⟩)
    · ipureintro; exact hOK
  iintro %_ HI
  unfold inv2v
  icases HI with ⟨%fsl0, %fin0, Hs0', Hob', %hS0, %hO0⟩
  replace hOK := outOK_step d L TT 0 (by decide) fsl0 fin0 hS0 hO0
  sl_exec (disch := decide)
  sl_for (inv3v (F := F) d L TT 1) $$ [Hs1' Hob']
  case region => intro k acc; exact trip3v (F := F) d L TT _ _ _ _ ⟨0, by decide⟩ k acc
  · unfold inv3v
    iexists _, _
    isplitl [Hs1']; · iexact Hs1'
    isplitl [Hob']; · rw [show (64 * 0 : ℕ) = 0 from rfl, patch_zero]; iexact Hob'
    isplitr
    · ipureintro
      sl_unfold_run_names
      exact slabOK_pieces1 (F := F) d L TT 1 _ (by decide) (by unfold base0; first | (simp only [Fin.val_mk]; first | done | omega) | omega) _ _ _ _ _ _ _ _ _ _ _ _ _ _ _ _ _
        (k1_off1_eq L ⟨1, by first | decide | done⟩) (k1_off2_eq L ⟨1, by first | decide | done⟩) (k1_off3_eq L ⟨1, by first | decide | done⟩) (k1_off4_eq L ⟨1, by first | decide | done⟩)
    · ipureintro; exact hOK
  iintro %_ HI
  unfold inv3v
  icases HI with ⟨%fsl1, %fin1, Hs1', Hob', %hS1, %hO1⟩
  replace hOK := outOK_step d L TT 1 (by decide) fsl1 fin1 hS1 hO1
  sl_exec (disch := decide)
  sl_for (inv2v (F := F) d L TT 2) $$ [Hs0' Hob']
  case region => intro k acc; exact trip2v (F := F) d L TT _ _ _ ⟨1, by decide⟩ k acc
  · unfold inv2v
    iexists _, _
    isplitl [Hs0']; · iexact Hs0'
    isplitl [Hob']; · rw [show (64 * 0 : ℕ) = 0 from rfl, patch_zero]; iexact Hob'
    isplitr
    · ipureintro
      sl_unfold_run_names
      exact slabOK_pieces0 (F := F) d L TT 2 _ (by decide) (by unfold base0; first | (simp only [Fin.val_mk]; first | done | omega) | omega) _ _ _ _ _ _ _ _ _ _ _ _ _ _ _ _ _
        (k1_off42_eq L ⟨0, by first | decide | done⟩) (k1_off43_eq L ⟨0, by first | decide | done⟩) (k1_off44_eq L ⟨0, by first | decide | done⟩) (k1_off45_eq L ⟨0, by first | decide | done⟩)
    · ipureintro; exact hOK
  iintro %_ HI
  unfold inv2v
  icases HI with ⟨%fsl2, %fin2, Hs0', Hob', %hS2, %hO2⟩
  replace hOK := outOK_step d L TT 2 (by decide) fsl2 fin2 hS2 hO2
  sl_exec (disch := decide)
  sl_for (inv3v (F := F) d L TT 3) $$ [Hs1' Hob']
  case region => intro k acc; exact trip3v (F := F) d L TT _ _ _ _ ⟨1, by decide⟩ k acc
  · unfold inv3v
    iexists _, _
    isplitl [Hs1']; · iexact Hs1'
    isplitl [Hob']; · rw [show (64 * 0 : ℕ) = 0 from rfl, patch_zero]; iexact Hob'
    isplitr
    · ipureintro
      sl_unfold_run_names
      exact slabOK_pieces1 (F := F) d L TT 3 _ (by decide) (by unfold base0; first | (simp only [Fin.val_mk]; first | done | omega) | omega) _ _ _ _ _ _ _ _ _ _ _ _ _ _ _ _ _
        (k1_off79_eq L ⟨0, by first | decide | done⟩) (k1_off80_eq L ⟨0, by first | decide | done⟩) (k1_off81_eq L ⟨0, by first | decide | done⟩) (k1_off82_eq L ⟨0, by first | decide | done⟩)
    · ipureintro; exact hOK
  iintro %_ HI
  unfold inv3v
  icases HI with ⟨%fsl3, %fin3, Hs1', Hob', %hS3, %hO3⟩
  replace hOK := outOK_step d L TT 3 (by decide) fsl3 fin3 hS3 hO3
  sl_exec (disch := decide)
  sl_for (inv2v (F := F) d L TT 4) $$ [Hs0' Hob']
  case region => intro k acc; exact trip2v (F := F) d L TT _ _ _ ⟨2, by decide⟩ k acc
  · unfold inv2v
    iexists _, _
    isplitl [Hs0']; · iexact Hs0'
    isplitl [Hob']; · rw [show (64 * 0 : ℕ) = 0 from rfl, patch_zero]; iexact Hob'
    isplitr
    · ipureintro
      sl_unfold_run_names
      exact slabOK_pieces0 (F := F) d L TT 4 _ (by decide) (by unfold base0; first | (simp only [Fin.val_mk]; first | done | omega) | omega) _ _ _ _ _ _ _ _ _ _ _ _ _ _ _ _ _
        (k1_off42_eq L ⟨1, by first | decide | done⟩) (k1_off43_eq L ⟨1, by first | decide | done⟩) (k1_off44_eq L ⟨1, by first | decide | done⟩) (k1_off45_eq L ⟨1, by first | decide | done⟩)
    · ipureintro; exact hOK
  iintro %_ HI
  unfold inv2v
  icases HI with ⟨%fsl4, %fin4, Hs0', Hob', %hS4, %hO4⟩
  replace hOK := outOK_step d L TT 4 (by decide) fsl4 fin4 hS4 hO4
  sl_exec (disch := decide)
  sl_for (inv3v (F := F) d L TT 5) $$ [Hs1' Hob']
  case region => intro k acc; exact trip3v (F := F) d L TT _ _ _ _ ⟨2, by decide⟩ k acc
  · unfold inv3v
    iexists _, _
    isplitl [Hs1']; · iexact Hs1'
    isplitl [Hob']; · rw [show (64 * 0 : ℕ) = 0 from rfl, patch_zero]; iexact Hob'
    isplitr
    · ipureintro
      sl_unfold_run_names
      exact slabOK_pieces1 (F := F) d L TT 5 _ (by decide) (by unfold base0; first | (simp only [Fin.val_mk]; first | done | omega) | omega) _ _ _ _ _ _ _ _ _ _ _ _ _ _ _ _ _
        (k1_off79_eq L ⟨1, by first | decide | done⟩) (k1_off80_eq L ⟨1, by first | decide | done⟩) (k1_off81_eq L ⟨1, by first | decide | done⟩) (k1_off82_eq L ⟨1, by first | decide | done⟩)
    · ipureintro; exact hOK
  iintro %_ HI
  unfold inv3v
  icases HI with ⟨%fsl5, %fin5, Hs1', Hob', %hS5, %hO5⟩
  replace hOK := outOK_step d L TT 5 (by decide) fsl5 fin5 hS5 hO5
  sl_exec (disch := decide)
  sl_for (inv2v (F := F) d L TT 6) $$ [Hs0' Hob']
  case region => intro k acc; exact trip2v (F := F) d L TT _ _ _ ⟨3, by decide⟩ k acc
  · unfold inv2v
    iexists _, _
    isplitl [Hs0']; · iexact Hs0'
    isplitl [Hob']; · rw [show (64 * 0 : ℕ) = 0 from rfl, patch_zero]; iexact Hob'
    isplitr
    · ipureintro
      sl_unfold_run_names
      exact slabOK_pieces0 (F := F) d L TT 6 _ (by decide) (by unfold base0; first | (simp only [Fin.val_mk]; first | done | omega) | omega) _ _ _ _ _ _ _ _ _ _ _ _ _ _ _ _ _
        (k1_off42_eq L ⟨2, by first | decide | done⟩) (k1_off43_eq L ⟨2, by first | decide | done⟩) (k1_off44_eq L ⟨2, by first | decide | done⟩) (k1_off45_eq L ⟨2, by first | decide | done⟩)
    · ipureintro; exact hOK
  iintro %_ HI
  unfold inv2v
  icases HI with ⟨%fsl6, %fin6, Hs0', Hob', %hS6, %hO6⟩
  replace hOK := outOK_step d L TT 6 (by decide) fsl6 fin6 hS6 hO6
  sl_exec (disch := decide)
  sl_for (inv3v (F := F) d L TT 7) $$ [Hs1' Hob']
  case region => intro k acc; exact trip3v (F := F) d L TT _ _ _ _ ⟨3, by decide⟩ k acc
  · unfold inv3v
    iexists _, _
    isplitl [Hs1']; · iexact Hs1'
    isplitl [Hob']; · rw [show (64 * 0 : ℕ) = 0 from rfl, patch_zero]; iexact Hob'
    isplitr
    · ipureintro
      sl_unfold_run_names
      exact slabOK_pieces1 (F := F) d L TT 7 _ (by decide) (by unfold base0; first | (simp only [Fin.val_mk]; first | done | omega) | omega) _ _ _ _ _ _ _ _ _ _ _ _ _ _ _ _ _
        (k1_off79_eq L ⟨2, by first | decide | done⟩) (k1_off80_eq L ⟨2, by first | decide | done⟩) (k1_off81_eq L ⟨2, by first | decide | done⟩) (k1_off82_eq L ⟨2, by first | decide | done⟩)
    · ipureintro; exact hOK
  iintro %_ HI
  unfold inv3v
  icases HI with ⟨%fsl7, %fin7, Hs1', Hob', %hS7, %hO7⟩
  replace hOK := outOK_step d L TT 7 (by decide) fsl7 fin7 hS7 hO7
  sl_exec (disch := decide)
  sl_for (inv2v (F := F) d L TT 8) $$ [Hs0' Hob']
  case region => intro k acc; exact trip2v (F := F) d L TT _ _ _ ⟨4, by decide⟩ k acc
  · unfold inv2v
    iexists _, _
    isplitl [Hs0']; · iexact Hs0'
    isplitl [Hob']; · rw [show (64 * 0 : ℕ) = 0 from rfl, patch_zero]; iexact Hob'
    isplitr
    · ipureintro
      sl_unfold_run_names
      exact slabOK_pieces0 (F := F) d L TT 8 _ (by decide) (by unfold base0; first | (simp only [Fin.val_mk]; first | done | omega) | omega) _ _ _ _ _ _ _ _ _ _ _ _ _ _ _ _ _
        (k1_off42_eq L ⟨3, by first | decide | done⟩) (k1_off43_eq L ⟨3, by first | decide | done⟩) (k1_off44_eq L ⟨3, by first | decide | done⟩) (k1_off45_eq L ⟨3, by first | decide | done⟩)
    · ipureintro; exact hOK
  iintro %_ HI
  unfold inv2v
  icases HI with ⟨%fsl8, %fin8, Hs0', Hob', %hS8, %hO8⟩
  replace hOK := outOK_step d L TT 8 (by decide) fsl8 fin8 hS8 hO8
  sl_exec (disch := decide)
  sl_for (inv3v (F := F) d L TT 9) $$ [Hs1' Hob']
  case region => intro k acc; exact trip3v (F := F) d L TT _ _ _ _ ⟨4, by decide⟩ k acc
  · unfold inv3v
    iexists _, _
    isplitl [Hs1']; · iexact Hs1'
    isplitl [Hob']; · rw [show (64 * 0 : ℕ) = 0 from rfl, patch_zero]; iexact Hob'
    isplitr
    · ipureintro
      sl_unfold_run_names
      exact slabOK_pieces1 (F := F) d L TT 9 _ (by decide) (by unfold base0; first | (simp only [Fin.val_mk]; first | done | omega) | omega) _ _ _ _ _ _ _ _ _ _ _ _ _ _ _ _ _
        (k1_off79_eq L ⟨3, by first | decide | done⟩) (k1_off80_eq L ⟨3, by first | decide | done⟩) (k1_off81_eq L ⟨3, by first | decide | done⟩) (k1_off82_eq L ⟨3, by first | decide | done⟩)
    · ipureintro; exact hOK
  iintro %_ HI
  unfold inv3v
  icases HI with ⟨%fsl9, %fin9, Hs1', Hob', %hS9, %hO9⟩
  replace hOK := outOK_step d L TT 9 (by decide) fsl9 fin9 hS9 hO9
  sl_exec (disch := decide)
  sl_step
  isplitl [Htt4 Htt5 Httr Hseg']
  · isplitl [Htt4 Htt5 Httr]
    · iapply (Entails.of_eq (pts_tt (F := F) d L q _))
      iapply (tt_toks (F := F) d L q TT).2
      isplitl [Htt4]; · iexact Htt4
      isplitl [Htt5]; · iexact Htt5
      iexact Httr
    · iapply (Entails.of_eq (pts_seg (F := F) d L _))
      iapply (Entails.of_eq (seg_final (F := F) d L TT f0 _ hOK))
      iexact Hseg'
  isplitl [Hs0' Hs1' Hob' Hbufs]
  · isplitl [Hs0']; · iexists _; iapply (Entails.of_eq (pts_s0 (F := F) d L _)); iexact Hs0'
    isplitl [Hs1']; · iexists _; iapply (Entails.of_eq (pts_s1 (F := F) d L _)); iexact Hs1'
    isplitl [Hob']; · iexists _; iapply (Entails.of_eq (pts_ob (F := F) d L _)); iexact Hob'
    iexact Hbufs
  isplitl [Hsem3 Hsem4 Hsem6 Hsems]
  · isplitl [Hsem3]; · iexact Hsem3
    isplitl [Hsem4]; · iexact Hsem4
    isplitl [Hsem6]; · iexact Hsem6
    iexact Hsems
  iexists _; isplitr
  swap
  · iexact HO
  · ipureintro
    simp only [Finset.forall_mem_insert]
    repeat' (first | exact fun p hp => Or.inl hp | refine ⟨Or.inr rfl, ?_⟩)

end Cert.Proof.KB

end
-- ==== Proof.KB.Tile1Val.lean ====
/-
  What SparseCore call 1 leaves in its [32,16] result, as a plain function of the transposed index array and the table of
  row sums: tile w accumulates, chunk after chunk (104 chunks of 128 gathered words), the sum of the chunk's eight
  16-lane pieces, starting from the zero vector; entry (w, l) is lane l of tile w's accumulator.
-/
import proofs.«203338_g27195732918861_cont_9to1_1050_16_alg».proof.Proof.KB.Sets
import Idealize.ShloMosaic.Lib.ValueIdx

noncomputable section

namespace Cert.Proof.KB

open Cert.Kernel Cert.Kernel.Gen

open Idealize.ShloMosaic Idealize.ShloMosaic.ValueIdx

variable {F : FTy → Type}

/-- A natural number as a row of the table of row sums, reduced modulo its length (the identity below 1000000). -/
def rowOf1 (n : ℕ) : Fin 1000000 := ⟨n % 1000000, Nat.mod_lt _ (by norm_num)⟩

/-- Word `p` of chunk `j` of tile `w`: the row sum at the index word of field `j / 4`, batch column
    `512 w + 128 (j % 4) + p` (both reduced into range: the identity for `j < 104`, `w < 32`, `p < 128`). -/
def chunkWord {d : Dev nD} (I : Buf (Elt F) (itLoc d)) (R : Buf (Elt F) (raLoc d)) (w j p : ℕ) : Elt F .f32 :=
  R (ix1 (rowOf1 (I (ix2 (⟨(j / 4) % 26, Nat.mod_lt _ (by norm_num)⟩ : Fin 26)
    (⟨(w * 512 + (j % 4) * 128 + p) % 16384, Nat.mod_lt _ (by norm_num)⟩ : Fin 16384))).toNat))

variable [FloatOps F]

/-- The `r`-th sixteen-lane piece of chunk `j`. -/
def pieceV {d : Dev nD} (I : Buf (Elt F) (itLoc d)) (R : Buf (Elt F) (raLoc d)) (w j r : ℕ) : FVec F S16 .f32 :=
  shapeCast S16 (fun y : S16.Idx => chunkWord I R w j (16 * r + (y 0).val) : Vec F S16 .f32) shapeCasts_S16_S16

/-- The sum of a chunk's eight pieces, added from the left as the body adds them. -/
def chunkSum {d : Dev nD} (I : Buf (Elt F) (itLoc d)) (R : Buf (Elt F) (raLoc d)) (w j : ℕ) : FVec F S16 .f32 :=
  addf (addf (addf (addf (addf (addf (addf (pieceV I R w j 0) (pieceV I R w j 1)) (pieceV I R w j 2)) (pieceV I R w j 3)) (pieceV I R w j 4))
    (pieceV I R w j 5)) (pieceV I R w j 6)) (pieceV I R w j 7)

/-- Tile `w`'s accumulator after its first `j` chunks. -/
def accAt {d : Dev nD} (I : Buf (Elt F) (itLoc d)) (R : Buf (Elt F) (raLoc d)) (w : ℕ) : ℕ → FVec F S16 .f32
  | 0 => k2_pay1
  | j + 1 => addf (accAt I R w j) (chunkSum I R w j)

/-- The [32,16] result: entry (w, l) is lane l of tile w's accumulator after its 104 chunks. -/
def tile1Val {d : Dev nD} (I : Buf (Elt F) (itLoc d)) (R : Buf (Elt F) (raLoc d)) : Buf (Elt F) (ptLoc d) :=
  fun idx => k2_pay3 (accAt I R (idx 0).val 104) (ix1 (idx 1))

end Cert.Proof.KB

end
-- ==== Proof.KB.Tile1Mem.lean ====
/-
  SparseCore call 1 on one tile: the names of its memory — the tile's thread, its window of the transposed index array,
  the pieces of the index scratch the gathers take their offsets from, the table of row sums as the gathers slice it —
  and the chunk a gather leaves in its buffer, as a function on the buffer's 128 words.
-/
import proofs.«203338_g27195732918861_cont_9to1_1050_16_alg».proof.Proof.KB.Tile1Val
import Idealize.ShloMosaic.Lib.SparseCore.Stream

noncomputable section

namespace Cert.Proof.KB

open Cert.Kernel Cert.Kernel.Gen

open Idealize.ShloMosaic Idealize.ShloMosaic.ValueIdx
open Idealize.ShloMosaic.SparseCore (S V T)

variable {F : FTy → Type}

/-- The SparseCore and the subcore of grid point `L`. -/
abbrev cV1 (L : grid2.Coords) : Fin τ.nSC := (L 0).castLE hcore2
abbrev jV1 (L : grid2.Coords) : Fin τ.nSub := (L 1).castLE hsub2
/-- The tile's thread. -/
abbrev thr1 (d : Dev nD) (L : grid2.Coords) : Thread nD τ := V d (cV1 L) (jV1 L)

/-- The tile's window of the transposed index array: all 26 fields, the tile's 512 batch columns. -/
abbrev idxWinM (L : grid2.Coords) : Memref sig .scVector .hbm S26x512 .i32 :=
  (Memref.whole main_v4_scv : Memref sig .scVector .hbm S26x16384 .i32).slice (Rect.unit (s := S26x16384) (k2_off1 L) S26x512.size (k2_off1_inb L)) (fun _ => rfl)

/-- Its words. -/
def idxWin {d : Dev nD} (L : grid2.Coords) (I : Buf (Elt F) (itLoc d)) : S26x512.Idx → Elt F .i32 :=
  ReadAs.same.apply ((idxWinM L).view.read (Elt F) I)

/-- The index scratch after the window was copied in. -/
abbrev scr0 {d : Dev nD} (L : grid2.Coords) (I : Buf (Elt F) (itLoc d)) (fb : Buf (Elt F) ((thr1 d L).loc cc2_scratch0)) : Buf (Elt F) ((thr1 d L).loc cc2_scratch0) :=
  View.write (Elt F) (Memref.whole cc2_scratch0 : Memref sig .scVector .vmem S26x512 .i32).view fb (idxWin L I) Finset.univ

/-- A row piece of the index scratch, as the body slices it. -/
abbrev offM (off : Fin 2 → ℕ) (hb : ∀ a, off a + S1x128.size a ≤ S26x512.size a) : Memref sig .scVector .vmem S128 .i32 :=
  ((Memref.whole cc2_scratch0 : Memref sig .scVector .vmem S26x512 .i32).slice (Rect.unit (s := S26x512) off S1x128.size hb) (fun _ => rfl)).squeeze S128 squeezes_S1x128_S128

/-- The table of row sums, as every gather slices it (whole). -/
abbrev srcM : Memref sig .scVector .hbm S1000000 .f32 :=
  (Memref.whole main_v3_scv : Memref sig .scVector .hbm S1000000 .f32).slice (Rect.unit (s := S1000000) ![0] S1000000.size inb_S1000000_S1000000_0) (fun _ => rfl)

/-- Where chunk `8 k + b`'s offsets sit in the index scratch: field `(8 k + b) / 4`, quarter `(8 k + b) % 4`. -/
def offJ (b k : ℕ) : Fin 2 → ℕ := ![(8 * k + b) / 4, ((8 * k + b) % 4) * 128]

theorem offJ_inb : ∀ (b : Fin 8) (k : Fin 13) (a : Fin 2), offJ b.val k.val a + S1x128.size a ≤ S26x512.size a := by decide +kernel

/-- Chunk `j` of tile `w` as the contents of a 128-word buffer. -/
def chunkBuf {d : Dev nD} (I : Buf (Elt F) (itLoc d)) (R : Buf (Elt F) (raLoc d)) (w j : ℕ) : S128.Idx → Elt F .f32 :=
  fun x => chunkWord I R w j (x 0).val

end Cert.Proof.KB

end
-- ==== Proof.KB.Tile1.lean ====
/-
  SparseCore call 1 on one tile (grid point L, tile number 2 (L 1) + (L 0)): the body's run. The tile copies its window of the
  transposed index array into its index scratch, issues eight indirect gathers of 128 row sums each (one buffer and one
  DMA semaphore per gather, each holding a read share of the table of row sums and of the index scratch), and in thirteen
  trips waits for each buffer's gather, adds its eight 16-lane pieces to the accumulator and issues the next chunk's
  gather into the same buffer (none after the last trip); then stores the accumulator and copies it to its row of the
  result. One gather at a time per semaphore; the index scratch is never written again.
-/
import proofs.«203338_g27195732918861_cont_9to1_1050_16_alg».proof.Proof.KB.Tile1Mem

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## The tile's own semaphores and scratch buffers, taken out of what the launch hands it -/

omit [FloatOps F] in
theorem cell_ne1 {thr : Thread nD τ} {a b : SemLoc sig} (h : a ≠ b) : ((thr, a) : GSem nD τ sig) ≠ (thr, b) := fun e => h (Prod.mk.inj e).2

/-- The cell of one of the tile's DMA semaphores. -/
abbrev cell1 (d : Dev nD) (L : grid2.Coords) (s : DmaSems sig S_) : GSem nD τ sig := (thr1 d L, .dma s.sem)

/-- The tile's other semaphores, at zero. -/
def semsRest1 (d : Dev nD) (L : grid2.Coords) : sProp 𝕄 := bigSep (((((((((((ownCells (thr1 d L)).erase (cell1 d L cc2_scratch10)).erase (cell1 d L cc2_scratch11)).erase (cell1 d L cc2_scratch12)).erase (cell1 d L cc2_scratch13)).erase (cell1 d L cc2_scratch14)).erase (cell1 d L cc2_scratch15)).erase (cell1 d L cc2_scratch16)).erase (cell1 d L cc2_scratch17)).erase (cell1 d L cc2_scoped0)).erase (cell1 d L cc2_scoped1)) fun g => semVal g 0

/-- The tile's other buffers, at some contents. -/
def bufsRest1 (d : Dev nD) (L : grid2.Coords) : sProp 𝕄 := bigSep (((((((((((ownRefs (τ := τ) (.scVector (cV1 L) (jV1 L))).erase ((Proc.scVector (cV1 L) (jV1 L)).devRef cc2_scratch0)).erase ((Proc.scVector (cV1 L) (jV1 L)).devRef cc2_scratch1)).erase ((Proc.scVector (cV1 L) (jV1 L)).devRef cc2_scratch2)).erase ((Proc.scVector (cV1 L) (jV1 L)).devRef cc2_scratch3)).erase ((Proc.scVector (cV1 L) (jV1 L)).devRef cc2_scratch4)).erase ((Proc.scVector (cV1 L) (jV1 L)).devRef cc2_scratch5)).erase ((Proc.scVector (cV1 L) (jV1 L)).devRef cc2_scratch6)).erase ((Proc.scVector (cV1 L) (jV1 L)).devRef cc2_scratch7)).erase ((Proc.scVector (cV1 L) (jV1 L)).devRef cc2_scratch8)).erase ((Proc.scVector (cV1 L) (jV1 L)).devRef cc2_scratch9)) fun b => iprop(∃ f, ((d, b) : Loc nD τ sig) ↦{fullShare} f)

omit [FloatOps F] in
theorem ownSems0_T1 (d : Dev nD) (L : grid2.Coords) :
    (ownSems0 (thr1 d L) : sProp 𝕄)
      = iprop(semVal (cell1 d L cc2_scratch10) 0 ∗ semVal (cell1 d L cc2_scratch11) 0 ∗ semVal (cell1 d L cc2_scratch12) 0 ∗ semVal (cell1 d L cc2_scratch13) 0 ∗ semVal (cell1 d L cc2_scratch14) 0 ∗ semVal (cell1 d L cc2_scratch15) 0 ∗ semVal (cell1 d L cc2_scratch16) 0 ∗ semVal (cell1 d L cc2_scratch17) 0 ∗ semVal (cell1 d L cc2_scoped0) 0 ∗ semVal (cell1 d L cc2_scoped1) 0 ∗ semsRest1 d L) := by
  unfold SparseCore.Cfg.ownSems0 semsRest1
  rw [SparseCore.bigSep_erase' ((mem_ownCells (g := (cell1 d L cc2_scratch10))).mpr ⟨rfl, by show (SemLoc.dma cc2_scratch10.sem : SemLoc sig).isScoped .scVector = true; decide⟩),
    SparseCore.bigSep_erase' (Finset.mem_erase.mpr ⟨cell_ne1 (show (SemLoc.dma cc2_scratch11.sem : SemLoc sig) ≠ SemLoc.dma cc2_scratch10.sem by decide), (mem_ownCells (g := (cell1 d L cc2_scratch11))).mpr ⟨rfl, by show (SemLoc.dma cc2_scratch11.sem : SemLoc sig).isScoped .scVector = true; decide⟩⟩),
    SparseCore.bigSep_erase' (Finset.mem_erase.mpr ⟨cell_ne1 (show (SemLoc.dma cc2_scratch12.sem : SemLoc sig) ≠ SemLoc.dma cc2_scratch11.sem by decide), Finset.mem_erase.mpr ⟨cell_ne1 (show (SemLoc.dma cc2_scratch12.sem : SemLoc sig) ≠ SemLoc.dma cc2_scratch10.sem by decide), (mem_ownCells (g := (cell1 d L cc2_scratch12))).mpr ⟨rfl, by show (SemLoc.dma cc2_scratch12.sem : SemLoc sig).isScoped .scVector = true; decide⟩⟩⟩),
    SparseCore.bigSep_erase' (Finset.mem_erase.mpr ⟨cell_ne1 (show (SemLoc.dma cc2_scratch13.sem : SemLoc sig) ≠ SemLoc.dma cc2_scratch12.sem by decide), Finset.mem_erase.mpr ⟨cell_ne1 (show (SemLoc.dma cc2_scratch13.sem : SemLoc sig) ≠ SemLoc.dma cc2_scratch11.sem by decide), Finset.mem_erase.mpr ⟨cell_ne1 (show (SemLoc.dma cc2_scratch13.sem : SemLoc sig) ≠ SemLoc.dma cc2_scratch10.sem by decide), (mem_ownCells (g := (cell1 d L cc2_scratch13))).mpr ⟨rfl, by show (SemLoc.dma cc2_scratch13.sem : SemLoc sig).isScoped .scVector = true; decide⟩⟩⟩⟩),
    SparseCore.bigSep_erase' (Finset.mem_erase.mpr ⟨cell_ne1 (show (SemLoc.dma cc2_scratch14.sem : SemLoc sig) ≠ SemLoc.dma cc2_scratch13.sem by decide), Finset.mem_erase.mpr ⟨cell_ne1 (show (SemLoc.dma cc2_scratch14.sem : SemLoc sig) ≠ SemLoc.dma cc2_scratch12.sem by decide), Finset.mem_erase.mpr ⟨cell_ne1 (show (SemLoc.dma cc2_scratch14.sem : SemLoc sig) ≠ SemLoc.dma cc2_scratch11.sem by decide), Finset.mem_erase.mpr ⟨cell_ne1 (show (SemLoc.dma cc2_scratch14.sem : SemLoc sig) ≠ SemLoc.dma cc2_scratch10.sem by decide), (mem_ownCells (g := (cell1 d L cc2_scratch14))).mpr ⟨rfl, by show (SemLoc.dma cc2_scratch14.sem : SemLoc sig).isScoped .scVector = true; decide⟩⟩⟩⟩⟩),
    SparseCore.bigSep_erase' (Finset.mem_erase.mpr ⟨cell_ne1 (show (SemLoc.dma cc2_scratch15.sem : SemLoc sig) ≠ SemLoc.dma cc2_scratch14.sem by decide), Finset.mem_erase.mpr ⟨cell_ne1 (show (SemLoc.dma cc2_scratch15.sem : SemLoc sig) ≠ SemLoc.dma cc2_scratch13.sem by decide), Finset.mem_erase.mpr ⟨cell_ne1 (show (SemLoc.dma cc2_scratch15.sem : SemLoc sig) ≠ SemLoc.dma cc2_scratch12.sem by decide), Finset.mem_erase.mpr ⟨cell_ne1 (show (SemLoc.dma cc2_scratch15.sem : SemLoc sig) ≠ SemLoc.dma cc2_scratch11.sem by decide), Finset.mem_erase.mpr ⟨cell_ne1 (show (SemLoc.dma cc2_scratch15.sem : SemLoc sig) ≠ SemLoc.dma cc2_scratch10.sem by decide), (mem_ownCells (g := (cell1 d L cc2_scratch15))).mpr ⟨rfl, by show (SemLoc.dma cc2_scratch15.sem : SemLoc sig).isScoped .scVector = true; decide⟩⟩⟩⟩⟩⟩),
    SparseCore.bigSep_erase' (Finset.mem_erase.mpr ⟨cell_ne1 (show (SemLoc.dma cc2_scratch16.sem : SemLoc sig) ≠ SemLoc.dma cc2_scratch15.sem by decide), Finset.mem_erase.mpr ⟨cell_ne1 (show (SemLoc.dma cc2_scratch16.sem : SemLoc sig) ≠ SemLoc.dma cc2_scratch14.sem by decide), Finset.mem_erase.mpr ⟨cell_ne1 (show (SemLoc.dma cc2_scratch16.sem : SemLoc sig) ≠ SemLoc.dma cc2_scratch13.sem by decide), Finset.mem_erase.mpr ⟨cell_ne1 (show (SemLoc.dma cc2_scratch16.sem : SemLoc sig) ≠ SemLoc.dma cc2_scratch12.sem by decide), Finset.mem_erase.mpr ⟨cell_ne1 (show (SemLoc.dma cc2_scratch16.sem : SemLoc sig) ≠ SemLoc.dma cc2_scratch11.sem by decide), Finset.mem_erase.mpr ⟨cell_ne1 (show (SemLoc.dma cc2_scratch16.sem : SemLoc sig) ≠ SemLoc.dma cc2_scratch10.sem by decide), (mem_ownCells (g := (cell1 d L cc2_scratch16))).mpr ⟨rfl, by show (SemLoc.dma cc2_scratch16.sem : SemLoc sig).isScoped .scVector = true; decide⟩⟩⟩⟩⟩⟩⟩),
    SparseCore.bigSep_erase' (Finset.mem_erase.mpr ⟨cell_ne1 (show (SemLoc.dma cc2_scratch17.sem : SemLoc sig) ≠ SemLoc.dma cc2_scratch16.sem by decide), Finset.mem_erase.mpr ⟨cell_ne1 (show (SemLoc.dma cc2_scratch17.sem : SemLoc sig) ≠ SemLoc.dma cc2_scratch15.sem by decide), Finset.mem_erase.mpr ⟨cell_ne1 (show (SemLoc.dma cc2_scratch17.sem : SemLoc sig) ≠ SemLoc.dma cc2_scratch14.sem by decide), Finset.mem_erase.mpr ⟨cell_ne1 (show (SemLoc.dma cc2_scratch17.sem : SemLoc sig) ≠ SemLoc.dma cc2_scratch13.sem by decide), Finset.mem_erase.mpr ⟨cell_ne1 (show (SemLoc.dma cc2_scratch17.sem : SemLoc sig) ≠ SemLoc.dma cc2_scratch12.sem by decide), Finset.mem_erase.mpr ⟨cell_ne1 (show (SemLoc.dma cc2_scratch17.sem : SemLoc sig) ≠ SemLoc.dma cc2_scratch11.sem by decide), Finset.mem_erase.mpr ⟨cell_ne1 (show (SemLoc.dma cc2_scratch17.sem : SemLoc sig) ≠ SemLoc.dma cc2_scratch10.sem by decide), (mem_ownCells (g := (cell1 d L cc2_scratch17))).mpr ⟨rfl, by show (SemLoc.dma cc2_scratch17.sem : SemLoc sig).isScoped .scVector = true; decide⟩⟩⟩⟩⟩⟩⟩⟩),
    SparseCore.bigSep_erase' (Finset.mem_erase.mpr ⟨cell_ne1 (show (SemLoc.dma cc2_scoped0.sem : SemLoc sig) ≠ SemLoc.dma cc2_scratch17.sem by decide), Finset.mem_erase.mpr ⟨cell_ne1 (show (SemLoc.dma cc2_scoped0.sem : SemLoc sig) ≠ SemLoc.dma cc2_scratch16.sem by decide), Finset.mem_erase.mpr ⟨cell_ne1 (show (SemLoc.dma cc2_scoped0.sem : SemLoc sig) ≠ SemLoc.dma cc2_scratch15.sem by decide), Finset.mem_erase.mpr ⟨cell_ne1 (show (SemLoc.dma cc2_scoped0.sem : SemLoc sig) ≠ SemLoc.dma cc2_scratch14.sem by decide), Finset.mem_erase.mpr ⟨cell_ne1 (show (SemLoc.dma cc2_scoped0.sem : SemLoc sig) ≠ SemLoc.dma cc2_scratch13.sem by decide), Finset.mem_erase.mpr ⟨cell_ne1 (show (SemLoc.dma cc2_scoped0.sem : SemLoc sig) ≠ SemLoc.dma cc2_scratch12.sem by decide), Finset.mem_erase.mpr ⟨cell_ne1 (show (SemLoc.dma cc2_scoped0.sem : SemLoc sig) ≠ SemLoc.dma cc2_scratch11.sem by decide), Finset.mem_erase.mpr ⟨cell_ne1 (show (SemLoc.dma cc2_scoped0.sem : SemLoc sig) ≠ SemLoc.dma cc2_scratch10.sem by decide), (mem_ownCells (g := (cell1 d L cc2_scoped0))).mpr ⟨rfl, by show (SemLoc.dma cc2_scoped0.sem : SemLoc sig).isScoped .scVector = true; decide⟩⟩⟩⟩⟩⟩⟩⟩⟩),
    SparseCore.bigSep_erase' (Finset.mem_erase.mpr ⟨cell_ne1 (show (SemLoc.dma cc2_scoped1.sem : SemLoc sig) ≠ SemLoc.dma cc2_scoped0.sem by decide), Finset.mem_erase.mpr ⟨cell_ne1 (show (SemLoc.dma cc2_scoped1.sem : SemLoc sig) ≠ SemLoc.dma cc2_scratch17.sem by decide), Finset.mem_erase.mpr ⟨cell_ne1 (show (SemLoc.dma cc2_scoped1.sem : SemLoc sig) ≠ SemLoc.dma cc2_scratch16.sem by decide), Finset.mem_erase.mpr ⟨cell_ne1 (show (SemLoc.dma cc2_scoped1.sem : SemLoc sig) ≠ SemLoc.dma cc2_scratch15.sem by decide), Finset.mem_erase.mpr ⟨cell_ne1 (show (SemLoc.dma cc2_scoped1.sem : SemLoc sig) ≠ SemLoc.dma cc2_scratch14.sem by decide), Finset.mem_erase.mpr ⟨cell_ne1 (show (SemLoc.dma cc2_scoped1.sem : SemLoc sig) ≠ SemLoc.dma cc2_scratch13.sem by decide), Finset.mem_erase.mpr ⟨cell_ne1 (show (SemLoc.dma cc2_scoped1.sem : SemLoc sig) ≠ SemLoc.dma cc2_scratch12.sem by decide), Finset.mem_erase.mpr ⟨cell_ne1 (show (SemLoc.dma cc2_scoped1.sem : SemLoc sig) ≠ SemLoc.dma cc2_scratch11.sem by decide), Finset.mem_erase.mpr ⟨cell_ne1 (show (SemLoc.dma cc2_scoped1.sem : SemLoc sig) ≠ SemLoc.dma cc2_scratch10.sem by decide), (mem_ownCells (g := (cell1 d L cc2_scoped1))).mpr ⟨rfl, by show (SemLoc.dma cc2_scoped1.sem : SemLoc sig).isScoped .scVector = true; decide⟩⟩⟩⟩⟩⟩⟩⟩⟩⟩)]

omit [FloatOps F] in
theorem ownBufs_T1 (d : Dev nD) (L : grid2.Coords) :
    (ownBufs (thr1 d L) : sProp 𝕄)
      = iprop((∃ f, (thr1 d L).loc cc2_scratch0 ↦{fullShare} f) ∗ (∃ f, (thr1 d L).loc cc2_scratch1 ↦{fullShare} f) ∗ (∃ f, (thr1 d L).loc cc2_scratch2 ↦{fullShare} f) ∗ (∃ f, (thr1 d L).loc cc2_scratch3 ↦{fullShare} f) ∗ (∃ f, (thr1 d L).loc cc2_scratch4 ↦{fullShare} f) ∗ (∃ f, (thr1 d L).loc cc2_scratch5 ↦{fullShare} f) ∗ (∃ f, (thr1 d L).loc cc2_scratch6 ↦{fullShare} f) ∗ (∃ f, (thr1 d L).loc cc2_scratch7 ↦{fullShare} f) ∗ (∃ f, (thr1 d L).loc cc2_scratch8 ↦{fullShare} f) ∗ (∃ f, (thr1 d L).loc cc2_scratch9 ↦{fullShare} f) ∗ bufsRest1 d L) := by
  unfold SparseCore.Cfg.ownBufs bufsRest1
  refine (SparseCore.bigSep_erase' (SparseCore.Cfg.mem_ownRefs_of_owner (p := Proc.scVector (cV1 L) (jV1 L)) (b := ((Proc.scVector (cV1 L) (jV1 L)).devRef cc2_scratch0)) rfl)).trans ?_
  rw [SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV1 L) (jV1 L)) (b := ((Proc.scVector (cV1 L) (jV1 L)).devRef cc2_scratch1)) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV1 L) (jV1 L)) (b := ((Proc.scVector (cV1 L) (jV1 L)).devRef cc2_scratch2)) rfl⟩⟩),
    SparseCore.bigSep_erase' (Finset.mem_erase.mpr ⟨fun e => absurd (Proc.devRef_injective _ e) (show (cc2_scratch3 : Ref sig .scVector) ≠ cc2_scratch2 by decide), Finset.mem_erase.mpr ⟨fun e => absurd (Proc.devRef_injective _ e) (show (cc2_scratch3 : Ref sig .scVector) ≠ cc2_scratch1 by decide), Finset.mem_erase.mpr ⟨fun e => absurd (Proc.devRef_injective _ e) (show (cc2_scratch3 : Ref sig .scVector) ≠ cc2_scratch0 by decide), SparseCore.Cfg.mem_ownRefs_of_owner (p := Proc.scVector (cV1 L) (jV1 L)) (b := ((Proc.scVector (cV1 L) (jV1 L)).devRef cc2_scratch3)) rfl⟩⟩⟩),
    SparseCore.bigSep_erase' (Finset.mem_erase.mpr ⟨fun e => absurd (Proc.devRef_injective _ e) (show (cc2_scratch4 : Ref sig .scVector) ≠ cc2_scratch3 by decide), Finset.mem_erase.mpr ⟨fun e => absurd (Proc.devRef_injective _ e) (show (cc2_scratch4 : Ref sig .scVector) ≠ cc2_scratch2 by decide), Finset.mem_erase.mpr ⟨fun e => absurd (Proc.devRef_injective _ e) (show (cc2_scratch4 : Ref sig .scVector) ≠ cc2_scratch1 by decide), Finset.mem_erase.mpr ⟨fun e => absurd (Proc.devRef_injective _ e) (show (cc2_scratch4 : Ref sig .scVector) ≠ cc2_scratch0 by decide), SparseCore.Cfg.mem_ownRefs_of_owner (p := Proc.scVector (cV1 L) (jV1 L)) (b := ((Proc.scVector (cV1 L) (jV1 L)).devRef cc2_scratch4)) rfl⟩⟩⟩⟩),
    SparseCore.bigSep_erase' (Finset.mem_erase.mpr ⟨fun e => absurd (Proc.devRef_injective _ e) (show (cc2_scratch5 : Ref sig .scVector) ≠ cc2_scratch4 by decide), Finset.mem_erase.mpr ⟨fun e => absurd (Proc.devRef_injective _ e) (show (cc2_scratch5 : Ref sig .scVector) ≠ cc2_scratch3 by decide), Finset.mem_erase.mpr ⟨fun e => absurd (Proc.devRef_injective _ e) (show (cc2_scratch5 : Ref sig .scVector) ≠ cc2_scratch2 by decide), Finset.mem_erase.mpr ⟨fun e => absurd (Proc.devRef_injective _ e) (show (cc2_scratch5 : Ref sig .scVector) ≠ cc2_scratch1 by decide), Finset.mem_erase.mpr ⟨fun e => absurd (Proc.devRef_injective _ e) (show (cc2_scratch5 : Ref sig .scVector) ≠ cc2_scratch0 by decide), SparseCore.Cfg.mem_ownRefs_of_owner (p := Proc.scVector (cV1 L) (jV1 L)) (b := ((Proc.scVector (cV1 L) (jV1 L)).devRef cc2_scratch5)) rfl⟩⟩⟩⟩⟩),
    SparseCore.bigSep_erase' (Finset.mem_erase.mpr ⟨fun e => absurd (Proc.devRef_injective _ e) (show (cc2_scratch6 : Ref sig .scVector) ≠ cc2_scratch5 by decide), Finset.mem_erase.mpr ⟨fun e => absurd (Proc.devRef_injective _ e) (show (cc2_scratch6 : Ref sig .scVector) ≠ cc2_scratch4 by decide), Finset.mem_erase.mpr ⟨fun e => absurd (Proc.devRef_injective _ e) (show (cc2_scratch6 : Ref sig .scVector) ≠ cc2_scratch3 by decide), Finset.mem_erase.mpr ⟨fun e => absurd (Proc.devRef_injective _ e) (show (cc2_scratch6 : Ref sig .scVector) ≠ cc2_scratch2 by decide), Finset.mem_erase.mpr ⟨fun e => absurd (Proc.devRef_injective _ e) (show (cc2_scratch6 : Ref sig .scVector) ≠ cc2_scratch1 by decide), Finset.mem_erase.mpr ⟨fun e => absurd (Proc.devRef_injective _ e) (show (cc2_scratch6 : Ref sig .scVector) ≠ cc2_scratch0 by decide), SparseCore.Cfg.mem_ownRefs_of_owner (p := Proc.scVector (cV1 L) (jV1 L)) (b := ((Proc.scVector (cV1 L) (jV1 L)).devRef cc2_scratch6)) rfl⟩⟩⟩⟩⟩⟩),
    SparseCore.bigSep_erase' (Finset.mem_erase.mpr ⟨fun e => absurd (Proc.devRef_injective _ e) (show (cc2_scratch7 : Ref sig .scVector) ≠ cc2_scratch6 by decide), Finset.mem_erase.mpr ⟨fun e => absurd (Proc.devRef_injective _ e) (show (cc2_scratch7 : Ref sig .scVector) ≠ cc2_scratch5 by decide), Finset.mem_erase.mpr ⟨fun e => absurd (Proc.devRef_injective _ e) (show (cc2_scratch7 : Ref sig .scVector) ≠ cc2_scratch4 by decide), Finset.mem_erase.mpr ⟨fun e => absurd (Proc.devRef_injective _ e) (show (cc2_scratch7 : Ref sig .scVector) ≠ cc2_scratch3 by decide), Finset.mem_erase.mpr ⟨fun e => absurd (Proc.devRef_injective _ e) (show (cc2_scratch7 : Ref sig .scVector) ≠ cc2_scratch2 by decide), Finset.mem_erase.mpr ⟨fun e => absurd (Proc.devRef_injective _ e) (show (cc2_scratch7 : Ref sig .scVector) ≠ cc2_scratch1 by decide), Finset.mem_erase.mpr ⟨fun e => absurd (Proc.devRef_injective _ e) (show (cc2_scratch7 : Ref sig .scVector) ≠ cc2_scratch0 by decide), SparseCore.Cfg.mem_ownRefs_of_owner (p := Proc.scVector (cV1 L) (jV1 L)) (b := ((Proc.scVector (cV1 L) (jV1 L)).devRef cc2_scratch7)) rfl⟩⟩⟩⟩⟩⟩⟩),
    SparseCore.bigSep_erase' (Finset.mem_erase.mpr ⟨fun e => absurd (Proc.devRef_injective _ e) (show (cc2_scratch8 : Ref sig .scVector) ≠ cc2_scratch7 by decide), Finset.mem_erase.mpr ⟨fun e => absurd (Proc.devRef_injective _ e) (show (cc2_scratch8 : Ref sig .scVector) ≠ cc2_scratch6 by decide), Finset.mem_erase.mpr ⟨fun e => absurd (Proc.devRef_injective _ e) (show (cc2_scratch8 : Ref sig .scVector) ≠ cc2_scratch5 by decide), Finset.mem_erase.mpr ⟨fun e => absurd (Proc.devRef_injective _ e) (show (cc2_scratch8 : Ref sig .scVector) ≠ cc2_scratch4 by decide), Finset.mem_erase.mpr ⟨fun e => absurd (Proc.devRef_injective _ e) (show (cc2_scratch8 : Ref sig .scVector) ≠ cc2_scratch3 by decide), Finset.mem_erase.mpr ⟨fun e => absurd (Proc.devRef_injective _ e) (show (cc2_scratch8 : Ref sig .scVector) ≠ cc2_scratch2 by decide), Finset.mem_erase.mpr ⟨fun e => absurd (Proc.devRef_injective _ e) (show (cc2_scratch8 : Ref sig .scVector) ≠ cc2_scratch1 by decide), Finset.mem_erase.mpr ⟨fun e => absurd (Proc.devRef_injective _ e) (show (cc2_scratch8 : Ref sig .scVector) ≠ cc2_scratch0 by decide), SparseCore.Cfg.mem_ownRefs_of_owner (p := Proc.scVector (cV1 L) (jV1 L)) (b := ((Proc.scVector (cV1 L) (jV1 L)).devRef cc2_scratch8)) rfl⟩⟩⟩⟩⟩⟩⟩⟩),
    SparseCore.bigSep_erase' (Finset.mem_erase.mpr ⟨fun e => absurd (Proc.devRef_injective _ e) (show (cc2_scratch9 : Ref sig .scVector) ≠ cc2_scratch8 by decide), Finset.mem_erase.mpr ⟨fun e => absurd (Proc.devRef_injective _ e) (show (cc2_scratch9 : Ref sig .scVector) ≠ cc2_scratch7 by decide), Finset.mem_erase.mpr ⟨fun e => absurd (Proc.devRef_injective _ e) (show (cc2_scratch9 : Ref sig .scVector) ≠ cc2_scratch6 by decide), Finset.mem_erase.mpr ⟨fun e => absurd (Proc.devRef_injective _ e) (show (cc2_scratch9 : Ref sig .scVector) ≠ cc2_scratch5 by decide), Finset.mem_erase.mpr ⟨fun e => absurd (Proc.devRef_injective _ e) (show (cc2_scratch9 : Ref sig .scVector) ≠ cc2_scratch4 by decide), Finset.mem_erase.mpr ⟨fun e => absurd (Proc.devRef_injective _ e) (show (cc2_scratch9 : Ref sig .scVector) ≠ cc2_scratch3 by decide), Finset.mem_erase.mpr ⟨fun e => absurd (Proc.devRef_injective _ e) (show (cc2_scratch9 : Ref sig .scVector) ≠ cc2_scratch2 by decide), Finset.mem_erase.mpr ⟨fun e => absurd (Proc.devRef_injective _ e) (show (cc2_scratch9 : Ref sig .scVector) ≠ cc2_scratch1 by decide), Finset.mem_erase.mpr ⟨fun e => absurd (Proc.devRef_injective _ e) (show (cc2_scratch9 : Ref sig .scVector) ≠ cc2_scratch0 by decide), SparseCore.Cfg.mem_ownRefs_of_owner (p := Proc.scVector (cV1 L) (jV1 L)) (b := ((Proc.scVector (cV1 L) (jV1 L)).devRef cc2_scratch9)) rfl⟩⟩⟩⟩⟩⟩⟩⟩⟩)]

omit [FloatOps F] in
/-- The same, each scratch spelt through its whole memref's view. -/
theorem ownBufs_T1' (d : Dev nD) (L : grid2.Coords) :
    (ownBufs (thr1 d L) : sProp 𝕄)
      = iprop((∃ f, (Memref.whole cc2_scratch0 : Memref sig .scVector .vmem S26x512 .i32).view.loc (thr1 d L) ↦{fullShare} f) ∗ (∃ f, (Memref.whole cc2_scratch1 : Memref sig .scVector .vmem S128 .f32).view.loc (thr1 d L) ↦{fullShare} f) ∗ (∃ f, (Memref.whole cc2_scratch2 : Memref sig .scVector .vmem S128 .f32).view.loc (thr1 d L) ↦{fullShare} f) ∗ (∃ f, (Memref.whole cc2_scratch3 : Memref sig .scVector .vmem S128 .f32).view.loc (thr1 d L) ↦{fullShare} f) ∗ (∃ f, (Memref.whole cc2_scratch4 : Memref sig .scVector .vmem S128 .f32).view.loc (thr1 d L) ↦{fullShare} f) ∗ (∃ f, (Memref.whole cc2_scratch5 : Memref sig .scVector .vmem S128 .f32).view.loc (thr1 d L) ↦{fullShare} f) ∗ (∃ f, (Memref.whole cc2_scratch6 : Memref sig .scVector .vmem S128 .f32).view.loc (thr1 d L) ↦{fullShare} f) ∗ (∃ f, (Memref.whole cc2_scratch7 : Memref sig .scVector .vmem S128 .f32).view.loc (thr1 d L) ↦{fullShare} f) ∗ (∃ f, (Memref.whole cc2_scratch8 : Memref sig .scVector .vmem S128 .f32).view.loc (thr1 d L) ↦{fullShare} f) ∗ (∃ f, (Memref.whole cc2_scratch9 : Memref sig .scVector .vmem S16 .f32).view.loc (thr1 d L) ↦{fullShare} f) ∗ bufsRest1 d L) :=
  ownBufs_T1 d L

/-! ## The arrays and the scratches as the tile's memrefs address them -/

omit [FloatOps F] in
theorem pts_it1 (d : Dev nD) (L : grid2.Coords) (q : PosShare TreeShare) (f : Buf (Elt F) (itLoc d)) :
    ((Memref.whole main_v4_scv : Memref sig .scVector .hbm S26x16384 .i32).view.loc (thr1 d L) ↦{q} f : sProp 𝕄) = itLoc d ↦{q} f := by
  simp only [Memref.view_whole, View.set_whole]
omit [FloatOps F] in
theorem pts_ra1 (d : Dev nD) (L : grid2.Coords) (q : PosShare TreeShare) (f : Buf (Elt F) (raLoc d)) :
    ((Memref.whole main_v3_scv : Memref sig .scVector .hbm S1000000 .f32).view.loc (thr1 d L) ↦{q} f : sProp 𝕄) = raLoc d ↦{q} f := by
  simp only [Memref.view_whole, View.set_whole]
omit [FloatOps F] in
theorem pts_row1 (d : Dev nD) (L : grid2.Coords) (f : Buf (Elt F) (ptLoc d)) :
    ((row1M L).view.loc (thr1 d L) ↦[(row1M L).view.set]{fullShare} f : sProp 𝕄) = ptLoc d ↦[outRow1 L]{fullShare} f := rfl

/-! ## Read shares for eight gathers in flight -/

omit [FloatOps F] in
/-- A points-to splits into eight read shares: seven halves and what is left. -/
theorem pts_split8 {ℓ : Loc nD τ sig} {S : Finset (Idx ℓ)} {f : Buf (Elt F) ℓ} (q : PosShare TreeShare) :
    (ℓ ↦[S]{q} f : sProp 𝕄)
      = iprop((ℓ ↦[S]{Transfers.shareTokN q 0} f) ∗ (ℓ ↦[S]{Transfers.shareTokN q 1} f) ∗ (ℓ ↦[S]{Transfers.shareTokN q 2} f) ∗ (ℓ ↦[S]{Transfers.shareTokN q 3} f)
          ∗ (ℓ ↦[S]{Transfers.shareTokN q 4} f) ∗ (ℓ ↦[S]{Transfers.shareTokN q 5} f) ∗ (ℓ ↦[S]{Transfers.shareTokN q 6} f) ∗ (ℓ ↦[S]{Transfers.shareDrop q 7} f)) := by
  have e1 : ∀ p : PosShare TreeShare, (ℓ ↦[S]{p} f : sProp 𝕄) ⊢ iprop((ℓ ↦[S]{p.right} f) ∗ ℓ ↦[S]{p.left} f) := fun p =>
    (pointsTo_share (PosShare.mem_left_op_right p)).1.trans sep_comm.1
  have e2 : ∀ p : PosShare TreeShare, iprop((ℓ ↦[S]{p.right} f) ∗ ℓ ↦[S]{p.left} f) ⊢ (ℓ ↦[S]{p} f : sProp 𝕄) := fun p =>
    sep_comm.1.trans (pointsTo_share (PosShare.mem_left_op_right p)).2
  have e : ∀ p : PosShare TreeShare, (ℓ ↦[S]{p} f : sProp 𝕄) = iprop((ℓ ↦[S]{p.right} f) ∗ ℓ ↦[S]{p.left} f) := fun p => BI.equiv_iff.mp ⟨e1 p, e2 p⟩
  simp only [Transfers.shareTokN, Transfers.shareDrop]
  rw [e q, e q.left, e q.left.left, e q.left.left.left, e q.left.left.left.left, e q.left.left.left.left.left, e q.left.left.left.left.left.left]

/-! ## The index window and the offsets' range -/

omit [FloatOps F] in
/-- Every word of the window is a row number of the table of row sums. -/
theorem idxWin_lt {d : Dev nD} (L : grid2.Coords) (I : Buf (Elt F) (itLoc d)) (hI : ∀ i, (I i).toNat < 1000000) (y : S26x512.Idx) :
    (idxWin L I y).toNat < 1000000 := by
  unfold idxWin
  rw [ReadAs.apply_same, View.read_apply]
  exact hI _

omit [FloatOps F] in
/-- So is every word any gather reads off the index scratch. -/
theorem hin1 {d : Dev nD} (L : grid2.Coords) (I : Buf (Elt F) (itLoc d)) (hI : ∀ i, (I i).toNat < 1000000)
    (off : Fin 2 → ℕ) (hb : ∀ a, off a + S1x128.size a ≤ S26x512.size a) (fb : Buf (Elt F) ((thr1 d L).loc cc2_scratch0)) (x : S128.Idx) :
    (View.read (Elt F) (offM off hb).view (scr0 L I fb) x).toNat < 1000000 := by
  have h1 : scr0 L I fb = idxWin L I := View.write_whole_univ _ _ _
  rw [h1, View.read_apply]
  exact idxWin_lt L I hI _

omit [FloatOps F] in
/-- A buffer's contents, named. -/
theorem pts_name {ℓ : Loc nD τ sig} {S : Finset (Idx ℓ)} {q : PosShare TreeShare} (c : Buf (Elt F) ℓ) :
    (ℓ ↦[S]{q} c : sProp 𝕄) ⊢ iprop(∃ fo, ⌜fo = c⌝ ∗ ℓ ↦[S]{q} fo) := by
  iintro H
  iexists c
  isplitr
  · ipureintro; rfl
  · iexact H

/-! ## The loop: eight gathers in flight -/

theorem k2_off3_eq' : ∀ k : Fin k2_t1_loop.trips, k2_cond1 k = 1#1 → k2_off3 k = offJ 0 (k.val + 1) := by decide +kernel
theorem k2_off4_eq' : ∀ k : Fin k2_t1_loop.trips, k2_cond2 k = 1#1 → k2_off4 k = offJ 1 (k.val + 1) := by decide +kernel
theorem k2_off5_eq' : ∀ k : Fin k2_t1_loop.trips, k2_cond3 k = 1#1 → k2_off5 k = offJ 2 (k.val + 1) := by decide +kernel
theorem k2_off6_eq' : ∀ k : Fin k2_t1_loop.trips, k2_cond4 k = 1#1 → k2_off6 k = offJ 3 (k.val + 1) := by decide +kernel
theorem k2_off7_eq' : ∀ k : Fin k2_t1_loop.trips, k2_cond5 k = 1#1 → k2_off7 k = offJ 4 (k.val + 1) := by decide +kernel
theorem k2_off8_eq' : ∀ k : Fin k2_t1_loop.trips, k2_cond6 k = 1#1 → k2_off8 k = offJ 5 (k.val + 1) := by decide +kernel
theorem k2_off9_eq' : ∀ k : Fin k2_t1_loop.trips, k2_cond7 k = 1#1 → k2_off9 k = offJ 6 (k.val + 1) := by decide +kernel
theorem k2_off10_eq' : ∀ k : Fin k2_t1_loop.trips, k2_cond8 k = 1#1 → k2_off10 k = offJ 7 (k.val + 1) := by decide +kernel

theorem k2_cond_pos : ∀ k : Fin k2_t1_loop.trips, k.val < 12 → (k2_cond1 k = 1#1 ∧ k2_cond2 k = 1#1 ∧ k2_cond3 k = 1#1 ∧ k2_cond4 k = 1#1 ∧ k2_cond5 k = 1#1 ∧ k2_cond6 k = 1#1 ∧ k2_cond7 k = 1#1 ∧ k2_cond8 k = 1#1) := by decide +kernel
theorem k2_cond_neg : ∀ k : Fin k2_t1_loop.trips, ¬ k.val < 12 → (¬ k2_cond1 k = 1#1 ∧ ¬ k2_cond2 k = 1#1 ∧ ¬ k2_cond3 k = 1#1 ∧ ¬ k2_cond4 k = 1#1 ∧ ¬ k2_cond5 k = 1#1 ∧ ¬ k2_cond6 k = 1#1 ∧ ¬ k2_cond7 k = 1#1 ∧ ¬ k2_cond8 k = 1#1) := by decide +kernel

/-- One buffer with its gather in flight: the flight delivers the buffer at `C`, the offsets' piece of the index scratch and a read share of the table;
    beside it, what the three arrays hold outside the pieces lent. -/
def slotF (d : Dev nD) (L : grid2.Coords) (I : Buf (Elt F) (itLoc d)) (R : Buf (Elt F) (raLoc d)) (fb0 : Buf (Elt F) ((thr1 d L).loc cc2_scratch0))
    (m : Memref sig .scVector .vmem S128 .f32) (sem : DmaSem sig) (qs qo : PosShare TreeShare)
    (off : Fin 2 → ℕ) (hb : ∀ a, off a + S1x128.size a ≤ S26x512.size a) (C : Buf (Elt F) (m.view.loc (thr1 d L))) : sProp 𝕄 :=
  iprop((Transfers.Flight countersEmb (thr1 d L) (SemLoc.dma sem) default 4096
        iprop(((m.view.loc (thr1 d L) ↦[m.view.set]{fullShare} C)
            ∗ ((Memref.whole cc2_scratch0 : Memref sig .scVector .vmem S26x512 .i32).view.loc (thr1 d L) ↦[(offM off hb).view.set]{qo} fb0))
          ∗ ((Memref.whole main_v3_scv : Memref sig .scVector .hbm S1000000 .f32).view.loc (thr1 d L) ↦[srcM.view.set]{qs} R)))
    ∗ ((Memref.whole main_v3_scv : Memref sig .scVector .hbm S1000000 .f32).view.loc (thr1 d L) ↦[Finset.univ \ srcM.view.set]{qs} R)
    ∗ (m.view.loc (thr1 d L) ↦[Finset.univ \ m.view.set]{fullShare} C)
    ∗ ((Memref.whole cc2_scratch0 : Memref sig .scVector .vmem S26x512 .i32).view.loc (thr1 d L) ↦[Finset.univ \ (offM off hb).view.set]{qo} fb0))

omit [FloatOps F] in
theorem slotF_congr (d : Dev nD) (L : grid2.Coords) (I : Buf (Elt F) (itLoc d)) (R : Buf (Elt F) (raLoc d)) (fb0 : Buf (Elt F) ((thr1 d L).loc cc2_scratch0))
    (m : Memref sig .scVector .vmem S128 .f32) (sem : DmaSem sig) (qs qo : PosShare TreeShare)
    {off off' : Fin 2 → ℕ} (h : off = off') (hb : ∀ a, off a + S1x128.size a ≤ S26x512.size a) (hb' : ∀ a, off' a + S1x128.size a ≤ S26x512.size a)
    (C : Buf (Elt F) (m.view.loc (thr1 d L))) :
    slotF d L I R fb0 m sem qs qo off hb C = slotF d L I R fb0 m sem qs qo off' hb' C := by subst h; rfl

/-- One buffer at rest: the buffer at some contents, its read shares of the table and of the index scratch back whole, its semaphore at zero. -/
def doneF (d : Dev nD) (L : grid2.Coords) (I : Buf (Elt F) (itLoc d)) (R : Buf (Elt F) (raLoc d)) (fb0 : Buf (Elt F) ((thr1 d L).loc cc2_scratch0))
    (m : Memref sig .scVector .vmem S128 .f32) (sem : DmaSem sig) (qs qo : PosShare TreeShare) : sProp 𝕄 :=
  iprop((∃ C, m.view.loc (thr1 d L) ↦{fullShare} C)
    ∗ ((Memref.whole main_v3_scv : Memref sig .scVector .hbm S1000000 .f32).view.loc (thr1 d L) ↦{qs} R)
    ∗ ((Memref.whole cc2_scratch0 : Memref sig .scVector .vmem S26x512 .i32).view.loc (thr1 d L) ↦{qo} fb0)
    ∗ semVal (thr1 d L, SemLoc.dma sem) 0)

/-- Before trip `k`: the eight gathers of chunks `8 k .. 8 k + 7` in flight (all at rest once the thirteen trips are over), and what the tile owes. -/
def inv1 (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (k : ℕ) (_acc : FVec F S16 .f32) : sProp 𝕄 :=
  iprop(Transfers.MayWaits (thr1 d L) (none : HIx 2) O
    ∗ (if h : k < 13 then
        iprop((∃ C, slotF d L I R fb0 (Memref.whole cc2_scratch1 : Memref sig .scVector .vmem S128 .f32) cc2_scratch10.sem (Transfers.shareTokN q 0) (Transfers.shareTokN fullShare 0) (offJ 0 k) (offJ_inb ⟨0, by decide⟩ ⟨k, h⟩) C)
          ∗ (∃ C, slotF d L I R fb0 (Memref.whole cc2_scratch2 : Memref sig .scVector .vmem S128 .f32) cc2_scratch11.sem (Transfers.shareTokN q 1) (Transfers.shareTokN fullShare 1) (offJ 1 k) (offJ_inb ⟨1, by decide⟩ ⟨k, h⟩) C)
          ∗ (∃ C, slotF d L I R fb0 (Memref.whole cc2_scratch3 : Memref sig .scVector .vmem S128 .f32) cc2_scratch12.sem (Transfers.shareTokN q 2) (Transfers.shareTokN fullShare 2) (offJ 2 k) (offJ_inb ⟨2, by decide⟩ ⟨k, h⟩) C)
          ∗ (∃ C, slotF d L I R fb0 (Memref.whole cc2_scratch4 : Memref sig .scVector .vmem S128 .f32) cc2_scratch13.sem (Transfers.shareTokN q 3) (Transfers.shareTokN fullShare 3) (offJ 3 k) (offJ_inb ⟨3, by decide⟩ ⟨k, h⟩) C)
          ∗ (∃ C, slotF d L I R fb0 (Memref.whole cc2_scratch5 : Memref sig .scVector .vmem S128 .f32) cc2_scratch14.sem (Transfers.shareTokN q 4) (Transfers.shareTokN fullShare 4) (offJ 4 k) (offJ_inb ⟨4, by decide⟩ ⟨k, h⟩) C)
          ∗ (∃ C, slotF d L I R fb0 (Memref.whole cc2_scratch6 : Memref sig .scVector .vmem S128 .f32) cc2_scratch15.sem (Transfers.shareTokN q 5) (Transfers.shareTokN fullShare 5) (offJ 5 k) (offJ_inb ⟨5, by decide⟩ ⟨k, h⟩) C)
          ∗ (∃ C, slotF d L I R fb0 (Memref.whole cc2_scratch7 : Memref sig .scVector .vmem S128 .f32) cc2_scratch16.sem (Transfers.shareTokN q 6) (Transfers.shareTokN fullShare 6) (offJ 6 k) (offJ_inb ⟨6, by decide⟩ ⟨k, h⟩) C)
          ∗ (∃ C, slotF d L I R fb0 (Memref.whole cc2_scratch8 : Memref sig .scVector .vmem S128 .f32) cc2_scratch17.sem (Transfers.shareDrop q 7) (Transfers.shareDrop fullShare 7) (offJ 7 k) (offJ_inb ⟨7, by decide⟩ ⟨k, h⟩) C))
      else
        iprop(doneF d L I R fb0 (Memref.whole cc2_scratch1 : Memref sig .scVector .vmem S128 .f32) cc2_scratch10.sem (Transfers.shareTokN q 0) (Transfers.shareTokN fullShare 0)
          ∗ doneF d L I R fb0 (Memref.whole cc2_scratch2 : Memref sig .scVector .vmem S128 .f32) cc2_scratch11.sem (Transfers.shareTokN q 1) (Transfers.shareTokN fullShare 1)
          ∗ doneF d L I R fb0 (Memref.whole cc2_scratch3 : Memref sig .scVector .vmem S128 .f32) cc2_scratch12.sem (Transfers.shareTokN q 2) (Transfers.shareTokN fullShare 2)
          ∗ doneF d L I R fb0 (Memref.whole cc2_scratch4 : Memref sig .scVector .vmem S128 .f32) cc2_scratch13.sem (Transfers.shareTokN q 3) (Transfers.shareTokN fullShare 3)
          ∗ doneF d L I R fb0 (Memref.whole cc2_scratch5 : Memref sig .scVector .vmem S128 .f32) cc2_scratch14.sem (Transfers.shareTokN q 4) (Transfers.shareTokN fullShare 4)
          ∗ doneF d L I R fb0 (Memref.whole cc2_scratch6 : Memref sig .scVector .vmem S128 .f32) cc2_scratch15.sem (Transfers.shareTokN q 5) (Transfers.shareTokN fullShare 5)
          ∗ doneF d L I R fb0 (Memref.whole cc2_scratch7 : Memref sig .scVector .vmem S128 .f32) cc2_scratch16.sem (Transfers.shareTokN q 6) (Transfers.shareTokN fullShare 6)
          ∗ doneF d L I R fb0 (Memref.whole cc2_scratch8 : Memref sig .scVector .vmem S128 .f32) cc2_scratch17.sem (Transfers.shareDrop q 7) (Transfers.shareDrop fullShare 7)))
    ∗ ∃ W', ⌜∀ p ∈ W', p ∈ W ∨ p.2 = none⌝ ∗ owes (thr1 d L) O W')

theorem inv1_pos (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (k : ℕ) (acc : FVec F S16 .f32) (h : k < 13) :
    inv1 d L O W q I R fb0 k acc
      = iprop(Transfers.MayWaits (thr1 d L) (none : HIx 2) O
        ∗ ((∃ C, slotF d L I R fb0 (Memref.whole cc2_scratch1 : Memref sig .scVector .vmem S128 .f32) cc2_scratch10.sem (Transfers.shareTokN q 0) (Transfers.shareTokN fullShare 0) (offJ 0 k) (offJ_inb ⟨0, by decide⟩ ⟨k, h⟩) C)
          ∗ (∃ C, slotF d L I R fb0 (Memref.whole cc2_scratch2 : Memref sig .scVector .vmem S128 .f32) cc2_scratch11.sem (Transfers.shareTokN q 1) (Transfers.shareTokN fullShare 1) (offJ 1 k) (offJ_inb ⟨1, by decide⟩ ⟨k, h⟩) C)
          ∗ (∃ C, slotF d L I R fb0 (Memref.whole cc2_scratch3 : Memref sig .scVector .vmem S128 .f32) cc2_scratch12.sem (Transfers.shareTokN q 2) (Transfers.shareTokN fullShare 2) (offJ 2 k) (offJ_inb ⟨2, by decide⟩ ⟨k, h⟩) C)
          ∗ (∃ C, slotF d L I R fb0 (Memref.whole cc2_scratch4 : Memref sig .scVector .vmem S128 .f32) cc2_scratch13.sem (Transfers.shareTokN q 3) (Transfers.shareTokN fullShare 3) (offJ 3 k) (offJ_inb ⟨3, by decide⟩ ⟨k, h⟩) C)
          ∗ (∃ C, slotF d L I R fb0 (Memref.whole cc2_scratch5 : Memref sig .scVector .vmem S128 .f32) cc2_scratch14.sem (Transfers.shareTokN q 4) (Transfers.shareTokN fullShare 4) (offJ 4 k) (offJ_inb ⟨4, by decide⟩ ⟨k, h⟩) C)
          ∗ (∃ C, slotF d L I R fb0 (Memref.whole cc2_scratch6 : Memref sig .scVector .vmem S128 .f32) cc2_scratch15.sem (Transfers.shareTokN q 5) (Transfers.shareTokN fullShare 5) (offJ 5 k) (offJ_inb ⟨5, by decide⟩ ⟨k, h⟩) C)
          ∗ (∃ C, slotF d L I R fb0 (Memref.whole cc2_scratch7 : Memref sig .scVector .vmem S128 .f32) cc2_scratch16.sem (Transfers.shareTokN q 6) (Transfers.shareTokN fullShare 6) (offJ 6 k) (offJ_inb ⟨6, by decide⟩ ⟨k, h⟩) C)
          ∗ (∃ C, slotF d L I R fb0 (Memref.whole cc2_scratch8 : Memref sig .scVector .vmem S128 .f32) cc2_scratch17.sem (Transfers.shareDrop q 7) (Transfers.shareDrop fullShare 7) (offJ 7 k) (offJ_inb ⟨7, by decide⟩ ⟨k, h⟩) C))
        ∗ ∃ W', ⌜∀ p ∈ W', p ∈ W ∨ p.2 = none⌝ ∗ owes (thr1 d L) O W') := by
  unfold inv1; rw [dif_pos h]

theorem inv1_neg (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (k : ℕ) (acc : FVec F S16 .f32) (h : ¬ k < 13) :
    inv1 d L O W q I R fb0 k acc
      = iprop(Transfers.MayWaits (thr1 d L) (none : HIx 2) O
        ∗ (doneF d L I R fb0 (Memref.whole cc2_scratch1 : Memref sig .scVector .vmem S128 .f32) cc2_scratch10.sem (Transfers.shareTokN q 0) (Transfers.shareTokN fullShare 0)
          ∗ doneF d L I R fb0 (Memref.whole cc2_scratch2 : Memref sig .scVector .vmem S128 .f32) cc2_scratch11.sem (Transfers.shareTokN q 1) (Transfers.shareTokN fullShare 1)
          ∗ doneF d L I R fb0 (Memref.whole cc2_scratch3 : Memref sig .scVector .vmem S128 .f32) cc2_scratch12.sem (Transfers.shareTokN q 2) (Transfers.shareTokN fullShare 2)
          ∗ doneF d L I R fb0 (Memref.whole cc2_scratch4 : Memref sig .scVector .vmem S128 .f32) cc2_scratch13.sem (Transfers.shareTokN q 3) (Transfers.shareTokN fullShare 3)
          ∗ doneF d L I R fb0 (Memref.whole cc2_scratch5 : Memref sig .scVector .vmem S128 .f32) cc2_scratch14.sem (Transfers.shareTokN q 4) (Transfers.shareTokN fullShare 4)
          ∗ doneF d L I R fb0 (Memref.whole cc2_scratch6 : Memref sig .scVector .vmem S128 .f32) cc2_scratch15.sem (Transfers.shareTokN q 5) (Transfers.shareTokN fullShare 5)
          ∗ doneF d L I R fb0 (Memref.whole cc2_scratch7 : Memref sig .scVector .vmem S128 .f32) cc2_scratch16.sem (Transfers.shareTokN q 6) (Transfers.shareTokN fullShare 6)
          ∗ doneF d L I R fb0 (Memref.whole cc2_scratch8 : Memref sig .scVector .vmem S128 .f32) cc2_scratch17.sem (Transfers.shareDrop q 7) (Transfers.shareDrop fullShare 7))
        ∗ ∃ W', ⌜∀ p ∈ W', p ∈ W ∨ p.2 = none⌝ ∗ owes (thr1 d L) O W') := by
  unfold inv1; rw [dif_neg h]

/-- After the last trip: every buffer at rest, spelt out. -/
theorem inv1_done (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (k : ℕ) (acc : FVec F S16 .f32) (h : ¬ k < 13) :
    inv1 d L O W q I R fb0 k acc
      = iprop(Transfers.MayWaits (thr1 d L) (none : HIx 2) O
        ∗ (((∃ C, (Memref.whole cc2_scratch1 : Memref sig .scVector .vmem S128 .f32).view.loc (thr1 d L) ↦{fullShare} C)
            ∗ ((Memref.whole main_v3_scv : Memref sig .scVector .hbm S1000000 .f32).view.loc (thr1 d L) ↦{Transfers.shareTokN q 0} R)
            ∗ ((Memref.whole cc2_scratch0 : Memref sig .scVector .vmem S26x512 .i32).view.loc (thr1 d L) ↦{Transfers.shareTokN fullShare 0} fb0)
            ∗ semVal (thr1 d L, SemLoc.dma cc2_scratch10.sem) 0)
          ∗ ((∃ C, (Memref.whole cc2_scratch2 : Memref sig .scVector .vmem S128 .f32).view.loc (thr1 d L) ↦{fullShare} C)
            ∗ ((Memref.whole main_v3_scv : Memref sig .scVector .hbm S1000000 .f32).view.loc (thr1 d L) ↦{Transfers.shareTokN q 1} R)
            ∗ ((Memref.whole cc2_scratch0 : Memref sig .scVector .vmem S26x512 .i32).view.loc (thr1 d L) ↦{Transfers.shareTokN fullShare 1} fb0)
            ∗ semVal (thr1 d L, SemLoc.dma cc2_scratch11.sem) 0)
          ∗ ((∃ C, (Memref.whole cc2_scratch3 : Memref sig .scVector .vmem S128 .f32).view.loc (thr1 d L) ↦{fullShare} C)
            ∗ ((Memref.whole main_v3_scv : Memref sig .scVector .hbm S1000000 .f32).view.loc (thr1 d L) ↦{Transfers.shareTokN q 2} R)
            ∗ ((Memref.whole cc2_scratch0 : Memref sig .scVector .vmem S26x512 .i32).view.loc (thr1 d L) ↦{Transfers.shareTokN fullShare 2} fb0)
            ∗ semVal (thr1 d L, SemLoc.dma cc2_scratch12.sem) 0)
          ∗ ((∃ C, (Memref.whole cc2_scratch4 : Memref sig .scVector .vmem S128 .f32).view.loc (thr1 d L) ↦{fullShare} C)
            ∗ ((Memref.whole main_v3_scv : Memref sig .scVector .hbm S1000000 .f32).view.loc (thr1 d L) ↦{Transfers.shareTokN q 3} R)
            ∗ ((Memref.whole cc2_scratch0 : Memref sig .scVector .vmem S26x512 .i32).view.loc (thr1 d L) ↦{Transfers.shareTokN fullShare 3} fb0)
            ∗ semVal (thr1 d L, SemLoc.dma cc2_scratch13.sem) 0)
          ∗ ((∃ C, (Memref.whole cc2_scratch5 : Memref sig .scVector .vmem S128 .f32).view.loc (thr1 d L) ↦{fullShare} C)
            ∗ ((Memref.whole main_v3_scv : Memref sig .scVector .hbm S1000000 .f32).view.loc (thr1 d L) ↦{Transfers.shareTokN q 4} R)
            ∗ ((Memref.whole cc2_scratch0 : Memref sig .scVector .vmem S26x512 .i32).view.loc (thr1 d L) ↦{Transfers.shareTokN fullShare 4} fb0)
            ∗ semVal (thr1 d L, SemLoc.dma cc2_scratch14.sem) 0)
          ∗ ((∃ C, (Memref.whole cc2_scratch6 : Memref sig .scVector .vmem S128 .f32).view.loc (thr1 d L) ↦{fullShare} C)
            ∗ ((Memref.whole main_v3_scv : Memref sig .scVector .hbm S1000000 .f32).view.loc (thr1 d L) ↦{Transfers.shareTokN q 5} R)
            ∗ ((Memref.whole cc2_scratch0 : Memref sig .scVector .vmem S26x512 .i32).view.loc (thr1 d L) ↦{Transfers.shareTokN fullShare 5} fb0)
            ∗ semVal (thr1 d L, SemLoc.dma cc2_scratch15.sem) 0)
          ∗ ((∃ C, (Memref.whole cc2_scratch7 : Memref sig .scVector .vmem S128 .f32).view.loc (thr1 d L) ↦{fullShare} C)
            ∗ ((Memref.whole main_v3_scv : Memref sig .scVector .hbm S1000000 .f32).view.loc (thr1 d L) ↦{Transfers.shareTokN q 6} R)
            ∗ ((Memref.whole cc2_scratch0 : Memref sig .scVector .vmem S26x512 .i32).view.loc (thr1 d L) ↦{Transfers.shareTokN fullShare 6} fb0)
            ∗ semVal (thr1 d L, SemLoc.dma cc2_scratch16.sem) 0)
          ∗ ((∃ C, (Memref.whole cc2_scratch8 : Memref sig .scVector .vmem S128 .f32).view.loc (thr1 d L) ↦{fullShare} C)
            ∗ ((Memref.whole main_v3_scv : Memref sig .scVector .hbm S1000000 .f32).view.loc (thr1 d L) ↦{Transfers.shareDrop q 7} R)
            ∗ ((Memref.whole cc2_scratch0 : Memref sig .scVector .vmem S26x512 .i32).view.loc (thr1 d L) ↦{Transfers.shareDrop fullShare 7} fb0)
            ∗ semVal (thr1 d L, SemLoc.dma cc2_scratch17.sem) 0))
        ∗ ∃ W', ⌜∀ p ∈ W', p ∈ W ∨ p.2 = none⌝ ∗ owes (thr1 d L) O W') := by
  unfold inv1 doneF; rw [dif_neg h]

omit [FloatOps F] in
/-- One more wait at index `none` keeps the record of waits admissible. -/
theorem waits_ok1 {W W' : Waits sig (HIx 2)} (hW' : ∀ p ∈ W', p ∈ W ∨ p.2 = none) (s : SemLoc sig) :
    ∀ p ∈ insert (s, (default : HIx 2)) W', p ∈ W ∨ p.2 = none := by
  intro p hp
  rcases Finset.mem_insert.mp hp with hp | hp
  · exact .inr (hp ▸ rfl)
  · exact hW' p hp

set_option maxHeartbeats 4000000 in
/-- One trip: each buffer's gather is waited for, its eight pieces added up, and the next chunk's gather issued into it (none after the last trip). -/
theorem trip1 (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (hin : ∀ (off : Fin 2 → ℕ) (hb : ∀ a, off a + S1x128.size a ≤ S26x512.size a) (x : S128.Idx), (View.read (Elt F) (offM off hb).view fb0 x).toNat < 1000000)
    (k : Fin k2_t1_loop.trips) (acc : FVec F S16 .f32) :
    inv1 d L O W q I R fb0 k.val acc
      ⊢ wp frame (wpE (defs₀ (F := F)) 𝒱₀ (thr1 d L) none) Set.univ
          (k2_t1_body L (Memref.whole main_v4_scv) (Memref.isWhole_whole _) (Memref.whole main_v3_scv) (Memref.isWhole_whole _) (Memref.whole main_v5_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scratch16 cc2_scratch17 cc2_scoped0 cc2_scoped1 k acc)
          (fun a => inv1 d L O W q I R fb0 (k.val + 1) a) := by
  rw [inv1_pos d L O W q I R fb0 k.val acc k.isLt]
  unfold slotF k2_t1_body
  iintro ⟨Hmw, ⟨⟨%C0, Hf0, Hsr0, Hbr0, Hor0⟩, ⟨%C1, Hf1, Hsr1, Hbr1, Hor1⟩, ⟨%C2, Hf2, Hsr2, Hbr2, Hor2⟩, ⟨%C3, Hf3, Hsr3, Hbr3, Hor3⟩, ⟨%C4, Hf4, Hsr4, Hbr4, Hor4⟩, ⟨%C5, Hf5, Hsr5, Hbr5, Hor5⟩, ⟨%C6, Hf6, Hsr6, Hbr6, Hor6⟩, ⟨%C7, Hf7, Hsr7, Hbr7, Hor7⟩⟩, %W', %hW', HO⟩
  by_cases hk : k.val < 12
  · obtain ⟨h1, h2, h3, h4, h5, h6, h7, h8⟩ := k2_cond_pos k hk
    sl_exec
    sl_step
    rw [inv1_pos d L O W q I R fb0 (k.val + 1) _ (by omega)]
    isplitl [Hmw]; · iexact Hmw
    isplitr [HO]
    isplitl [Hf0 Hsr0 Hbr0 Hor0]
    · iexists _
      iapply (Entails.of_eq (slotF_congr d L I R fb0 _ _ _ _ (k2_off3_eq' k h1) (k2_off3_inb k h1) _ _))
      unfold slotF
      isplitl [Hf0]; · iexact Hf0
      isplitl [Hsr0]; · iexact Hsr0
      isplitl [Hbr0]; · iexact Hbr0
      iexact Hor0
    isplitl [Hf1 Hsr1 Hbr1 Hor1]
    · iexists _
      iapply (Entails.of_eq (slotF_congr d L I R fb0 _ _ _ _ (k2_off4_eq' k h2) (k2_off4_inb k h2) _ _))
      unfold slotF
      isplitl [Hf1]; · iexact Hf1
      isplitl [Hsr1]; · iexact Hsr1
      isplitl [Hbr1]; · iexact Hbr1
      iexact Hor1
    isplitl [Hf2 Hsr2 Hbr2 Hor2]
    · iexists _
      iapply (Entails.of_eq (slotF_congr d L I R fb0 _ _ _ _ (k2_off5_eq' k h3) (k2_off5_inb k h3) _ _))
      unfold slotF
      isplitl [Hf2]; · iexact Hf2
      isplitl [Hsr2]; · iexact Hsr2
      isplitl [Hbr2]; · iexact Hbr2
      iexact Hor2
    isplitl [Hf3 Hsr3 Hbr3 Hor3]
    · iexists _
      iapply (Entails.of_eq (slotF_congr d L I R fb0 _ _ _ _ (k2_off6_eq' k h4) (k2_off6_inb k h4) _ _))
      unfold slotF
      isplitl [Hf3]; · iexact Hf3
      isplitl [Hsr3]; · iexact Hsr3
      isplitl [Hbr3]; · iexact Hbr3
      iexact Hor3
    isplitl [Hf4 Hsr4 Hbr4 Hor4]
    · iexists _
      iapply (Entails.of_eq (slotF_congr d L I R fb0 _ _ _ _ (k2_off7_eq' k h5) (k2_off7_inb k h5) _ _))
      unfold slotF
      isplitl [Hf4]; · iexact Hf4
      isplitl [Hsr4]; · iexact Hsr4
      isplitl [Hbr4]; · iexact Hbr4
      iexact Hor4
    isplitl [Hf5 Hsr5 Hbr5 Hor5]
    · iexists _
      iapply (Entails.of_eq (slotF_congr d L I R fb0 _ _ _ _ (k2_off8_eq' k h6) (k2_off8_inb k h6) _ _))
      unfold slotF
      isplitl [Hf5]; · iexact Hf5
      isplitl [Hsr5]; · iexact Hsr5
      isplitl [Hbr5]; · iexact Hbr5
      iexact Hor5
    isplitl [Hf6 Hsr6 Hbr6 Hor6]
    · iexists _
      iapply (Entails.of_eq (slotF_congr d L I R fb0 _ _ _ _ (k2_off9_eq' k h7) (k2_off9_inb k h7) _ _))
      unfold slotF
      isplitl [Hf6]; · iexact Hf6
      isplitl [Hsr6]; · iexact Hsr6
      isplitl [Hbr6]; · iexact Hbr6
      iexact Hor6
    · iexists _
      iapply (Entails.of_eq (slotF_congr d L I R fb0 _ _ _ _ (k2_off10_eq' k h8) (k2_off10_inb k h8) _ _))
      unfold slotF
      isplitl [Hf7]; · iexact Hf7
      isplitl [Hsr7]; · iexact Hsr7
      isplitl [Hbr7]; · iexact Hbr7
      iexact Hor7
    iexists _; isplitr
    pick_goal 2
    · iexact HO
    · ipureintro; exact waits_ok1 (waits_ok1 (waits_ok1 (waits_ok1 (waits_ok1 (waits_ok1 (waits_ok1 (waits_ok1 (hW') _) _) _) _) _) _) _) _
  · obtain ⟨h1, h2, h3, h4, h5, h6, h7, h8⟩ := k2_cond_neg k hk
    sl_exec
    sl_step
    rw [inv1_neg d L O W q I R fb0 (k.val + 1) _ (by omega)]
    isplitl [Hmw]; · iexact Hmw
    isplitr [HO]
    isplitl [Hf0 Hsr0 Hbr0 Hor0]
    · unfold doneF
      isplitl [Hbr0]; · iexists _; iexact Hbr0
      isplitl [Hsr0]; · iexact Hsr0
      isplitl [Hor0]; · iexact Hor0
      iexact Hf0
    isplitl [Hf1 Hsr1 Hbr1 Hor1]
    · unfold doneF
      isplitl [Hbr1]; · iexists _; iexact Hbr1
      isplitl [Hsr1]; · iexact Hsr1
      isplitl [Hor1]; · iexact Hor1
      iexact Hf1
    isplitl [Hf2 Hsr2 Hbr2 Hor2]
    · unfold doneF
      isplitl [Hbr2]; · iexists _; iexact Hbr2
      isplitl [Hsr2]; · iexact Hsr2
      isplitl [Hor2]; · iexact Hor2
      iexact Hf2
    isplitl [Hf3 Hsr3 Hbr3 Hor3]
    · unfold doneF
      isplitl [Hbr3]; · iexists _; iexact Hbr3
      isplitl [Hsr3]; · iexact Hsr3
      isplitl [Hor3]; · iexact Hor3
      iexact Hf3
    isplitl [Hf4 Hsr4 Hbr4 Hor4]
    · unfold doneF
      isplitl [Hbr4]; · iexists _; iexact Hbr4
      isplitl [Hsr4]; · iexact Hsr4
      isplitl [Hor4]; · iexact Hor4
      iexact Hf4
    isplitl [Hf5 Hsr5 Hbr5 Hor5]
    · unfold doneF
      isplitl [Hbr5]; · iexists _; iexact Hbr5
      isplitl [Hsr5]; · iexact Hsr5
      isplitl [Hor5]; · iexact Hor5
      iexact Hf5
    isplitl [Hf6 Hsr6 Hbr6 Hor6]
    · unfold doneF
      isplitl [Hbr6]; · iexists _; iexact Hbr6
      isplitl [Hsr6]; · iexact Hsr6
      isplitl [Hor6]; · iexact Hor6
      iexact Hf6
    · unfold doneF
      isplitl [Hbr7]; · iexists _; iexact Hbr7
      isplitl [Hsr7]; · iexact Hsr7
      isplitl [Hor7]; · iexact Hor7
      iexact Hf7
    iexists _; isplitr
    pick_goal 2
    · iexact HO
    · ipureintro; exact waits_ok1 (waits_ok1 (waits_ok1 (waits_ok1 (waits_ok1 (waits_ok1 (waits_ok1 (waits_ok1 (hW') _) _) _) _) _) _) _) _

set_option maxHeartbeats 4000000 in
theorem tile1_frame (hF : (K (F := F)).Facts) (d : Dev nD) (L : grid2.Coords) (O : CellTallies nD τ sig (HIx 2)) (W : Waits sig (HIx 2)) (hO : ∀ g, O g none = 0)
    (q : PosShare TreeShare) (I : Buf (Elt F) (itLoc d)) (R : Buf (Elt F) (raLoc d)) (f0 : Buf (Elt F) (ptLoc d))
    (hI : ∀ i, (I i).toNat < 1000000) :
    iprop(levAts (K (F := F)).L (K (F := F)).lev
        ∗ ((itLoc d ↦{q} I) ∗ (raLoc d ↦{q} R) ∗ (ptLoc d ↦[outRow1 L]{fullShare} f0))
        ∗ scopedBufs (thr1 d L) ∗ scopedSems0 (thr1 d L) ∗ owes (thr1 d L) O W)
      ⊢ (wp frame (wpE (defs₀ (F := F)) 𝒱₀ (thr1 d L) none) Set.univ
          (cc2_sc_kernel L (Memref.whole main_v4_scv) (Memref.isWhole_whole _) (Memref.whole main_v3_scv) (Memref.isWhole_whole _) (Memref.whole main_v5_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scratch16 cc2_scratch17 cc2_scoped0 cc2_scoped1)
          fun _ => iprop(((itLoc d ↦{q} I) ∗ (raLoc d ↦{q} R) ∗ (∃ f, ptLoc d ↦[outRow1 L]{fullShare} f))
            ∗ scopedBufs (thr1 d L) ∗ scopedSems0 (thr1 d L) ∗ ∃ W', ⌜∀ p ∈ W', p ∈ W ∨ p.2 = none⌝ ∗ owes (thr1 d L) O W') : sProp 𝕄) := by
  simp only [cc2_sc_kernel_eq_skeleton]; unfold cc2_sc_kernel_skel
  rw [(K (F := F)).scopedBufs_V hF d (cV1 L) (jV1 L), SparseCore.Cfg.scopedSems0_V (Val := Elt F) d (cV1 L) (jV1 L), ownSems0_T1, ownBufs_T1']
  iintro ⟨#Hlv, ⟨Hi, Hr, Ho⟩, ⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, ⟨%fb8, Hb8⟩, ⟨%fb9, Hb9⟩, Hbufs⟩, ⟨Hs0, Hs1, Hs2, Hs3, Hs4, Hs5, Hs6, Hs7, Hs8, Hs9, Hsems⟩, HO⟩
  ihave Hmw := ((K (F := F)).mayWaits_none (thr := thr1 d L) hO) $$ Hlv
  ihave Hi' := (Entails.of_eq (pts_it1 (F := F) d L q _).symm) $$ Hi
  ihave Hr' := (Entails.of_eq (pts_ra1 (F := F) d L q _).symm) $$ Hr
  ihave Ho' := (Entails.of_eq (pts_row1 (F := F) d L _).symm) $$ Ho
  sl_exec
  -- the index scratch now holds the tile's window: its contents named
  ihave Hb0e := (pts_name (F := F) _) $$ Hb0
  icases Hb0e with ⟨%fo, %hfo, Hb0⟩
  have hin : ∀ (off : Fin 2 → ℕ) (hb : ∀ a, off a + S1x128.size a ≤ S26x512.size a) (x : S128.Idx), (View.read (Elt F) (offM off hb).view fo x).toNat < 1000000 := by
    intro off hb x; rw [hfo]; exact hin1 (F := F) L I hI off hb fb0 x
  -- eight read shares of the table of row sums and of the index scratch, one per buffer in flight
  ihave Hr8 := (Entails.of_eq (pts_split8 (F := F) q)) $$ Hr'
  icases Hr8 with ⟨HR0, HR1, HR2, HR3, HR4, HR5, HR6, HR7⟩
  ihave Hx8 := (Entails.of_eq (pts_split8 (F := F) fullShare)) $$ Hb0
  icases Hx8 with ⟨HX0, HX1, HX2, HX3, HX4, HX5, HX6, HX7⟩
  sl_exec
  sl_for (inv1 d L O W q I R fo) $$ [Hmw Hs0 HR0 Hb1 HX0 Hs1 HR1 Hb2 HX1 Hs2 HR2 Hb3 HX2 Hs3 HR3 Hb4 HX3 Hs4 HR4 Hb5 HX4 Hs5 HR5 Hb6 HX5 Hs6 HR6 Hb7 HX6 Hs7 HR7 Hb8 HX7 HO]
  case region => exact fun k acc => trip1 d L O W q I R fo hin k acc
  · rw [inv1_pos d L O W q I R fo 0 _ (by norm_num)]
    isplitl [Hmw]; · iexact Hmw
    isplitr [HO]
    isplitl [Hs0 HR0 Hb1 HX0]
    · iexists _
      iapply (Entails.of_eq (slotF_congr d L I R fo _ _ _ _ (show (![0, 0] : Fin 2 → ℕ) = offJ 0 0 from by decide) inb_S26x512_S1x128_0_0 _ _))
      unfold slotF
      isplitl [Hs0]; · iexact Hs0
      isplitl [HR0]; · iexact HR0
      isplitl [Hb1]; · iexact Hb1
      iexact HX0
    isplitl [Hs1 HR1 Hb2 HX1]
    · iexists _
      iapply (Entails.of_eq (slotF_congr d L I R fo _ _ _ _ (show (![0, 128] : Fin 2 → ℕ) = offJ 1 0 from by decide) inb_S26x512_S1x128_0_128 _ _))
      unfold slotF
      isplitl [Hs1]; · iexact Hs1
      isplitl [HR1]; · iexact HR1
      isplitl [Hb2]; · iexact Hb2
      iexact HX1
    isplitl [Hs2 HR2 Hb3 HX2]
    · iexists _
      iapply (Entails.of_eq (slotF_congr d L I R fo _ _ _ _ (show (![0, 256] : Fin 2 → ℕ) = offJ 2 0 from by decide) inb_S26x512_S1x128_0_256 _ _))
      unfold slotF
      isplitl [Hs2]; · iexact Hs2
      isplitl [HR2]; · iexact HR2
      isplitl [Hb3]; · iexact Hb3
      iexact HX2
    isplitl [Hs3 HR3 Hb4 HX3]
    · iexists _
      iapply (Entails.of_eq (slotF_congr d L I R fo _ _ _ _ (show (![0, 384] : Fin 2 → ℕ) = offJ 3 0 from by decide) inb_S26x512_S1x128_0_384 _ _))
      unfold slotF
      isplitl [Hs3]; · iexact Hs3
      isplitl [HR3]; · iexact HR3
      isplitl [Hb4]; · iexact Hb4
      iexact HX3
    isplitl [Hs4 HR4 Hb5 HX4]
    · iexists _
      iapply (Entails.of_eq (slotF_congr d L I R fo _ _ _ _ (show (![1, 0] : Fin 2 → ℕ) = offJ 4 0 from by decide) inb_S26x512_S1x128_1_0 _ _))
      unfold slotF
      isplitl [Hs4]; · iexact Hs4
      isplitl [HR4]; · iexact HR4
      isplitl [Hb5]; · iexact Hb5
      iexact HX4
    isplitl [Hs5 HR5 Hb6 HX5]
    · iexists _
      iapply (Entails.of_eq (slotF_congr d L I R fo _ _ _ _ (show (![1, 128] : Fin 2 → ℕ) = offJ 5 0 from by decide) inb_S26x512_S1x128_1_128 _ _))
      unfold slotF
      isplitl [Hs5]; · iexact Hs5
      isplitl [HR5]; · iexact HR5
      isplitl [Hb6]; · iexact Hb6
      iexact HX5
    isplitl [Hs6 HR6 Hb7 HX6]
    · iexists _
      iapply (Entails.of_eq (slotF_congr d L I R fo _ _ _ _ (show (![1, 256] : Fin 2 → ℕ) = offJ 6 0 from by decide) inb_S26x512_S1x128_1_256 _ _))
      unfold slotF
      isplitl [Hs6]; · iexact Hs6
      isplitl [HR6]; · iexact HR6
      isplitl [Hb7]; · iexact Hb7
      iexact HX6
    · iexists _
      iapply (Entails.of_eq (slotF_congr d L I R fo _ _ _ _ (show (![1, 384] : Fin 2 → ℕ) = offJ 7 0 from by decide) inb_S26x512_S1x128_1_384 _ _))
      unfold slotF
      isplitl [Hs7]; · iexact Hs7
      isplitl [HR7]; · iexact HR7
      isplitl [Hb8]; · iexact Hb8
      iexact HX7
    iexists _; isplitr
    pick_goal 2
    · iexact HO
    · ipureintro; exact waits_ok1 (fun p hp => .inl hp) _
  iintro %accF HI
  ihave HI' := (Entails.of_eq (inv1_done d L O W q I R fo _ accF (show ¬ k2_t1_loop.trips < 13 by decide))) $$ HI
  icases HI' with ⟨-, ⟨⟨⟨%C0, Hb1⟩, HR0, HX0, Hs0⟩, ⟨⟨%C1, Hb2⟩, HR1, HX1, Hs1⟩, ⟨⟨%C2, Hb3⟩, HR2, HX2, Hs2⟩, ⟨⟨%C3, Hb4⟩, HR3, HX3, Hs3⟩, ⟨⟨%C4, Hb5⟩, HR4, HX4, Hs4⟩, ⟨⟨%C5, Hb6⟩, HR5, HX5, Hs5⟩, ⟨⟨%C6, Hb7⟩, HR6, HX6, Hs6⟩, ⟨⟨%C7, Hb8⟩, HR7, HX7, Hs7⟩⟩, %W', %hW', HO⟩
  ihave Hr' := (Entails.of_eq (pts_split8 (F := F) q).symm) $$ [HR0 HR1 HR2 HR3 HR4 HR5 HR6 HR7]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HR7
  ihave Hb0 := (Entails.of_eq (pts_split8 (F := F) fullShare).symm) $$ [HX0 HX1 HX2 HX3 HX4 HX5 HX6 HX7]
  · isplitl [HX0]; · iexact HX0
    isplitl [HX1]; · iexact HX1
    isplitl [HX2]; · iexact HX2
    isplitl [HX3]; · iexact HX3
    isplitl [HX4]; · iexact HX4
    isplitl [HX5]; · iexact HX5
    isplitl [HX6]; · iexact HX6
    iexact HX7
  sl_exec
  sl_step
  isplitl [Hi' Hr' Ho']
  · isplitl [Hi']; · iapply (Entails.of_eq (pts_it1 (F := F) d L q _)); iexact Hi'
    isplitl [Hr']; · iapply (Entails.of_eq (pts_ra1 (F := F) d L q _)); iexact Hr'
    iexists _; iapply (Entails.of_eq (pts_row1 (F := F) d L _)); iexact Ho'
  isplitl [Hb0 Hb1 Hb2 Hb3 Hb4 Hb5 Hb6 Hb7 Hb8 Hb9 Hbufs]
  ·
    isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    iexact Hbufs
  isplitl [Hs0 Hs1 Hs2 Hs3 Hs4 Hs5 Hs6 Hs7 Hs8 Hs9 Hsems]
  ·
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists _; isplitr
  pick_goal 2
  · iexact HO
  · ipureintro; exact waits_ok1 hW' _

end Cert.Proof.KB

end
-- ==== Proof.KB.Tile1Steps.lean ====
/-
  One step of a trip of the second SparseCore call, as a value: the eight 16-lane pieces loaded from a gather buffer that
  holds a chunk are the chunk's eight pieces, so the step adds the chunk's sum to the accumulator.
-/
import proofs.«203338_g27195732918861_cont_9to1_1050_16_alg».proof.Proof.KB.Tile1Mem

noncomputable section

namespace Cert.Proof.KB

open Cert.Kernel Cert.Kernel.Gen

open Idealize.ShloMosaic Idealize.ShloMosaic.ValueIdx

variable {F : FTy → Type} [FloatOps F]

/-- A 16-lane load at word `o` of gather buffer 0 held whole: lane `y` is the buffer's word `o + y`. -/
theorem readAt_words1 (o : ℕ) (h : ∀ a, (![o] : Fin 1 → ℕ) a + S16.size a ≤ S128.size a)
    (C : (Memref.whole cc2_scratch1 : Memref sig .scVector .vmem S128 .f32).view.ty.Contents (Elt F)) :
    (Memref.whole cc2_scratch1 : Memref sig .scVector .vmem S128 .f32).view.readAt (Elt F) (Rect.unit (s := S128) ![o] S16.size h).toLoadRect C
      = fun y : S16.Idx => C (ix1 (⟨o + (y 0).val, by have h0 : o + 16 ≤ 128 := h 0; have hy : (y 0).val < 16 := (y 0).isLt; omega⟩ : Fin 128)) := by
  funext y
  show C ((Rect.unit (s := S128) ![o] S16.size h).toLoadRect.idx y) = _
  refine congrArg C (funext fun a => Fin.ext ?_)
  match a with
  | ⟨0, _⟩ => show o + 1 * (y 0).val = o + (y 0).val; omega

/-- A 16-lane load at word `o` of gather buffer 1 held whole: lane `y` is the buffer's word `o + y`. -/
theorem readAt_words2 (o : ℕ) (h : ∀ a, (![o] : Fin 1 → ℕ) a + S16.size a ≤ S128.size a)
    (C : (Memref.whole cc2_scratch2 : Memref sig .scVector .vmem S128 .f32).view.ty.Contents (Elt F)) :
    (Memref.whole cc2_scratch2 : Memref sig .scVector .vmem S128 .f32).view.readAt (Elt F) (Rect.unit (s := S128) ![o] S16.size h).toLoadRect C
      = fun y : S16.Idx => C (ix1 (⟨o + (y 0).val, by have h0 : o + 16 ≤ 128 := h 0; have hy : (y 0).val < 16 := (y 0).isLt; omega⟩ : Fin 128)) := by
  funext y
  show C ((Rect.unit (s := S128) ![o] S16.size h).toLoadRect.idx y) = _
  refine congrArg C (funext fun a => Fin.ext ?_)
  match a with
  | ⟨0, _⟩ => show o + 1 * (y 0).val = o + (y 0).val; omega

/-- A 16-lane load at word `o` of gather buffer 2 held whole: lane `y` is the buffer's word `o + y`. -/
theorem readAt_words3 (o : ℕ) (h : ∀ a, (![o] : Fin 1 → ℕ) a + S16.size a ≤ S128.size a)
    (C : (Memref.whole cc2_scratch3 : Memref sig .scVector .vmem S128 .f32).view.ty.Contents (Elt F)) :
    (Memref.whole cc2_scratch3 : Memref sig .scVector .vmem S128 .f32).view.readAt (Elt F) (Rect.unit (s := S128) ![o] S16.size h).toLoadRect C
      = fun y : S16.Idx => C (ix1 (⟨o + (y 0).val, by have h0 : o + 16 ≤ 128 := h 0; have hy : (y 0).val < 16 := (y 0).isLt; omega⟩ : Fin 128)) := by
  funext y
  show C ((Rect.unit (s := S128) ![o] S16.size h).toLoadRect.idx y) = _
  refine congrArg C (funext fun a => Fin.ext ?_)
  match a with
  | ⟨0, _⟩ => show o + 1 * (y 0).val = o + (y 0).val; omega

/-- A 16-lane load at word `o` of gather buffer 3 held whole: lane `y` is the buffer's word `o + y`. -/
theorem readAt_words4 (o : ℕ) (h : ∀ a, (![o] : Fin 1 → ℕ) a + S16.size a ≤ S128.size a)
    (C : (Memref.whole cc2_scratch4 : Memref sig .scVector .vmem S128 .f32).view.ty.Contents (Elt F)) :
    (Memref.whole cc2_scratch4 : Memref sig .scVector .vmem S128 .f32).view.readAt (Elt F) (Rect.unit (s := S128) ![o] S16.size h).toLoadRect C
      = fun y : S16.Idx => C (ix1 (⟨o + (y 0).val, by have h0 : o + 16 ≤ 128 := h 0; have hy : (y 0).val < 16 := (y 0).isLt; omega⟩ : Fin 128)) := by
  funext y
  show C ((Rect.unit (s := S128) ![o] S16.size h).toLoadRect.idx y) = _
  refine congrArg C (funext fun a => Fin.ext ?_)
  match a with
  | ⟨0, _⟩ => show o + 1 * (y 0).val = o + (y 0).val; omega

/-- A 16-lane load at word `o` of gather buffer 4 held whole: lane `y` is the buffer's word `o + y`. -/
theorem readAt_words5 (o : ℕ) (h : ∀ a, (![o] : Fin 1 → ℕ) a + S16.size a ≤ S128.size a)
    (C : (Memref.whole cc2_scratch5 : Memref sig .scVector .vmem S128 .f32).view.ty.Contents (Elt F)) :
    (Memref.whole cc2_scratch5 : Memref sig .scVector .vmem S128 .f32).view.readAt (Elt F) (Rect.unit (s := S128) ![o] S16.size h).toLoadRect C
      = fun y : S16.Idx => C (ix1 (⟨o + (y 0).val, by have h0 : o + 16 ≤ 128 := h 0; have hy : (y 0).val < 16 := (y 0).isLt; omega⟩ : Fin 128)) := by
  funext y
  show C ((Rect.unit (s := S128) ![o] S16.size h).toLoadRect.idx y) = _
  refine congrArg C (funext fun a => Fin.ext ?_)
  match a with
  | ⟨0, _⟩ => show o + 1 * (y 0).val = o + (y 0).val; omega

/-- A 16-lane load at word `o` of gather buffer 5 held whole: lane `y` is the buffer's word `o + y`. -/
theorem readAt_words6 (o : ℕ) (h : ∀ a, (![o] : Fin 1 → ℕ) a + S16.size a ≤ S128.size a)
    (C : (Memref.whole cc2_scratch6 : Memref sig .scVector .vmem S128 .f32).view.ty.Contents (Elt F)) :
    (Memref.whole cc2_scratch6 : Memref sig .scVector .vmem S128 .f32).view.readAt (Elt F) (Rect.unit (s := S128) ![o] S16.size h).toLoadRect C
      = fun y : S16.Idx => C (ix1 (⟨o + (y 0).val, by have h0 : o + 16 ≤ 128 := h 0; have hy : (y 0).val < 16 := (y 0).isLt; omega⟩ : Fin 128)) := by
  funext y
  show C ((Rect.unit (s := S128) ![o] S16.size h).toLoadRect.idx y) = _
  refine congrArg C (funext fun a => Fin.ext ?_)
  match a with
  | ⟨0, _⟩ => show o + 1 * (y 0).val = o + (y 0).val; omega

/-- A 16-lane load at word `o` of gather buffer 6 held whole: lane `y` is the buffer's word `o + y`. -/
theorem readAt_words7 (o : ℕ) (h : ∀ a, (![o] : Fin 1 → ℕ) a + S16.size a ≤ S128.size a)
    (C : (Memref.whole cc2_scratch7 : Memref sig .scVector .vmem S128 .f32).view.ty.Contents (Elt F)) :
    (Memref.whole cc2_scratch7 : Memref sig .scVector .vmem S128 .f32).view.readAt (Elt F) (Rect.unit (s := S128) ![o] S16.size h).toLoadRect C
      = fun y : S16.Idx => C (ix1 (⟨o + (y 0).val, by have h0 : o + 16 ≤ 128 := h 0; have hy : (y 0).val < 16 := (y 0).isLt; omega⟩ : Fin 128)) := by
  funext y
  show C ((Rect.unit (s := S128) ![o] S16.size h).toLoadRect.idx y) = _
  refine congrArg C (funext fun a => Fin.ext ?_)
  match a with
  | ⟨0, _⟩ => show o + 1 * (y 0).val = o + (y 0).val; omega

/-- A 16-lane load at word `o` of gather buffer 7 held whole: lane `y` is the buffer's word `o + y`. -/
theorem readAt_words8 (o : ℕ) (h : ∀ a, (![o] : Fin 1 → ℕ) a + S16.size a ≤ S128.size a)
    (C : (Memref.whole cc2_scratch8 : Memref sig .scVector .vmem S128 .f32).view.ty.Contents (Elt F)) :
    (Memref.whole cc2_scratch8 : Memref sig .scVector .vmem S128 .f32).view.readAt (Elt F) (Rect.unit (s := S128) ![o] S16.size h).toLoadRect C
      = fun y : S16.Idx => C (ix1 (⟨o + (y 0).val, by have h0 : o + 16 ≤ 128 := h 0; have hy : (y 0).val < 16 := (y 0).isLt; omega⟩ : Fin 128)) := by
  funext y
  show C ((Rect.unit (s := S128) ![o] S16.size h).toLoadRect.idx y) = _
  refine congrArg C (funext fun a => Fin.ext ?_)
  match a with
  | ⟨0, _⟩ => show o + 1 * (y 0).val = o + (y 0).val; omega

set_option maxHeartbeats 1000000 in
/-- Step 0 of a trip: the eight 16-lane loads of gather buffer 0, holding chunk `j` of tile `w`, added from the left and
    then to the accumulator, are the accumulator plus the chunk's sum. -/
theorem step0_chunk {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay5 acc (k2_pay4 ((Memref.whole cc2_scratch1 : Memref sig .scVector .vmem S128 .f32).view.readAt (Elt F) (Rect.unit (s := S128) ![0] S16.size h0).toLoadRect (chunkBuf I R w j))
        ((Memref.whole cc2_scratch1 : Memref sig .scVector .vmem S128 .f32).view.readAt (Elt F) (Rect.unit (s := S128) ![16] S16.size h1).toLoadRect (chunkBuf I R w j)))
        ((Memref.whole cc2_scratch1 : Memref sig .scVector .vmem S128 .f32).view.readAt (Elt F) (Rect.unit (s := S128) ![32] S16.size h2).toLoadRect (chunkBuf I R w j))
        ((Memref.whole cc2_scratch1 : Memref sig .scVector .vmem S128 .f32).view.readAt (Elt F) (Rect.unit (s := S128) ![48] S16.size h3).toLoadRect (chunkBuf I R w j))
        ((Memref.whole cc2_scratch1 : Memref sig .scVector .vmem S128 .f32).view.readAt (Elt F) (Rect.unit (s := S128) ![64] S16.size h4).toLoadRect (chunkBuf I R w j))
        ((Memref.whole cc2_scratch1 : Memref sig .scVector .vmem S128 .f32).view.readAt (Elt F) (Rect.unit (s := S128) ![80] S16.size h5).toLoadRect (chunkBuf I R w j))
        ((Memref.whole cc2_scratch1 : Memref sig .scVector .vmem S128 .f32).view.readAt (Elt F) (Rect.unit (s := S128) ![96] S16.size h6).toLoadRect (chunkBuf I R w j))
        ((Memref.whole cc2_scratch1 : Memref sig .scVector .vmem S128 .f32).view.readAt (Elt F) (Rect.unit (s := S128) ![112] S16.size h7).toLoadRect (chunkBuf I R w j))
      = addf acc (chunkSum I R w j) := by
  rw [readAt_words1 0 h0, readAt_words1 16 h1, readAt_words1 32 h2, readAt_words1 48 h3, readAt_words1 64 h4, readAt_words1 80 h5, readAt_words1 96 h6, readAt_words1 112 h7]
  rfl

set_option maxHeartbeats 1000000 in
/-- Step 1 of a trip: the eight 16-lane loads of gather buffer 1, holding chunk `j` of tile `w`, added from the left and
    then to the accumulator, are the accumulator plus the chunk's sum. -/
theorem step1_chunk {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay6 acc
        ((Memref.whole cc2_scratch2 : Memref sig .scVector .vmem S128 .f32).view.readAt (Elt F) (Rect.unit (s := S128) ![0] S16.size h0).toLoadRect (chunkBuf I R w j))
        ((Memref.whole cc2_scratch2 : Memref sig .scVector .vmem S128 .f32).view.readAt (Elt F) (Rect.unit (s := S128) ![16] S16.size h1).toLoadRect (chunkBuf I R w j))
        ((Memref.whole cc2_scratch2 : Memref sig .scVector .vmem S128 .f32).view.readAt (Elt F) (Rect.unit (s := S128) ![32] S16.size h2).toLoadRect (chunkBuf I R w j))
        ((Memref.whole cc2_scratch2 : Memref sig .scVector .vmem S128 .f32).view.readAt (Elt F) (Rect.unit (s := S128) ![48] S16.size h3).toLoadRect (chunkBuf I R w j))
        ((Memref.whole cc2_scratch2 : Memref sig .scVector .vmem S128 .f32).view.readAt (Elt F) (Rect.unit (s := S128) ![64] S16.size h4).toLoadRect (chunkBuf I R w j))
        ((Memref.whole cc2_scratch2 : Memref sig .scVector .vmem S128 .f32).view.readAt (Elt F) (Rect.unit (s := S128) ![80] S16.size h5).toLoadRect (chunkBuf I R w j))
        ((Memref.whole cc2_scratch2 : Memref sig .scVector .vmem S128 .f32).view.readAt (Elt F) (Rect.unit (s := S128) ![96] S16.size h6).toLoadRect (chunkBuf I R w j))
        ((Memref.whole cc2_scratch2 : Memref sig .scVector .vmem S128 .f32).view.readAt (Elt F) (Rect.unit (s := S128) ![112] S16.size h7).toLoadRect (chunkBuf I R w j))
      = addf acc (chunkSum I R w j) := by
  rw [readAt_words2 0 h0, readAt_words2 16 h1, readAt_words2 32 h2, readAt_words2 48 h3, readAt_words2 64 h4, readAt_words2 80 h5, readAt_words2 96 h6, readAt_words2 112 h7]
  rfl

set_option maxHeartbeats 1000000 in
/-- Step 2 of a trip: the eight 16-lane loads of gather buffer 2, holding chunk `j` of tile `w`, added from the left and
    then to the accumulator, are the accumulator plus the chunk's sum. -/
theorem step2_chunk {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay9 acc (k2_pay7 ((Memref.whole cc2_scratch3 : Memref sig .scVector .vmem S128 .f32).view.readAt (Elt F) (Rect.unit (s := S128) ![0] S16.size h0).toLoadRect (chunkBuf I R w j)))
        (k2_pay8 ((Memref.whole cc2_scratch3 : Memref sig .scVector .vmem S128 .f32).view.readAt (Elt F) (Rect.unit (s := S128) ![16] S16.size h1).toLoadRect (chunkBuf I R w j)))
        ((Memref.whole cc2_scratch3 : Memref sig .scVector .vmem S128 .f32).view.readAt (Elt F) (Rect.unit (s := S128) ![32] S16.size h2).toLoadRect (chunkBuf I R w j))
        ((Memref.whole cc2_scratch3 : Memref sig .scVector .vmem S128 .f32).view.readAt (Elt F) (Rect.unit (s := S128) ![48] S16.size h3).toLoadRect (chunkBuf I R w j))
        ((Memref.whole cc2_scratch3 : Memref sig .scVector .vmem S128 .f32).view.readAt (Elt F) (Rect.unit (s := S128) ![64] S16.size h4).toLoadRect (chunkBuf I R w j))
        ((Memref.whole cc2_scratch3 : Memref sig .scVector .vmem S128 .f32).view.readAt (Elt F) (Rect.unit (s := S128) ![80] S16.size h5).toLoadRect (chunkBuf I R w j))
        ((Memref.whole cc2_scratch3 : Memref sig .scVector .vmem S128 .f32).view.readAt (Elt F) (Rect.unit (s := S128) ![96] S16.size h6).toLoadRect (chunkBuf I R w j))
        ((Memref.whole cc2_scratch3 : Memref sig .scVector .vmem S128 .f32).view.readAt (Elt F) (Rect.unit (s := S128) ![112] S16.size h7).toLoadRect (chunkBuf I R w j))
      = addf acc (chunkSum I R w j) := by
  rw [readAt_words3 0 h0, readAt_words3 16 h1, readAt_words3 32 h2, readAt_words3 48 h3, readAt_words3 64 h4, readAt_words3 80 h5, readAt_words3 96 h6, readAt_words3 112 h7]
  rfl

set_option maxHeartbeats 1000000 in
/-- Step 3 of a trip: the eight 16-lane loads of gather buffer 3, holding chunk `j` of tile `w`, added from the left and
    then to the accumulator, are the accumulator plus the chunk's sum. -/
theorem step3_chunk {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay10 acc
        ((Memref.whole cc2_scratch4 : Memref sig .scVector .vmem S128 .f32).view.readAt (Elt F) (Rect.unit (s := S128) ![0] S16.size h0).toLoadRect (chunkBuf I R w j))
        ((Memref.whole cc2_scratch4 : Memref sig .scVector .vmem S128 .f32).view.readAt (Elt F) (Rect.unit (s := S128) ![16] S16.size h1).toLoadRect (chunkBuf I R w j))
        ((Memref.whole cc2_scratch4 : Memref sig .scVector .vmem S128 .f32).view.readAt (Elt F) (Rect.unit (s := S128) ![32] S16.size h2).toLoadRect (chunkBuf I R w j))
        ((Memref.whole cc2_scratch4 : Memref sig .scVector .vmem S128 .f32).view.readAt (Elt F) (Rect.unit (s := S128) ![48] S16.size h3).toLoadRect (chunkBuf I R w j))
        ((Memref.whole cc2_scratch4 : Memref sig .scVector .vmem S128 .f32).view.readAt (Elt F) (Rect.unit (s := S128) ![64] S16.size h4).toLoadRect (chunkBuf I R w j))
        ((Memref.whole cc2_scratch4 : Memref sig .scVector .vmem S128 .f32).view.readAt (Elt F) (Rect.unit (s := S128) ![80] S16.size h5).toLoadRect (chunkBuf I R w j))
        ((Memref.whole cc2_scratch4 : Memref sig .scVector .vmem S128 .f32).view.readAt (Elt F) (Rect.unit (s := S128) ![96] S16.size h6).toLoadRect (chunkBuf I R w j))
        ((Memref.whole cc2_scratch4 : Memref sig .scVector .vmem S128 .f32).view.readAt (Elt F) (Rect.unit (s := S128) ![112] S16.size h7).toLoadRect (chunkBuf I R w j))
      = addf acc (chunkSum I R w j) := by
  rw [readAt_words4 0 h0, readAt_words4 16 h1, readAt_words4 32 h2, readAt_words4 48 h3, readAt_words4 64 h4, readAt_words4 80 h5, readAt_words4 96 h6, readAt_words4 112 h7]
  rfl

set_option maxHeartbeats 1000000 in
/-- Step 4 of a trip: the eight 16-lane loads of gather buffer 4, holding chunk `j` of tile `w`, added from the left and
    then to the accumulator, are the accumulator plus the chunk's sum. -/
theorem step4_chunk {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay12 acc (k2_pay11 ((Memref.whole cc2_scratch5 : Memref sig .scVector .vmem S128 .f32).view.readAt (Elt F) (Rect.unit (s := S128) ![0] S16.size h0).toLoadRect (chunkBuf I R w j)))
        ((Memref.whole cc2_scratch5 : Memref sig .scVector .vmem S128 .f32).view.readAt (Elt F) (Rect.unit (s := S128) ![16] S16.size h1).toLoadRect (chunkBuf I R w j))
        ((Memref.whole cc2_scratch5 : Memref sig .scVector .vmem S128 .f32).view.readAt (Elt F) (Rect.unit (s := S128) ![32] S16.size h2).toLoadRect (chunkBuf I R w j))
        ((Memref.whole cc2_scratch5 : Memref sig .scVector .vmem S128 .f32).view.readAt (Elt F) (Rect.unit (s := S128) ![48] S16.size h3).toLoadRect (chunkBuf I R w j))
        ((Memref.whole cc2_scratch5 : Memref sig .scVector .vmem S128 .f32).view.readAt (Elt F) (Rect.unit (s := S128) ![64] S16.size h4).toLoadRect (chunkBuf I R w j))
        ((Memref.whole cc2_scratch5 : Memref sig .scVector .vmem S128 .f32).view.readAt (Elt F) (Rect.unit (s := S128) ![80] S16.size h5).toLoadRect (chunkBuf I R w j))
        ((Memref.whole cc2_scratch5 : Memref sig .scVector .vmem S128 .f32).view.readAt (Elt F) (Rect.unit (s := S128) ![96] S16.size h6).toLoadRect (chunkBuf I R w j))
        ((Memref.whole cc2_scratch5 : Memref sig .scVector .vmem S128 .f32).view.readAt (Elt F) (Rect.unit (s := S128) ![112] S16.size h7).toLoadRect (chunkBuf I R w j))
      = addf acc (chunkSum I R w j) := by
  rw [readAt_words5 0 h0, readAt_words5 16 h1, readAt_words5 32 h2, readAt_words5 48 h3, readAt_words5 64 h4, readAt_words5 80 h5, readAt_words5 96 h6, readAt_words5 112 h7]
  rfl

set_option maxHeartbeats 1000000 in
/-- Step 5 of a trip: the eight 16-lane loads of gather buffer 5, holding chunk `j` of tile `w`, added from the left and
    then to the accumulator, are the accumulator plus the chunk's sum. -/
theorem step5_chunk {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay13 acc
        ((Memref.whole cc2_scratch6 : Memref sig .scVector .vmem S128 .f32).view.readAt (Elt F) (Rect.unit (s := S128) ![0] S16.size h0).toLoadRect (chunkBuf I R w j))
        ((Memref.whole cc2_scratch6 : Memref sig .scVector .vmem S128 .f32).view.readAt (Elt F) (Rect.unit (s := S128) ![16] S16.size h1).toLoadRect (chunkBuf I R w j))
        ((Memref.whole cc2_scratch6 : Memref sig .scVector .vmem S128 .f32).view.readAt (Elt F) (Rect.unit (s := S128) ![32] S16.size h2).toLoadRect (chunkBuf I R w j))
        ((Memref.whole cc2_scratch6 : Memref sig .scVector .vmem S128 .f32).view.readAt (Elt F) (Rect.unit (s := S128) ![48] S16.size h3).toLoadRect (chunkBuf I R w j))
        ((Memref.whole cc2_scratch6 : Memref sig .scVector .vmem S128 .f32).view.readAt (Elt F) (Rect.unit (s := S128) ![64] S16.size h4).toLoadRect (chunkBuf I R w j))
        ((Memref.whole cc2_scratch6 : Memref sig .scVector .vmem S128 .f32).view.readAt (Elt F) (Rect.unit (s := S128) ![80] S16.size h5).toLoadRect (chunkBuf I R w j))
        ((Memref.whole cc2_scratch6 : Memref sig .scVector .vmem S128 .f32).view.readAt (Elt F) (Rect.unit (s := S128) ![96] S16.size h6).toLoadRect (chunkBuf I R w j))
        ((Memref.whole cc2_scratch6 : Memref sig .scVector .vmem S128 .f32).view.readAt (Elt F) (Rect.unit (s := S128) ![112] S16.size h7).toLoadRect (chunkBuf I R w j))
      = addf acc (chunkSum I R w j) := by
  rw [readAt_words6 0 h0, readAt_words6 16 h1, readAt_words6 32 h2, readAt_words6 48 h3, readAt_words6 64 h4, readAt_words6 80 h5, readAt_words6 96 h6, readAt_words6 112 h7]
  rfl

set_option maxHeartbeats 1000000 in
/-- Step 6 of a trip: the eight 16-lane loads of gather buffer 6, holding chunk `j` of tile `w`, added from the left and
    then to the accumulator, are the accumulator plus the chunk's sum. -/
theorem step6_chunk {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay14 acc
        ((Memref.whole cc2_scratch7 : Memref sig .scVector .vmem S128 .f32).view.readAt (Elt F) (Rect.unit (s := S128) ![0] S16.size h0).toLoadRect (chunkBuf I R w j))
        ((Memref.whole cc2_scratch7 : Memref sig .scVector .vmem S128 .f32).view.readAt (Elt F) (Rect.unit (s := S128) ![16] S16.size h1).toLoadRect (chunkBuf I R w j))
        ((Memref.whole cc2_scratch7 : Memref sig .scVector .vmem S128 .f32).view.readAt (Elt F) (Rect.unit (s := S128) ![32] S16.size h2).toLoadRect (chunkBuf I R w j))
        ((Memref.whole cc2_scratch7 : Memref sig .scVector .vmem S128 .f32).view.readAt (Elt F) (Rect.unit (s := S128) ![48] S16.size h3).toLoadRect (chunkBuf I R w j))
        ((Memref.whole cc2_scratch7 : Memref sig .scVector .vmem S128 .f32).view.readAt (Elt F) (Rect.unit (s := S128) ![64] S16.size h4).toLoadRect (chunkBuf I R w j))
        ((Memref.whole cc2_scratch7 : Memref sig .scVector .vmem S128 .f32).view.readAt (Elt F) (Rect.unit (s := S128) ![80] S16.size h5).toLoadRect (chunkBuf I R w j))
        ((Memref.whole cc2_scratch7 : Memref sig .scVector .vmem S128 .f32).view.readAt (Elt F) (Rect.unit (s := S128) ![96] S16.size h6).toLoadRect (chunkBuf I R w j))
        ((Memref.whole cc2_scratch7 : Memref sig .scVector .vmem S128 .f32).view.readAt (Elt F) (Rect.unit (s := S128) ![112] S16.size h7).toLoadRect (chunkBuf I R w j))
      = addf acc (chunkSum I R w j) := by
  rw [readAt_words7 0 h0, readAt_words7 16 h1, readAt_words7 32 h2, readAt_words7 48 h3, readAt_words7 64 h4, readAt_words7 80 h5, readAt_words7 96 h6, readAt_words7 112 h7]
  rfl

set_option maxHeartbeats 1000000 in
/-- Step 7 of a trip: the eight 16-lane loads of gather buffer 7, holding chunk `j` of tile `w`, added from the left and
    then to the accumulator, are the accumulator plus the chunk's sum. -/
theorem step7_chunk {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay2 acc (k2_pay15
        ((Memref.whole cc2_scratch8 : Memref sig .scVector .vmem S128 .f32).view.readAt (Elt F) (Rect.unit (s := S128) ![0] S16.size h0).toLoadRect (chunkBuf I R w j))
        ((Memref.whole cc2_scratch8 : Memref sig .scVector .vmem S128 .f32).view.readAt (Elt F) (Rect.unit (s := S128) ![16] S16.size h1).toLoadRect (chunkBuf I R w j))
        ((Memref.whole cc2_scratch8 : Memref sig .scVector .vmem S128 .f32).view.readAt (Elt F) (Rect.unit (s := S128) ![32] S16.size h2).toLoadRect (chunkBuf I R w j))
        ((Memref.whole cc2_scratch8 : Memref sig .scVector .vmem S128 .f32).view.readAt (Elt F) (Rect.unit (s := S128) ![48] S16.size h3).toLoadRect (chunkBuf I R w j))
        ((Memref.whole cc2_scratch8 : Memref sig .scVector .vmem S128 .f32).view.readAt (Elt F) (Rect.unit (s := S128) ![64] S16.size h4).toLoadRect (chunkBuf I R w j))
        ((Memref.whole cc2_scratch8 : Memref sig .scVector .vmem S128 .f32).view.readAt (Elt F) (Rect.unit (s := S128) ![80] S16.size h5).toLoadRect (chunkBuf I R w j))
        ((Memref.whole cc2_scratch8 : Memref sig .scVector .vmem S128 .f32).view.readAt (Elt F) (Rect.unit (s := S128) ![96] S16.size h6).toLoadRect (chunkBuf I R w j))
        ((Memref.whole cc2_scratch8 : Memref sig .scVector .vmem S128 .f32).view.readAt (Elt F) (Rect.unit (s := S128) ![112] S16.size h7).toLoadRect (chunkBuf I R w j)))
      = addf acc (chunkSum I R w j) := by
  rw [readAt_words8 0 h0, readAt_words8 16 h1, readAt_words8 32 h2, readAt_words8 48 h3, readAt_words8 64 h4, readAt_words8 80 h5, readAt_words8 96 h6, readAt_words8 112 h7]
  rfl

end Cert.Proof.KB

end
-- ==== Proof.KB.Tile1Chunk.lean ====
/-
  The chunk a landed gather holds: the gather's payload at position `p` is the table of row sums at the word the offset
  piece holds at `p`; the piece is a row piece of the index scratch, the scratch holds the tile's window of the transposed
  index array, and the window's columns start at 512 times the tile's number — so the payload is the tile's chunk.
-/
import proofs.«203338_g27195732918861_cont_9to1_1050_16_alg».proof.Proof.KB.Tile1Mem
import proofs.«203338_g27195732918861_cont_9to1_1050_16_alg».proof.Proof.LibGatherRead
import Idealize.ShloMosaic.Lib.Writes

noncomputable section

namespace Cert.Proof.KB

open Cert.Kernel Cert.Kernel.Gen

open Idealize.ShloMosaic Idealize.ShloMosaic.ValueIdx
open Idealize.ShloMosaic.SparseCore (S V T)

variable {F : FTy → Type}

/-- A rank-1 index matched with the [1, N] shape of as many elements: row 0, the same column. -/
theorem reshape_1xN {N : ℕ} (h : (⟨1, ![N]⟩ : Shape).numel = (⟨2, ![1, N]⟩ : Shape).numel) (x : (⟨1, ![N]⟩ : Shape).Idx) :
    Shape.reshapeEquiv h x = (ix2 (0 : Fin 1) (⟨(x 0).val, (x 0).isLt⟩ : Fin N) : (⟨2, ![1, N]⟩ : Shape).Idx) :=
  Shape.reshapeEquiv_eq_of_rowMajor h (by
    rw [Shape.rowMajor_val_two, Shape.rowMajor_val_one]
    show 0 * N + (x 0).val = (x 0).val
    omega)

/-- Two indices of the transposed index array with equal coordinates are one index. -/
theorem idx2_ext {n0 n1 : ℕ} (i j : (⟨2, ![n0, n1]⟩ : Shape).Idx) (h0 : (i 0).val = (j 0).val) (h1 : (i 1).val = (j 1).val) : i = j := by
  funext a
  match a with
  | ⟨0, _⟩ => exact Fin.ext h0
  | ⟨1, _⟩ => exact Fin.ext h1

/-- Element `x` of a row piece of the index scratch sits at the piece's row and at its first column plus `x`. -/
theorem offM_emb_val (off : Fin 2 → ℕ) (hb : ∀ a, off a + S1x128.size a ≤ S26x512.size a) (x : S128.Idx) :
    (((offM off hb).view.emb x) 0).val = off 0 ∧ (((offM off hb).view.emb x) 1).val = off 1 + (x 0).val := by
  have e : (offM off hb).view.emb x
      = (Rect.unit (s := S26x512) off S1x128.size hb).emb (Shape.reshapeEquiv squeezes_S1x128_S128.numel_eq x) := rfl
  have er : Shape.reshapeEquiv squeezes_S1x128_S128.numel_eq x
      = (ix2 (0 : Fin 1) (⟨(x 0).val, (x 0).isLt⟩ : Fin 128) : S1x128.Idx) := reshape_1xN _ x
  rw [e, er]
  exact ⟨by show off 0 + 1 * 0 = off 0; omega, by show off 1 + 1 * (x 0).val = off 1 + (x 0).val; omega⟩

/-- Element `y` of the tile's window of the transposed index array sits at the same field and at the window's first
    column plus its own. -/
theorem idxWinM_emb_val (L : grid2.Coords) (y : S26x512.Idx) :
    (((idxWinM L).view.emb y) 0).val = (y 0).val
      ∧ (((idxWinM L).view.emb y) 1).val = 1024 * (L 1).val + 512 * (L 0).val + (y 1).val := by
  have e : (idxWinM L).view.emb y = (Rect.unit (s := S26x16384) (k2_off1 L) S26x512.size (k2_off1_inb L)).emb y := rfl
  have e0 : k2_off1 L 0 = 0 := congrFun (k2_off1_eq L) 0
  have e1 : k2_off1 L 1 = 1024 * (L 1).val + 512 * (L 0).val := congrFun (k2_off1_eq L) 1
  rw [e]
  exact ⟨by show k2_off1 L 0 + 1 * (y 0).val = (y 0).val; omega,
    by show k2_off1 L 1 + 1 * (y 1).val = 1024 * (L 1).val + 512 * (L 0).val + (y 1).val; omega⟩

/-- The table of row sums as the gathers slice it is the table. -/
theorem srcM_emb (y : S1000000.Idx) : srcM.view.emb y = y := by
  have e : srcM.view.emb y = (Rect.unit (s := S1000000) ![0] S1000000.size inb_S1000000_S1000000_0).emb y := rfl
  rw [e]
  funext a
  revert a
  refine Fin.forall_fin_one.mpr (Fin.ext ?_)
  show 0 + 1 * (y 0).val = (y 0).val
  omega

/-- THE CHUNK A LANDED GATHER HOLDS: the payload of the gather of chunk `8 k + b` is that chunk of the tile. -/
theorem gather_chunk {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) :
    SparseCore.gatherPayload gathers_S1000000_S128 (srcM.view.read (Elt F) R)
        (SparseCore.rows ((offM (offJ b k) (offJ_inb b k)).view.read (Elt F) fo) rfl (hin _ _))
      = chunkBuf I R (wid2 L).val (8 * k.val + b.val) := by
  funext x
  obtain ⟨p, rfl⟩ : ∃ p, x = ix1 p := ⟨x 0, eq_ix1 x⟩
  refine (LibGatherRead.gather_read (F := F) gathers_S1000000_S128 (srcM.view.read (Elt F) R)
    ((offM (offJ b k) (offJ_inb b k)).view.read (Elt F) fo) rfl (hin _ _) p).trans ?_
  -- the table through its slice is the table
  have hs : ∀ y : S1000000.Idx, srcM.view.read (Elt F) R y = R y := fun y => by
    rw [View.read_apply, srcM_emb]; rfl
  rw [hs]
  -- the word the piece holds at p
  have h1 : scr0 L I fb0 = idxWin L I := View.write_whole_univ _ _ _
  have hw : (offM (offJ b k) (offJ_inb b k)).view.read (Elt F) fo (ix1 p)
      = I ((idxWinM L).view.emb ((offM (offJ b k) (offJ_inb b k)).view.emb (ix1 p))) := by
    rw [hfo, h1]; rfl
  have hk : k.val < 13 := k.isLt
  have hbb : b.val < 8 := b.isLt
  have hp : p.val < 128 := p.isLt
  have hL0 : (L 0).val < 2 := (L 0).isLt
  have hL1 : (L 1).val < 16 := (L 1).isLt
  obtain ⟨eo0, eo1⟩ := offM_emb_val (offJ b k) (offJ_inb b k) (ix1 p)
  obtain ⟨ew0, ew1⟩ := idxWinM_emb_val L ((offM (offJ b k) (offJ_inb b k)).view.emb (ix1 p))
  have hj0 : offJ b k 0 = (8 * k.val + b.val) / 4 := rfl
  have hj1 : offJ b k 1 = ((8 * k.val + b.val) % 4) * 128 := rfl
  have hidx : (idxWinM L).view.emb ((offM (offJ b k) (offJ_inb b k)).view.emb (ix1 p))
      = (ix2 (⟨((8 * k.val + b.val) / 4) % 26, Nat.mod_lt _ (by norm_num)⟩ : Fin 26)
          (⟨((wid2 L).val * 512 + ((8 * k.val + b.val) % 4) * 128 + p.val) % 16384, Nat.mod_lt _ (by norm_num)⟩ : Fin 16384) : S26x16384.Idx) := by
    refine idx2_ext _ _ ?_ ?_
    · show _ = ((8 * k.val + b.val) / 4) % 26
      rw [ew0, eo0, hj0]; omega
    · show _ = ((wid2 L).val * 512 + ((8 * k.val + b.val) % 4) * 128 + p.val) % 16384
      rw [ew1, eo1, hj1]
      show _ = ((2 * (L 1).val + (L 0).val) * 512 + ((8 * k.val + b.val) % 4) * 128 + p.val) % 16384
      show 1024 * (L 1).val + 512 * (L 0).val + ((8 * k.val + b.val) % 4 * 128 + p.val) = _
      omega
  show R (ix1 ⟨((offM (offJ b k) (offJ_inb b k)).view.read (Elt F) fo (ix1 p)).toNat, _⟩) = chunkWord I R (wid2 L).val (8 * k.val + b.val) p.val
  unfold chunkWord
  refine congrArg R (congrArg ix1 (Fin.ext ?_))
  show ((offM (offJ b k) (offJ_inb b k)).view.read (Elt F) fo (ix1 p)).toNat = _ % 1000000
  rw [hw, hidx, Nat.mod_eq_of_lt (hI _)]

/-! ## The buffer after the gather has landed -/

/-- Buffer 1 written whole with the gather's payload, over any contents, holds the chunk. -/
theorem landed_chunk1 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) (C : (Memref.whole cc2_scratch1 : Memref sig .scVector .vmem S128 .f32).view.ty.Contents (Elt F)) :
    (Memref.whole cc2_scratch1 : Memref sig .scVector .vmem S128 .f32).view.writes (Elt F) C
        [⟨Rect.whole S128, SparseCore.gatherPayload gathers_S1000000_S128 (srcM.view.read (Elt F) R)
          (SparseCore.rows ((offM (offJ b k) (offJ_inb b k)).view.read (Elt F) fo) rfl (hin _ _))⟩]
      = chunkBuf I R (wid2 L).val (8 * k.val + b.val) :=
  (LibGatherRead.writes_whole (Elt F) cc2_scratch1 C _).trans (gather_chunk L I R fb0 fo hfo hI hin b k)

/-- Buffer 2 written whole with the gather's payload, over any contents, holds the chunk. -/
theorem landed_chunk2 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) (C : (Memref.whole cc2_scratch2 : Memref sig .scVector .vmem S128 .f32).view.ty.Contents (Elt F)) :
    (Memref.whole cc2_scratch2 : Memref sig .scVector .vmem S128 .f32).view.writes (Elt F) C
        [⟨Rect.whole S128, SparseCore.gatherPayload gathers_S1000000_S128 (srcM.view.read (Elt F) R)
          (SparseCore.rows ((offM (offJ b k) (offJ_inb b k)).view.read (Elt F) fo) rfl (hin _ _))⟩]
      = chunkBuf I R (wid2 L).val (8 * k.val + b.val) :=
  (LibGatherRead.writes_whole (Elt F) cc2_scratch2 C _).trans (gather_chunk L I R fb0 fo hfo hI hin b k)

/-- Buffer 3 written whole with the gather's payload, over any contents, holds the chunk. -/
theorem landed_chunk3 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) (C : (Memref.whole cc2_scratch3 : Memref sig .scVector .vmem S128 .f32).view.ty.Contents (Elt F)) :
    (Memref.whole cc2_scratch3 : Memref sig .scVector .vmem S128 .f32).view.writes (Elt F) C
        [⟨Rect.whole S128, SparseCore.gatherPayload gathers_S1000000_S128 (srcM.view.read (Elt F) R)
          (SparseCore.rows ((offM (offJ b k) (offJ_inb b k)).view.read (Elt F) fo) rfl (hin _ _))⟩]
      = chunkBuf I R (wid2 L).val (8 * k.val + b.val) :=
  (LibGatherRead.writes_whole (Elt F) cc2_scratch3 C _).trans (gather_chunk L I R fb0 fo hfo hI hin b k)

/-- Buffer 4 written whole with the gather's payload, over any contents, holds the chunk. -/
theorem landed_chunk4 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) (C : (Memref.whole cc2_scratch4 : Memref sig .scVector .vmem S128 .f32).view.ty.Contents (Elt F)) :
    (Memref.whole cc2_scratch4 : Memref sig .scVector .vmem S128 .f32).view.writes (Elt F) C
        [⟨Rect.whole S128, SparseCore.gatherPayload gathers_S1000000_S128 (srcM.view.read (Elt F) R)
          (SparseCore.rows ((offM (offJ b k) (offJ_inb b k)).view.read (Elt F) fo) rfl (hin _ _))⟩]
      = chunkBuf I R (wid2 L).val (8 * k.val + b.val) :=
  (LibGatherRead.writes_whole (Elt F) cc2_scratch4 C _).trans (gather_chunk L I R fb0 fo hfo hI hin b k)

/-- Buffer 5 written whole with the gather's payload, over any contents, holds the chunk. -/
theorem landed_chunk5 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) (C : (Memref.whole cc2_scratch5 : Memref sig .scVector .vmem S128 .f32).view.ty.Contents (Elt F)) :
    (Memref.whole cc2_scratch5 : Memref sig .scVector .vmem S128 .f32).view.writes (Elt F) C
        [⟨Rect.whole S128, SparseCore.gatherPayload gathers_S1000000_S128 (srcM.view.read (Elt F) R)
          (SparseCore.rows ((offM (offJ b k) (offJ_inb b k)).view.read (Elt F) fo) rfl (hin _ _))⟩]
      = chunkBuf I R (wid2 L).val (8 * k.val + b.val) :=
  (LibGatherRead.writes_whole (Elt F) cc2_scratch5 C _).trans (gather_chunk L I R fb0 fo hfo hI hin b k)

/-- Buffer 6 written whole with the gather's payload, over any contents, holds the chunk. -/
theorem landed_chunk6 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) (C : (Memref.whole cc2_scratch6 : Memref sig .scVector .vmem S128 .f32).view.ty.Contents (Elt F)) :
    (Memref.whole cc2_scratch6 : Memref sig .scVector .vmem S128 .f32).view.writes (Elt F) C
        [⟨Rect.whole S128, SparseCore.gatherPayload gathers_S1000000_S128 (srcM.view.read (Elt F) R)
          (SparseCore.rows ((offM (offJ b k) (offJ_inb b k)).view.read (Elt F) fo) rfl (hin _ _))⟩]
      = chunkBuf I R (wid2 L).val (8 * k.val + b.val) :=
  (LibGatherRead.writes_whole (Elt F) cc2_scratch6 C _).trans (gather_chunk L I R fb0 fo hfo hI hin b k)

/-- Buffer 7 written whole with the gather's payload, over any contents, holds the chunk. -/
theorem landed_chunk7 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) (C : (Memref.whole cc2_scratch7 : Memref sig .scVector .vmem S128 .f32).view.ty.Contents (Elt F)) :
    (Memref.whole cc2_scratch7 : Memref sig .scVector .vmem S128 .f32).view.writes (Elt F) C
        [⟨Rect.whole S128, SparseCore.gatherPayload gathers_S1000000_S128 (srcM.view.read (Elt F) R)
          (SparseCore.rows ((offM (offJ b k) (offJ_inb b k)).view.read (Elt F) fo) rfl (hin _ _))⟩]
      = chunkBuf I R (wid2 L).val (8 * k.val + b.val) :=
  (LibGatherRead.writes_whole (Elt F) cc2_scratch7 C _).trans (gather_chunk L I R fb0 fo hfo hI hin b k)

/-- Buffer 8 written whole with the gather's payload, over any contents, holds the chunk. -/
theorem landed_chunk8 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx),
      (View.read (Elt F) (offM off hb).view fo x).toNat < 1000000)
    (b : Fin 8) (k : Fin 13) (C : (Memref.whole cc2_scratch8 : Memref sig .scVector .vmem S128 .f32).view.ty.Contents (Elt F)) :
    (Memref.whole cc2_scratch8 : Memref sig .scVector .vmem S128 .f32).view.writes (Elt F) C
        [⟨Rect.whole S128, SparseCore.gatherPayload gathers_S1000000_S128 (srcM.view.read (Elt F) R)
          (SparseCore.rows ((offM (offJ b k) (offJ_inb b k)).view.read (Elt F) fo) rfl (hin _ _))⟩]
      = chunkBuf I R (wid2 L).val (8 * k.val + b.val) :=
  (LibGatherRead.writes_whole (Elt F) cc2_scratch8 C _).trans (gather_chunk L I R fb0 fo hfo hI hin b k)

end Cert.Proof.KB

end
-- ==== Proof.KB.Tile1Row.lean ====
/-
  The last copy of the second SparseCore call: the tile's 16-lane result vector is copied onto the tile's row of the call's
  [32, 16] result; on that row the result then is the call's value. And the result scratch read back after its store.
-/
import proofs.«203338_g27195732918861_cont_9to1_1050_16_alg».proof.Proof.KB.Tile1Mem
import proofs.«203338_g27195732918861_cont_9to1_1050_16_alg».proof.Proof.KB.Sets
import Idealize.ShloMosaic.Lib.Writes

noncomputable section

namespace Cert.Proof.KB

open Cert.Kernel Cert.Kernel.Gen

open Idealize.ShloMosaic Idealize.ShloMosaic.ValueIdx
open Idealize.ShloMosaic.SparseCore (S V T)

variable {F : FTy → Type} [FloatOps F]

/-- A rank-1 index matched with the [1, N] shape of as many elements: row 0, the same column. -/
theorem reshape_1xN' {N : ℕ} (h : (⟨1, ![N]⟩ : Shape).numel = (⟨2, ![1, N]⟩ : Shape).numel) (x : (⟨1, ![N]⟩ : Shape).Idx) :
    Shape.reshapeEquiv h x = (ix2 (0 : Fin 1) (⟨(x 0).val, (x 0).isLt⟩ : Fin N) : (⟨2, ![1, N]⟩ : Shape).Idx) :=
  Shape.reshapeEquiv_eq_of_rowMajor h (by
    rw [Shape.rowMajor_val_two, Shape.rowMajor_val_one]
    show 0 * N + (x 0).val = (x 0).val
    omega)

/-- Lane `y` of the tile's row sits at row `wid2 L`, column `y` of the [32, 16] result. -/
theorem row1M_emb_val (L : grid2.Coords) (y : S16.Idx) :
    (((row1M L).view.emb y) 0).val = (wid2 L).val ∧ (((row1M L).view.emb y) 1).val = (y 0).val := by
  have e : (row1M L).view.emb y
      = (Rect.unit (s := S32x16) (k2_off11 L) S1x16.size (k2_off11_inb L)).emb (Shape.reshapeEquiv squeezes_S1x16_S16.numel_eq y) := rfl
  have e0 : k2_off11 L 0 = 2 * (L 1).val + (L 0).val := congrFun (k2_off11_eq L) 0
  have e1 : k2_off11 L 1 = 0 := congrFun (k2_off11_eq L) 1
  have er : Shape.reshapeEquiv squeezes_S1x16_S16.numel_eq y
      = (ix2 (0 : Fin 1) (⟨(y 0).val, (y 0).isLt⟩ : Fin 16) : S1x16.Idx) := reshape_1xN' _ y
  rw [e, er]
  exact ⟨by show k2_off11 L 0 + 1 * 0 = (wid2 L).val; show k2_off11 L 0 + 1 * 0 = 2 * (L 1).val + (L 0).val; omega,
    by show k2_off11 L 1 + 1 * (y 0).val = (y 0).val; omega⟩

/-- THE LAST COPY: the tile's row written whole with the final accumulator's payload is, on the row, the call's value. -/
theorem row_final {d : Dev nD} (L : grid2.Coords) (I : Buf (Elt F) (itLoc d)) (R : Buf (Elt F) (raLoc d)) (f0 : Buf (Elt F) (ptLoc d))
    (P : S16.Idx → Elt F .f32) (acc : FVec F S16 .f32) (hP : ∀ y, P y = k2_pay3 acc y) (hacc : acc = accAt I R (wid2 L).val 104) :
    ∀ idx ∈ outRow1 L, ((row1M L).view.writes (Elt F) f0 [⟨Rect.whole S16, P⟩]) idx = tile1Val I R idx := by
  intro idx hi
  obtain ⟨y, -, rfl⟩ := Finset.mem_map.mp hi
  have key := View.read_writes_cons_emb (Val := Elt F) (row1M L).view f0 (Rect.whole S16) P [] y
  rw [Rect.emb_whole_apply, View.read_apply] at key
  have e1 := eq_of_heq ((cast_heq _ _).symm.trans (heq_of_eq key))
  refine e1.trans ?_
  rw [hP y, hacc]
  obtain ⟨h0, h1⟩ := row1M_emb_val L y
  unfold tile1Val
  rw [h0]
  refine congrArg (k2_pay3 (accAt I R (wid2 L).val 104)) ?_
  funext a
  revert a
  refine Fin.forall_fin_one.mpr (Fin.ext ?_)
  exact h1.symm

/-- The result scratch, stored whole at offset 0 over any contents, reads back the stored vector. -/
theorem scr9_read (fb9 : (Memref.whole cc2_scratch9 : Memref sig .scVector .vmem S16 .f32).view.ty.Contents (Elt F))
    (h : ∀ a, (![0] : Fin 1 → ℕ) a + S16.size a ≤ S16.size a) (v : S16.Idx → Elt F .f32) (y : S16.Idx) :
    ReadAs.same.apply ((Memref.whole cc2_scratch9 : Memref sig .scVector .vmem S16 .f32).view.read (Elt F)
      ((Memref.whole cc2_scratch9 : Memref sig .scVector .vmem S16 .f32).view.writes (Elt F) fb9
        [⟨Rect.unit (s := S16) ![0] S16.size h, v⟩])) y = v y := by
  have he : (Rect.unit (s := S16) ![0] S16.size h).emb y = y := by
    funext a
    revert a
    refine Fin.forall_fin_one.mpr (Fin.ext ?_)
    show 0 + 1 * (y 0).val = (y 0).val
    omega
  rw [ReadAs.apply_same]
  have key := View.read_writes_cons_emb (Val := Elt F) (Memref.whole cc2_scratch9 : Memref sig .scVector .vmem S16 .f32).view fb9
    (Rect.unit (s := S16) ![0] S16.size h) v [] y
  rw [he] at key
  exact key

end Cert.Proof.KB

end
-- ==== Proof.KB.Tile1Body.lean ====
/-
  SparseCore call 1 on one tile, with values: the run of KI/Tile1.lean carrying, in the loop's invariant, the accumulator
  as the left fold over the chunks done so far and each buffer in flight at the chunk it is fetching; the row the tile
  leaves is the [32,16] function of KI/Tile1Val.lean on the row's elements.
-/
import proofs.«203338_g27195732918861_cont_9to1_1050_16_alg».proof.Proof.KB.Tile1
import proofs.«203338_g27195732918861_cont_9to1_1050_16_alg».proof.Proof.KB.Tile1Steps
import proofs.«203338_g27195732918861_cont_9to1_1050_16_alg».proof.Proof.KB.Tile1Chunk
import proofs.«203338_g27195732918861_cont_9to1_1050_16_alg».proof.Proof.KB.Tile1Row

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

omit [FloatOps F] in
theorem landed_at1 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx), (View.read (Elt F) (offM off hb).view fo x).toNat < 1000000)
    (b : Fin 8) (k : Fin 13) (off : Fin 2 → ℕ) (hb : ∀ a, off a + S1x128.size a ≤ S26x512.size a) (e : off = offJ b.val k.val)
    (C : (Memref.whole cc2_scratch1 : Memref sig .scVector .vmem S128 .f32).view.ty.Contents (Elt F)) :
    (Memref.whole cc2_scratch1 : Memref sig .scVector .vmem S128 .f32).view.writes (Elt F) C
        [⟨Rect.whole S128, SparseCore.gatherPayload gathers_S1000000_S128 (srcM.view.read (Elt F) R) (SparseCore.rows ((offM off hb).view.read (Elt F) fo) rfl (hin off hb))⟩]
      = chunkBuf I R (wid2 L).val (8 * k.val + b.val) := by
  subst e
  exact landed_chunk1 L I R fb0 fo hfo hI hin b k C

omit [FloatOps F] in
theorem landed_at2 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx), (View.read (Elt F) (offM off hb).view fo x).toNat < 1000000)
    (b : Fin 8) (k : Fin 13) (off : Fin 2 → ℕ) (hb : ∀ a, off a + S1x128.size a ≤ S26x512.size a) (e : off = offJ b.val k.val)
    (C : (Memref.whole cc2_scratch2 : Memref sig .scVector .vmem S128 .f32).view.ty.Contents (Elt F)) :
    (Memref.whole cc2_scratch2 : Memref sig .scVector .vmem S128 .f32).view.writes (Elt F) C
        [⟨Rect.whole S128, SparseCore.gatherPayload gathers_S1000000_S128 (srcM.view.read (Elt F) R) (SparseCore.rows ((offM off hb).view.read (Elt F) fo) rfl (hin off hb))⟩]
      = chunkBuf I R (wid2 L).val (8 * k.val + b.val) := by
  subst e
  exact landed_chunk2 L I R fb0 fo hfo hI hin b k C

omit [FloatOps F] in
theorem landed_at3 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx), (View.read (Elt F) (offM off hb).view fo x).toNat < 1000000)
    (b : Fin 8) (k : Fin 13) (off : Fin 2 → ℕ) (hb : ∀ a, off a + S1x128.size a ≤ S26x512.size a) (e : off = offJ b.val k.val)
    (C : (Memref.whole cc2_scratch3 : Memref sig .scVector .vmem S128 .f32).view.ty.Contents (Elt F)) :
    (Memref.whole cc2_scratch3 : Memref sig .scVector .vmem S128 .f32).view.writes (Elt F) C
        [⟨Rect.whole S128, SparseCore.gatherPayload gathers_S1000000_S128 (srcM.view.read (Elt F) R) (SparseCore.rows ((offM off hb).view.read (Elt F) fo) rfl (hin off hb))⟩]
      = chunkBuf I R (wid2 L).val (8 * k.val + b.val) := by
  subst e
  exact landed_chunk3 L I R fb0 fo hfo hI hin b k C

omit [FloatOps F] in
theorem landed_at4 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx), (View.read (Elt F) (offM off hb).view fo x).toNat < 1000000)
    (b : Fin 8) (k : Fin 13) (off : Fin 2 → ℕ) (hb : ∀ a, off a + S1x128.size a ≤ S26x512.size a) (e : off = offJ b.val k.val)
    (C : (Memref.whole cc2_scratch4 : Memref sig .scVector .vmem S128 .f32).view.ty.Contents (Elt F)) :
    (Memref.whole cc2_scratch4 : Memref sig .scVector .vmem S128 .f32).view.writes (Elt F) C
        [⟨Rect.whole S128, SparseCore.gatherPayload gathers_S1000000_S128 (srcM.view.read (Elt F) R) (SparseCore.rows ((offM off hb).view.read (Elt F) fo) rfl (hin off hb))⟩]
      = chunkBuf I R (wid2 L).val (8 * k.val + b.val) := by
  subst e
  exact landed_chunk4 L I R fb0 fo hfo hI hin b k C

omit [FloatOps F] in
theorem landed_at5 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx), (View.read (Elt F) (offM off hb).view fo x).toNat < 1000000)
    (b : Fin 8) (k : Fin 13) (off : Fin 2 → ℕ) (hb : ∀ a, off a + S1x128.size a ≤ S26x512.size a) (e : off = offJ b.val k.val)
    (C : (Memref.whole cc2_scratch5 : Memref sig .scVector .vmem S128 .f32).view.ty.Contents (Elt F)) :
    (Memref.whole cc2_scratch5 : Memref sig .scVector .vmem S128 .f32).view.writes (Elt F) C
        [⟨Rect.whole S128, SparseCore.gatherPayload gathers_S1000000_S128 (srcM.view.read (Elt F) R) (SparseCore.rows ((offM off hb).view.read (Elt F) fo) rfl (hin off hb))⟩]
      = chunkBuf I R (wid2 L).val (8 * k.val + b.val) := by
  subst e
  exact landed_chunk5 L I R fb0 fo hfo hI hin b k C

omit [FloatOps F] in
theorem landed_at6 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx), (View.read (Elt F) (offM off hb).view fo x).toNat < 1000000)
    (b : Fin 8) (k : Fin 13) (off : Fin 2 → ℕ) (hb : ∀ a, off a + S1x128.size a ≤ S26x512.size a) (e : off = offJ b.val k.val)
    (C : (Memref.whole cc2_scratch6 : Memref sig .scVector .vmem S128 .f32).view.ty.Contents (Elt F)) :
    (Memref.whole cc2_scratch6 : Memref sig .scVector .vmem S128 .f32).view.writes (Elt F) C
        [⟨Rect.whole S128, SparseCore.gatherPayload gathers_S1000000_S128 (srcM.view.read (Elt F) R) (SparseCore.rows ((offM off hb).view.read (Elt F) fo) rfl (hin off hb))⟩]
      = chunkBuf I R (wid2 L).val (8 * k.val + b.val) := by
  subst e
  exact landed_chunk6 L I R fb0 fo hfo hI hin b k C

omit [FloatOps F] in
theorem landed_at7 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx), (View.read (Elt F) (offM off hb).view fo x).toNat < 1000000)
    (b : Fin 8) (k : Fin 13) (off : Fin 2 → ℕ) (hb : ∀ a, off a + S1x128.size a ≤ S26x512.size a) (e : off = offJ b.val k.val)
    (C : (Memref.whole cc2_scratch7 : Memref sig .scVector .vmem S128 .f32).view.ty.Contents (Elt F)) :
    (Memref.whole cc2_scratch7 : Memref sig .scVector .vmem S128 .f32).view.writes (Elt F) C
        [⟨Rect.whole S128, SparseCore.gatherPayload gathers_S1000000_S128 (srcM.view.read (Elt F) R) (SparseCore.rows ((offM off hb).view.read (Elt F) fo) rfl (hin off hb))⟩]
      = chunkBuf I R (wid2 L).val (8 * k.val + b.val) := by
  subst e
  exact landed_chunk7 L I R fb0 fo hfo hI hin b k C

omit [FloatOps F] in
theorem landed_at8 {d : Dev nD} (L : grid2.Coords) (I : Buf (Elt F) (itLoc d)) (R : Buf (Elt F) (raLoc d))
    (fb0 fo : Buf (Elt F) ((thr1 d L).loc cc2_scratch0)) (hfo : fo = scr0 L I fb0) (hI : ∀ i, (I i).toNat < 1000000)
    (hin : ∀ (off : Fin 2 → ℕ) (hb : ∀ a, off a + S1x128.size a ≤ S26x512.size a) (x : S128.Idx), (View.read (Elt F) (offM off hb).view fo x).toNat < 1000000)
    (b : Fin 8) (k : Fin 13) (off : Fin 2 → ℕ) (hb : ∀ a, off a + S1x128.size a ≤ S26x512.size a) (e : off = offJ b.val k.val)
    (C : (Memref.whole cc2_scratch8 : Memref sig .scVector .vmem S128 .f32).view.ty.Contents (Elt F)) :
    (Memref.whole cc2_scratch8 : Memref sig .scVector .vmem S128 .f32).view.writes (Elt F) C
        [⟨Rect.whole S128, SparseCore.gatherPayload gathers_S1000000_S128 (srcM.view.read (Elt F) R) (SparseCore.rows ((offM off hb).view.read (Elt F) fo) rfl (hin off hb))⟩]
      = chunkBuf I R (wid2 L).val (8 * k.val + b.val) := by
  subst e
  exact landed_chunk8 L I R fb0 fo hfo hI hin b k C
theorem step2_chunk' {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay9 acc (shapeCast S16 ((Memref.whole cc2_scratch3 : Memref sig .scVector .vmem S128 .f32).view.readAt (Elt F) (Rect.unit (s := S128) ![0] S16.size h0).toLoadRect (chunkBuf I R w j)) shapeCasts_S16_S16)
        (shapeCast S16 ((Memref.whole cc2_scratch3 : Memref sig .scVector .vmem S128 .f32).view.readAt (Elt F) (Rect.unit (s := S128) ![16] S16.size h1).toLoadRect (chunkBuf I R w j)) shapeCasts_S16_S16)
        ((Memref.whole cc2_scratch3 : Memref sig .scVector .vmem S128 .f32).view.readAt (Elt F) (Rect.unit (s := S128) ![32] S16.size h2).toLoadRect (chunkBuf I R w j))
        ((Memref.whole cc2_scratch3 : Memref sig .scVector .vmem S128 .f32).view.readAt (Elt F) (Rect.unit (s := S128) ![48] S16.size h3).toLoadRect (chunkBuf I R w j))
        ((Memref.whole cc2_scratch3 : Memref sig .scVector .vmem S128 .f32).view.readAt (Elt F) (Rect.unit (s := S128) ![64] S16.size h4).toLoadRect (chunkBuf I R w j))
        ((Memref.whole cc2_scratch3 : Memref sig .scVector .vmem S128 .f32).view.readAt (Elt F) (Rect.unit (s := S128) ![80] S16.size h5).toLoadRect (chunkBuf I R w j))
        ((Memref.whole cc2_scratch3 : Memref sig .scVector .vmem S128 .f32).view.readAt (Elt F) (Rect.unit (s := S128) ![96] S16.size h6).toLoadRect (chunkBuf I R w j))
        ((Memref.whole cc2_scratch3 : Memref sig .scVector .vmem S128 .f32).view.readAt (Elt F) (Rect.unit (s := S128) ![112] S16.size h7).toLoadRect (chunkBuf I R w j))
      = addf acc (chunkSum I R w j) :=
  step2_chunk I R w j acc h0 h1 h2 h3 h4 h5 h6 h7

theorem step4_chunk' {d : Dev nD} (I : Buf (Elt F) (itLoc d)) (R : Buf (Elt F) (raLoc d)) (w j : ℕ) (acc : FVec F S16 .f32)
    (h0 : ∀ a, (![0] : Fin 1 → ℕ) a + S16.size a ≤ S128.size a) (h1 : ∀ a, (![16] : Fin 1 → ℕ) a + S16.size a ≤ S128.size a) (h2 : ∀ a, (![32] : Fin 1 → ℕ) a + S16.size a ≤ S128.size a) (h3 : ∀ a, (![48] : Fin 1 → ℕ) a + S16.size a ≤ S128.size a) (h4 : ∀ a, (![64] : Fin 1 → ℕ) a + S16.size a ≤ S128.size a) (h5 : ∀ a, (![80] : Fin 1 → ℕ) a + S16.size a ≤ S128.size a) (h6 : ∀ a, (![96] : Fin 1 → ℕ) a + S16.size a ≤ S128.size a) (h7 : ∀ a, (![112] : Fin 1 → ℕ) a + S16.size a ≤ S128.size a) :
    k2_pay12 acc (shapeCast S16 ((Memref.whole cc2_scratch5 : Memref sig .scVector .vmem S128 .f32).view.readAt (Elt F) (Rect.unit (s := S128) ![0] S16.size h0).toLoadRect (chunkBuf I R w j)) shapeCasts_S16_S16)
        ((Memref.whole cc2_scratch5 : Memref sig .scVector .vmem S128 .f32).view.readAt (Elt F) (Rect.unit (s := S128) ![16] S16.size h1).toLoadRect (chunkBuf I R w j))
        ((Memref.whole cc2_scratch5 : Memref sig .scVector .vmem S128 .f32).view.readAt (Elt F) (Rect.unit (s := S128) ![32] S16.size h2).toLoadRect (chunkBuf I R w j))
        ((Memref.whole cc2_scratch5 : Memref sig .scVector .vmem S128 .f32).view.readAt (Elt F) (Rect.unit (s := S128) ![48] S16.size h3).toLoadRect (chunkBuf I R w j))
        ((Memref.whole cc2_scratch5 : Memref sig .scVector .vmem S128 .f32).view.readAt (Elt F) (Rect.unit (s := S128) ![64] S16.size h4).toLoadRect (chunkBuf I R w j))
        ((Memref.whole cc2_scratch5 : Memref sig .scVector .vmem S128 .f32).view.readAt (Elt F) (Rect.unit (s := S128) ![80] S16.size h5).toLoadRect (chunkBuf I R w j))
        ((Memref.whole cc2_scratch5 : Memref sig .scVector .vmem S128 .f32).view.readAt (Elt F) (Rect.unit (s := S128) ![96] S16.size h6).toLoadRect (chunkBuf I R w j))
        ((Memref.whole cc2_scratch5 : Memref sig .scVector .vmem S128 .f32).view.readAt (Elt F) (Rect.unit (s := S128) ![112] S16.size h7).toLoadRect (chunkBuf I R w j))
      = addf acc (chunkSum I R w j) :=
  step4_chunk I R w j acc h0 h1 h2 h3 h4 h5 h6 h7

/-! ## The invariant with values -/

/-- Before trip `k`: the accumulator is the fold over the first `8 k` chunks; buffer `b`'s gather in flight delivers chunk `8 k + b`. -/
def inv1v (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (k : ℕ) (acc : FVec F S16 .f32) : sProp 𝕄 :=
  iprop(⌜acc = accAt I R (wid2 L).val (8 * k)⌝ ∗ Transfers.MayWaits (thr1 d L) (none : HIx 2) O
    ∗ (if h : k < 13 then
        iprop((∃ C, ⌜C = chunkBuf I R (wid2 L).val (8 * k + 0)⌝ ∗ slotF d L I R fb0 (Memref.whole cc2_scratch1 : Memref sig .scVector .vmem S128 .f32) cc2_scratch10.sem (Transfers.shareTokN q 0) (Transfers.shareTokN fullShare 0) (offJ 0 k) (offJ_inb ⟨0, by decide⟩ ⟨k, h⟩) C)
          ∗ (∃ C, ⌜C = chunkBuf I R (wid2 L).val (8 * k + 1)⌝ ∗ slotF d L I R fb0 (Memref.whole cc2_scratch2 : Memref sig .scVector .vmem S128 .f32) cc2_scratch11.sem (Transfers.shareTokN q 1) (Transfers.shareTokN fullShare 1) (offJ 1 k) (offJ_inb ⟨1, by decide⟩ ⟨k, h⟩) C)
          ∗ (∃ C, ⌜C = chunkBuf I R (wid2 L).val (8 * k + 2)⌝ ∗ slotF d L I R fb0 (Memref.whole cc2_scratch3 : Memref sig .scVector .vmem S128 .f32) cc2_scratch12.sem (Transfers.shareTokN q 2) (Transfers.shareTokN fullShare 2) (offJ 2 k) (offJ_inb ⟨2, by decide⟩ ⟨k, h⟩) C)
          ∗ (∃ C, ⌜C = chunkBuf I R (wid2 L).val (8 * k + 3)⌝ ∗ slotF d L I R fb0 (Memref.whole cc2_scratch4 : Memref sig .scVector .vmem S128 .f32) cc2_scratch13.sem (Transfers.shareTokN q 3) (Transfers.shareTokN fullShare 3) (offJ 3 k) (offJ_inb ⟨3, by decide⟩ ⟨k, h⟩) C)
          ∗ (∃ C, ⌜C = chunkBuf I R (wid2 L).val (8 * k + 4)⌝ ∗ slotF d L I R fb0 (Memref.whole cc2_scratch5 : Memref sig .scVector .vmem S128 .f32) cc2_scratch14.sem (Transfers.shareTokN q 4) (Transfers.shareTokN fullShare 4) (offJ 4 k) (offJ_inb ⟨4, by decide⟩ ⟨k, h⟩) C)
          ∗ (∃ C, ⌜C = chunkBuf I R (wid2 L).val (8 * k + 5)⌝ ∗ slotF d L I R fb0 (Memref.whole cc2_scratch6 : Memref sig .scVector .vmem S128 .f32) cc2_scratch15.sem (Transfers.shareTokN q 5) (Transfers.shareTokN fullShare 5) (offJ 5 k) (offJ_inb ⟨5, by decide⟩ ⟨k, h⟩) C)
          ∗ (∃ C, ⌜C = chunkBuf I R (wid2 L).val (8 * k + 6)⌝ ∗ slotF d L I R fb0 (Memref.whole cc2_scratch7 : Memref sig .scVector .vmem S128 .f32) cc2_scratch16.sem (Transfers.shareTokN q 6) (Transfers.shareTokN fullShare 6) (offJ 6 k) (offJ_inb ⟨6, by decide⟩ ⟨k, h⟩) C)
          ∗ (∃ C, ⌜C = chunkBuf I R (wid2 L).val (8 * k + 7)⌝ ∗ slotF d L I R fb0 (Memref.whole cc2_scratch8 : Memref sig .scVector .vmem S128 .f32) cc2_scratch17.sem (Transfers.shareDrop q 7) (Transfers.shareDrop fullShare 7) (offJ 7 k) (offJ_inb ⟨7, by decide⟩ ⟨k, h⟩) C))
      else
        iprop(doneF d L I R fb0 (Memref.whole cc2_scratch1 : Memref sig .scVector .vmem S128 .f32) cc2_scratch10.sem (Transfers.shareTokN q 0) (Transfers.shareTokN fullShare 0)
          ∗ doneF d L I R fb0 (Memref.whole cc2_scratch2 : Memref sig .scVector .vmem S128 .f32) cc2_scratch11.sem (Transfers.shareTokN q 1) (Transfers.shareTokN fullShare 1)
          ∗ doneF d L I R fb0 (Memref.whole cc2_scratch3 : Memref sig .scVector .vmem S128 .f32) cc2_scratch12.sem (Transfers.shareTokN q 2) (Transfers.shareTokN fullShare 2)
          ∗ doneF d L I R fb0 (Memref.whole cc2_scratch4 : Memref sig .scVector .vmem S128 .f32) cc2_scratch13.sem (Transfers.shareTokN q 3) (Transfers.shareTokN fullShare 3)
          ∗ doneF d L I R fb0 (Memref.whole cc2_scratch5 : Memref sig .scVector .vmem S128 .f32) cc2_scratch14.sem (Transfers.shareTokN q 4) (Transfers.shareTokN fullShare 4)
          ∗ doneF d L I R fb0 (Memref.whole cc2_scratch6 : Memref sig .scVector .vmem S128 .f32) cc2_scratch15.sem (Transfers.shareTokN q 5) (Transfers.shareTokN fullShare 5)
          ∗ doneF d L I R fb0 (Memref.whole cc2_scratch7 : Memref sig .scVector .vmem S128 .f32) cc2_scratch16.sem (Transfers.shareTokN q 6) (Transfers.shareTokN fullShare 6)
          ∗ doneF d L I R fb0 (Memref.whole cc2_scratch8 : Memref sig .scVector .vmem S128 .f32) cc2_scratch17.sem (Transfers.shareDrop q 7) (Transfers.shareDrop fullShare 7)))
    ∗ ∃ W', ⌜∀ p ∈ W', p ∈ W ∨ p.2 = none⌝ ∗ owes (thr1 d L) O W')

theorem inv1v_pos (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (k : ℕ) (acc : FVec F S16 .f32) (h : k < 13) :
    inv1v d L O W q I R fb0 k acc
      = iprop(⌜acc = accAt I R (wid2 L).val (8 * k)⌝ ∗ Transfers.MayWaits (thr1 d L) (none : HIx 2) O
        ∗ ((∃ C, ⌜C = chunkBuf I R (wid2 L).val (8 * k + 0)⌝ ∗ slotF d L I R fb0 (Memref.whole cc2_scratch1 : Memref sig .scVector .vmem S128 .f32) cc2_scratch10.sem (Transfers.shareTokN q 0) (Transfers.shareTokN fullShare 0) (offJ 0 k) (offJ_inb ⟨0, by decide⟩ ⟨k, h⟩) C)
          ∗ (∃ C, ⌜C = chunkBuf I R (wid2 L).val (8 * k + 1)⌝ ∗ slotF d L I R fb0 (Memref.whole cc2_scratch2 : Memref sig .scVector .vmem S128 .f32) cc2_scratch11.sem (Transfers.shareTokN q 1) (Transfers.shareTokN fullShare 1) (offJ 1 k) (offJ_inb ⟨1, by decide⟩ ⟨k, h⟩) C)
          ∗ (∃ C, ⌜C = chunkBuf I R (wid2 L).val (8 * k + 2)⌝ ∗ slotF d L I R fb0 (Memref.whole cc2_scratch3 : Memref sig .scVector .vmem S128 .f32) cc2_scratch12.sem (Transfers.shareTokN q 2) (Transfers.shareTokN fullShare 2) (offJ 2 k) (offJ_inb ⟨2, by decide⟩ ⟨k, h⟩) C)
          ∗ (∃ C, ⌜C = chunkBuf I R (wid2 L).val (8 * k + 3)⌝ ∗ slotF d L I R fb0 (Memref.whole cc2_scratch4 : Memref sig .scVector .vmem S128 .f32) cc2_scratch13.sem (Transfers.shareTokN q 3) (Transfers.shareTokN fullShare 3) (offJ 3 k) (offJ_inb ⟨3, by decide⟩ ⟨k, h⟩) C)
          ∗ (∃ C, ⌜C = chunkBuf I R (wid2 L).val (8 * k + 4)⌝ ∗ slotF d L I R fb0 (Memref.whole cc2_scratch5 : Memref sig .scVector .vmem S128 .f32) cc2_scratch14.sem (Transfers.shareTokN q 4) (Transfers.shareTokN fullShare 4) (offJ 4 k) (offJ_inb ⟨4, by decide⟩ ⟨k, h⟩) C)
          ∗ (∃ C, ⌜C = chunkBuf I R (wid2 L).val (8 * k + 5)⌝ ∗ slotF d L I R fb0 (Memref.whole cc2_scratch6 : Memref sig .scVector .vmem S128 .f32) cc2_scratch15.sem (Transfers.shareTokN q 5) (Transfers.shareTokN fullShare 5) (offJ 5 k) (offJ_inb ⟨5, by decide⟩ ⟨k, h⟩) C)
          ∗ (∃ C, ⌜C = chunkBuf I R (wid2 L).val (8 * k + 6)⌝ ∗ slotF d L I R fb0 (Memref.whole cc2_scratch7 : Memref sig .scVector .vmem S128 .f32) cc2_scratch16.sem (Transfers.shareTokN q 6) (Transfers.shareTokN fullShare 6) (offJ 6 k) (offJ_inb ⟨6, by decide⟩ ⟨k, h⟩) C)
          ∗ (∃ C, ⌜C = chunkBuf I R (wid2 L).val (8 * k + 7)⌝ ∗ slotF d L I R fb0 (Memref.whole cc2_scratch8 : Memref sig .scVector .vmem S128 .f32) cc2_scratch17.sem (Transfers.shareDrop q 7) (Transfers.shareDrop fullShare 7) (offJ 7 k) (offJ_inb ⟨7, by decide⟩ ⟨k, h⟩) C))
        ∗ ∃ W', ⌜∀ p ∈ W', p ∈ W ∨ p.2 = none⌝ ∗ owes (thr1 d L) O W') := by
  unfold inv1v; rw [dif_pos h]

theorem inv1v_neg (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (k : ℕ) (acc : FVec F S16 .f32) (h : ¬ k < 13) :
    inv1v d L O W q I R fb0 k acc
      = iprop(⌜acc = accAt I R (wid2 L).val (8 * k)⌝ ∗ Transfers.MayWaits (thr1 d L) (none : HIx 2) O
        ∗ (doneF d L I R fb0 (Memref.whole cc2_scratch1 : Memref sig .scVector .vmem S128 .f32) cc2_scratch10.sem (Transfers.shareTokN q 0) (Transfers.shareTokN fullShare 0)
          ∗ doneF d L I R fb0 (Memref.whole cc2_scratch2 : Memref sig .scVector .vmem S128 .f32) cc2_scratch11.sem (Transfers.shareTokN q 1) (Transfers.shareTokN fullShare 1)
          ∗ doneF d L I R fb0 (Memref.whole cc2_scratch3 : Memref sig .scVector .vmem S128 .f32) cc2_scratch12.sem (Transfers.shareTokN q 2) (Transfers.shareTokN fullShare 2)
          ∗ doneF d L I R fb0 (Memref.whole cc2_scratch4 : Memref sig .scVector .vmem S128 .f32) cc2_scratch13.sem (Transfers.shareTokN q 3) (Transfers.shareTokN fullShare 3)
          ∗ doneF d L I R fb0 (Memref.whole cc2_scratch5 : Memref sig .scVector .vmem S128 .f32) cc2_scratch14.sem (Transfers.shareTokN q 4) (Transfers.shareTokN fullShare 4)
          ∗ doneF d L I R fb0 (Memref.whole cc2_scratch6 : Memref sig .scVector .vmem S128 .f32) cc2_scratch15.sem (Transfers.shareTokN q 5) (Transfers.shareTokN fullShare 5)
          ∗ doneF d L I R fb0 (Memref.whole cc2_scratch7 : Memref sig .scVector .vmem S128 .f32) cc2_scratch16.sem (Transfers.shareTokN q 6) (Transfers.shareTokN fullShare 6)
          ∗ doneF d L I R fb0 (Memref.whole cc2_scratch8 : Memref sig .scVector .vmem S128 .f32) cc2_scratch17.sem (Transfers.shareDrop q 7) (Transfers.shareDrop fullShare 7))
        ∗ ∃ W', ⌜∀ p ∈ W', p ∈ W ∨ p.2 = none⌝ ∗ owes (thr1 d L) O W') := by
  unfold inv1v; rw [dif_neg h]

theorem inv1v_done (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (k : ℕ) (acc : FVec F S16 .f32) (h : ¬ k < 13) :
    inv1v d L O W q I R fb0 k acc
      = iprop(⌜acc = accAt I R (wid2 L).val (8 * k)⌝ ∗ Transfers.MayWaits (thr1 d L) (none : HIx 2) O
        ∗ (((∃ C, (Memref.whole cc2_scratch1 : Memref sig .scVector .vmem S128 .f32).view.loc (thr1 d L) ↦{fullShare} C)
            ∗ ((Memref.whole main_v3_scv : Memref sig .scVector .hbm S1000000 .f32).view.loc (thr1 d L) ↦{Transfers.shareTokN q 0} R)
            ∗ ((Memref.whole cc2_scratch0 : Memref sig .scVector .vmem S26x512 .i32).view.loc (thr1 d L) ↦{Transfers.shareTokN fullShare 0} fb0)
            ∗ semVal (thr1 d L, SemLoc.dma cc2_scratch10.sem) 0)
          ∗ ((∃ C, (Memref.whole cc2_scratch2 : Memref sig .scVector .vmem S128 .f32).view.loc (thr1 d L) ↦{fullShare} C)
            ∗ ((Memref.whole main_v3_scv : Memref sig .scVector .hbm S1000000 .f32).view.loc (thr1 d L) ↦{Transfers.shareTokN q 1} R)
            ∗ ((Memref.whole cc2_scratch0 : Memref sig .scVector .vmem S26x512 .i32).view.loc (thr1 d L) ↦{Transfers.shareTokN fullShare 1} fb0)
            ∗ semVal (thr1 d L, SemLoc.dma cc2_scratch11.sem) 0)
          ∗ ((∃ C, (Memref.whole cc2_scratch3 : Memref sig .scVector .vmem S128 .f32).view.loc (thr1 d L) ↦{fullShare} C)
            ∗ ((Memref.whole main_v3_scv : Memref sig .scVector .hbm S1000000 .f32).view.loc (thr1 d L) ↦{Transfers.shareTokN q 2} R)
            ∗ ((Memref.whole cc2_scratch0 : Memref sig .scVector .vmem S26x512 .i32).view.loc (thr1 d L) ↦{Transfers.shareTokN fullShare 2} fb0)
            ∗ semVal (thr1 d L, SemLoc.dma cc2_scratch12.sem) 0)
          ∗ ((∃ C, (Memref.whole cc2_scratch4 : Memref sig .scVector .vmem S128 .f32).view.loc (thr1 d L) ↦{fullShare} C)
            ∗ ((Memref.whole main_v3_scv : Memref sig .scVector .hbm S1000000 .f32).view.loc (thr1 d L) ↦{Transfers.shareTokN q 3} R)
            ∗ ((Memref.whole cc2_scratch0 : Memref sig .scVector .vmem S26x512 .i32).view.loc (thr1 d L) ↦{Transfers.shareTokN fullShare 3} fb0)
            ∗ semVal (thr1 d L, SemLoc.dma cc2_scratch13.sem) 0)
          ∗ ((∃ C, (Memref.whole cc2_scratch5 : Memref sig .scVector .vmem S128 .f32).view.loc (thr1 d L) ↦{fullShare} C)
            ∗ ((Memref.whole main_v3_scv : Memref sig .scVector .hbm S1000000 .f32).view.loc (thr1 d L) ↦{Transfers.shareTokN q 4} R)
            ∗ ((Memref.whole cc2_scratch0 : Memref sig .scVector .vmem S26x512 .i32).view.loc (thr1 d L) ↦{Transfers.shareTokN fullShare 4} fb0)
            ∗ semVal (thr1 d L, SemLoc.dma cc2_scratch14.sem) 0)
          ∗ ((∃ C, (Memref.whole cc2_scratch6 : Memref sig .scVector .vmem S128 .f32).view.loc (thr1 d L) ↦{fullShare} C)
            ∗ ((Memref.whole main_v3_scv : Memref sig .scVector .hbm S1000000 .f32).view.loc (thr1 d L) ↦{Transfers.shareTokN q 5} R)
            ∗ ((Memref.whole cc2_scratch0 : Memref sig .scVector .vmem S26x512 .i32).view.loc (thr1 d L) ↦{Transfers.shareTokN fullShare 5} fb0)
            ∗ semVal (thr1 d L, SemLoc.dma cc2_scratch15.sem) 0)
          ∗ ((∃ C, (Memref.whole cc2_scratch7 : Memref sig .scVector .vmem S128 .f32).view.loc (thr1 d L) ↦{fullShare} C)
            ∗ ((Memref.whole main_v3_scv : Memref sig .scVector .hbm S1000000 .f32).view.loc (thr1 d L) ↦{Transfers.shareTokN q 6} R)
            ∗ ((Memref.whole cc2_scratch0 : Memref sig .scVector .vmem S26x512 .i32).view.loc (thr1 d L) ↦{Transfers.shareTokN fullShare 6} fb0)
            ∗ semVal (thr1 d L, SemLoc.dma cc2_scratch16.sem) 0)
          ∗ ((∃ C, (Memref.whole cc2_scratch8 : Memref sig .scVector .vmem S128 .f32).view.loc (thr1 d L) ↦{fullShare} C)
            ∗ ((Memref.whole main_v3_scv : Memref sig .scVector .hbm S1000000 .f32).view.loc (thr1 d L) ↦{Transfers.shareDrop q 7} R)
            ∗ ((Memref.whole cc2_scratch0 : Memref sig .scVector .vmem S26x512 .i32).view.loc (thr1 d L) ↦{Transfers.shareDrop fullShare 7} fb0)
            ∗ semVal (thr1 d L, SemLoc.dma cc2_scratch17.sem) 0))
        ∗ ∃ W', ⌜∀ p ∈ W', p ∈ W ∨ p.2 = none⌝ ∗ owes (thr1 d L) O W') := by
  unfold inv1v doneF; rw [dif_neg h]

set_option maxHeartbeats 4000000 in
/-- One trip, with values. -/
theorem trip1v (d : Dev nD) (L : grid2.Coords) (O : CellTallies nD τ sig (HIx 2)) (W : Waits sig (HIx 2)) (q : PosShare TreeShare)
    (I : Buf (Elt F) (itLoc d)) (R : Buf (Elt F) (raLoc d)) (fb0 : Buf (Elt F) ((thr1 d L).loc cc2_scratch0)) (fbx : Buf (Elt F) ((thr1 d L).loc cc2_scratch0)) (hfo : fb0 = scr0 L I fbx) (hI : ∀ i, (I i).toNat < 1000000)
    (hin : ∀ (off : Fin 2 → ℕ) (hb : ∀ a, off a + S1x128.size a ≤ S26x512.size a) (x : S128.Idx), (View.read (Elt F) (offM off hb).view fb0 x).toNat < 1000000)
    (k : Fin k2_t1_loop.trips) (acc : FVec F S16 .f32) :
    inv1v d L O W q I R fb0 k.val acc
      ⊢ wp frame (wpE (defs₀ (F := F)) 𝒱₀ (thr1 d L) none) Set.univ
          (k2_t1_body L (Memref.whole main_v4_scv) (Memref.isWhole_whole _) (Memref.whole main_v3_scv) (Memref.isWhole_whole _) (Memref.whole main_v5_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scratch16 cc2_scratch17 cc2_scoped0 cc2_scoped1 k acc)
          (fun a => inv1v d L O W q I R fb0 (k.val + 1) a) := by
  rw [inv1v_pos d L O W q I R fb0 k.val acc k.isLt]
  unfold slotF k2_t1_body
  iintro ⟨%hacc, Hmw, ⟨⟨%C0, %hC0, Hf0, Hsr0, Hbr0, Hor0⟩, ⟨%C1, %hC1, Hf1, Hsr1, Hbr1, Hor1⟩, ⟨%C2, %hC2, Hf2, Hsr2, Hbr2, Hor2⟩, ⟨%C3, %hC3, Hf3, Hsr3, Hbr3, Hor3⟩, ⟨%C4, %hC4, Hf4, Hsr4, Hbr4, Hor4⟩, ⟨%C5, %hC5, Hf5, Hsr5, Hbr5, Hor5⟩, ⟨%C6, %hC6, Hf6, Hsr6, Hbr6, Hor6⟩, ⟨%C7, %hC7, Hf7, Hsr7, Hbr7, Hor7⟩⟩, %W', %hW', HO⟩
  subst hC0 hC1 hC2 hC3 hC4 hC5 hC6 hC7
  by_cases hk : k.val < 12
  · obtain ⟨h1, h2, h3, h4, h5, h6, h7, h8⟩ := k2_cond_pos k hk
    sl_exec
    sl_step
    rw [inv1v_pos d L O W q I R fb0 (k.val + 1) _ (by omega)]
    isplitr [Hmw Hf0 Hsr0 Hbr0 Hor0 Hf1 Hsr1 Hbr1 Hor1 Hf2 Hsr2 Hbr2 Hor2 Hf3 Hsr3 Hbr3 Hor3 Hf4 Hsr4 Hbr4 Hor4 Hf5 Hsr5 Hbr5 Hor5 Hf6 Hsr6 Hbr6 Hor6 Hf7 Hsr7 Hbr7 Hor7 HO]
    · ipureintro
      subst hacc
      sl_unfold_run_names
      rw [step0_chunk, step1_chunk]
      first | rw [step2_chunk] | rw [step2_chunk']
      rw [step3_chunk]
      first | rw [step4_chunk] | rw [step4_chunk']
      rw [step5_chunk, step6_chunk, step7_chunk]
      rfl
    isplitl [Hmw]; · iexact Hmw
    isplitr [HO]
    isplitl [Hf0 Hsr0 Hbr0 Hor0]
    · iexists _; isplitr
      pick_goal 2
      · iapply (Entails.of_eq (slotF_congr d L I R fb0 _ _ _ _ (k2_off3_eq' k h1) (k2_off3_inb k h1) _ _))
        unfold slotF
        isplitl [Hf0]; · iexact Hf0
        isplitl [Hsr0]; · iexact Hsr0
        isplitl [Hbr0]; · iexact Hbr0
        iexact Hor0
      · ipureintro
        exact landed_at1 L I R fbx fb0 hfo hI hin ⟨0, by decide⟩ ⟨k.val + 1, by omega⟩ _ _ (k2_off3_eq' k h1) _
    isplitl [Hf1 Hsr1 Hbr1 Hor1]
    · iexists _; isplitr
      pick_goal 2
      · iapply (Entails.of_eq (slotF_congr d L I R fb0 _ _ _ _ (k2_off4_eq' k h2) (k2_off4_inb k h2) _ _))
        unfold slotF
        isplitl [Hf1]; · iexact Hf1
        isplitl [Hsr1]; · iexact Hsr1
        isplitl [Hbr1]; · iexact Hbr1
        iexact Hor1
      · ipureintro
        exact landed_at2 L I R fbx fb0 hfo hI hin ⟨1, by decide⟩ ⟨k.val + 1, by omega⟩ _ _ (k2_off4_eq' k h2) _
    isplitl [Hf2 Hsr2 Hbr2 Hor2]
    · iexists _; isplitr
      pick_goal 2
      · iapply (Entails.of_eq (slotF_congr d L I R fb0 _ _ _ _ (k2_off5_eq' k h3) (k2_off5_inb k h3) _ _))
        unfold slotF
        isplitl [Hf2]; · iexact Hf2
        isplitl [Hsr2]; · iexact Hsr2
        isplitl [Hbr2]; · iexact Hbr2
        iexact Hor2
      · ipureintro
        exact landed_at3 L I R fbx fb0 hfo hI hin ⟨2, by decide⟩ ⟨k.val + 1, by omega⟩ _ _ (k2_off5_eq' k h3) _
    isplitl [Hf3 Hsr3 Hbr3 Hor3]
    · iexists _; isplitr
      pick_goal 2
      · iapply (Entails.of_eq (slotF_congr d L I R fb0 _ _ _ _ (k2_off6_eq' k h4) (k2_off6_inb k h4) _ _))
        unfold slotF
        isplitl [Hf3]; · iexact Hf3
        isplitl [Hsr3]; · iexact Hsr3
        isplitl [Hbr3]; · iexact Hbr3
        iexact Hor3
      · ipureintro
        exact landed_at4 L I R fbx fb0 hfo hI hin ⟨3, by decide⟩ ⟨k.val + 1, by omega⟩ _ _ (k2_off6_eq' k h4) _
    isplitl [Hf4 Hsr4 Hbr4 Hor4]
    · iexists _; isplitr
      pick_goal 2
      · iapply (Entails.of_eq (slotF_congr d L I R fb0 _ _ _ _ (k2_off7_eq' k h5) (k2_off7_inb k h5) _ _))
        unfold slotF
        isplitl [Hf4]; · iexact Hf4
        isplitl [Hsr4]; · iexact Hsr4
        isplitl [Hbr4]; · iexact Hbr4
        iexact Hor4
      · ipureintro
        exact landed_at5 L I R fbx fb0 hfo hI hin ⟨4, by decide⟩ ⟨k.val + 1, by omega⟩ _ _ (k2_off7_eq' k h5) _
    isplitl [Hf5 Hsr5 Hbr5 Hor5]
    · iexists _; isplitr
      pick_goal 2
      · iapply (Entails.of_eq (slotF_congr d L I R fb0 _ _ _ _ (k2_off8_eq' k h6) (k2_off8_inb k h6) _ _))
        unfold slotF
        isplitl [Hf5]; · iexact Hf5
        isplitl [Hsr5]; · iexact Hsr5
        isplitl [Hbr5]; · iexact Hbr5
        iexact Hor5
      · ipureintro
        exact landed_at6 L I R fbx fb0 hfo hI hin ⟨5, by decide⟩ ⟨k.val + 1, by omega⟩ _ _ (k2_off8_eq' k h6) _
    isplitl [Hf6 Hsr6 Hbr6 Hor6]
    · iexists _; isplitr
      pick_goal 2
      · iapply (Entails.of_eq (slotF_congr d L I R fb0 _ _ _ _ (k2_off9_eq' k h7) (k2_off9_inb k h7) _ _))
        unfold slotF
        isplitl [Hf6]; · iexact Hf6
        isplitl [Hsr6]; · iexact Hsr6
        isplitl [Hbr6]; · iexact Hbr6
        iexact Hor6
      · ipureintro
        exact landed_at7 L I R fbx fb0 hfo hI hin ⟨6, by decide⟩ ⟨k.val + 1, by omega⟩ _ _ (k2_off9_eq' k h7) _
    · iexists _; isplitr
      pick_goal 2
      · iapply (Entails.of_eq (slotF_congr d L I R fb0 _ _ _ _ (k2_off10_eq' k h8) (k2_off10_inb k h8) _ _))
        unfold slotF
        isplitl [Hf7]; · iexact Hf7
        isplitl [Hsr7]; · iexact Hsr7
        isplitl [Hbr7]; · iexact Hbr7
        iexact Hor7
      · ipureintro
        exact landed_at8 L I R fbx fb0 hfo hI hin ⟨7, by decide⟩ ⟨k.val + 1, by omega⟩ _ _ (k2_off10_eq' k h8) _
    iexists _; isplitr
    pick_goal 2
    · iexact HO
    · ipureintro; exact waits_ok1 (waits_ok1 (waits_ok1 (waits_ok1 (waits_ok1 (waits_ok1 (waits_ok1 (waits_ok1 (hW') _) _) _) _) _) _) _) _
  · obtain ⟨h1, h2, h3, h4, h5, h6, h7, h8⟩ := k2_cond_neg k hk
    sl_exec
    sl_step
    rw [inv1v_neg d L O W q I R fb0 (k.val + 1) _ (by omega)]
    isplitr [Hmw Hf0 Hsr0 Hbr0 Hor0 Hf1 Hsr1 Hbr1 Hor1 Hf2 Hsr2 Hbr2 Hor2 Hf3 Hsr3 Hbr3 Hor3 Hf4 Hsr4 Hbr4 Hor4 Hf5 Hsr5 Hbr5 Hor5 Hf6 Hsr6 Hbr6 Hor6 Hf7 Hsr7 Hbr7 Hor7 HO]
    · ipureintro
      subst hacc
      sl_unfold_run_names
      rw [step0_chunk, step1_chunk]
      first | rw [step2_chunk] | rw [step2_chunk']
      rw [step3_chunk]
      first | rw [step4_chunk] | rw [step4_chunk']
      rw [step5_chunk, step6_chunk, step7_chunk]
      rfl
    isplitl [Hmw]; · iexact Hmw
    isplitr [HO]
    isplitl [Hf0 Hsr0 Hbr0 Hor0]
    · unfold doneF
      isplitl [Hbr0]; · iexists _; iexact Hbr0
      isplitl [Hsr0]; · iexact Hsr0
      isplitl [Hor0]; · iexact Hor0
      iexact Hf0
    isplitl [Hf1 Hsr1 Hbr1 Hor1]
    · unfold doneF
      isplitl [Hbr1]; · iexists _; iexact Hbr1
      isplitl [Hsr1]; · iexact Hsr1
      isplitl [Hor1]; · iexact Hor1
      iexact Hf1
    isplitl [Hf2 Hsr2 Hbr2 Hor2]
    · unfold doneF
      isplitl [Hbr2]; · iexists _; iexact Hbr2
      isplitl [Hsr2]; · iexact Hsr2
      isplitl [Hor2]; · iexact Hor2
      iexact Hf2
    isplitl [Hf3 Hsr3 Hbr3 Hor3]
    · unfold doneF
      isplitl [Hbr3]; · iexists _; iexact Hbr3
      isplitl [Hsr3]; · iexact Hsr3
      isplitl [Hor3]; · iexact Hor3
      iexact Hf3
    isplitl [Hf4 Hsr4 Hbr4 Hor4]
    · unfold doneF
      isplitl [Hbr4]; · iexists _; iexact Hbr4
      isplitl [Hsr4]; · iexact Hsr4
      isplitl [Hor4]; · iexact Hor4
      iexact Hf4
    isplitl [Hf5 Hsr5 Hbr5 Hor5]
    · unfold doneF
      isplitl [Hbr5]; · iexists _; iexact Hbr5
      isplitl [Hsr5]; · iexact Hsr5
      isplitl [Hor5]; · iexact Hor5
      iexact Hf5
    isplitl [Hf6 Hsr6 Hbr6 Hor6]
    · unfold doneF
      isplitl [Hbr6]; · iexists _; iexact Hbr6
      isplitl [Hsr6]; · iexact Hsr6
      isplitl [Hor6]; · iexact Hor6
      iexact Hf6
    · unfold doneF
      isplitl [Hbr7]; · iexists _; iexact Hbr7
      isplitl [Hsr7]; · iexact Hsr7
      isplitl [Hor7]; · iexact Hor7
      iexact Hf7
    iexists _; isplitr
    pick_goal 2
    · iexact HO
    · ipureintro; exact waits_ok1 (waits_ok1 (waits_ok1 (waits_ok1 (waits_ok1 (waits_ok1 (waits_ok1 (waits_ok1 (hW') _) _) _) _) _) _) _) _

set_option maxHeartbeats 4000000 in
/-- The body of SparseCore call 1 on tile `L`: the two arrays it reads unchanged, its row of the result at the [32,16] function of KI/Tile1Val.lean,
    its scratch and semaphores back, the waits it made recorded at index `none`. -/
theorem tile1_body (hF : (K (F := F)).Facts) (d : Dev nD) (L : grid2.Coords) (O : CellTallies nD τ sig (HIx 2)) (W : Waits sig (HIx 2)) (hO : ∀ g, O g none = 0)
    (q : PosShare TreeShare) (I : Buf (Elt F) (itLoc d)) (R : Buf (Elt F) (raLoc d)) (f0 : Buf (Elt F) (ptLoc d))
    (hI : ∀ i, (I i).toNat < 1000000) :
    iprop(levAts (K (F := F)).L (K (F := F)).lev
        ∗ ((itLoc d ↦{q} I) ∗ (raLoc d ↦{q} R) ∗ (ptLoc d ↦[outRow1 L]{fullShare} f0))
        ∗ scopedBufs (thr1 d L) ∗ scopedSems0 (thr1 d L) ∗ owes (thr1 d L) O W)
      ⊢ (wp frame (wpE (defs₀ (F := F)) 𝒱₀ (thr1 d L) none) Set.univ
          (cc2_sc_kernel L (Memref.whole main_v4_scv) (Memref.isWhole_whole _) (Memref.whole main_v3_scv) (Memref.isWhole_whole _) (Memref.whole main_v5_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scratch16 cc2_scratch17 cc2_scoped0 cc2_scoped1)
          fun _ => iprop(((itLoc d ↦{q} I) ∗ (raLoc d ↦{q} R) ∗ (ptLoc d ↦[outRow1 L]{fullShare} tile1Val I R))
            ∗ scopedBufs (thr1 d L) ∗ scopedSems0 (thr1 d L) ∗ ∃ W', ⌜∀ p ∈ W', p ∈ W ∨ p.2 = none⌝ ∗ owes (thr1 d L) O W') : sProp 𝕄) := by
  simp only [cc2_sc_kernel_eq_skeleton]; unfold cc2_sc_kernel_skel
  rw [(K (F := F)).scopedBufs_V hF d (cV1 L) (jV1 L), SparseCore.Cfg.scopedSems0_V (Val := Elt F) d (cV1 L) (jV1 L), ownSems0_T1, ownBufs_T1']
  iintro ⟨#Hlv, ⟨Hi, Hr, Ho⟩, ⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, ⟨%fb8, Hb8⟩, ⟨%fb9, Hb9⟩, Hbufs⟩, ⟨Hs0, Hs1, Hs2, Hs3, Hs4, Hs5, Hs6, Hs7, Hs8, Hs9, Hsems⟩, HO⟩
  ihave Hmw := ((K (F := F)).mayWaits_none (thr := thr1 d L) hO) $$ Hlv
  ihave Hi' := (Entails.of_eq (pts_it1 (F := F) d L q _).symm) $$ Hi
  ihave Hr' := (Entails.of_eq (pts_ra1 (F := F) d L q _).symm) $$ Hr
  ihave Ho' := (Entails.of_eq (pts_row1 (F := F) d L _).symm) $$ Ho
  sl_exec
  -- the index scratch now holds the tile's window: its contents named
  ihave Hb0e := (pts_name (F := F) _) $$ Hb0
  icases Hb0e with ⟨%fo, %hfo, Hb0⟩
  have hin : ∀ (off : Fin 2 → ℕ) (hb : ∀ a, off a + S1x128.size a ≤ S26x512.size a) (x : S128.Idx), (View.read (Elt F) (offM off hb).view fo x).toNat < 1000000 := by
    intro off hb x; rw [hfo]; exact hin1 (F := F) L I hI off hb fb0 x
  -- eight read shares of the table of row sums and of the index scratch, one per buffer in flight
  ihave Hr8 := (Entails.of_eq (pts_split8 (F := F) q)) $$ Hr'
  icases Hr8 with ⟨HR0, HR1, HR2, HR3, HR4, HR5, HR6, HR7⟩
  ihave Hx8 := (Entails.of_eq (pts_split8 (F := F) fullShare)) $$ Hb0
  icases Hx8 with ⟨HX0, HX1, HX2, HX3, HX4, HX5, HX6, HX7⟩
  sl_exec
  sl_for (inv1v d L O W q I R fo) $$ [Hmw Hs0 HR0 Hb1 HX0 Hs1 HR1 Hb2 HX1 Hs2 HR2 Hb3 HX2 Hs3 HR3 Hb4 HX3 Hs4 HR4 Hb5 HX4 Hs5 HR5 Hb6 HX5 Hs6 HR6 Hb7 HX6 Hs7 HR7 Hb8 HX7 HO]
  case region => exact fun k acc => trip1v d L O W q I R fo fb0 hfo hI hin k acc
  · rw [inv1v_pos d L O W q I R fo 0 _ (by norm_num)]
    isplitr [Hmw Hs0 HR0 Hb1 HX0 Hs1 HR1 Hb2 HX1 Hs2 HR2 Hb3 HX2 Hs3 HR3 Hb4 HX3 Hs4 HR4 Hb5 HX4 Hs5 HR5 Hb6 HX5 Hs6 HR6 Hb7 HX6 Hs7 HR7 Hb8 HX7 HO]
    · ipureintro; rfl
    isplitl [Hmw]; · iexact Hmw
    isplitr [HO]
    isplitl [Hs0 HR0 Hb1 HX0]
    · iexists _; isplitr
      pick_goal 2
      · iapply (Entails.of_eq (slotF_congr d L I R fo _ _ _ _ (show (![0, 0] : Fin 2 → ℕ) = offJ 0 0 from by decide) inb_S26x512_S1x128_0_0 _ _))
        unfold slotF
        isplitl [Hs0]; · iexact Hs0
        isplitl [HR0]; · iexact HR0
        isplitl [Hb1]; · iexact Hb1
        iexact HX0
      · ipureintro
        exact landed_at1 L I R fb0 fo hfo hI hin ⟨0, by decide⟩ ⟨0, by decide⟩ _ _ (show (![0, 0] : Fin 2 → ℕ) = offJ 0 0 from by decide) _
    isplitl [Hs1 HR1 Hb2 HX1]
    · iexists _; isplitr
      pick_goal 2
      · iapply (Entails.of_eq (slotF_congr d L I R fo _ _ _ _ (show (![0, 128] : Fin 2 → ℕ) = offJ 1 0 from by decide) inb_S26x512_S1x128_0_128 _ _))
        unfold slotF
        isplitl [Hs1]; · iexact Hs1
        isplitl [HR1]; · iexact HR1
        isplitl [Hb2]; · iexact Hb2
        iexact HX1
      · ipureintro
        exact landed_at2 L I R fb0 fo hfo hI hin ⟨1, by decide⟩ ⟨0, by decide⟩ _ _ (show (![0, 128] : Fin 2 → ℕ) = offJ 1 0 from by decide) _
    isplitl [Hs2 HR2 Hb3 HX2]
    · iexists _; isplitr
      pick_goal 2
      · iapply (Entails.of_eq (slotF_congr d L I R fo _ _ _ _ (show (![0, 256] : Fin 2 → ℕ) = offJ 2 0 from by decide) inb_S26x512_S1x128_0_256 _ _))
        unfold slotF
        isplitl [Hs2]; · iexact Hs2
        isplitl [HR2]; · iexact HR2
        isplitl [Hb3]; · iexact Hb3
        iexact HX2
      · ipureintro
        exact landed_at3 L I R fb0 fo hfo hI hin ⟨2, by decide⟩ ⟨0, by decide⟩ _ _ (show (![0, 256] : Fin 2 → ℕ) = offJ 2 0 from by decide) _
    isplitl [Hs3 HR3 Hb4 HX3]
    · iexists _; isplitr
      pick_goal 2
      · iapply (Entails.of_eq (slotF_congr d L I R fo _ _ _ _ (show (![0, 384] : Fin 2 → ℕ) = offJ 3 0 from by decide) inb_S26x512_S1x128_0_384 _ _))
        unfold slotF
        isplitl [Hs3]; · iexact Hs3
        isplitl [HR3]; · iexact HR3
        isplitl [Hb4]; · iexact Hb4
        iexact HX3
      · ipureintro
        exact landed_at4 L I R fb0 fo hfo hI hin ⟨3, by decide⟩ ⟨0, by decide⟩ _ _ (show (![0, 384] : Fin 2 → ℕ) = offJ 3 0 from by decide) _
    isplitl [Hs4 HR4 Hb5 HX4]
    · iexists _; isplitr
      pick_goal 2
      · iapply (Entails.of_eq (slotF_congr d L I R fo _ _ _ _ (show (![1, 0] : Fin 2 → ℕ) = offJ 4 0 from by decide) inb_S26x512_S1x128_1_0 _ _))
        unfold slotF
        isplitl [Hs4]; · iexact Hs4
        isplitl [HR4]; · iexact HR4
        isplitl [Hb5]; · iexact Hb5
        iexact HX4
      · ipureintro
        exact landed_at5 L I R fb0 fo hfo hI hin ⟨4, by decide⟩ ⟨0, by decide⟩ _ _ (show (![1, 0] : Fin 2 → ℕ) = offJ 4 0 from by decide) _
    isplitl [Hs5 HR5 Hb6 HX5]
    · iexists _; isplitr
      pick_goal 2
      · iapply (Entails.of_eq (slotF_congr d L I R fo _ _ _ _ (show (![1, 128] : Fin 2 → ℕ) = offJ 5 0 from by decide) inb_S26x512_S1x128_1_128 _ _))
        unfold slotF
        isplitl [Hs5]; · iexact Hs5
        isplitl [HR5]; · iexact HR5
        isplitl [Hb6]; · iexact Hb6
        iexact HX5
      · ipureintro
        exact landed_at6 L I R fb0 fo hfo hI hin ⟨5, by decide⟩ ⟨0, by decide⟩ _ _ (show (![1, 128] : Fin 2 → ℕ) = offJ 5 0 from by decide) _
    isplitl [Hs6 HR6 Hb7 HX6]
    · iexists _; isplitr
      pick_goal 2
      · iapply (Entails.of_eq (slotF_congr d L I R fo _ _ _ _ (show (![1, 256] : Fin 2 → ℕ) = offJ 6 0 from by decide) inb_S26x512_S1x128_1_256 _ _))
        unfold slotF
        isplitl [Hs6]; · iexact Hs6
        isplitl [HR6]; · iexact HR6
        isplitl [Hb7]; · iexact Hb7
        iexact HX6
      · ipureintro
        exact landed_at7 L I R fb0 fo hfo hI hin ⟨6, by decide⟩ ⟨0, by decide⟩ _ _ (show (![1, 256] : Fin 2 → ℕ) = offJ 6 0 from by decide) _
    · iexists _; isplitr
      pick_goal 2
      · iapply (Entails.of_eq (slotF_congr d L I R fo _ _ _ _ (show (![1, 384] : Fin 2 → ℕ) = offJ 7 0 from by decide) inb_S26x512_S1x128_1_384 _ _))
        unfold slotF
        isplitl [Hs7]; · iexact Hs7
        isplitl [HR7]; · iexact HR7
        isplitl [Hb8]; · iexact Hb8
        iexact HX7
      · ipureintro
        exact landed_at8 L I R fb0 fo hfo hI hin ⟨7, by decide⟩ ⟨0, by decide⟩ _ _ (show (![1, 384] : Fin 2 → ℕ) = offJ 7 0 from by decide) _
    iexists _; isplitr
    pick_goal 2
    · iexact HO
    · ipureintro; exact waits_ok1 (fun p hp => .inl hp) _
  iintro %accF HI
  ihave HI' := (Entails.of_eq (inv1v_done d L O W q I R fo _ accF (show ¬ k2_t1_loop.trips < 13 by decide))) $$ HI
  icases HI' with ⟨%hacc, -, ⟨⟨⟨%C0, Hb1⟩, HR0, HX0, Hs0⟩, ⟨⟨%C1, Hb2⟩, HR1, HX1, Hs1⟩, ⟨⟨%C2, Hb3⟩, HR2, HX2, Hs2⟩, ⟨⟨%C3, Hb4⟩, HR3, HX3, Hs3⟩, ⟨⟨%C4, Hb5⟩, HR4, HX4, Hs4⟩, ⟨⟨%C5, Hb6⟩, HR5, HX5, Hs5⟩, ⟨⟨%C6, Hb7⟩, HR6, HX6, Hs6⟩, ⟨⟨%C7, Hb8⟩, HR7, HX7, Hs7⟩⟩, %W', %hW', HO⟩
  ihave Hr' := (Entails.of_eq (pts_split8 (F := F) q).symm) $$ [HR0 HR1 HR2 HR3 HR4 HR5 HR6 HR7]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HR7
  ihave Hb0 := (Entails.of_eq (pts_split8 (F := F) fullShare).symm) $$ [HX0 HX1 HX2 HX3 HX4 HX5 HX6 HX7]
  · isplitl [HX0]; · iexact HX0
    isplitl [HX1]; · iexact HX1
    isplitl [HX2]; · iexact HX2
    isplitl [HX3]; · iexact HX3
    isplitl [HX4]; · iexact HX4
    isplitl [HX5]; · iexact HX5
    isplitl [HX6]; · iexact HX6
    iexact HX7
  sl_exec
  sl_step
  isplitl [Hi' Hr' Ho']
  · isplitl [Hi']; · iapply (Entails.of_eq (pts_it1 (F := F) d L q _)); iexact Hi'
    isplitl [Hr']; · iapply (Entails.of_eq (pts_ra1 (F := F) d L q _)); iexact Hr'
    ihave Hoe := (pts_name (F := F) _) $$ Ho'
    icases Hoe with ⟨%X, %hX, Ho'⟩
    have hval : ∀ idx ∈ outRow1 L, X idx = tile1Val I R idx := by
      intro idx hidx
      rw [hX]
      exact row_final L I R f0 _ accF (fun y => scr9_read _ _ _ y) hacc idx hidx
    iapply (Entails.of_eq (pointsTo_congr hval))
    iapply (Entails.of_eq (pts_row1 (F := F) d L _))
    iexact Ho'
  isplitl [Hb0 Hb1 Hb2 Hb3 Hb4 Hb5 Hb6 Hb7 Hb8 Hb9 Hbufs]
  ·
    isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    iexact Hbufs
  isplitl [Hs0 Hs1 Hs2 Hs3 Hs4 Hs5 Hs6 Hs7 Hs8 Hs9 Hsems]
  ·
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists _; isplitr
  pick_goal 2
  · iexact HO
  · ipureintro; exact waits_ok1 hW' _

end Cert.Proof.KB

end
-- ==== Proof.Alg.Spec.lean ====
/-
  The closed forms the two sides are compared through, on the extended reals: the sum of a column of the transposed table,
  a tile's partial sum lane by lane, and the reference's numerator. Pure mathematics over literal shapes; no program is imported.
-/
import Idealize.ShloMosaic.PureOps.Ideal
import Idealize.ShloMosaic.Lib.ValueIdx

noncomputable section

open scoped BigOperators

namespace Cert.Proof.Alg

open Idealize.ShloMosaic Idealize.ShloMosaic.ValueIdx

/-- A natural number as a row number of the table, reduced modulo the table's height (the identity below 1000000). -/
def rowOf (n : ℕ) : Fin 1000000 := ⟨n % 1000000, Nat.mod_lt _ (by norm_num)⟩

/-- The sum of column `v` of a [32, 1000000] array: the sum of the 32 features of table row `v`, read off the transposed table. -/
def rowSum (TT : (⟨2, ![32, 1000000]⟩ : Shape).Idx → EReal) (v : Fin 1000000) : EReal := ∑ r : Fin 32, TT (ix2 r v)

/-- Lane `l` of the partial sum of tile `w`: over its 104 chunks `j` (field `j / 4`, quarter `j % 4` of the tile's 512 batch columns) and the
    8 sixteen-lane groups `r` of a chunk, the row sum `R` at the word of the transposed index array `I` [26, 16384]. -/
def partSum (I : (⟨2, ![26, 16384]⟩ : Shape).Idx → BitVec 32) (R : (⟨1, ![1000000]⟩ : Shape).Idx → EReal) (w : Fin 32) (l : Fin 16) : EReal :=
  ∑ j : Fin 104, ∑ r : Fin 8,
    R (ix1 (rowOf (I (ix2 (⟨j.val / 4, by have := j.isLt; omega⟩ : Fin 26)
      (⟨w.val * 512 + (j.val % 4) * 128 + r.val * 16 + l.val, by have := w.isLt; have := r.isLt; have := l.isLt; omega⟩ : Fin 16384))).toNat))

/-- The reference's numerator: the sum of every feature of every looked-up row. -/
def total (X : (⟨2, ![16384, 26]⟩ : Shape).Idx → BitVec 32) (T : (⟨2, ![1000000, 32]⟩ : Shape).Idx → EReal) : EReal :=
  ∑ b : Fin 16384, ∑ f : Fin 26, ∑ e : Fin 32, T (ix2 (rowOf (X (ix2 b f)).toNat) e)

end Cert.Proof.Alg

end
-- ==== Proof.Alg.Total.lean ====
/-
  The tiles' partial sums add up to the reference's numerator: a re-indexing of finite sums on the extended reals.
  The 16384 batch columns are cut into 32 tiles of 512, a tile's 512 into 4 quarters of 128, a quarter into 8 groups of
  16 lanes; a tile's 104 chunks are 26 fields by 4 quarters. Finite sums over an additive commutative monoid commute
  and re-index along bijections, so no finiteness of the summands is needed.
-/
import proofs.«203338_g27195732918861_cont_9to1_1050_16_alg».proof.Proof.Alg.Spec
import Mathlib.Algebra.BigOperators.Fin
import Mathlib.Logic.Equiv.Fin.Basic

noncomputable section

open scoped BigOperators

namespace Cert.Proof.Alg

open Idealize.ShloMosaic Idealize.ShloMosaic.ValueIdx

/-- A sum over `Fin N` with `N = m * n` is the double sum over quotient and remainder: `j = a * n + b`. -/
theorem sum_fin_split {M : Type*} [AddCommMonoid M] {N : ℕ} (m n : ℕ) (hN : N = m * n) (h : Fin N → M) :
    ∑ j, h j = ∑ a : Fin m, ∑ b : Fin n, h ⟨a.val * n + b.val, by
      subst hN
      exact Nat.lt_of_lt_of_le (Nat.add_lt_add_left b.isLt _) (by rw [← Nat.succ_mul]; exact Nat.mul_le_mul_right _ a.isLt)⟩ := by
  subst hN
  rw [← Equiv.sum_comp finProdFinEquiv h, Fintype.sum_prod_type]
  refine Finset.sum_congr rfl fun a _ => Finset.sum_congr rfl fun b _ => congrArg h (Fin.ext ?_)
  simp only [finProdFinEquiv_apply_val]
  ring

/-- Four nested finite sums with the outer pair and the inner pair exchanged. -/
theorem sum_comm4 {M : Type*} [AddCommMonoid M] {α β γ δ : Type*} [Fintype α] [Fintype β] [Fintype γ] [Fintype δ]
    (B : α → β → γ → δ → M) :
    ∑ a, ∑ b, ∑ c, ∑ d, B a b c d = ∑ c, ∑ d, ∑ a, ∑ b, B a b c d :=
  calc ∑ a, ∑ b, ∑ c, ∑ d, B a b c d
      = ∑ a, ∑ c, ∑ b, ∑ d, B a b c d := Finset.sum_congr rfl fun a _ => Finset.sum_comm
    _ = ∑ c, ∑ a, ∑ b, ∑ d, B a b c d := Finset.sum_comm
    _ = ∑ c, ∑ a, ∑ d, ∑ b, B a b c d := Finset.sum_congr rfl fun c _ => Finset.sum_congr rfl fun a _ => Finset.sum_comm
    _ = ∑ c, ∑ d, ∑ a, ∑ b, B a b c d := Finset.sum_congr rfl fun c _ => Finset.sum_comm

/-- The 32 features of the table row the index at batch column `b`, field `f` names, summed. -/
def looked (X : (⟨2, ![16384, 26]⟩ : Shape).Idx → BitVec 32) (T : (⟨2, ![1000000, 32]⟩ : Shape).Idx → EReal)
    (b : Fin 16384) (f : Fin 26) : EReal :=
  ∑ e : Fin 32, T (ix2 (rowOf (X (ix2 b f)).toNat) e)

/-- A tile's lane sum over the transposed arrays, in terms of `looked`: the transposes read through. -/
theorem partSum_eq (X : (⟨2, ![16384, 26]⟩ : Shape).Idx → BitVec 32) (T : (⟨2, ![1000000, 32]⟩ : Shape).Idx → EReal)
    (w : Fin 32) (l : Fin 16) :
    partSum (fun i => X (ix2 (i 1) (i 0))) (fun v => rowSum (fun i => T (ix2 (i 1) (i 0))) (v 0)) w l
      = ∑ j : Fin 104, ∑ r : Fin 8,
          looked X T (⟨w.val * 512 + (j.val % 4) * 128 + r.val * 16 + l.val, by have := w.isLt; have := r.isLt; have := l.isLt; omega⟩ : Fin 16384)
            (⟨j.val / 4, by have := j.isLt; omega⟩ : Fin 26) := rfl

/-- The reference's numerator over the cut of the batch columns into tiles, quarters, groups and lanes. -/
theorem total_split (X : (⟨2, ![16384, 26]⟩ : Shape).Idx → BitVec 32) (T : (⟨2, ![1000000, 32]⟩ : Shape).Idx → EReal) :
    total X T = ∑ w : Fin 32, ∑ q : Fin 4, ∑ r : Fin 8, ∑ l : Fin 16, ∑ f : Fin 26,
      looked X T (⟨w.val * 512 + (q.val * 128 + (r.val * 16 + l.val)), by have := w.isLt; have := q.isLt; have := r.isLt; have := l.isLt; omega⟩ : Fin 16384) f := by
  show ∑ b : Fin 16384, ∑ f : Fin 26, looked X T b f = _
  rw [sum_fin_split 32 512 (by norm_num)]
  refine Finset.sum_congr rfl fun w _ => ?_
  rw [sum_fin_split 4 128 (by norm_num)]
  refine Finset.sum_congr rfl fun q _ => ?_
  rw [sum_fin_split 8 16 (by norm_num)]

/-- THE TILES' PARTIAL SUMS ADD UP TO THE NUMERATOR. -/
theorem total_eq (X : (⟨2, ![16384, 26]⟩ : Shape).Idx → BitVec 32) (T : (⟨2, ![1000000, 32]⟩ : Shape).Idx → EReal) :
    (∑ w : Fin 32, ∑ l : Fin 16,
        partSum (fun i => X (ix2 (i 1) (i 0))) (fun v => rowSum (fun i => T (ix2 (i 1) (i 0))) (v 0)) w l) = total X T := by
  rw [total_split]
  refine Finset.sum_congr rfl fun w _ => ?_
  -- left: lanes, then chunks (fields by quarters), then groups; right: quarters, groups, lanes, fields
  have hL : ∀ l : Fin 16,
      partSum (fun i => X (ix2 (i 1) (i 0))) (fun v => rowSum (fun i => T (ix2 (i 1) (i 0))) (v 0)) w l
        = ∑ f : Fin 26, ∑ q : Fin 4, ∑ r : Fin 8,
            looked X T (⟨w.val * 512 + (q.val * 128 + (r.val * 16 + l.val)), by have := w.isLt; have := q.isLt; have := r.isLt; have := l.isLt; omega⟩ : Fin 16384) f := by
    intro l
    rw [partSum_eq, sum_fin_split 26 4 (by norm_num)]
    refine Finset.sum_congr rfl fun f _ => Finset.sum_congr rfl fun q _ => Finset.sum_congr rfl fun r _ => ?_
    have hq := q.isLt
    congr 1 <;> refine Fin.ext ?_ <;> simp only <;> omega
  rw [Finset.sum_congr rfl fun l _ => hL l]
  -- ∑ l, ∑ f, ∑ q, ∑ r  =  ∑ q, ∑ r, ∑ l, ∑ f
  exact sum_comm4 (fun (l : Fin 16) (f : Fin 26) (q : Fin 4) (r : Fin 8) =>
    looked X T (⟨w.val * 512 + (q.val * 128 + (r.val * 16 + l.val)), by have := w.isLt; have := q.isLt; have := r.isLt; have := l.isLt; omega⟩ : Fin 16384) f)

end Cert.Proof.Alg

end
-- ==== Proof.Alg.Tail.lean ====
/-
  The two host operations that end the kernel's @main, read at the ideal instance: the sum of the 32 tiles' 16-lane partial
  sums over both axes, divided by the printed constant.
-/
import proofs.«203338_g27195732918861_cont_9to1_1050_16_alg».proof.KernelIdeal
import Idealize.ShloMosaic.Lib.IdealHost

noncomputable section

open scoped BigOperators

namespace Cert.Proof.Alg

open Cert.KernelIdeal Idealize.ShloMosaic Idealize.ShloMosaic.ValueIdx

variable [hK : Cert.KernelIdeal.Facts]
open Cert.KernelIdeal.Facts₀

/-- THE HOST TAIL: the reduction of the [32, 16] array of partial sums over both axes from zero, divided by the printed
    constant, is the double sum over tiles and lanes divided by that constant. -/
theorem kernel_tail (P : (⟨2, ![32, 16]⟩ : Shape).Idx → EReal) :
    Host.divf (F := Ideal) (φ := .f32)
        (Host.reduceAdd (F := Ideal) (φ := .f32) P (constant S_ .f32 0x00000000#32) reducesTo_S32x16_S_d0_1 h_S_)
        (constant S_ .f32 0x4B500000#32)
      = fun _ => Ideal.div (∑ w : Fin 32, ∑ l : Fin 16, P (ix2 w l)) (Ideal.ofBits .f32 0x4B500000#32) := by
  funext j
  rw [hostDivf_apply, hostReduceAdd_apply, Ideal.hostReduceAdd_total _ (fun b => b.elim0)]
  show Ideal.div (Ideal.ofBits .f32 0x00000000#32 + ∑ i, P i) (Ideal.ofBits .f32 0x4B500000#32) = _
  rw [Ideal.ofBits_zero_f32, zero_add, sum_idx2]

end Cert.Proof.Alg

end
-- ==== Proof.Alg.Bridge.lean ====
/-
  The kernel's host operations read at an index — the two transposes and the concatenation of the two halves of the row
  sums — and the bridge from what the tiles leave to the reference's closed form: if the two halves hold the row sums of the
  transposed table and every tile's lane holds its partial sum over the transposed indices and the joined row sums, then the
  host tail's quotient is the reference's numerator divided by the printed constant.
-/
import proofs.«203338_g27195732918861_cont_9to1_1050_16_alg».proof.KernelIdeal
import proofs.«203338_g27195732918861_cont_9to1_1050_16_alg».proof.Proof.Alg.Total
import proofs.«203338_g27195732918861_cont_9to1_1050_16_alg».proof.Proof.Alg.Tail
import Idealize.ShloMosaic.Lib.Pipeline.Value

noncomputable section

open scoped BigOperators

namespace Cert.Proof.Alg

open Cert.KernelIdeal Idealize.ShloMosaic Idealize.ShloMosaic.ValueIdx

variable [hK : Cert.KernelIdeal.Facts]
open Cert.KernelIdeal.Facts₀

/-! ## The host layout operations at an index -/

/-- The transposed table at `(r, v)` is the table at `(v, r)`. -/
theorem transposeT_apply {α : Type} (T : S1000000x32.Idx → α) (r : Fin 32) (v : Fin 1000000) :
    transpose S32x1000000 [1, 0] T transposes_S1000000x32_S32x1000000_1_0 (ix2 r v) = T (ix2 v r) :=
  transpose_apply _ _ _ _ (ix2 v r) (fun b => by match b with | ⟨0, _⟩ => rfl | ⟨1, _⟩ => rfl)

/-- The transposed index array at `(f, b)` is the index array at `(b, f)`. -/
theorem transposeX_apply {α : Type} (X : S16384x26.Idx → α) (f : Fin 26) (b : Fin 16384) :
    transpose S26x16384 [1, 0] X transposes_S16384x26_S26x16384_1_0 (ix2 f b) = X (ix2 b f) :=
  transpose_apply _ _ _ _ (ix2 b f) (fun c => by match c with | ⟨0, _⟩ => rfl | ⟨1, _⟩ => rfl)

/-- The concatenation below the first piece's extent reads the first piece. -/
theorem cat_apply_left {α : Type} (a : S327680.Idx → α) (b : S672320.Idx → α) (v : Fin 1000000) (hv : v.val < 327680) :
    concatenate S1000000 0 [⟨S327680, a⟩, ⟨S672320, b⟩] concatenates_S327680_S672320_S1000000_d0 (ix1 v)
      = a (ix1 ⟨v.val, hv⟩) :=
  concatenate_pair_apply_left 0 a b _ (ix1 v) rfl (ix1 ⟨v.val, hv⟩) (fun c => by match c with | ⟨0, _⟩ => rfl)

/-- The concatenation from the first piece's extent on reads the second piece, the extent less. -/
theorem cat_apply_right {α : Type} (a : S327680.Idx → α) (b : S672320.Idx → α) (v : Fin 1000000) (hv : 327680 ≤ v.val) :
    concatenate S1000000 0 [⟨S327680, a⟩, ⟨S672320, b⟩] concatenates_S327680_S672320_S1000000_d0 (ix1 v)
      = b (ix1 ⟨v.val - 327680, by have := v.isLt; omega⟩) :=
  concatenate_pair_apply_right 0 a b _ (ix1 v) rfl rfl (ix1 ⟨v.val - 327680, by have := v.isLt; omega⟩)
    (fun c hc => absurd (Subsingleton.elim _ _) hc)
    (by show v.val - 327680 + 327680 = v.val; omega)

/-! ## The three arrays as functions of the arguments -/

/-- The transposed index array is the index array with its coordinates exchanged. -/
theorem transposeX_eq (X : IVec S16384x26 32) :
    (((transpose S26x16384 [1, 0] · transposes_S16384x26_S26x16384_1_0) :
        (⟨S16384x26, .i32⟩ : BufTy).Contents (Elt Ideal) → (⟨S26x16384, .i32⟩ : BufTy).Contents (Elt Ideal)) X)
      = fun i => X (ix2 (i 1) (i 0)) := by
  funext i
  obtain ⟨f, b, rfl⟩ : ∃ f b, i = ix2 f b := ⟨i 0, i 1, eq_ix2 i⟩
  exact transposeX_apply X f b

/-- A column sum of the transposed table is the sum of the table row's features. -/
theorem rowSum_transposeT (T : FVec Ideal S1000000x32 .f32) (u : Fin 1000000) :
    rowSum (((transpose S32x1000000 [1, 0] · transposes_S1000000x32_S32x1000000_1_0) :
        (⟨S1000000x32, .f32⟩ : BufTy).Contents (Elt Ideal) → (⟨S32x1000000, .f32⟩ : BufTy).Contents (Elt Ideal)) T) u
      = rowSum (fun i => T (ix2 (i 1) (i 0))) u := by
  unfold rowSum
  exact Finset.sum_congr rfl fun r _ => transposeT_apply T r u

/-- The joined halves, each holding its row sums of the transposed table, are the row sums of the table. -/
theorem cat_eq (T : FVec Ideal S1000000x32 .f32) (a : S327680.Idx → EReal) (b : S672320.Idx → EReal)
    (ha : ∀ v : Fin 327680, a (ix1 v) = rowSum (((transpose S32x1000000 [1, 0] · transposes_S1000000x32_S32x1000000_1_0) :
        (⟨S1000000x32, .f32⟩ : BufTy).Contents (Elt Ideal) → (⟨S32x1000000, .f32⟩ : BufTy).Contents (Elt Ideal)) T)
          ⟨v.val, by have := v.isLt; omega⟩)
    (hb : ∀ v : Fin 672320, b (ix1 v) = rowSum (((transpose S32x1000000 [1, 0] · transposes_S1000000x32_S32x1000000_1_0) :
        (⟨S1000000x32, .f32⟩ : BufTy).Contents (Elt Ideal) → (⟨S32x1000000, .f32⟩ : BufTy).Contents (Elt Ideal)) T)
          ⟨327680 + v.val, by have := v.isLt; omega⟩) :
    (((fun a b => concatenate S1000000 0 [⟨S327680, a⟩, ⟨S672320, b⟩] concatenates_S327680_S672320_S1000000_d0) :
        (⟨S327680, .f32⟩ : BufTy).Contents (Elt Ideal) → (⟨S672320, .f32⟩ : BufTy).Contents (Elt Ideal) → (⟨S1000000, .f32⟩ : BufTy).Contents (Elt Ideal)) a b)
      = fun v => rowSum (fun i => T (ix2 (i 1) (i 0))) (v 0) := by
  funext i
  obtain ⟨v, rfl⟩ : ∃ v, i = ix1 v := ⟨i 0, eq_ix1 i⟩
  show concatenate S1000000 0 [⟨S327680, a⟩, ⟨S672320, b⟩] concatenates_S327680_S672320_S1000000_d0 (ix1 v)
      = rowSum (fun i => T (ix2 (i 1) (i 0))) v
  by_cases hv : v.val < 327680
  · rw [cat_apply_left a b v hv]
    exact (ha ⟨v.val, hv⟩).trans (rowSum_transposeT T v)
  · have hv' : 327680 ≤ v.val := Nat.le_of_not_lt hv
    rw [cat_apply_right a b v hv', hb ⟨v.val - 327680, by have := v.isLt; omega⟩, rowSum_transposeT]
    exact congrArg (rowSum fun i => T (ix2 (i 1) (i 0))) (Fin.ext (by show 327680 + (v.val - 327680) = v.val; omega))

/-! ## The bridge -/

/-- THE KERNEL'S VALUE: with the two halves at the row sums of the transposed table and every tile's lane at its partial
    sum over the transposed indices and the joined row sums, the host tail is the reference's numerator over the printed
    constant. (The range of the indices is not used: a row number is read modulo the table's height.) -/
theorem kernel_value (X : IVec S16384x26 32) (T : FVec Ideal S1000000x32 .f32) (hX : ∀ i, (X i).toNat < 1000000)
    (a : S327680.Idx → EReal) (b : S672320.Idx → EReal) (Pm : S32x16.Idx → EReal)
    (ha : ∀ v : Fin 327680, a (ix1 v) = rowSum (((transpose S32x1000000 [1, 0] · transposes_S1000000x32_S32x1000000_1_0) :
        (⟨S1000000x32, .f32⟩ : BufTy).Contents (Elt Ideal) → (⟨S32x1000000, .f32⟩ : BufTy).Contents (Elt Ideal)) T)
          ⟨v.val, by have := v.isLt; omega⟩)
    (hb : ∀ v : Fin 672320, b (ix1 v) = rowSum (((transpose S32x1000000 [1, 0] · transposes_S1000000x32_S32x1000000_1_0) :
        (⟨S1000000x32, .f32⟩ : BufTy).Contents (Elt Ideal) → (⟨S32x1000000, .f32⟩ : BufTy).Contents (Elt Ideal)) T)
          ⟨327680 + v.val, by have := v.isLt; omega⟩)
    (hP : ∀ w l, Pm (ix2 w l) = partSum
        (((transpose S26x16384 [1, 0] · transposes_S16384x26_S26x16384_1_0) :
          (⟨S16384x26, .i32⟩ : BufTy).Contents (Elt Ideal) → (⟨S26x16384, .i32⟩ : BufTy).Contents (Elt Ideal)) X)
        (((fun a b => concatenate S1000000 0 [⟨S327680, a⟩, ⟨S672320, b⟩] concatenates_S327680_S672320_S1000000_d0) :
          (⟨S327680, .f32⟩ : BufTy).Contents (Elt Ideal) → (⟨S672320, .f32⟩ : BufTy).Contents (Elt Ideal) → (⟨S1000000, .f32⟩ : BufTy).Contents (Elt Ideal)) a b)
        w l) :
    Host.divf (F := Ideal) (φ := .f32)
        (Host.reduceAdd (F := Ideal) (φ := .f32) Pm (constant S_ .f32 0x00000000#32) reducesTo_S32x16_S_d0_1 h_S_)
        (constant S_ .f32 0x4B500000#32)
      = fun _ => Ideal.div (total X T) (Ideal.ofBits .f32 0x4B500000#32) := by
  rw [kernel_tail]
  have hs : (∑ w : Fin 32, ∑ l : Fin 16, Pm (ix2 w l)) = total X T := by
    rw [← total_eq X T]
    refine Finset.sum_congr rfl fun w _ => Finset.sum_congr rfl fun l _ => ?_
    rw [hP w l, transposeX_eq X, cat_eq T a b ha hb]
  rw [hs]

end Cert.Proof.Alg

end
-- ==== Proof.Alg.Tile0Ideal.lean ====
/-
  The first SparseCore call's value at the ideal instance: a left-to-right sum of 32 extended reals is their sum, so entry
  `v` of the call's result is the sum of column `v` of the transposed table.
-/
import proofs.«203338_g27195732918861_cont_9to1_1050_16_alg».proof.Proof.KI.ColSum
import proofs.«203338_g27195732918861_cont_9to1_1050_16_alg».proof.Proof.Alg.Spec
import Mathlib.Algebra.BigOperators.Fin

noncomputable section

open scoped BigOperators

namespace Cert.Proof.Alg

open Cert.KernelIdeal Idealize.ShloMosaic Idealize.ShloMosaic.ValueIdx

/-- Thirty-two extended reals added from left to right are their sum. -/
theorem lsum32_ideal (a : Fin 32 → Ideal .f32) : KI.lsum32 a = ∑ r, a r := by
  simp only [Fin.sum_univ_castSucc, Fin.sum_univ_zero, zero_add]
  rfl

/-- Entry `v` of the first call's result is the sum of column `v` of the transposed table. -/
theorem tile0Val_ideal {d : Dev nD} (TT : Buf (Elt Ideal) (KI.ttLoc d)) (v : Fin 327680) :
    KI.tile0Val (F := Ideal) (d := d) TT (ix1 v) = Alg.rowSum TT ⟨v.val, by have := v.isLt; omega⟩ := by
  unfold KI.tile0Val Alg.rowSum
  rw [lsum32_ideal]
  rfl

end Cert.Proof.Alg

end
-- ==== Proof.Alg.Tile1Ideal.lean ====
/-
  The second SparseCore call's value at the ideal instance: sums of extended reals added in any order are their sum, so
  lane `l` of tile `w`'s accumulator after its 104 chunks is the sum, over the chunks and their eight sixteen-lane pieces,
  of the row sums at the tile's index words.
-/
import proofs.«203338_g27195732918861_cont_9to1_1050_16_alg».proof.Proof.KI.Tile1Val
import proofs.«203338_g27195732918861_cont_9to1_1050_16_alg».proof.Proof.Alg.Spec
import Idealize.ShloMosaic.PureOps.Ideal.Laws
import Mathlib.Algebra.BigOperators.Fin

noncomputable section

open scoped BigOperators

namespace Cert.Proof.Alg

open Cert.KernelIdeal Cert.KernelIdeal.Gen Idealize.ShloMosaic Idealize.ShloMosaic.ValueIdx

variable {d : Dev nD}

/-- A chunk's word, as an extended real. -/
def cw (I : Buf (Elt Ideal) (KI.itLoc d)) (R : Buf (Elt Ideal) (KI.raLoc d)) (w j p : ℕ) : EReal :=
  KI.chunkWord (F := Ideal) I R w j p

/-- A piece at a lane is the chunk's word there. -/
theorem pieceV_apply (I : Buf (Elt Ideal) (KI.itLoc d)) (R : Buf (Elt Ideal) (KI.raLoc d)) (w j r : ℕ) (y : S16.Idx) :
    (KI.pieceV (F := Ideal) I R w j r y : EReal) = cw I R w j (16 * r + (y 0).val) := by
  unfold KI.pieceV shapeCast cw
  rw [Shape.reshapeEquiv_self]

/-- A chunk's sum at a lane is the sum of its eight pieces' words there. -/
theorem chunkSum_apply (I : Buf (Elt Ideal) (KI.itLoc d)) (R : Buf (Elt Ideal) (KI.raLoc d)) (w j : ℕ) (y : S16.Idx) :
    (KI.chunkSum (F := Ideal) I R w j y : EReal) = ∑ r : Fin 8, cw I R w j (16 * r.val + (y 0).val) := by
  unfold KI.chunkSum
  simp only [addf_apply, pieceV_apply, Fin.sum_univ_eight]
  rfl

/-- The accumulator after `n` chunks, at a lane: the sum of the chunks' sums there. -/
theorem accAt_apply (I : Buf (Elt Ideal) (KI.itLoc d)) (R : Buf (Elt Ideal) (KI.raLoc d)) (w : ℕ) (y : S16.Idx) :
    ∀ n, (KI.accAt (F := Ideal) I R w n y : EReal) = ∑ j ∈ Finset.range n, (KI.chunkSum (F := Ideal) I R w j y : EReal)
  | 0 => by
    rw [Finset.range_zero, Finset.sum_empty]
    show Ideal.ofBits .f32 0x00000000#32 = 0
    exact Ideal.ofBits_zero_f32
  | n + 1 => by
    rw [Finset.sum_range_succ, ← accAt_apply I R w y n]
    rfl

/-- Entry (w, l) of the second call's result is lane `l` of tile `w`'s partial sum. -/
theorem tile1Val_ideal (I : Buf (Elt Ideal) (KI.itLoc d)) (R : Buf (Elt Ideal) (KI.raLoc d)) (hI : ∀ i, (I i).toNat < 1000000)
    (w : Fin 32) (l : Fin 16) : KI.tile1Val (F := Ideal) (d := d) I R (ix2 w l) = Alg.partSum I R w l := by
  show (k2_pay3 (KI.accAt (F := Ideal) I R w.val 104) (ix1 l) : EReal) = _
  unfold k2_pay3 shapeCast
  rw [Shape.reshapeEquiv_self, accAt_apply, Finset.sum_range]
  unfold partSum
  refine Finset.sum_congr rfl fun j _ => ?_
  rw [chunkSum_apply]
  refine Finset.sum_congr rfl fun r _ => ?_
  have hj := j.isLt; have hw := w.isLt; have hr := r.isLt; have hl := l.isLt
  unfold cw KI.chunkWord
  have e1 : (⟨(j.val / 4) % 26, Nat.mod_lt _ (by norm_num)⟩ : Fin 26) = ⟨j.val / 4, by omega⟩ :=
    Fin.ext (Nat.mod_eq_of_lt (by omega))
  have e2 : (⟨(w.val * 512 + (j.val % 4) * 128 + (16 * r.val + l.val)) % 16384, Nat.mod_lt _ (by norm_num)⟩ : Fin 16384)
      = ⟨w.val * 512 + (j.val % 4) * 128 + r.val * 16 + l.val, by omega⟩ :=
    Fin.ext (by
      show (w.val * 512 + (j.val % 4) * 128 + (16 * r.val + l.val)) % 16384 = w.val * 512 + (j.val % 4) * 128 + r.val * 16 + l.val
      omega)
  show R (ix1 (KI.rowOf1 (I (ix2 (⟨(j.val / 4) % 26, _⟩ : Fin 26)
    (⟨(w.val * 512 + (j.val % 4) * 128 + (16 * r.val + l.val)) % 16384, _⟩ : Fin 16384))).toNat)) = _
  rw [e1, e2]
  rfl

end Cert.Proof.Alg

end
-- ==== Proof.KI.RegionVal.lean ====
/-
  What the TensorCore region leaves in the second piece of the row sums, read column by column: column `v` lies in
  the block of point `v / 65536`, at lane `v % 65536`, no later point's block covers it, and what the write-back of
  that point wrote there is the lane of the column sums of the input block as fetched — the table's columns
  327680 + v on the rows inside the array.
-/
import proofs.«203338_g27195732918861_cont_9to1_1050_16_alg».proof.Proof.KI.Region
import Idealize.ShloMosaic.Lib.ValueIdx

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)
open Idealize.ShloMosaic.ValueIdx

variable {F : FTy → Type} [FloatOps F]

/-! ## The windows' block indices and cuts, point by point -/

/-- The output window's block at point `u` is block `u`, cut at the array's end. -/
theorem win1_at (u : Fin cfg0.N) :
    win0_1.index u 0 = u.val ∧ win0_1.xsize (grid0.coords u) 0 = min 65536 (672320 - u.val * 65536) := by
  rcases fin_N0 u with rfl | rfl | rfl | rfl | rfl | rfl | rfl | rfl | rfl | rfl | rfl <;> decide +kernel

/-- The input window's block at point `u` is the block of all rows and columns `(u + 5) * 65536 ‥`, cut at the array's end. -/
theorem win0_at (u : Fin cfg0.N) :
    win0_0.index u 0 = 0 ∧ win0_0.index u 1 = u.val + 5 ∧ win0_0.xsize (grid0.coords u) 0 = 32
      ∧ win0_0.xsize (grid0.coords u) 1 = min 65536 (1000000 - (u.val + 5) * 65536) := by
  rcases fin_N0 u with rfl | rfl | rfl | rfl | rfl | rfl | rfl | rfl | rfl | rfl | rfl <;> decide +kernel

/-- The one axis of a rank-1 shape. -/
theorem fin1_eq {n : Nat} (hn : n = 1) (a : Fin n) : a = ⟨0, by omega⟩ := Fin.ext (by have := a.isLt; show a.val = 0; omega)

/-- The point whose block holds column `v` of the second piece, and the column's lane in it. -/
def ptOf (v : Fin 672320) : Fin cfg0.N := ⟨v.val / 65536, by rw [show cfg0.N = 11 from N_0]; have := v.isLt; omega⟩
def laneOf (v : Fin 672320) : Fin 65536 := ⟨v.val % 65536, Nat.mod_lt _ (by norm_num)⟩

/-- Column `v` is in point `u`'s block iff it is among the block's columns inside the array. -/
theorem mem_blk1 (u : Fin cfg0.N) (v : Fin 672320) :
    (ix1 v : S672320.Idx) ∈ (win0_1.blk u).view.setOn Finset.univ
      ↔ u.val * 65536 ≤ v.val ∧ v.val < u.val * 65536 + win0_1.xsize (grid0.coords u) 0 := by
  rw [View.setOn_univ]
  show (ix1 v : S672320.Idx) ∈ ((View.whole main_v1).slice (win0_1.rect u)).set ↔ _
  rw [View.set_slice_whole, Rect.mem_set_unit]
  constructor
  · intro h
    have h0 : win0_1.index u 0 * 65536 ≤ v.val ∧ v.val < win0_1.index u 0 * 65536 + win0_1.xsize (grid0.coords u) 0 := h 0
    rw [(win1_at u).1] at h0; exact h0
  · intro h a
    obtain rfl := fin1_eq (rfl : main_v1.ty.shape.rank = 1) a
    show win0_1.index u 0 * 65536 ≤ v.val ∧ v.val < win0_1.index u 0 * 65536 + win0_1.xsize (grid0.coords u) 0
    rw [(win1_at u).1]; exact h

section Apply

variable (O : Dev nD → CellTallies nD τ sig (HIx 2)) (b : ℕ)
  (TT : (c : Dev nD) → Buf (Elt F) (ttLoc c)) (f0 : (c : Dev nD) → Buf (Elt F) (rtLoc c))

/-- After the write-backs of the points below `n`, every column below `n * 65536` holds its lane of the column sums of
    its point's input block, filled past the array's end with something. -/
theorem arrAt_apply (c : Dev nD) : ∀ (n : Nat) (hn : n ≤ cfg0.N) (G : Buf (Elt F) (rtLoc c)),
    (rdats O b TT f0 0 c).ArrAt 1 n G → ∀ v : Fin 672320, v.val < n * 65536 →
      ∃ d, G (ix1 v) = k0_pay1 (win0_0.fill (grid0.coords (ptOf v)) d (inBlk TT c (ptOf v))) (ix1 (laneOf v))
  | 0, _, _, _, v, hv => absurd hv (by omega)
  | n + 1, hn, G, h, v, hv => by
    have hn' : n < cfg0.N := hn
    have e : (rdats O b TT f0 0 c).ArrAt 1 (n + 1)
        = if (cfg0.win 1).flush ⟨n, hn'⟩ then (rdats O b TT f0 0 c).ArrStep 1 ⟨n, hn'⟩ ((rdats O b TT f0 0 c).ArrAt 1 n)
          else (rdats O b TT f0 0 c).ArrAt 1 n := (rdats O b TT f0 0 c).ArrAt_succ (1 : Fin 2) ⟨n, hn'⟩
    rw [e, if_pos (flush0_1 _)] at h
    obtain ⟨G₀, X, hG₀, ⟨Y, -, hX⟩, rfl⟩ := h
    obtain ⟨dd, rfl⟩ : ∃ d, X = k0_pay1 (win0_0.fill (grid0.coords ⟨n, hn'⟩) d (inBlk TT c ⟨n, hn'⟩)) := hX
    have hN : n < 11 := by rw [← N_0]; exact hn'
    have hx : win0_1.xsize (grid0.coords ⟨n, hn'⟩) 0 = min 65536 (672320 - n * 65536) := (win1_at ⟨n, hn'⟩).2
    have hv' := v.isLt
    by_cases hvn : v.val < n * 65536
    · obtain ⟨d, hd⟩ := arrAt_apply c n (Nat.le_of_lt hn') G₀ hG₀ v hvn
      refine ⟨d, ?_⟩
      rw [View.write_of_not_mem _ _ _ (fun hm => by
        have h1 : n * 65536 ≤ v.val := ((mem_blk1 ⟨n, hn'⟩ v).mp hm).1
        omega)]
      exact hd
    · have hpt : ptOf v = ⟨n, hn'⟩ := Fin.ext (by show v.val / 65536 = n; omega)
      refine ⟨dd, ?_⟩
      rw [hpt]
      -- the block's own index of column `v`
      let x : (win0_1.xblock (grid0.coords ⟨n, hn'⟩)).Idx := fun a => ⟨v.val - n * 65536, by
        obtain rfl := fin1_eq (rfl : (win0_1.xblock (grid0.coords ⟨n, hn'⟩)).rank = 1) a
        show v.val - n * 65536 < win0_1.xsize (grid0.coords ⟨n, hn'⟩) 0
        rw [hx]; omega⟩
      have hemb : (win0_1.blk ⟨n, hn'⟩).view.emb x = (ix1 v : S672320.Idx) := by
        funext a
        obtain rfl := fin1_eq (rfl : (win0_1.blk ⟨n, hn'⟩).view.ty.shape.rank = 1) a
        apply Fin.ext
        show win0_1.index ⟨n, hn'⟩ 0 * 65536 + 1 * (v.val - n * 65536) = v.val
        rw [(win1_at ⟨n, hn'⟩).1]; show n * 65536 + 1 * (v.val - n * 65536) = v.val; omega
      have hinj : win0_1.xinj (grid0.coords ⟨n, hn'⟩) x = (ix1 (laneOf v) : S65536.Idx) := by
        funext a
        obtain rfl := fin1_eq (rfl : win0_1.block.rank = 1) a
        apply Fin.ext
        show v.val - n * 65536 = v.val % 65536
        omega
      rw [← hemb, View.write_emb_of_mem _ _ (Finset.mem_univ x)]
      show k0_pay1 (win0_0.fill (grid0.coords ⟨n, hn'⟩) dd (inBlk TT c ⟨n, hn'⟩)) (win0_1.xinj (grid0.coords ⟨n, hn'⟩) x) = _
      rw [hinj]

/-- So of what the region may leave: every column holds its lane of the column sums of its point's input block. -/
theorem regionRel_apply {c : Dev nD} {G : Buf (Elt F) (rtLoc c)} (h : RegionRel O b TT f0 c G) (v : Fin 672320) :
    ∃ d, G (ix1 v) = k0_pay1 (win0_0.fill (grid0.coords (ptOf v)) d (inBlk TT c (ptOf v))) (ix1 (laneOf v)) :=
  arrAt_apply O b TT f0 c cfg0.N le_rfl G h v (by rw [show cfg0.N = 11 from N_0]; have := v.isLt; omega)

end Apply

/-- The same on one device. -/
theorem RR_apply {d : Dev nD} {TT : Buf (Elt F) (ttLoc d)} {G : Buf (Elt F) (rtLoc d)} (h : RR d TT G) (v : Fin 672320) :
    ∃ dd, G (ix1 v) = k0_pay1 (win0_0.fill (grid0.coords (ptOf v)) dd ((win0_0.blk (ptOf v)).view.read (Elt F) TT)) (ix1 (laneOf v)) := by
  obtain ⟨O, b, f0, h⟩ := h
  exact regionRel_apply O b (famT d TT) f0 h v

/-- An element of the input block as fetched, on a column inside the array, is the table's. -/
theorem fill_inside {d : Dev nD} (TT : Buf (Elt F) (ttLoc d)) (u : Fin cfg0.N) (dd : S32x65536.Idx → Elt F .f32) (r : Fin 32) (l : Fin 65536)
    (hl : (u.val + 5) * 65536 + l.val < 1000000) :
    win0_0.fill (grid0.coords u) dd ((win0_0.blk u).view.read (Elt F) TT) (ix2 r l)
      = TT (ix2 r ⟨(u.val + 5) * 65536 + l.val, hl⟩) := by
  obtain ⟨hi0, hi1, hx0, hx1⟩ := win0_at u
  let x : (win0_0.xblock (grid0.coords u)).Idx := fun a => ⟨(ix2 r l a).val, by
    match a with
    | ⟨0, _⟩ => show r.val < win0_0.xsize (grid0.coords u) 0; rw [hx0]; exact r.isLt
    | ⟨1, _⟩ => show l.val < win0_0.xsize (grid0.coords u) 1; rw [hx1]; have := l.isLt; omega⟩
  have hinj : win0_0.xinj (grid0.coords u) x = (ix2 r l : S32x65536.Idx) := by
    funext a; apply Fin.ext; rfl
  rw [← hinj, Window.fill_xinj, View.read_apply]
  have hemb : (win0_0.blk u).view.emb x = (ix2 r ⟨(u.val + 5) * 65536 + l.val, hl⟩ : S32x1000000.Idx) := by
    funext a
    match a with
    | ⟨0, _⟩ =>
      apply Fin.ext
      show win0_0.index u 0 * 32 + 1 * r.val = r.val
      rw [hi0]; omega
    | ⟨1, _⟩ =>
      apply Fin.ext
      show win0_0.index u 1 * 65536 + 1 * l.val = (u.val + 5) * 65536 + l.val
      rw [hi1]; omega
  rw [hemb]; rfl

end Cert.Proof.KI

end
-- ==== Proof.Alg.RegionIdeal.lean ====
/-
  The TensorCore region's result at the ideal values: column `v` of the second piece of the row sums is the sum of
  the 32 features of table row `327680 + v`. The kernel's column sums read at the extended reals are Finset sums, each
  lane reading its own column only, so what fills the last block's staging buffer past the array's end does not matter.
-/
import proofs.«203338_g27195732918861_cont_9to1_1050_16_alg».proof.Proof.KI.RegionVal
import proofs.«203338_g27195732918861_cont_9to1_1050_16_alg».proof.Proof.Alg.Spec
import Idealize.ShloMosaic.PureOps.Ideal.Laws

noncomputable section

open scoped BigOperators

namespace Cert.Proof.Alg

open Cert.KernelIdeal Cert.KernelIdeal.Gen Cert.Proof.KI

open Idealize.ShloMosaic Idealize.ShloMosaic.ValueIdx

/-- At the ideal values lane `j` of the kernel's column sums is the sum of column `j` of what was loaded. -/
theorem k0_pay1_ideal (X : Vec Ideal S32x65536 .f32) (j : Fin 65536) :
    k0_pay1 (F := Ideal) X (ix1 j) = ∑ r : Fin 32, X (ix2 r j) := by
  unfold k0_pay1
  refine (Ideal.multiReduction_add_single (shapeCast S32x65536 X shapeCasts_S32x65536_S32x65536) _ reduces_S32x65536_S65536 _ _ (ix1 j)).trans ?_
  refine Finset.sum_congr rfl fun r _ => ?_
  unfold shapeCast
  rw [Shape.reshapeEquiv_self]
  congr 1
  funext a
  match a with
  | ⟨0, _⟩ => rfl
  | ⟨1, _⟩ => rfl

/-- What the region leaves in the second piece of the row sums, at the ideal values: the row sums of the table's rows
    327680 ‥ 999999. -/
theorem RR_ideal (d : Dev nD) (TT : Buf (Elt Ideal) (ttLoc d)) (G : Buf (Elt Ideal) (rtLoc d)) (h : RR (F := Ideal) d TT G)
    (v : Fin 672320) : G (ix1 v) = rowSum TT ⟨327680 + v.val, by have := v.isLt; omega⟩ := by
  obtain ⟨dd, hG⟩ := RR_apply h v
  have hv := v.isLt
  have hl : ((ptOf v).val + 5) * 65536 + (laneOf v).val < 1000000 := by
    show (v.val / 65536 + 5) * 65536 + v.val % 65536 < 1000000; omega
  have hG' : (G (ix1 v) : EReal)
      = k0_pay1 (F := Ideal) (win0_0.fill (grid0.coords (ptOf v)) dd ((win0_0.blk (ptOf v)).view.read (Elt Ideal) TT)) (ix1 (laneOf v)) := hG
  rw [k0_pay1_ideal] at hG'
  show (G (ix1 v) : EReal) = rowSum TT ⟨327680 + v.val, _⟩
  refine hG'.trans ?_
  unfold rowSum
  show (@Finset.sum (Fin 32) EReal _ Finset.univ fun r =>
      win0_0.fill (grid0.coords (ptOf v)) dd ((win0_0.blk (ptOf v)).view.read (Elt Ideal) TT) (ix2 r (laneOf v))) = _
  refine Finset.sum_congr rfl fun r _ => ?_
  have e := fill_inside TT (ptOf v) dd r (laneOf v) hl
  refine e.trans ?_
  congr 2
  apply Fin.ext
  show (v.val / 65536 + 5) * 65536 + v.val % 65536 = 327680 + v.val
  omega

end Cert.Proof.Alg

end
-- ==== Proof.Ref.Run.lean ====
import proofs.«203338_g27195732918861_cont_9to1_1050_16_alg».proof.Proof.Gen.ReferenceIdeal
import Idealize.ShloMosaic.Lib.StableHlo.Run

/-! # The reference's run

The reference program's @main calls the outlined lookup function, which calls the outlined select.
Listed with each callee's operations in place of its call, @main is a straight line of 27 host operations;
its run ends with the result buffer at the operations' composed pure term of the two arguments
(`refTerm`) and the arguments unchanged. -/

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The index array with negative entries wrapped by the table's height: `x < 0 ? x + 1000000 : x`. -/
def wrapped (X : IVec S16384x26 32) : IVec S16384x26 32 :=
  select (cmpi .slt X (broadcastInDim S16384x26 ![] bcast_S_S16384x26 (constantI S_ 32 0#32)))
    (addi X (broadcastInDim S16384x26 ![] bcast_S_S16384x26 (constantI S_ 32 1000000#32))) X

/-- The wrapped indices as start indices of the gather: a trailing axis of extent one. -/
def starts (X : IVec S16384x26 32) : IVec S16384x26x1 32 :=
  broadcastInDim S16384x26x1 ![0, 1] bcast_S16384x26_S16384x26x1_0_1 (wrapped X)

/-- Which wrapped indices name a row of the table: `0 ≤ i ∧ i ≤ 999999`, conjoined along the trailing axis. -/
def inRange (X : IVec S16384x26 32) : IVec S16384x26 1 :=
  Host.reduce IntOp.andi
    (andi (cmpi .sge (starts X) (broadcastInDim S16384x26x1 ![] bcast_S_S16384x26x1 (constantI S_ 32 0#32)))
      (cmpi .sle (starts X)
        (broadcastInDim S16384x26x1 ![0, 1, 2] bcast_S1x1x1_S16384x26x1_0_1_2
          (broadcastInDim S1x1x1 ![2] bcast_S1_S1x1x1_2 (constantI S1 32 999999#32)))))
    (constantI S_ 1 1#1) reducesTo_S16384x26x1_S16384x26_d2 h_S_

/-- The looked-up rows: the gathered row where the index is in range, the fill value elsewhere. -/
def taken (X : IVec S16384x26 32) (T : FVec F S1000000x32 .f32) : FVec F S16384x26x32 .f32 :=
  select (broadcastInDim S16384x26x32 ![0, 1] bcast_S16384x26_S16384x26x32_0_1 (inRange X))
    (Host.gather gather_S1000000x32_S16384x26x1_S16384x26x32_2_0_n_n_0_2_132 T (starts X))
    (broadcastInDim S16384x26x32 ![] bcast_S_S16384x26x32 (constant S_ .f32 0x7FC00000#32))

/-- The reference's result as a pure term of its arguments: the sum of all looked-up elements divided by their number. -/
def refTerm (X : IVec S16384x26 32) (T : FVec F S1000000x32 .f32) : FVec F S_ .f32 :=
  Host.divf (Host.reduceAdd (taken X T) (constant S_ .f32 0x00000000#32) reducesTo_S16384x26x32_S_d0_1_2 h_S_)
    (constant S_ .f32 0x4B500000#32)

/-- @main's 27 operations, in order, the two callees' operations in place of their calls. -/
abbrev ops : List (HloOp τ sig (Elt F)) :=
  [ TRef.nullary main_call0.c (constantI S_ 32 0#32),
    TRef.unary main_call0.c main_call0.v0 (broadcastInDim S16384x26 ![] bcast_S_S16384x26),
    TRef.binary (.of main_arg0) main_call0.v0 main_call0.v1 (cmpi .slt),
    TRef.nullary main_call0.c_0 (constantI S_ 32 1000000#32),
    TRef.unary main_call0.c_0 main_call0.v2 (broadcastInDim S16384x26 ![] bcast_S_S16384x26),
    TRef.binary (.of main_arg0) main_call0.v2 main_call0.v3 addi,
    TRef.ternary main_call0.v1 main_call0.v3 (.of main_arg0) main_call0.call0.v0 select,
    TRef.unary main_call0.call0.v0 main_call0.v5 (broadcastInDim S16384x26x1 ![0, 1] bcast_S16384x26_S16384x26x1_0_1),
    TRef.nullary main_call0.c_1 (constantI S1 32 999999#32),
    TRef.nullary main_call0.c_2 (constantI S_ 32 0#32),
    TRef.unary main_call0.c_2 main_call0.v6 (broadcastInDim S16384x26x1 ![] bcast_S_S16384x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x26x1 ![0, 1, 2] bcast_S1x1x1_S16384x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x26x1_S16384x26_d2 h_S_),
    TRef.binary (.of main_arg1) main_call0.v5 main_call0.v13 (fun x i => Host.gather gather_S1000000x32_S16384x26x1_S16384x26x32_2_0_n_n_0_2_132 x i),
    TRef.unary main_call0.v12 main_call0.v14 (broadcastInDim S16384x26x32 ![0, 1] bcast_S16384x26_S16384x26x32_0_1),
    TRef.nullary main_call0.cst (constant S_ .f32 0x7FC00000#32),
    TRef.unary main_call0.cst main_call0.v15 (broadcastInDim S16384x26x32 ![] bcast_S_S16384x26x32),
    TRef.ternary main_call0.v14 main_call0.v13 main_call0.v15 main_call0.v16 select,
    nullary main_cst (constant S_ .f32 0x00000000#32),
    binary main_v0 main_cst main_v1 ((fun x v => Host.reduceAdd x v reducesTo_S16384x26x32_S_d0_1_2 h_S_) : (⟨S16384x26x32, .f32⟩ : BufTy).Contents (Elt F) → (⟨S_, .f32⟩ : BufTy).Contents (Elt F) → (⟨S_, .f32⟩ : BufTy).Contents (Elt F)),
    nullary main_cst_0 (constant S_ .f32 0x4B500000#32),
    binary main_v1 main_cst_0 main_v2 (Host.divf : (⟨S_, .f32⟩ : BufTy).Contents (Elt F) → (⟨S_, .f32⟩ : BufTy).Contents (Elt F) → (⟨S_, .f32⟩ : BufTy).Contents (Elt F)) ]

-- twenty-seven binds re-associated under the unfolded callees
set_option maxRecDepth 1024 in
/-- @main is that straight line: the callees' definitions unfolded at their calls, both sides are one chain of
    host steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., nullary_bufs_sub .., binary_bufs_sub ..⟩

attribute [local irreducible] Host.reduce Host.gather Host.reduceAdd in
set_option maxRecDepth 8192 in
set_option maxHeartbeats 1000000 in
/-- The fold at the result buffer is `refTerm` of the arguments' contents: each operation's result decides whether
    the buffer read is the one it writes, and the typed references' transports are the identity at literal references. -/
theorem out_eq (V : Valuation τ sig (Elt F)) :
    after ops V (main_v2 : DevRef τ sig) = refTerm (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- From any memory with zero counters: every weakly fair execution of the reference's @main terminates with the
    result at `refTerm` of the arguments and the arguments unchanged. -/
theorem run (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v2) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _), (h c main_arg0).trans (arg0_eq _), (h c main_arg1).trans (arg1_eq _)⟩)
    (run_seq scopedRefs_eq scopedSems_eq defs main (fun _ => ops) main_eq (fun _ => ops_sub) m g)

end Cert.Proof.Ref

end
-- ==== Proof.Ref.Value.lean ====
/-
  The reference's value under the precondition: with every index a row number of the table (`0 ≤ x ≤ 999999`, signed) the
  lookup wraps nothing, clamps nothing and masks nothing, so the looked-up array at `(b, f, e)` is the table at row
  `x[b, f]`, feature `e`; the reduction over all three axes is the sum over the coordinates, and the result is that sum
  divided by the printed constant. Also read off the precondition: the indices' range and the table's finiteness.
-/
import proofs.«203338_g27195732918861_cont_9to1_1050_16_alg».proof.Proof.Ref.Run
import proofs.«203338_g27195732918861_cont_9to1_1050_16_alg».proof.Proof.Alg.Spec
import proofs.«203338_g27195732918861_cont_9to1_1050_16_alg».proof.Pre_input_domain
import Idealize.ShloMosaic.Lib.ReduceAll
import Idealize.ShloMosaic.Lib.IdealHost
import Idealize.ShloMosaic.Lib.Pipeline.Value

noncomputable section

open scoped BigOperators

namespace Cert.Proof.Ref

open Cert.ReferenceIdeal Cert.ReferenceIdeal.Gen Idealize.ShloMosaic Idealize.ShloMosaic.ValueIdx

variable [hP : Cert.Pre_input_domain.Facts]

/-! ## Small facts on words and extended reals -/

theorem ofBool_eq_one (p : Bool) : (BitVec.ofBool p = 1#1) ↔ p = true := by cases p <;> decide

/-- The f32 pattern `0x7F800000` is `+∞`. -/
theorem ofBits_inf_f32 : Ideal.ofBits .f32 0x7F800000#32 = ⊤ := by simp [Ideal.ofBits, Ideal.ieee]

/-- A word that is not negative as a signed integer is its own unsigned value. -/
theorem toInt_toNat_of_nonneg {v : BitVec 32} (h : 0 ≤ v.toInt) : v.toInt.toNat = v.toNat := by
  have hlt := v.isLt
  rw [BitVec.toInt_eq_toNat_cond] at h ⊢
  split_ifs at h ⊢ with hc
  · simp
  · omega

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    rw [List.foldl_cons]
    refine foldl_andi_one f l _ ?_ (fun n hn => h n (List.mem_cons_of_mem _ hn))
    rw [hi, h a List.mem_cons_self]; decide

/-- A rank-3 index is its three coordinates … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The precondition, element by element -/

local instance : Subsingleton Cert.Pre_input_domain.S_.Idx := ⟨fun a b => funext fun d => d.elim0⟩

/-- The precondition read at an element: every table entry's absolute value is below `+∞`, every index is at least 0
    and at most 999999 as a signed word. -/
theorem pre_elem (X : IVec S16384x26 32) (T : FVec Ideal S1000000x32 .f32)
    (hpre : Cert.Pre_input_domain.fn (F := Ideal) X T = fun _ => 1#1) :
    (∀ i, Ideal.cmp .olt (max (T i) (-(T i))) (Ideal.ofBits .f32 0x7F800000#32) = 1#1)
    ∧ (∀ i, IntOp.cmpi .sge (X i) 0#32 = 1#1 ∧ IntOp.cmpi .sle (X i) 999999#32 = 1#1) := by
  have e := congrFun hpre ix0
  dsimp only [Cert.Pre_input_domain.fn] at e
  obtain ⟨e1, e2⟩ := IntOp.andi_eq_one.1 e
  refine ⟨fun i => ?_, fun i => ?_⟩
  · exact Host.reduce_andi_all _ _ _ _ _ e1 i
  · exact IntOp.andi_eq_one.1 (Host.reduce_andi_all _ _ _ _ _ e2 i)

/-- Every index is between 0 and 999999 as a signed integer. -/
theorem idx_bounds (X : IVec S16384x26 32) (T : FVec Ideal S1000000x32 .f32)
    (hpre : Cert.Pre_input_domain.fn (F := Ideal) X T = fun _ => 1#1) (i : S16384x26.Idx) :
    0 ≤ (X i).toInt ∧ (X i).toInt ≤ 999999 := by
  obtain ⟨h1, h2⟩ := (pre_elem X T hpre).2 i
  have a := IntOp.cmpi_sge.1 h1
  have b := IntOp.cmpi_sle.1 h2
  have z : (0#32 : BitVec 32).toInt = 0 := by decide
  have n : (999999#32 : BitVec 32).toInt = 999999 := by decide
  omega

/-- Every index names a row of the table. -/
theorem idx_in_range (X : IVec S16384x26 32) (T : FVec Ideal S1000000x32 .f32)
    (hpre : Cert.Pre_input_domain.fn (F := Ideal) X T = fun _ => 1#1) : ∀ i, (X i).toNat < 1000000 := by
  intro i
  obtain ⟨a, b⟩ := idx_bounds X T hpre i
  have h := toInt_toNat_of_nonneg a
  omega

/-- Every table entry is a real number. -/
theorem table_finite (X : IVec S16384x26 32) (T : FVec Ideal S1000000x32 .f32)
    (hpre : Cert.Pre_input_domain.fn (F := Ideal) X T = fun _ => 1#1) : ∀ i, T i ≠ ⊤ ∧ T i ≠ ⊥ := by
  intro i
  have h := (pre_elem X T hpre).1 i
  rw [ofBits_inf_f32] at h
  have h' : max (T i) (-(T i)) < ⊤ := by
    simpa [Ideal.cmp, ofBool_eq_one] using h
  constructor
  · intro e; rw [e] at h'; simp at h'
  · intro e; rw [e] at h'; simp at h'

/-! ## The lookup under the precondition -/

/-- No index is negative: the wrap keeps every index. -/
theorem wrapped_eq (X : IVec S16384x26 32) (T : FVec Ideal S1000000x32 .f32)
    (hpre : Cert.Pre_input_domain.fn (F := Ideal) X T = fun _ => 1#1) : wrapped X = X := by
  funext i
  show Scalar.select (IntOp.cmpi .slt (X i) 0#32) (IntOp.addi (X i) 1000000#32) (X i) = X i
  have hn : ¬ IntOp.cmpi .slt (X i) 0#32 = 1#1 := fun h => by
    have h1 := IntOp.cmpi_slt.1 h
    have h2 := (idx_bounds X T hpre i).1
    have z : (0#32 : BitVec 32).toInt = 0 := by decide
    omega
  rw [eq_zero_of_ne_one hn, select_zero]

/-- The start indices at `(b, f, 0)` are the wrapped indices at `(b, f)`. -/
theorem starts_apply (X : IVec S16384x26 32) (j : S16384x26x1.Idx) : starts X j = wrapped X (ix2 (j 0) (j 1)) := by
  unfold starts
  exact broadcastInDim_apply _ _ _ _ (ix2 (j 0) (j 1)) (fun a => by match a with | ⟨0, _⟩ => rfl | ⟨1, _⟩ => rfl)

/-- Every index is in range: the mask is all ones. -/
theorem inRange_eq (X : IVec S16384x26 32) (T : FVec Ideal S1000000x32 .f32)
    (hpre : Cert.Pre_input_domain.fn (F := Ideal) X T = fun _ => 1#1) : inRange X = fun _ => 1#1 := by
  funext j
  unfold inRange
  rw [Host.reduce_eq_foldl]
  refine foldl_andi_one _ _ _ rfl (fun n _ => ?_)
  show IntOp.andi (IntOp.cmpi .sge (starts X n) 0#32) (IntOp.cmpi .sle (starts X n) 999999#32) = 1#1
  rw [starts_apply, wrapped_eq X T hpre]
  exact IntOp.andi_eq_one.2 ((pre_elem X T hpre).2 _)

/-- THE GATHER OF WHOLE ROWS READ AT `(b, f, e)`: the operand at the start index `idx[b, f, 0]`, read signed and clamped
    into `[0, 999999]`, and feature `e`. -/
theorem gather_apply {α : Type} (T : S1000000x32.Idx → α) (idx : IVec S16384x26x1 32) (j : S16384x26x32.Idx) :
    Host.gather gather_S1000000x32_S16384x26x1_S16384x26x32_2_0_n_n_0_2_132 T idx j
      = T (ix2 ⟨min (idx (ix3 (j 0) (j 1) 0)).toInt.toNat (1000000 - 1), by omega⟩ (j 2)) := by
  unfold Host.gather
  congr 1
  funext a
  refine Fin.ext ?_
  show gather_S1000000x32_S16384x26x1_S16384x26x32_2_0_n_n_0_2_132.start j idx a
      + gather_S1000000x32_S16384x26x1_S16384x26x32_2_0_n_n_0_2_132.batchCoord j a
      + gather_S1000000x32_S16384x26x1_S16384x26x32_2_0_n_n_0_2_132.offCoord j a = _
  rw [GatherDims.batchCoord_eq_zero _ _ _ List.not_mem_nil, Nat.add_zero]
  match a with
  | ⟨0, h0⟩ =>
    have hmem : (⟨0, h0⟩ : Fin S1000000x32.rank) ∈ gather_S1000000x32_S16384x26x1_S16384x26x32_2_0_n_n_0_2_132.startIndexMap := List.mem_singleton.mpr rfl
    rw [GatherDims.offCoord_eq_zero _ _ _ (fun h => ((GatherDims.mem_sKept _ _).mp h).1 (List.mem_singleton.mpr rfl)), Nat.add_zero]
    unfold GatherDims.start
    rw [dif_pos hmem]
    have hsi : gather_S1000000x32_S16384x26x1_S16384x26x32_2_0_n_n_0_2_132.siIdx j
        ⟨List.idxOf (⟨0, h0⟩ : Fin S1000000x32.rank) gather_S1000000x32_S16384x26x1_S16384x26x32_2_0_n_n_0_2_132.startIndexMap,
          List.idxOf_lt_length_iff.2 hmem⟩ = ix3 (j 0) (j 1) 0 := by
      funext b; refine Fin.ext ?_
      match b with
      | ⟨0, _⟩ => rfl
      | ⟨1, _⟩ => rfl
      | ⟨2, _⟩ => rfl
    rw [hsi]
    rfl
  | ⟨1, h1⟩ =>
    have hne : (⟨1, h1⟩ : Fin S1000000x32.rank) ∉ ([0] : List (Fin S1000000x32.rank)) := fun h =>
      absurd (congrArg Fin.val (List.mem_singleton.mp h)) Nat.one_ne_zero
    have hnm : (⟨1, h1⟩ : Fin S1000000x32.rank) ∉ gather_S1000000x32_S16384x26x1_S16384x26x32_2_0_n_n_0_2_132.startIndexMap := hne
    have hk : (⟨1, h1⟩ : Fin S1000000x32.rank) ∈ gather_S1000000x32_S16384x26x1_S16384x26x32_2_0_n_n_0_2_132.sKept :=
      (GatherDims.mem_sKept _ _).2 ⟨hne, List.not_mem_nil⟩
    unfold GatherDims.start
    rw [dif_neg hnm, Nat.zero_add]
    unfold GatherDims.offCoord
    rw [dif_pos hk]
    rfl

/-- The looked-up array at `(b, f, e)` is the table at row `x[b, f]`, feature `e`. -/
theorem taken_apply (X : IVec S16384x26 32) (T : FVec Ideal S1000000x32 .f32)
    (hpre : Cert.Pre_input_domain.fn (F := Ideal) X T = fun _ => 1#1) (b : Fin 16384) (f : Fin 26) (e : Fin 32) :
    taken X T (ix3 b f e) = T (ix2 (Alg.rowOf (X (ix2 b f)).toNat) e) := by
  unfold taken
  rw [select_apply]
  have hm : broadcastInDim S16384x26x32 ![0, 1] bcast_S16384x26_S16384x26x32_0_1 (inRange X) (ix3 b f e) = 1#1 := by
    rw [inRange_eq X T hpre]; rfl
  rw [hm, select_one, gather_apply]
  show T (ix2 ⟨min (starts X (ix3 b f 0)).toInt.toNat (1000000 - 1), _⟩ e) = _
  refine congrArg T (congrArg (fun r => ix2 r e) (Fin.ext ?_))
  show min (starts X (ix3 b f 0)).toInt.toNat (1000000 - 1) = (X (ix2 b f)).toNat % 1000000
  rw [starts_apply, wrapped_eq X T hpre]
  show min (X (ix2 b f)).toInt.toNat (1000000 - 1) = (X (ix2 b f)).toNat % 1000000
  have h1 := toInt_toNat_of_nonneg (idx_bounds X T hpre (ix2 b f)).1
  have h2 := idx_in_range X T hpre (ix2 b f)
  rw [h1, Nat.mod_eq_of_lt h2]
  omega

/-! ## The reference's value -/

/-- THE REFERENCE'S RESULT: the sum of every feature of every looked-up row, divided by the printed constant. -/
theorem refTerm_eq (X : IVec S16384x26 32) (T : FVec Ideal S1000000x32 .f32)
    (hpre : Cert.Pre_input_domain.fn (F := Ideal) X T = fun _ => 1#1) :
    refTerm X T = fun _ => Ideal.div (Alg.total X T) (Ideal.ofBits .f32 0x4B500000#32) := by
  funext j
  unfold refTerm
  rw [hostDivf_apply, hostReduceAdd_apply, Ideal.hostReduceAdd_total _ (fun b => b.elim0)]
  show Ideal.div (Ideal.ofBits .f32 0x00000000#32 + ∑ i, taken X T i) (Ideal.ofBits .f32 0x4B500000#32) = _
  rw [Ideal.ofBits_zero_f32, zero_add, sum_idx3]
  have hs : (∑ a : Fin 16384, ∑ b : Fin 26, ∑ c : Fin 32, taken X T (ix3 a b c)) = Alg.total X T := by
    unfold Alg.total
    exact Finset.sum_congr rfl fun b _ => Finset.sum_congr rfl fun f _ => Finset.sum_congr rfl fun e _ => taken_apply X T hpre b f e
  rw [hs]

end Cert.Proof.Ref

end
-- ==== Proof.Ref.IdxRange.lean ====
/-
  The indices' range read off the precondition at any float instance: the precondition is the conjunction of a condition on
  the table and the condition `0 ≤ x ≤ 999999` (signed) on every index; the second half does not look at the floats.
-/
import proofs.«203338_g27195732918861_cont_9to1_1050_16_alg».proof.Pre_input_domain
import Idealize.ShloMosaic.Lib.ReduceAll
import Idealize.ShloMosaic.Lib.ValueIdx

namespace Cert.Proof.Ref

open Idealize.ShloMosaic Idealize.ShloMosaic.ValueIdx

/-- Under the precondition, at any float instance, every index is between 0 and 999999 as a signed integer. -/
theorem idx_bounds' {F : FTy → Type} [FloatOps F] [Cert.Pre_input_domain.Facts]
    (X : IVec Cert.Pre_input_domain.S16384x26 32) (T : FVec F Cert.Pre_input_domain.S1000000x32 .f32)
    (hpre : Cert.Pre_input_domain.fn (F := F) X T = fun _ => 1#1) (i : Cert.Pre_input_domain.S16384x26.Idx) :
    0 ≤ (X i).toInt ∧ (X i).toInt ≤ 999999 := by
  haveI : Subsingleton Cert.Pre_input_domain.S_.Idx := ⟨fun a b => funext fun d => d.elim0⟩
  have e := congrFun hpre ix0
  dsimp only [Cert.Pre_input_domain.fn] at e
  obtain ⟨_, e2⟩ := IntOp.andi_eq_one.1 e
  obtain ⟨h1, h2⟩ := IntOp.andi_eq_one.1 (Host.reduce_andi_all _ _ _ _ _ e2 i)
  have h1' : IntOp.cmpi .sge (X i) 0#32 = 1#1 := h1
  have h2' : IntOp.cmpi .sle (X i) 999999#32 = 1#1 := h2
  have a := IntOp.cmpi_sge.1 h1'
  have b := IntOp.cmpi_sle.1 h2'
  have z : (0#32 : BitVec 32).toInt = 0 := by decide
  have n : (999999#32 : BitVec 32).toInt = 999999 := by decide
  omega

/-- Under the precondition, at any float instance, every index names a row of the table. -/
theorem idx_in_range' {F : FTy → Type} [FloatOps F] [Cert.Pre_input_domain.Facts]
    (X : IVec Cert.Pre_input_domain.S16384x26 32) (T : FVec F Cert.Pre_input_domain.S1000000x32 .f32)
    (hpre : Cert.Pre_input_domain.fn (F := F) X T = fun _ => 1#1) : ∀ i, (X i).toNat < 1000000 := by
  intro i
  obtain ⟨a, b⟩ := idx_bounds' X T hpre i
  have hlt := (X i).isLt
  rw [BitVec.toInt_eq_toNat_cond] at a b
  split_ifs at a b with hc <;> omega

end Cert.Proof.Ref
-- ==== Proof.Claims.RefFrame.lean ====
/-
  The reference's frame: it runs and leaves its arguments unchanged — the reference's run with the result's value dropped.
-/
import proofs.«203338_g27195732918861_cont_9to1_1050_16_alg».proof.Defs
import proofs.«203338_g27195732918861_cont_9to1_1050_16_alg».proof.Proof.Ref.Run
import proofs.«203338_g27195732918861_cont_9to1_1050_16_alg».proof.Proof.Gen.Pre_input_domain
import Idealize.ShloMosaic.PureOps.Ideal

noncomputable section

namespace Cert.Proof

open Idealize.ShloMosaic Idealize.SL.Sem

/-- `Cert.frame_ReferenceIdeal`: from any memory, every weakly fair execution of the reference terminates with both
    arguments unchanged. -/
theorem frame_ReferenceIdeal' :
    Cert.frame_ReferenceIdeal (hReferenceIdeal := Cert.ReferenceIdeal.Gen.facts) (hPre_input_domain := Cert.Pre_input_domain.Gen.facts) :=
  fun m g _ =>
    (θ_run (Cert.ReferenceIdeal.defs (F := Ideal)) _ _).mono (fun _ h c => (h c).2) (Cert.Proof.Ref.run (F := Ideal) m g)

end Cert.Proof

end
-- ==== Proof.Claims.Kernel.lean ====
/-
  The five claims. The word-level program's frame and the idealized program's frame are the program's run with the
  result's value dropped; the reference's frame is its run; the idealization rewrote nothing; and at the ideal instance the
  program's result — the sum over the tiles' lanes of their partial sums of the row sums, divided by the printed constant —
  is the reference's — the sum of every feature of every looked-up row, divided by the same constant — because the row
  sums' two halves are column sums of the transposed table, the lanes' partial sums run over every (batch, field) pair
  exactly once, and finite sums on the extended reals may be regrouped freely.
-/
import proofs.«203338_g27195732918861_cont_9to1_1050_16_alg».proof.Defs
import proofs.«203338_g27195732918861_cont_9to1_1050_16_alg».proof.Proof.Gen.Kernel
import proofs.«203338_g27195732918861_cont_9to1_1050_16_alg».proof.Proof.Gen.KernelIdeal
import proofs.«203338_g27195732918861_cont_9to1_1050_16_alg».proof.Proof.Gen.ReferenceIdeal
import proofs.«203338_g27195732918861_cont_9to1_1050_16_alg».proof.Proof.Gen.Pre_input_domain
import proofs.«203338_g27195732918861_cont_9to1_1050_16_alg».proof.Proof.KI.Run
import proofs.«203338_g27195732918861_cont_9to1_1050_16_alg».proof.Proof.KI.IdxRange
import proofs.«203338_g27195732918861_cont_9to1_1050_16_alg».proof.Proof.KI.Region
import proofs.«203338_g27195732918861_cont_9to1_1050_16_alg».proof.Proof.KI.Tile0
import proofs.«203338_g27195732918861_cont_9to1_1050_16_alg».proof.Proof.KI.Tile1Body
import proofs.«203338_g27195732918861_cont_9to1_1050_16_alg».proof.Proof.KB.Run
import proofs.«203338_g27195732918861_cont_9to1_1050_16_alg».proof.Proof.KB.IdxRange
import proofs.«203338_g27195732918861_cont_9to1_1050_16_alg».proof.Proof.KB.Region
import proofs.«203338_g27195732918861_cont_9to1_1050_16_alg».proof.Proof.KB.Tile0
import proofs.«203338_g27195732918861_cont_9to1_1050_16_alg».proof.Proof.KB.Tile1Body
import proofs.«203338_g27195732918861_cont_9to1_1050_16_alg».proof.Proof.Alg.Bridge
import proofs.«203338_g27195732918861_cont_9to1_1050_16_alg».proof.Proof.Alg.Tile0Ideal
import proofs.«203338_g27195732918861_cont_9to1_1050_16_alg».proof.Proof.Alg.Tile1Ideal
import proofs.«203338_g27195732918861_cont_9to1_1050_16_alg».proof.Proof.Alg.RegionIdeal
import proofs.«203338_g27195732918861_cont_9to1_1050_16_alg».proof.Proof.Ref.Value
import proofs.«203338_g27195732918861_cont_9to1_1050_16_alg».proof.Proof.Ref.IdxRange
import proofs.«203338_g27195732918861_cont_9to1_1050_16_alg».proof.Proof.Claims.RefFrame

noncomputable section

namespace Cert.Proof.Claims

open Idealize.ShloMosaic Idealize.SL.Sem Idealize.ShloMosaic.ValueIdx

/-! ## The word-level program's frame -/

theorem frame_Kernel : Cert.frame_Kernel := fun m ρ hpre =>
  (θ_run Cert.Kernel.defs _ _).mono (fun _ h c => ⟨(h c).1, (h c).2.1⟩)
    (KB.run_main (F := Bits) m ρ (fun _ => KB.tile0Val) (fun _ => KB.tile1Val) KB.RR Cert.Proof.KB.pipeU₀
      (fun d L O W hO q TT f0 => KB.tile0_body d L KB.facts O W hO q TT f0)
      (fun d L O W hO q I R f0 hI => KB.tile1_body KB.facts d L O W hO q I R f0 hI)
      KB.region_spec KB.Otc_none
      (KB.ITv_range m fun d j => Cert.Proof.Ref.idx_in_range' _ _ (hpre d) j)
      KB.pipe_fund)

/-! ## The idealized program's run, its frame and its value -/

theorem run_KernelIdeal (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (Cert.KernelIdeal.threads (F := Ideal)) ⟨m, fun _ => 0, ρ⟩
      (KI.QC m (fun _ => KI.tile0Val) (fun _ => KI.tile1Val) KI.RR) :=
  KI.run_main (F := Ideal) m ρ (fun _ => KI.tile0Val) (fun _ => KI.tile1Val) KI.RR Cert.Proof.KI.pipeU₀
    (fun d L O W hO q TT f0 => KI.tile0_body d L KI.facts O W hO q TT f0)
    (fun d L O W hO q I R f0 hI => KI.tile1_body KI.facts d L O W hO q I R f0 hI)
    KI.region_spec KI.Otc_none
    (KI.ITv_range m fun d j => Cert.Proof.Ref.idx_in_range' _ _ (hpre d) j)
    KI.pipe_fund

theorem frame_KernelIdeal : Cert.frame_KernelIdeal := fun m ρ hpre =>
  (θ_run Cert.KernelIdeal.defs _ _).mono (fun _ h c => ⟨(h c).1, (h c).2.1⟩) (run_KernelIdeal m ρ hpre)

/-- The program's result at the ideal instance, whatever the TensorCore region left past its array's end: the reference's
    numerator over the printed constant. -/
theorem outV_eq (m : (ℓ : Loc Cert.KernelIdeal.nD Cert.KernelIdeal.τ Cert.KernelIdeal.sig) → Buf (Elt Ideal) ℓ) (hpre : Cert.Pre_KernelIdeal m)
    (d : Dev Cert.KernelIdeal.nD) (R : Buf (Elt Ideal) (KI.raLoc d)) (hR : KI.Rel m (fun _ => KI.tile0Val) KI.RR d R) :
    KI.outV m (fun _ => KI.tile1Val) d R
      = fun _ => Ideal.div (Alg.total (m (KI.xLoc d)) (m (KI.tLoc d))) (Ideal.ofBits .f32 0x4B500000#32) := by
  obtain ⟨G, hG, rfl⟩ := hR
  have hX := Cert.Proof.Ref.idx_in_range' _ _ (hpre d)
  exact Alg.kernel_value (m (KI.xLoc d)) (m (KI.tLoc d)) hX (KI.tile0Val (KI.TTv m d)) G _
    (fun v => Alg.tile0Val_ideal (KI.TTv m d) v) (fun v => Alg.RR_ideal d (KI.TTv m d) G hG v)
    (fun w l => Alg.tile1Val_ideal (KI.ITv m d) _ (KI.ITv_range m (fun d j => Cert.Proof.Ref.idx_in_range' _ _ (hpre d) j) d) w l)

/-! ## The claims -/

theorem preserves : Cert.preserves_Kernel_KernelIdeal := trivial

theorem algebraic : Cert.algebraic_KernelIdeal_ReferenceIdeal := by
  intro m ρ m' ρ' hpre hagree
  refine ⟨fun c => fun _ => Ideal.div (Alg.total (m (KI.xLoc c)) (m (KI.tLoc c))) (Ideal.ofBits .f32 0x4B500000#32), ?_, ?_⟩
  · refine (θ_run Cert.KernelIdeal.defs _ _).mono (fun r h c => ?_) (run_KernelIdeal m ρ hpre)
    obtain ⟨hx, ht, R, hR, hv⟩ := h c
    exact ⟨hv.trans (outV_eq m hpre c R hR), hx, ht⟩
  · refine (θ_run Cert.ReferenceIdeal.defs _ _).mono (fun r h c => ⟨(h c).1.trans ?_, (h c).2.1, (h c).2.2⟩)
      (Cert.Proof.Ref.run (F := Ideal) m' ρ')
    rw [(hagree c).1, (hagree c).2]
    exact Cert.Proof.Ref.refTerm_eq _ _ (hpre c)

end Cert.Proof.Claims

end
-- ==== Proof.lean ====
/-
  The certificate's proof: the programs' stated facts, then the five claims (proof/Proof/Claims/Kernel.lean and
  proof/Proof/Claims/RefFrame.lean).
-/
import proofs.«203338_g27195732918861_cont_9to1_1050_16_alg».proof.Defs
import proofs.«203338_g27195732918861_cont_9to1_1050_16_alg».proof.Proof.Gen.Kernel
import proofs.«203338_g27195732918861_cont_9to1_1050_16_alg».proof.Proof.Gen.KernelIdeal
import proofs.«203338_g27195732918861_cont_9to1_1050_16_alg».proof.Proof.Gen.ReferenceIdeal
import proofs.«203338_g27195732918861_cont_9to1_1050_16_alg».proof.Proof.Gen.Pre_input_domain
import proofs.«203338_g27195732918861_cont_9to1_1050_16_alg».proof.Proof.Claims.Kernel
import proofs.«203338_g27195732918861_cont_9to1_1050_16_alg».proof.Proof.Claims.RefFrame

noncomputable section

namespace Cert.Proof

theorem claim : Cert.Claim :=
  ⟨Cert.Kernel.Gen.facts, Cert.KernelIdeal.Gen.facts, Cert.ReferenceIdeal.Gen.facts, Cert.Pre_input_domain.Gen.facts,
    Cert.Proof.Claims.frame_Kernel, Cert.Proof.Claims.frame_KernelIdeal, Cert.Proof.frame_ReferenceIdeal',
    Cert.Proof.Claims.preserves, Cert.Proof.Claims.algebraic⟩

end Cert.Proof

end
